-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x256 : Shape := ⟨4, ![4, 64, 64, 256]⟩
abbrev S4x32x32x512 : Shape := ⟨4, ![4, 32, 32, 512]⟩
abbrev S4x16x16x512 : Shape := ⟨4, ![4, 16, 16, 512]⟩
abbrev S_ : Shape := ⟨0, ![]⟩

class Facts : Prop where
  bcast_S_S4x64x64x256 : S_.BroadcastsInDim S4x64x64x256 (![] : Fin 0 → Fin S4x64x64x256.rank)
  reducesTo_S4x64x64x256_S_d0_1_2_3 : S4x64x64x256.ReducesTo [0, 1, 2, 3] S_
  h_S_ : 0 < S_.numel
  bcast_S_S4x32x32x512 : S_.BroadcastsInDim S4x32x32x512 (![] : Fin 0 → Fin S4x32x32x512.rank)
  reducesTo_S4x32x32x512_S_d0_1_2_3 : S4x32x32x512.ReducesTo [0, 1, 2, 3] S_
  bcast_S_S4x16x16x512 : S_.BroadcastsInDim S4x16x16x512 (![] : Fin 0 → Fin S4x16x16x512.rank)
  reducesTo_S4x16x16x512_S_d0_1_2_3 : S4x16x16x512.ReducesTo [0, 1, 2, 3] S_

variable [Facts]

def fn_part2 {F : FTy → Type} [FloatOps F] (main_arg7 : FVec F S4x32x32x512 .f32) (main_arg8 : FVec F S4x16x16x512 .f32) (main_v33 : IVec S_ 1) : IVec S_ 1 :=
  let main_v34 : FVec F S4x32x32x512 .f32 := Host.absf main_arg7
  let main_cst_12 : FVec F S_ .f32 := constant S_ .f32 0x7F800000#32
  let main_v35 : FVec F S4x32x32x512 .f32 := broadcastInDim S4x32x32x512 ![] bcast_S_S4x32x32x512 main_cst_12
  let main_v36 : IVec S4x32x32x512 1 := cmpf .olt main_v34 main_v35
  let main_c_13 : IVec S_ 1 := constantI S_ 1 1#1
  let main_v37 : IVec S_ 1 := (fun x v => Host.reduce IntOp.andi x v reducesTo_S4x32x32x512_S_d0_1_2_3 h_S_) main_v36 main_c_13
  let main_v38 : IVec S_ 1 := andi main_v33 main_v37
  let main_v39 : FVec F S4x16x16x512 .f32 := Host.absf main_arg8
  let main_cst_14 : FVec F S_ .f32 := constant S_ .f32 0x7F800000#32
  let main_v40 : FVec F S4x16x16x512 .f32 := broadcastInDim S4x16x16x512 ![] bcast_S_S4x16x16x512 main_cst_14
  let main_v41 : IVec S4x16x16x512 1 := cmpf .olt main_v39 main_v40
  let main_c_15 : IVec S_ 1 := constantI S_ 1 1#1
  let main_v42 : IVec S_ 1 := (fun x v => Host.reduce IntOp.andi x v reducesTo_S4x16x16x512_S_d0_1_2_3 h_S_) main_v41 main_c_15
  let main_v43 : IVec S_ 1 := andi main_v38 main_v42
  main_v43

def fn_part1 {F : FTy → Type} [FloatOps F] (main_arg4 : FVec F S4x32x32x512 .f32) (main_arg5 : FVec F S4x16x16x512 .f32) (main_arg6 : FVec F S4x64x64x256 .f32) (main_arg7 : FVec F S4x32x32x512 .f32) (main_arg8 : FVec F S4x16x16x512 .f32) (main_v13 : IVec S_ 1) (main_v16 : IVec S4x64x64x256 1) : IVec S_ 1 :=
  let main_c_5 : IVec S_ 1 := constantI S_ 1 1#1
  let main_v17 : IVec S_ 1 := (fun x v => Host.reduce IntOp.andi x v reducesTo_S4x64x64x256_S_d0_1_2_3 h_S_) main_v16 main_c_5
  let main_v18 : IVec S_ 1 := andi main_v13 main_v17
  let main_v19 : FVec F S4x32x32x512 .f32 := Host.absf main_arg4
  let main_cst_6 : FVec F S_ .f32 := constant S_ .f32 0x7F800000#32
  let main_v20 : FVec F S4x32x32x512 .f32 := broadcastInDim S4x32x32x512 ![] bcast_S_S4x32x32x512 main_cst_6
  let main_v21 : IVec S4x32x32x512 1 := cmpf .olt main_v19 main_v20
  let main_c_7 : IVec S_ 1 := constantI S_ 1 1#1
  let main_v22 : IVec S_ 1 := (fun x v => Host.reduce IntOp.andi x v reducesTo_S4x32x32x512_S_d0_1_2_3 h_S_) main_v21 main_c_7
  let main_v23 : IVec S_ 1 := andi main_v18 main_v22
  let main_v24 : FVec F S4x16x16x512 .f32 := Host.absf main_arg5
  let main_cst_8 : FVec F S_ .f32 := constant S_ .f32 0x7F800000#32
  let main_v25 : FVec F S4x16x16x512 .f32 := broadcastInDim S4x16x16x512 ![] bcast_S_S4x16x16x512 main_cst_8
  let main_v26 : IVec S4x16x16x512 1 := cmpf .olt main_v24 main_v25
  let main_c_9 : IVec S_ 1 := constantI S_ 1 1#1
  let main_v27 : IVec S_ 1 := (fun x v => Host.reduce IntOp.andi x v reducesTo_S4x16x16x512_S_d0_1_2_3 h_S_) main_v26 main_c_9
  let main_v28 : IVec S_ 1 := andi main_v23 main_v27
  let main_v29 : FVec F S4x64x64x256 .f32 := Host.absf main_arg6
  let main_cst_10 : FVec F S_ .f32 := constant S_ .f32 0x7F800000#32
  let main_v30 : FVec F S4x64x64x256 .f32 := broadcastInDim S4x64x64x256 ![] bcast_S_S4x64x64x256 main_cst_10
  let main_v31 : IVec S4x64x64x256 1 := cmpf .olt main_v29 main_v30
  let main_c_11 : IVec S_ 1 := constantI S_ 1 1#1
  let main_v32 : IVec S_ 1 := (fun x v => Host.reduce IntOp.andi x v reducesTo_S4x64x64x256_S_d0_1_2_3 h_S_) main_v31 main_c_11
  let main_v33 : IVec S_ 1 := andi main_v28 main_v32
  fn_part2 (F := F) main_arg7 main_arg8 main_v33

def fn {F : FTy → Type} [FloatOps F] (main_arg0 : FVec F S4x64x64x256 .f32) (main_arg1 : FVec F S4x32x32x512 .f32) (main_arg2 : FVec F S4x16x16x512 .f32) (main_arg3 : FVec F S4x64x64x256 .f32) (main_arg4 : FVec F S4x32x32x512 .f32) (main_arg5 : FVec F S4x16x16x512 .f32) (main_arg6 : FVec F S4x64x64x256 .f32) (main_arg7 : FVec F S4x32x32x512 .f32) (main_arg8 : FVec F S4x16x16x512 .f32) : IVec S_ 1 :=
  let main_v0 : FVec F S4x64x64x256 .f32 := Host.absf main_arg0
  let main_cst : FVec F S_ .f32 := constant S_ .f32 0x7F800000#32
  let main_v1 : FVec F S4x64x64x256 .f32 := broadcastInDim S4x64x64x256 ![] bcast_S_S4x64x64x256 main_cst
  let main_v2 : IVec S4x64x64x256 1 := cmpf .olt main_v0 main_v1
  let main_c : IVec S_ 1 := constantI S_ 1 1#1
  let main_v3 : IVec S_ 1 := (fun x v => Host.reduce IntOp.andi x v reducesTo_S4x64x64x256_S_d0_1_2_3 h_S_) main_v2 main_c
  let main_v4 : FVec F S4x32x32x512 .f32 := Host.absf main_arg1
  let main_cst_0 : FVec F S_ .f32 := constant S_ .f32 0x7F800000#32
  let main_v5 : FVec F S4x32x32x512 .f32 := broadcastInDim S4x32x32x512 ![] bcast_S_S4x32x32x512 main_cst_0
  let main_v6 : IVec S4x32x32x512 1 := cmpf .olt main_v4 main_v5
  let main_c_1 : IVec S_ 1 := constantI S_ 1 1#1
  let main_v7 : IVec S_ 1 := (fun x v => Host.reduce IntOp.andi x v reducesTo_S4x32x32x512_S_d0_1_2_3 h_S_) main_v6 main_c_1
  let main_v8 : IVec S_ 1 := andi main_v3 main_v7
  let main_v9 : FVec F S4x16x16x512 .f32 := Host.absf main_arg2
  let main_cst_2 : FVec F S_ .f32 := constant S_ .f32 0x7F800000#32
  let main_v10 : FVec F S4x16x16x512 .f32 := broadcastInDim S4x16x16x512 ![] bcast_S_S4x16x16x512 main_cst_2
  let main_v11 : IVec S4x16x16x512 1 := cmpf .olt main_v9 main_v10
  let main_c_3 : IVec S_ 1 := constantI S_ 1 1#1
  let main_v12 : IVec S_ 1 := (fun x v => Host.reduce IntOp.andi x v reducesTo_S4x16x16x512_S_d0_1_2_3 h_S_) main_v11 main_c_3
  let main_v13 : IVec S_ 1 := andi main_v8 main_v12
  let main_v14 : FVec F S4x64x64x256 .f32 := Host.absf main_arg3
  let main_cst_4 : FVec F S_ .f32 := constant S_ .f32 0x7F800000#32
  let main_v15 : FVec F S4x64x64x256 .f32 := broadcastInDim S4x64x64x256 ![] bcast_S_S4x64x64x256 main_cst_4
  let main_v16 : IVec S4x64x64x256 1 := cmpf .olt main_v14 main_v15
  fn_part1 (F := F) main_arg4 main_arg5 main_arg6 main_arg7 main_arg8 main_v13 main_v16
-- ==== Kernel.lean ====
abbrev S4x64x64x256 : Shape := ⟨4, ![4, 64, 64, 256]⟩
abbrev S4x32x32x512 : Shape := ⟨4, ![4, 32, 32, 512]⟩
abbrev S4x16x16x512 : Shape := ⟨4, ![4, 16, 16, 512]⟩
abbrev S_ : Shape := ⟨0, ![]⟩
abbrev S4x256 : Shape := ⟨2, ![4, 256]⟩
abbrev S4x1x1x256 : Shape := ⟨4, ![4, 1, 1, 256]⟩
abbrev S4x1x256 : Shape := ⟨3, ![4, 1, 256]⟩
abbrev S4x4096x256 : Shape := ⟨3, ![4, 4096, 256]⟩
abbrev S2x8x8x128 : Shape := ⟨4, ![2, 8, 8, 128]⟩
abbrev S2x512x256 : Shape := ⟨3, ![2, 512, 256]⟩
abbrev S2x1024x256 : Shape := ⟨3, ![2, 1024, 256]⟩
abbrev S2x1x256 : Shape := ⟨3, ![2, 1, 256]⟩
abbrev S1x1x8x128 : Shape := ⟨4, ![1, 1, 8, 128]⟩
abbrev S2x512x1 : Shape := ⟨3, ![2, 512, 1]⟩
abbrev S2x512 : Shape := ⟨2, ![2, 512]⟩
abbrev S2x1024 : Shape := ⟨2, ![2, 1024]⟩
abbrev S2x1024x1 : Shape := ⟨3, ![2, 1024, 1]⟩
abbrev S2x512x1024 : Shape := ⟨3, ![2, 512, 1024]⟩
abbrev S1x2x512x256 : Shape := ⟨4, ![1, 2, 512, 256]⟩
abbrev S1 : Shape := ⟨1, ![1]⟩
abbrev S1x1x1x1 : Shape := ⟨4, ![1, 1, 1, 1]⟩
abbrev S4x512 : Shape := ⟨2, ![4, 512]⟩
abbrev S4x1x1x512 : Shape := ⟨4, ![4, 1, 1, 512]⟩
abbrev S4x1x512 : Shape := ⟨3, ![4, 1, 512]⟩
abbrev S4x1024x512 : Shape := ⟨3, ![4, 1024, 512]⟩
abbrev S2x2x8x128 : Shape := ⟨4, ![2, 2, 8, 128]⟩
abbrev S2x512x512 : Shape := ⟨3, ![2, 512, 512]⟩
abbrev S2x1x512 : Shape := ⟨3, ![2, 1, 512]⟩
abbrev S1x2x512x512 : Shape := ⟨4, ![1, 2, 512, 512]⟩
abbrev S4x256x512 : Shape := ⟨3, ![4, 256, 512]⟩
abbrev S2x1x8x128 : Shape := ⟨4, ![2, 1, 8, 128]⟩
abbrev S2x256x512 : Shape := ⟨3, ![2, 256, 512]⟩
abbrev S2x256x1 : Shape := ⟨3, ![2, 256, 1]⟩
abbrev S2x256 : Shape := ⟨2, ![2, 256]⟩
abbrev S2x256x256 : Shape := ⟨3, ![2, 256, 256]⟩
abbrev S1x2x256x512 : Shape := ⟨4, ![1, 2, 256, 512]⟩

abbrev nBuf : Space → Nat
  | .hbm => 275
  | .vmem => 63
  | .smem => 0
  | _ => 0

abbrev hbmTy0_0 (i : Nat) : BufTy := match i % 128 with
  | 0 => ⟨S4x64x64x256, .f32⟩
  | 1 => ⟨S4x32x32x512, .f32⟩
  | 2 => ⟨S4x16x16x512, .f32⟩
  | 3 => ⟨S4x64x64x256, .f32⟩
  | 4 => ⟨S4x32x32x512, .f32⟩
  | 5 => ⟨S4x16x16x512, .f32⟩
  | 6 => ⟨S4x64x64x256, .f32⟩
  | 7 => ⟨S4x32x32x512, .f32⟩
  | 8 => ⟨S4x16x16x512, .f32⟩
  | 9 => ⟨S_, .f32⟩
  | 10 => ⟨S4x256, .f32⟩
  | 11 => ⟨S4x1x1x256, .f32⟩
  | 12 => ⟨S_, .f32⟩
  | 13 => ⟨S4x1x1x256, .f32⟩
  | 14 => ⟨S4x1x1x256, .f32⟩
  | 15 => ⟨S_, .i32⟩
  | 16 => ⟨S_, .f32⟩
  | 17 => ⟨S4x256, .f32⟩
  | 18 => ⟨S4x1x1x256, .f32⟩
  | 19 => ⟨S_, .f32⟩
  | 20 => ⟨S4x1x1x256, .f32⟩
  | 21 => ⟨S4x1x1x256, .f32⟩
  | 22 => ⟨S4x64x64x256, .f32⟩
  | 23 => ⟨S4x64x64x256, .f32⟩
  | 24 => ⟨S4x64x64x256, .f32⟩
  | 25 => ⟨S_, .f32⟩
  | 26 => ⟨S_, .f32⟩
  | 27 => ⟨S_, .f32⟩
  | 28 => ⟨S_, .f32⟩
  | 29 => ⟨S4x256, .f32⟩
  | 30 => ⟨S4x1x1x256, .f32⟩
  | 31 => ⟨S4x1x1x256, .f32⟩
  | 32 => ⟨S4x1x1x256, .f32⟩
  | 33 => ⟨S_, .f32⟩
  | 34 => ⟨S_, .i1⟩
  | 35 => ⟨S_, .f32⟩
  | 36 => ⟨S_, .f32⟩
  | 37 => ⟨S4x1x1x256, .f32⟩
  | 38 => ⟨S4x1x1x256, .f32⟩
  | 39 => ⟨S_, .f32⟩
  | 40 => ⟨S4x1x1x256, .f32⟩
  | 41 => ⟨S4x1x1x256, .f32⟩
  | 42 => ⟨S4x1x1x256, .f32⟩
  | 43 => ⟨S_, .f32⟩
  | 44 => ⟨S4x1x1x256, .f32⟩
  | 45 => ⟨S4x1x1x256, .f32⟩
  | 46 => ⟨S_, .f32⟩
  | 47 => ⟨S4x256, .f32⟩
  | 48 => ⟨S4x1x1x256, .f32⟩
  | 49 => ⟨S_, .f32⟩
  | 50 => ⟨S4x1x1x256, .f32⟩
  | 51 => ⟨S4x1x1x256, .f32⟩
  | 52 => ⟨S_, .i32⟩
  | 53 => ⟨S_, .f32⟩
  | 54 => ⟨S4x256, .f32⟩
  | 55 => ⟨S4x1x1x256, .f32⟩
  | 56 => ⟨S_, .f32⟩
  | 57 => ⟨S4x1x1x256, .f32⟩
  | 58 => ⟨S4x1x1x256, .f32⟩
  | 59 => ⟨S4x64x64x256, .f32⟩
  | 60 => ⟨S4x64x64x256, .f32⟩
  | 61 => ⟨S4x64x64x256, .f32⟩
  | 62 => ⟨S_, .f32⟩
  | 63 => ⟨S_, .f32⟩
  | 64 => ⟨S_, .f32⟩
  | 65 => ⟨S_, .f32⟩
  | 66 => ⟨S4x256, .f32⟩
  | 67 => ⟨S4x1x1x256, .f32⟩
  | 68 => ⟨S4x1x1x256, .f32⟩
  | 69 => ⟨S4x1x1x256, .f32⟩
  | 70 => ⟨S_, .f32⟩
  | 71 => ⟨S_, .i1⟩
  | 72 => ⟨S_, .f32⟩
  | 73 => ⟨S_, .f32⟩
  | 74 => ⟨S4x1x1x256, .f32⟩
  | 75 => ⟨S4x1x1x256, .f32⟩
  | 76 => ⟨S_, .f32⟩
  | 77 => ⟨S4x1x1x256, .f32⟩
  | 78 => ⟨S4x1x1x256, .f32⟩
  | 79 => ⟨S4x1x1x256, .f32⟩
  | 80 => ⟨S_, .f32⟩
  | 81 => ⟨S4x1x1x256, .f32⟩
  | 82 => ⟨S4x1x1x256, .f32⟩
  | 83 => ⟨S4x1x256, .f32⟩
  | 84 => ⟨S4x1x256, .f32⟩
  | 85 => ⟨S4x1x256, .f32⟩
  | 86 => ⟨S4x1x256, .f32⟩
  | 87 => ⟨S4x4096x256, .f32⟩
  | 88 => ⟨S4x4096x256, .f32⟩
  | 89 => ⟨S4x4096x256, .f32⟩
  | 90 => ⟨S2x8x8x128, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S4x512, .f32⟩
  | 99 => ⟨S4x1x1x512, .f32⟩
  | 100 => ⟨S_, .f32⟩
  | 101 => ⟨S4x1x1x512, .f32⟩
  | 102 => ⟨S4x1x1x512, .f32⟩
  | 103 => ⟨S_, .i32⟩
  | 104 => ⟨S_, .f32⟩
  | 105 => ⟨S4x512, .f32⟩
  | 106 => ⟨S4x1x1x512, .f32⟩
  | 107 => ⟨S_, .f32⟩
  | 108 => ⟨S4x1x1x512, .f32⟩
  | 109 => ⟨S4x1x1x512, .f32⟩
  | 110 => ⟨S4x32x32x512, .f32⟩
  | 111 => ⟨S4x32x32x512, .f32⟩
  | 112 => ⟨S4x32x32x512, .f32⟩
  | 113 => ⟨S_, .f32⟩
  | 114 => ⟨S_, .f32⟩
  | 115 => ⟨S_, .f32⟩
  | 116 => ⟨S_, .f32⟩
  | 117 => ⟨S4x512, .f32⟩
  | 118 => ⟨S4x1x1x512, .f32⟩
  | 119 => ⟨S4x1x1x512, .f32⟩
  | 120 => ⟨S4x1x1x512, .f32⟩
  | 121 => ⟨S_, .f32⟩
  | 122 => ⟨S_, .i1⟩
  | 123 => ⟨S_, .f32⟩
  | 124 => ⟨S_, .f32⟩
  | 125 => ⟨S4x1x1x512, .f32⟩
  | 126 => ⟨S4x1x1x512, .f32⟩
  | 127 => ⟨S_, .f32⟩
  | _ => ⟨S4x64x64x256, .f32⟩

abbrev hbmTy0_1 (i : Nat) : BufTy := match i % 128 with
  | 0 => ⟨S4x1x1x512, .f32⟩
  | 1 => ⟨S4x1x1x512, .f32⟩
  | 2 => ⟨S4x1x1x512, .f32⟩
  | 3 => ⟨S_, .f32⟩
  | 4 => ⟨S4x1x1x512, .f32⟩
  | 5 => ⟨S4x1x1x512, .f32⟩
  | 6 => ⟨S_, .f32⟩
  | 7 => ⟨S4x512, .f32⟩
  | 8 => ⟨S4x1x1x512, .f32⟩
  | 9 => ⟨S_, .f32⟩
  | 10 => ⟨S4x1x1x512, .f32⟩
  | 11 => ⟨S4x1x1x512, .f32⟩
  | 12 => ⟨S_, .i32⟩
  | 13 => ⟨S_, .f32⟩
  | 14 => ⟨S4x512, .f32⟩
  | 15 => ⟨S4x1x1x512, .f32⟩
  | 16 => ⟨S_, .f32⟩
  | 17 => ⟨S4x1x1x512, .f32⟩
  | 18 => ⟨S4x1x1x512, .f32⟩
  | 19 => ⟨S4x32x32x512, .f32⟩
  | 20 => ⟨S4x32x32x512, .f32⟩
  | 21 => ⟨S4x32x32x512, .f32⟩
  | 22 => ⟨S_, .f32⟩
  | 23 => ⟨S_, .f32⟩
  | 24 => ⟨S_, .f32⟩
  | 25 => ⟨S_, .f32⟩
  | 26 => ⟨S4x512, .f32⟩
  | 27 => ⟨S4x1x1x512, .f32⟩
  | 28 => ⟨S4x1x1x512, .f32⟩
  | 29 => ⟨S4x1x1x512, .f32⟩
  | 30 => ⟨S_, .f32⟩
  | 31 => ⟨S_, .i1⟩
  | 32 => ⟨S_, .f32⟩
  | 33 => ⟨S_, .f32⟩
  | 34 => ⟨S4x1x1x512, .f32⟩
  | 35 => ⟨S4x1x1x512, .f32⟩
  | 36 => ⟨S_, .f32⟩
  | 37 => ⟨S4x1x1x512, .f32⟩
  | 38 => ⟨S4x1x1x512, .f32⟩
  | 39 => ⟨S4x1x1x512, .f32⟩
  | 40 => ⟨S_, .f32⟩
  | 41 => ⟨S4x1x1x512, .f32⟩
  | 42 => ⟨S4x1x1x512, .f32⟩
  | 43 => ⟨S4x1x512, .f32⟩
  | 44 => ⟨S4x1x512, .f32⟩
  | 45 => ⟨S4x1x512, .f32⟩
  | 46 => ⟨S4x1x512, .f32⟩
  | 47 => ⟨S4x1024x512, .f32⟩
  | 48 => ⟨S4x1024x512, .f32⟩
  | 49 => ⟨S4x1024x512, .f32⟩
  | 50 => ⟨S2x2x8x128, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S4x512, .f32⟩
  | 59 => ⟨S4x1x1x512, .f32⟩
  | 60 => ⟨S_, .f32⟩
  | 61 => ⟨S4x1x1x512, .f32⟩
  | 62 => ⟨S4x1x1x512, .f32⟩
  | 63 => ⟨S_, .i32⟩
  | 64 => ⟨S_, .f32⟩
  | 65 => ⟨S4x512, .f32⟩
  | 66 => ⟨S4x1x1x512, .f32⟩
  | 67 => ⟨S_, .f32⟩
  | 68 => ⟨S4x1x1x512, .f32⟩
  | 69 => ⟨S4x1x1x512, .f32⟩
  | 70 => ⟨S4x16x16x512, .f32⟩
  | 71 => ⟨S4x16x16x512, .f32⟩
  | 72 => ⟨S4x16x16x512, .f32⟩
  | 73 => ⟨S_, .f32⟩
  | 74 => ⟨S_, .f32⟩
  | 75 => ⟨S_, .f32⟩
  | 76 => ⟨S_, .f32⟩
  | 77 => ⟨S4x512, .f32⟩
  | 78 => ⟨S4x1x1x512, .f32⟩
  | 79 => ⟨S4x1x1x512, .f32⟩
  | 80 => ⟨S4x1x1x512, .f32⟩
  | 81 => ⟨S_, .f32⟩
  | 82 => ⟨S_, .i1⟩
  | 83 => ⟨S_, .f32⟩
  | 84 => ⟨S_, .f32⟩
  | 85 => ⟨S4x1x1x512, .f32⟩
  | 86 => ⟨S4x1x1x512, .f32⟩
  | 87 => ⟨S_, .f32⟩
  | 88 => ⟨S4x1x1x512, .f32⟩
  | 89 => ⟨S4x1x1x512, .f32⟩
  | 90 => ⟨S4x1x1x512, .f32⟩
  | 91 => ⟨S_, .f32⟩
  | 92 => ⟨S4x1x1x512, .f32⟩
  | 93 => ⟨S4x1x1x512, .f32⟩
  | 94 => ⟨S_, .f32⟩
  | 95 => ⟨S4x512, .f32⟩
  | 96 => ⟨S4x1x1x512, .f32⟩
  | 97 => ⟨S_, .f32⟩
  | 98 => ⟨S4x1x1x512, .f32⟩
  | 99 => ⟨S4x1x1x512, .f32⟩
  | 100 => ⟨S_, .i32⟩
  | 101 => ⟨S_, .f32⟩
  | 102 => ⟨S4x512, .f32⟩
  | 103 => ⟨S4x1x1x512, .f32⟩
  | 104 => ⟨S_, .f32⟩
  | 105 => ⟨S4x1x1x512, .f32⟩
  | 106 => ⟨S4x1x1x512, .f32⟩
  | 107 => ⟨S4x16x16x512, .f32⟩
  | 108 => ⟨S4x16x16x512, .f32⟩
  | 109 => ⟨S4x16x16x512, .f32⟩
  | 110 => ⟨S_, .f32⟩
  | 111 => ⟨S_, .f32⟩
  | 112 => ⟨S_, .f32⟩
  | 113 => ⟨S_, .f32⟩
  | 114 => ⟨S4x512, .f32⟩
  | 115 => ⟨S4x1x1x512, .f32⟩
  | 116 => ⟨S4x1x1x512, .f32⟩
  | 117 => ⟨S4x1x1x512, .f32⟩
  | 118 => ⟨S_, .f32⟩
  | 119 => ⟨S_, .i1⟩
  | 120 => ⟨S_, .f32⟩
  | 121 => ⟨S_, .f32⟩
  | 122 => ⟨S4x1x1x512, .f32⟩
  | 123 => ⟨S4x1x1x512, .f32⟩
  | 124 => ⟨S_, .f32⟩
  | 125 => ⟨S4x1x1x512, .f32⟩
  | 126 => ⟨S4x1x1x512, .f32⟩
  | 127 => ⟨S4x1x1x512, .f32⟩
  | _ => ⟨S4x64x64x256, .f32⟩

abbrev hbmTy0_2 (i : Nat) : BufTy := match i % 128 with
  | 0 => ⟨S_, .f32⟩
  | 1 => ⟨S4x1x1x512, .f32⟩
  | 2 => ⟨S4x1x1x512, .f32⟩
  | 3 => ⟨S4x1x512, .f32⟩
  | 4 => ⟨S4x1x512, .f32⟩
  | 5 => ⟨S4x1x512, .f32⟩
  | 6 => ⟨S4x1x512, .f32⟩
  | 7 => ⟨S4x256x512, .f32⟩
  | 8 => ⟨S4x256x512, .f32⟩
  | 9 => ⟨S4x256x512, .f32⟩
  | 10 => ⟨S2x1x8x128, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | _ => ⟨S4x64x64x256, .f32⟩

abbrev hbmTy (i : Nat) : BufTy := match i / 128 with
  | 0 => hbmTy0_0 i
  | 1 => hbmTy0_1 i
  | 2 => hbmTy0_2 i
  | _ => ⟨S4x64x64x256, .f32⟩

abbrev bufTy : (tb : Table) → Fin (tcTables nBuf tb) → BufTy
  | .hbm, ⟨i, _⟩ => hbmTy i
  | .local _ .vmem, ⟨0, _⟩ => ⟨S2x512x256, .f32⟩
  | .local _ .vmem, ⟨1, _⟩ => ⟨S2x512x256, .f32⟩
  | .local _ .vmem, ⟨2, _⟩ => ⟨S2x1024x256, .f32⟩
  | .local _ .vmem, ⟨3, _⟩ => ⟨S2x1024x256, .f32⟩
  | .local _ .vmem, ⟨4, _⟩ => ⟨S2x512x256, .f32⟩
  | .local _ .vmem, ⟨5, _⟩ => ⟨S2x512x256, .f32⟩
  | .local _ .vmem, ⟨6, _⟩ => ⟨S2x1x256, .f32⟩
  | .local _ .vmem, ⟨7, _⟩ => ⟨S2x1x256, .f32⟩
  | .local _ .vmem, ⟨8, _⟩ => ⟨S2x1x256, .f32⟩
  | .local _ .vmem, ⟨9, _⟩ => ⟨S2x1x256, .f32⟩
  | .local _ .vmem, ⟨10, _⟩ => ⟨S2x1x256, .f32⟩
  | .local _ .vmem, ⟨11, _⟩ => ⟨S2x1x256, .f32⟩
  | .local _ .vmem, ⟨12, _⟩ => ⟨S2x1x256, .f32⟩
  | .local _ .vmem, ⟨13, _⟩ => ⟨S2x1x256, .f32⟩
  | .local _ .vmem, ⟨14, _⟩ => ⟨S1x1x8x128, .f32⟩
  | .local _ .vmem, ⟨15, _⟩ => ⟨S1x1x8x128, .f32⟩
  | .local _ .vmem, ⟨16, _⟩ => ⟨S2x512x1, .f32⟩
  | .local _ .vmem, ⟨17, _⟩ => ⟨S2x512x256, .f32⟩
  | .local _ .vmem, ⟨18, _⟩ => ⟨S2x512x256, .f32⟩
  | .local _ .vmem, ⟨19, _⟩ => ⟨S2x512x256, .f32⟩
  | .local _ .vmem, ⟨20, _⟩ => ⟨S2x512x256, .bf16⟩
  | .local _ .vmem, ⟨21, _⟩ => ⟨S2x512x512, .f32⟩
  | .local _ .vmem, ⟨22, _⟩ => ⟨S2x512x512, .f32⟩
  | .local _ .vmem, ⟨23, _⟩ => ⟨S2x512x512, .f32⟩
  | .local _ .vmem, ⟨24, _⟩ => ⟨S2x512x512, .f32⟩
  | .local _ .vmem, ⟨25, _⟩ => ⟨S2x512x512, .f32⟩
  | .local _ .vmem, ⟨26, _⟩ => ⟨S2x512x512, .f32⟩
  | .local _ .vmem, ⟨27, _⟩ => ⟨S2x1x512, .f32⟩
  | .local _ .vmem, ⟨28, _⟩ => ⟨S2x1x512, .f32⟩
  | .local _ .vmem, ⟨29, _⟩ => ⟨S2x1x512, .f32⟩
  | .local _ .vmem, ⟨30, _⟩ => ⟨S2x1x512, .f32⟩
  | .local _ .vmem, ⟨31, _⟩ => ⟨S2x1x512, .f32⟩
  | .local _ .vmem, ⟨32, _⟩ => ⟨S2x1x512, .f32⟩
  | .local _ .vmem, ⟨33, _⟩ => ⟨S2x1x512, .f32⟩
  | .local _ .vmem, ⟨34, _⟩ => ⟨S2x1x512, .f32⟩
  | .local _ .vmem, ⟨35, _⟩ => ⟨S1x1x8x128, .f32⟩
  | .local _ .vmem, ⟨36, _⟩ => ⟨S1x1x8x128, .f32⟩
  | .local _ .vmem, ⟨37, _⟩ => ⟨S2x512x1, .f32⟩
  | .local _ .vmem, ⟨38, _⟩ => ⟨S2x512x512, .f32⟩
  | .local _ .vmem, ⟨39, _⟩ => ⟨S2x512x512, .f32⟩
  | .local _ .vmem, ⟨40, _⟩ => ⟨S2x512x512, .f32⟩
  | .local _ .vmem, ⟨41, _⟩ => ⟨S2x512x512, .bf16⟩
  | .local _ .vmem, ⟨42, _⟩ => ⟨S2x256x512, .f32⟩
  | .local _ .vmem, ⟨43, _⟩ => ⟨S2x256x512, .f32⟩
  | .local _ .vmem, ⟨44, _⟩ => ⟨S2x256x512, .f32⟩
  | .local _ .vmem, ⟨45, _⟩ => ⟨S2x256x512, .f32⟩
  | .local _ .vmem, ⟨46, _⟩ => ⟨S2x256x512, .f32⟩
  | .local _ .vmem, ⟨47, _⟩ => ⟨S2x256x512, .f32⟩
  | .local _ .vmem, ⟨48, _⟩ => ⟨S2x1x512, .f32⟩
  | .local _ .vmem, ⟨49, _⟩ => ⟨S2x1x512, .f32⟩
  | .local _ .vmem, ⟨50, _⟩ => ⟨S2x1x512, .f32⟩
  | .local _ .vmem, ⟨51, _⟩ => ⟨S2x1x512, .f32⟩
  | .local _ .vmem, ⟨52, _⟩ => ⟨S2x1x512, .f32⟩
  | .local _ .vmem, ⟨53, _⟩ => ⟨S2x1x512, .f32⟩
  | .local _ .vmem, ⟨54, _⟩ => ⟨S2x1x512, .f32⟩
  | .local _ .vmem, ⟨55, _⟩ => ⟨S2x1x512, .f32⟩
  | .local _ .vmem, ⟨56, _⟩ => ⟨S1x1x8x128, .f32⟩
  | .local _ .vmem, ⟨57, _⟩ => ⟨S1x1x8x128, .f32⟩
  | .local _ .vmem, ⟨58, _⟩ => ⟨S2x256x1, .f32⟩
  | .local _ .vmem, ⟨59, _⟩ => ⟨S2x256x512, .f32⟩
  | .local _ .vmem, ⟨60, _⟩ => ⟨S2x256x512, .f32⟩
  | .local _ .vmem, ⟨61, _⟩ => ⟨S2x256x512, .f32⟩
  | .local _ .vmem, ⟨62, _⟩ => ⟨S2x256x512, .bf16⟩
  | _, _ => ⟨S4x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_cst_3 : Ref sig .tc := ⟨.hbm, 33, rfl⟩
abbrev main_call0_v13 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_cst_3 : Ref sig .tc := ⟨.hbm, 46, rfl⟩
abbrev main_v10 : Ref sig .tc := ⟨.hbm, 47, rfl⟩
abbrev main_v11 : Ref sig .tc := ⟨.hbm, 48, rfl⟩
abbrev main_cst_4 : Ref sig .tc := ⟨.hbm, 49, rfl⟩
abbrev main_v12 : Ref sig .tc := ⟨.hbm, 50, rfl⟩
abbrev main_v13 : Ref sig .tc := ⟨.hbm, 51, rfl⟩
abbrev main_c_5 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_cst_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_cst_1 : Ref sig .tc := ⟨.hbm, 63, rfl⟩
abbrev main_call1_v8 : Ref sig .tc := ⟨.hbm, 64, rfl⟩
abbrev main_call1_cst_2 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_cst_3 : Ref sig .tc := ⟨.hbm, 70, rfl⟩
abbrev main_call1_v13 : Ref sig .tc := ⟨.hbm, 71, rfl⟩
abbrev main_call1_cst_4 : Ref sig .tc := ⟨.hbm, 72, rfl⟩
abbrev main_call1_call0_v0 : Ref sig .tc := ⟨.hbm, 73, rfl⟩
abbrev main_call1_call0_v1 : Ref sig .tc := ⟨.hbm, 74, rfl⟩
abbrev main_v14 : Ref sig .tc := ⟨.hbm, 75, rfl⟩
abbrev main_cst_6 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_cst_7 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_cst_8 : Ref sig .tc := ⟨.hbm, 91, rfl⟩
abbrev main_v28 : Ref sig .tc := ⟨.hbm, 92, rfl⟩
abbrev main_cst_9 : Ref sig .tc := ⟨.hbm, 93, rfl⟩
abbrev main_v29 : Ref sig .tc := ⟨.hbm, 94, rfl⟩
abbrev main_cst_10 : Ref sig .tc := ⟨.hbm, 95, rfl⟩
abbrev main_v30 : Ref sig .tc := ⟨.hbm, 96, rfl⟩
abbrev main_cst_11 : Ref sig .tc := ⟨.hbm, 97, rfl⟩
abbrev main_v31 : Ref sig .tc := ⟨.hbm, 98, rfl⟩
abbrev main_v32 : Ref sig .tc := ⟨.hbm, 99, rfl⟩
abbrev main_cst_12 : Ref sig .tc := ⟨.hbm, 100, rfl⟩
abbrev main_v33 : Ref sig .tc := ⟨.hbm, 101, rfl⟩
abbrev main_v34 : Ref sig .tc := ⟨.hbm, 102, rfl⟩
abbrev main_c_13 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_cst_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_v7 : Ref sig .tc := ⟨.hbm, 113, rfl⟩
abbrev main_call2_cst_1 : Ref sig .tc := ⟨.hbm, 114, rfl⟩
abbrev main_call2_v8 : Ref sig .tc := ⟨.hbm, 115, rfl⟩
abbrev main_call2_cst_2 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_v12 : Ref sig .tc := ⟨.hbm, 120, rfl⟩
abbrev main_call2_cst_3 : Ref sig .tc := ⟨.hbm, 121, rfl⟩
abbrev main_call2_v13 : Ref sig .tc := ⟨.hbm, 122, rfl⟩
abbrev main_call2_cst_4 : Ref sig .tc := ⟨.hbm, 123, rfl⟩
abbrev main_call2_call0_v0 : Ref sig .tc := ⟨.hbm, 124, rfl⟩
abbrev main_call2_call0_v1 : Ref sig .tc := ⟨.hbm, 125, rfl⟩
abbrev main_v35 : Ref sig .tc := ⟨.hbm, 126, rfl⟩
abbrev main_cst_14 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_cst_15 : Ref sig .tc := ⟨.hbm, 131, rfl⟩
abbrev main_v39 : Ref sig .tc := ⟨.hbm, 132, rfl⟩
abbrev main_v40 : Ref sig .tc := ⟨.hbm, 133, rfl⟩
abbrev main_cst_16 : Ref sig .tc := ⟨.hbm, 134, rfl⟩
abbrev main_v41 : Ref sig .tc := ⟨.hbm, 135, rfl⟩
abbrev main_v42 : Ref sig .tc := ⟨.hbm, 136, rfl⟩
abbrev main_cst_17 : Ref sig .tc := ⟨.hbm, 137, rfl⟩
abbrev main_v43 : Ref sig .tc := ⟨.hbm, 138, rfl⟩
abbrev main_v44 : Ref sig .tc := ⟨.hbm, 139, rfl⟩
abbrev main_c_18 : Ref sig .tc := ⟨.hbm, 140, rfl⟩
abbrev main_call3_cst : Ref sig .tc := ⟨.hbm, 141, rfl⟩
abbrev main_call3_v0 : Ref sig .tc := ⟨.hbm, 142, rfl⟩
abbrev main_call3_v1 : Ref sig .tc := ⟨.hbm, 143, rfl⟩
abbrev main_call3_cst_0 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_v6 : Ref sig .tc := ⟨.hbm, 149, rfl⟩
abbrev main_call3_v7 : Ref sig .tc := ⟨.hbm, 150, rfl⟩
abbrev main_call3_cst_1 : Ref sig .tc := ⟨.hbm, 151, rfl⟩
abbrev main_call3_v8 : Ref sig .tc := ⟨.hbm, 152, rfl⟩
abbrev main_call3_cst_2 : Ref sig .tc := ⟨.hbm, 153, rfl⟩
abbrev main_call3_v9 : Ref sig .tc := ⟨.hbm, 154, rfl⟩
abbrev main_call3_v10 : Ref sig .tc := ⟨.hbm, 155, rfl⟩
abbrev main_call3_v11 : Ref sig .tc := ⟨.hbm, 156, rfl⟩
abbrev main_call3_v12 : Ref sig .tc := ⟨.hbm, 157, rfl⟩
abbrev main_call3_cst_3 : Ref sig .tc := ⟨.hbm, 158, rfl⟩
abbrev main_call3_v13 : Ref sig .tc := ⟨.hbm, 159, rfl⟩
abbrev main_call3_cst_4 : Ref sig .tc := ⟨.hbm, 160, rfl⟩
abbrev main_call3_call0_v0 : Ref sig .tc := ⟨.hbm, 161, rfl⟩
abbrev main_call3_call0_v1 : Ref sig .tc := ⟨.hbm, 162, rfl⟩
abbrev main_v45 : Ref sig .tc := ⟨.hbm, 163, rfl⟩
abbrev main_cst_19 : Ref sig .tc := ⟨.hbm, 164, rfl⟩
abbrev main_v46 : Ref sig .tc := ⟨.hbm, 165, rfl⟩
abbrev main_v47 : Ref sig .tc := ⟨.hbm, 166, rfl⟩
abbrev main_v48 : Ref sig .tc := ⟨.hbm, 167, rfl⟩
abbrev main_cst_20 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_cst_21 : Ref sig .tc := ⟨.hbm, 179, rfl⟩
abbrev main_v59 : Ref sig .tc := ⟨.hbm, 180, rfl⟩
abbrev main_cst_22 : Ref sig .tc := ⟨.hbm, 181, rfl⟩
abbrev main_v60 : Ref sig .tc := ⟨.hbm, 182, rfl⟩
abbrev main_cst_23 : Ref sig .tc := ⟨.hbm, 183, rfl⟩
abbrev main_v61 : Ref sig .tc := ⟨.hbm, 184, rfl⟩
abbrev main_cst_24 : Ref sig .tc := ⟨.hbm, 185, rfl⟩
abbrev main_v62 : Ref sig .tc := ⟨.hbm, 186, rfl⟩
abbrev main_v63 : Ref sig .tc := ⟨.hbm, 187, rfl⟩
abbrev main_cst_25 : Ref sig .tc := ⟨.hbm, 188, rfl⟩
abbrev main_v64 : Ref sig .tc := ⟨.hbm, 189, rfl⟩
abbrev main_v65 : Ref sig .tc := ⟨.hbm, 190, rfl⟩
abbrev main_c_26 : Ref sig .tc := ⟨.hbm, 191, rfl⟩
abbrev main_call4_cst : Ref sig .tc := ⟨.hbm, 192, rfl⟩
abbrev main_call4_v0 : Ref sig .tc := ⟨.hbm, 193, rfl⟩
abbrev main_call4_v1 : Ref sig .tc := ⟨.hbm, 194, rfl⟩
abbrev main_call4_cst_0 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_call4_v5 : Ref sig .tc := ⟨.hbm, 199, rfl⟩
abbrev main_call4_v6 : Ref sig .tc := ⟨.hbm, 200, rfl⟩
abbrev main_call4_v7 : Ref sig .tc := ⟨.hbm, 201, rfl⟩
abbrev main_call4_cst_1 : Ref sig .tc := ⟨.hbm, 202, rfl⟩
abbrev main_call4_v8 : Ref sig .tc := ⟨.hbm, 203, rfl⟩
abbrev main_call4_cst_2 : Ref sig .tc := ⟨.hbm, 204, rfl⟩
abbrev main_call4_v9 : Ref sig .tc := ⟨.hbm, 205, rfl⟩
abbrev main_call4_v10 : Ref sig .tc := ⟨.hbm, 206, rfl⟩
abbrev main_call4_v11 : Ref sig .tc := ⟨.hbm, 207, rfl⟩
abbrev main_call4_v12 : Ref sig .tc := ⟨.hbm, 208, rfl⟩
abbrev main_call4_cst_3 : Ref sig .tc := ⟨.hbm, 209, rfl⟩
abbrev main_call4_v13 : Ref sig .tc := ⟨.hbm, 210, rfl⟩
abbrev main_call4_cst_4 : Ref sig .tc := ⟨.hbm, 211, rfl⟩
abbrev main_call4_call0_v0 : Ref sig .tc := ⟨.hbm, 212, rfl⟩
abbrev main_call4_call0_v1 : Ref sig .tc := ⟨.hbm, 213, rfl⟩
abbrev main_v66 : Ref sig .tc := ⟨.hbm, 214, rfl⟩
abbrev main_cst_27 : Ref sig .tc := ⟨.hbm, 215, rfl⟩
abbrev main_v67 : Ref sig .tc := ⟨.hbm, 216, rfl⟩
abbrev main_v68 : Ref sig .tc := ⟨.hbm, 217, rfl⟩
abbrev main_v69 : Ref sig .tc := ⟨.hbm, 218, rfl⟩
abbrev main_cst_28 : Ref sig .tc := ⟨.hbm, 219, rfl⟩
abbrev main_v70 : Ref sig .tc := ⟨.hbm, 220, rfl⟩
abbrev main_v71 : Ref sig .tc := ⟨.hbm, 221, rfl⟩
abbrev main_cst_29 : Ref sig .tc := ⟨.hbm, 222, rfl⟩
abbrev main_v72 : Ref sig .tc := ⟨.hbm, 223, rfl⟩
abbrev main_v73 : Ref sig .tc := ⟨.hbm, 224, rfl⟩
abbrev main_cst_30 : Ref sig .tc := ⟨.hbm, 225, rfl⟩
abbrev main_v74 : Ref sig .tc := ⟨.hbm, 226, rfl⟩
abbrev main_v75 : Ref sig .tc := ⟨.hbm, 227, rfl⟩
abbrev main_c_31 : Ref sig .tc := ⟨.hbm, 228, rfl⟩
abbrev main_call5_cst : Ref sig .tc := ⟨.hbm, 229, rfl⟩
abbrev main_call5_v0 : Ref sig .tc := ⟨.hbm, 230, rfl⟩
abbrev main_call5_v1 : Ref sig .tc := ⟨.hbm, 231, rfl⟩
abbrev main_call5_cst_0 : Ref sig .tc := ⟨.hbm, 232, rfl⟩
abbrev main_call5_v2 : Ref sig .tc := ⟨.hbm, 233, rfl⟩
abbrev main_call5_v3 : Ref sig .tc := ⟨.hbm, 234, rfl⟩
abbrev main_call5_v4 : Ref sig .tc := ⟨.hbm, 235, rfl⟩
abbrev main_call5_v5 : Ref sig .tc := ⟨.hbm, 236, rfl⟩
abbrev main_call5_v6 : Ref sig .tc := ⟨.hbm, 237, rfl⟩
abbrev main_call5_v7 : Ref sig .tc := ⟨.hbm, 238, rfl⟩
abbrev main_call5_cst_1 : Ref sig .tc := ⟨.hbm, 239, rfl⟩
abbrev main_call5_v8 : Ref sig .tc := ⟨.hbm, 240, rfl⟩
abbrev main_call5_cst_2 : Ref sig .tc := ⟨.hbm, 241, rfl⟩
abbrev main_call5_v9 : Ref sig .tc := ⟨.hbm, 242, rfl⟩
abbrev main_call5_v10 : Ref sig .tc := ⟨.hbm, 243, rfl⟩
abbrev main_call5_v11 : Ref sig .tc := ⟨.hbm, 244, rfl⟩
abbrev main_call5_v12 : Ref sig .tc := ⟨.hbm, 245, rfl⟩
abbrev main_call5_cst_3 : Ref sig .tc := ⟨.hbm, 246, rfl⟩
abbrev main_call5_v13 : Ref sig .tc := ⟨.hbm, 247, rfl⟩
abbrev main_call5_cst_4 : Ref sig .tc := ⟨.hbm, 248, rfl⟩
abbrev main_call5_call0_v0 : Ref sig .tc := ⟨.hbm, 249, rfl⟩
abbrev main_call5_call0_v1 : Ref sig .tc := ⟨.hbm, 250, rfl⟩
abbrev main_v76 : Ref sig .tc := ⟨.hbm, 251, rfl⟩
abbrev main_cst_32 : Ref sig .tc := ⟨.hbm, 252, rfl⟩
abbrev main_v77 : Ref sig .tc := ⟨.hbm, 253, rfl⟩
abbrev main_v78 : Ref sig .tc := ⟨.hbm, 254, rfl⟩
abbrev main_v79 : Ref sig .tc := ⟨.hbm, 255, rfl⟩
abbrev main_cst_33 : Ref sig .tc := ⟨.hbm, 256, rfl⟩
abbrev main_v80 : Ref sig .tc := ⟨.hbm, 257, rfl⟩
abbrev main_v81 : Ref sig .tc := ⟨.hbm, 258, rfl⟩
abbrev main_v82 : Ref sig .tc := ⟨.hbm, 259, rfl⟩
abbrev main_v83 : Ref sig .tc := ⟨.hbm, 260, rfl⟩
abbrev main_v84 : Ref sig .tc := ⟨.hbm, 261, rfl⟩
abbrev main_v85 : Ref sig .tc := ⟨.hbm, 262, rfl⟩
abbrev main_v86 : Ref sig .tc := ⟨.hbm, 263, rfl⟩
abbrev main_v87 : Ref sig .tc := ⟨.hbm, 264, rfl⟩
abbrev main_v88 : Ref sig .tc := ⟨.hbm, 265, rfl⟩
abbrev main_v89 : Ref sig .tc := ⟨.hbm, 266, rfl⟩
abbrev main_cst_34 : Ref sig .tc := ⟨.hbm, 267, rfl⟩
abbrev main_v90 : Ref sig .tc := ⟨.hbm, 268, rfl⟩
abbrev main_cst_35 : Ref sig .tc := ⟨.hbm, 269, rfl⟩
abbrev main_v91 : Ref sig .tc := ⟨.hbm, 270, rfl⟩
abbrev main_cst_36 : Ref sig .tc := ⟨.hbm, 271, rfl⟩
abbrev main_v92 : Ref sig .tc := ⟨.hbm, 272, rfl⟩
abbrev main_v93 : Ref sig .tc := ⟨.hbm, 273, rfl⟩
abbrev main_v94 : Ref sig .tc := ⟨.hbm, 274, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg4_1 : Ref sig .tc := ⟨.vmem, 30, rfl⟩
abbrev cc1_stg5_0 : Ref sig .tc := ⟨.vmem, 31, rfl⟩
abbrev cc1_stg5_1 : Ref sig .tc := ⟨.vmem, 32, rfl⟩
abbrev cc1_stg6_0 : Ref sig .tc := ⟨.vmem, 33, rfl⟩
abbrev cc1_stg6_1 : Ref sig .tc := ⟨.vmem, 34, rfl⟩
abbrev cc1_stg7_0 : Ref sig .tc := ⟨.vmem, 35, rfl⟩
abbrev cc1_stg7_1 : Ref sig .tc := ⟨.vmem, 36, rfl⟩
abbrev cc1_scratch0 : Ref sig .tc := ⟨.vmem, 37, rfl⟩
abbrev cc1_scratch1 : Ref sig .tc := ⟨.vmem, 38, rfl⟩
abbrev cc1_scratch2 : Ref sig .tc := ⟨.vmem, 39, rfl⟩
abbrev cc1_scratch3 : Ref sig .tc := ⟨.vmem, 40, rfl⟩
abbrev cc1_scratch4 : Ref sig .tc := ⟨.vmem, 41, rfl⟩
abbrev cc2_stg0_0 : Ref sig .tc := ⟨.vmem, 42, rfl⟩
abbrev cc2_stg0_1 : Ref sig .tc := ⟨.vmem, 43, rfl⟩
abbrev cc2_stg1_0 : Ref sig .tc := ⟨.vmem, 44, rfl⟩
abbrev cc2_stg1_1 : Ref sig .tc := ⟨.vmem, 45, rfl⟩
abbrev cc2_stg2_0 : Ref sig .tc := ⟨.vmem, 46, rfl⟩
abbrev cc2_stg2_1 : Ref sig .tc := ⟨.vmem, 47, rfl⟩
abbrev cc2_stg3_0 : Ref sig .tc := ⟨.vmem, 48, rfl⟩
abbrev cc2_stg3_1 : Ref sig .tc := ⟨.vmem, 49, rfl⟩
abbrev cc2_stg4_0 : Ref sig .tc := ⟨.vmem, 50, rfl⟩
abbrev cc2_stg4_1 : Ref sig .tc := ⟨.vmem, 51, rfl⟩
abbrev cc2_stg5_0 : Ref sig .tc := ⟨.vmem, 52, rfl⟩
abbrev cc2_stg5_1 : Ref sig .tc := ⟨.vmem, 53, rfl⟩
abbrev cc2_stg6_0 : Ref sig .tc := ⟨.vmem, 54, rfl⟩
abbrev cc2_stg6_1 : Ref sig .tc := ⟨.vmem, 55, rfl⟩
abbrev cc2_stg7_0 : Ref sig .tc := ⟨.vmem, 56, rfl⟩
abbrev cc2_stg7_1 : Ref sig .tc := ⟨.vmem, 57, rfl⟩
abbrev cc2_scratch0 : Ref sig .tc := ⟨.vmem, 58, rfl⟩
abbrev cc2_scratch1 : Ref sig .tc := ⟨.vmem, 59, rfl⟩
abbrev cc2_scratch2 : Ref sig .tc := ⟨.vmem, 60, rfl⟩
abbrev cc2_scratch3 : Ref sig .tc := ⟨.vmem, 61, rfl⟩
abbrev cc2_scratch4 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v45 : BitVec 1 := Scalar.cmpi .eq arg2 c3_i32
  let v46 : BitVec 32 := Scalar.extui v45
  let c0_i32_35 : BitVec 32 := 0#32
  let v47 : BitVec 1 := Scalar.cmpi .ne v46 c0_i32_35
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S2x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![2, 2, 2], ![false, false, false]⟩

def k1_cond2 (i : grid1.Coords) : BitVec 1 :=
  let arg2 : BitVec 32 := BitVec.ofNat 32 (i 2).val
  let c1_i32 : BitVec 32 := 1#32
  let v45 : BitVec 1 := Scalar.cmpi .eq arg2 c1_i32
  let v46 : BitVec 32 := Scalar.extui v45
  let c0_i32_35 : BitVec 32 := 0#32
  let v47 : BitVec 1 := Scalar.cmpi .ne v46 c0_i32_35
  v47

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S2x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S2x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S2x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S2x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S2x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S2x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev stage1_7 : Fin 2 → Memref sig .tc .vmem S1x1x8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![2, 1, 1], ![false, false, false]⟩

def k2_cond2 (i : grid2.Coords) : BitVec 1 :=
  let arg2 : BitVec 32 := BitVec.ofNat 32 (i 2).val
  let c0_i32_35 : BitVec 32 := 0#32
  let v45 : BitVec 1 := Scalar.cmpi .eq arg2 c0_i32_35
  let v46 : BitVec 32 := Scalar.extui v45
  let c0_i32_36 : BitVec 32 := 0#32
  let v47 : BitVec 1 := Scalar.cmpi .ne v46 c0_i32_36
  v47

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S2x256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S2x256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S2x256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S2x1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, false]

abbrev stage2_5 : Fin 2 → Memref sig .tc .vmem S2x1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false, false]

abbrev stage2_6 : Fin 2 → Memref sig .tc .vmem S2x1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false, false]

abbrev stage2_7 : Fin 2 → Memref sig .tc .vmem S1x1x8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

class Facts₀ : Prop where
  reducesTo_S4x64x64x256_S4x256_d1_2 : S4x64x64x256.ReducesTo [1, 2] S4x256
  h_S_ : 0 < S_.numel
  bcast_S4x256_S4x1x1x256_0_3 : S4x256.BroadcastsInDim S4x1x1x256 (![0, 3] : Fin 2 → Fin S4x1x1x256.rank)
  bcast_S_S4x1x1x256 : S_.BroadcastsInDim S4x1x1x256 (![] : Fin 0 → Fin S4x1x1x256.rank)
  bcast_S4x1x1x256_S4x64x64x256_0_1_2_3 : S4x1x1x256.BroadcastsInDim S4x64x64x256 (![0, 1, 2, 3] : Fin 4 → Fin S4x64x64x256.rank)
  shapeCasts_S4x1x1x256_S4x1x256 : S4x1x1x256.ShapeCasts S4x1x256
  shapeCasts_S4x64x64x256_S4x4096x256 : S4x64x64x256.ShapeCasts S4x4096x256
  inb_S2x512x1_S2x512x1_0_0_0 : ∀ a, (![0, 0, 0] : Fin 3 → Nat) a + S2x512x1.size a ≤ S2x512x1.size a
  h_S2x512x1 : 0 < S2x512x1.numel
  shapeCasts_S2x512x1_S2x512x1 : S2x512x1.ShapeCasts S2x512x1
  inb_S2x512x256_S2x512x256_0_0_0 : ∀ a, (![0, 0, 0] : Fin 3 → Nat) a + S2x512x256.size a ≤ S2x512x256.size a
  h_S2x512x256 : 0 < S2x512x256.numel
  shapeCasts_S2x512x256_S2x512x256 : S2x512x256.ShapeCasts S2x512x256
  inb_S2x1x256_S2x1x256_0_0_0 : ∀ a, (![0, 0, 0] : Fin 3 → Nat) a + S2x1x256.size a ≤ S2x1x256.size a
  h_S2x1x256 : 0 < S2x1x256.numel
  shapeCasts_S2x1x256_S2x1x256 : S2x1x256.ShapeCasts S2x1x256
  broadcasts_S2x1x256_S2x512x256 : S2x1x256.Broadcasts S2x512x256
  reduces_S2x512x256_S2x512 : S2x512x256.Reduces [2] S2x512
  shapeCasts_S2x512_S2x512x1 : S2x512.ShapeCasts S2x512x1
  broadcasts_S2x512x1_S2x512x256 : S2x512x1.Broadcasts S2x512x256
  bitsLt_bf16_f32 : FTy.bits .bf16 < FTy.bits .f32
  packedbf16_S2x512x256_S2x512x256_0_0_0 : (Rect.unit (s := S2x512x256) ![0, 0, 0] S2x512x256.size inb_S2x512x256_S2x512x256_0_0_0).PackedRows (EltTy.packing .bf16)
  inb_S2x1024x256_S2x1024x256_0_0_0 : ∀ a, (![0, 0, 0] : Fin 3 → Nat) a + S2x1024x256.size a ≤ S2x1024x256.size a
  h_S2x1024x256 : 0 < S2x1024x256.numel
  shapeCasts_S2x1024x256_S2x1024x256 : S2x1024x256.ShapeCasts S2x1024x256
  broadcasts_S2x1x256_S2x1024x256 : S2x1x256.Broadcasts S2x1024x256
  reduces_S2x1024x256_S2x1024 : S2x1024x256.Reduces [2] S2x1024
  shapeCasts_S2x1024_S2x1024x1 : S2x1024.ShapeCasts S2x1024x1
  broadcasts_S2x1024x1_S2x1024x256 : S2x1024x1.Broadcasts S2x1024x256
  reduces_S2x512x1024_S2x512 : S2x512x1024.Reduces [2] S2x512
  shapeCasts_S2x512x256_S1x2x512x256 : S2x512x256.ShapeCasts S1x2x512x256
  reduces_S1x2x512x256_S1 : S1x2x512x256.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  inb_S1x1x8x128_S1x1x8x128_0_0_0_0 : ∀ a, (![0, 0, 0, 0] : Fin 4 → Nat) a + S1x1x8x128.size a ≤ S1x1x8x128.size a
  h_S1x1x8x128 : 0 < S1x1x8x128.numel
  reducesTo_S2x8x8x128_S_d0_1_2_3 : S2x8x8x128.ReducesTo [0, 1, 2, 3] S_
  reducesTo_S4x32x32x512_S4x512_d1_2 : S4x32x32x512.ReducesTo [1, 2] S4x512
  bcast_S4x512_S4x1x1x512_0_3 : S4x512.BroadcastsInDim S4x1x1x512 (![0, 3] : Fin 2 → Fin S4x1x1x512.rank)
  bcast_S_S4x1x1x512 : S_.BroadcastsInDim S4x1x1x512 (![] : Fin 0 → Fin S4x1x1x512.rank)
  bcast_S4x1x1x512_S4x32x32x512_0_1_2_3 : S4x1x1x512.BroadcastsInDim S4x32x32x512 (![0, 1, 2, 3] : Fin 4 → Fin S4x32x32x512.rank)
  shapeCasts_S4x1x1x512_S4x1x512 : S4x1x1x512.ShapeCasts S4x1x512
  shapeCasts_S4x32x32x512_S4x1024x512 : S4x32x32x512.ShapeCasts S4x1024x512
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  inb_S2x1x512_S2x1x512_0_0_0 : ∀ a, (![0, 0, 0] : Fin 3 → Nat) a + S2x1x512.size a ≤ S2x1x512.size a
  h_S2x1x512 : 0 < S2x1x512.numel
  shapeCasts_S2x1x512_S2x1x512 : S2x1x512.ShapeCasts S2x1x512
  broadcasts_S2x1x512_S2x512x512 : S2x1x512.Broadcasts S2x512x512
  reduces_S2x512x512_S2x512 : S2x512x512.Reduces [2] S2x512
  broadcasts_S2x512x1_S2x512x512 : S2x512x1.Broadcasts S2x512x512
  packedbf16_S2x512x512_S2x512x512_0_0_0 : (Rect.unit (s := S2x512x512) ![0, 0, 0] S2x512x512.size inb_S2x512x512_S2x512x512_0_0_0).PackedRows (EltTy.packing .bf16)
  shapeCasts_S2x512x512_S1x2x512x512 : S2x512x512.ShapeCasts S1x2x512x512
  reduces_S1x2x512x512_S1 : S1x2x512x512.Reduces [1, 2, 3] S1
  reducesTo_S2x2x8x128_S_d0_1_2_3 : S2x2x8x128.ReducesTo [0, 1, 2, 3] S_
  reducesTo_S4x16x16x512_S4x512_d1_2 : S4x16x16x512.ReducesTo [1, 2] S4x512
  bcast_S4x1x1x512_S4x16x16x512_0_1_2_3 : S4x1x1x512.BroadcastsInDim S4x16x16x512 (![0, 1, 2, 3] : Fin 4 → Fin S4x16x16x512.rank)
  shapeCasts_S4x16x16x512_S4x256x512 : S4x16x16x512.ShapeCasts S4x256x512
  inb_S2x256x1_S2x256x1_0_0_0 : ∀ a, (![0, 0, 0] : Fin 3 → Nat) a + S2x256x1.size a ≤ S2x256x1.size a
  h_S2x256x1 : 0 < S2x256x1.numel
  shapeCasts_S2x256x1_S2x256x1 : S2x256x1.ShapeCasts S2x256x1
  inb_S2x256x512_S2x256x512_0_0_0 : ∀ a, (![0, 0, 0] : Fin 3 → Nat) a + S2x256x512.size a ≤ S2x256x512.size a
  h_S2x256x512 : 0 < S2x256x512.numel
  shapeCasts_S2x256x512_S2x256x512 : S2x256x512.ShapeCasts S2x256x512
  broadcasts_S2x1x512_S2x256x512 : S2x1x512.Broadcasts S2x256x512
  reduces_S2x256x512_S2x256 : S2x256x512.Reduces [2] S2x256
  shapeCasts_S2x256_S2x256x1 : S2x256.ShapeCasts S2x256x1
  broadcasts_S2x256x1_S2x256x512 : S2x256x1.Broadcasts S2x256x512
  packedbf16_S2x256x512_S2x256x512_0_0_0 : (Rect.unit (s := S2x256x512) ![0, 0, 0] S2x256x512.size inb_S2x256x512_S2x256x512_0_0_0).PackedRows (EltTy.packing .bf16)
  reduces_S2x256x256_S2x256 : S2x256x256.Reduces [2] S2x256
  shapeCasts_S2x256x512_S1x2x256x512 : S2x256x512.ShapeCasts S1x2x256x512
  reduces_S1x2x256x512_S1 : S1x2x256x512.Reduces [1, 2, 3] S1
  reducesTo_S2x1x8x128_S_d0_1_2_3 : S2x1x8x128.ReducesTo [0, 1, 2, 3] S_
  dot_S2x512x256_S2x1024x256_S2x512x1024_2_2_1_1_0_0_wf : DotDims.WF S2x512x256 S2x1024x256 S2x512x1024 [2] [2] [1] [1] [0] [0]
  dot_S2x512x1024_S2x1024x256_S2x512x256_2_1_1_2_0_0_wf : DotDims.WF S2x512x1024 S2x1024x256 S2x512x256 [2] [1] [1] [2] [0] [0]
  dot_S2x512x512_S2x512x512_S2x512x512_2_2_1_1_0_0_wf : DotDims.WF S2x512x512 S2x512x512 S2x512x512 [2] [2] [1] [1] [0] [0]
  dot_S2x512x512_S2x512x512_S2x512x512_2_1_1_2_0_0_wf : DotDims.WF S2x512x512 S2x512x512 S2x512x512 [2] [1] [1] [2] [0] [0]
  dot_S2x256x512_S2x256x512_S2x256x256_2_2_1_1_0_0_wf : DotDims.WF S2x256x512 S2x256x512 S2x256x256 [2] [2] [1] [1] [0] [0]
  dot_S2x256x256_S2x256x512_S2x256x512_2_1_1_2_0_0_wf : DotDims.WF S2x256x256 S2x256x512 S2x256x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x256.size a ≤ S4x4096x256.size a
  hwx0_0 : ∀ i : grid0.Coords, EltTy.bits .f32 = 32 ∨ (Rect.block (s := S4x4096x256) S2x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x256.size a ≤ S4x4096x256.size a
  hwx0_1 : ∀ i : grid0.Coords, EltTy.bits .f32 = 32 ∨ (Rect.block (s := S4x4096x256) S2x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x256.size a ≤ S4x4096x256.size a
  hwx0_2 : ∀ i : grid0.Coords, EltTy.bits .f32 = 32 ∨ (Rect.block (s := S4x4096x256) S2x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x256.size a ≤ S4x1x256.size a
  hwx0_3 : ∀ i : grid0.Coords, EltTy.bits .f32 = 32 ∨ (Rect.block (s := S4x1x256) S2x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x256.size a ≤ S4x1x256.size a
  hwx0_4 : ∀ i : grid0.Coords, EltTy.bits .f32 = 32 ∨ (Rect.block (s := S4x1x256) S2x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1x256.size a ≤ S4x1x256.size a
  hwx0_5 : ∀ i : grid0.Coords, EltTy.bits .f32 = 32 ∨ (Rect.block (s := S4x1x256) S2x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1x256.size a ≤ S4x1x256.size a
  hwx0_6 : ∀ i : grid0.Coords, EltTy.bits .f32 = 32 ∨ (Rect.block (s := S4x1x256) S2x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x8x128.size a ≤ S2x8x8x128.size a
  hwx0_7 : ∀ i : grid0.Coords, EltTy.bits .f32 = 32 ∨ (Rect.block (s := S2x8x8x128) S1x1x8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x512.size a ≤ S4x1024x512.size a
  hwx1_0 : ∀ i : grid1.Coords, EltTy.bits .f32 = 32 ∨ (Rect.block (s := S4x1024x512) S2x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x512x512.size a ≤ S4x1024x512.size a
  hwx1_1 : ∀ i : grid1.Coords, EltTy.bits .f32 = 32 ∨ (Rect.block (s := S4x1024x512) S2x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x512x512.size a ≤ S4x1024x512.size a
  hwx1_2 : ∀ i : grid1.Coords, EltTy.bits .f32 = 32 ∨ (Rect.block (s := S4x1024x512) S2x512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x1x512.size a ≤ S4x1x512.size a
  hwx1_3 : ∀ i : grid1.Coords, EltTy.bits .f32 = 32 ∨ (Rect.block (s := S4x1x512) S2x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x1x512.size a ≤ S4x1x512.size a
  hwx1_4 : ∀ i : grid1.Coords, EltTy.bits .f32 = 32 ∨ (Rect.block (s := S4x1x512) S2x1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x1x512.size a ≤ S4x1x512.size a
  hwx1_5 : ∀ i : grid1.Coords, EltTy.bits .f32 = 32 ∨ (Rect.block (s := S4x1x512) S2x1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2x1x512.size a ≤ S4x1x512.size a
  hwx1_6 : ∀ i : grid1.Coords, EltTy.bits .f32 = 32 ∨ (Rect.block (s := S4x1x512) S2x1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x8x128.size a ≤ S2x2x8x128.size a
  hwx1_7 : ∀ i : grid1.Coords, EltTy.bits .f32 = 32 ∨ (Rect.block (s := S2x2x8x128) S1x1x8x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x256x512.size a ≤ S4x256x512.size a
  hwx2_0 : ∀ i : grid2.Coords, EltTy.bits .f32 = 32 ∨ (Rect.block (s := S4x256x512) S2x256x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2x256x512.size a ≤ S4x256x512.size a
  hwx2_1 : ∀ i : grid2.Coords, EltTy.bits .f32 = 32 ∨ (Rect.block (s := S4x256x512) S2x256x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2x256x512.size a ≤ S4x256x512.size a
  hwx2_2 : ∀ i : grid2.Coords, EltTy.bits .f32 = 32 ∨ (Rect.block (s := S4x256x512) S2x256x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2x1x512.size a ≤ S4x1x512.size a
  hwx2_3 : ∀ i : grid2.Coords, EltTy.bits .f32 = 32 ∨ (Rect.block (s := S4x1x512) S2x1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2x1x512.size a ≤ S4x1x512.size a
  hwx2_4 : ∀ i : grid2.Coords, EltTy.bits .f32 = 32 ∨ (Rect.block (s := S4x1x512) S2x1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2x1x512.size a ≤ S4x1x512.size a
  hwx2_5 : ∀ i : grid2.Coords, EltTy.bits .f32 = 32 ∨ (Rect.block (s := S4x1x512) S2x1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2x1x512.size a ≤ S4x1x512.size a
  hwx2_6 : ∀ i : grid2.Coords, EltTy.bits .f32 = 32 ∨ (Rect.block (s := S4x1x512) S2x1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x8x128.size a ≤ S2x1x8x128.size a
  hwx2_7 : ∀ i : grid2.Coords, EltTy.bits .f32 = 32 ∨ (Rect.block (s := S2x1x8x128) S1x1x8x128.size (cc2_transform_7 i) (hinb2_7 i)).WholeWords (EltTy.packing .f32)

variable [Facts₀]

def dot_S2x512x256_S2x1024x256_S2x512x1024_2_2_1_1_0_0 : DotDims S2x512x256 S2x1024x256 S2x512x1024 where
  lhsContracting := [2]
  rhsContracting := [2]
  lhsNonContracting := [1]
  rhsNonContracting := [1]
  lhsBatch := [0]
  rhsBatch := [0]
  wf := dot_S2x512x256_S2x1024x256_S2x512x1024_2_2_1_1_0_0_wf
def dot_S2x512x1024_S2x1024x256_S2x512x256_2_1_1_2_0_0 : DotDims S2x512x1024 S2x1024x256 S2x512x256 where
  lhsContracting := [2]
  rhsContracting := [1]
  lhsNonContracting := [1]
  rhsNonContracting := [2]
  lhsBatch := [0]
  rhsBatch := [0]
  wf := dot_S2x512x1024_S2x1024x256_S2x512x256_2_1_1_2_0_0_wf
def dot_S2x512x512_S2x512x512_S2x512x512_2_2_1_1_0_0 : DotDims S2x512x512 S2x512x512 S2x512x512 where
  lhsContracting := [2]
  rhsContracting := [2]
  lhsNonContracting := [1]
  rhsNonContracting := [1]
  lhsBatch := [0]
  rhsBatch := [0]
  wf := dot_S2x512x512_S2x512x512_S2x512x512_2_2_1_1_0_0_wf
def dot_S2x512x512_S2x512x512_S2x512x512_2_1_1_2_0_0 : DotDims S2x512x512 S2x512x512 S2x512x512 where
  lhsContracting := [2]
  rhsContracting := [1]
  lhsNonContracting := [1]
  rhsNonContracting := [2]
  lhsBatch := [0]
  rhsBatch := [0]
  wf := dot_S2x512x512_S2x512x512_S2x512x512_2_1_1_2_0_0_wf
def dot_S2x256x512_S2x256x512_S2x256x256_2_2_1_1_0_0 : DotDims S2x256x512 S2x256x512 S2x256x256 where
  lhsContracting := [2]
  rhsContracting := [2]
  lhsNonContracting := [1]
  rhsNonContracting := [1]
  lhsBatch := [0]
  rhsBatch := [0]
  wf := dot_S2x256x512_S2x256x512_S2x256x256_2_2_1_1_0_0_wf
def dot_S2x256x256_S2x256x512_S2x256x512_2_1_1_2_0_0 : DotDims S2x256x256 S2x256x512 S2x256x512 where
  lhsContracting := [2]
  rhsContracting := [1]
  lhsNonContracting := [1]
  rhsNonContracting := [2]
  lhsBatch := [0]
  rhsBatch := [0]
  wf := dot_S2x256x256_S2x256x512_S2x256x512_2_1_1_2_0_0_wf

abbrev win0_0 : Pipeline.Window sig grid0 :=
  Pipeline.Window.ofSpec (Memref.whole main_v24) S2x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2x512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S2x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S2x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2x1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v55) S2x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S2x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57) S2x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S2x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52) S2x1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v53) S2x1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v54) S2x1x512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v58) S1x1x8x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v86) S2x256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S2x256x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v88) S2x256x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v82) S2x1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v83) S2x1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v84) S2x1x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v85) S2x1x512.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v89) S1x1x8x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S4x64x64x256 : Shape := ⟨4, ![4, 64, 64, 256]⟩
abbrev S4x32x32x512 : Shape := ⟨4, ![4, 32, 32, 512]⟩
abbrev S4x16x16x512 : Shape := ⟨4, ![4, 16, 16, 512]⟩
abbrev S_ : Shape := ⟨0, ![]⟩
abbrev S4x256 : Shape := ⟨2, ![4, 256]⟩
abbrev S4x1x1x256 : Shape := ⟨4, ![4, 1, 1, 256]⟩
abbrev S4x4096x256 : Shape := ⟨3, ![4, 4096, 256]⟩
abbrev S4x4096 : Shape := ⟨2, ![4, 4096]⟩
abbrev S4x4096x1 : Shape := ⟨3, ![4, 4096, 1]⟩
abbrev S4x4096x4096 : Shape := ⟨3, ![4, 4096, 4096]⟩
abbrev S4x512 : Shape := ⟨2, ![4, 512]⟩
abbrev S4x1x1x512 : Shape := ⟨4, ![4, 1, 1, 512]⟩
abbrev S4x1024x512 : Shape := ⟨3, ![4, 1024, 512]⟩
abbrev S4x1024 : Shape := ⟨2, ![4, 1024]⟩
abbrev S4x1024x1 : Shape := ⟨3, ![4, 1024, 1]⟩
abbrev S4x1024x1024 : Shape := ⟨3, ![4, 1024, 1024]⟩
abbrev S4x256x512 : Shape := ⟨3, ![4, 256, 512]⟩
abbrev S4x256x1 : Shape := ⟨3, ![4, 256, 1]⟩
abbrev S4x256x256 : Shape := ⟨3, ![4, 256, 256]⟩

abbrev nBuf : Space → Nat
  | .hbm => 419
  | .vmem => 0
  | .smem => 0
  | _ => 0

abbrev hbmTy0_0 (i : Nat) : BufTy := match i % 128 with
  | 0 => ⟨S4x64x64x256, .f32⟩
  | 1 => ⟨S4x32x32x512, .f32⟩
  | 2 => ⟨S4x16x16x512, .f32⟩
  | 3 => ⟨S4x64x64x256, .f32⟩
  | 4 => ⟨S4x32x32x512, .f32⟩
  | 5 => ⟨S4x16x16x512, .f32⟩
  | 6 => ⟨S4x64x64x256, .f32⟩
  | 7 => ⟨S4x32x32x512, .f32⟩
  | 8 => ⟨S4x16x16x512, .f32⟩
  | 9 => ⟨S_, .f32⟩
  | 10 => ⟨S4x256, .f32⟩
  | 11 => ⟨S4x1x1x256, .f32⟩
  | 12 => ⟨S_, .f32⟩
  | 13 => ⟨S4x1x1x256, .f32⟩
  | 14 => ⟨S4x1x1x256, .f32⟩
  | 15 => ⟨S_, .i32⟩
  | 16 => ⟨S_, .f32⟩
  | 17 => ⟨S4x256, .f32⟩
  | 18 => ⟨S4x1x1x256, .f32⟩
  | 19 => ⟨S_, .f32⟩
  | 20 => ⟨S4x1x1x256, .f32⟩
  | 21 => ⟨S4x1x1x256, .f32⟩
  | 22 => ⟨S4x64x64x256, .f32⟩
  | 23 => ⟨S4x64x64x256, .f32⟩
  | 24 => ⟨S4x64x64x256, .f32⟩
  | 25 => ⟨S_, .f32⟩
  | 26 => ⟨S_, .f32⟩
  | 27 => ⟨S_, .f32⟩
  | 28 => ⟨S_, .f32⟩
  | 29 => ⟨S4x256, .f32⟩
  | 30 => ⟨S4x1x1x256, .f32⟩
  | 31 => ⟨S4x1x1x256, .f32⟩
  | 32 => ⟨S4x1x1x256, .f32⟩
  | 33 => ⟨S_, .f32⟩
  | 34 => ⟨S_, .i1⟩
  | 35 => ⟨S_, .f32⟩
  | 36 => ⟨S_, .f32⟩
  | 37 => ⟨S4x1x1x256, .f32⟩
  | 38 => ⟨S4x1x1x256, .f32⟩
  | 39 => ⟨S4x64x64x256, .f32⟩
  | 40 => ⟨S4x64x64x256, .f32⟩
  | 41 => ⟨S_, .f32⟩
  | 42 => ⟨S4x1x1x256, .f32⟩
  | 43 => ⟨S4x1x1x256, .f32⟩
  | 44 => ⟨S4x1x1x256, .f32⟩
  | 45 => ⟨S4x64x64x256, .f32⟩
  | 46 => ⟨S4x64x64x256, .f32⟩
  | 47 => ⟨S_, .f32⟩
  | 48 => ⟨S4x256, .f32⟩
  | 49 => ⟨S4x1x1x256, .f32⟩
  | 50 => ⟨S_, .f32⟩
  | 51 => ⟨S4x1x1x256, .f32⟩
  | 52 => ⟨S4x1x1x256, .f32⟩
  | 53 => ⟨S_, .i32⟩
  | 54 => ⟨S_, .f32⟩
  | 55 => ⟨S4x256, .f32⟩
  | 56 => ⟨S4x1x1x256, .f32⟩
  | 57 => ⟨S_, .f32⟩
  | 58 => ⟨S4x1x1x256, .f32⟩
  | 59 => ⟨S4x1x1x256, .f32⟩
  | 60 => ⟨S4x64x64x256, .f32⟩
  | 61 => ⟨S4x64x64x256, .f32⟩
  | 62 => ⟨S4x64x64x256, .f32⟩
  | 63 => ⟨S_, .f32⟩
  | 64 => ⟨S_, .f32⟩
  | 65 => ⟨S_, .f32⟩
  | 66 => ⟨S_, .f32⟩
  | 67 => ⟨S4x256, .f32⟩
  | 68 => ⟨S4x1x1x256, .f32⟩
  | 69 => ⟨S4x1x1x256, .f32⟩
  | 70 => ⟨S4x1x1x256, .f32⟩
  | 71 => ⟨S_, .f32⟩
  | 72 => ⟨S_, .i1⟩
  | 73 => ⟨S_, .f32⟩
  | 74 => ⟨S_, .f32⟩
  | 75 => ⟨S4x1x1x256, .f32⟩
  | 76 => ⟨S4x1x1x256, .f32⟩
  | 77 => ⟨S4x64x64x256, .f32⟩
  | 78 => ⟨S4x64x64x256, .f32⟩
  | 79 => ⟨S_, .f32⟩
  | 80 => ⟨S4x1x1x256, .f32⟩
  | 81 => ⟨S4x1x1x256, .f32⟩
  | 82 => ⟨S4x1x1x256, .f32⟩
  | 83 => ⟨S4x64x64x256, .f32⟩
  | 84 => ⟨S4x64x64x256, .f32⟩
  | 85 => ⟨S4x4096x256, .f32⟩
  | 86 => ⟨S4x4096x256, .f32⟩
  | 87 => ⟨S_, .f32⟩
  | 88 => ⟨S4x4096, .f32⟩
  | 89 => ⟨S4x4096x1, .f32⟩
  | 90 => ⟨S4x4096x1, .f32⟩
  | 91 => ⟨S_, .f32⟩
  | 92 => ⟨S4x4096x1, .f32⟩
  | 93 => ⟨S4x4096x1, .f32⟩
  | 94 => ⟨S4x4096x256, .f32⟩
  | 95 => ⟨S4x4096x256, .f32⟩
  | 96 => ⟨S4x4096x256, .f32⟩
  | 97 => ⟨S4x4096x256, .f32⟩
  | 98 => ⟨S_, .f32⟩
  | 99 => ⟨S4x4096, .f32⟩
  | 100 => ⟨S4x4096x1, .f32⟩
  | 101 => ⟨S4x4096x1, .f32⟩
  | 102 => ⟨S_, .f32⟩
  | 103 => ⟨S4x4096x1, .f32⟩
  | 104 => ⟨S4x4096x1, .f32⟩
  | 105 => ⟨S4x4096x256, .f32⟩
  | 106 => ⟨S4x4096x256, .f32⟩
  | 107 => ⟨S4x4096x256, .f32⟩
  | 108 => ⟨S4x4096x4096, .f32⟩
  | 109 => ⟨S_, .f32⟩
  | 110 => ⟨S4x4096, .f32⟩
  | 111 => ⟨S_, .f32⟩
  | 112 => ⟨S4x4096, .f32⟩
  | 113 => ⟨S4x4096, .f32⟩
  | 114 => ⟨S4x4096x1, .f32⟩
  | 115 => ⟨S4x4096x4096, .f32⟩
  | 116 => ⟨S4x4096x4096, .f32⟩
  | 117 => ⟨S4x4096x4096, .f32⟩
  | 118 => ⟨S_, .f32⟩
  | 119 => ⟨S4x4096, .f32⟩
  | 120 => ⟨S4x4096x1, .f32⟩
  | 121 => ⟨S4x4096x4096, .f32⟩
  | 122 => ⟨S4x4096x4096, .f32⟩
  | 123 => ⟨S4x4096x256, .f32⟩
  | 124 => ⟨S4x4096x256, .f32⟩
  | 125 => ⟨S4x4096x256, .f32⟩
  | 126 => ⟨S4x4096x256, .f32⟩
  | 127 => ⟨S4x4096x256, .f32⟩
  | _ => ⟨S4x64x64x256, .f32⟩

abbrev hbmTy0_1 (i : Nat) : BufTy := match i % 128 with
  | 0 => ⟨S_, .f32⟩
  | 1 => ⟨S4x4096x256, .f32⟩
  | 2 => ⟨S4x4096x256, .f32⟩
  | 3 => ⟨S_, .f32⟩
  | 4 => ⟨S4x4096x256, .f32⟩
  | 5 => ⟨S4x4096x256, .f32⟩
  | 6 => ⟨S4x4096x256, .f32⟩
  | 7 => ⟨S4x64x64x256, .f32⟩
  | 8 => ⟨S4x64x64x256, .f32⟩
  | 9 => ⟨S4x64x64x256, .f32⟩
  | 10 => ⟨S4x64x64x256, .f32⟩
  | 11 => ⟨S4x64x64x256, .f32⟩
  | 12 => ⟨S4x64x64x256, .f32⟩
  | 13 => ⟨S_, .f32⟩
  | 14 => ⟨S_, .f32⟩
  | 15 => ⟨S_, .f32⟩
  | 16 => ⟨S_, .f32⟩
  | 17 => ⟨S_, .f32⟩
  | 18 => ⟨S4x512, .f32⟩
  | 19 => ⟨S4x1x1x512, .f32⟩
  | 20 => ⟨S_, .f32⟩
  | 21 => ⟨S4x1x1x512, .f32⟩
  | 22 => ⟨S4x1x1x512, .f32⟩
  | 23 => ⟨S_, .i32⟩
  | 24 => ⟨S_, .f32⟩
  | 25 => ⟨S4x512, .f32⟩
  | 26 => ⟨S4x1x1x512, .f32⟩
  | 27 => ⟨S_, .f32⟩
  | 28 => ⟨S4x1x1x512, .f32⟩
  | 29 => ⟨S4x1x1x512, .f32⟩
  | 30 => ⟨S4x32x32x512, .f32⟩
  | 31 => ⟨S4x32x32x512, .f32⟩
  | 32 => ⟨S4x32x32x512, .f32⟩
  | 33 => ⟨S_, .f32⟩
  | 34 => ⟨S_, .f32⟩
  | 35 => ⟨S_, .f32⟩
  | 36 => ⟨S_, .f32⟩
  | 37 => ⟨S4x512, .f32⟩
  | 38 => ⟨S4x1x1x512, .f32⟩
  | 39 => ⟨S4x1x1x512, .f32⟩
  | 40 => ⟨S4x1x1x512, .f32⟩
  | 41 => ⟨S_, .f32⟩
  | 42 => ⟨S_, .i1⟩
  | 43 => ⟨S_, .f32⟩
  | 44 => ⟨S_, .f32⟩
  | 45 => ⟨S4x1x1x512, .f32⟩
  | 46 => ⟨S4x1x1x512, .f32⟩
  | 47 => ⟨S4x32x32x512, .f32⟩
  | 48 => ⟨S4x32x32x512, .f32⟩
  | 49 => ⟨S_, .f32⟩
  | 50 => ⟨S4x1x1x512, .f32⟩
  | 51 => ⟨S4x1x1x512, .f32⟩
  | 52 => ⟨S4x1x1x512, .f32⟩
  | 53 => ⟨S4x32x32x512, .f32⟩
  | 54 => ⟨S4x32x32x512, .f32⟩
  | 55 => ⟨S_, .f32⟩
  | 56 => ⟨S4x512, .f32⟩
  | 57 => ⟨S4x1x1x512, .f32⟩
  | 58 => ⟨S_, .f32⟩
  | 59 => ⟨S4x1x1x512, .f32⟩
  | 60 => ⟨S4x1x1x512, .f32⟩
  | 61 => ⟨S_, .i32⟩
  | 62 => ⟨S_, .f32⟩
  | 63 => ⟨S4x512, .f32⟩
  | 64 => ⟨S4x1x1x512, .f32⟩
  | 65 => ⟨S_, .f32⟩
  | 66 => ⟨S4x1x1x512, .f32⟩
  | 67 => ⟨S4x1x1x512, .f32⟩
  | 68 => ⟨S4x32x32x512, .f32⟩
  | 69 => ⟨S4x32x32x512, .f32⟩
  | 70 => ⟨S4x32x32x512, .f32⟩
  | 71 => ⟨S_, .f32⟩
  | 72 => ⟨S_, .f32⟩
  | 73 => ⟨S_, .f32⟩
  | 74 => ⟨S_, .f32⟩
  | 75 => ⟨S4x512, .f32⟩
  | 76 => ⟨S4x1x1x512, .f32⟩
  | 77 => ⟨S4x1x1x512, .f32⟩
  | 78 => ⟨S4x1x1x512, .f32⟩
  | 79 => ⟨S_, .f32⟩
  | 80 => ⟨S_, .i1⟩
  | 81 => ⟨S_, .f32⟩
  | 82 => ⟨S_, .f32⟩
  | 83 => ⟨S4x1x1x512, .f32⟩
  | 84 => ⟨S4x1x1x512, .f32⟩
  | 85 => ⟨S4x32x32x512, .f32⟩
  | 86 => ⟨S4x32x32x512, .f32⟩
  | 87 => ⟨S_, .f32⟩
  | 88 => ⟨S4x1x1x512, .f32⟩
  | 89 => ⟨S4x1x1x512, .f32⟩
  | 90 => ⟨S4x1x1x512, .f32⟩
  | 91 => ⟨S4x32x32x512, .f32⟩
  | 92 => ⟨S4x32x32x512, .f32⟩
  | 93 => ⟨S4x1024x512, .f32⟩
  | 94 => ⟨S4x1024x512, .f32⟩
  | 95 => ⟨S_, .f32⟩
  | 96 => ⟨S4x1024, .f32⟩
  | 97 => ⟨S4x1024x1, .f32⟩
  | 98 => ⟨S4x1024x1, .f32⟩
  | 99 => ⟨S_, .f32⟩
  | 100 => ⟨S4x1024x1, .f32⟩
  | 101 => ⟨S4x1024x1, .f32⟩
  | 102 => ⟨S4x1024x512, .f32⟩
  | 103 => ⟨S4x1024x512, .f32⟩
  | 104 => ⟨S4x1024x512, .f32⟩
  | 105 => ⟨S4x1024x512, .f32⟩
  | 106 => ⟨S_, .f32⟩
  | 107 => ⟨S4x1024, .f32⟩
  | 108 => ⟨S4x1024x1, .f32⟩
  | 109 => ⟨S4x1024x1, .f32⟩
  | 110 => ⟨S_, .f32⟩
  | 111 => ⟨S4x1024x1, .f32⟩
  | 112 => ⟨S4x1024x1, .f32⟩
  | 113 => ⟨S4x1024x512, .f32⟩
  | 114 => ⟨S4x1024x512, .f32⟩
  | 115 => ⟨S4x1024x512, .f32⟩
  | 116 => ⟨S4x1024x1024, .f32⟩
  | 117 => ⟨S_, .f32⟩
  | 118 => ⟨S4x1024, .f32⟩
  | 119 => ⟨S_, .f32⟩
  | 120 => ⟨S4x1024, .f32⟩
  | 121 => ⟨S4x1024, .f32⟩
  | 122 => ⟨S4x1024x1, .f32⟩
  | 123 => ⟨S4x1024x1024, .f32⟩
  | 124 => ⟨S4x1024x1024, .f32⟩
  | 125 => ⟨S4x1024x1024, .f32⟩
  | 126 => ⟨S_, .f32⟩
  | 127 => ⟨S4x1024, .f32⟩
  | _ => ⟨S4x64x64x256, .f32⟩

abbrev hbmTy0_2 (i : Nat) : BufTy := match i % 128 with
  | 0 => ⟨S4x1024x1, .f32⟩
  | 1 => ⟨S4x1024x1024, .f32⟩
  | 2 => ⟨S4x1024x1024, .f32⟩
  | 3 => ⟨S4x1024x512, .f32⟩
  | 4 => ⟨S4x1024x512, .f32⟩
  | 5 => ⟨S4x1024x512, .f32⟩
  | 6 => ⟨S4x1024x512, .f32⟩
  | 7 => ⟨S4x1024x512, .f32⟩
  | 8 => ⟨S_, .f32⟩
  | 9 => ⟨S4x1024x512, .f32⟩
  | 10 => ⟨S4x1024x512, .f32⟩
  | 11 => ⟨S_, .f32⟩
  | 12 => ⟨S4x1024x512, .f32⟩
  | 13 => ⟨S4x1024x512, .f32⟩
  | 14 => ⟨S4x1024x512, .f32⟩
  | 15 => ⟨S4x32x32x512, .f32⟩
  | 16 => ⟨S4x32x32x512, .f32⟩
  | 17 => ⟨S4x32x32x512, .f32⟩
  | 18 => ⟨S4x32x32x512, .f32⟩
  | 19 => ⟨S4x32x32x512, .f32⟩
  | 20 => ⟨S4x32x32x512, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S4x512, .f32⟩
  | 28 => ⟨S4x1x1x512, .f32⟩
  | 29 => ⟨S_, .f32⟩
  | 30 => ⟨S4x1x1x512, .f32⟩
  | 31 => ⟨S4x1x1x512, .f32⟩
  | 32 => ⟨S_, .i32⟩
  | 33 => ⟨S_, .f32⟩
  | 34 => ⟨S4x512, .f32⟩
  | 35 => ⟨S4x1x1x512, .f32⟩
  | 36 => ⟨S_, .f32⟩
  | 37 => ⟨S4x1x1x512, .f32⟩
  | 38 => ⟨S4x1x1x512, .f32⟩
  | 39 => ⟨S4x16x16x512, .f32⟩
  | 40 => ⟨S4x16x16x512, .f32⟩
  | 41 => ⟨S4x16x16x512, .f32⟩
  | 42 => ⟨S_, .f32⟩
  | 43 => ⟨S_, .f32⟩
  | 44 => ⟨S_, .f32⟩
  | 45 => ⟨S_, .f32⟩
  | 46 => ⟨S4x512, .f32⟩
  | 47 => ⟨S4x1x1x512, .f32⟩
  | 48 => ⟨S4x1x1x512, .f32⟩
  | 49 => ⟨S4x1x1x512, .f32⟩
  | 50 => ⟨S_, .f32⟩
  | 51 => ⟨S_, .i1⟩
  | 52 => ⟨S_, .f32⟩
  | 53 => ⟨S_, .f32⟩
  | 54 => ⟨S4x1x1x512, .f32⟩
  | 55 => ⟨S4x1x1x512, .f32⟩
  | 56 => ⟨S4x16x16x512, .f32⟩
  | 57 => ⟨S4x16x16x512, .f32⟩
  | 58 => ⟨S_, .f32⟩
  | 59 => ⟨S4x1x1x512, .f32⟩
  | 60 => ⟨S4x1x1x512, .f32⟩
  | 61 => ⟨S4x1x1x512, .f32⟩
  | 62 => ⟨S4x16x16x512, .f32⟩
  | 63 => ⟨S4x16x16x512, .f32⟩
  | 64 => ⟨S_, .f32⟩
  | 65 => ⟨S4x512, .f32⟩
  | 66 => ⟨S4x1x1x512, .f32⟩
  | 67 => ⟨S_, .f32⟩
  | 68 => ⟨S4x1x1x512, .f32⟩
  | 69 => ⟨S4x1x1x512, .f32⟩
  | 70 => ⟨S_, .i32⟩
  | 71 => ⟨S_, .f32⟩
  | 72 => ⟨S4x512, .f32⟩
  | 73 => ⟨S4x1x1x512, .f32⟩
  | 74 => ⟨S_, .f32⟩
  | 75 => ⟨S4x1x1x512, .f32⟩
  | 76 => ⟨S4x1x1x512, .f32⟩
  | 77 => ⟨S4x16x16x512, .f32⟩
  | 78 => ⟨S4x16x16x512, .f32⟩
  | 79 => ⟨S4x16x16x512, .f32⟩
  | 80 => ⟨S_, .f32⟩
  | 81 => ⟨S_, .f32⟩
  | 82 => ⟨S_, .f32⟩
  | 83 => ⟨S_, .f32⟩
  | 84 => ⟨S4x512, .f32⟩
  | 85 => ⟨S4x1x1x512, .f32⟩
  | 86 => ⟨S4x1x1x512, .f32⟩
  | 87 => ⟨S4x1x1x512, .f32⟩
  | 88 => ⟨S_, .f32⟩
  | 89 => ⟨S_, .i1⟩
  | 90 => ⟨S_, .f32⟩
  | 91 => ⟨S_, .f32⟩
  | 92 => ⟨S4x1x1x512, .f32⟩
  | 93 => ⟨S4x1x1x512, .f32⟩
  | 94 => ⟨S4x16x16x512, .f32⟩
  | 95 => ⟨S4x16x16x512, .f32⟩
  | 96 => ⟨S_, .f32⟩
  | 97 => ⟨S4x1x1x512, .f32⟩
  | 98 => ⟨S4x1x1x512, .f32⟩
  | 99 => ⟨S4x1x1x512, .f32⟩
  | 100 => ⟨S4x16x16x512, .f32⟩
  | 101 => ⟨S4x16x16x512, .f32⟩
  | 102 => ⟨S4x256x512, .f32⟩
  | 103 => ⟨S4x256x512, .f32⟩
  | 104 => ⟨S_, .f32⟩
  | 105 => ⟨S4x256, .f32⟩
  | 106 => ⟨S4x256x1, .f32⟩
  | 107 => ⟨S4x256x1, .f32⟩
  | 108 => ⟨S_, .f32⟩
  | 109 => ⟨S4x256x1, .f32⟩
  | 110 => ⟨S4x256x1, .f32⟩
  | 111 => ⟨S4x256x512, .f32⟩
  | 112 => ⟨S4x256x512, .f32⟩
  | 113 => ⟨S4x256x512, .f32⟩
  | 114 => ⟨S4x256x512, .f32⟩
  | 115 => ⟨S_, .f32⟩
  | 116 => ⟨S4x256, .f32⟩
  | 117 => ⟨S4x256x1, .f32⟩
  | 118 => ⟨S4x256x1, .f32⟩
  | 119 => ⟨S_, .f32⟩
  | 120 => ⟨S4x256x1, .f32⟩
  | 121 => ⟨S4x256x1, .f32⟩
  | 122 => ⟨S4x256x512, .f32⟩
  | 123 => ⟨S4x256x512, .f32⟩
  | 124 => ⟨S4x256x512, .f32⟩
  | 125 => ⟨S4x256x256, .f32⟩
  | 126 => ⟨S_, .f32⟩
  | 127 => ⟨S4x256, .f32⟩
  | _ => ⟨S4x64x64x256, .f32⟩

abbrev hbmTy0_3 (i : Nat) : BufTy := match i % 128 with
  | 0 => ⟨S_, .f32⟩
  | 1 => ⟨S4x256, .f32⟩
  | 2 => ⟨S4x256, .f32⟩
  | 3 => ⟨S4x256x1, .f32⟩
  | 4 => ⟨S4x256x256, .f32⟩
  | 5 => ⟨S4x256x256, .f32⟩
  | 6 => ⟨S4x256x256, .f32⟩
  | 7 => ⟨S_, .f32⟩
  | 8 => ⟨S4x256, .f32⟩
  | 9 => ⟨S4x256x1, .f32⟩
  | 10 => ⟨S4x256x256, .f32⟩
  | 11 => ⟨S4x256x256, .f32⟩
  | 12 => ⟨S4x256x512, .f32⟩
  | 13 => ⟨S4x256x512, .f32⟩
  | 14 => ⟨S4x256x512, .f32⟩
  | 15 => ⟨S4x256x512, .f32⟩
  | 16 => ⟨S4x256x512, .f32⟩
  | 17 => ⟨S_, .f32⟩
  | 18 => ⟨S4x256x512, .f32⟩
  | 19 => ⟨S4x256x512, .f32⟩
  | 20 => ⟨S_, .f32⟩
  | 21 => ⟨S4x256x512, .f32⟩
  | 22 => ⟨S4x256x512, .f32⟩
  | 23 => ⟨S4x256x512, .f32⟩
  | 24 => ⟨S4x16x16x512, .f32⟩
  | 25 => ⟨S4x16x16x512, .f32⟩
  | 26 => ⟨S4x16x16x512, .f32⟩
  | 27 => ⟨S4x16x16x512, .f32⟩
  | 28 => ⟨S4x16x16x512, .f32⟩
  | 29 => ⟨S4x16x16x512, .f32⟩
  | 30 => ⟨S_, .f32⟩
  | 31 => ⟨S_, .f32⟩
  | 32 => ⟨S_, .f32⟩
  | 33 => ⟨S_, .f32⟩
  | 34 => ⟨S_, .f32⟩
  | _ => ⟨S4x64x64x256, .f32⟩

abbrev hbmTy (i : Nat) : BufTy := match i / 128 with
  | 0 => hbmTy0_0 i
  | 1 => hbmTy0_1 i
  | 2 => hbmTy0_2 i
  | 3 => hbmTy0_3 i
  | _ => ⟨S4x64x64x256, .f32⟩

abbrev bufTy : (tb : Table) → Fin (tcTables nBuf tb) → BufTy
  | .hbm, ⟨i, _⟩ => hbmTy i
  | _, _ => ⟨S4x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_cst_3 : Ref sig .tc := ⟨.hbm, 33, rfl⟩
abbrev main_call0_v13 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst_1 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_2 : Ref sig .tc := ⟨.hbm, 47, rfl⟩
abbrev main_v12 : Ref sig .tc := ⟨.hbm, 48, rfl⟩
abbrev main_v13 : Ref sig .tc := ⟨.hbm, 49, rfl⟩
abbrev main_cst_3 : Ref sig .tc := ⟨.hbm, 50, rfl⟩
abbrev main_v14 : Ref sig .tc := ⟨.hbm, 51, rfl⟩
abbrev main_v15 : Ref sig .tc := ⟨.hbm, 52, rfl⟩
abbrev main_c_4 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_cst_1 : Ref sig .tc := ⟨.hbm, 64, rfl⟩
abbrev main_call1_v8 : Ref sig .tc := ⟨.hbm, 65, rfl⟩
abbrev main_call1_cst_2 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_cst_3 : Ref sig .tc := ⟨.hbm, 71, rfl⟩
abbrev main_call1_v13 : Ref sig .tc := ⟨.hbm, 72, rfl⟩
abbrev main_call1_cst_4 : Ref sig .tc := ⟨.hbm, 73, rfl⟩
abbrev main_call1_call0_v0 : Ref sig .tc := ⟨.hbm, 74, rfl⟩
abbrev main_call1_call0_v1 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_cst_5 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_cst_6 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_cst_7 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_cst_8 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_cst_9 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_cst_10 : Ref sig .tc := ⟨.hbm, 109, rfl⟩
abbrev main_v44 : Ref sig .tc := ⟨.hbm, 110, rfl⟩
abbrev main_cst_11 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_cst_12 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_call2_cst : Ref sig .tc := ⟨.hbm, 128, rfl⟩
abbrev main_call2_v0 : Ref sig .tc := ⟨.hbm, 129, rfl⟩
abbrev main_v60 : Ref sig .tc := ⟨.hbm, 130, rfl⟩
abbrev main_cst_13 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_cst_14 : Ref sig .tc := ⟨.hbm, 141, rfl⟩
abbrev main_v70 : Ref sig .tc := ⟨.hbm, 142, rfl⟩
abbrev main_cst_15 : Ref sig .tc := ⟨.hbm, 143, rfl⟩
abbrev main_v71 : Ref sig .tc := ⟨.hbm, 144, rfl⟩
abbrev main_cst_16 : Ref sig .tc := ⟨.hbm, 145, rfl⟩
abbrev main_v72 : Ref sig .tc := ⟨.hbm, 146, rfl⟩
abbrev main_v73 : Ref sig .tc := ⟨.hbm, 147, rfl⟩
abbrev main_cst_17 : Ref sig .tc := ⟨.hbm, 148, rfl⟩
abbrev main_v74 : Ref sig .tc := ⟨.hbm, 149, rfl⟩
abbrev main_v75 : Ref sig .tc := ⟨.hbm, 150, rfl⟩
abbrev main_c_18 : Ref sig .tc := ⟨.hbm, 151, rfl⟩
abbrev main_call3_cst : Ref sig .tc := ⟨.hbm, 152, rfl⟩
abbrev main_call3_v0 : Ref sig .tc := ⟨.hbm, 153, rfl⟩
abbrev main_call3_v1 : Ref sig .tc := ⟨.hbm, 154, rfl⟩
abbrev main_call3_cst_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_v6 : Ref sig .tc := ⟨.hbm, 160, rfl⟩
abbrev main_call3_v7 : Ref sig .tc := ⟨.hbm, 161, rfl⟩
abbrev main_call3_cst_1 : Ref sig .tc := ⟨.hbm, 162, rfl⟩
abbrev main_call3_v8 : Ref sig .tc := ⟨.hbm, 163, rfl⟩
abbrev main_call3_cst_2 : Ref sig .tc := ⟨.hbm, 164, rfl⟩
abbrev main_call3_v9 : Ref sig .tc := ⟨.hbm, 165, rfl⟩
abbrev main_call3_v10 : Ref sig .tc := ⟨.hbm, 166, rfl⟩
abbrev main_call3_v11 : Ref sig .tc := ⟨.hbm, 167, rfl⟩
abbrev main_call3_v12 : Ref sig .tc := ⟨.hbm, 168, rfl⟩
abbrev main_call3_cst_3 : Ref sig .tc := ⟨.hbm, 169, rfl⟩
abbrev main_call3_v13 : Ref sig .tc := ⟨.hbm, 170, rfl⟩
abbrev main_call3_cst_4 : Ref sig .tc := ⟨.hbm, 171, rfl⟩
abbrev main_call3_call0_v0 : Ref sig .tc := ⟨.hbm, 172, rfl⟩
abbrev main_call3_call0_v1 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_cst_19 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_v83 : Ref sig .tc := ⟨.hbm, 182, rfl⟩
abbrev main_cst_20 : Ref sig .tc := ⟨.hbm, 183, rfl⟩
abbrev main_v84 : Ref sig .tc := ⟨.hbm, 184, rfl⟩
abbrev main_v85 : Ref sig .tc := ⟨.hbm, 185, rfl⟩
abbrev main_cst_21 : Ref sig .tc := ⟨.hbm, 186, rfl⟩
abbrev main_v86 : Ref sig .tc := ⟨.hbm, 187, rfl⟩
abbrev main_v87 : Ref sig .tc := ⟨.hbm, 188, rfl⟩
abbrev main_c_22 : Ref sig .tc := ⟨.hbm, 189, rfl⟩
abbrev main_call4_cst : Ref sig .tc := ⟨.hbm, 190, rfl⟩
abbrev main_call4_v0 : Ref sig .tc := ⟨.hbm, 191, rfl⟩
abbrev main_call4_v1 : Ref sig .tc := ⟨.hbm, 192, rfl⟩
abbrev main_call4_cst_0 : Ref sig .tc := ⟨.hbm, 193, rfl⟩
abbrev main_call4_v2 : Ref sig .tc := ⟨.hbm, 194, rfl⟩
abbrev main_call4_v3 : Ref sig .tc := ⟨.hbm, 195, rfl⟩
abbrev main_call4_v4 : Ref sig .tc := ⟨.hbm, 196, rfl⟩
abbrev main_call4_v5 : Ref sig .tc := ⟨.hbm, 197, rfl⟩
abbrev main_call4_v6 : Ref sig .tc := ⟨.hbm, 198, rfl⟩
abbrev main_call4_v7 : Ref sig .tc := ⟨.hbm, 199, rfl⟩
abbrev main_call4_cst_1 : Ref sig .tc := ⟨.hbm, 200, rfl⟩
abbrev main_call4_v8 : Ref sig .tc := ⟨.hbm, 201, rfl⟩
abbrev main_call4_cst_2 : Ref sig .tc := ⟨.hbm, 202, rfl⟩
abbrev main_call4_v9 : Ref sig .tc := ⟨.hbm, 203, rfl⟩
abbrev main_call4_v10 : Ref sig .tc := ⟨.hbm, 204, rfl⟩
abbrev main_call4_v11 : Ref sig .tc := ⟨.hbm, 205, rfl⟩
abbrev main_call4_v12 : Ref sig .tc := ⟨.hbm, 206, rfl⟩
abbrev main_call4_cst_3 : Ref sig .tc := ⟨.hbm, 207, rfl⟩
abbrev main_call4_v13 : Ref sig .tc := ⟨.hbm, 208, rfl⟩
abbrev main_call4_cst_4 : Ref sig .tc := ⟨.hbm, 209, rfl⟩
abbrev main_call4_call0_v0 : Ref sig .tc := ⟨.hbm, 210, rfl⟩
abbrev main_call4_call0_v1 : Ref sig .tc := ⟨.hbm, 211, rfl⟩
abbrev main_v88 : Ref sig .tc := ⟨.hbm, 212, rfl⟩
abbrev main_v89 : Ref sig .tc := ⟨.hbm, 213, rfl⟩
abbrev main_v90 : Ref sig .tc := ⟨.hbm, 214, rfl⟩
abbrev main_cst_23 : Ref sig .tc := ⟨.hbm, 215, rfl⟩
abbrev main_v91 : Ref sig .tc := ⟨.hbm, 216, rfl⟩
abbrev main_v92 : Ref sig .tc := ⟨.hbm, 217, rfl⟩
abbrev main_v93 : Ref sig .tc := ⟨.hbm, 218, rfl⟩
abbrev main_v94 : Ref sig .tc := ⟨.hbm, 219, rfl⟩
abbrev main_v95 : Ref sig .tc := ⟨.hbm, 220, rfl⟩
abbrev main_v96 : Ref sig .tc := ⟨.hbm, 221, rfl⟩
abbrev main_v97 : Ref sig .tc := ⟨.hbm, 222, rfl⟩
abbrev main_cst_24 : Ref sig .tc := ⟨.hbm, 223, rfl⟩
abbrev main_v98 : Ref sig .tc := ⟨.hbm, 224, rfl⟩
abbrev main_v99 : Ref sig .tc := ⟨.hbm, 225, rfl⟩
abbrev main_v100 : Ref sig .tc := ⟨.hbm, 226, rfl⟩
abbrev main_cst_25 : Ref sig .tc := ⟨.hbm, 227, rfl⟩
abbrev main_v101 : Ref sig .tc := ⟨.hbm, 228, rfl⟩
abbrev main_v102 : Ref sig .tc := ⟨.hbm, 229, rfl⟩
abbrev main_v103 : Ref sig .tc := ⟨.hbm, 230, rfl⟩
abbrev main_v104 : Ref sig .tc := ⟨.hbm, 231, rfl⟩
abbrev main_v105 : Ref sig .tc := ⟨.hbm, 232, rfl⟩
abbrev main_v106 : Ref sig .tc := ⟨.hbm, 233, rfl⟩
abbrev main_cst_26 : Ref sig .tc := ⟨.hbm, 234, rfl⟩
abbrev main_v107 : Ref sig .tc := ⟨.hbm, 235, rfl⟩
abbrev main_v108 : Ref sig .tc := ⟨.hbm, 236, rfl⟩
abbrev main_v109 : Ref sig .tc := ⟨.hbm, 237, rfl⟩
abbrev main_cst_27 : Ref sig .tc := ⟨.hbm, 238, rfl⟩
abbrev main_v110 : Ref sig .tc := ⟨.hbm, 239, rfl⟩
abbrev main_v111 : Ref sig .tc := ⟨.hbm, 240, rfl⟩
abbrev main_v112 : Ref sig .tc := ⟨.hbm, 241, rfl⟩
abbrev main_v113 : Ref sig .tc := ⟨.hbm, 242, rfl⟩
abbrev main_v114 : Ref sig .tc := ⟨.hbm, 243, rfl⟩
abbrev main_v115 : Ref sig .tc := ⟨.hbm, 244, rfl⟩
abbrev main_cst_28 : Ref sig .tc := ⟨.hbm, 245, rfl⟩
abbrev main_v116 : Ref sig .tc := ⟨.hbm, 246, rfl⟩
abbrev main_cst_29 : Ref sig .tc := ⟨.hbm, 247, rfl⟩
abbrev main_v117 : Ref sig .tc := ⟨.hbm, 248, rfl⟩
abbrev main_v118 : Ref sig .tc := ⟨.hbm, 249, rfl⟩
abbrev main_v119 : Ref sig .tc := ⟨.hbm, 250, rfl⟩
abbrev main_v120 : Ref sig .tc := ⟨.hbm, 251, rfl⟩
abbrev main_v121 : Ref sig .tc := ⟨.hbm, 252, rfl⟩
abbrev main_v122 : Ref sig .tc := ⟨.hbm, 253, rfl⟩
abbrev main_cst_30 : Ref sig .tc := ⟨.hbm, 254, rfl⟩
abbrev main_v123 : Ref sig .tc := ⟨.hbm, 255, rfl⟩
abbrev main_v124 : Ref sig .tc := ⟨.hbm, 256, rfl⟩
abbrev main_v125 : Ref sig .tc := ⟨.hbm, 257, rfl⟩
abbrev main_v126 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_v130 : Ref sig .tc := ⟨.hbm, 262, rfl⟩
abbrev main_v131 : Ref sig .tc := ⟨.hbm, 263, rfl⟩
abbrev main_call5_cst : Ref sig .tc := ⟨.hbm, 264, rfl⟩
abbrev main_call5_v0 : Ref sig .tc := ⟨.hbm, 265, rfl⟩
abbrev main_v132 : Ref sig .tc := ⟨.hbm, 266, rfl⟩
abbrev main_cst_31 : Ref sig .tc := ⟨.hbm, 267, rfl⟩
abbrev main_v133 : Ref sig .tc := ⟨.hbm, 268, rfl⟩
abbrev main_v134 : Ref sig .tc := ⟨.hbm, 269, rfl⟩
abbrev main_v135 : Ref sig .tc := ⟨.hbm, 270, rfl⟩
abbrev main_v136 : Ref sig .tc := ⟨.hbm, 271, rfl⟩
abbrev main_v137 : Ref sig .tc := ⟨.hbm, 272, rfl⟩
abbrev main_v138 : Ref sig .tc := ⟨.hbm, 273, rfl⟩
abbrev main_v139 : Ref sig .tc := ⟨.hbm, 274, rfl⟩
abbrev main_v140 : Ref sig .tc := ⟨.hbm, 275, rfl⟩
abbrev main_v141 : Ref sig .tc := ⟨.hbm, 276, rfl⟩
abbrev main_cst_32 : Ref sig .tc := ⟨.hbm, 277, rfl⟩
abbrev main_v142 : Ref sig .tc := ⟨.hbm, 278, rfl⟩
abbrev main_cst_33 : Ref sig .tc := ⟨.hbm, 279, rfl⟩
abbrev main_v143 : Ref sig .tc := ⟨.hbm, 280, rfl⟩
abbrev main_v144 : Ref sig .tc := ⟨.hbm, 281, rfl⟩
abbrev main_cst_34 : Ref sig .tc := ⟨.hbm, 282, rfl⟩
abbrev main_v145 : Ref sig .tc := ⟨.hbm, 283, rfl⟩
abbrev main_v146 : Ref sig .tc := ⟨.hbm, 284, rfl⟩
abbrev main_cst_35 : Ref sig .tc := ⟨.hbm, 285, rfl⟩
abbrev main_v147 : Ref sig .tc := ⟨.hbm, 286, rfl⟩
abbrev main_v148 : Ref sig .tc := ⟨.hbm, 287, rfl⟩
abbrev main_c_36 : Ref sig .tc := ⟨.hbm, 288, rfl⟩
abbrev main_call6_cst : Ref sig .tc := ⟨.hbm, 289, rfl⟩
abbrev main_call6_v0 : Ref sig .tc := ⟨.hbm, 290, rfl⟩
abbrev main_call6_v1 : Ref sig .tc := ⟨.hbm, 291, rfl⟩
abbrev main_call6_cst_0 : Ref sig .tc := ⟨.hbm, 292, rfl⟩
abbrev main_call6_v2 : Ref sig .tc := ⟨.hbm, 293, rfl⟩
abbrev main_call6_v3 : Ref sig .tc := ⟨.hbm, 294, rfl⟩
abbrev main_call6_v4 : Ref sig .tc := ⟨.hbm, 295, rfl⟩
abbrev main_call6_v5 : Ref sig .tc := ⟨.hbm, 296, rfl⟩
abbrev main_call6_v6 : Ref sig .tc := ⟨.hbm, 297, rfl⟩
abbrev main_call6_v7 : Ref sig .tc := ⟨.hbm, 298, rfl⟩
abbrev main_call6_cst_1 : Ref sig .tc := ⟨.hbm, 299, rfl⟩
abbrev main_call6_v8 : Ref sig .tc := ⟨.hbm, 300, rfl⟩
abbrev main_call6_cst_2 : Ref sig .tc := ⟨.hbm, 301, rfl⟩
abbrev main_call6_v9 : Ref sig .tc := ⟨.hbm, 302, rfl⟩
abbrev main_call6_v10 : Ref sig .tc := ⟨.hbm, 303, rfl⟩
abbrev main_call6_v11 : Ref sig .tc := ⟨.hbm, 304, rfl⟩
abbrev main_call6_v12 : Ref sig .tc := ⟨.hbm, 305, rfl⟩
abbrev main_call6_cst_3 : Ref sig .tc := ⟨.hbm, 306, rfl⟩
abbrev main_call6_v13 : Ref sig .tc := ⟨.hbm, 307, rfl⟩
abbrev main_call6_cst_4 : Ref sig .tc := ⟨.hbm, 308, rfl⟩
abbrev main_call6_call0_v0 : Ref sig .tc := ⟨.hbm, 309, rfl⟩
abbrev main_call6_call0_v1 : Ref sig .tc := ⟨.hbm, 310, rfl⟩
abbrev main_v149 : Ref sig .tc := ⟨.hbm, 311, rfl⟩
abbrev main_v150 : Ref sig .tc := ⟨.hbm, 312, rfl⟩
abbrev main_v151 : Ref sig .tc := ⟨.hbm, 313, rfl⟩
abbrev main_cst_37 : Ref sig .tc := ⟨.hbm, 314, rfl⟩
abbrev main_v152 : Ref sig .tc := ⟨.hbm, 315, rfl⟩
abbrev main_v153 : Ref sig .tc := ⟨.hbm, 316, rfl⟩
abbrev main_v154 : Ref sig .tc := ⟨.hbm, 317, rfl⟩
abbrev main_v155 : Ref sig .tc := ⟨.hbm, 318, rfl⟩
abbrev main_v156 : Ref sig .tc := ⟨.hbm, 319, rfl⟩
abbrev main_cst_38 : Ref sig .tc := ⟨.hbm, 320, rfl⟩
abbrev main_v157 : Ref sig .tc := ⟨.hbm, 321, rfl⟩
abbrev main_v158 : Ref sig .tc := ⟨.hbm, 322, rfl⟩
abbrev main_cst_39 : Ref sig .tc := ⟨.hbm, 323, rfl⟩
abbrev main_v159 : Ref sig .tc := ⟨.hbm, 324, rfl⟩
abbrev main_v160 : Ref sig .tc := ⟨.hbm, 325, rfl⟩
abbrev main_c_40 : Ref sig .tc := ⟨.hbm, 326, rfl⟩
abbrev main_call7_cst : Ref sig .tc := ⟨.hbm, 327, rfl⟩
abbrev main_call7_v0 : Ref sig .tc := ⟨.hbm, 328, rfl⟩
abbrev main_call7_v1 : Ref sig .tc := ⟨.hbm, 329, rfl⟩
abbrev main_call7_cst_0 : Ref sig .tc := ⟨.hbm, 330, rfl⟩
abbrev main_call7_v2 : Ref sig .tc := ⟨.hbm, 331, rfl⟩
abbrev main_call7_v3 : Ref sig .tc := ⟨.hbm, 332, rfl⟩
abbrev main_call7_v4 : Ref sig .tc := ⟨.hbm, 333, rfl⟩
abbrev main_call7_v5 : Ref sig .tc := ⟨.hbm, 334, rfl⟩
abbrev main_call7_v6 : Ref sig .tc := ⟨.hbm, 335, rfl⟩
abbrev main_call7_v7 : Ref sig .tc := ⟨.hbm, 336, rfl⟩
abbrev main_call7_cst_1 : Ref sig .tc := ⟨.hbm, 337, rfl⟩
abbrev main_call7_v8 : Ref sig .tc := ⟨.hbm, 338, rfl⟩
abbrev main_call7_cst_2 : Ref sig .tc := ⟨.hbm, 339, rfl⟩
abbrev main_call7_v9 : Ref sig .tc := ⟨.hbm, 340, rfl⟩
abbrev main_call7_v10 : Ref sig .tc := ⟨.hbm, 341, rfl⟩
abbrev main_call7_v11 : Ref sig .tc := ⟨.hbm, 342, rfl⟩
abbrev main_call7_v12 : Ref sig .tc := ⟨.hbm, 343, rfl⟩
abbrev main_call7_cst_3 : Ref sig .tc := ⟨.hbm, 344, rfl⟩
abbrev main_call7_v13 : Ref sig .tc := ⟨.hbm, 345, rfl⟩
abbrev main_call7_cst_4 : Ref sig .tc := ⟨.hbm, 346, rfl⟩
abbrev main_call7_call0_v0 : Ref sig .tc := ⟨.hbm, 347, rfl⟩
abbrev main_call7_call0_v1 : Ref sig .tc := ⟨.hbm, 348, rfl⟩
abbrev main_v161 : Ref sig .tc := ⟨.hbm, 349, rfl⟩
abbrev main_v162 : Ref sig .tc := ⟨.hbm, 350, rfl⟩
abbrev main_v163 : Ref sig .tc := ⟨.hbm, 351, rfl⟩
abbrev main_cst_41 : Ref sig .tc := ⟨.hbm, 352, rfl⟩
abbrev main_v164 : Ref sig .tc := ⟨.hbm, 353, rfl⟩
abbrev main_v165 : Ref sig .tc := ⟨.hbm, 354, rfl⟩
abbrev main_v166 : Ref sig .tc := ⟨.hbm, 355, rfl⟩
abbrev main_v167 : Ref sig .tc := ⟨.hbm, 356, rfl⟩
abbrev main_v168 : Ref sig .tc := ⟨.hbm, 357, rfl⟩
abbrev main_v169 : Ref sig .tc := ⟨.hbm, 358, rfl⟩
abbrev main_v170 : Ref sig .tc := ⟨.hbm, 359, rfl⟩
abbrev main_cst_42 : Ref sig .tc := ⟨.hbm, 360, rfl⟩
abbrev main_v171 : Ref sig .tc := ⟨.hbm, 361, rfl⟩
abbrev main_v172 : Ref sig .tc := ⟨.hbm, 362, rfl⟩
abbrev main_v173 : Ref sig .tc := ⟨.hbm, 363, rfl⟩
abbrev main_cst_43 : Ref sig .tc := ⟨.hbm, 364, rfl⟩
abbrev main_v174 : Ref sig .tc := ⟨.hbm, 365, rfl⟩
abbrev main_v175 : Ref sig .tc := ⟨.hbm, 366, rfl⟩
abbrev main_v176 : Ref sig .tc := ⟨.hbm, 367, rfl⟩
abbrev main_v177 : Ref sig .tc := ⟨.hbm, 368, rfl⟩
abbrev main_v178 : Ref sig .tc := ⟨.hbm, 369, rfl⟩
abbrev main_v179 : Ref sig .tc := ⟨.hbm, 370, rfl⟩
abbrev main_cst_44 : Ref sig .tc := ⟨.hbm, 371, rfl⟩
abbrev main_v180 : Ref sig .tc := ⟨.hbm, 372, rfl⟩
abbrev main_v181 : Ref sig .tc := ⟨.hbm, 373, rfl⟩
abbrev main_v182 : Ref sig .tc := ⟨.hbm, 374, rfl⟩
abbrev main_cst_45 : Ref sig .tc := ⟨.hbm, 375, rfl⟩
abbrev main_v183 : Ref sig .tc := ⟨.hbm, 376, rfl⟩
abbrev main_v184 : Ref sig .tc := ⟨.hbm, 377, rfl⟩
abbrev main_v185 : Ref sig .tc := ⟨.hbm, 378, rfl⟩
abbrev main_v186 : Ref sig .tc := ⟨.hbm, 379, rfl⟩
abbrev main_v187 : Ref sig .tc := ⟨.hbm, 380, rfl⟩
abbrev main_v188 : Ref sig .tc := ⟨.hbm, 381, rfl⟩
abbrev main_cst_46 : Ref sig .tc := ⟨.hbm, 382, rfl⟩
abbrev main_v189 : Ref sig .tc := ⟨.hbm, 383, rfl⟩
abbrev main_cst_47 : Ref sig .tc := ⟨.hbm, 384, rfl⟩
abbrev main_v190 : Ref sig .tc := ⟨.hbm, 385, rfl⟩
abbrev main_v191 : Ref sig .tc := ⟨.hbm, 386, rfl⟩
abbrev main_v192 : Ref sig .tc := ⟨.hbm, 387, rfl⟩
abbrev main_v193 : Ref sig .tc := ⟨.hbm, 388, rfl⟩
abbrev main_v194 : Ref sig .tc := ⟨.hbm, 389, rfl⟩
abbrev main_v195 : Ref sig .tc := ⟨.hbm, 390, rfl⟩
abbrev main_cst_48 : Ref sig .tc := ⟨.hbm, 391, rfl⟩
abbrev main_v196 : Ref sig .tc := ⟨.hbm, 392, rfl⟩
abbrev main_v197 : Ref sig .tc := ⟨.hbm, 393, rfl⟩
abbrev main_v198 : Ref sig .tc := ⟨.hbm, 394, rfl⟩
abbrev main_v199 : Ref sig .tc := ⟨.hbm, 395, rfl⟩
abbrev main_v200 : Ref sig .tc := ⟨.hbm, 396, rfl⟩
abbrev main_v201 : Ref sig .tc := ⟨.hbm, 397, rfl⟩
abbrev main_v202 : Ref sig .tc := ⟨.hbm, 398, rfl⟩
abbrev main_v203 : Ref sig .tc := ⟨.hbm, 399, rfl⟩
abbrev main_v204 : Ref sig .tc := ⟨.hbm, 400, rfl⟩
abbrev main_call8_cst : Ref sig .tc := ⟨.hbm, 401, rfl⟩
abbrev main_call8_v0 : Ref sig .tc := ⟨.hbm, 402, rfl⟩
abbrev main_v205 : Ref sig .tc := ⟨.hbm, 403, rfl⟩
abbrev main_cst_49 : Ref sig .tc := ⟨.hbm, 404, rfl⟩
abbrev main_v206 : Ref sig .tc := ⟨.hbm, 405, rfl⟩
abbrev main_v207 : Ref sig .tc := ⟨.hbm, 406, rfl⟩
abbrev main_v208 : Ref sig .tc := ⟨.hbm, 407, rfl⟩
abbrev main_v209 : Ref sig .tc := ⟨.hbm, 408, rfl⟩
abbrev main_v210 : Ref sig .tc := ⟨.hbm, 409, rfl⟩
abbrev main_v211 : Ref sig .tc := ⟨.hbm, 410, rfl⟩
abbrev main_v212 : Ref sig .tc := ⟨.hbm, 411, rfl⟩
abbrev main_v213 : Ref sig .tc := ⟨.hbm, 412, rfl⟩
abbrev main_v214 : Ref sig .tc := ⟨.hbm, 413, rfl⟩
abbrev main_cst_50 : Ref sig .tc := ⟨.hbm, 414, rfl⟩
abbrev main_v215 : Ref sig .tc := ⟨.hbm, 415, rfl⟩
abbrev main_cst_51 : Ref sig .tc := ⟨.hbm, 416, rfl⟩
abbrev main_v216 : Ref sig .tc := ⟨.hbm, 417, rfl⟩
abbrev main_v217 : Ref sig .tc := ⟨.hbm, 418, rfl⟩

abbrev nD : Nat := 1
abbrev τ : Topo := Topo.v7x

variable {F : FTy → Type} [FloatOps F]

class Facts₀ : Prop where
  reducesTo_S4x64x64x256_S4x256_d1_2 : S4x64x64x256.ReducesTo [1, 2] S4x256
  h_S_ : 0 < S_.numel
  bcast_S4x256_S4x1x1x256_0_3 : S4x256.BroadcastsInDim S4x1x1x256 (![0, 3] : Fin 2 → Fin S4x1x1x256.rank)
  bcast_S_S4x1x1x256 : S_.BroadcastsInDim S4x1x1x256 (![] : Fin 0 → Fin S4x1x1x256.rank)
  bcast_S4x1x1x256_S4x64x64x256_0_1_2_3 : S4x1x1x256.BroadcastsInDim S4x64x64x256 (![0, 1, 2, 3] : Fin 4 → Fin S4x64x64x256.rank)
  shapeCasts_S4x64x64x256_S4x4096x256 : S4x64x64x256.ShapeCasts S4x4096x256
  reducesTo_S4x4096x256_S4x4096_d2 : S4x4096x256.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x256_0_1_2 : S4x4096x1.BroadcastsInDim S4x4096x256 (![0, 1, 2] : Fin 3 → Fin S4x4096x256.rank)
  reducesTo_S4x4096x4096_S4x4096_d2 : S4x4096x4096.ReducesTo [2] S4x4096
  bcast_S_S4x4096 : S_.BroadcastsInDim S4x4096 (![] : Fin 0 → Fin S4x4096.rank)
  bcast_S4x4096x1_S4x4096x4096_0_1_2 : S4x4096x1.BroadcastsInDim S4x4096x4096 (![0, 1, 2] : Fin 3 → Fin S4x4096x4096.rank)
  bcast_S_S4x4096x256 : S_.BroadcastsInDim S4x4096x256 (![] : Fin 0 → Fin S4x4096x256.rank)
  shapeCasts_S4x4096x256_S4x64x64x256 : S4x4096x256.ShapeCasts S4x64x64x256
  reducesTo_S4x64x64x256_S_d0_1_2_3 : S4x64x64x256.ReducesTo [0, 1, 2, 3] S_
  reducesTo_S4x32x32x512_S4x512_d1_2 : S4x32x32x512.ReducesTo [1, 2] S4x512
  bcast_S4x512_S4x1x1x512_0_3 : S4x512.BroadcastsInDim S4x1x1x512 (![0, 3] : Fin 2 → Fin S4x1x1x512.rank)
  bcast_S_S4x1x1x512 : S_.BroadcastsInDim S4x1x1x512 (![] : Fin 0 → Fin S4x1x1x512.rank)
  bcast_S4x1x1x512_S4x32x32x512_0_1_2_3 : S4x1x1x512.BroadcastsInDim S4x32x32x512 (![0, 1, 2, 3] : Fin 4 → Fin S4x32x32x512.rank)
  shapeCasts_S4x32x32x512_S4x1024x512 : S4x32x32x512.ShapeCasts S4x1024x512
  reducesTo_S4x1024x512_S4x1024_d2 : S4x1024x512.ReducesTo [2] S4x1024
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x512_0_1_2 : S4x1024x1.BroadcastsInDim S4x1024x512 (![0, 1, 2] : Fin 3 → Fin S4x1024x512.rank)
  reducesTo_S4x1024x1024_S4x1024_d2 : S4x1024x1024.ReducesTo [2] S4x1024
  bcast_S_S4x1024 : S_.BroadcastsInDim S4x1024 (![] : Fin 0 → Fin S4x1024.rank)
  bcast_S4x1024x1_S4x1024x1024_0_1_2 : S4x1024x1.BroadcastsInDim S4x1024x1024 (![0, 1, 2] : Fin 3 → Fin S4x1024x1024.rank)
  bcast_S_S4x1024x512 : S_.BroadcastsInDim S4x1024x512 (![] : Fin 0 → Fin S4x1024x512.rank)
  shapeCasts_S4x1024x512_S4x32x32x512 : S4x1024x512.ShapeCasts S4x32x32x512
  reducesTo_S4x32x32x512_S_d0_1_2_3 : S4x32x32x512.ReducesTo [0, 1, 2, 3] S_
  reducesTo_S4x16x16x512_S4x512_d1_2 : S4x16x16x512.ReducesTo [1, 2] S4x512
  bcast_S4x1x1x512_S4x16x16x512_0_1_2_3 : S4x1x1x512.BroadcastsInDim S4x16x16x512 (![0, 1, 2, 3] : Fin 4 → Fin S4x16x16x512.rank)
  shapeCasts_S4x16x16x512_S4x256x512 : S4x16x16x512.ShapeCasts S4x256x512
  reducesTo_S4x256x512_S4x256_d2 : S4x256x512.ReducesTo [2] S4x256
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x512_0_1_2 : S4x256x1.BroadcastsInDim S4x256x512 (![0, 1, 2] : Fin 3 → Fin S4x256x512.rank)
  reducesTo_S4x256x256_S4x256_d2 : S4x256x256.ReducesTo [2] S4x256
  bcast_S_S4x256 : S_.BroadcastsInDim S4x256 (![] : Fin 0 → Fin S4x256.rank)
  bcast_S4x256x1_S4x256x256_0_1_2 : S4x256x1.BroadcastsInDim S4x256x256 (![0, 1, 2] : Fin 3 → Fin S4x256x256.rank)
  bcast_S_S4x256x512 : S_.BroadcastsInDim S4x256x512 (![] : Fin 0 → Fin S4x256x512.rank)
  shapeCasts_S4x256x512_S4x16x16x512 : S4x256x512.ShapeCasts S4x16x16x512
  reducesTo_S4x16x16x512_S_d0_1_2_3 : S4x16x16x512.ReducesTo [0, 1, 2, 3] S_
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]
  dot_S4x1024x512_S4x1024x512_S4x1024x1024_2_2_1_1_0_0_wf : DotDims.WF S4x1024x512 S4x1024x512 S4x1024x1024 [2] [2] [1] [1] [0] [0]
  dot_S4x1024x1024_S4x1024x512_S4x1024x512_2_1_1_2_0_0_wf : DotDims.WF S4x1024x1024 S4x1024x512 S4x1024x512 [2] [1] [1] [2] [0] [0]
  dot_S4x256x512_S4x256x512_S4x256x256_2_2_1_1_0_0_wf : DotDims.WF S4x256x512 S4x256x512 S4x256x256 [2] [2] [1] [1] [0] [0]
  dot_S4x256x256_S4x256x512_S4x256x512_2_1_1_2_0_0_wf : DotDims.WF S4x256x256 S4x256x512 S4x256x512 [2] [1] [1] [2] [0] [0]

variable [Facts₀]

def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf
def dot_S4x1024x512_S4x1024x512_S4x1024x1024_2_2_1_1_0_0 : DotDims S4x1024x512 S4x1024x512 S4x1024x1024 where
  lhsContracting := [2]
  rhsContracting := [2]
  lhsNonContracting := [1]
  rhsNonContracting := [1]
  lhsBatch := [0]
  rhsBatch := [0]
  wf := dot_S4x1024x512_S4x1024x512_S4x1024x1024_2_2_1_1_0_0_wf
def dot_S4x1024x1024_S4x1024x512_S4x1024x512_2_1_1_2_0_0 : DotDims S4x1024x1024 S4x1024x512 S4x1024x512 where
  lhsContracting := [2]
  rhsContracting := [1]
  lhsNonContracting := [1]
  rhsNonContracting := [2]
  lhsBatch := [0]
  rhsBatch := [0]
  wf := dot_S4x1024x1024_S4x1024x512_S4x1024x512_2_1_1_2_0_0_wf
def dot_S4x256x512_S4x256x512_S4x256x256_2_2_1_1_0_0 : DotDims S4x256x512 S4x256x512 S4x256x256 where
  lhsContracting := [2]
  rhsContracting := [2]
  lhsNonContracting := [1]
  rhsNonContracting := [1]
  lhsBatch := [0]
  rhsBatch := [0]
  wf := dot_S4x256x512_S4x256x512_S4x256x256_2_2_1_1_0_0_wf
def dot_S4x256x256_S4x256x512_S4x256x512_2_1_1_2_0_0 : DotDims S4x256x256 S4x256x512 S4x256x512 where
  lhsContracting := [2]
  rhsContracting := [1]
  lhsNonContracting := [1]
  rhsNonContracting := [2]
  lhsBatch := [0]
  rhsBatch := [0]
  wf := dot_S4x256x256_S4x256x512_S4x256x512_2_1_1_2_0_0_wf

class Facts : Prop extends Facts₀ where

variable [Facts]
-- ==== Proof.K.Common.lean ====
/-
  Names shared by the hand-written frame of the kernel program (any float instance `F`).
  Between two items of @main a TensorCore holds every unscoped buffer at the boundary's contents; beside them
  rides `R c`: the core's generator register at some state, and the core owing nothing.  No core signals
  another, so no level is assigned (`L`, `lv`) and the variants are the empty ones.
-/
import proofs.«170986_j45183055954173_2_alg».proof.Proof.Gen.Kernel.Launch
import proofs.«170986_j45183055954173_2_alg».proof.Proof.Gen.Kernel.Skeleton
import proofs.«170986_j45183055954173_2_alg».proof.Proof.Gen.Kernel.Points
import proofs.«170986_j45183055954173_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The resource algebra every hand module of this program works in. -/
abbrev MM (F : FTy → Type) [FloatOps F] : Type := MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers through every item of @main. -/
abbrev R (c : Dev nD) : sProp (MM F) :=
  iprop((∃ r, prngReg c r) ∗ ∃ W, owes (c : Thread nD τ) (0 : CellTallies nD τ sig Unit) W)

/-- The type of the three pipelines' proof data, as the conditional frame takes it. -/
abbrev PDats (F : FTy → Type) [FloatOps F] : Type :=
  (p : Fin 3) → (c : Dev nD) → Dat τ (Elt F) Unit ℕ (UR sig nD τ) ℕ (cfgs p) c

/-- The contents of a TensorCore's references: what each region's half is stated at. -/
abbrev RefVal (F : FTy → Type) [FloatOps F] : Type :=
  (c : Dev nD) → (b : Ref sig .tc) → Buf (Elt F) ((c : Thread nD τ).loc b)

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

end Cert.Kernel.Hand

end
-- ==== Proof.K.Assemble.lean ====
/-
  The run of the kernel program assembled from its three kernel regions (any float instance `F`).
  @main is nineteen items: stretches of host operations and, as items 5, 11 and 17, the three pallas_calls.  Between two
  items a TensorCore holds every unscoped buffer whole at the boundary's contents (`Gen.V0` … `Gen.V19`), beside the rest
  `R c`: its generator register at some state, and the core owing nothing.  GIVEN, per region, a segment record entered from
  the thread state before it and left at the one after it, every weakly fair execution of @main terminates, each argument
  array ends as launched (`frame_of_regs`), and the result buffer `main_v94` ends at the last valuation's contents
  (`value_of_regs`).  The algebra is one copy of the rounds algebra (the pipelines' staging cells), nothing else: no core
  signals another, so nothing is owed at launch and no ghost resource is dealt.
-/
import proofs.«170986_j45183055954173_2_alg».proof.Proof.K.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

/-! ## The launch -/

/-- The launch element: the rounds algebra's initial element at the three pipelines' staging cells. -/
abbrev u₀ : UR sig nD τ := initOf (Pipeline.cells cfgs cellOf_inj) (Pipeline.launchToks cfgs cellOf_inj)

/-- The launch element is the pipelines' own, and no ghost resource is dealt to any core. -/
theorem hu₀ : (ownU u₀ : sProp (MM F))
    ⊢ |={Set.univ}=> iprop(BI.own ((emb₁ : Emb (UR sig nD τ) (MM F)) u₀) ∗ bigSep Finset.univ fun _ : Dev nD => (iprop(emp) : sProp (MM F))) := by
  iintro Hu; imodintro
  isplitl [Hu]
  · iapply (show (ownU u₀ : sProp (MM F)) ⊢ BI.own ((emb₁ : Emb (UR sig nD τ) (MM F)) u₀) from .rfl)
    iexact Hu
  iapply (show (BI.emp : sProp (MM F)) ⊢ bigSep Finset.univ (fun _ : Dev nD => (BI.emp : sProp (MM F))) from by rw [BI.bigSep_emp_const])
  iempintro

/-- What the launch deals every core — its semaphores at zero, nothing owed, its generator register — makes the rest
    state `R` on every core at once: the register is kept at its launch state, and the core owes nothing with no wait open. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp (MM F)))) ∗ levAts L lv)
      ⊢ (|={Set.univ}=> bigSep Finset.univ (fun c : Dev nD => R (F := F) c) : sProp (MM F)) := by
  refine Pipeline.initEach L lv fun c => ?_
  iintro ⟨⟨-, HO, -, Hp, -⟩, -⟩
  imodintro
  isplitl [Hp]; · iexists _; iexact Hp
  iexists ∅; iexact HO

/-- The rest state ends owing nothing. -/
theorem hE3 (c : Dev nD) : R (F := F) c ⊢ (iprop(∃ W, owes (c : Thread nD τ) (0 : CellTallies nD τ sig Unit) W) : sProp (MM F)) := by
  iintro ⟨-, HW⟩; iexact HW

/-! ## The frame, given the regions' records -/

/-- THE FRAME OF THE PROGRAM from its regions' records: every weakly fair execution of @main from memory `m` with zero
    counters terminates, and every final memory holds each argument array as launched. -/
theorem frame_of_regs (m : (ℓ : Loc nD τ sig) → Buf (Elt F) ℓ) (ρ : Dev nD → PrngReg) (outs : Gen.Outs (F := F)) (pdats : PDats F)
    (R0 : Pipeline.RegionSeg (pcfgs (F := F)) Gen.adm pdats () defs₀ 𝒱₀ L lv 0)
    (hpre0 : ∀ c : Dev nD, iprop(StableHlo.held (c : Thread nD τ) (Pipeline.ucRefs τ sig) (Gen.V5 m c) ∗ R c) ⊢ R0.pre c)
    (hpost0 : ∀ c : Dev nD, R0.post c ⊢ iprop(StableHlo.held (c : Thread nD τ) (Pipeline.ucRefs τ sig) (Gen.V6 m outs c) ∗ R c))
    (R1 : Pipeline.RegionSeg (pcfgs (F := F)) Gen.adm pdats () defs₀ 𝒱₀ L lv 1)
    (hpre1 : ∀ c : Dev nD, iprop(StableHlo.held (c : Thread nD τ) (Pipeline.ucRefs τ sig) (Gen.V11 m outs c) ∗ R c) ⊢ R1.pre c)
    (hpost1 : ∀ c : Dev nD, R1.post c ⊢ iprop(StableHlo.held (c : Thread nD τ) (Pipeline.ucRefs τ sig) (Gen.V12 m outs c) ∗ R c))
    (R2 : Pipeline.RegionSeg (pcfgs (F := F)) Gen.adm pdats () defs₀ 𝒱₀ L lv 2)
    (hpre2 : ∀ c : Dev nD, iprop(StableHlo.held (c : Thread nD τ) (Pipeline.ucRefs τ sig) (Gen.V17 m outs c) ∗ R c) ⊢ R2.pre c)
    (hpost2 : ∀ c : Dev nD, R2.post c ⊢ iprop(StableHlo.held (c : Thread nD τ) (Pipeline.ucRefs τ sig) (Gen.V18 m outs c) ∗ R c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m (emb₁ : Emb (UR sig nD τ) (MM F)) () 𝒱₀ L lv (fun _ _ => rfl) ρ outs pdats 0 (fun _ => iprop(emp)) u₀ hu₀
    (fun _ c => R c) (hE0 ρ) hE3 R0 hpre0 hpost0 R1 hpre1 hpost1 R2 hpre2 hpost2

/-! ## The result, given the regions' records -/

-- the launch theorem's implicit arguments are found by unifying its conclusion with this one, which takes unfolding
-- plain definitions in a metavariable's type
set_option backward.isDefEq.respectTransparency.types false in
/-- THE RESULT OF THE PROGRAM from its regions' records: the same launch, read at one more buffer.  Every weakly fair
    execution of @main from memory `m` with zero counters terminates, and every final memory holds the result buffer
    `main_v94` at the last valuation's contents — the host tail's sum of the three regions' outputs, over whatever
    the regions left (`outs`) — and each argument array as launched. -/
theorem value_of_regs (m : (ℓ : Loc nD τ sig) → Buf (Elt F) ℓ) (ρ : Dev nD → PrngReg) (outs : Gen.Outs (F := F)) (pdats : PDats F)
    (R0 : Pipeline.RegionSeg (pcfgs (F := F)) Gen.adm pdats () defs₀ 𝒱₀ L lv 0)
    (hpre0 : ∀ c : Dev nD, iprop(StableHlo.held (c : Thread nD τ) (Pipeline.ucRefs τ sig) (Gen.V5 m c) ∗ R c) ⊢ R0.pre c)
    (hpost0 : ∀ c : Dev nD, R0.post c ⊢ iprop(StableHlo.held (c : Thread nD τ) (Pipeline.ucRefs τ sig) (Gen.V6 m outs c) ∗ R c))
    (R1 : Pipeline.RegionSeg (pcfgs (F := F)) Gen.adm pdats () defs₀ 𝒱₀ L lv 1)
    (hpre1 : ∀ c : Dev nD, iprop(StableHlo.held (c : Thread nD τ) (Pipeline.ucRefs τ sig) (Gen.V11 m outs c) ∗ R c) ⊢ R1.pre c)
    (hpost1 : ∀ c : Dev nD, R1.post c ⊢ iprop(StableHlo.held (c : Thread nD τ) (Pipeline.ucRefs τ sig) (Gen.V12 m outs c) ∗ R c))
    (R2 : Pipeline.RegionSeg (pcfgs (F := F)) Gen.adm pdats () defs₀ 𝒱₀ L lv 2)
    (hpre2 : ∀ c : Dev nD, iprop(StableHlo.held (c : Thread nD τ) (Pipeline.ucRefs τ sig) (Gen.V17 m outs c) ∗ R c) ⊢ R2.pre c)
    (hpost2 : ∀ c : Dev nD, R2.post c ⊢ iprop(StableHlo.held (c : Thread nD τ) (Pipeline.ucRefs τ sig) (Gen.V18 m outs c) ∗ R c)) :
    θ_run defs (onTc (τ := τ) (main (F := F))) ⟨m, fun _ => 0, ρ⟩ (fun r => ∀ c : Dev nD,
      r.2.mem ((c.tc : Thread nD τ).loc main_v94) = Gen.V19 m outs c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) Gen.adm pdats () cellOf_inj (emb₁ : Emb (UR sig nD τ) (MM F)) defs₀ 𝒱₀ L lv m ρ main
    (Gen.segs m outs 𝒱₀ L lv (fun _ c => R c) () pdats R0 R1 R2)
    (fun c Q => by
      rewrite [main_chain c, Seg.run_eq_chain,
        show (Gen.segs m outs 𝒱₀ L lv (fun _ c => R (F := F) c) () pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (fun c => by simp only [Gen.segs, Seg.pipes_host, Seg.pipes_region, Seg.pipes_nil]; decide) 0 (fun _ _ => rfl)
    (fun _ => iprop(emp)) u₀ hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V19 m outs c))
    (hch := fun c => ⟨.rfl, .rfl, .rfl, .rfl, .rfl, hpre0 c, hpost0 c, .rfl, .rfl, .rfl, .rfl, hpre1 c, hpost1 c, .rfl, .rfl, .rfl, .rfl, hpre2 c, hpost2 c, sep_mono .rfl (hE3 c)⟩)
    (hinit := ?_)
    (QY := fun c s => s.mem ((c.tc : Thread nD τ).loc main_v94) = Gen.V19 m outs c main_v94 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch, core by core: the unscoped buffers are held at the launch contents; the register is kept, nothing is owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result buffer and each argument's buffer read off the last valuation
    unfold StableHlo.held
    iintro ⟨Hh, HSI⟩
    ihave Hr := (pointsTo_read_all (Pipeline.ucRefs τ sig) (fun b => ((c : Thread nD τ).1, b)) (Gen.V19 m outs c) s') $$ [Hh HSI]
    · isplitl [Hh] <;> iassumption
    icases Hr with ⟨%h, HSI⟩
    imodintro
    isplitr
    · ipureintro
      exact ⟨h (Proc.devRef .tc main_v94) (mem_uc main_v94 (by decide)),
        (h (Proc.devRef .tc main_arg0) (mem_uc main_arg0 (by decide))).trans (Gen.V19_main_arg0 m outs c),
        (h (Proc.devRef .tc main_arg1) (mem_uc main_arg1 (by decide))).trans (Gen.V19_main_arg1 m outs c),
        (h (Proc.devRef .tc main_arg2) (mem_uc main_arg2 (by decide))).trans (Gen.V19_main_arg2 m outs c),
        (h (Proc.devRef .tc main_arg3) (mem_uc main_arg3 (by decide))).trans (Gen.V19_main_arg3 m outs c),
        (h (Proc.devRef .tc main_arg4) (mem_uc main_arg4 (by decide))).trans (Gen.V19_main_arg4 m outs c),
        (h (Proc.devRef .tc main_arg5) (mem_uc main_arg5 (by decide))).trans (Gen.V19_main_arg5 m outs c),
        (h (Proc.devRef .tc main_arg6) (mem_uc main_arg6 (by decide))).trans (Gen.V19_main_arg6 m outs c),
        (h (Proc.devRef .tc main_arg7) (mem_uc main_arg7 (by decide))).trans (Gen.V19_main_arg7 m outs c),
        (h (Proc.devRef .tc main_arg8) (mem_uc main_arg8 (by decide))).trans (Gen.V19_main_arg8 m outs c)⟩
    · iexact HSI

end Cert.Kernel.Hand

end
-- ==== Proof.K.Region0Runs.lean ====
/-
  Region 0 of the kernel program (the first pallas_call: grid 2 x 8 x 4, the last axis the kv step): what the
  per-case runs of its body share.  The body branches twice on the kv step: the first branch is taken at
  step 0 (the accumulators and the two caches are initialised), the second at step 3 (the output block is
  stored).  Over the 64 points in row-major order the kv step is the point's index mod 4.
-/
import proofs.«170986_j45183055954173_2_alg».proof.Proof.K.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## The body's two branch conditions, decided over the grid -/

/-- The condition of the first branch (`kv step = 0`), from the grid coordinates. -/
abbrev cond0_0 (i : grid0.Coords) : Prop :=
  (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the second branch (`kv step = 3`, the last). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Input window 6 is never idle. -/
theorem liveAt0_6 : ∀ t : Fin cfg0.N, cfg0.idle 6 (grid0.coords t) = false := by decide +kernel
/-- Where the second branch is not taken the output window is idle: nothing is stored into it. -/
theorem idleAt0_7 : ∀ t : Fin cfg0.N, ¬cond0_1 (grid0.coords t) → cfg0.idle 7 (grid0.coords t) = true := by decide +kernel
/-- And its block is not written back there. -/
theorem noFlush0_7 : ∀ t : Fin cfg0.N, ¬cond0_1 (grid0.coords t) → (cfg0.win 7).flush t = false := by decide +kernel
/-- Where the second branch is taken the output window is live. -/
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S2x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x8x128 .f32 := win0_7.stage (cfg0.slots t 7)
abbrev hs0_7 (t : Fin cfg0.N) : (ms0_7 t).IsWhole := hstage0_7 ((cfg0.slots t 7).cast nbuf0_7)
/-- The five scratch operands: whole scoped buffers of the call's own (the row sums, the two accumulators, the
    normalised query block and its unit-length bf16 form). -/
abbrev scM0_0 : Memref sig .tc .vmem S2x512x1 .f32 := Memref.whole cc0_scratch0
abbrev scM0_1 : Memref sig .tc .vmem S2x512x256 .f32 := Memref.whole cc0_scratch1
abbrev scM0_2 : Memref sig .tc .vmem S2x512x256 .f32 := Memref.whole cc0_scratch2
abbrev scM0_3 : Memref sig .tc .vmem S2x512x256 .f32 := Memref.whole cc0_scratch3
abbrev scM0_4 : Memref sig .tc .vmem S2x512x256 .bf16 := Memref.whole cc0_scratch4
/-- The views through which the output block's and the scratch buffers' contents are stated. -/
abbrev VO0_7 : View sig .tc .vmem S1x1x8x128 .f32 := (Memref.whole cc0_stg7_0 : Memref sig .tc .vmem S1x1x8x128 .f32).view
abbrev VS0_0 : View sig .tc .vmem S2x512x1 .f32 := scM0_0.view
abbrev VS0_1 : View sig .tc .vmem S2x512x256 .f32 := scM0_1.view
abbrev VS0_2 : View sig .tc .vmem S2x512x256 .f32 := scM0_2.view
abbrev VS0_3 : View sig .tc .vmem S2x512x256 .f32 := scM0_3.view
abbrev VS0_4 : View sig .tc .vmem S2x512x256 .bf16 := scM0_4.view

/-- The scoped buffers no window stages, besides the call's five scratch operands. -/
abbrev restBut0 (c : Dev nD) : sProp (MM F) :=
  Pipeline.scopedRestBut (Ix := Unit) (Name := ℕ) (U := UR sig nD τ) (Lvl := ℕ) (Val := Elt F) spec0 c
    [cc0_scratch0, cc0_scratch1, cc0_scratch2, cc0_scratch3, cc0_scratch4]

/-- The class invariant with the scratch operands as memrefs owned at some contents. -/
theorem PhiA0_eq (c : Dev nD) :
    (Pipeline.ΦA spec0 c : sProp (MM F))
      = iprop(iprop(iprop((∃ d, owns (c : Thread nD τ) scM0_0 fullShare d) ∗ (∃ d, owns (c : Thread nD τ) scM0_1 fullShare d)
            ∗ (∃ d, owns (c : Thread nD τ) scM0_2 fullShare d) ∗ (∃ d, owns (c : Thread nD τ) scM0_3 fullShare d)
            ∗ (∃ d, owns (c : Thread nD τ) scM0_4 fullShare d)) ∗ restBut0 c) ∗ (∃ r, prngReg c r)) := by
  unfold Pipeline.ΦA; rw [scopedRest0_split]; simp only [scM0_0, scM0_1, scM0_2, scM0_3, scM0_4, owns_whole]; try rfl

end Cert.Kernel.Hand

end
-- ==== Proof.K.Region0RunA.lean ====
/-
  The body of region 0 at a first kv step (the first branch taken, the second not): the five scratch buffers are
  stored whole before anything is read from them, the accumulators then updated with this step's scores, and the
  output block is left alone.
-/
import proofs.«170986_j45183055954173_2_alg».proof.Proof.K.Region0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxHeartbeats 4000000 in
/-- The body's triple at a first kv step, on any whole memrefs: the inputs and the output block are handed back
    as they were, each scratch buffer with the pieces the stores left in it (the piece lists are what the run finds). -/
noncomputable def kernelRun0_A (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i)
    (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) :
    Σ' (LS0 : List (View.Piece (Elt F) S2x512x1 .f32)) (LS1 : List (View.Piece (Elt F) S2x512x256 .f32)) (LS2 : List (View.Piece (Elt F) S2x512x256 .f32)) (LS3 : List (View.Piece (Elt F) S2x512x256 .f32)), { LS4 : List (View.Piece (Elt F) S2x512x256 .bf16) //
      ∀ (xi7 : Vec F S1x1x8x128 .f32) (E : Set ℕ) (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0__aat_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi7 E K => ?run⟩
  case run =>
    simp only [cc0__aat_kernel_eq_skeleton]; unfold cc0__aat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, HS0⟩, ⟨%d9, %f9, -, HS1⟩, ⟨%d10, %f10, -, HS2⟩, ⟨%d11, %f11, -, HS3⟩, ⟨%d12, %f12, -, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.K.Region0RunB.lean ====
/-
  The body of region 0 at a middle kv step (neither branch taken): the row sums and the two accumulators are
  read at what the step before left and stored back updated; the two caches are only read.
-/
import proofs.«170986_j45183055954173_2_alg».proof.Proof.K.Region0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxHeartbeats 4000000 in
/-- The body's triple at a middle kv step, on any whole memrefs: the three accumulators, held at what the step
    before left, come back with the pieces this step's stores left in them; the inputs, the output block and
    the two caches are handed back as they were. -/
noncomputable def kernelRun0_B (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : ¬cond0_1 i)
    (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) :
    Σ' (LS0 : List (View.Piece (Elt F) S2x512x1 .f32)) (LS1 : List (View.Piece (Elt F) S2x512x256 .f32)), { LS2 : List (View.Piece (Elt F) S2x512x256 .f32) //
      ∀ (xi7 : Vec F S1x1x8x128 .f32) (E : Set ℕ) (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ owns (c : Thread nD τ) arg14 fullShare xs3 ∗ owns (c : Thread nD τ) arg15 fullShare xs4) -∗ K ⟨⟩))
          ⊢ wp frame (wpE (defs₀ (F := F)) Variants.none c none) E (cc0__aat_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi7 E K => ?run⟩
  case run =>
    simp only [cc0__aat_kernel_eq_skeleton]; unfold cc0__aat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, HS0⟩, ⟨%f9, %hf9, HS1⟩, ⟨%f10, %hf10, HS2⟩, ⟨%f11, %hf11, HS3⟩, ⟨%f12, %hf12, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    isplitl [HS2]; · iexists _; iexact HS2
    isplitl [HS3]
    · iexists _; isplitr; · ipureintro; exact harg14.read_unread _
      iexact HS3
    iexists _; isplitr; · ipureintro; exact harg15.read_unread _
    iexact HS4

end Cert.Kernel.Hand

end
-- ==== Proof.K.Region0RunC.lean ====
/-
  The body of region 0 at the last kv step (the second branch taken): the accumulators are updated as at a
  middle step, then read back with the cached normalised queries and the stylised block, and the output block
  is stored.
-/
import proofs.«170986_j45183055954173_2_alg».proof.Proof.K.Region0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxHeartbeats 4000000 in
/-- The body's triple at the last kv step, on any whole memrefs: the accumulators as at a middle step, and the
    output block with the piece the final store left in it; the inputs and the two caches are handed back as
    they were. -/
noncomputable def kernelRun0_C (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : cond0_1 i)
    (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) :
    Σ' (L7 : List (View.Piece (Elt F) S1x1x8x128 .f32)) (LS0 : List (View.Piece (Elt F) S2x512x1 .f32)) (LS1 : List (View.Piece (Elt F) S2x512x256 .f32)), { LS2 : List (View.Piece (Elt F) S2x512x256 .f32) //
      ∀ (E : Set ℕ) (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ owns (c : Thread nD τ) arg14 fullShare xs3 ∗ owns (c : Thread nD τ) arg15 fullShare xs4) -∗ K ⟨⟩))
          ⊢ wp frame (wpE (defs₀ (F := F)) Variants.none c none) E (cc0__aat_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__aat_kernel_eq_skeleton]; unfold cc0__aat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, HS0⟩, ⟨%f9, %hf9, HS1⟩, ⟨%f10, %hf10, HS2⟩, ⟨%f11, %hf11, HS3⟩, ⟨%f12, %hf12, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hf9; obtain rfl := harg13.eq_unread hf10; obtain rfl := harg14.eq_unread hf11; obtain rfl := harg15.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    isplitl [HS2]; · iexists _; iexact HS2
    isplitl [HS3]
    · iexists _; isplitr; · ipureintro; exact harg14.read_unread _
      iexact HS3
    iexists _; isplitr; · ipureintro; exact harg15.read_unread _
    iexact HS4

end Cert.Kernel.Hand

end
-- ==== Proof.K.Region0.lean ====
/-
  Region 0 of the kernel program: what the five scratch buffers and the output block hold after each grid point,
  the point-indexed invariant that carries the scratch buffers from one kv step to the next, the pipeline's
  proof data at the region's entry contents, and the body obligation.
-/
import proofs.«170986_j45183055954173_2_alg».proof.Proof.K.Region0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## The windows' blocks -/

/-- Window `w`'s block at point `t`, read off its array as the region finds it. -/
def iblk0 (V : RefVal F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What each case leaves -/

/-- The output block and the five scratch buffers, in that order. -/
abbrev Outs0 (F : FTy → Type) [FloatOps F] : Type :=
  Vec F S1x1x8x128 .f32 × Vec F S2x512x1 .f32 × Vec F S2x512x256 .f32 × Vec F S2x512x256 .f32 × Vec F S2x512x256 .f32 × Vec F S2x512x256 .bf16

theorem scover0_A_0 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (y : S2x512x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1 S2x512x1.size (by sl_kernel_rfl) y
theorem scover0_A_1 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (y : S2x512x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1 S2x512x256.size (by sl_kernel_rfl) y
theorem scover0_A_2 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (y : S2x512x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1 S2x512x256.size (by sl_kernel_rfl) y
theorem scover0_A_3 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (y : S2x512x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1 S2x512x256.size (by sl_kernel_rfl) y
theorem scover0_A_4 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (y : S2x512x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1 S2x512x256.size (by sl_kernel_rfl) y

/-- A first kv step: every scratch buffer at its stores read back; the output block is not stored into (its entry
    is a placeholder nothing consults: the window is idle there and not written back). -/
def outs0_A (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) : Outs0 F :=
  (VO0_7.read (Elt F) (VO0_7.writes (Elt F) VO0_7.junk []), VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1),
   VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1),
   VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1),
   VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1),
   VS0_4.read (Elt F) (VS0_4.writes (Elt F) VS0_4.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1))

theorem scover0_B_0 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S2x512x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).1 S2x512x1.size (by sl_kernel_rfl) y
theorem scover0_B_1 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S2x512x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.1 S2x512x256.size (by sl_kernel_rfl) y
theorem scover0_B_2 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S2x512x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.1 S2x512x256.size (by sl_kernel_rfl) y

/-- A middle kv step, over what the step before left in the scratch buffers: the three accumulators at their stores
    read back, the two caches as they were; the output block is not stored into. -/
def outs0_B (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) : Outs0 F :=
  (VO0_7.read (Elt F) (VO0_7.writes (Elt F) VO0_7.junk []), VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).1),
   VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.1),
   VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.1),
   xs3, xs4)

theorem cover0_C_7 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S1x1x8x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).1 S1x1x8x128.size (by sl_kernel_rfl) y
theorem scover0_C_0 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S2x512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.1 S2x512x1.size (by sl_kernel_rfl) y
theorem scover0_C_1 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S2x512x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.1 S2x512x256.size (by sl_kernel_rfl) y
theorem scover0_C_2 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S2x512x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.2.1 S2x512x256.size (by sl_kernel_rfl) y

/-- The last kv step, over what the step before left: the output block at its store read back, the accumulators as
    at a middle step, the two caches as they were. -/
def outs0_C (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) : Outs0 F :=
  (VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).1), VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.1),
   VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.1),
   VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.2.1),
   xs3, xs4)

/-! ## What the buffers hold after each point -/

theorem not_mod3_of_mod0 {n : ℕ} (h : n % 4 = 0) : ¬n % 4 = 3 := by omega
theorem pred_lt0 {n N : ℕ} (h : n < N) : n - 1 < N := Nat.lt_of_le_of_lt (Nat.sub_le _ _) h

/-- The output block and the scratch buffers after the body at position `n`, by recursion on the position: a first
    kv step reads nothing from before; a later one runs over what position `n - 1` left in the scratch buffers. -/
def outsAt0 (V : RefVal F) (c : Dev nD) : (n : ℕ) → n < cfg0.N → Outs0 F
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => not_mod3_of_mod0 (Nat.zero_mod 4) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)
  | n + 1, hn =>
    if h0 : (n + 1) % 4 = 0 then
      outs0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => not_mod3_of_mod0 h0 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩)
    else if h1 : (n + 1) % 4 = 3 then
      outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2.1 (outsAt0 V c n (Nat.lt_of_succ_lt hn)).2.2.1 (outsAt0 V c n (Nat.lt_of_succ_lt hn)).2.2.2.1 (outsAt0 V c n (Nat.lt_of_succ_lt hn)).2.2.2.2.1 (outsAt0 V c n (Nat.lt_of_succ_lt hn)).2.2.2.2.2
    else
      outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2.1 (outsAt0 V c n (Nat.lt_of_succ_lt hn)).2.2.1 (outsAt0 V c n (Nat.lt_of_succ_lt hn)).2.2.2.1 (outsAt0 V c n (Nat.lt_of_succ_lt hn)).2.2.2.2.1 (outsAt0 V c n (Nat.lt_of_succ_lt hn)).2.2.2.2.2

/-- At a first kv step. -/
theorem outsAt0_A (V : RefVal F) (c : Dev nD) (t : Fin cfg0.N) (h0 : t.val % 4 = 0) :
    outsAt0 V c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not_mod3_of_mod0 h0 ((hcond0_1 t).mp h)) (iblk0 V c 0 t) (iblk0 V c 1 t) (iblk0 V c 2 t) (iblk0 V c 3 t) (iblk0 V c 4 t) (iblk0 V c 5 t) (iblk0 V c 6 t) := by
  obtain ⟨n, hn⟩ := t
  cases n with
  | zero => exact rfl
  | succ n => exact (dif_pos h0).trans rfl

/-- At a middle kv step, over what the point before left. -/
theorem outsAt0_B (V : RefVal F) (c : Dev nD) (t : Fin cfg0.N) (h0 : ¬t.val % 4 = 0) (h1 : ¬t.val % 4 = 3) :
    outsAt0 V c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (pred_lt0 t.isLt)).2.1 (outsAt0 V c (t.val - 1) (pred_lt0 t.isLt)).2.2.1 (outsAt0 V c (t.val - 1) (pred_lt0 t.isLt)).2.2.2.1 (outsAt0 V c (t.val - 1) (pred_lt0 t.isLt)).2.2.2.2.1 (outsAt0 V c (t.val - 1) (pred_lt0 t.isLt)).2.2.2.2.2 := by
  obtain ⟨n, hn⟩ := t
  cases n with
  | zero => exact absurd (Nat.zero_mod _) h0
  | succ n => exact (dif_neg h0).trans ((dif_neg h1).trans rfl)

/-- At the last kv step, over what the point before left. -/
theorem outsAt0_C (V : RefVal F) (c : Dev nD) (t : Fin cfg0.N) (h0 : ¬t.val % 4 = 0) (h1 : t.val % 4 = 3) :
    outsAt0 V c t.val t.isLt = outs0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (pred_lt0 t.isLt)).2.1 (outsAt0 V c (t.val - 1) (pred_lt0 t.isLt)).2.2.1 (outsAt0 V c (t.val - 1) (pred_lt0 t.isLt)).2.2.2.1 (outsAt0 V c (t.val - 1) (pred_lt0 t.isLt)).2.2.2.2.1 (outsAt0 V c (t.val - 1) (pred_lt0 t.isLt)).2.2.2.2.2 := by
  obtain ⟨n, hn⟩ := t
  cases n with
  | zero => exact absurd (Nat.zero_mod _) h0
  | succ n => exact (dif_neg h0).trans ((dif_pos h1).trans rfl)

/-! ## The invariant -/

/-- The scratch buffers owned whole at the components of `o`, the other scoped buffers at anything, the generator
    register at some state. -/
def scAt0 (c : Dev nD) (o : Outs0 F) : sProp (MM F) :=
  iprop(iprop(iprop(owns (c : Thread nD τ) scM0_0 fullShare o.2.1 ∗ owns (c : Thread nD τ) scM0_1 fullShare o.2.2.1
      ∗ owns (c : Thread nD τ) scM0_2 fullShare o.2.2.2.1 ∗ owns (c : Thread nD τ) scM0_3 fullShare o.2.2.2.2.1
      ∗ owns (c : Thread nD τ) scM0_4 fullShare o.2.2.2.2.2) ∗ restBut0 c) ∗ (∃ r, prngReg c r))

/-- The same with the contents listed. -/
theorem scAt0_mk (c : Dev nD) (o7 : Vec F S1x1x8x128 .f32) (o0 : Vec F S2x512x1 .f32) (o1 o2 o3 : Vec F S2x512x256 .f32) (o4 : Vec F S2x512x256 .bf16) :
    scAt0 c (o7, o0, o1, o2, o3, o4)
      = iprop(iprop(iprop(owns (c : Thread nD τ) scM0_0 fullShare o0 ∗ owns (c : Thread nD τ) scM0_1 fullShare o1
          ∗ owns (c : Thread nD τ) scM0_2 fullShare o2 ∗ owns (c : Thread nD τ) scM0_3 fullShare o3
          ∗ owns (c : Thread nD τ) scM0_4 fullShare o4) ∗ restBut0 c) ∗ (∃ r, prngReg c r)) := rfl

theorem outs0_fst (o7 : Vec F S1x1x8x128 .f32) (o : Vec F S2x512x1 .f32 × Vec F S2x512x256 .f32 × Vec F S2x512x256 .f32 × Vec F S2x512x256 .f32 × Vec F S2x512x256 .bf16) :
    ((o7, o) : Outs0 F).1 = o7 := rfl

/-- The region's invariant before position `n`: before the first point the class invariant (every scoped buffer no
    window stages at anything, the generator register); afterwards the scratch buffers at what the point before left. -/
def PhiS0 (V : RefVal F) (c : Dev nD) : (n : ℕ) → n ≤ cfg0.N → sProp (MM F)
  | 0, _ => Pipeline.ΦA spec0 c
  | n + 1, hn => scAt0 c (outsAt0 V c n hn)

theorem PhiS0_zero (V : RefVal F) (c : Dev nD) (n : ℕ) (h : n ≤ cfg0.N) (hz : n = 0) : PhiS0 V c n h = Pipeline.ΦA spec0 c := by
  subst hz; rfl

theorem PhiS0_succ (V : RefVal F) (c : Dev nD) (n : ℕ) (hn : n < cfg0.N) :
    PhiS0 V c (n + 1) hn = scAt0 c (outsAt0 V c n hn) := rfl

theorem PhiS0_pos (V : RefVal F) (c : Dev nD) (n : ℕ) (h : n ≤ cfg0.N) (hz : n ≠ 0) :
    PhiS0 V c n h = scAt0 c (outsAt0 V c (n - 1) (by omega)) := by
  cases n with
  | zero => exact absurd rfl hz
  | succ n => rfl

/-! ## The pipeline's proof data -/

/-- The proof data of pipeline 0 on core `c` at the entry contents `V`. -/
def dat0 (V : RefVal F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (V : RefVal F) (c : Dev nD) (w : Fin cfg0.W) : (dat0 V c).A w = V c (Pipeline.arrRef spec0 w) := by
  dsimp only [dat0]

theorem PhiS0_castSucc (V : RefVal F) (c : Dev nD) (t : Fin cfg0.N) :
    (dat0 V c).Φ t.castSucc = PhiS0 V c t.val (Nat.le_of_lt t.isLt) := by
  dsimp only [dat0]; simp only [Fin.coe_castSucc]

theorem after0_0 (V : RefVal F) (c : Dev nD) (t : Fin cfg0.N) : (dat0 V c).after 0 t = iblk0 V c 0 t := by dsimp only [dat0]
theorem after0_1 (V : RefVal F) (c : Dev nD) (t : Fin cfg0.N) : (dat0 V c).after 1 t = iblk0 V c 1 t := by dsimp only [dat0]
theorem after0_2 (V : RefVal F) (c : Dev nD) (t : Fin cfg0.N) : (dat0 V c).after 2 t = iblk0 V c 2 t := by dsimp only [dat0]
theorem after0_3 (V : RefVal F) (c : Dev nD) (t : Fin cfg0.N) : (dat0 V c).after 3 t = iblk0 V c 3 t := by dsimp only [dat0]
theorem after0_4 (V : RefVal F) (c : Dev nD) (t : Fin cfg0.N) : (dat0 V c).after 4 t = iblk0 V c 4 t := by dsimp only [dat0]
theorem after0_5 (V : RefVal F) (c : Dev nD) (t : Fin cfg0.N) : (dat0 V c).after 5 t = iblk0 V c 5 t := by dsimp only [dat0]
theorem after0_6 (V : RefVal F) (c : Dev nD) (t : Fin cfg0.N) : (dat0 V c).after 6 t = iblk0 V c 6 t := by dsimp only [dat0]
theorem after0_7 (V : RefVal F) (c : Dev nD) (t : Fin cfg0.N) : (dat0 V c).after 7 t = (outsAt0 V c t.val t.isLt).1 := by dsimp only [dat0]

/-- Input window 0's staging buffer holds its block at every point, fetched there or not. -/
theorem before0_0 (V : RefVal F) (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input window 1's staging buffer holds its block at every point, fetched there or not. -/
theorem before0_1 (V : RefVal F) (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input window 2's staging buffer holds its block at every point, fetched there or not. -/
theorem before0_2 (V : RefVal F) (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input window 3's staging buffer holds its block at every point, fetched there or not. -/
theorem before0_3 (V : RefVal F) (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Input window 4's staging buffer holds its block at every point, fetched there or not. -/
theorem before0_4 (V : RefVal F) (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Input window 5's staging buffer holds its block at every point, fetched there or not. -/
theorem before0_5 (V : RefVal F) (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
/-- Input window 6's staging buffer holds its block at every point, fetched there or not. -/
theorem before0_6 (V : RefVal F) (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

/-! ## The body obligation's two sides at a point -/

theorem leaves0_0 (V : RefVal F) (c : Dev nD) (t : Fin cfg0.N) :
    (dat0 V c).leavesExact 0 t = owns (c : Thread nD τ) (ms0_0 t) fullShare ((dat0 V c).after 0 t) := by
  unfold Dat.leavesExact; rw [liveAt0_0 t]
theorem leaves0_1 (V : RefVal F) (c : Dev nD) (t : Fin cfg0.N) :
    (dat0 V c).leavesExact 1 t = owns (c : Thread nD τ) (ms0_1 t) fullShare ((dat0 V c).after 1 t) := by
  unfold Dat.leavesExact; rw [liveAt0_1 t]
theorem leaves0_2 (V : RefVal F) (c : Dev nD) (t : Fin cfg0.N) :
    (dat0 V c).leavesExact 2 t = owns (c : Thread nD τ) (ms0_2 t) fullShare ((dat0 V c).after 2 t) := by
  unfold Dat.leavesExact; rw [liveAt0_2 t]
theorem leaves0_3 (V : RefVal F) (c : Dev nD) (t : Fin cfg0.N) :
    (dat0 V c).leavesExact 3 t = owns (c : Thread nD τ) (ms0_3 t) fullShare ((dat0 V c).after 3 t) := by
  unfold Dat.leavesExact; rw [liveAt0_3 t]
theorem leaves0_4 (V : RefVal F) (c : Dev nD) (t : Fin cfg0.N) :
    (dat0 V c).leavesExact 4 t = owns (c : Thread nD τ) (ms0_4 t) fullShare ((dat0 V c).after 4 t) := by
  unfold Dat.leavesExact; rw [liveAt0_4 t]
theorem leaves0_5 (V : RefVal F) (c : Dev nD) (t : Fin cfg0.N) :
    (dat0 V c).leavesExact 5 t = owns (c : Thread nD τ) (ms0_5 t) fullShare ((dat0 V c).after 5 t) := by
  unfold Dat.leavesExact; rw [liveAt0_5 t]
theorem leaves0_6 (V : RefVal F) (c : Dev nD) (t : Fin cfg0.N) :
    (dat0 V c).leavesExact 6 t = owns (c : Thread nD τ) (ms0_6 t) fullShare ((dat0 V c).after 6 t) := by
  unfold Dat.leavesExact; rw [liveAt0_6 t]

/-- What the body is called with at point `t`, the windows one by one, -/
def bodyPre0 (V : RefVal F) (c : Dev nD) (t : Fin cfg0.N) : sProp (MM F) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (V : RefVal F) (c : Dev nD) (t : Fin cfg0.N) : sProp (MM F) :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

end Cert.Kernel.Hand

end
-- ==== Proof.K.Region0BodyA.lean ====
/-
  Region 0's body obligation at a first kv step (the point's index is 0 mod 4): the scratch buffers come in at anything (before the first point) or at what the point before left (which is not read), and go out at this step's stores read back; the output window is idle.
-/
import proofs.«170986_j45183055954173_2_alg».proof.Proof.K.Region0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxHeartbeats 1000000 in
/-- At the first point of the grid: the scratch buffers come out of the class invariant. -/
theorem sound_body0_A0 (V : RefVal F) (c : Dev nD) (t : Fin cfg0.N) (h0 : t.val % 4 = 0) (hz : t.val = 0) :
    bodyPre0 V c t ⊢ wp frame (wpE (defs₀ (F := F)) Variants.none c none) Set.univ (bodyAt0 t) (fun _ => bodyPost0 V c t) := by
  have hc0 : cond0_0 (grid0.coords t) := (hcond0_0 t).mpr h0
  have hc1 : ¬cond0_1 (grid0.coords t) := fun h => not_mod3_of_mod0 h0 ((hcond0_1 t).mp h)
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [leaves0_0, after0_0, leaves0_1, after0_1, leaves0_2, after0_2, leaves0_3, after0_3, leaves0_4, after0_4, leaves0_5, after0_5, leaves0_6, after0_6]
  rw [Dat.leavesExact_idle (dat0 V c) 7 t (idleAt0_7 t hc1) (noFlush0_7 t hc1)]
  rw [outsAt0_A V c t h0]
  unfold outs0_A
  rw [scAt0_mk]
  rw [PhiS0_castSucc V c t, PhiS0_zero V c _ _ hz, PhiA0_eq]
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e0, HS0⟩, ⟨%e1, HS1⟩, ⟨%e2, HS2⟩, ⟨%e3, HS3⟩, ⟨%e4, HS4⟩⟩
  isplitl [HS0 HS1 HS2 HS3 HS4 Hrest Hg]
  · isplitl [HS0 HS1 HS2 HS3 HS4 Hrest]
    · isplitl [HS0 HS1 HS2 HS3 HS4]
      · skip
        isplitl [HS0]
        · skip
          unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _)
        isplitl [HS1]
        · skip
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _)
        isplitl [HS2]
        · skip
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _)
        isplitl [HS3]
        · skip
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (scover0_A_4 c _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 1000000 in
/-- At a later first kv step: the scratch buffers' named contents are forgotten. -/
theorem sound_body0_A1 (V : RefVal F) (c : Dev nD) (t : Fin cfg0.N) (h0 : t.val % 4 = 0) (hz : t.val ≠ 0) :
    bodyPre0 V c t ⊢ wp frame (wpE (defs₀ (F := F)) Variants.none c none) Set.univ (bodyAt0 t) (fun _ => bodyPost0 V c t) := by
  have hc0 : cond0_0 (grid0.coords t) := (hcond0_0 t).mpr h0
  have hc1 : ¬cond0_1 (grid0.coords t) := fun h => not_mod3_of_mod0 h0 ((hcond0_1 t).mp h)
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [leaves0_0, after0_0, leaves0_1, after0_1, leaves0_2, after0_2, leaves0_3, after0_3, leaves0_4, after0_4, leaves0_5, after0_5, leaves0_6, after0_6]
  rw [Dat.leavesExact_idle (dat0 V c) 7 t (idleAt0_7 t hc1) (noFlush0_7 t hc1)]
  rw [outsAt0_A V c t h0]
  unfold outs0_A
  rw [scAt0_mk]
  rw [PhiS0_castSucc V c t, PhiS0_pos V c _ _ hz]
  unfold scAt0
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexists _; iexact HS1
  isplitl [HS2]; · iexists _; iexact HS2
  isplitl [HS3]; · iexists _; iexact HS3
  isplitl [HS4]; · iexists _; iexact HS4
  iintro ⟨H0, H1, H2, H3, H4, H5, H6, H7, ⟨%e0, HS0⟩, ⟨%e1, HS1⟩, ⟨%e2, HS2⟩, ⟨%e3, HS3⟩, ⟨%e4, HS4⟩⟩
  isplitl [HS0 HS1 HS2 HS3 HS4 Hrest Hg]
  · isplitl [HS0 HS1 HS2 HS3 HS4 Hrest]
    · isplitl [HS0 HS1 HS2 HS3 HS4]
      · skip
        isplitl [HS0]
        · skip
          unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _)
        isplitl [HS1]
        · skip
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _)
        isplitl [HS2]
        · skip
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _)
        isplitl [HS3]
        · skip
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (scover0_A_4 c _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.Kernel.Hand

end
-- ==== Proof.K.Region0BodyB.lean ====
/-
  Region 0's body obligation at a middle kv step (the point's index is 1 or 2 mod 4): the scratch buffers come in at what the point before left, the accumulators go out at this step's stores read back, the caches as they were; the output window is idle.
-/
import proofs.«170986_j45183055954173_2_alg».proof.Proof.K.Region0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxHeartbeats 1000000 in
theorem sound_body0_B (V : RefVal F) (c : Dev nD) (t : Fin cfg0.N) (h0 : ¬t.val % 4 = 0) (h1 : ¬t.val % 4 = 3) :
    bodyPre0 V c t ⊢ wp frame (wpE (defs₀ (F := F)) Variants.none c none) Set.univ (bodyAt0 t) (fun _ => bodyPost0 V c t) := by
  have hz : t.val ≠ 0 := fun h => h0 (by rw [h])
  have hc0 : ¬cond0_0 (grid0.coords t) := fun h => h0 ((hcond0_0 t).mp h)
  have hc1 : ¬cond0_1 (grid0.coords t) := fun h => h1 ((hcond0_1 t).mp h)
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [leaves0_0, after0_0, leaves0_1, after0_1, leaves0_2, after0_2, leaves0_3, after0_3, leaves0_4, after0_4, leaves0_5, after0_5, leaves0_6, after0_6]
  rw [Dat.leavesExact_idle (dat0 V c) 7 t (idleAt0_7 t hc1) (noFlush0_7 t hc1)]
  rw [outsAt0_B V c t h0 h1]
  unfold outs0_B
  rw [scAt0_mk]
  rw [PhiS0_castSucc V c t, PhiS0_pos V c _ _ hz]
  unfold scAt0
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) _ _ _ _ _).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e0, HS0⟩, ⟨%e1, HS1⟩, ⟨%e2, HS2⟩, HS3, HS4⟩
  isplitl [HS0 HS1 HS2 HS3 HS4 Hrest Hg]
  · isplitl [HS0 HS1 HS2 HS3 HS4 Hrest]
    · isplitl [HS0 HS1 HS2 HS3 HS4]
      · skip
        isplitl [HS0]
        · skip
          unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _)
        isplitl [HS1]
        · skip
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _ _)
        isplitl [HS2]
        · skip
          unfold owns; iexists _; isplitr
          swap; · iexact HS2
          ipureintro; exact View.read_writes_of_cover _ _ _ _ _ (scover0_B_2 c _ _ _ _ _ _ _ _ _ _ _ _ _ _ _ _ _ _ _ _ _ _ _ _ _ _ _ _ _ _ _ _ _ _ _ _ _ _ _ _ _)
        isplitl [HS3]; · iexact HS3
        iexact HS4
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.Kernel.Hand

end
-- ==== Proof.K.Region0BodyC.lean ====
/-
  Region 0's body obligation at the last kv step (the point's index is 3 mod 4): as at a middle step, and the output block goes out at the final store read back.
-/
import proofs.«170986_j45183055954173_2_alg».proof.Proof.K.Region0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxHeartbeats 1000000 in
theorem sound_body0_C (V : RefVal F) (c : Dev nD) (t : Fin cfg0.N) (h0 : ¬t.val % 4 = 0) (h1 : t.val % 4 = 3) :
    bodyPre0 V c t ⊢ wp frame (wpE (defs₀ (F := F)) Variants.none c none) Set.univ (bodyAt0 t) (fun _ => bodyPost0 V c t) := by
  have hz : t.val ≠ 0 := fun h => h0 (by rw [h])
  have hc0 : ¬cond0_0 (grid0.coords t) := fun h => h0 ((hcond0_0 t).mp h)
  have hc1 : cond0_1 (grid0.coords t) := (hcond0_1 t).mpr h1
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [leaves0_0, after0_0, leaves0_1, after0_1, leaves0_2, after0_2, leaves0_3, after0_3, leaves0_4, after0_4, leaves0_5, after0_5, leaves0_6, after0_6]
  rw [show (dat0 V c).leavesExact 7 t = owns (c : Thread nD τ) (ms0_7 t) fullShare ((dat0 V c).after 7 t) from by
    unfold Dat.leavesExact; rw [liveAt0_7 t hc1], after0_7]
  rw [outsAt0_C V c t h0 h1]
  unfold outs0_C
  rw [scAt0_mk, outs0_fst]
  rw [PhiS0_castSucc V c t, PhiS0_pos V c _ _ hz]
  unfold scAt0
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) _ _ _ _ _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, ⟨%e0, HS0⟩, ⟨%e1, HS1⟩, ⟨%e2, HS2⟩, HS3, HS4⟩
  isplitl [HS0 HS1 HS2 HS3 HS4 Hrest Hg]
  · isplitl [HS0 HS1 HS2 HS3 HS4 Hrest]
    · isplitl [HS0 HS1 HS2 HS3 HS4]
      · skip
        isplitl [HS0]
        · skip
          unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _ _ _ _ _ _ _ _ _ _ _)
        isplitl [HS1]
        · skip
          unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _ _ _ _ _ _ _ _ _ _ _ _ _)
        isplitl [HS2]
        · skip
          unfold owns; iexists _; isplitr
          swap; · iexact HS2
          ipureintro; exact View.read_writes_of_cover _ _ _ _ _ (scover0_C_2 c _ _ _ _ _ _ _ _ _ _ _ _ _ _ _ _ _ _ _ _ _ _ _ _ _ _ _ _ _ _ _ _ _ _ _ _ _ _ _ _ _)
        isplitl [HS3]; · iexact HS3
        iexact HS4
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_C_7 c _ _ _ _ _ _ _ _ _ _ _ _ _ _ _ _ _ _ _ _ _ _ _ _ _ _ _ _ _ _ _ _ _ _ _ _ _ _ _ _ _)

end Cert.Kernel.Hand

end
-- ==== Proof.K.Region0Body.lean ====
/-
  Region 0's body obligation at every point: the point's index mod 4 selects the control case.
-/
import proofs.«170986_j45183055954173_2_alg».proof.Proof.K.Region0BodyA
import proofs.«170986_j45183055954173_2_alg».proof.Proof.K.Region0BodyB
import proofs.«170986_j45183055954173_2_alg».proof.Proof.K.Region0BodyC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The body at any point: a first kv step, a middle one, or the last. -/
theorem sound_body0 (V : RefVal F) (c : Dev nD) (t : Fin cfg0.N) :
    bodyPre0 V c t ⊢ wp frame (wpE (defs₀ (F := F)) Variants.none c none) Set.univ (bodyAt0 t) (fun _ => bodyPost0 V c t) := by
  by_cases h0 : t.val % 4 = 0
  · by_cases hz : t.val = 0
    · exact sound_body0_A0 V c t h0 hz
    · exact sound_body0_A1 V c t h0 hz
  · by_cases h1 : t.val % 4 = 3
    · exact sound_body0_C V c t h0 h1
    · exact sound_body0_B V c t h0 h1

/-- The library's body obligation, at every point. -/
theorem body_obligation0 (V : RefVal F) (c : Dev nD) : BodyObligation (dat0 (F := F) V c) (defs₀ (F := F)) Variants.none () Set.univ := fun t => by
  rw [bigSep_W0, bigSep_W0]
  exact sound_body0 V c t

end Cert.Kernel.Hand

end
-- ==== Proof.K.Region0Seg.lean ====
/-
  Region 0 as a segment of @main: entered from every unscoped buffer at the entry contents, left with the region's
  arrays at what the write-backs leave and every other buffer as entered.
-/
import proofs.«170986_j45183055954173_2_alg».proof.Proof.K.Region0Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- After any point but the first the invariant gives the class invariant back: the scratch buffers' named contents
    are forgotten. -/
theorem Phi_out0 (V : RefVal F) (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  unfold scAt0
  iintro ⟨⟨⟨HS0, HS1, HS2, HS3, HS4⟩, Hrest⟩, Hg⟩
  isplitl [HS0 HS1 HS2 HS3 HS4 Hrest]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hrest
  iexact Hg

-- `iapply` of a library lemma stated over `pin pcs a p` unifies with the pinned configuration only when unification may
-- unfold plain definitions in a metavariable's type
set_option backward.isDefEq.respectTransparency.types false in
/-- REGION 0 as a segment of @main, for any family of proof data whose pipeline 0 is `dat0` at the entry contents
    `Win`: entered from every unscoped buffer at `Win`, left at `Wout` — the region's arrays at what the write-backs
    leave, every other buffer as entered.  The arrays are split out of the unscoped buffers and put back; the generator
    register goes into the invariant and comes out; nothing is owed; the kernel has no semaphore of its own. -/
def reg0 (pdats : PDats F) (Win Wout : Dev nD → Valuation τ sig (Elt F))
    (hp : ∀ c, pdats 0 c = dat0 (fun c b => Win c b) c)
    (hF : ∀ c (w : Fin cfg0.W), (pdats 0 c).arrAt w cfg0.N = Wout c (Pipeline.arrRef spec0 w))
    (hrest : ∀ c (b : Ref sig .tc), b ∉ Finset.univ.image (Pipeline.arrRef spec0) → Wout c b = Win c b) :
    Pipeline.RegionSeg (pcfgs (F := F)) Gen.adm pdats () defs₀ 𝒱₀ L lv 0 where
  win := launch0.win.to₀
  block_pos := launch0.block_pos
  stage_whole := launch0.stage_whole
  K := PEmpty
  osem k := k.elim
  ho := Pipeline.OwnSemFacts.none _
  hbody c := by rw [hp c]; exact (body_obligation0 _ c).loose
  hwaits := Pipeline.hwaits_of_owed_zero _ _ _ _ L lv 0 fun c t => by rw [hp c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec0 c (fun b => Win c b)
  hentry c := by
    rw [Pipeline.ownSems0_none]
    have hsplit := Pipeline.arrays_of_unscopedBufs (p := 0) (pcfgs (F := F)) Gen.adm pdats launch0.win launch0.arr_whole c
      (by rw [hp c]; exact (dat0 _ c).share_full fun _ => rfl) (fun b => Win c b) (fun w => by rw [hp c]; rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c, show (dat0 (fun c b => Win c b) c).Φ 0 = Pipeline.ΦA spec0 c from rfl]; unfold Pipeline.ΦA
    iintro ⟨Hp, -, Hr⟩
    isplitl [Hr]; · iexact Hr
    iexact Hp
  hout c := by
    rw [Pipeline.ownSems0_none, hp c]
    refine (Phi_out0 _ c (Fin.last cfg0.N) (by rw [Fin.val_last, show cfg0.N = 64 from N_0]; decide)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c pdats (by rw [hp c]; exact (dat0 _ c).share_full fun _ => rfl)
      (fun b => Win c b) (fun b => Wout c b) ((pdats 0 c).arrAt · cfg0.N) (hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (pdats : PDats F) (Win Wout : Dev nD → Valuation τ sig (Elt F))
    (hp : ∀ c, pdats 0 c = dat0 (fun c b => Win c b) c)
    (hF : ∀ c (w : Fin cfg0.W), (pdats 0 c).arrAt w cfg0.N = Wout c (Pipeline.arrRef spec0 w))
    (hrest : ∀ c (b : Ref sig .tc), b ∉ Finset.univ.image (Pipeline.arrRef spec0) → Wout c b = Win c b) (c : Dev nD) :
    (reg0 pdats Win Wout hp hF hrest).pre c = iprop(StableHlo.held (c : Thread nD τ) (Pipeline.ucRefs τ sig) (Win c) ∗ R c) := rfl

theorem reg0_post (pdats : PDats F) (Win Wout : Dev nD → Valuation τ sig (Elt F))
    (hp : ∀ c, pdats 0 c = dat0 (fun c b => Win c b) c)
    (hF : ∀ c (w : Fin cfg0.W), (pdats 0 c).arrAt w cfg0.N = Wout c (Pipeline.arrRef spec0 w))
    (hrest : ∀ c (b : Ref sig .tc), b ∉ Finset.univ.image (Pipeline.arrRef spec0) → Wout c b = Win c b) (c : Dev nD) :
    (reg0 pdats Win Wout hp hF hrest).post c = iprop(StableHlo.held (c : Thread nD τ) (Pipeline.ucRefs τ sig) (Wout c) ∗ R c) := rfl

end Cert.Kernel.Hand

end
-- ==== Proof.K.Region1Runs.lean ====
/-
  Region 1 of the kernel program (the second pallas_call: grid 2 x 2 x 2, coordinates batch tile, q tile, kv step),
  what its two control cases share.  The body's first conditional (the kv step is 0) and its second (the kv step is
  the last, 1) are decided over the grid in closed form: a point t = ((b * 2) + q) * 2 + k takes the first exactly
  when t is even and the second exactly when t is odd.  The output window is idle, and not written back, at the even
  points.  The five scratch buffers are whole scoped buffers beside the windows.
-/
import proofs.«170986_j45183055954173_2_alg».proof.Proof.K.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions over the grid -/

/-- The first conditional's condition (the kv step is the first), as the body computes it from the coordinates. -/
abbrev cond1_0 (i : grid1.Coords) : Prop :=
  (Scalar.cmpi .ne (Scalar.extui (Scalar.cmpi .eq (BitVec.ofNat 32 (i 2).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional's condition (the kv step is the last). -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- At a first kv step the output window is idle: the body stores nothing into it there. -/
theorem idleAt1_7_A : ∀ t : Fin cfg1.N, cond1_0 (grid1.coords t) → ¬cond1_1 (grid1.coords t) → cfg1.idle 7 (grid1.coords t) = true := by decide +kernel
/-- And the pipeline does not write its block back there. -/
theorem noFlush1_7_A : ∀ t : Fin cfg1.N, cond1_0 (grid1.coords t) → ¬cond1_1 (grid1.coords t) → (cfg1.win 7).flush t = false := by decide +kernel
/-- At a last kv step the output window is live: the body stores its block. -/
theorem liveAt1_7_C : ∀ t : Fin cfg1.N, ¬cond1_0 (grid1.coords t) → cond1_1 (grid1.coords t) → cfg1.idle 7 (grid1.coords t) = false := by decide +kernel

/-! ## The memrefs the body is called with -/

/-- Each window's current staging memref at point t, as the pipeline passes it, and its wholeness. -/
abbrev ms1_0 (t : Fin cfg1.N) : Memref sig .tc .vmem S2x512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x8x128 .f32 := win1_7.stage (cfg1.slots t 7)
abbrev hs1_7 (t : Fin cfg1.N) : (ms1_7 t).IsWhole := hstage1_7 ((cfg1.slots t 7).cast nbuf1_7)

/-- The scratch operands: the running denominator l, the two accumulators, the normalized content block and its
    unit-length bf16 form; whole scoped buffers of the kernel's own. -/
abbrev scM1_0 : Memref sig .tc .vmem S2x512x1 .f32 := Memref.whole cc1_scratch0
abbrev scM1_1 : Memref sig .tc .vmem S2x512x512 .f32 := Memref.whole cc1_scratch1
abbrev scM1_2 : Memref sig .tc .vmem S2x512x512 .f32 := Memref.whole cc1_scratch2
abbrev scM1_3 : Memref sig .tc .vmem S2x512x512 .f32 := Memref.whole cc1_scratch3
abbrev scM1_4 : Memref sig .tc .vmem S2x512x512 .bf16 := Memref.whole cc1_scratch4

/-- One staging buffer of the output window, through which its contents are stated. -/
abbrev VO1_7 : View sig .tc .vmem S1x1x8x128 .f32 := (Memref.whole cc1_stg7_0 : Memref sig .tc .vmem S1x1x8x128 .f32).view
/-- The scratch buffers as views: what they hold is stated through these. -/
abbrev VS1_0 : View sig .tc .vmem S2x512x1 .f32 := scM1_0.view
abbrev VS1_1 : View sig .tc .vmem S2x512x512 .f32 := scM1_1.view
abbrev VS1_2 : View sig .tc .vmem S2x512x512 .f32 := scM1_2.view
abbrev VS1_3 : View sig .tc .vmem S2x512x512 .f32 := scM1_3.view
abbrev VS1_4 : View sig .tc .vmem S2x512x512 .bf16 := scM1_4.view

/-- What the launch hands the region beside the windows, with the call's own scratch buffers as memrefs owned at some
    contents: the five scratch buffers, the other scoped buffers unopened, the generator register. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
            ∗ (∃ d, owns (c : Thread nD τ) scM1_2 fullShare d) ∗ (∃ d, owns (c : Thread nD τ) scM1_3 fullShare d)
            ∗ (∃ d, owns (c : Thread nD τ) scM1_4 fullShare d))
          ∗ Pipeline.scopedRestBut (Ix := Unit) (Name := ℕ) (U := UR sig nD τ) (Lvl := ℕ) (Val := Elt F) spec1 c [cc1_scratch0, cc1_scratch1, cc1_scratch2, cc1_scratch3, cc1_scratch4])
        ∗ (∃ r, prngReg c r)) := by
  unfold Pipeline.ΦA; rw [scopedRest1_split]; simp only [scM1_0, scM1_1, scM1_2, scM1_3, scM1_4, owns_whole]; try rfl

end Cert.Kernel.Hand

end
-- ==== Proof.K.Region1RunA.lean ====
/-
  Region 1, the run of the body at a FIRST kv step (the first conditional taken, the second not): every scratch buffer
  is stored whole — the denominator and the two accumulators zeroed and then added to by this step, the normalized
  content block and its unit-length bf16 form cached —, the output block is left untouched.
-/
import proofs.«170986_j45183055954173_2_alg».proof.Proof.K.Region1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in each scratch buffer, as pieces (last first), at a first kv step, with the proof
    that on whole memrefs — the seven inputs' at their contents, the output's at contents handed back untouched, the
    scratch buffers' at anything — the body runs to the continuation holding the inputs' and the output's as they were
    and each scratch buffer with its pieces written.  The pieces are what the run finds. -/
noncomputable def kernelRun1_A (c : Dev nD) (i : grid1.Coords) (arg3 : Memref sig .tc .vmem S2x512x512 .f32) (harg3 : arg3.IsWhole) (arg4 : Memref sig .tc .vmem S2x512x512 .f32) (harg4 : arg4.IsWhole) (arg5 : Memref sig .tc .vmem S2x512x512 .f32) (harg5 : arg5.IsWhole) (arg6 : Memref sig .tc .vmem S2x1x512 .f32) (harg6 : arg6.IsWhole) (arg7 : Memref sig .tc .vmem S2x1x512 .f32) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (hc0 : cond1_0 i) (hc1 : ¬cond1_1 i)
    (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) :
    Σ' (LS0 : List (View.Piece (Elt F) S2x512x1 .f32)) (LS1 : List (View.Piece (Elt F) S2x512x512 .f32)) (LS2 : List (View.Piece (Elt F) S2x512x512 .f32)) (LS3 : List (View.Piece (Elt F) S2x512x512 .f32)), { LS4 : List (View.Piece (Elt F) S2x512x512 .bf16) //
      ∀ (xi7 : Vec F S1x1x8x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc1__aat_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi7 E K => ?run⟩
  case run =>
    simp only [cc1__aat_kernel_eq_skeleton]; unfold cc1__aat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.K.Region1RunC.lean ====
/-
  Region 1, the run of the body at a LAST kv step (the first conditional not taken, the second taken): the denominator
  and the two accumulators, at what the step before left, are added to by this step; the output block is stored from
  them, the cached normalized content block and the stylized-content block; the two caches are read only.
-/
import proofs.«170986_j45183055954173_2_alg».proof.Proof.K.Region1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output block and in the three accumulating scratch buffers, as pieces (last
    first), at a last kv step, with the proof that on whole memrefs — the seven inputs' at their contents, the output's
    at anything, the five scratch buffers' at what the step before left — the body runs to the continuation holding the
    inputs' and the two caches as they were and the output's and the three accumulators' with their pieces written. -/
noncomputable def kernelRun1_C (c : Dev nD) (i : grid1.Coords) (arg3 : Memref sig .tc .vmem S2x512x512 .f32) (harg3 : arg3.IsWhole) (arg4 : Memref sig .tc .vmem S2x512x512 .f32) (harg4 : arg4.IsWhole) (arg5 : Memref sig .tc .vmem S2x512x512 .f32) (harg5 : arg5.IsWhole) (arg6 : Memref sig .tc .vmem S2x1x512 .f32) (harg6 : arg6.IsWhole) (arg7 : Memref sig .tc .vmem S2x1x512 .f32) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (hc0 : ¬cond1_0 i) (hc1 : cond1_1 i)
    (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) :
    Σ' (L7 : List (View.Piece (Elt F) S1x1x8x128 .f32)) (LS0 : List (View.Piece (Elt F) S2x512x1 .f32)) (LS1 : List (View.Piece (Elt F) S2x512x512 .f32)), { LS2 : List (View.Piece (Elt F) S2x512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
            ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ owns (c : Thread nD τ) arg14 fullShare xs3 ∗ owns (c : Thread nD τ) arg15 fullShare xs4) -∗ K ⟨⟩))
          ⊢ wp frame (wpE (defs₀ (F := F)) Variants.none c none) E (cc1__aat_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc1__aat_kernel_eq_skeleton]; unfold cc1__aat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    obtain rfl := harg11.eq_unread hfs0; obtain rfl := harg12.eq_unread hfs1; obtain rfl := harg13.eq_unread hfs2; obtain rfl := harg14.eq_unread hfs3; obtain rfl := harg15.eq_unread hfs4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    isplitl [HS2]; · iexists _; iexact HS2
    isplitl [HS3]
    · iexists _; isplitr; · ipureintro; exact harg14.read_unread _
      iexact HS3
    iexists _; isplitr; · ipureintro; exact harg15.read_unread _
    iexact HS4

end Cert.Kernel.Hand

end
-- ==== Proof.K.Region1.lean ====
/-
  Region 1 of the kernel program at a PARAMETER V (the TensorCore's buffer contents when the region is entered): each
  window's block at a point, what the output block and the five scratch buffers hold after each point (by recursion on
  the point: an even point is a first kv step and stores every scratch buffer whole, an odd point is a last kv step,
  accumulates onto what the even point before it left and stores the output block), the point-indexed invariant, the
  proof data, and the body obligation.
-/
import proofs.«170986_j45183055954173_2_alg».proof.Proof.K.Region1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : RefVal F)

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is V's and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is V's and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is V's and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is V's and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof data
    whose array is V's and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof data
    whose array is V's and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The two runs at a point of the grid -/

/-- The run of a first kv step at an even point t, on the memrefs the pipeline calls the body with there. -/
abbrev runAt1_A (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) scM1_4 (Memref.isWhole_whole _)
    ((hcond1_0 t).mpr h0) (fun h => by have := (hcond1_1 t).mp h; omega) x0 x1 x2 x3 x4 x5 x6

/-- The run of a last kv step at an odd point t. -/
abbrev runAt1_C (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) scM1_4 (Memref.isWhole_whole _)
    (fun h => by have := (hcond1_0 t).mp h; omega) ((hcond1_1 t).mpr h1) x0 x1 x2 x3 x4 x5 x6 xs0 xs1 xs2 xs3 xs4

/-! ## What each case leaves: its pieces cover the buffer, and are read back over junk -/

/-- A first kv step's pieces for scratch buffer 0 cover it. -/
theorem scover1_A_0 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (y : S2x512x1.Idx) :
    ∃ pc ∈ (runAt1_A c t h0 x0 x1 x2 x3 x4 x5 x6).1, y ∈ pc.1.set :=
  View.cover_of_tiledL (runAt1_A c t h0 x0 x1 x2 x3 x4 x5 x6).1 S2x512x1.size (by sl_kernel_rfl) y
/-- What a first kv step leaves in scratch buffer 0. -/
def sout1_A_0 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) : Vec F S2x512x1 .f32 :=
  VS1_0.read (Elt F) (VS1_0.writes (Elt F) VS1_0.junk (runAt1_A c t h0 x0 x1 x2 x3 x4 x5 x6).1)
/-- A first kv step's pieces for scratch buffer 1 cover it. -/
theorem scover1_A_1 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (y : S2x512x512.Idx) :
    ∃ pc ∈ (runAt1_A c t h0 x0 x1 x2 x3 x4 x5 x6).2.1, y ∈ pc.1.set :=
  View.cover_of_tiledL (runAt1_A c t h0 x0 x1 x2 x3 x4 x5 x6).2.1 S2x512x512.size (by sl_kernel_rfl) y
/-- What a first kv step leaves in scratch buffer 1. -/
def sout1_A_1 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) : Vec F S2x512x512 .f32 :=
  VS1_1.read (Elt F) (VS1_1.writes (Elt F) VS1_1.junk (runAt1_A c t h0 x0 x1 x2 x3 x4 x5 x6).2.1)
/-- A first kv step's pieces for scratch buffer 2 cover it. -/
theorem scover1_A_2 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (y : S2x512x512.Idx) :
    ∃ pc ∈ (runAt1_A c t h0 x0 x1 x2 x3 x4 x5 x6).2.2.1, y ∈ pc.1.set :=
  View.cover_of_tiledL (runAt1_A c t h0 x0 x1 x2 x3 x4 x5 x6).2.2.1 S2x512x512.size (by sl_kernel_rfl) y
/-- What a first kv step leaves in scratch buffer 2. -/
def sout1_A_2 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) : Vec F S2x512x512 .f32 :=
  VS1_2.read (Elt F) (VS1_2.writes (Elt F) VS1_2.junk (runAt1_A c t h0 x0 x1 x2 x3 x4 x5 x6).2.2.1)
/-- A first kv step's pieces for scratch buffer 3 cover it. -/
theorem scover1_A_3 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (y : S2x512x512.Idx) :
    ∃ pc ∈ (runAt1_A c t h0 x0 x1 x2 x3 x4 x5 x6).2.2.2.1, y ∈ pc.1.set :=
  View.cover_of_tiledL (runAt1_A c t h0 x0 x1 x2 x3 x4 x5 x6).2.2.2.1 S2x512x512.size (by sl_kernel_rfl) y
/-- What a first kv step leaves in scratch buffer 3. -/
def sout1_A_3 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) : Vec F S2x512x512 .f32 :=
  VS1_3.read (Elt F) (VS1_3.writes (Elt F) VS1_3.junk (runAt1_A c t h0 x0 x1 x2 x3 x4 x5 x6).2.2.2.1)
/-- A first kv step's pieces for scratch buffer 4 cover it. -/
theorem scover1_A_4 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (y : S2x512x512.Idx) :
    ∃ pc ∈ (runAt1_A c t h0 x0 x1 x2 x3 x4 x5 x6).2.2.2.2.1, y ∈ pc.1.set :=
  View.cover_of_tiledL (runAt1_A c t h0 x0 x1 x2 x3 x4 x5 x6).2.2.2.2.1 S2x512x512.size (by sl_kernel_rfl) y
/-- What a first kv step leaves in scratch buffer 4. -/
def sout1_A_4 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) : Vec F S2x512x512 .bf16 :=
  VS1_4.read (Elt F) (VS1_4.writes (Elt F) VS1_4.junk (runAt1_A c t h0 x0 x1 x2 x3 x4 x5 x6).2.2.2.2.1)
/-- A last kv step's pieces for the output block cover it. -/
theorem cover1_C_7 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) (y : S1x1x8x128.Idx) :
    ∃ pc ∈ (runAt1_C c t h1 x0 x1 x2 x3 x4 x5 x6 xs0 xs1 xs2 xs3 xs4).1, y ∈ pc.1.set :=
  View.cover_of_tiledL (runAt1_C c t h1 x0 x1 x2 x3 x4 x5 x6 xs0 xs1 xs2 xs3 xs4).1 S1x1x8x128.size (by sl_kernel_rfl) y
/-- What a last kv step leaves in the output block. -/
def out1_C_7 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) : Vec F S1x1x8x128 .f32 :=
  VO1_7.read (Elt F) (VO1_7.writes (Elt F) VO1_7.junk (runAt1_C c t h1 x0 x1 x2 x3 x4 x5 x6 xs0 xs1 xs2 xs3 xs4).1)
/-- A last kv step's pieces for scratch buffer 0 cover it. -/
theorem scover1_C_0 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) (y : S2x512x1.Idx) :
    ∃ pc ∈ (runAt1_C c t h1 x0 x1 x2 x3 x4 x5 x6 xs0 xs1 xs2 xs3 xs4).2.1, y ∈ pc.1.set :=
  View.cover_of_tiledL (runAt1_C c t h1 x0 x1 x2 x3 x4 x5 x6 xs0 xs1 xs2 xs3 xs4).2.1 S2x512x1.size (by sl_kernel_rfl) y
/-- What a last kv step leaves in scratch buffer 0. -/
def sout1_C_0 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) : Vec F S2x512x1 .f32 :=
  VS1_0.read (Elt F) (VS1_0.writes (Elt F) VS1_0.junk (runAt1_C c t h1 x0 x1 x2 x3 x4 x5 x6 xs0 xs1 xs2 xs3 xs4).2.1)
/-- A last kv step's pieces for scratch buffer 1 cover it. -/
theorem scover1_C_1 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) (y : S2x512x512.Idx) :
    ∃ pc ∈ (runAt1_C c t h1 x0 x1 x2 x3 x4 x5 x6 xs0 xs1 xs2 xs3 xs4).2.2.1, y ∈ pc.1.set :=
  View.cover_of_tiledL (runAt1_C c t h1 x0 x1 x2 x3 x4 x5 x6 xs0 xs1 xs2 xs3 xs4).2.2.1 S2x512x512.size (by sl_kernel_rfl) y
/-- What a last kv step leaves in scratch buffer 1. -/
def sout1_C_1 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) : Vec F S2x512x512 .f32 :=
  VS1_1.read (Elt F) (VS1_1.writes (Elt F) VS1_1.junk (runAt1_C c t h1 x0 x1 x2 x3 x4 x5 x6 xs0 xs1 xs2 xs3 xs4).2.2.1)
/-- A last kv step's pieces for scratch buffer 2 cover it. -/
theorem scover1_C_2 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) (y : S2x512x512.Idx) :
    ∃ pc ∈ (runAt1_C c t h1 x0 x1 x2 x3 x4 x5 x6 xs0 xs1 xs2 xs3 xs4).2.2.2.1, y ∈ pc.1.set :=
  View.cover_of_tiledL (runAt1_C c t h1 x0 x1 x2 x3 x4 x5 x6 xs0 xs1 xs2 xs3 xs4).2.2.2.1 S2x512x512.size (by sl_kernel_rfl) y
/-- What a last kv step leaves in scratch buffer 2. -/
def sout1_C_2 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) : Vec F S2x512x512 .f32 :=
  VS1_2.read (Elt F) (VS1_2.writes (Elt F) VS1_2.junk (runAt1_C c t h1 x0 x1 x2 x3 x4 x5 x6 xs0 xs1 xs2 xs3 xs4).2.2.2.1)

/-! ## What the buffers hold after each point -/

/-- The output block, then the five scratch buffers (denominator, the two accumulators, the two caches). -/
abbrev Outs1 (F : FTy → Type) [FloatOps F] : Type := Vec F S1x1x8x128 .f32 × Vec F S2x512x1 .f32 × Vec F S2x512x512 .f32 × Vec F S2x512x512 .f32 × Vec F S2x512x512 .f32 × Vec F S2x512x512 .bf16

/-- A first kv step stores nothing into the output block; at such a point the window is neither written back nor read
    at the next point, so this component is a placeholder nothing consults. -/
def out1_A_7 : Vec F S1x1x8x128 .f32 := VO1_7.read (Elt F) VO1_7.junk

/-- After a first kv step at the even point t: every scratch buffer at what the step stored, from the point's blocks. -/
def stepA1 (c : Dev nD) (t : Fin cfg1.N) (h0 : t.val % 2 = 0) : Outs1 F :=
  (out1_A_7, sout1_A_0 c t h0 (iblk1 V c 0 t) (iblk1 V c 1 t) (iblk1 V c 2 t) (iblk1 V c 3 t) (iblk1 V c 4 t) (iblk1 V c 5 t) (iblk1 V c 6 t),
    sout1_A_1 c t h0 (iblk1 V c 0 t) (iblk1 V c 1 t) (iblk1 V c 2 t) (iblk1 V c 3 t) (iblk1 V c 4 t) (iblk1 V c 5 t) (iblk1 V c 6 t),
    sout1_A_2 c t h0 (iblk1 V c 0 t) (iblk1 V c 1 t) (iblk1 V c 2 t) (iblk1 V c 3 t) (iblk1 V c 4 t) (iblk1 V c 5 t) (iblk1 V c 6 t),
    sout1_A_3 c t h0 (iblk1 V c 0 t) (iblk1 V c 1 t) (iblk1 V c 2 t) (iblk1 V c 3 t) (iblk1 V c 4 t) (iblk1 V c 5 t) (iblk1 V c 6 t),
    sout1_A_4 c t h0 (iblk1 V c 0 t) (iblk1 V c 1 t) (iblk1 V c 2 t) (iblk1 V c 3 t) (iblk1 V c 4 t) (iblk1 V c 5 t) (iblk1 V c 6 t))

/-- After a last kv step at the odd point t, over what the point before left: the output block and the three
    accumulating buffers at what the step stored, the two caches as they were. -/
def stepC1 (c : Dev nD) (t : Fin cfg1.N) (h1 : t.val % 2 = 1) (p : Outs1 F) : Outs1 F :=
  (out1_C_7 c t h1 (iblk1 V c 0 t) (iblk1 V c 1 t) (iblk1 V c 2 t) (iblk1 V c 3 t) (iblk1 V c 4 t) (iblk1 V c 5 t) (iblk1 V c 6 t) p.2.1 p.2.2.1 p.2.2.2.1 p.2.2.2.2.1 p.2.2.2.2.2,
    sout1_C_0 c t h1 (iblk1 V c 0 t) (iblk1 V c 1 t) (iblk1 V c 2 t) (iblk1 V c 3 t) (iblk1 V c 4 t) (iblk1 V c 5 t) (iblk1 V c 6 t) p.2.1 p.2.2.1 p.2.2.2.1 p.2.2.2.2.1 p.2.2.2.2.2,
    sout1_C_1 c t h1 (iblk1 V c 0 t) (iblk1 V c 1 t) (iblk1 V c 2 t) (iblk1 V c 3 t) (iblk1 V c 4 t) (iblk1 V c 5 t) (iblk1 V c 6 t) p.2.1 p.2.2.1 p.2.2.2.1 p.2.2.2.2.1 p.2.2.2.2.2,
    sout1_C_2 c t h1 (iblk1 V c 0 t) (iblk1 V c 1 t) (iblk1 V c 2 t) (iblk1 V c 3 t) (iblk1 V c 4 t) (iblk1 V c 5 t) (iblk1 V c 6 t) p.2.1 p.2.2.1 p.2.2.2.1 p.2.2.2.2.1 p.2.2.2.2.2,
    p.2.2.2.2.1, p.2.2.2.2.2)

/-- THE ACCUMULATION: what the output's staging buffer and the five scratch buffers hold after the body at position n. -/
def outsAt1 (c : Dev nD) : (n : ℕ) → n < cfg1.N → Outs1 F
  | 0, hn => stepA1 V c ⟨0, hn⟩ (Nat.zero_mod _)
  | n + 1, hn =>
    if h0 : (n + 1) % 2 = 0 then stepA1 V c ⟨n + 1, hn⟩ h0
    else stepC1 V c ⟨n + 1, hn⟩ (Nat.mod_two_ne_zero.mp h0) (outsAt1 c n (Nat.lt_of_succ_lt hn))

/-- At an even point: a first kv step's contents. -/
theorem outsAt1_A (c : Dev nD) (t : Fin cfg1.N) (h0 : t.val % 2 = 0) :
    outsAt1 V c t.val t.isLt = stepA1 V c t h0 := by
  obtain ⟨n, hn⟩ := t
  cases n with
  | zero => exact rfl
  | succ n => exact (dif_pos h0).trans rfl

/-- At an odd point: a last kv step's contents, over what the point before left. -/
theorem outsAt1_C (c : Dev nD) (t : Fin cfg1.N) (h1 : t.val % 2 = 1) :
    outsAt1 V c t.val t.isLt = stepC1 V c t h1 (outsAt1 V c (t.val - 1) (Nat.lt_of_le_of_lt (Nat.sub_le _ _) t.isLt)) := by
  obtain ⟨n, hn⟩ := t
  cases n with
  | zero => exact absurd h1 (show ¬ (0 % 2 = 1) by decide)
  | succ n => exact (dif_neg (fun h => by have h1' : (n + 1) % 2 = 1 := h1; omega)).trans rfl

/-! ## The invariant -/

/-- The scratch buffers at the contents p names, the other scoped buffers unopened, the generator register. -/
abbrev PhiAt1 (c : Dev nD) (p : Outs1 F) : sProp 𝕄 :=
  iprop(iprop(iprop(owns (c : Thread nD τ) scM1_0 fullShare p.2.1 ∗ owns (c : Thread nD τ) scM1_1 fullShare p.2.2.1
        ∗ owns (c : Thread nD τ) scM1_2 fullShare p.2.2.2.1 ∗ owns (c : Thread nD τ) scM1_3 fullShare p.2.2.2.2.1
        ∗ owns (c : Thread nD τ) scM1_4 fullShare p.2.2.2.2.2)
      ∗ Pipeline.scopedRestBut (Ix := Unit) (Name := ℕ) (U := UR sig nD τ) (Lvl := ℕ) (Val := Elt F) spec1 c [cc1_scratch0, cc1_scratch1, cc1_scratch2, cc1_scratch3, cc1_scratch4])
    ∗ (∃ r, prngReg c r))

/-- The region's invariant before position n: before the first point what the launch hands the region (every scratch
    buffer at anything); afterwards each scratch buffer at what the point before left. -/
def PhiS1 (c : Dev nD) : (n : ℕ) → n ≤ cfg1.N → sProp 𝕄
  | 0, _ => Pipeline.ΦA spec1 c
  | n + 1, hn => PhiAt1 c (outsAt1 V c n hn)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) : PhiS1 V c (n + 1) hn = PhiAt1 c (outsAt1 V c n hn) := rfl

theorem PhiS1_pos (c : Dev nD) (n : ℕ) (h : n ≤ cfg1.N) (hz : n ≠ 0) :
    PhiS1 V c n h = PhiAt1 c (outsAt1 V c (n - 1) (by omega)) := by
  cases n with
  | zero => exact absurd rfl hz
  | succ n => rfl

/-! ## The pipeline's proof data -/

/-- The proof data of pipeline 1 on core c: the arrays as the region finds them; after the body at point t each
    input's buffer at its block and the output's at what the accumulation says; the point-indexed invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Region1

end Cert.Kernel.Hand

end
-- ==== Proof.K.Region1Body.lean ====
/-
  Region 1: the body obligation of the proof data at V.  At an even point the invariant hands the body the five scratch
  buffers at anything (at the first point what the launch gave; later what the odd point before left, forgotten) and
  takes them back at what the first kv step stored; at an odd point it hands them at what the even point before left
  and takes the three accumulators back at this step's sums, the two caches as they were; the output block is handed
  back untouched at an even point and at the stored block at an odd one.
-/
import proofs.«170986_j45183055954173_2_alg».proof.Proof.K.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : RefVal F)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the point's parity says which case it is in; that
    case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 7 t (idleAt1_7_A t hc0 hc1) (noFlush1_7_A t hc0 hc1)]
    rw [outsAt1_A V c t h0]
    unfold PhiAt1 stepA1 sout1_A_0 sout1_A_1 sout1_A_2 sout1_A_3 sout1_A_4; dsimp only
    by_cases hz : t.val = 0
    · rw [PhiS1_castSucc V c t, PhiS1_zero V c _ _ hz, PhiA1_eq]
      iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAt1_A c t h0 (iblk1 V c 0 t) (iblk1 V c 1 t) (iblk1 V c 2 t) (iblk1 V c 3 t) (iblk1 V c 4 t) (iblk1 V c 5 t) (iblk1 V c 6 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, ⟨%es0, HS0⟩, ⟨%es1, HS1⟩, ⟨%es2, HS2⟩, ⟨%es3, HS3⟩, ⟨%es4, HS4⟩⟩
      isplitl [HS0 HS1 HS2 HS3 HS4 Hrest Hg]
      · isplitl [HS0 HS1 HS2 HS3 HS4 Hrest]
        · isplitl [HS0 HS1 HS2 HS3 HS4]
          · isplitl [HS0]
            · unfold owns; iexists _; isplitr
              swap; · iexact HS0
              ipureintro; exact View.read_writes_of_cover _ _ _ _ _ (scover1_A_0 c t h0 _ _ _ _ _ _ _)
            isplitl [HS1]
            · unfold owns; iexists _; isplitr
              swap; · iexact HS1
              ipureintro; exact View.read_writes_of_cover _ _ _ _ _ (scover1_A_1 c t h0 _ _ _ _ _ _ _)
            isplitl [HS2]
            · unfold owns; iexists _; isplitr
              swap; · iexact HS2
              ipureintro; exact View.read_writes_of_cover _ _ _ _ _ (scover1_A_2 c t h0 _ _ _ _ _ _ _)
            isplitl [HS3]
            · unfold owns; iexists _; isplitr
              swap; · iexact HS3
              ipureintro; exact View.read_writes_of_cover _ _ _ _ _ (scover1_A_3 c t h0 _ _ _ _ _ _ _)
            unfold owns; iexists _; isplitr
            swap; · iexact HS4
            ipureintro; exact View.read_writes_of_cover _ _ _ _ _ (scover1_A_4 c t h0 _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]; unfold PhiAt1
      iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAt1_A c t h0 (iblk1 V c 0 t) (iblk1 V c 1 t) (iblk1 V c 2 t) (iblk1 V c 3 t) (iblk1 V c 4 t) (iblk1 V c 5 t) (iblk1 V c 6 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, H6, H7, ⟨%es0, HS0⟩, ⟨%es1, HS1⟩, ⟨%es2, HS2⟩, ⟨%es3, HS3⟩, ⟨%es4, HS4⟩⟩
      isplitl [HS0 HS1 HS2 HS3 HS4 Hrest Hg]
      · isplitl [HS0 HS1 HS2 HS3 HS4 Hrest]
        · isplitl [HS0 HS1 HS2 HS3 HS4]
          · isplitl [HS0]
            · unfold owns; iexists _; isplitr
              swap; · iexact HS0
              ipureintro; exact View.read_writes_of_cover _ _ _ _ _ (scover1_A_0 c t h0 _ _ _ _ _ _ _)
            isplitl [HS1]
            · unfold owns; iexists _; isplitr
              swap; · iexact HS1
              ipureintro; exact View.read_writes_of_cover _ _ _ _ _ (scover1_A_1 c t h0 _ _ _ _ _ _ _)
            isplitl [HS2]
            · unfold owns; iexists _; isplitr
              swap; · iexact HS2
              ipureintro; exact View.read_writes_of_cover _ _ _ _ _ (scover1_A_2 c t h0 _ _ _ _ _ _ _)
            isplitl [HS3]
            · unfold owns; iexists _; isplitr
              swap; · iexact HS3
              ipureintro; exact View.read_writes_of_cover _ _ _ _ _ (scover1_A_3 c t h0 _ _ _ _ _ _ _)
            unfold owns; iexists _; isplitr
            swap; · iexact HS4
            ipureintro; exact View.read_writes_of_cover _ _ _ _ _ (scover1_A_4 c t h0 _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have h1 : t.val % 2 = 1 := by omega
    have hc0 : ¬cond1_0 (grid1.coords t) := fun h => h0 ((hcond1_0 t).mp h)
    have hc1 : cond1_1 (grid1.coords t) := (hcond1_1 t).mpr h1
    have hz : t.val ≠ 0 := by omega
    rw [show (dat1 V c).leavesExact 7 t = owns (c : Thread nD τ) (ms1_7 t) fullShare ((dat1 V c).after 7 t) from by
      unfold Dat.leavesExact; rw [liveAt1_7_C t hc0 hc1], after1_7]
    rw [outsAt1_C V c t h1]
    unfold PhiAt1 stepC1 out1_C_7 sout1_C_0 sout1_C_1 sout1_C_2; dsimp only
    rw [PhiS1_castSucc V c t, PhiS1_pos V c _ _ hz]; unfold PhiAt1
    iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runAt1_C c t h1 (iblk1 V c 0 t) (iblk1 V c 1 t) (iblk1 V c 2 t) (iblk1 V c 3 t) (iblk1 V c 4 t) (iblk1 V c 5 t) (iblk1 V c 6 t) _ _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, ⟨%e7, H7⟩, ⟨%es0, HS0⟩, ⟨%es1, HS1⟩, ⟨%es2, HS2⟩, HS3, HS4⟩
    isplitl [HS0 HS1 HS2 HS3 HS4 Hrest Hg]
    · isplitl [HS0 HS1 HS2 HS3 HS4 Hrest]
      · isplitl [HS0 HS1 HS2 HS3 HS4]
        · isplitl [HS0]
          · unfold owns; iexists _; isplitr
            swap; · iexact HS0
            ipureintro; exact View.read_writes_of_cover _ _ _ _ _ (scover1_C_0 c t h1 _ _ _ _ _ _ _ _ _ _ _ _)
          isplitl [HS1]
          · unfold owns; iexists _; isplitr
            swap; · iexact HS1
            ipureintro; exact View.read_writes_of_cover _ _ _ _ _ (scover1_C_1 c t h1 _ _ _ _ _ _ _ _ _ _ _ _)
          isplitl [HS2]
          · unfold owns; iexists _; isplitr
            swap; · iexact HS2
            ipureintro; exact View.read_writes_of_cover _ _ _ _ _ (scover1_C_2 c t h1 _ _ _ _ _ _ _ _ _ _ _ _)
          isplitl [HS3]; · iexact HS3
          iexact HS4
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover1_C_7 c t h1 _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the scratch buffers' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2, HS3, HS4⟩, Hrest⟩, Hg⟩
  isplitl [HS0 HS1 HS2 HS3 HS4 Hrest]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Region1

end Cert.Kernel.Hand

end
-- ==== Proof.K.Region1Seg.lean ====
/-
  Region 1 as a segment of @main: entered from every unscoped buffer at the contents Win, left at Wout, beside the
  generator register at some state and nothing owed.  The pipeline's arrays are split out of the unscoped buffers at
  entry and put back at the exit contents; the generator register and the scoped buffers no window stages make the
  invariant before the first point, and the invariant after the last point gives them back, the scratch buffers'
  contents forgotten; the kernel has no semaphore of its own.
-/
import proofs.«170986_j45183055954173_2_alg».proof.Proof.K.Region1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- a library lemma stated over the pinned configuration unifies with the printed one only when unification may unfold
-- plain definitions in a metavariable's type
set_option backward.isDefEq.respectTransparency.types false in
/-- REGION 1 over the thread state "every unscoped buffer at the boundary's contents, the generator register at some
    state, nothing owed", for any family of proof data whose member 1 is the region's at the entry contents. -/
def reg1 (pdats : PDats F) (Win Wout : Dev nD → Valuation τ sig (Elt F))
    (hp : ∀ c, pdats 1 c = dat1 (fun c b => Win c b) c)
    (hF : ∀ c (w : Fin cfg1.W), (pdats 1 c).arrAt w cfg1.N = Wout c (Pipeline.arrRef spec1 w))
    (hrest : ∀ c (b : Ref sig .tc), b ∉ Finset.univ.image (Pipeline.arrRef spec1) → Wout c b = Win c b) :
    Pipeline.RegionSeg (pcfgs (F := F)) Gen.adm pdats () defs₀ 𝒱₀ L lv 1 where
  win := launch1.win.to₀
  block_pos := launch1.block_pos
  stage_whole := launch1.stage_whole
  K := PEmpty
  osem k := k.elim
  ho := Pipeline.OwnSemFacts.none _
  hbody c := by rw [hp c]; exact (body_obligation1 _ c).loose
  hwaits := Pipeline.hwaits_of_owed_zero _ _ _ _ L lv 1 fun c t => by rw [hp c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec1 c (fun b => Win c b)
  hentry c := by
    rw [Pipeline.ownSems0_none]
    have hsplit := Pipeline.arrays_of_unscopedBufs (p := 1) (pcfgs (F := F)) Gen.adm pdats launch1.win launch1.arr_whole c
      ((pdats 1 c).share_full fun _ => by rw [hp c]; rfl) (fun b => Win c b) fun w => by rw [hp c]; exact A_eq1 _ c w
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    refine BIBase.Entails.trans ?_ (hin1 _ c)
    unfold Pipeline.ΦA
    iintro ⟨Hp, -, Hr⟩
    isplitl [Hr]; · iexact Hr
    iexact Hp
  hout c := by
    rw [Pipeline.ownSems0_none, hp c]
    refine BIBase.Entails.trans (hout1 _ c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c pdats ((pdats 1 c).share_full fun _ => by rw [hp c]; rfl)
      (fun b => Win c b) (fun b => Wout c b) ((pdats 1 c).arrAt · cfg1.N) (hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state region 1 is entered from, -/
theorem reg1_pre (pdats : PDats F) (Win Wout : Dev nD → Valuation τ sig (Elt F)) (hp) (hF) (hrest) (c : Dev nD) :
    (reg1 pdats Win Wout hp hF hrest).pre c = iprop(StableHlo.held (c : Thread nD τ) (Pipeline.ucRefs τ sig) (Win c) ∗ R c) := rfl
/-- and the one it leaves. -/
theorem reg1_post (pdats : PDats F) (Win Wout : Dev nD → Valuation τ sig (Elt F)) (hp) (hF) (hrest) (c : Dev nD) :
    (reg1 pdats Win Wout hp hF hrest).post c = iprop(StableHlo.held (c : Thread nD τ) (Pipeline.ucRefs τ sig) (Wout c) ∗ R c) := rfl

end Cert.Kernel.Hand

end
-- ==== Proof.K.Region2Runs.lean ====
/-
  Region 2 of the kernel program (the third pallas_call: grid 2 x 1 x 1): the two conditions of the body decided over
  the grid, and the body's triple on whole memrefs.  At each of its two points the body initialises all five scratch
  buffers, accumulates once and finalises, so both conditionals are taken at every point.
-/
import proofs.«170986_j45183055954173_2_alg».proof.Proof.K.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## The body's two conditions -/

/-- The kv step is the first one (the condition of the initialising branch, from the grid coordinates). -/
abbrev cond2_0 (i : grid2.Coords) : Prop :=
  (Scalar.cmpi .ne (Scalar.extui (Scalar.cmpi .eq (BitVec.ofNat 32 (i 2).val) 0#32)) 0#32) = 1#1
/-- The kv step is the last one (the condition of the finalising branch). -/
abbrev cond2_1 (i : grid2.Coords) : Prop := k2_cond2 i = 1#1

/-- With one kv step, every point is a first step, -/
theorem hcond2_0 : ∀ t : Fin cfg2.N, cond2_0 (grid2.coords t) :=
  (by decide +kernel : ∀ t : Fin grid2.N, cond2_0 (grid2.coords t))
/-- and a last one. -/
theorem hcond2_1 : ∀ t : Fin cfg2.N, cond2_1 (grid2.coords t) :=
  (by decide +kernel : ∀ t : Fin grid2.N, cond2_1 (grid2.coords t))

/-- The output window is live at every point: the body stores its block there. -/
theorem liveAt2_7 : ∀ t : Fin cfg2.N, cfg2.idle 7 (grid2.coords t) = false := by decide +kernel
/-- The input windows are never idle. -/
theorem liveAt2_in : ∀ (w : Fin cfg2.W), w ≠ 7 → ∀ t : Fin cfg2.N, cfg2.idle w (grid2.coords t) = false := by decide +kernel

/-! ## The body's triple -/

set_option maxHeartbeats 4000000 in
/-- What the body's stores leave in the output block and in each scratch buffer, as pieces (last first), with the proof
    that on whole memrefs — the seven inputs at their contents, the output and the scratch buffers at anything — the
    body runs to the continuation holding the inputs as they were and each written buffer with its pieces written.
    Every scratch buffer is stored whole before it is read, so what it held before does not matter. -/
noncomputable def kernelRun2 (c : Dev nD) (i : grid2.Coords) (arg3 : Memref sig .tc .vmem S2x256x512 .f32) (harg3 : arg3.IsWhole) (arg4 : Memref sig .tc .vmem S2x256x512 .f32) (harg4 : arg4.IsWhole) (arg5 : Memref sig .tc .vmem S2x256x512 .f32) (harg5 : arg5.IsWhole) (arg6 : Memref sig .tc .vmem S2x1x512 .f32) (harg6 : arg6.IsWhole) (arg7 : Memref sig .tc .vmem S2x1x512 .f32) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S1x1x8x128 .f32) (harg10 : arg10.IsWhole) (arg11 : Memref sig .tc .vmem S2x256x1 .f32) (harg11 : arg11.IsWhole) (arg12 : Memref sig .tc .vmem S2x256x512 .f32) (harg12 : arg12.IsWhole) (arg13 : Memref sig .tc .vmem S2x256x512 .f32) (harg13 : arg13.IsWhole) (arg14 : Memref sig .tc .vmem S2x256x512 .f32) (harg14 : arg14.IsWhole) (arg15 : Memref sig .tc .vmem S2x256x512 .bf16) (harg15 : arg15.IsWhole) (hc0 : cond2_0 i) (hc1 : cond2_1 i)
    (x0 x1 x2 : Vec F S2x256x512 .f32) (x3 x4 x5 x6 : Vec F S2x1x512 .f32) :
    Σ' (L7 : List (View.Piece (Elt F) S1x1x8x128 .f32)) (LS0 : List (View.Piece (Elt F) S2x256x1 .f32))
      (LS1 LS2 LS3 : List (View.Piece (Elt F) S2x256x512 .f32)), { LS4 : List (View.Piece (Elt F) S2x256x512 .bf16) //
      ∀ (E : Set ℕ) (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
                ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc2__aat_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc2__aat_kernel_eq_skeleton]; unfold cc2__aat_kernel_skel
    simp only [k2_part2_eq_skeleton, k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.K.Region2Dat.lean ====
/-
  Region 2 of the kernel program, its frame half at the contents `V` the TensorCore's buffers hold when the region is
  entered: the windows' blocks, what the body leaves in the output block and in the scratch buffers at each point, and
  the pipeline's proof data.  Nothing is carried from one point to the next: the body stores every
  scratch buffer whole before reading it, so the invariant holds the scratch at some contents throughout.
-/
import proofs.«170986_j45183055954173_2_alg».proof.Proof.K.Region2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : RefVal F)

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The memrefs the body is called with -/

abbrev ms2_0 (t : Fin cfg2.N) : Memref sig .tc .vmem S2x256x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2x256x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2x256x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2x1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2x1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2x1x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2x1x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x1x8x128 .f32 := win2_7.stage (cfg2.slots t 7)
abbrev hs2_7 (t : Fin cfg2.N) : (ms2_7 t).IsWhole := hstage2_7 ((cfg2.slots t 7).cast nbuf2_7)
abbrev scM2_0 : Memref sig .tc .vmem S2x256x1 .f32 := Memref.whole cc2_scratch0
abbrev scM2_1 : Memref sig .tc .vmem S2x256x512 .f32 := Memref.whole cc2_scratch1
abbrev scM2_2 : Memref sig .tc .vmem S2x256x512 .f32 := Memref.whole cc2_scratch2
abbrev scM2_3 : Memref sig .tc .vmem S2x256x512 .f32 := Memref.whole cc2_scratch3
abbrev scM2_4 : Memref sig .tc .vmem S2x256x512 .bf16 := Memref.whole cc2_scratch4

/-- The class's invariant with the region's own scratch buffers as memrefs owned at some contents, the other scoped
    buffers unopened. -/
theorem PhiA2_eq (c : Dev nD) :
    (Pipeline.ΦA spec2 c : sProp (MM F))
      = iprop(iprop(iprop((∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d) ∗ (∃ d, owns (c : Thread nD τ) scM2_4 fullShare d))
          ∗ Pipeline.scopedRestBut (Ix := Unit) (Name := ℕ) (U := UR sig nD τ) (Lvl := ℕ) (Val := Elt F) spec2 c [cc2_scratch0, cc2_scratch1, cc2_scratch2, cc2_scratch3, cc2_scratch4]) ∗ (∃ r, prngReg c r)) := by
  unfold Pipeline.ΦA; rw [scopedRest2_split]; simp only [scM2_0, scM2_1, scM2_2, scM2_3, scM2_4, owns_whole]; try rfl

/-! ## What the body leaves at a point -/

/-- The body's run at point `t`: on the point's staging memrefs and the scratch buffers, the inputs at their blocks. -/
abbrev run2At (c : Dev nD) (t : Fin cfg2.N) :=
  kernelRun2 (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) (hcond2_0 t) (hcond2_1 t) (iblk2 V c 0 t) (iblk2 V c 1 t) (iblk2 V c 2 t) (iblk2 V c 3 t) (iblk2 V c 4 t) (iblk2 V c 5 t) (iblk2 V c 6 t)

/-- The output block's pieces tile it, so they cover it. -/
theorem cover2_7 (c : Dev nD) (t : Fin cfg2.N) (y : S1x1x8x128.Idx) : ∃ pc ∈ (run2At V c t).1, y ∈ pc.1.set :=
  View.cover_of_tiledL (run2At V c t).1 S1x1x8x128.size (by sl_kernel_rfl) y

/-- What the output block and the five scratch buffers (the row sums, the two accumulators, the normalised content and
    its unit rows in bf16) hold after the body at position `n`: the run's pieces read back.  One control case: both
    conditionals are taken at every point, and nothing of position `n - 1` is read. -/
def outsAt2 (c : Dev nD) (n : ℕ) (hn : n < cfg2.N) :
    Vec F S1x1x8x128 .f32 × Vec F S2x256x1 .f32 × Vec F S2x256x512 .f32 × Vec F S2x256x512 .f32 × Vec F S2x256x512 .f32 × Vec F S2x256x512 .bf16 :=
  (View.canon (run2At V c ⟨n, hn⟩).1, View.canon (run2At V c ⟨n, hn⟩).2.1, View.canon (run2At V c ⟨n, hn⟩).2.2.1,
    View.canon (run2At V c ⟨n, hn⟩).2.2.2.1, View.canon (run2At V c ⟨n, hn⟩).2.2.2.2.1, View.canon (run2At V c ⟨n, hn⟩).2.2.2.2.2.1)

/-- `outsAt2` at a point (the one case: the kv step is the first and the last). -/
theorem outsAt2_A (c : Dev nD) (t : Fin cfg2.N) (h0 : t.val % 1 = 0) (h1 : t.val % 1 = 0) :
    outsAt2 V c t.val t.isLt = (View.canon (run2At V c t).1, View.canon (run2At V c t).2.1, View.canon (run2At V c t).2.2.1,
      View.canon (run2At V c t).2.2.2.1, View.canon (run2At V c t).2.2.2.2.1, View.canon (run2At V c t).2.2.2.2.2.1) := rfl

/-! ## The pipeline's proof data -/

/-- The proof data of pipeline 2 on core `c`: the arrays as the region finds them; after the body at point `t` each
    input's buffer at its block and the output's at `outsAt2`'s first component; the invariant the class's (the scoped
    rest, which holds the scratch buffers at some contents, and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

end Cert.Kernel.Hand

end
-- ==== Proof.K.Region2Body.lean ====
/-
  Region 2 of the kernel program: the body obligation of its pipeline, at the contents `V` the TensorCore's buffers hold
  when the region is entered.  The invariant lends the body the five scratch buffers at some contents and takes them back
  at some contents; the inputs' staging buffers hold their blocks; the output's ends at its pieces read back.
-/
import proofs.«170986_j45183055954173_2_alg».proof.Proof.K.Region2Dat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : RefVal F)

/-! ## The body obligation -/

/-- What the body is called with at point `t`, the windows one by one, -/
def bodyPre2 (c : Dev nD) (t : Fin cfg2.N) : sProp (MM F) :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp (MM F) :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4000000 in
/-- The body at any point: the inputs' memrefs hold their blocks, the invariant lends the scratch buffers at some contents
    and takes them back at some contents, the output's buffer ends at its pieces read back; the core owes nothing
    throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl,
    show (dat2 V c).Φ t.succ = Pipeline.ΦA spec2 c from rfl, show (dat2 V c).Φ t.castSucc = Pipeline.ΦA spec2 c from rfl, PhiA2_eq]
  rw [show (dat2 V c).leavesExact 0 t = owns (c : Thread nD τ) (ms2_0 t) fullShare ((dat2 V c).after 0 t) from by
    unfold Dat.leavesExact; rw [liveAt2_in 0 (by decide) t], after2_0]
  rw [show (dat2 V c).leavesExact 1 t = owns (c : Thread nD τ) (ms2_1 t) fullShare ((dat2 V c).after 1 t) from by
    unfold Dat.leavesExact; rw [liveAt2_in 1 (by decide) t], after2_1]
  rw [show (dat2 V c).leavesExact 2 t = owns (c : Thread nD τ) (ms2_2 t) fullShare ((dat2 V c).after 2 t) from by
    unfold Dat.leavesExact; rw [liveAt2_in 2 (by decide) t], after2_2]
  rw [show (dat2 V c).leavesExact 3 t = owns (c : Thread nD τ) (ms2_3 t) fullShare ((dat2 V c).after 3 t) from by
    unfold Dat.leavesExact; rw [liveAt2_in 3 (by decide) t], after2_3]
  rw [show (dat2 V c).leavesExact 4 t = owns (c : Thread nD τ) (ms2_4 t) fullShare ((dat2 V c).after 4 t) from by
    unfold Dat.leavesExact; rw [liveAt2_in 4 (by decide) t], after2_4]
  rw [show (dat2 V c).leavesExact 5 t = owns (c : Thread nD τ) (ms2_5 t) fullShare ((dat2 V c).after 5 t) from by
    unfold Dat.leavesExact; rw [liveAt2_in 5 (by decide) t], after2_5]
  rw [show (dat2 V c).leavesExact 6 t = owns (c : Thread nD τ) (ms2_6 t) fullShare ((dat2 V c).after 6 t) from by
    unfold Dat.leavesExact; rw [liveAt2_in 6 (by decide) t], after2_6]
  rw [show (dat2 V c).leavesExact 7 t = owns (c : Thread nD τ) (ms2_7 t) fullShare ((dat2 V c).after 7 t) from by
    unfold Dat.leavesExact; rw [liveAt2_7 t], after2_7]
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run2At V c t).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, ⟨%es0, HS0⟩, ⟨%es1, HS1⟩, ⟨%es2, HS2⟩, ⟨%es3, HS3⟩, ⟨%es4, HS4⟩⟩
  isplitl [HS0 HS1 HS2 HS3 HS4 Hrest Hg]
  · isplitl [HS0 HS1 HS2 HS3 HS4 Hrest]
    · isplitl [HS0 HS1 HS2 HS3 HS4]
      · isplitl [HS0]
        · unfold owns; iexists _; iexists _; isplitr
          swap; · iexact HS0
          ipureintro; rfl
        isplitl [HS1]
        · unfold owns; iexists _; iexists _; isplitr
          swap; · iexact HS1
          ipureintro; rfl
        isplitl [HS2]
        · unfold owns; iexists _; iexists _; isplitr
          swap; · iexact HS2
          ipureintro; rfl
        isplitl [HS3]
        · unfold owns; iexists _; iexists _; isplitr
          swap; · iexact HS3
          ipureintro; rfl
        unfold owns; iexists _; iexists _; isplitr
        swap; · iexact HS4
        ipureintro; rfl
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact (View.read_writes_eq_canon _ _ _ (cover2_7 V c t))

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region2Seg.lean ====
/-
  Region 2 of the kernel program as a segment of @main.  It is entered from the thread state "every unscoped buffer at
  the contents `Win`, the generator register at some state, nothing owed" and left at the same state with the contents
  `Wout`: the pipeline's arrays split out of the unscoped buffers and put back at what the write-backs leave; the
  generator register and the scoped rest (which holds the scratch buffers, at some contents) into the invariant and
  out; no semaphore of the kernel's own.
-/
import proofs.«170986_j45183055954173_2_alg».proof.Proof.K.Region2Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- a library lemma stated over the pinned configuration unifies with the printed one only when unification may unfold
-- plain definitions in a metavariable's type
set_option backward.isDefEq.respectTransparency.types false in
/-- Region 2 over the thread state, for any family of proof data whose member at pipeline 2 is `dat2` at the entry
    contents (`hp`), any exit contents that hold at each array of the pipeline what its write-backs leave (`hF`) and
    elsewhere what was there at entry (`hrest`). -/
def reg2 (pdats : PDats F) (Win Wout : Dev nD → Valuation τ sig (Elt F))
    (hp : ∀ c, pdats 2 c = dat2 (fun c b => Win c b) c)
    (hF : ∀ c (w : Fin cfg2.W), (pdats 2 c).arrAt w cfg2.N = Wout c (Pipeline.arrRef spec2 w))
    (hrest : ∀ c (b : Ref sig .tc), b ∉ Finset.univ.image (Pipeline.arrRef spec2) → Wout c b = Win c b) :
    Pipeline.RegionSeg (pcfgs (F := F)) Gen.adm pdats () defs₀ 𝒱₀ L lv 2 where
  win := launch2.win.to₀
  block_pos := launch2.block_pos
  stage_whole := launch2.stage_whole
  K := PEmpty
  osem k := k.elim
  ho := Pipeline.OwnSemFacts.none _
  hbody c := by rw [hp c]; exact (body_obligation2 _ c).loose
  hwaits := Pipeline.hwaits_of_owed_zero _ _ _ _ L lv 2 fun c t => by rw [hp c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec2 c (fun b => Win c b)
  hentry c := by
    rw [Pipeline.ownSems0_none]
    have hsplit := Pipeline.arrays_of_unscopedBufs (p := 2) (pcfgs (F := F)) Gen.adm pdats launch2.win launch2.arr_whole c
      ((pdats 2 c).share_full fun w => by rw [hp c]; rfl) (fun b => Win c b) fun w => by rw [hp c]; exact A_eq2 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 2 c).Φ 0 = Pipeline.ΦA spec2 c from by rw [hp c]; rfl]; unfold Pipeline.ΦA
    iintro ⟨Hp, -, Hr⟩
    isplitl [Hr]; · iexact Hr
    iexact Hp
  hout c := by
    rw [Pipeline.ownSems0_none, show (pdats 2 c).Φ (Fin.last _) = Pipeline.ΦA spec2 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c pdats ((pdats 2 c).share_full fun w => by rw [hp c]; rfl)
      (fun b => Win c b) (fun b => Wout c b) ((pdats 2 c).arrAt · cfg2.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 2 c).owed (Fin.last _) = 0 from by rw [hp c]; rfl]
    iexact HO

/-- The thread state region 2 is entered from, -/
theorem reg2_pre (pdats : PDats F) (Win Wout : Dev nD → Valuation τ sig (Elt F)) (hp hF hrest) (c : Dev nD) :
    (reg2 pdats Win Wout hp hF hrest).pre c = iprop(StableHlo.held (c : Thread nD τ) (Pipeline.ucRefs τ sig) (Win c) ∗ R c) := rfl
/-- and the one it leaves. -/
theorem reg2_post (pdats : PDats F) (Win Wout : Dev nD → Valuation τ sig (Elt F)) (hp hF hrest) (c : Dev nD) :
    (reg2 pdats Win Wout hp hF hrest).post c = iprop(StableHlo.held (c : Thread nD τ) (Pipeline.ucRefs τ sig) (Wout c) ∗ R c) := rfl

end Cert.Kernel.Hand

end
-- ==== Proof.K.Main.lean ====
/-
  The kernel program's run from its three regions.  Each region is entered from the contents the host operations
  before it leave, and leaves its output array at what its write-backs fold to; the later regions' entry contents
  depend on the earlier outputs only through buffers they never read.
-/
import proofs.«170986_j45183055954173_2_alg».proof.Proof.K.Assemble
import proofs.«170986_j45183055954173_2_alg».proof.Proof.K.Region0Seg
import proofs.«170986_j45183055954173_2_alg».proof.Proof.K.Region1Seg
import proofs.«170986_j45183055954173_2_alg».proof.Proof.K.Region2Seg

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-! ## What the regions leave, region by region -/

/-- Region 0's entry contents. -/
abbrev En0 : RefVal F := fun c b => Gen.V5 m c b
/-- Region 0's output array after the region. -/
def out0 (c : Dev nD) : Buf (Elt F) ((c : Thread nD τ).loc main_v27) := (dat0 (En0 m) c).arrAt 7 cfg0.N
/-- The regions' outputs known so far: region 0's. -/
def outsA : Gen.Outs (F := F) := fun _ r c =>
  if h : r = main_v27 then h ▸ out0 m c else m ((c : Thread nD τ).loc r)

/-- Region 1's entry contents: they depend on region 0's output only. -/
abbrev En1 : RefVal F := fun c b => Gen.V11 m (outsA m) c b
/-- Region 1's output array after the region. -/
def out1 (c : Dev nD) : Buf (Elt F) ((c : Thread nD τ).loc main_v58) := (dat1 (En1 m) c).arrAt 7 cfg1.N
/-- The regions' outputs known so far: those of regions 0 and 1. -/
def outsB : Gen.Outs (F := F) := fun _ r c =>
  if h : r = main_v27 then h ▸ out0 m c else if h : r = main_v58 then h ▸ out1 m c else m ((c : Thread nD τ).loc r)

/-- Region 2's entry contents: they depend on the outputs of regions 0 and 1 only. -/
abbrev En2 : RefVal F := fun c b => Gen.V17 m (outsB m) c b
/-- Region 2's output array after the region. -/
def out2 (c : Dev nD) : Buf (Elt F) ((c : Thread nD τ).loc main_v89) := (dat2 (En2 m) c).arrAt 7 cfg2.N
/-- What the three regions leave in their output arrays. -/
def outs : Gen.Outs (F := F) := fun _ r c =>
  if h : r = main_v27 then h ▸ out0 m c else if h : r = main_v58 then h ▸ out1 m c
  else if h : r = main_v89 then h ▸ out2 m c else m ((c : Thread nD τ).loc r)

theorem outs_v27 (j : ℕ) (c : Dev nD) : outs m j main_v27 c = out0 m c := by unfold outs; rw [dif_pos rfl]
theorem outsA_v27 (j : ℕ) (c : Dev nD) : outsA m j main_v27 c = out0 m c := by unfold outsA; rw [dif_pos rfl]
theorem outsB_v27 (j : ℕ) (c : Dev nD) : outsB m j main_v27 c = out0 m c := by unfold outsB; rw [dif_pos rfl]
theorem outs_v58 (j : ℕ) (c : Dev nD) : outs m j main_v58 c = out1 m c := by
  unfold outs; rw [dif_neg (by decide), dif_pos rfl]
theorem outsB_v58 (j : ℕ) (c : Dev nD) : outsB m j main_v58 c = out1 m c := by
  unfold outsB; rw [dif_neg (by decide), dif_pos rfl]
theorem outs_v89 (j : ℕ) (c : Dev nD) : outs m j main_v89 c = out2 m c := by
  unfold outs; rw [dif_neg (by decide), dif_neg (by decide), dif_pos rfl]

/-- Region 1's entry contents read a region's output only at region 0's. -/
theorem V11_congr (o o' : Gen.Outs (F := F)) (c : Dev nD) (h : o 6 main_v27 c = o' 6 main_v27 c) :
    Gen.V11 m o c = Gen.V11 m o' c := by
  show StableHlo.after hostOps1_4 (StableHlo.after hostOps1_3 (StableHlo.after hostOps1_2 (StableHlo.after hostOps1_1
    (StableHlo.after hostOps1 (Function.update (Gen.V5 m c) (Proc.devRef .tc main_v27) (o 6 main_v27 c)))))) = _
  rw [h]
/-- Region 2's entry contents read a region's output only at those of regions 0 and 1. -/
theorem V17_congr (o o' : Gen.Outs (F := F)) (c : Dev nD) (h : o 6 main_v27 c = o' 6 main_v27 c)
    (h' : o 12 main_v58 c = o' 12 main_v58 c) : Gen.V17 m o c = Gen.V17 m o' c := by
  show StableHlo.after hostOps2_4 (StableHlo.after hostOps2_3 (StableHlo.after hostOps2_2 (StableHlo.after hostOps2_1
    (StableHlo.after hostOps2 (Function.update (Gen.V11 m o c) (Proc.devRef .tc main_v58) (o 12 main_v58 c)))))) = _
  rw [h', V11_congr m o o' c h]

/-- Region 1's entry contents do not depend on the later outputs. -/
theorem V11_outs (c : Dev nD) : Gen.V11 m (outs m) c = Gen.V11 m (outsA m) c :=
  V11_congr m _ _ c ((outs_v27 m 6 c).trans (outsA_v27 m 6 c).symm)
/-- Region 2's entry contents do not depend on its own output. -/
theorem V17_outs (c : Dev nD) : Gen.V17 m (outs m) c = Gen.V17 m (outsB m) c :=
  V17_congr m _ _ c ((outs_v27 m 6 c).trans (outsB_v27 m 6 c).symm) ((outs_v58 m 12 c).trans (outsB_v58 m 12 c).symm)

/-! ## The proof data, and each region's record -/

/-- Every pipeline's proof data, each at its region's entry contents. -/
def pdats : PDats F
  | ⟨0, _⟩ => fun c => dat0 (En0 m) c
  | ⟨1, _⟩ => fun c => dat1 (En1 m) c
  | ⟨2, _⟩ => fun c => dat2 (En2 m) c

/-! ### Region 0 -/

/-- An input window's array is never written: it leaves region 0 as it entered, and the valuation after the
    region changes the output array only. -/
theorem hF0_in (c : Dev nD) (w : Fin cfg0.W) (hin : (cfg0.win w).isOut = false)
    (hne : Pipeline.arrRef spec0 w ∉ ([main_v27] : List (Ref sig .tc))) :
    (pdats m 0 c).arrAt w cfg0.N = Gen.V6 m (outs m) c (Pipeline.arrRef spec0 w) :=
  ((dat0 (En0 m) c).arrAt_in w hin _).trans <| (A_eq0 (En0 m) c w).trans <|
    (Gen.V6_of m (outs m) c (Pipeline.arrRef spec0 w) hne).symm

/-- Every array of region 0 at its exit: an input as entered, the output at what the write-backs fold to. -/
theorem hF0 (c : Dev nD) : ∀ w : Fin cfg0.W, (pdats m 0 c).arrAt w cfg0.N = Gen.V6 m (outs m) c (Pipeline.arrRef spec0 w)
  | 0 => hF0_in m c 0 rfl (by decide)
  | 1 => hF0_in m c 1 rfl (by decide)
  | 2 => hF0_in m c 2 rfl (by decide)
  | 3 => hF0_in m c 3 rfl (by decide)
  | 4 => hF0_in m c 4 rfl (by decide)
  | 5 => hF0_in m c 5 rfl (by decide)
  | 6 => hF0_in m c 6 rfl (by decide)
  | 7 => by
    show out0 m c = Function.update (Gen.V5 m c) (Proc.devRef .tc main_v27) (outs m 6 main_v27 c) (Proc.devRef .tc main_v27)
    rw [Function.update_self, outs_v27]
  | ⟨_ + 8, h⟩ => absurd h (Nat.not_lt.2 (Nat.le_add_left _ _))

/-- A buffer that is no array of region 0 is not its output array: the region leaves it as entered. -/
theorem hrest0 (c : Dev nD) (b : Ref sig .tc) (hb : b ∉ Finset.univ.image (Pipeline.arrRef spec0)) :
    Gen.V6 m (outs m) c b = Gen.V5 m c b :=
  Gen.V6_of m (outs m) c b fun hmem => hb (by
    rw [List.mem_singleton] at hmem
    subst hmem
    exact Finset.mem_image.mpr ⟨7, Finset.mem_univ _, rfl⟩)

/-- Region 0's proof data stand at the entry contents the program reaches. -/
theorem hp0 (c : Dev nD) : pdats m 0 c = dat0 (fun c b => Gen.V5 m c b) c := rfl

/-! ### Region 1 -/

/-- An input window's array is never written: it leaves region 1 as it entered, and the valuation after the
    region changes the output array only. -/
theorem hF1_in (c : Dev nD) (w : Fin cfg1.W) (hin : (cfg1.win w).isOut = false)
    (hne : Pipeline.arrRef spec1 w ∉ ([main_v58] : List (Ref sig .tc))) :
    (pdats m 1 c).arrAt w cfg1.N = Gen.V12 m (outs m) c (Pipeline.arrRef spec1 w) :=
  ((dat1 (En1 m) c).arrAt_in w hin _).trans <| (A_eq1 (En1 m) c w).trans <|
    (congrFun (V11_outs m c) (Proc.devRef .tc (Pipeline.arrRef spec1 w))).symm.trans <| (Gen.V12_of m (outs m) c (Pipeline.arrRef spec1 w) hne).symm

/-- Every array of region 1 at its exit: an input as entered, the output at what the write-backs fold to. -/
theorem hF1 (c : Dev nD) : ∀ w : Fin cfg1.W, (pdats m 1 c).arrAt w cfg1.N = Gen.V12 m (outs m) c (Pipeline.arrRef spec1 w)
  | 0 => hF1_in m c 0 rfl (by decide)
  | 1 => hF1_in m c 1 rfl (by decide)
  | 2 => hF1_in m c 2 rfl (by decide)
  | 3 => hF1_in m c 3 rfl (by decide)
  | 4 => hF1_in m c 4 rfl (by decide)
  | 5 => hF1_in m c 5 rfl (by decide)
  | 6 => hF1_in m c 6 rfl (by decide)
  | 7 => by
    show out1 m c = Function.update (Gen.V11 m (outs m) c) (Proc.devRef .tc main_v58) (outs m 12 main_v58 c) (Proc.devRef .tc main_v58)
    rw [Function.update_self, outs_v58]
  | ⟨_ + 8, h⟩ => absurd h (Nat.not_lt.2 (Nat.le_add_left _ _))

/-- A buffer that is no array of region 1 is not its output array: the region leaves it as entered. -/
theorem hrest1 (c : Dev nD) (b : Ref sig .tc) (hb : b ∉ Finset.univ.image (Pipeline.arrRef spec1)) :
    Gen.V12 m (outs m) c b = Gen.V11 m (outs m) c b :=
  Gen.V12_of m (outs m) c b fun hmem => hb (by
    rw [List.mem_singleton] at hmem
    subst hmem
    exact Finset.mem_image.mpr ⟨7, Finset.mem_univ _, rfl⟩)

/-- Region 1's proof data stand at the entry contents the program reaches. -/
theorem hp1 (c : Dev nD) : pdats m 1 c = dat1 (fun c b => Gen.V11 m (outs m) c b) c :=
  congrArg (fun V : RefVal F => dat1 V c) (funext fun c => funext fun b => (congrFun (V11_outs m c) (Proc.devRef .tc b)).symm)

/-! ### Region 2 -/

/-- An input window's array is never written: it leaves region 2 as it entered, and the valuation after the
    region changes the output array only. -/
theorem hF2_in (c : Dev nD) (w : Fin cfg2.W) (hin : (cfg2.win w).isOut = false)
    (hne : Pipeline.arrRef spec2 w ∉ ([main_v89] : List (Ref sig .tc))) :
    (pdats m 2 c).arrAt w cfg2.N = Gen.V18 m (outs m) c (Pipeline.arrRef spec2 w) :=
  ((dat2 (En2 m) c).arrAt_in w hin _).trans <| (A_eq2 (En2 m) c w).trans <|
    (congrFun (V17_outs m c) (Proc.devRef .tc (Pipeline.arrRef spec2 w))).symm.trans <| (Gen.V18_of m (outs m) c (Pipeline.arrRef spec2 w) hne).symm

/-- Every array of region 2 at its exit: an input as entered, the output at what the write-backs fold to. -/
theorem hF2 (c : Dev nD) : ∀ w : Fin cfg2.W, (pdats m 2 c).arrAt w cfg2.N = Gen.V18 m (outs m) c (Pipeline.arrRef spec2 w)
  | 0 => hF2_in m c 0 rfl (by decide)
  | 1 => hF2_in m c 1 rfl (by decide)
  | 2 => hF2_in m c 2 rfl (by decide)
  | 3 => hF2_in m c 3 rfl (by decide)
  | 4 => hF2_in m c 4 rfl (by decide)
  | 5 => hF2_in m c 5 rfl (by decide)
  | 6 => hF2_in m c 6 rfl (by decide)
  | 7 => by
    show out2 m c = Function.update (Gen.V17 m (outs m) c) (Proc.devRef .tc main_v89) (outs m 18 main_v89 c) (Proc.devRef .tc main_v89)
    rw [Function.update_self, outs_v89]
  | ⟨_ + 8, h⟩ => absurd h (Nat.not_lt.2 (Nat.le_add_left _ _))

/-- A buffer that is no array of region 2 is not its output array: the region leaves it as entered. -/
theorem hrest2 (c : Dev nD) (b : Ref sig .tc) (hb : b ∉ Finset.univ.image (Pipeline.arrRef spec2)) :
    Gen.V18 m (outs m) c b = Gen.V17 m (outs m) c b :=
  Gen.V18_of m (outs m) c b fun hmem => hb (by
    rw [List.mem_singleton] at hmem
    subst hmem
    exact Finset.mem_image.mpr ⟨7, Finset.mem_univ _, rfl⟩)

/-- Region 2's proof data stand at the entry contents the program reaches. -/
theorem hp2 (c : Dev nD) : pdats m 2 c = dat2 (fun c b => Gen.V17 m (outs m) c b) c :=
  congrArg (fun V : RefVal F => dat2 V c) (funext fun c => funext fun b => (congrFun (V17_outs m c) (Proc.devRef .tc b)).symm)

/-! ## The three records, the frame and the result -/

/-- Region 0's record: entered from the contents after the first host stretches, left with its output array written. -/
def R0 : Pipeline.RegionSeg (pcfgs (F := F)) Gen.adm (pdats m) () defs₀ 𝒱₀ L lv 0 :=
  reg0 (pdats m) (Gen.V5 m) (Gen.V6 m (outs m)) (hp0 m) (hF0 m) (hrest0 m)
/-- Region 1's record. -/
def R1 : Pipeline.RegionSeg (pcfgs (F := F)) Gen.adm (pdats m) () defs₀ 𝒱₀ L lv 1 :=
  reg1 (pdats m) (Gen.V11 m (outs m)) (Gen.V12 m (outs m)) (hp1 m) (hF1 m) (hrest1 m)
/-- Region 2's record. -/
def R2 : Pipeline.RegionSeg (pcfgs (F := F)) Gen.adm (pdats m) () defs₀ 𝒱₀ L lv 2 :=
  reg2 (pdats m) (Gen.V17 m (outs m)) (Gen.V18 m (outs m)) (hp2 m) (hF2 m) (hrest2 m)

/-- THE FRAME OF THE PROGRAM: every weakly fair execution of @main from memory `m` with zero counters terminates,
    and every final memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_regs m ρ (outs m) (pdats m)
    (R0 m) (fun c => by rw [R0, reg0_pre]) (fun c => by rw [R0, reg0_post])
    (R1 m) (fun c => by rw [R1, reg1_pre]) (fun c => by rw [R1, reg1_post])
    (R2 m) (fun c => by rw [R2, reg2_pre]) (fun c => by rw [R2, reg2_post])

/-- THE RESULT OF THE PROGRAM: the same run, read at the result buffer too: it ends at the last valuation's contents,
    the host tail's sum over what the three regions leave. -/
theorem run_value (ρ : Dev nD → PrngReg) :
    θ_run defs (onTc (τ := τ) (main (F := F))) ⟨m, fun _ => 0, ρ⟩ (fun r => ∀ c : Dev nD,
      r.2.mem ((c.tc : Thread nD τ).loc main_v94) = Gen.V19 m (outs m) c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  value_of_regs m ρ (outs m) (pdats m)
    (R0 m) (fun c => by rw [R0, reg0_pre]) (fun c => by rw [R0, reg0_post])
    (R1 m) (fun c => by rw [R1, reg1_pre]) (fun c => by rw [R1, reg1_post])
    (R2 m) (fun c => by rw [R2, reg2_pre]) (fun c => by rw [R2, reg2_post])

end Cert.Kernel.Hand

end
-- ==== Proof.KI.Common.lean ====
/-
  Names shared by the hand-written frame of the kernel program (any float instance `F`).
  Between two items of @main a TensorCore holds every unscoped buffer at the boundary's contents; beside them
  rides `R c`: the core's generator register at some state, and the core owing nothing.  No core signals
  another, so no level is assigned (`L`, `lv`) and the variants are the empty ones.
-/
import proofs.«170986_j45183055954173_2_alg».proof.Proof.Gen.KernelIdeal.Launch
import proofs.«170986_j45183055954173_2_alg».proof.Proof.Gen.KernelIdeal.Skeleton
import proofs.«170986_j45183055954173_2_alg».proof.Proof.Gen.KernelIdeal.Points
import proofs.«170986_j45183055954173_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The resource algebra every hand module of this program works in. -/
abbrev MM (F : FTy → Type) [FloatOps F] : Type := MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers through every item of @main. -/
abbrev R (c : Dev nD) : sProp (MM F) :=
  iprop((∃ r, prngReg c r) ∗ ∃ W, owes (c : Thread nD τ) (0 : CellTallies nD τ sig Unit) W)

/-- The type of the three pipelines' proof data, as the conditional frame takes it. -/
abbrev PDats (F : FTy → Type) [FloatOps F] : Type :=
  (p : Fin 3) → (c : Dev nD) → Dat τ (Elt F) Unit ℕ (UR sig nD τ) ℕ (cfgs p) c

/-- The contents of a TensorCore's references: what each region's half is stated at. -/
abbrev RefVal (F : FTy → Type) [FloatOps F] : Type :=
  (c : Dev nD) → (b : Ref sig .tc) → Buf (Elt F) ((c : Thread nD τ).loc b)

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

end Cert.KernelIdeal.Hand

end
-- ==== Proof.KI.Assemble.lean ====
/-
  The run of the kernel program assembled from its three kernel regions (any float instance `F`).
  @main is nineteen items: stretches of host operations and, as items 5, 11 and 17, the three pallas_calls.  Between two
  items a TensorCore holds every unscoped buffer whole at the boundary's contents (`Gen.V0` … `Gen.V19`), beside the rest
  `R c`: its generator register at some state, and the core owing nothing.  GIVEN, per region, a segment record entered from
  the thread state before it and left at the one after it, every weakly fair execution of @main terminates, each argument
  array ends as launched (`frame_of_regs`), and the result buffer `main_v94` ends at the last valuation's contents
  (`value_of_regs`).  The algebra is one copy of the rounds algebra (the pipelines' staging cells), nothing else: no core
  signals another, so nothing is owed at launch and no ghost resource is dealt.
-/
import proofs.«170986_j45183055954173_2_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

/-! ## The launch -/

/-- The launch element: the rounds algebra's initial element at the three pipelines' staging cells. -/
abbrev u₀ : UR sig nD τ := initOf (Pipeline.cells cfgs cellOf_inj) (Pipeline.launchToks cfgs cellOf_inj)

/-- The launch element is the pipelines' own, and no ghost resource is dealt to any core. -/
theorem hu₀ : (ownU u₀ : sProp (MM F))
    ⊢ |={Set.univ}=> iprop(BI.own ((emb₁ : Emb (UR sig nD τ) (MM F)) u₀) ∗ bigSep Finset.univ fun _ : Dev nD => (iprop(emp) : sProp (MM F))) := by
  iintro Hu; imodintro
  isplitl [Hu]
  · iapply (show (ownU u₀ : sProp (MM F)) ⊢ BI.own ((emb₁ : Emb (UR sig nD τ) (MM F)) u₀) from .rfl)
    iexact Hu
  iapply (show (BI.emp : sProp (MM F)) ⊢ bigSep Finset.univ (fun _ : Dev nD => (BI.emp : sProp (MM F))) from by rw [BI.bigSep_emp_const])
  iempintro

/-- What the launch deals every core — its semaphores at zero, nothing owed, its generator register — makes the rest
    state `R` on every core at once: the register is kept at its launch state, and the core owes nothing with no wait open. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp (MM F)))) ∗ levAts L lv)
      ⊢ (|={Set.univ}=> bigSep Finset.univ (fun c : Dev nD => R (F := F) c) : sProp (MM F)) := by
  refine Pipeline.initEach L lv fun c => ?_
  iintro ⟨⟨-, HO, -, Hp, -⟩, -⟩
  imodintro
  isplitl [Hp]; · iexists _; iexact Hp
  iexists ∅; iexact HO

/-- The rest state ends owing nothing. -/
theorem hE3 (c : Dev nD) : R (F := F) c ⊢ (iprop(∃ W, owes (c : Thread nD τ) (0 : CellTallies nD τ sig Unit) W) : sProp (MM F)) := by
  iintro ⟨-, HW⟩; iexact HW

/-! ## The frame, given the regions' records -/

/-- THE FRAME OF THE PROGRAM from its regions' records: every weakly fair execution of @main from memory `m` with zero
    counters terminates, and every final memory holds each argument array as launched. -/
theorem frame_of_regs (m : (ℓ : Loc nD τ sig) → Buf (Elt F) ℓ) (ρ : Dev nD → PrngReg) (outs : Gen.Outs (F := F)) (pdats : PDats F)
    (R0 : Pipeline.RegionSeg (pcfgs (F := F)) Gen.adm pdats () defs₀ 𝒱₀ L lv 0)
    (hpre0 : ∀ c : Dev nD, iprop(StableHlo.held (c : Thread nD τ) (Pipeline.ucRefs τ sig) (Gen.V5 m c) ∗ R c) ⊢ R0.pre c)
    (hpost0 : ∀ c : Dev nD, R0.post c ⊢ iprop(StableHlo.held (c : Thread nD τ) (Pipeline.ucRefs τ sig) (Gen.V6 m outs c) ∗ R c))
    (R1 : Pipeline.RegionSeg (pcfgs (F := F)) Gen.adm pdats () defs₀ 𝒱₀ L lv 1)
    (hpre1 : ∀ c : Dev nD, iprop(StableHlo.held (c : Thread nD τ) (Pipeline.ucRefs τ sig) (Gen.V11 m outs c) ∗ R c) ⊢ R1.pre c)
    (hpost1 : ∀ c : Dev nD, R1.post c ⊢ iprop(StableHlo.held (c : Thread nD τ) (Pipeline.ucRefs τ sig) (Gen.V12 m outs c) ∗ R c))
    (R2 : Pipeline.RegionSeg (pcfgs (F := F)) Gen.adm pdats () defs₀ 𝒱₀ L lv 2)
    (hpre2 : ∀ c : Dev nD, iprop(StableHlo.held (c : Thread nD τ) (Pipeline.ucRefs τ sig) (Gen.V17 m outs c) ∗ R c) ⊢ R2.pre c)
    (hpost2 : ∀ c : Dev nD, R2.post c ⊢ iprop(StableHlo.held (c : Thread nD τ) (Pipeline.ucRefs τ sig) (Gen.V18 m outs c) ∗ R c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m (emb₁ : Emb (UR sig nD τ) (MM F)) () 𝒱₀ L lv (fun _ _ => rfl) ρ outs pdats 0 (fun _ => iprop(emp)) u₀ hu₀
    (fun _ c => R c) (hE0 ρ) hE3 R0 hpre0 hpost0 R1 hpre1 hpost1 R2 hpre2 hpost2

/-! ## The result, given the regions' records -/

-- the launch theorem's implicit arguments are found by unifying its conclusion with this one, which takes unfolding
-- plain definitions in a metavariable's type
set_option backward.isDefEq.respectTransparency.types false in
/-- THE RESULT OF THE PROGRAM from its regions' records: the same launch, read at one more buffer.  Every weakly fair
    execution of @main from memory `m` with zero counters terminates, and every final memory holds the result buffer
    `main_v94` at the last valuation's contents — the host tail's sum of the three regions' outputs, over whatever
    the regions left (`outs`) — and each argument array as launched. -/
theorem value_of_regs (m : (ℓ : Loc nD τ sig) → Buf (Elt F) ℓ) (ρ : Dev nD → PrngReg) (outs : Gen.Outs (F := F)) (pdats : PDats F)
    (R0 : Pipeline.RegionSeg (pcfgs (F := F)) Gen.adm pdats () defs₀ 𝒱₀ L lv 0)
    (hpre0 : ∀ c : Dev nD, iprop(StableHlo.held (c : Thread nD τ) (Pipeline.ucRefs τ sig) (Gen.V5 m c) ∗ R c) ⊢ R0.pre c)
    (hpost0 : ∀ c : Dev nD, R0.post c ⊢ iprop(StableHlo.held (c : Thread nD τ) (Pipeline.ucRefs τ sig) (Gen.V6 m outs c) ∗ R c))
    (R1 : Pipeline.RegionSeg (pcfgs (F := F)) Gen.adm pdats () defs₀ 𝒱₀ L lv 1)
    (hpre1 : ∀ c : Dev nD, iprop(StableHlo.held (c : Thread nD τ) (Pipeline.ucRefs τ sig) (Gen.V11 m outs c) ∗ R c) ⊢ R1.pre c)
    (hpost1 : ∀ c : Dev nD, R1.post c ⊢ iprop(StableHlo.held (c : Thread nD τ) (Pipeline.ucRefs τ sig) (Gen.V12 m outs c) ∗ R c))
    (R2 : Pipeline.RegionSeg (pcfgs (F := F)) Gen.adm pdats () defs₀ 𝒱₀ L lv 2)
    (hpre2 : ∀ c : Dev nD, iprop(StableHlo.held (c : Thread nD τ) (Pipeline.ucRefs τ sig) (Gen.V17 m outs c) ∗ R c) ⊢ R2.pre c)
    (hpost2 : ∀ c : Dev nD, R2.post c ⊢ iprop(StableHlo.held (c : Thread nD τ) (Pipeline.ucRefs τ sig) (Gen.V18 m outs c) ∗ R c)) :
    θ_run defs (onTc (τ := τ) (main (F := F))) ⟨m, fun _ => 0, ρ⟩ (fun r => ∀ c : Dev nD,
      r.2.mem ((c.tc : Thread nD τ).loc main_v94) = Gen.V19 m outs c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) Gen.adm pdats () cellOf_inj (emb₁ : Emb (UR sig nD τ) (MM F)) defs₀ 𝒱₀ L lv m ρ main
    (Gen.segs m outs 𝒱₀ L lv (fun _ c => R c) () pdats R0 R1 R2)
    (fun c Q => by
      rewrite [main_chain c, Seg.run_eq_chain,
        show (Gen.segs m outs 𝒱₀ L lv (fun _ c => R (F := F) c) () pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (fun c => by simp only [Gen.segs, Seg.pipes_host, Seg.pipes_region, Seg.pipes_nil]; decide) 0 (fun _ _ => rfl)
    (fun _ => iprop(emp)) u₀ hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V19 m outs c))
    (hch := fun c => ⟨.rfl, .rfl, .rfl, .rfl, .rfl, hpre0 c, hpost0 c, .rfl, .rfl, .rfl, .rfl, hpre1 c, hpost1 c, .rfl, .rfl, .rfl, .rfl, hpre2 c, hpost2 c, sep_mono .rfl (hE3 c)⟩)
    (hinit := ?_)
    (QY := fun c s => s.mem ((c.tc : Thread nD τ).loc main_v94) = Gen.V19 m outs c main_v94 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch, core by core: the unscoped buffers are held at the launch contents; the register is kept, nothing is owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result buffer and each argument's buffer read off the last valuation
    unfold StableHlo.held
    iintro ⟨Hh, HSI⟩
    ihave Hr := (pointsTo_read_all (Pipeline.ucRefs τ sig) (fun b => ((c : Thread nD τ).1, b)) (Gen.V19 m outs c) s') $$ [Hh HSI]
    · isplitl [Hh] <;> iassumption
    icases Hr with ⟨%h, HSI⟩
    imodintro
    isplitr
    · ipureintro
      exact ⟨h (Proc.devRef .tc main_v94) (mem_uc main_v94 (by decide)),
        (h (Proc.devRef .tc main_arg0) (mem_uc main_arg0 (by decide))).trans (Gen.V19_main_arg0 m outs c),
        (h (Proc.devRef .tc main_arg1) (mem_uc main_arg1 (by decide))).trans (Gen.V19_main_arg1 m outs c),
        (h (Proc.devRef .tc main_arg2) (mem_uc main_arg2 (by decide))).trans (Gen.V19_main_arg2 m outs c),
        (h (Proc.devRef .tc main_arg3) (mem_uc main_arg3 (by decide))).trans (Gen.V19_main_arg3 m outs c),
        (h (Proc.devRef .tc main_arg4) (mem_uc main_arg4 (by decide))).trans (Gen.V19_main_arg4 m outs c),
        (h (Proc.devRef .tc main_arg5) (mem_uc main_arg5 (by decide))).trans (Gen.V19_main_arg5 m outs c),
        (h (Proc.devRef .tc main_arg6) (mem_uc main_arg6 (by decide))).trans (Gen.V19_main_arg6 m outs c),
        (h (Proc.devRef .tc main_arg7) (mem_uc main_arg7 (by decide))).trans (Gen.V19_main_arg7 m outs c),
        (h (Proc.devRef .tc main_arg8) (mem_uc main_arg8 (by decide))).trans (Gen.V19_main_arg8 m outs c)⟩
    · iexact HSI

end Cert.KernelIdeal.Hand

end
-- ==== Proof.KI.Region0Runs.lean ====
/-
  Region 0 of the kernel program (the first pallas_call: grid 2 x 8 x 4, the last axis the kv step): what the
  per-case runs of its body share.  The body branches twice on the kv step: the first branch is taken at
  step 0 (the accumulators and the two caches are initialised), the second at step 3 (the output block is
  stored).  Over the 64 points in row-major order the kv step is the point's index mod 4.
-/
import proofs.«170986_j45183055954173_2_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The body's two branch conditions, decided over the grid -/

/-- The condition of the first branch (`kv step = 0`), from the grid coordinates. -/
abbrev cond0_0 (i : grid0.Coords) : Prop :=
  (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the second branch (`kv step = 3`, the last). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Input window 6 is never idle. -/
theorem liveAt0_6 : ∀ t : Fin cfg0.N, cfg0.idle 6 (grid0.coords t) = false := by decide +kernel
/-- Where the second branch is not taken the output window is idle: nothing is stored into it. -/
theorem idleAt0_7 : ∀ t : Fin cfg0.N, ¬cond0_1 (grid0.coords t) → cfg0.idle 7 (grid0.coords t) = true := by decide +kernel
/-- And its block is not written back there. -/
theorem noFlush0_7 : ∀ t : Fin cfg0.N, ¬cond0_1 (grid0.coords t) → (cfg0.win 7).flush t = false := by decide +kernel
/-- Where the second branch is taken the output window is live. -/
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S2x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x8x128 .f32 := win0_7.stage (cfg0.slots t 7)
abbrev hs0_7 (t : Fin cfg0.N) : (ms0_7 t).IsWhole := hstage0_7 ((cfg0.slots t 7).cast nbuf0_7)
/-- The five scratch operands: whole scoped buffers of the call's own (the row sums, the two accumulators, the
    normalised query block and its unit-length bf16 form). -/
abbrev scM0_0 : Memref sig .tc .vmem S2x512x1 .f32 := Memref.whole cc0_scratch0
abbrev scM0_1 : Memref sig .tc .vmem S2x512x256 .f32 := Memref.whole cc0_scratch1
abbrev scM0_2 : Memref sig .tc .vmem S2x512x256 .f32 := Memref.whole cc0_scratch2
abbrev scM0_3 : Memref sig .tc .vmem S2x512x256 .f32 := Memref.whole cc0_scratch3
abbrev scM0_4 : Memref sig .tc .vmem S2x512x256 .bf16 := Memref.whole cc0_scratch4
/-- The views through which the output block's and the scratch buffers' contents are stated. -/
abbrev VO0_7 : View sig .tc .vmem S1x1x8x128 .f32 := (Memref.whole cc0_stg7_0 : Memref sig .tc .vmem S1x1x8x128 .f32).view
abbrev VS0_0 : View sig .tc .vmem S2x512x1 .f32 := scM0_0.view
abbrev VS0_1 : View sig .tc .vmem S2x512x256 .f32 := scM0_1.view
abbrev VS0_2 : View sig .tc .vmem S2x512x256 .f32 := scM0_2.view
abbrev VS0_3 : View sig .tc .vmem S2x512x256 .f32 := scM0_3.view
abbrev VS0_4 : View sig .tc .vmem S2x512x256 .bf16 := scM0_4.view

/-- The scoped buffers no window stages, besides the call's five scratch operands. -/
abbrev restBut0 (c : Dev nD) : sProp (MM F) :=
  Pipeline.scopedRestBut (Ix := Unit) (Name := ℕ) (U := UR sig nD τ) (Lvl := ℕ) (Val := Elt F) spec0 c
    [cc0_scratch0, cc0_scratch1, cc0_scratch2, cc0_scratch3, cc0_scratch4]

/-- The class invariant with the scratch operands as memrefs owned at some contents. -/
theorem PhiA0_eq (c : Dev nD) :
    (Pipeline.ΦA spec0 c : sProp (MM F))
      = iprop(iprop(iprop((∃ d, owns (c : Thread nD τ) scM0_0 fullShare d) ∗ (∃ d, owns (c : Thread nD τ) scM0_1 fullShare d)
            ∗ (∃ d, owns (c : Thread nD τ) scM0_2 fullShare d) ∗ (∃ d, owns (c : Thread nD τ) scM0_3 fullShare d)
            ∗ (∃ d, owns (c : Thread nD τ) scM0_4 fullShare d)) ∗ restBut0 c) ∗ (∃ r, prngReg c r)) := by
  unfold Pipeline.ΦA; rw [scopedRest0_split]; simp only [scM0_0, scM0_1, scM0_2, scM0_3, scM0_4, owns_whole]; try rfl

end Cert.KernelIdeal.Hand

end
-- ==== Proof.KI.Region0RunA.lean ====
/-
  The body of region 0 at a first kv step (the first branch taken, the second not): the five scratch buffers are
  stored whole before anything is read from them, the accumulators then updated with this step's scores, and the
  output block is left alone.
-/
import proofs.«170986_j45183055954173_2_alg».proof.Proof.KI.Region0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxHeartbeats 4000000 in
/-- The body's triple at a first kv step, on any whole memrefs: the inputs and the output block are handed back
    as they were, each scratch buffer with the pieces the stores left in it (the piece lists are what the run finds). -/
noncomputable def kernelRun0_A (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i)
    (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) :
    Σ' (LS0 : List (View.Piece (Elt F) S2x512x1 .f32)) (LS1 : List (View.Piece (Elt F) S2x512x256 .f32)) (LS2 : List (View.Piece (Elt F) S2x512x256 .f32)) (LS3 : List (View.Piece (Elt F) S2x512x256 .f32)), { LS4 : List (View.Piece (Elt F) S2x512x256 .bf16) //
      ∀ (xi7 : Vec F S1x1x8x128 .f32) (E : Set ℕ) (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0__aat_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi7 E K => ?run⟩
  case run =>
    simp only [cc0__aat_kernel_eq_skeleton]; unfold cc0__aat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, HS0⟩, ⟨%d9, %f9, -, HS1⟩, ⟨%d10, %f10, -, HS2⟩, ⟨%d11, %f11, -, HS3⟩, ⟨%d12, %f12, -, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KI.Region0RunB.lean ====
/-
  The body of region 0 at a middle kv step (neither branch taken): the row sums and the two accumulators are
  read at what the step before left and stored back updated; the two caches are only read.
-/
import proofs.«170986_j45183055954173_2_alg».proof.Proof.KI.Region0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxHeartbeats 4000000 in
/-- The body's triple at a middle kv step, on any whole memrefs: the three accumulators, held at what the step
    before left, come back with the pieces this step's stores left in them; the inputs, the output block and
    the two caches are handed back as they were. -/
noncomputable def kernelRun0_B (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : ¬cond0_1 i)
    (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) :
    Σ' (LS0 : List (View.Piece (Elt F) S2x512x1 .f32)) (LS1 : List (View.Piece (Elt F) S2x512x256 .f32)), { LS2 : List (View.Piece (Elt F) S2x512x256 .f32) //
      ∀ (xi7 : Vec F S1x1x8x128 .f32) (E : Set ℕ) (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ owns (c : Thread nD τ) arg14 fullShare xs3 ∗ owns (c : Thread nD τ) arg15 fullShare xs4) -∗ K ⟨⟩))
          ⊢ wp frame (wpE (defs₀ (F := F)) Variants.none c none) E (cc0__aat_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi7 E K => ?run⟩
  case run =>
    simp only [cc0__aat_kernel_eq_skeleton]; unfold cc0__aat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, HS0⟩, ⟨%f9, %hf9, HS1⟩, ⟨%f10, %hf10, HS2⟩, ⟨%f11, %hf11, HS3⟩, ⟨%f12, %hf12, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    isplitl [HS2]; · iexists _; iexact HS2
    isplitl [HS3]
    · iexists _; isplitr; · ipureintro; exact harg14.read_unread _
      iexact HS3
    iexists _; isplitr; · ipureintro; exact harg15.read_unread _
    iexact HS4

end Cert.KernelIdeal.Hand

end
-- ==== Proof.KI.Region0RunC.lean ====
/-
  The body of region 0 at the last kv step (the second branch taken): the accumulators are updated as at a
  middle step, then read back with the cached normalised queries and the stylised block, and the output block
  is stored.
-/
import proofs.«170986_j45183055954173_2_alg».proof.Proof.KI.Region0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxHeartbeats 4000000 in
/-- The body's triple at the last kv step, on any whole memrefs: the accumulators as at a middle step, and the
    output block with the piece the final store left in it; the inputs and the two caches are handed back as
    they were. -/
noncomputable def kernelRun0_C (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : cond0_1 i)
    (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) :
    Σ' (L7 : List (View.Piece (Elt F) S1x1x8x128 .f32)) (LS0 : List (View.Piece (Elt F) S2x512x1 .f32)) (LS1 : List (View.Piece (Elt F) S2x512x256 .f32)), { LS2 : List (View.Piece (Elt F) S2x512x256 .f32) //
      ∀ (E : Set ℕ) (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ owns (c : Thread nD τ) arg14 fullShare xs3 ∗ owns (c : Thread nD τ) arg15 fullShare xs4) -∗ K ⟨⟩))
          ⊢ wp frame (wpE (defs₀ (F := F)) Variants.none c none) E (cc0__aat_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__aat_kernel_eq_skeleton]; unfold cc0__aat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, HS0⟩, ⟨%f9, %hf9, HS1⟩, ⟨%f10, %hf10, HS2⟩, ⟨%f11, %hf11, HS3⟩, ⟨%f12, %hf12, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hf9; obtain rfl := harg13.eq_unread hf10; obtain rfl := harg14.eq_unread hf11; obtain rfl := harg15.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    isplitl [HS2]; · iexists _; iexact HS2
    isplitl [HS3]
    · iexists _; isplitr; · ipureintro; exact harg14.read_unread _
      iexact HS3
    iexists _; isplitr; · ipureintro; exact harg15.read_unread _
    iexact HS4

end Cert.KernelIdeal.Hand

end
-- ==== Proof.KI.Region0.lean ====
/-
  Region 0 of the kernel program: what the five scratch buffers and the output block hold after each grid point,
  the point-indexed invariant that carries the scratch buffers from one kv step to the next, the pipeline's
  proof data at the region's entry contents, and the body obligation.
-/
import proofs.«170986_j45183055954173_2_alg».proof.Proof.KI.Region0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The windows' blocks -/

/-- Window `w`'s block at point `t`, read off its array as the region finds it. -/
def iblk0 (V : RefVal F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What each case leaves -/

/-- The output block and the five scratch buffers, in that order. -/
abbrev Outs0 (F : FTy → Type) [FloatOps F] : Type :=
  Vec F S1x1x8x128 .f32 × Vec F S2x512x1 .f32 × Vec F S2x512x256 .f32 × Vec F S2x512x256 .f32 × Vec F S2x512x256 .f32 × Vec F S2x512x256 .bf16

theorem scover0_A_0 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (y : S2x512x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1 S2x512x1.size (by sl_kernel_rfl) y
theorem scover0_A_1 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (y : S2x512x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1 S2x512x256.size (by sl_kernel_rfl) y
theorem scover0_A_2 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (y : S2x512x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1 S2x512x256.size (by sl_kernel_rfl) y
theorem scover0_A_3 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (y : S2x512x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1 S2x512x256.size (by sl_kernel_rfl) y
theorem scover0_A_4 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (y : S2x512x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1 S2x512x256.size (by sl_kernel_rfl) y

/-- A first kv step: every scratch buffer at its stores read back; the output block is not stored into (its entry
    is a placeholder nothing consults: the window is idle there and not written back). -/
def outs0_A (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) : Outs0 F :=
  (VO0_7.read (Elt F) (VO0_7.writes (Elt F) VO0_7.junk []), VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1),
   VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1),
   VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1),
   VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1),
   VS0_4.read (Elt F) (VS0_4.writes (Elt F) VS0_4.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1))

theorem scover0_B_0 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S2x512x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).1 S2x512x1.size (by sl_kernel_rfl) y
theorem scover0_B_1 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S2x512x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.1 S2x512x256.size (by sl_kernel_rfl) y
theorem scover0_B_2 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S2x512x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.1 S2x512x256.size (by sl_kernel_rfl) y

/-- A middle kv step, over what the step before left in the scratch buffers: the three accumulators at their stores
    read back, the two caches as they were; the output block is not stored into. -/
def outs0_B (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) : Outs0 F :=
  (VO0_7.read (Elt F) (VO0_7.writes (Elt F) VO0_7.junk []), VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).1),
   VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.1),
   VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.1),
   xs3, xs4)

theorem cover0_C_7 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S1x1x8x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).1 S1x1x8x128.size (by sl_kernel_rfl) y
theorem scover0_C_0 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S2x512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.1 S2x512x1.size (by sl_kernel_rfl) y
theorem scover0_C_1 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S2x512x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.1 S2x512x256.size (by sl_kernel_rfl) y
theorem scover0_C_2 (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) (y : S2x512x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.2.1 S2x512x256.size (by sl_kernel_rfl) y

/-- The last kv step, over what the step before left: the output block at its store read back, the accumulators as
    at a middle step, the two caches as they were. -/
def outs0_C (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) : Outs0 F :=
  (VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).1), VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.1),
   VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.1),
   VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4).2.2.2.1),
   xs3, xs4)

/-! ## What the buffers hold after each point -/

theorem not_mod3_of_mod0 {n : ℕ} (h : n % 4 = 0) : ¬n % 4 = 3 := by omega
theorem pred_lt0 {n N : ℕ} (h : n < N) : n - 1 < N := Nat.lt_of_le_of_lt (Nat.sub_le _ _) h

/-- The output block and the scratch buffers after the body at position `n`, by recursion on the position: a first
    kv step reads nothing from before; a later one runs over what position `n - 1` left in the scratch buffers. -/
def outsAt0 (V : RefVal F) (c : Dev nD) : (n : ℕ) → n < cfg0.N → Outs0 F
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => not_mod3_of_mod0 (Nat.zero_mod 4) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)
  | n + 1, hn =>
    if h0 : (n + 1) % 4 = 0 then
      outs0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => not_mod3_of_mod0 h0 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩)
    else if h1 : (n + 1) % 4 = 3 then
      outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2.1 (outsAt0 V c n (Nat.lt_of_succ_lt hn)).2.2.1 (outsAt0 V c n (Nat.lt_of_succ_lt hn)).2.2.2.1 (outsAt0 V c n (Nat.lt_of_succ_lt hn)).2.2.2.2.1 (outsAt0 V c n (Nat.lt_of_succ_lt hn)).2.2.2.2.2
    else
      outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2.1 (outsAt0 V c n (Nat.lt_of_succ_lt hn)).2.2.1 (outsAt0 V c n (Nat.lt_of_succ_lt hn)).2.2.2.1 (outsAt0 V c n (Nat.lt_of_succ_lt hn)).2.2.2.2.1 (outsAt0 V c n (Nat.lt_of_succ_lt hn)).2.2.2.2.2

/-- At a first kv step. -/
theorem outsAt0_A (V : RefVal F) (c : Dev nD) (t : Fin cfg0.N) (h0 : t.val % 4 = 0) :
    outsAt0 V c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not_mod3_of_mod0 h0 ((hcond0_1 t).mp h)) (iblk0 V c 0 t) (iblk0 V c 1 t) (iblk0 V c 2 t) (iblk0 V c 3 t) (iblk0 V c 4 t) (iblk0 V c 5 t) (iblk0 V c 6 t) := by
  obtain ⟨n, hn⟩ := t
  cases n with
  | zero => exact rfl
  | succ n => exact (dif_pos h0).trans rfl

/-- At a middle kv step, over what the point before left. -/
theorem outsAt0_B (V : RefVal F) (c : Dev nD) (t : Fin cfg0.N) (h0 : ¬t.val % 4 = 0) (h1 : ¬t.val % 4 = 3) :
    outsAt0 V c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (pred_lt0 t.isLt)).2.1 (outsAt0 V c (t.val - 1) (pred_lt0 t.isLt)).2.2.1 (outsAt0 V c (t.val - 1) (pred_lt0 t.isLt)).2.2.2.1 (outsAt0 V c (t.val - 1) (pred_lt0 t.isLt)).2.2.2.2.1 (outsAt0 V c (t.val - 1) (pred_lt0 t.isLt)).2.2.2.2.2 := by
  obtain ⟨n, hn⟩ := t
  cases n with
  | zero => exact absurd (Nat.zero_mod _) h0
  | succ n => exact (dif_neg h0).trans ((dif_neg h1).trans rfl)

/-- At the last kv step, over what the point before left. -/
theorem outsAt0_C (V : RefVal F) (c : Dev nD) (t : Fin cfg0.N) (h0 : ¬t.val % 4 = 0) (h1 : t.val % 4 = 3) :
    outsAt0 V c t.val t.isLt = outs0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (pred_lt0 t.isLt)).2.1 (outsAt0 V c (t.val - 1) (pred_lt0 t.isLt)).2.2.1 (outsAt0 V c (t.val - 1) (pred_lt0 t.isLt)).2.2.2.1 (outsAt0 V c (t.val - 1) (pred_lt0 t.isLt)).2.2.2.2.1 (outsAt0 V c (t.val - 1) (pred_lt0 t.isLt)).2.2.2.2.2 := by
  obtain ⟨n, hn⟩ := t
  cases n with
  | zero => exact absurd (Nat.zero_mod _) h0
  | succ n => exact (dif_neg h0).trans ((dif_pos h1).trans rfl)

/-! ## The invariant -/

/-- The scratch buffers owned whole at the components of `o`, the other scoped buffers at anything, the generator
    register at some state. -/
def scAt0 (c : Dev nD) (o : Outs0 F) : sProp (MM F) :=
  iprop(iprop(iprop(owns (c : Thread nD τ) scM0_0 fullShare o.2.1 ∗ owns (c : Thread nD τ) scM0_1 fullShare o.2.2.1
      ∗ owns (c : Thread nD τ) scM0_2 fullShare o.2.2.2.1 ∗ owns (c : Thread nD τ) scM0_3 fullShare o.2.2.2.2.1
      ∗ owns (c : Thread nD τ) scM0_4 fullShare o.2.2.2.2.2) ∗ restBut0 c) ∗ (∃ r, prngReg c r))

/-- The same with the contents listed. -/
theorem scAt0_mk (c : Dev nD) (o7 : Vec F S1x1x8x128 .f32) (o0 : Vec F S2x512x1 .f32) (o1 o2 o3 : Vec F S2x512x256 .f32) (o4 : Vec F S2x512x256 .bf16) :
    scAt0 c (o7, o0, o1, o2, o3, o4)
      = iprop(iprop(iprop(owns (c : Thread nD τ) scM0_0 fullShare o0 ∗ owns (c : Thread nD τ) scM0_1 fullShare o1
          ∗ owns (c : Thread nD τ) scM0_2 fullShare o2 ∗ owns (c : Thread nD τ) scM0_3 fullShare o3
          ∗ owns (c : Thread nD τ) scM0_4 fullShare o4) ∗ restBut0 c) ∗ (∃ r, prngReg c r)) := rfl

theorem outs0_fst (o7 : Vec F S1x1x8x128 .f32) (o : Vec F S2x512x1 .f32 × Vec F S2x512x256 .f32 × Vec F S2x512x256 .f32 × Vec F S2x512x256 .f32 × Vec F S2x512x256 .bf16) :
    ((o7, o) : Outs0 F).1 = o7 := rfl

/-- The region's invariant before position `n`: before the first point the class invariant (every scoped buffer no
    window stages at anything, the generator register); afterwards the scratch buffers at what the point before left. -/
def PhiS0 (V : RefVal F) (c : Dev nD) : (n : ℕ) → n ≤ cfg0.N → sProp (MM F)
  | 0, _ => Pipeline.ΦA spec0 c
  | n + 1, hn => scAt0 c (outsAt0 V c n hn)

theorem PhiS0_zero (V : RefVal F) (c : Dev nD) (n : ℕ) (h : n ≤ cfg0.N) (hz : n = 0) : PhiS0 V c n h = Pipeline.ΦA spec0 c := by
  subst hz; rfl

theorem PhiS0_succ (V : RefVal F) (c : Dev nD) (n : ℕ) (hn : n < cfg0.N) :
    PhiS0 V c (n + 1) hn = scAt0 c (outsAt0 V c n hn) := rfl

theorem PhiS0_pos (V : RefVal F) (c : Dev nD) (n : ℕ) (h : n ≤ cfg0.N) (hz : n ≠ 0) :
    PhiS0 V c n h = scAt0 c (outsAt0 V c (n - 1) (by omega)) := by
  cases n with
  | zero => exact absurd rfl hz
  | succ n => rfl

/-! ## The pipeline's proof data -/

/-- The proof data of pipeline 0 on core `c` at the entry contents `V`. -/
def dat0 (V : RefVal F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (V : RefVal F) (c : Dev nD) (w : Fin cfg0.W) : (dat0 V c).A w = V c (Pipeline.arrRef spec0 w) := by
  dsimp only [dat0]

theorem PhiS0_castSucc (V : RefVal F) (c : Dev nD) (t : Fin cfg0.N) :
    (dat0 V c).Φ t.castSucc = PhiS0 V c t.val (Nat.le_of_lt t.isLt) := by
  dsimp only [dat0]; simp only [Fin.coe_castSucc]

theorem after0_0 (V : RefVal F) (c : Dev nD) (t : Fin cfg0.N) : (dat0 V c).after 0 t = iblk0 V c 0 t := by dsimp only [dat0]
theorem after0_1 (V : RefVal F) (c : Dev nD) (t : Fin cfg0.N) : (dat0 V c).after 1 t = iblk0 V c 1 t := by dsimp only [dat0]
theorem after0_2 (V : RefVal F) (c : Dev nD) (t : Fin cfg0.N) : (dat0 V c).after 2 t = iblk0 V c 2 t := by dsimp only [dat0]
theorem after0_3 (V : RefVal F) (c : Dev nD) (t : Fin cfg0.N) : (dat0 V c).after 3 t = iblk0 V c 3 t := by dsimp only [dat0]
theorem after0_4 (V : RefVal F) (c : Dev nD) (t : Fin cfg0.N) : (dat0 V c).after 4 t = iblk0 V c 4 t := by dsimp only [dat0]
theorem after0_5 (V : RefVal F) (c : Dev nD) (t : Fin cfg0.N) : (dat0 V c).after 5 t = iblk0 V c 5 t := by dsimp only [dat0]
theorem after0_6 (V : RefVal F) (c : Dev nD) (t : Fin cfg0.N) : (dat0 V c).after 6 t = iblk0 V c 6 t := by dsimp only [dat0]
theorem after0_7 (V : RefVal F) (c : Dev nD) (t : Fin cfg0.N) : (dat0 V c).after 7 t = (outsAt0 V c t.val t.isLt).1 := by dsimp only [dat0]

/-- Input window 0's staging buffer holds its block at every point, fetched there or not. -/
theorem before0_0 (V : RefVal F) (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input window 1's staging buffer holds its block at every point, fetched there or not. -/
theorem before0_1 (V : RefVal F) (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input window 2's staging buffer holds its block at every point, fetched there or not. -/
theorem before0_2 (V : RefVal F) (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input window 3's staging buffer holds its block at every point, fetched there or not. -/
theorem before0_3 (V : RefVal F) (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Input window 4's staging buffer holds its block at every point, fetched there or not. -/
theorem before0_4 (V : RefVal F) (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Input window 5's staging buffer holds its block at every point, fetched there or not. -/
theorem before0_5 (V : RefVal F) (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
/-- Input window 6's staging buffer holds its block at every point, fetched there or not. -/
theorem before0_6 (V : RefVal F) (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

/-! ## The body obligation's two sides at a point -/

theorem leaves0_0 (V : RefVal F) (c : Dev nD) (t : Fin cfg0.N) :
    (dat0 V c).leavesExact 0 t = owns (c : Thread nD τ) (ms0_0 t) fullShare ((dat0 V c).after 0 t) := by
  unfold Dat.leavesExact; rw [liveAt0_0 t]
theorem leaves0_1 (V : RefVal F) (c : Dev nD) (t : Fin cfg0.N) :
    (dat0 V c).leavesExact 1 t = owns (c : Thread nD τ) (ms0_1 t) fullShare ((dat0 V c).after 1 t) := by
  unfold Dat.leavesExact; rw [liveAt0_1 t]
theorem leaves0_2 (V : RefVal F) (c : Dev nD) (t : Fin cfg0.N) :
    (dat0 V c).leavesExact 2 t = owns (c : Thread nD τ) (ms0_2 t) fullShare ((dat0 V c).after 2 t) := by
  unfold Dat.leavesExact; rw [liveAt0_2 t]
theorem leaves0_3 (V : RefVal F) (c : Dev nD) (t : Fin cfg0.N) :
    (dat0 V c).leavesExact 3 t = owns (c : Thread nD τ) (ms0_3 t) fullShare ((dat0 V c).after 3 t) := by
  unfold Dat.leavesExact; rw [liveAt0_3 t]
theorem leaves0_4 (V : RefVal F) (c : Dev nD) (t : Fin cfg0.N) :
    (dat0 V c).leavesExact 4 t = owns (c : Thread nD τ) (ms0_4 t) fullShare ((dat0 V c).after 4 t) := by
  unfold Dat.leavesExact; rw [liveAt0_4 t]
theorem leaves0_5 (V : RefVal F) (c : Dev nD) (t : Fin cfg0.N) :
    (dat0 V c).leavesExact 5 t = owns (c : Thread nD τ) (ms0_5 t) fullShare ((dat0 V c).after 5 t) := by
  unfold Dat.leavesExact; rw [liveAt0_5 t]
theorem leaves0_6 (V : RefVal F) (c : Dev nD) (t : Fin cfg0.N) :
    (dat0 V c).leavesExact 6 t = owns (c : Thread nD τ) (ms0_6 t) fullShare ((dat0 V c).after 6 t) := by
  unfold Dat.leavesExact; rw [liveAt0_6 t]

/-- What the body is called with at point `t`, the windows one by one, -/
def bodyPre0 (V : RefVal F) (c : Dev nD) (t : Fin cfg0.N) : sProp (MM F) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (V : RefVal F) (c : Dev nD) (t : Fin cfg0.N) : sProp (MM F) :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

end Cert.KernelIdeal.Hand

end
-- ==== Proof.KI.Region0BodyA.lean ====
/-
  Region 0's body obligation at a first kv step (the point's index is 0 mod 4): the scratch buffers come in at anything (before the first point) or at what the point before left (which is not read), and go out at this step's stores read back; the output window is idle.
-/
import proofs.«170986_j45183055954173_2_alg».proof.Proof.KI.Region0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxHeartbeats 1000000 in
/-- At the first point of the grid: the scratch buffers come out of the class invariant. -/
theorem sound_body0_A0 (V : RefVal F) (c : Dev nD) (t : Fin cfg0.N) (h0 : t.val % 4 = 0) (hz : t.val = 0) :
    bodyPre0 V c t ⊢ wp frame (wpE (defs₀ (F := F)) Variants.none c none) Set.univ (bodyAt0 t) (fun _ => bodyPost0 V c t) := by
  have hc0 : cond0_0 (grid0.coords t) := (hcond0_0 t).mpr h0
  have hc1 : ¬cond0_1 (grid0.coords t) := fun h => not_mod3_of_mod0 h0 ((hcond0_1 t).mp h)
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [leaves0_0, after0_0, leaves0_1, after0_1, leaves0_2, after0_2, leaves0_3, after0_3, leaves0_4, after0_4, leaves0_5, after0_5, leaves0_6, after0_6]
  rw [Dat.leavesExact_idle (dat0 V c) 7 t (idleAt0_7 t hc1) (noFlush0_7 t hc1)]
  rw [outsAt0_A V c t h0]
  unfold outs0_A
  rw [scAt0_mk]
  rw [PhiS0_castSucc V c t, PhiS0_zero V c _ _ hz, PhiA0_eq]
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e0, HS0⟩, ⟨%e1, HS1⟩, ⟨%e2, HS2⟩, ⟨%e3, HS3⟩, ⟨%e4, HS4⟩⟩
  isplitl [HS0 HS1 HS2 HS3 HS4 Hrest Hg]
  · isplitl [HS0 HS1 HS2 HS3 HS4 Hrest]
    · isplitl [HS0 HS1 HS2 HS3 HS4]
      · skip
        isplitl [HS0]
        · skip
          unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _)
        isplitl [HS1]
        · skip
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _)
        isplitl [HS2]
        · skip
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _)
        isplitl [HS3]
        · skip
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (scover0_A_4 c _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 1000000 in
/-- At a later first kv step: the scratch buffers' named contents are forgotten. -/
theorem sound_body0_A1 (V : RefVal F) (c : Dev nD) (t : Fin cfg0.N) (h0 : t.val % 4 = 0) (hz : t.val ≠ 0) :
    bodyPre0 V c t ⊢ wp frame (wpE (defs₀ (F := F)) Variants.none c none) Set.univ (bodyAt0 t) (fun _ => bodyPost0 V c t) := by
  have hc0 : cond0_0 (grid0.coords t) := (hcond0_0 t).mpr h0
  have hc1 : ¬cond0_1 (grid0.coords t) := fun h => not_mod3_of_mod0 h0 ((hcond0_1 t).mp h)
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [leaves0_0, after0_0, leaves0_1, after0_1, leaves0_2, after0_2, leaves0_3, after0_3, leaves0_4, after0_4, leaves0_5, after0_5, leaves0_6, after0_6]
  rw [Dat.leavesExact_idle (dat0 V c) 7 t (idleAt0_7 t hc1) (noFlush0_7 t hc1)]
  rw [outsAt0_A V c t h0]
  unfold outs0_A
  rw [scAt0_mk]
  rw [PhiS0_castSucc V c t, PhiS0_pos V c _ _ hz]
  unfold scAt0
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexists _; iexact HS1
  isplitl [HS2]; · iexists _; iexact HS2
  isplitl [HS3]; · iexists _; iexact HS3
  isplitl [HS4]; · iexists _; iexact HS4
  iintro ⟨H0, H1, H2, H3, H4, H5, H6, H7, ⟨%e0, HS0⟩, ⟨%e1, HS1⟩, ⟨%e2, HS2⟩, ⟨%e3, HS3⟩, ⟨%e4, HS4⟩⟩
  isplitl [HS0 HS1 HS2 HS3 HS4 Hrest Hg]
  · isplitl [HS0 HS1 HS2 HS3 HS4 Hrest]
    · isplitl [HS0 HS1 HS2 HS3 HS4]
      · skip
        isplitl [HS0]
        · skip
          unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _)
        isplitl [HS1]
        · skip
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _)
        isplitl [HS2]
        · skip
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _)
        isplitl [HS3]
        · skip
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _)
        unfold owns; iexists _; isplitr
        swap; · iexact HS4
        ipureintro; exact View.read_writes_of_cover _ _ _ _ _ (scover0_A_4 c _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.KernelIdeal.Hand

end
-- ==== Proof.KI.Region0BodyB.lean ====
/-
  Region 0's body obligation at a middle kv step (the point's index is 1 or 2 mod 4): the scratch buffers come in at what the point before left, the accumulators go out at this step's stores read back, the caches as they were; the output window is idle.
-/
import proofs.«170986_j45183055954173_2_alg».proof.Proof.KI.Region0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxHeartbeats 1000000 in
theorem sound_body0_B (V : RefVal F) (c : Dev nD) (t : Fin cfg0.N) (h0 : ¬t.val % 4 = 0) (h1 : ¬t.val % 4 = 3) :
    bodyPre0 V c t ⊢ wp frame (wpE (defs₀ (F := F)) Variants.none c none) Set.univ (bodyAt0 t) (fun _ => bodyPost0 V c t) := by
  have hz : t.val ≠ 0 := fun h => h0 (by rw [h])
  have hc0 : ¬cond0_0 (grid0.coords t) := fun h => h0 ((hcond0_0 t).mp h)
  have hc1 : ¬cond0_1 (grid0.coords t) := fun h => h1 ((hcond0_1 t).mp h)
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [leaves0_0, after0_0, leaves0_1, after0_1, leaves0_2, after0_2, leaves0_3, after0_3, leaves0_4, after0_4, leaves0_5, after0_5, leaves0_6, after0_6]
  rw [Dat.leavesExact_idle (dat0 V c) 7 t (idleAt0_7 t hc1) (noFlush0_7 t hc1)]
  rw [outsAt0_B V c t h0 h1]
  unfold outs0_B
  rw [scAt0_mk]
  rw [PhiS0_castSucc V c t, PhiS0_pos V c _ _ hz]
  unfold scAt0
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) _ _ _ _ _).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e0, HS0⟩, ⟨%e1, HS1⟩, ⟨%e2, HS2⟩, HS3, HS4⟩
  isplitl [HS0 HS1 HS2 HS3 HS4 Hrest Hg]
  · isplitl [HS0 HS1 HS2 HS3 HS4 Hrest]
    · isplitl [HS0 HS1 HS2 HS3 HS4]
      · skip
        isplitl [HS0]
        · skip
          unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _)
        isplitl [HS1]
        · skip
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _ _)
        isplitl [HS2]
        · skip
          unfold owns; iexists _; isplitr
          swap; · iexact HS2
          ipureintro; exact View.read_writes_of_cover _ _ _ _ _ (scover0_B_2 c _ _ _ _ _ _ _ _ _ _ _ _ _ _ _ _ _ _ _ _ _ _ _ _ _ _ _ _ _ _ _ _ _ _ _ _ _ _ _ _ _)
        isplitl [HS3]; · iexact HS3
        iexact HS4
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.KernelIdeal.Hand

end
-- ==== Proof.KI.Region0BodyC.lean ====
/-
  Region 0's body obligation at the last kv step (the point's index is 3 mod 4): as at a middle step, and the output block goes out at the final store read back.
-/
import proofs.«170986_j45183055954173_2_alg».proof.Proof.KI.Region0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxHeartbeats 1000000 in
theorem sound_body0_C (V : RefVal F) (c : Dev nD) (t : Fin cfg0.N) (h0 : ¬t.val % 4 = 0) (h1 : t.val % 4 = 3) :
    bodyPre0 V c t ⊢ wp frame (wpE (defs₀ (F := F)) Variants.none c none) Set.univ (bodyAt0 t) (fun _ => bodyPost0 V c t) := by
  have hz : t.val ≠ 0 := fun h => h0 (by rw [h])
  have hc0 : ¬cond0_0 (grid0.coords t) := fun h => h0 ((hcond0_0 t).mp h)
  have hc1 : cond0_1 (grid0.coords t) := (hcond0_1 t).mpr h1
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [leaves0_0, after0_0, leaves0_1, after0_1, leaves0_2, after0_2, leaves0_3, after0_3, leaves0_4, after0_4, leaves0_5, after0_5, leaves0_6, after0_6]
  rw [show (dat0 V c).leavesExact 7 t = owns (c : Thread nD τ) (ms0_7 t) fullShare ((dat0 V c).after 7 t) from by
    unfold Dat.leavesExact; rw [liveAt0_7 t hc1], after0_7]
  rw [outsAt0_C V c t h0 h1]
  unfold outs0_C
  rw [scAt0_mk, outs0_fst]
  rw [PhiS0_castSucc V c t, PhiS0_pos V c _ _ hz]
  unfold scAt0
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) _ _ _ _ _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, ⟨%e0, HS0⟩, ⟨%e1, HS1⟩, ⟨%e2, HS2⟩, HS3, HS4⟩
  isplitl [HS0 HS1 HS2 HS3 HS4 Hrest Hg]
  · isplitl [HS0 HS1 HS2 HS3 HS4 Hrest]
    · isplitl [HS0 HS1 HS2 HS3 HS4]
      · skip
        isplitl [HS0]
        · skip
          unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _ _ _ _ _ _ _ _ _ _ _)
        isplitl [HS1]
        · skip
          unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _ _ _ _ _ _ _ _ _ _ _ _ _)
        isplitl [HS2]
        · skip
          unfold owns; iexists _; isplitr
          swap; · iexact HS2
          ipureintro; exact View.read_writes_of_cover _ _ _ _ _ (scover0_C_2 c _ _ _ _ _ _ _ _ _ _ _ _ _ _ _ _ _ _ _ _ _ _ _ _ _ _ _ _ _ _ _ _ _ _ _ _ _ _ _ _ _)
        isplitl [HS3]; · iexact HS3
        iexact HS4
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_C_7 c _ _ _ _ _ _ _ _ _ _ _ _ _ _ _ _ _ _ _ _ _ _ _ _ _ _ _ _ _ _ _ _ _ _ _ _ _ _ _ _ _)

end Cert.KernelIdeal.Hand

end
-- ==== Proof.KI.Region0Body.lean ====
/-
  Region 0's body obligation at every point: the point's index mod 4 selects the control case.
-/
import proofs.«170986_j45183055954173_2_alg».proof.Proof.KI.Region0BodyA
import proofs.«170986_j45183055954173_2_alg».proof.Proof.KI.Region0BodyB
import proofs.«170986_j45183055954173_2_alg».proof.Proof.KI.Region0BodyC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The body at any point: a first kv step, a middle one, or the last. -/
theorem sound_body0 (V : RefVal F) (c : Dev nD) (t : Fin cfg0.N) :
    bodyPre0 V c t ⊢ wp frame (wpE (defs₀ (F := F)) Variants.none c none) Set.univ (bodyAt0 t) (fun _ => bodyPost0 V c t) := by
  by_cases h0 : t.val % 4 = 0
  · by_cases hz : t.val = 0
    · exact sound_body0_A0 V c t h0 hz
    · exact sound_body0_A1 V c t h0 hz
  · by_cases h1 : t.val % 4 = 3
    · exact sound_body0_C V c t h0 h1
    · exact sound_body0_B V c t h0 h1

/-- The library's body obligation, at every point. -/
theorem body_obligation0 (V : RefVal F) (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region0Seg.lean ====
/-
  Region 0 as a segment of @main: entered from every unscoped buffer at the entry contents, left with the region's
  arrays at what the write-backs leave and every other buffer as entered.
-/
import proofs.«170986_j45183055954173_2_alg».proof.Proof.KI.Region0Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- After any point but the first the invariant gives the class invariant back: the scratch buffers' named contents
    are forgotten. -/
theorem Phi_out0 (V : RefVal F) (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  unfold scAt0
  iintro ⟨⟨⟨HS0, HS1, HS2, HS3, HS4⟩, Hrest⟩, Hg⟩
  isplitl [HS0 HS1 HS2 HS3 HS4 Hrest]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hrest
  iexact Hg

-- `iapply` of a library lemma stated over `pin pcs a p` unifies with the pinned configuration only when unification may
-- unfold plain definitions in a metavariable's type
set_option backward.isDefEq.respectTransparency.types false in
/-- REGION 0 as a segment of @main, for any family of proof data whose pipeline 0 is `dat0` at the entry contents
    `Win`: entered from every unscoped buffer at `Win`, left at `Wout` — the region's arrays at what the write-backs
    leave, every other buffer as entered.  The arrays are split out of the unscoped buffers and put back; the generator
    register goes into the invariant and comes out; nothing is owed; the kernel has no semaphore of its own. -/
def reg0 (pdats : PDats F) (Win Wout : Dev nD → Valuation τ sig (Elt F))
    (hp : ∀ c, pdats 0 c = dat0 (fun c b => Win c b) c)
    (hF : ∀ c (w : Fin cfg0.W), (pdats 0 c).arrAt w cfg0.N = Wout c (Pipeline.arrRef spec0 w))
    (hrest : ∀ c (b : Ref sig .tc), b ∉ Finset.univ.image (Pipeline.arrRef spec0) → Wout c b = Win c b) :
    Pipeline.RegionSeg (pcfgs (F := F)) Gen.adm pdats () defs₀ 𝒱₀ L lv 0 where
  win := launch0.win.to₀
  block_pos := launch0.block_pos
  stage_whole := launch0.stage_whole
  K := PEmpty
  osem k := k.elim
  ho := Pipeline.OwnSemFacts.none _
  hbody c := by rw [hp c]; exact (body_obligation0 _ c).loose
  hwaits := Pipeline.hwaits_of_owed_zero _ _ _ _ L lv 0 fun c t => by rw [hp c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec0 c (fun b => Win c b)
  hentry c := by
    rw [Pipeline.ownSems0_none]
    have hsplit := Pipeline.arrays_of_unscopedBufs (p := 0) (pcfgs (F := F)) Gen.adm pdats launch0.win launch0.arr_whole c
      (by rw [hp c]; exact (dat0 _ c).share_full fun _ => rfl) (fun b => Win c b) (fun w => by rw [hp c]; rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c, show (dat0 (fun c b => Win c b) c).Φ 0 = Pipeline.ΦA spec0 c from rfl]; unfold Pipeline.ΦA
    iintro ⟨Hp, -, Hr⟩
    isplitl [Hr]; · iexact Hr
    iexact Hp
  hout c := by
    rw [Pipeline.ownSems0_none, hp c]
    refine (Phi_out0 _ c (Fin.last cfg0.N) (by rw [Fin.val_last, show cfg0.N = 64 from N_0]; decide)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c pdats (by rw [hp c]; exact (dat0 _ c).share_full fun _ => rfl)
      (fun b => Win c b) (fun b => Wout c b) ((pdats 0 c).arrAt · cfg0.N) (hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (pdats : PDats F) (Win Wout : Dev nD → Valuation τ sig (Elt F))
    (hp : ∀ c, pdats 0 c = dat0 (fun c b => Win c b) c)
    (hF : ∀ c (w : Fin cfg0.W), (pdats 0 c).arrAt w cfg0.N = Wout c (Pipeline.arrRef spec0 w))
    (hrest : ∀ c (b : Ref sig .tc), b ∉ Finset.univ.image (Pipeline.arrRef spec0) → Wout c b = Win c b) (c : Dev nD) :
    (reg0 pdats Win Wout hp hF hrest).pre c = iprop(StableHlo.held (c : Thread nD τ) (Pipeline.ucRefs τ sig) (Win c) ∗ R c) := rfl

theorem reg0_post (pdats : PDats F) (Win Wout : Dev nD → Valuation τ sig (Elt F))
    (hp : ∀ c, pdats 0 c = dat0 (fun c b => Win c b) c)
    (hF : ∀ c (w : Fin cfg0.W), (pdats 0 c).arrAt w cfg0.N = Wout c (Pipeline.arrRef spec0 w))
    (hrest : ∀ c (b : Ref sig .tc), b ∉ Finset.univ.image (Pipeline.arrRef spec0) → Wout c b = Win c b) (c : Dev nD) :
    (reg0 pdats Win Wout hp hF hrest).post c = iprop(StableHlo.held (c : Thread nD τ) (Pipeline.ucRefs τ sig) (Wout c) ∗ R c) := rfl

end Cert.KernelIdeal.Hand

end
-- ==== Proof.KI.Region1Runs.lean ====
/-
  Region 1 of the kernel program (the second pallas_call: grid 2 x 2 x 2, coordinates batch tile, q tile, kv step),
  what its two control cases share.  The body's first conditional (the kv step is 0) and its second (the kv step is
  the last, 1) are decided over the grid in closed form: a point t = ((b * 2) + q) * 2 + k takes the first exactly
  when t is even and the second exactly when t is odd.  The output window is idle, and not written back, at the even
  points.  The five scratch buffers are whole scoped buffers beside the windows.
-/
import proofs.«170986_j45183055954173_2_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions over the grid -/

/-- The first conditional's condition (the kv step is the first), as the body computes it from the coordinates. -/
abbrev cond1_0 (i : grid1.Coords) : Prop :=
  (Scalar.cmpi .ne (Scalar.extui (Scalar.cmpi .eq (BitVec.ofNat 32 (i 2).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional's condition (the kv step is the last). -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- At a first kv step the output window is idle: the body stores nothing into it there. -/
theorem idleAt1_7_A : ∀ t : Fin cfg1.N, cond1_0 (grid1.coords t) → ¬cond1_1 (grid1.coords t) → cfg1.idle 7 (grid1.coords t) = true := by decide +kernel
/-- And the pipeline does not write its block back there. -/
theorem noFlush1_7_A : ∀ t : Fin cfg1.N, cond1_0 (grid1.coords t) → ¬cond1_1 (grid1.coords t) → (cfg1.win 7).flush t = false := by decide +kernel
/-- At a last kv step the output window is live: the body stores its block. -/
theorem liveAt1_7_C : ∀ t : Fin cfg1.N, ¬cond1_0 (grid1.coords t) → cond1_1 (grid1.coords t) → cfg1.idle 7 (grid1.coords t) = false := by decide +kernel

/-! ## The memrefs the body is called with -/

/-- Each window's current staging memref at point t, as the pipeline passes it, and its wholeness. -/
abbrev ms1_0 (t : Fin cfg1.N) : Memref sig .tc .vmem S2x512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x8x128 .f32 := win1_7.stage (cfg1.slots t 7)
abbrev hs1_7 (t : Fin cfg1.N) : (ms1_7 t).IsWhole := hstage1_7 ((cfg1.slots t 7).cast nbuf1_7)

/-- The scratch operands: the running denominator l, the two accumulators, the normalized content block and its
    unit-length bf16 form; whole scoped buffers of the kernel's own. -/
abbrev scM1_0 : Memref sig .tc .vmem S2x512x1 .f32 := Memref.whole cc1_scratch0
abbrev scM1_1 : Memref sig .tc .vmem S2x512x512 .f32 := Memref.whole cc1_scratch1
abbrev scM1_2 : Memref sig .tc .vmem S2x512x512 .f32 := Memref.whole cc1_scratch2
abbrev scM1_3 : Memref sig .tc .vmem S2x512x512 .f32 := Memref.whole cc1_scratch3
abbrev scM1_4 : Memref sig .tc .vmem S2x512x512 .bf16 := Memref.whole cc1_scratch4

/-- One staging buffer of the output window, through which its contents are stated. -/
abbrev VO1_7 : View sig .tc .vmem S1x1x8x128 .f32 := (Memref.whole cc1_stg7_0 : Memref sig .tc .vmem S1x1x8x128 .f32).view
/-- The scratch buffers as views: what they hold is stated through these. -/
abbrev VS1_0 : View sig .tc .vmem S2x512x1 .f32 := scM1_0.view
abbrev VS1_1 : View sig .tc .vmem S2x512x512 .f32 := scM1_1.view
abbrev VS1_2 : View sig .tc .vmem S2x512x512 .f32 := scM1_2.view
abbrev VS1_3 : View sig .tc .vmem S2x512x512 .f32 := scM1_3.view
abbrev VS1_4 : View sig .tc .vmem S2x512x512 .bf16 := scM1_4.view

/-- What the launch hands the region beside the windows, with the call's own scratch buffers as memrefs owned at some
    contents: the five scratch buffers, the other scoped buffers unopened, the generator register. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
            ∗ (∃ d, owns (c : Thread nD τ) scM1_2 fullShare d) ∗ (∃ d, owns (c : Thread nD τ) scM1_3 fullShare d)
            ∗ (∃ d, owns (c : Thread nD τ) scM1_4 fullShare d))
          ∗ Pipeline.scopedRestBut (Ix := Unit) (Name := ℕ) (U := UR sig nD τ) (Lvl := ℕ) (Val := Elt F) spec1 c [cc1_scratch0, cc1_scratch1, cc1_scratch2, cc1_scratch3, cc1_scratch4])
        ∗ (∃ r, prngReg c r)) := by
  unfold Pipeline.ΦA; rw [scopedRest1_split]; simp only [scM1_0, scM1_1, scM1_2, scM1_3, scM1_4, owns_whole]; try rfl

end Cert.KernelIdeal.Hand

end
-- ==== Proof.KI.Region1RunA.lean ====
/-
  Region 1, the run of the body at a FIRST kv step (the first conditional taken, the second not): every scratch buffer
  is stored whole — the denominator and the two accumulators zeroed and then added to by this step, the normalized
  content block and its unit-length bf16 form cached —, the output block is left untouched.
-/
import proofs.«170986_j45183055954173_2_alg».proof.Proof.KI.Region1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in each scratch buffer, as pieces (last first), at a first kv step, with the proof
    that on whole memrefs — the seven inputs' at their contents, the output's at contents handed back untouched, the
    scratch buffers' at anything — the body runs to the continuation holding the inputs' and the output's as they were
    and each scratch buffer with its pieces written.  The pieces are what the run finds. -/
noncomputable def kernelRun1_A (c : Dev nD) (i : grid1.Coords) (arg3 : Memref sig .tc .vmem S2x512x512 .f32) (harg3 : arg3.IsWhole) (arg4 : Memref sig .tc .vmem S2x512x512 .f32) (harg4 : arg4.IsWhole) (arg5 : Memref sig .tc .vmem S2x512x512 .f32) (harg5 : arg5.IsWhole) (arg6 : Memref sig .tc .vmem S2x1x512 .f32) (harg6 : arg6.IsWhole) (arg7 : Memref sig .tc .vmem S2x1x512 .f32) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (hc0 : cond1_0 i) (hc1 : ¬cond1_1 i)
    (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) :
    Σ' (LS0 : List (View.Piece (Elt F) S2x512x1 .f32)) (LS1 : List (View.Piece (Elt F) S2x512x512 .f32)) (LS2 : List (View.Piece (Elt F) S2x512x512 .f32)) (LS3 : List (View.Piece (Elt F) S2x512x512 .f32)), { LS4 : List (View.Piece (Elt F) S2x512x512 .bf16) //
      ∀ (xi7 : Vec F S1x1x8x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc1__aat_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi7 E K => ?run⟩
  case run =>
    simp only [cc1__aat_kernel_eq_skeleton]; unfold cc1__aat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KI.Region1RunC.lean ====
/-
  Region 1, the run of the body at a LAST kv step (the first conditional not taken, the second taken): the denominator
  and the two accumulators, at what the step before left, are added to by this step; the output block is stored from
  them, the cached normalized content block and the stylized-content block; the two caches are read only.
-/
import proofs.«170986_j45183055954173_2_alg».proof.Proof.KI.Region1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output block and in the three accumulating scratch buffers, as pieces (last
    first), at a last kv step, with the proof that on whole memrefs — the seven inputs' at their contents, the output's
    at anything, the five scratch buffers' at what the step before left — the body runs to the continuation holding the
    inputs' and the two caches as they were and the output's and the three accumulators' with their pieces written. -/
noncomputable def kernelRun1_C (c : Dev nD) (i : grid1.Coords) (arg3 : Memref sig .tc .vmem S2x512x512 .f32) (harg3 : arg3.IsWhole) (arg4 : Memref sig .tc .vmem S2x512x512 .f32) (harg4 : arg4.IsWhole) (arg5 : Memref sig .tc .vmem S2x512x512 .f32) (harg5 : arg5.IsWhole) (arg6 : Memref sig .tc .vmem S2x1x512 .f32) (harg6 : arg6.IsWhole) (arg7 : Memref sig .tc .vmem S2x1x512 .f32) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (hc0 : ¬cond1_0 i) (hc1 : cond1_1 i)
    (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) :
    Σ' (L7 : List (View.Piece (Elt F) S1x1x8x128 .f32)) (LS0 : List (View.Piece (Elt F) S2x512x1 .f32)) (LS1 : List (View.Piece (Elt F) S2x512x512 .f32)), { LS2 : List (View.Piece (Elt F) S2x512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
            ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ owns (c : Thread nD τ) arg14 fullShare xs3 ∗ owns (c : Thread nD τ) arg15 fullShare xs4) -∗ K ⟨⟩))
          ⊢ wp frame (wpE (defs₀ (F := F)) Variants.none c none) E (cc1__aat_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc1__aat_kernel_eq_skeleton]; unfold cc1__aat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    obtain rfl := harg11.eq_unread hfs0; obtain rfl := harg12.eq_unread hfs1; obtain rfl := harg13.eq_unread hfs2; obtain rfl := harg14.eq_unread hfs3; obtain rfl := harg15.eq_unread hfs4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    isplitl [HS2]; · iexists _; iexact HS2
    isplitl [HS3]
    · iexists _; isplitr; · ipureintro; exact harg14.read_unread _
      iexact HS3
    iexists _; isplitr; · ipureintro; exact harg15.read_unread _
    iexact HS4

end Cert.KernelIdeal.Hand

end
-- ==== Proof.KI.Region1.lean ====
/-
  Region 1 of the kernel program at a PARAMETER V (the TensorCore's buffer contents when the region is entered): each
  window's block at a point, what the output block and the five scratch buffers hold after each point (by recursion on
  the point: an even point is a first kv step and stores every scratch buffer whole, an odd point is a last kv step,
  accumulates onto what the even point before it left and stores the output block), the point-indexed invariant, the
  proof data, and the body obligation.
-/
import proofs.«170986_j45183055954173_2_alg».proof.Proof.KI.Region1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : RefVal F)

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is V's and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is V's and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is V's and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is V's and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof data
    whose array is V's and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof data
    whose array is V's and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The two runs at a point of the grid -/

/-- The run of a first kv step at an even point t, on the memrefs the pipeline calls the body with there. -/
abbrev runAt1_A (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) scM1_4 (Memref.isWhole_whole _)
    ((hcond1_0 t).mpr h0) (fun h => by have := (hcond1_1 t).mp h; omega) x0 x1 x2 x3 x4 x5 x6

/-- The run of a last kv step at an odd point t. -/
abbrev runAt1_C (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) scM1_4 (Memref.isWhole_whole _)
    (fun h => by have := (hcond1_0 t).mp h; omega) ((hcond1_1 t).mpr h1) x0 x1 x2 x3 x4 x5 x6 xs0 xs1 xs2 xs3 xs4

/-! ## What each case leaves: its pieces cover the buffer, and are read back over junk -/

/-- A first kv step's pieces for scratch buffer 0 cover it. -/
theorem scover1_A_0 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (y : S2x512x1.Idx) :
    ∃ pc ∈ (runAt1_A c t h0 x0 x1 x2 x3 x4 x5 x6).1, y ∈ pc.1.set :=
  View.cover_of_tiledL (runAt1_A c t h0 x0 x1 x2 x3 x4 x5 x6).1 S2x512x1.size (by sl_kernel_rfl) y
/-- What a first kv step leaves in scratch buffer 0. -/
def sout1_A_0 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) : Vec F S2x512x1 .f32 :=
  VS1_0.read (Elt F) (VS1_0.writes (Elt F) VS1_0.junk (runAt1_A c t h0 x0 x1 x2 x3 x4 x5 x6).1)
/-- A first kv step's pieces for scratch buffer 1 cover it. -/
theorem scover1_A_1 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (y : S2x512x512.Idx) :
    ∃ pc ∈ (runAt1_A c t h0 x0 x1 x2 x3 x4 x5 x6).2.1, y ∈ pc.1.set :=
  View.cover_of_tiledL (runAt1_A c t h0 x0 x1 x2 x3 x4 x5 x6).2.1 S2x512x512.size (by sl_kernel_rfl) y
/-- What a first kv step leaves in scratch buffer 1. -/
def sout1_A_1 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) : Vec F S2x512x512 .f32 :=
  VS1_1.read (Elt F) (VS1_1.writes (Elt F) VS1_1.junk (runAt1_A c t h0 x0 x1 x2 x3 x4 x5 x6).2.1)
/-- A first kv step's pieces for scratch buffer 2 cover it. -/
theorem scover1_A_2 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (y : S2x512x512.Idx) :
    ∃ pc ∈ (runAt1_A c t h0 x0 x1 x2 x3 x4 x5 x6).2.2.1, y ∈ pc.1.set :=
  View.cover_of_tiledL (runAt1_A c t h0 x0 x1 x2 x3 x4 x5 x6).2.2.1 S2x512x512.size (by sl_kernel_rfl) y
/-- What a first kv step leaves in scratch buffer 2. -/
def sout1_A_2 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) : Vec F S2x512x512 .f32 :=
  VS1_2.read (Elt F) (VS1_2.writes (Elt F) VS1_2.junk (runAt1_A c t h0 x0 x1 x2 x3 x4 x5 x6).2.2.1)
/-- A first kv step's pieces for scratch buffer 3 cover it. -/
theorem scover1_A_3 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (y : S2x512x512.Idx) :
    ∃ pc ∈ (runAt1_A c t h0 x0 x1 x2 x3 x4 x5 x6).2.2.2.1, y ∈ pc.1.set :=
  View.cover_of_tiledL (runAt1_A c t h0 x0 x1 x2 x3 x4 x5 x6).2.2.2.1 S2x512x512.size (by sl_kernel_rfl) y
/-- What a first kv step leaves in scratch buffer 3. -/
def sout1_A_3 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) : Vec F S2x512x512 .f32 :=
  VS1_3.read (Elt F) (VS1_3.writes (Elt F) VS1_3.junk (runAt1_A c t h0 x0 x1 x2 x3 x4 x5 x6).2.2.2.1)
/-- A first kv step's pieces for scratch buffer 4 cover it. -/
theorem scover1_A_4 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (y : S2x512x512.Idx) :
    ∃ pc ∈ (runAt1_A c t h0 x0 x1 x2 x3 x4 x5 x6).2.2.2.2.1, y ∈ pc.1.set :=
  View.cover_of_tiledL (runAt1_A c t h0 x0 x1 x2 x3 x4 x5 x6).2.2.2.2.1 S2x512x512.size (by sl_kernel_rfl) y
/-- What a first kv step leaves in scratch buffer 4. -/
def sout1_A_4 (c : Dev nD) (t : Fin cfg1.N) (h0 : t.val % 2 = 0) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) : Vec F S2x512x512 .bf16 :=
  VS1_4.read (Elt F) (VS1_4.writes (Elt F) VS1_4.junk (runAt1_A c t h0 x0 x1 x2 x3 x4 x5 x6).2.2.2.2.1)
/-- A last kv step's pieces for the output block cover it. -/
theorem cover1_C_7 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) (y : S1x1x8x128.Idx) :
    ∃ pc ∈ (runAt1_C c t h1 x0 x1 x2 x3 x4 x5 x6 xs0 xs1 xs2 xs3 xs4).1, y ∈ pc.1.set :=
  View.cover_of_tiledL (runAt1_C c t h1 x0 x1 x2 x3 x4 x5 x6 xs0 xs1 xs2 xs3 xs4).1 S1x1x8x128.size (by sl_kernel_rfl) y
/-- What a last kv step leaves in the output block. -/
def out1_C_7 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) : Vec F S1x1x8x128 .f32 :=
  VO1_7.read (Elt F) (VO1_7.writes (Elt F) VO1_7.junk (runAt1_C c t h1 x0 x1 x2 x3 x4 x5 x6 xs0 xs1 xs2 xs3 xs4).1)
/-- A last kv step's pieces for scratch buffer 0 cover it. -/
theorem scover1_C_0 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) (y : S2x512x1.Idx) :
    ∃ pc ∈ (runAt1_C c t h1 x0 x1 x2 x3 x4 x5 x6 xs0 xs1 xs2 xs3 xs4).2.1, y ∈ pc.1.set :=
  View.cover_of_tiledL (runAt1_C c t h1 x0 x1 x2 x3 x4 x5 x6 xs0 xs1 xs2 xs3 xs4).2.1 S2x512x1.size (by sl_kernel_rfl) y
/-- What a last kv step leaves in scratch buffer 0. -/
def sout1_C_0 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) : Vec F S2x512x1 .f32 :=
  VS1_0.read (Elt F) (VS1_0.writes (Elt F) VS1_0.junk (runAt1_C c t h1 x0 x1 x2 x3 x4 x5 x6 xs0 xs1 xs2 xs3 xs4).2.1)
/-- A last kv step's pieces for scratch buffer 1 cover it. -/
theorem scover1_C_1 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) (y : S2x512x512.Idx) :
    ∃ pc ∈ (runAt1_C c t h1 x0 x1 x2 x3 x4 x5 x6 xs0 xs1 xs2 xs3 xs4).2.2.1, y ∈ pc.1.set :=
  View.cover_of_tiledL (runAt1_C c t h1 x0 x1 x2 x3 x4 x5 x6 xs0 xs1 xs2 xs3 xs4).2.2.1 S2x512x512.size (by sl_kernel_rfl) y
/-- What a last kv step leaves in scratch buffer 1. -/
def sout1_C_1 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) : Vec F S2x512x512 .f32 :=
  VS1_1.read (Elt F) (VS1_1.writes (Elt F) VS1_1.junk (runAt1_C c t h1 x0 x1 x2 x3 x4 x5 x6 xs0 xs1 xs2 xs3 xs4).2.2.1)
/-- A last kv step's pieces for scratch buffer 2 cover it. -/
theorem scover1_C_2 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) (y : S2x512x512.Idx) :
    ∃ pc ∈ (runAt1_C c t h1 x0 x1 x2 x3 x4 x5 x6 xs0 xs1 xs2 xs3 xs4).2.2.2.1, y ∈ pc.1.set :=
  View.cover_of_tiledL (runAt1_C c t h1 x0 x1 x2 x3 x4 x5 x6 xs0 xs1 xs2 xs3 xs4).2.2.2.1 S2x512x512.size (by sl_kernel_rfl) y
/-- What a last kv step leaves in scratch buffer 2. -/
def sout1_C_2 (c : Dev nD) (t : Fin cfg1.N) (h1 : t.val % 2 = 1) (x0 : Vec F S2x512x512 .f32) (x1 : Vec F S2x512x512 .f32) (x2 : Vec F S2x512x512 .f32) (x3 : Vec F S2x1x512 .f32) (x4 : Vec F S2x1x512 .f32) (x5 : Vec F S2x1x512 .f32) (x6 : Vec F S2x1x512 .f32) (xs0 : Vec F S2x512x1 .f32) (xs1 : Vec F S2x512x512 .f32) (xs2 : Vec F S2x512x512 .f32) (xs3 : Vec F S2x512x512 .f32) (xs4 : Vec F S2x512x512 .bf16) : Vec F S2x512x512 .f32 :=
  VS1_2.read (Elt F) (VS1_2.writes (Elt F) VS1_2.junk (runAt1_C c t h1 x0 x1 x2 x3 x4 x5 x6 xs0 xs1 xs2 xs3 xs4).2.2.2.1)

/-! ## What the buffers hold after each point -/

/-- The output block, then the five scratch buffers (denominator, the two accumulators, the two caches). -/
abbrev Outs1 (F : FTy → Type) [FloatOps F] : Type := Vec F S1x1x8x128 .f32 × Vec F S2x512x1 .f32 × Vec F S2x512x512 .f32 × Vec F S2x512x512 .f32 × Vec F S2x512x512 .f32 × Vec F S2x512x512 .bf16

/-- A first kv step stores nothing into the output block; at such a point the window is neither written back nor read
    at the next point, so this component is a placeholder nothing consults. -/
def out1_A_7 : Vec F S1x1x8x128 .f32 := VO1_7.read (Elt F) VO1_7.junk

/-- After a first kv step at the even point t: every scratch buffer at what the step stored, from the point's blocks. -/
def stepA1 (c : Dev nD) (t : Fin cfg1.N) (h0 : t.val % 2 = 0) : Outs1 F :=
  (out1_A_7, sout1_A_0 c t h0 (iblk1 V c 0 t) (iblk1 V c 1 t) (iblk1 V c 2 t) (iblk1 V c 3 t) (iblk1 V c 4 t) (iblk1 V c 5 t) (iblk1 V c 6 t),
    sout1_A_1 c t h0 (iblk1 V c 0 t) (iblk1 V c 1 t) (iblk1 V c 2 t) (iblk1 V c 3 t) (iblk1 V c 4 t) (iblk1 V c 5 t) (iblk1 V c 6 t),
    sout1_A_2 c t h0 (iblk1 V c 0 t) (iblk1 V c 1 t) (iblk1 V c 2 t) (iblk1 V c 3 t) (iblk1 V c 4 t) (iblk1 V c 5 t) (iblk1 V c 6 t),
    sout1_A_3 c t h0 (iblk1 V c 0 t) (iblk1 V c 1 t) (iblk1 V c 2 t) (iblk1 V c 3 t) (iblk1 V c 4 t) (iblk1 V c 5 t) (iblk1 V c 6 t),
    sout1_A_4 c t h0 (iblk1 V c 0 t) (iblk1 V c 1 t) (iblk1 V c 2 t) (iblk1 V c 3 t) (iblk1 V c 4 t) (iblk1 V c 5 t) (iblk1 V c 6 t))

/-- After a last kv step at the odd point t, over what the point before left: the output block and the three
    accumulating buffers at what the step stored, the two caches as they were. -/
def stepC1 (c : Dev nD) (t : Fin cfg1.N) (h1 : t.val % 2 = 1) (p : Outs1 F) : Outs1 F :=
  (out1_C_7 c t h1 (iblk1 V c 0 t) (iblk1 V c 1 t) (iblk1 V c 2 t) (iblk1 V c 3 t) (iblk1 V c 4 t) (iblk1 V c 5 t) (iblk1 V c 6 t) p.2.1 p.2.2.1 p.2.2.2.1 p.2.2.2.2.1 p.2.2.2.2.2,
    sout1_C_0 c t h1 (iblk1 V c 0 t) (iblk1 V c 1 t) (iblk1 V c 2 t) (iblk1 V c 3 t) (iblk1 V c 4 t) (iblk1 V c 5 t) (iblk1 V c 6 t) p.2.1 p.2.2.1 p.2.2.2.1 p.2.2.2.2.1 p.2.2.2.2.2,
    sout1_C_1 c t h1 (iblk1 V c 0 t) (iblk1 V c 1 t) (iblk1 V c 2 t) (iblk1 V c 3 t) (iblk1 V c 4 t) (iblk1 V c 5 t) (iblk1 V c 6 t) p.2.1 p.2.2.1 p.2.2.2.1 p.2.2.2.2.1 p.2.2.2.2.2,
    sout1_C_2 c t h1 (iblk1 V c 0 t) (iblk1 V c 1 t) (iblk1 V c 2 t) (iblk1 V c 3 t) (iblk1 V c 4 t) (iblk1 V c 5 t) (iblk1 V c 6 t) p.2.1 p.2.2.1 p.2.2.2.1 p.2.2.2.2.1 p.2.2.2.2.2,
    p.2.2.2.2.1, p.2.2.2.2.2)

/-- THE ACCUMULATION: what the output's staging buffer and the five scratch buffers hold after the body at position n. -/
def outsAt1 (c : Dev nD) : (n : ℕ) → n < cfg1.N → Outs1 F
  | 0, hn => stepA1 V c ⟨0, hn⟩ (Nat.zero_mod _)
  | n + 1, hn =>
    if h0 : (n + 1) % 2 = 0 then stepA1 V c ⟨n + 1, hn⟩ h0
    else stepC1 V c ⟨n + 1, hn⟩ (Nat.mod_two_ne_zero.mp h0) (outsAt1 c n (Nat.lt_of_succ_lt hn))

/-- At an even point: a first kv step's contents. -/
theorem outsAt1_A (c : Dev nD) (t : Fin cfg1.N) (h0 : t.val % 2 = 0) :
    outsAt1 V c t.val t.isLt = stepA1 V c t h0 := by
  obtain ⟨n, hn⟩ := t
  cases n with
  | zero => exact rfl
  | succ n => exact (dif_pos h0).trans rfl

/-- At an odd point: a last kv step's contents, over what the point before left. -/
theorem outsAt1_C (c : Dev nD) (t : Fin cfg1.N) (h1 : t.val % 2 = 1) :
    outsAt1 V c t.val t.isLt = stepC1 V c t h1 (outsAt1 V c (t.val - 1) (Nat.lt_of_le_of_lt (Nat.sub_le _ _) t.isLt)) := by
  obtain ⟨n, hn⟩ := t
  cases n with
  | zero => exact absurd h1 (show ¬ (0 % 2 = 1) by decide)
  | succ n => exact (dif_neg (fun h => by have h1' : (n + 1) % 2 = 1 := h1; omega)).trans rfl

/-! ## The invariant -/

/-- The scratch buffers at the contents p names, the other scoped buffers unopened, the generator register. -/
abbrev PhiAt1 (c : Dev nD) (p : Outs1 F) : sProp 𝕄 :=
  iprop(iprop(iprop(owns (c : Thread nD τ) scM1_0 fullShare p.2.1 ∗ owns (c : Thread nD τ) scM1_1 fullShare p.2.2.1
        ∗ owns (c : Thread nD τ) scM1_2 fullShare p.2.2.2.1 ∗ owns (c : Thread nD τ) scM1_3 fullShare p.2.2.2.2.1
        ∗ owns (c : Thread nD τ) scM1_4 fullShare p.2.2.2.2.2)
      ∗ Pipeline.scopedRestBut (Ix := Unit) (Name := ℕ) (U := UR sig nD τ) (Lvl := ℕ) (Val := Elt F) spec1 c [cc1_scratch0, cc1_scratch1, cc1_scratch2, cc1_scratch3, cc1_scratch4])
    ∗ (∃ r, prngReg c r))

/-- The region's invariant before position n: before the first point what the launch hands the region (every scratch
    buffer at anything); afterwards each scratch buffer at what the point before left. -/
def PhiS1 (c : Dev nD) : (n : ℕ) → n ≤ cfg1.N → sProp 𝕄
  | 0, _ => Pipeline.ΦA spec1 c
  | n + 1, hn => PhiAt1 c (outsAt1 V c n hn)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) : PhiS1 V c (n + 1) hn = PhiAt1 c (outsAt1 V c n hn) := rfl

theorem PhiS1_pos (c : Dev nD) (n : ℕ) (h : n ≤ cfg1.N) (hz : n ≠ 0) :
    PhiS1 V c n h = PhiAt1 c (outsAt1 V c (n - 1) (by omega)) := by
  cases n with
  | zero => exact absurd rfl hz
  | succ n => rfl

/-! ## The pipeline's proof data -/

/-- The proof data of pipeline 1 on core c: the arrays as the region finds them; after the body at point t each
    input's buffer at its block and the output's at what the accumulation says; the point-indexed invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Region1

end Cert.KernelIdeal.Hand

end
-- ==== Proof.KI.Region1Body.lean ====
/-
  Region 1: the body obligation of the proof data at V.  At an even point the invariant hands the body the five scratch
  buffers at anything (at the first point what the launch gave; later what the odd point before left, forgotten) and
  takes them back at what the first kv step stored; at an odd point it hands them at what the even point before left
  and takes the three accumulators back at this step's sums, the two caches as they were; the output block is handed
  back untouched at an even point and at the stored block at an odd one.
-/
import proofs.«170986_j45183055954173_2_alg».proof.Proof.KI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : RefVal F)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the point's parity says which case it is in; that
    case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 7 t (idleAt1_7_A t hc0 hc1) (noFlush1_7_A t hc0 hc1)]
    rw [outsAt1_A V c t h0]
    unfold PhiAt1 stepA1 sout1_A_0 sout1_A_1 sout1_A_2 sout1_A_3 sout1_A_4; dsimp only
    by_cases hz : t.val = 0
    · rw [PhiS1_castSucc V c t, PhiS1_zero V c _ _ hz, PhiA1_eq]
      iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAt1_A c t h0 (iblk1 V c 0 t) (iblk1 V c 1 t) (iblk1 V c 2 t) (iblk1 V c 3 t) (iblk1 V c 4 t) (iblk1 V c 5 t) (iblk1 V c 6 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, ⟨%es0, HS0⟩, ⟨%es1, HS1⟩, ⟨%es2, HS2⟩, ⟨%es3, HS3⟩, ⟨%es4, HS4⟩⟩
      isplitl [HS0 HS1 HS2 HS3 HS4 Hrest Hg]
      · isplitl [HS0 HS1 HS2 HS3 HS4 Hrest]
        · isplitl [HS0 HS1 HS2 HS3 HS4]
          · isplitl [HS0]
            · unfold owns; iexists _; isplitr
              swap; · iexact HS0
              ipureintro; exact View.read_writes_of_cover _ _ _ _ _ (scover1_A_0 c t h0 _ _ _ _ _ _ _)
            isplitl [HS1]
            · unfold owns; iexists _; isplitr
              swap; · iexact HS1
              ipureintro; exact View.read_writes_of_cover _ _ _ _ _ (scover1_A_1 c t h0 _ _ _ _ _ _ _)
            isplitl [HS2]
            · unfold owns; iexists _; isplitr
              swap; · iexact HS2
              ipureintro; exact View.read_writes_of_cover _ _ _ _ _ (scover1_A_2 c t h0 _ _ _ _ _ _ _)
            isplitl [HS3]
            · unfold owns; iexists _; isplitr
              swap; · iexact HS3
              ipureintro; exact View.read_writes_of_cover _ _ _ _ _ (scover1_A_3 c t h0 _ _ _ _ _ _ _)
            unfold owns; iexists _; isplitr
            swap; · iexact HS4
            ipureintro; exact View.read_writes_of_cover _ _ _ _ _ (scover1_A_4 c t h0 _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]; unfold PhiAt1
      iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAt1_A c t h0 (iblk1 V c 0 t) (iblk1 V c 1 t) (iblk1 V c 2 t) (iblk1 V c 3 t) (iblk1 V c 4 t) (iblk1 V c 5 t) (iblk1 V c 6 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, H6, H7, ⟨%es0, HS0⟩, ⟨%es1, HS1⟩, ⟨%es2, HS2⟩, ⟨%es3, HS3⟩, ⟨%es4, HS4⟩⟩
      isplitl [HS0 HS1 HS2 HS3 HS4 Hrest Hg]
      · isplitl [HS0 HS1 HS2 HS3 HS4 Hrest]
        · isplitl [HS0 HS1 HS2 HS3 HS4]
          · isplitl [HS0]
            · unfold owns; iexists _; isplitr
              swap; · iexact HS0
              ipureintro; exact View.read_writes_of_cover _ _ _ _ _ (scover1_A_0 c t h0 _ _ _ _ _ _ _)
            isplitl [HS1]
            · unfold owns; iexists _; isplitr
              swap; · iexact HS1
              ipureintro; exact View.read_writes_of_cover _ _ _ _ _ (scover1_A_1 c t h0 _ _ _ _ _ _ _)
            isplitl [HS2]
            · unfold owns; iexists _; isplitr
              swap; · iexact HS2
              ipureintro; exact View.read_writes_of_cover _ _ _ _ _ (scover1_A_2 c t h0 _ _ _ _ _ _ _)
            isplitl [HS3]
            · unfold owns; iexists _; isplitr
              swap; · iexact HS3
              ipureintro; exact View.read_writes_of_cover _ _ _ _ _ (scover1_A_3 c t h0 _ _ _ _ _ _ _)
            unfold owns; iexists _; isplitr
            swap; · iexact HS4
            ipureintro; exact View.read_writes_of_cover _ _ _ _ _ (scover1_A_4 c t h0 _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have h1 : t.val % 2 = 1 := by omega
    have hc0 : ¬cond1_0 (grid1.coords t) := fun h => h0 ((hcond1_0 t).mp h)
    have hc1 : cond1_1 (grid1.coords t) := (hcond1_1 t).mpr h1
    have hz : t.val ≠ 0 := by omega
    rw [show (dat1 V c).leavesExact 7 t = owns (c : Thread nD τ) (ms1_7 t) fullShare ((dat1 V c).after 7 t) from by
      unfold Dat.leavesExact; rw [liveAt1_7_C t hc0 hc1], after1_7]
    rw [outsAt1_C V c t h1]
    unfold PhiAt1 stepC1 out1_C_7 sout1_C_0 sout1_C_1 sout1_C_2; dsimp only
    rw [PhiS1_castSucc V c t, PhiS1_pos V c _ _ hz]; unfold PhiAt1
    iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runAt1_C c t h1 (iblk1 V c 0 t) (iblk1 V c 1 t) (iblk1 V c 2 t) (iblk1 V c 3 t) (iblk1 V c 4 t) (iblk1 V c 5 t) (iblk1 V c 6 t) _ _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, ⟨%e7, H7⟩, ⟨%es0, HS0⟩, ⟨%es1, HS1⟩, ⟨%es2, HS2⟩, HS3, HS4⟩
    isplitl [HS0 HS1 HS2 HS3 HS4 Hrest Hg]
    · isplitl [HS0 HS1 HS2 HS3 HS4 Hrest]
      · isplitl [HS0 HS1 HS2 HS3 HS4]
        · isplitl [HS0]
          · unfold owns; iexists _; isplitr
            swap; · iexact HS0
            ipureintro; exact View.read_writes_of_cover _ _ _ _ _ (scover1_C_0 c t h1 _ _ _ _ _ _ _ _ _ _ _ _)
          isplitl [HS1]
          · unfold owns; iexists _; isplitr
            swap; · iexact HS1
            ipureintro; exact View.read_writes_of_cover _ _ _ _ _ (scover1_C_1 c t h1 _ _ _ _ _ _ _ _ _ _ _ _)
          isplitl [HS2]
          · unfold owns; iexists _; isplitr
            swap; · iexact HS2
            ipureintro; exact View.read_writes_of_cover _ _ _ _ _ (scover1_C_2 c t h1 _ _ _ _ _ _ _ _ _ _ _ _)
          isplitl [HS3]; · iexact HS3
          iexact HS4
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover1_C_7 c t h1 _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the scratch buffers' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2, HS3, HS4⟩, Hrest⟩, Hg⟩
  isplitl [HS0 HS1 HS2 HS3 HS4 Hrest]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Region1

end Cert.KernelIdeal.Hand

end
-- ==== Proof.KI.Region1Seg.lean ====
/-
  Region 1 as a segment of @main: entered from every unscoped buffer at the contents Win, left at Wout, beside the
  generator register at some state and nothing owed.  The pipeline's arrays are split out of the unscoped buffers at
  entry and put back at the exit contents; the generator register and the scoped buffers no window stages make the
  invariant before the first point, and the invariant after the last point gives them back, the scratch buffers'
  contents forgotten; the kernel has no semaphore of its own.
-/
import proofs.«170986_j45183055954173_2_alg».proof.Proof.KI.Region1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- a library lemma stated over the pinned configuration unifies with the printed one only when unification may unfold
-- plain definitions in a metavariable's type
set_option backward.isDefEq.respectTransparency.types false in
/-- REGION 1 over the thread state "every unscoped buffer at the boundary's contents, the generator register at some
    state, nothing owed", for any family of proof data whose member 1 is the region's at the entry contents. -/
def reg1 (pdats : PDats F) (Win Wout : Dev nD → Valuation τ sig (Elt F))
    (hp : ∀ c, pdats 1 c = dat1 (fun c b => Win c b) c)
    (hF : ∀ c (w : Fin cfg1.W), (pdats 1 c).arrAt w cfg1.N = Wout c (Pipeline.arrRef spec1 w))
    (hrest : ∀ c (b : Ref sig .tc), b ∉ Finset.univ.image (Pipeline.arrRef spec1) → Wout c b = Win c b) :
    Pipeline.RegionSeg (pcfgs (F := F)) Gen.adm pdats () defs₀ 𝒱₀ L lv 1 where
  win := launch1.win.to₀
  block_pos := launch1.block_pos
  stage_whole := launch1.stage_whole
  K := PEmpty
  osem k := k.elim
  ho := Pipeline.OwnSemFacts.none _
  hbody c := by rw [hp c]; exact (body_obligation1 _ c).loose
  hwaits := Pipeline.hwaits_of_owed_zero _ _ _ _ L lv 1 fun c t => by rw [hp c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec1 c (fun b => Win c b)
  hentry c := by
    rw [Pipeline.ownSems0_none]
    have hsplit := Pipeline.arrays_of_unscopedBufs (p := 1) (pcfgs (F := F)) Gen.adm pdats launch1.win launch1.arr_whole c
      ((pdats 1 c).share_full fun _ => by rw [hp c]; rfl) (fun b => Win c b) fun w => by rw [hp c]; exact A_eq1 _ c w
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    refine BIBase.Entails.trans ?_ (hin1 _ c)
    unfold Pipeline.ΦA
    iintro ⟨Hp, -, Hr⟩
    isplitl [Hr]; · iexact Hr
    iexact Hp
  hout c := by
    rw [Pipeline.ownSems0_none, hp c]
    refine BIBase.Entails.trans (hout1 _ c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c pdats ((pdats 1 c).share_full fun _ => by rw [hp c]; rfl)
      (fun b => Win c b) (fun b => Wout c b) ((pdats 1 c).arrAt · cfg1.N) (hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state region 1 is entered from, -/
theorem reg1_pre (pdats : PDats F) (Win Wout : Dev nD → Valuation τ sig (Elt F)) (hp) (hF) (hrest) (c : Dev nD) :
    (reg1 pdats Win Wout hp hF hrest).pre c = iprop(StableHlo.held (c : Thread nD τ) (Pipeline.ucRefs τ sig) (Win c) ∗ R c) := rfl
/-- and the one it leaves. -/
theorem reg1_post (pdats : PDats F) (Win Wout : Dev nD → Valuation τ sig (Elt F)) (hp) (hF) (hrest) (c : Dev nD) :
    (reg1 pdats Win Wout hp hF hrest).post c = iprop(StableHlo.held (c : Thread nD τ) (Pipeline.ucRefs τ sig) (Wout c) ∗ R c) := rfl

end Cert.KernelIdeal.Hand

end
-- ==== Proof.KI.Region2Runs.lean ====
/-
  Region 2 of the kernel program (the third pallas_call: grid 2 x 1 x 1): the two conditions of the body decided over
  the grid, and the body's triple on whole memrefs.  At each of its two points the body initialises all five scratch
  buffers, accumulates once and finalises, so both conditionals are taken at every point.
-/
import proofs.«170986_j45183055954173_2_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The body's two conditions -/

/-- The kv step is the first one (the condition of the initialising branch, from the grid coordinates). -/
abbrev cond2_0 (i : grid2.Coords) : Prop :=
  (Scalar.cmpi .ne (Scalar.extui (Scalar.cmpi .eq (BitVec.ofNat 32 (i 2).val) 0#32)) 0#32) = 1#1
/-- The kv step is the last one (the condition of the finalising branch). -/
abbrev cond2_1 (i : grid2.Coords) : Prop := k2_cond2 i = 1#1

/-- With one kv step, every point is a first step, -/
theorem hcond2_0 : ∀ t : Fin cfg2.N, cond2_0 (grid2.coords t) :=
  (by decide +kernel : ∀ t : Fin grid2.N, cond2_0 (grid2.coords t))
/-- and a last one. -/
theorem hcond2_1 : ∀ t : Fin cfg2.N, cond2_1 (grid2.coords t) :=
  (by decide +kernel : ∀ t : Fin grid2.N, cond2_1 (grid2.coords t))

/-- The output window is live at every point: the body stores its block there. -/
theorem liveAt2_7 : ∀ t : Fin cfg2.N, cfg2.idle 7 (grid2.coords t) = false := by decide +kernel
/-- The input windows are never idle. -/
theorem liveAt2_in : ∀ (w : Fin cfg2.W), w ≠ 7 → ∀ t : Fin cfg2.N, cfg2.idle w (grid2.coords t) = false := by decide +kernel

/-! ## The body's triple -/

set_option maxHeartbeats 4000000 in
/-- What the body's stores leave in the output block and in each scratch buffer, as pieces (last first), with the proof
    that on whole memrefs — the seven inputs at their contents, the output and the scratch buffers at anything — the
    body runs to the continuation holding the inputs as they were and each written buffer with its pieces written.
    Every scratch buffer is stored whole before it is read, so what it held before does not matter. -/
noncomputable def kernelRun2 (c : Dev nD) (i : grid2.Coords) (arg3 : Memref sig .tc .vmem S2x256x512 .f32) (harg3 : arg3.IsWhole) (arg4 : Memref sig .tc .vmem S2x256x512 .f32) (harg4 : arg4.IsWhole) (arg5 : Memref sig .tc .vmem S2x256x512 .f32) (harg5 : arg5.IsWhole) (arg6 : Memref sig .tc .vmem S2x1x512 .f32) (harg6 : arg6.IsWhole) (arg7 : Memref sig .tc .vmem S2x1x512 .f32) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S1x1x8x128 .f32) (harg10 : arg10.IsWhole) (arg11 : Memref sig .tc .vmem S2x256x1 .f32) (harg11 : arg11.IsWhole) (arg12 : Memref sig .tc .vmem S2x256x512 .f32) (harg12 : arg12.IsWhole) (arg13 : Memref sig .tc .vmem S2x256x512 .f32) (harg13 : arg13.IsWhole) (arg14 : Memref sig .tc .vmem S2x256x512 .f32) (harg14 : arg14.IsWhole) (arg15 : Memref sig .tc .vmem S2x256x512 .bf16) (harg15 : arg15.IsWhole) (hc0 : cond2_0 i) (hc1 : cond2_1 i)
    (x0 x1 x2 : Vec F S2x256x512 .f32) (x3 x4 x5 x6 : Vec F S2x1x512 .f32) :
    Σ' (L7 : List (View.Piece (Elt F) S1x1x8x128 .f32)) (LS0 : List (View.Piece (Elt F) S2x256x1 .f32))
      (LS1 LS2 LS3 : List (View.Piece (Elt F) S2x256x512 .f32)), { LS4 : List (View.Piece (Elt F) S2x256x512 .bf16) //
      ∀ (E : Set ℕ) (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
                ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc2__aat_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc2__aat_kernel_eq_skeleton]; unfold cc2__aat_kernel_skel
    simp only [k2_part2_eq_skeleton, k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KI.Region2Dat.lean ====
/-
  Region 2 of the kernel program, its frame half at the contents `V` the TensorCore's buffers hold when the region is
  entered: the windows' blocks, what the body leaves in the output block and in the scratch buffers at each point, and
  the pipeline's proof data.  Nothing is carried from one point to the next: the body stores every
  scratch buffer whole before reading it, so the invariant holds the scratch at some contents throughout.
-/
import proofs.«170986_j45183055954173_2_alg».proof.Proof.KI.Region2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : RefVal F)

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The memrefs the body is called with -/

abbrev ms2_0 (t : Fin cfg2.N) : Memref sig .tc .vmem S2x256x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2x256x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2x256x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2x1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2x1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2x1x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2x1x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x1x8x128 .f32 := win2_7.stage (cfg2.slots t 7)
abbrev hs2_7 (t : Fin cfg2.N) : (ms2_7 t).IsWhole := hstage2_7 ((cfg2.slots t 7).cast nbuf2_7)
abbrev scM2_0 : Memref sig .tc .vmem S2x256x1 .f32 := Memref.whole cc2_scratch0
abbrev scM2_1 : Memref sig .tc .vmem S2x256x512 .f32 := Memref.whole cc2_scratch1
abbrev scM2_2 : Memref sig .tc .vmem S2x256x512 .f32 := Memref.whole cc2_scratch2
abbrev scM2_3 : Memref sig .tc .vmem S2x256x512 .f32 := Memref.whole cc2_scratch3
abbrev scM2_4 : Memref sig .tc .vmem S2x256x512 .bf16 := Memref.whole cc2_scratch4

/-- The class's invariant with the region's own scratch buffers as memrefs owned at some contents, the other scoped
    buffers unopened. -/
theorem PhiA2_eq (c : Dev nD) :
    (Pipeline.ΦA spec2 c : sProp (MM F))
      = iprop(iprop(iprop((∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d) ∗ (∃ d, owns (c : Thread nD τ) scM2_4 fullShare d))
          ∗ Pipeline.scopedRestBut (Ix := Unit) (Name := ℕ) (U := UR sig nD τ) (Lvl := ℕ) (Val := Elt F) spec2 c [cc2_scratch0, cc2_scratch1, cc2_scratch2, cc2_scratch3, cc2_scratch4]) ∗ (∃ r, prngReg c r)) := by
  unfold Pipeline.ΦA; rw [scopedRest2_split]; simp only [scM2_0, scM2_1, scM2_2, scM2_3, scM2_4, owns_whole]; try rfl

/-! ## What the body leaves at a point -/

/-- The body's run at point `t`: on the point's staging memrefs and the scratch buffers, the inputs at their blocks. -/
abbrev run2At (c : Dev nD) (t : Fin cfg2.N) :=
  kernelRun2 (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) (hcond2_0 t) (hcond2_1 t) (iblk2 V c 0 t) (iblk2 V c 1 t) (iblk2 V c 2 t) (iblk2 V c 3 t) (iblk2 V c 4 t) (iblk2 V c 5 t) (iblk2 V c 6 t)

/-- The output block's pieces tile it, so they cover it. -/
theorem cover2_7 (c : Dev nD) (t : Fin cfg2.N) (y : S1x1x8x128.Idx) : ∃ pc ∈ (run2At V c t).1, y ∈ pc.1.set :=
  View.cover_of_tiledL (run2At V c t).1 S1x1x8x128.size (by sl_kernel_rfl) y

/-- What the output block and the five scratch buffers (the row sums, the two accumulators, the normalised content and
    its unit rows in bf16) hold after the body at position `n`: the run's pieces read back.  One control case: both
    conditionals are taken at every point, and nothing of position `n - 1` is read. -/
def outsAt2 (c : Dev nD) (n : ℕ) (hn : n < cfg2.N) :
    Vec F S1x1x8x128 .f32 × Vec F S2x256x1 .f32 × Vec F S2x256x512 .f32 × Vec F S2x256x512 .f32 × Vec F S2x256x512 .f32 × Vec F S2x256x512 .bf16 :=
  (View.canon (run2At V c ⟨n, hn⟩).1, View.canon (run2At V c ⟨n, hn⟩).2.1, View.canon (run2At V c ⟨n, hn⟩).2.2.1,
    View.canon (run2At V c ⟨n, hn⟩).2.2.2.1, View.canon (run2At V c ⟨n, hn⟩).2.2.2.2.1, View.canon (run2At V c ⟨n, hn⟩).2.2.2.2.2.1)

/-- `outsAt2` at a point (the one case: the kv step is the first and the last). -/
theorem outsAt2_A (c : Dev nD) (t : Fin cfg2.N) (h0 : t.val % 1 = 0) (h1 : t.val % 1 = 0) :
    outsAt2 V c t.val t.isLt = (View.canon (run2At V c t).1, View.canon (run2At V c t).2.1, View.canon (run2At V c t).2.2.1,
      View.canon (run2At V c t).2.2.2.1, View.canon (run2At V c t).2.2.2.2.1, View.canon (run2At V c t).2.2.2.2.2.1) := rfl

/-! ## The pipeline's proof data -/

/-- The proof data of pipeline 2 on core `c`: the arrays as the region finds them; after the body at point `t` each
    input's buffer at its block and the output's at `outsAt2`'s first component; the invariant the class's (the scoped
    rest, which holds the scratch buffers at some contents, and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

end Cert.KernelIdeal.Hand

end
-- ==== Proof.KI.Region2Body.lean ====
/-
  Region 2 of the kernel program: the body obligation of its pipeline, at the contents `V` the TensorCore's buffers hold
  when the region is entered.  The invariant lends the body the five scratch buffers at some contents and takes them back
  at some contents; the inputs' staging buffers hold their blocks; the output's ends at its pieces read back.
-/
import proofs.«170986_j45183055954173_2_alg».proof.Proof.KI.Region2Dat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : RefVal F)

/-! ## The body obligation -/

/-- What the body is called with at point `t`, the windows one by one, -/
def bodyPre2 (c : Dev nD) (t : Fin cfg2.N) : sProp (MM F) :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp (MM F) :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4000000 in
/-- The body at any point: the inputs' memrefs hold their blocks, the invariant lends the scratch buffers at some contents
    and takes them back at some contents, the output's buffer ends at its pieces read back; the core owes nothing
    throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl,
    show (dat2 V c).Φ t.succ = Pipeline.ΦA spec2 c from rfl, show (dat2 V c).Φ t.castSucc = Pipeline.ΦA spec2 c from rfl, PhiA2_eq]
  rw [show (dat2 V c).leavesExact 0 t = owns (c : Thread nD τ) (ms2_0 t) fullShare ((dat2 V c).after 0 t) from by
    unfold Dat.leavesExact; rw [liveAt2_in 0 (by decide) t], after2_0]
  rw [show (dat2 V c).leavesExact 1 t = owns (c : Thread nD τ) (ms2_1 t) fullShare ((dat2 V c).after 1 t) from by
    unfold Dat.leavesExact; rw [liveAt2_in 1 (by decide) t], after2_1]
  rw [show (dat2 V c).leavesExact 2 t = owns (c : Thread nD τ) (ms2_2 t) fullShare ((dat2 V c).after 2 t) from by
    unfold Dat.leavesExact; rw [liveAt2_in 2 (by decide) t], after2_2]
  rw [show (dat2 V c).leavesExact 3 t = owns (c : Thread nD τ) (ms2_3 t) fullShare ((dat2 V c).after 3 t) from by
    unfold Dat.leavesExact; rw [liveAt2_in 3 (by decide) t], after2_3]
  rw [show (dat2 V c).leavesExact 4 t = owns (c : Thread nD τ) (ms2_4 t) fullShare ((dat2 V c).after 4 t) from by
    unfold Dat.leavesExact; rw [liveAt2_in 4 (by decide) t], after2_4]
  rw [show (dat2 V c).leavesExact 5 t = owns (c : Thread nD τ) (ms2_5 t) fullShare ((dat2 V c).after 5 t) from by
    unfold Dat.leavesExact; rw [liveAt2_in 5 (by decide) t], after2_5]
  rw [show (dat2 V c).leavesExact 6 t = owns (c : Thread nD τ) (ms2_6 t) fullShare ((dat2 V c).after 6 t) from by
    unfold Dat.leavesExact; rw [liveAt2_in 6 (by decide) t], after2_6]
  rw [show (dat2 V c).leavesExact 7 t = owns (c : Thread nD τ) (ms2_7 t) fullShare ((dat2 V c).after 7 t) from by
    unfold Dat.leavesExact; rw [liveAt2_7 t], after2_7]
  iintro ⟨⟨⟨⟨HS0, HS1, HS2, HS3, HS4⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run2At V c t).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, ⟨%es0, HS0⟩, ⟨%es1, HS1⟩, ⟨%es2, HS2⟩, ⟨%es3, HS3⟩, ⟨%es4, HS4⟩⟩
  isplitl [HS0 HS1 HS2 HS3 HS4 Hrest Hg]
  · isplitl [HS0 HS1 HS2 HS3 HS4 Hrest]
    · isplitl [HS0 HS1 HS2 HS3 HS4]
      · isplitl [HS0]
        · unfold owns; iexists _; iexists _; isplitr
          swap; · iexact HS0
          ipureintro; rfl
        isplitl [HS1]
        · unfold owns; iexists _; iexists _; isplitr
          swap; · iexact HS1
          ipureintro; rfl
        isplitl [HS2]
        · unfold owns; iexists _; iexists _; isplitr
          swap; · iexact HS2
          ipureintro; rfl
        isplitl [HS3]
        · unfold owns; iexists _; iexists _; isplitr
          swap; · iexact HS3
          ipureintro; rfl
        unfold owns; iexists _; iexists _; isplitr
        swap; · iexact HS4
        ipureintro; rfl
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact (View.read_writes_eq_canon _ _ _ (cover2_7 V c t))

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region2Seg.lean ====
/-
  Region 2 of the kernel program as a segment of @main.  It is entered from the thread state "every unscoped buffer at
  the contents `Win`, the generator register at some state, nothing owed" and left at the same state with the contents
  `Wout`: the pipeline's arrays split out of the unscoped buffers and put back at what the write-backs leave; the
  generator register and the scoped rest (which holds the scratch buffers, at some contents) into the invariant and
  out; no semaphore of the kernel's own.
-/
import proofs.«170986_j45183055954173_2_alg».proof.Proof.KI.Region2Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- a library lemma stated over the pinned configuration unifies with the printed one only when unification may unfold
-- plain definitions in a metavariable's type
set_option backward.isDefEq.respectTransparency.types false in
/-- Region 2 over the thread state, for any family of proof data whose member at pipeline 2 is `dat2` at the entry
    contents (`hp`), any exit contents that hold at each array of the pipeline what its write-backs leave (`hF`) and
    elsewhere what was there at entry (`hrest`). -/
def reg2 (pdats : PDats F) (Win Wout : Dev nD → Valuation τ sig (Elt F))
    (hp : ∀ c, pdats 2 c = dat2 (fun c b => Win c b) c)
    (hF : ∀ c (w : Fin cfg2.W), (pdats 2 c).arrAt w cfg2.N = Wout c (Pipeline.arrRef spec2 w))
    (hrest : ∀ c (b : Ref sig .tc), b ∉ Finset.univ.image (Pipeline.arrRef spec2) → Wout c b = Win c b) :
    Pipeline.RegionSeg (pcfgs (F := F)) Gen.adm pdats () defs₀ 𝒱₀ L lv 2 where
  win := launch2.win.to₀
  block_pos := launch2.block_pos
  stage_whole := launch2.stage_whole
  K := PEmpty
  osem k := k.elim
  ho := Pipeline.OwnSemFacts.none _
  hbody c := by rw [hp c]; exact (body_obligation2 _ c).loose
  hwaits := Pipeline.hwaits_of_owed_zero _ _ _ _ L lv 2 fun c t => by rw [hp c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec2 c (fun b => Win c b)
  hentry c := by
    rw [Pipeline.ownSems0_none]
    have hsplit := Pipeline.arrays_of_unscopedBufs (p := 2) (pcfgs (F := F)) Gen.adm pdats launch2.win launch2.arr_whole c
      ((pdats 2 c).share_full fun w => by rw [hp c]; rfl) (fun b => Win c b) fun w => by rw [hp c]; exact A_eq2 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 2 c).Φ 0 = Pipeline.ΦA spec2 c from by rw [hp c]; rfl]; unfold Pipeline.ΦA
    iintro ⟨Hp, -, Hr⟩
    isplitl [Hr]; · iexact Hr
    iexact Hp
  hout c := by
    rw [Pipeline.ownSems0_none, show (pdats 2 c).Φ (Fin.last _) = Pipeline.ΦA spec2 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c pdats ((pdats 2 c).share_full fun w => by rw [hp c]; rfl)
      (fun b => Win c b) (fun b => Wout c b) ((pdats 2 c).arrAt · cfg2.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 2 c).owed (Fin.last _) = 0 from by rw [hp c]; rfl]
    iexact HO

/-- The thread state region 2 is entered from, -/
theorem reg2_pre (pdats : PDats F) (Win Wout : Dev nD → Valuation τ sig (Elt F)) (hp hF hrest) (c : Dev nD) :
    (reg2 pdats Win Wout hp hF hrest).pre c = iprop(StableHlo.held (c : Thread nD τ) (Pipeline.ucRefs τ sig) (Win c) ∗ R c) := rfl
/-- and the one it leaves. -/
theorem reg2_post (pdats : PDats F) (Win Wout : Dev nD → Valuation τ sig (Elt F)) (hp hF hrest) (c : Dev nD) :
    (reg2 pdats Win Wout hp hF hrest).post c = iprop(StableHlo.held (c : Thread nD τ) (Pipeline.ucRefs τ sig) (Wout c) ∗ R c) := rfl

end Cert.KernelIdeal.Hand

end
-- ==== Proof.KI.Main.lean ====
/-
  The kernel program's run from its three regions.  Each region is entered from the contents the host operations
  before it leave, and leaves its output array at what its write-backs fold to; the later regions' entry contents
  depend on the earlier outputs only through buffers they never read.
-/
import proofs.«170986_j45183055954173_2_alg».proof.Proof.KI.Assemble
import proofs.«170986_j45183055954173_2_alg».proof.Proof.KI.Region0Seg
import proofs.«170986_j45183055954173_2_alg».proof.Proof.KI.Region1Seg
import proofs.«170986_j45183055954173_2_alg».proof.Proof.KI.Region2Seg

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## What the regions leave, region by region -/

/-- Region 0's entry contents. -/
abbrev En0 : RefVal F := fun c b => Gen.V5 m c b
/-- Region 0's output array after the region. -/
def out0 (c : Dev nD) : Buf (Elt F) ((c : Thread nD τ).loc main_v27) := (dat0 (En0 m) c).arrAt 7 cfg0.N
/-- The regions' outputs known so far: region 0's. -/
def outsA : Gen.Outs (F := F) := fun _ r c =>
  if h : r = main_v27 then h ▸ out0 m c else m ((c : Thread nD τ).loc r)

/-- Region 1's entry contents: they depend on region 0's output only. -/
abbrev En1 : RefVal F := fun c b => Gen.V11 m (outsA m) c b
/-- Region 1's output array after the region. -/
def out1 (c : Dev nD) : Buf (Elt F) ((c : Thread nD τ).loc main_v58) := (dat1 (En1 m) c).arrAt 7 cfg1.N
/-- The regions' outputs known so far: those of regions 0 and 1. -/
def outsB : Gen.Outs (F := F) := fun _ r c =>
  if h : r = main_v27 then h ▸ out0 m c else if h : r = main_v58 then h ▸ out1 m c else m ((c : Thread nD τ).loc r)

/-- Region 2's entry contents: they depend on the outputs of regions 0 and 1 only. -/
abbrev En2 : RefVal F := fun c b => Gen.V17 m (outsB m) c b
/-- Region 2's output array after the region. -/
def out2 (c : Dev nD) : Buf (Elt F) ((c : Thread nD τ).loc main_v89) := (dat2 (En2 m) c).arrAt 7 cfg2.N
/-- What the three regions leave in their output arrays. -/
def outs : Gen.Outs (F := F) := fun _ r c =>
  if h : r = main_v27 then h ▸ out0 m c else if h : r = main_v58 then h ▸ out1 m c
  else if h : r = main_v89 then h ▸ out2 m c else m ((c : Thread nD τ).loc r)

theorem outs_v27 (j : ℕ) (c : Dev nD) : outs m j main_v27 c = out0 m c := by unfold outs; rw [dif_pos rfl]
theorem outsA_v27 (j : ℕ) (c : Dev nD) : outsA m j main_v27 c = out0 m c := by unfold outsA; rw [dif_pos rfl]
theorem outsB_v27 (j : ℕ) (c : Dev nD) : outsB m j main_v27 c = out0 m c := by unfold outsB; rw [dif_pos rfl]
theorem outs_v58 (j : ℕ) (c : Dev nD) : outs m j main_v58 c = out1 m c := by
  unfold outs; rw [dif_neg (by decide), dif_pos rfl]
theorem outsB_v58 (j : ℕ) (c : Dev nD) : outsB m j main_v58 c = out1 m c := by
  unfold outsB; rw [dif_neg (by decide), dif_pos rfl]
theorem outs_v89 (j : ℕ) (c : Dev nD) : outs m j main_v89 c = out2 m c := by
  unfold outs; rw [dif_neg (by decide), dif_neg (by decide), dif_pos rfl]

/-- Region 1's entry contents read a region's output only at region 0's. -/
theorem V11_congr (o o' : Gen.Outs (F := F)) (c : Dev nD) (h : o 6 main_v27 c = o' 6 main_v27 c) :
    Gen.V11 m o c = Gen.V11 m o' c := by
  show StableHlo.after hostOps1_4 (StableHlo.after hostOps1_3 (StableHlo.after hostOps1_2 (StableHlo.after hostOps1_1
    (StableHlo.after hostOps1 (Function.update (Gen.V5 m c) (Proc.devRef .tc main_v27) (o 6 main_v27 c)))))) = _
  rw [h]
/-- Region 2's entry contents read a region's output only at those of regions 0 and 1. -/
theorem V17_congr (o o' : Gen.Outs (F := F)) (c : Dev nD) (h : o 6 main_v27 c = o' 6 main_v27 c)
    (h' : o 12 main_v58 c = o' 12 main_v58 c) : Gen.V17 m o c = Gen.V17 m o' c := by
  show StableHlo.after hostOps2_4 (StableHlo.after hostOps2_3 (StableHlo.after hostOps2_2 (StableHlo.after hostOps2_1
    (StableHlo.after hostOps2 (Function.update (Gen.V11 m o c) (Proc.devRef .tc main_v58) (o 12 main_v58 c)))))) = _
  rw [h', V11_congr m o o' c h]

/-- Region 1's entry contents do not depend on the later outputs. -/
theorem V11_outs (c : Dev nD) : Gen.V11 m (outs m) c = Gen.V11 m (outsA m) c :=
  V11_congr m _ _ c ((outs_v27 m 6 c).trans (outsA_v27 m 6 c).symm)
/-- Region 2's entry contents do not depend on its own output. -/
theorem V17_outs (c : Dev nD) : Gen.V17 m (outs m) c = Gen.V17 m (outsB m) c :=
  V17_congr m _ _ c ((outs_v27 m 6 c).trans (outsB_v27 m 6 c).symm) ((outs_v58 m 12 c).trans (outsB_v58 m 12 c).symm)

/-! ## The proof data, and each region's record -/

/-- Every pipeline's proof data, each at its region's entry contents. -/
def pdats : PDats F
  | ⟨0, _⟩ => fun c => dat0 (En0 m) c
  | ⟨1, _⟩ => fun c => dat1 (En1 m) c
  | ⟨2, _⟩ => fun c => dat2 (En2 m) c

/-! ### Region 0 -/

/-- An input window's array is never written: it leaves region 0 as it entered, and the valuation after the
    region changes the output array only. -/
theorem hF0_in (c : Dev nD) (w : Fin cfg0.W) (hin : (cfg0.win w).isOut = false)
    (hne : Pipeline.arrRef spec0 w ∉ ([main_v27] : List (Ref sig .tc))) :
    (pdats m 0 c).arrAt w cfg0.N = Gen.V6 m (outs m) c (Pipeline.arrRef spec0 w) :=
  ((dat0 (En0 m) c).arrAt_in w hin _).trans <| (A_eq0 (En0 m) c w).trans <|
    (Gen.V6_of m (outs m) c (Pipeline.arrRef spec0 w) hne).symm

/-- Every array of region 0 at its exit: an input as entered, the output at what the write-backs fold to. -/
theorem hF0 (c : Dev nD) : ∀ w : Fin cfg0.W, (pdats m 0 c).arrAt w cfg0.N = Gen.V6 m (outs m) c (Pipeline.arrRef spec0 w)
  | 0 => hF0_in m c 0 rfl (by decide)
  | 1 => hF0_in m c 1 rfl (by decide)
  | 2 => hF0_in m c 2 rfl (by decide)
  | 3 => hF0_in m c 3 rfl (by decide)
  | 4 => hF0_in m c 4 rfl (by decide)
  | 5 => hF0_in m c 5 rfl (by decide)
  | 6 => hF0_in m c 6 rfl (by decide)
  | 7 => by
    show out0 m c = Function.update (Gen.V5 m c) (Proc.devRef .tc main_v27) (outs m 6 main_v27 c) (Proc.devRef .tc main_v27)
    rw [Function.update_self, outs_v27]
  | ⟨_ + 8, h⟩ => absurd h (Nat.not_lt.2 (Nat.le_add_left _ _))

/-- A buffer that is no array of region 0 is not its output array: the region leaves it as entered. -/
theorem hrest0 (c : Dev nD) (b : Ref sig .tc) (hb : b ∉ Finset.univ.image (Pipeline.arrRef spec0)) :
    Gen.V6 m (outs m) c b = Gen.V5 m c b :=
  Gen.V6_of m (outs m) c b fun hmem => hb (by
    rw [List.mem_singleton] at hmem
    subst hmem
    exact Finset.mem_image.mpr ⟨7, Finset.mem_univ _, rfl⟩)

/-- Region 0's proof data stand at the entry contents the program reaches. -/
theorem hp0 (c : Dev nD) : pdats m 0 c = dat0 (fun c b => Gen.V5 m c b) c := rfl

/-! ### Region 1 -/

/-- An input window's array is never written: it leaves region 1 as it entered, and the valuation after the
    region changes the output array only. -/
theorem hF1_in (c : Dev nD) (w : Fin cfg1.W) (hin : (cfg1.win w).isOut = false)
    (hne : Pipeline.arrRef spec1 w ∉ ([main_v58] : List (Ref sig .tc))) :
    (pdats m 1 c).arrAt w cfg1.N = Gen.V12 m (outs m) c (Pipeline.arrRef spec1 w) :=
  ((dat1 (En1 m) c).arrAt_in w hin _).trans <| (A_eq1 (En1 m) c w).trans <|
    (congrFun (V11_outs m c) (Proc.devRef .tc (Pipeline.arrRef spec1 w))).symm.trans <| (Gen.V12_of m (outs m) c (Pipeline.arrRef spec1 w) hne).symm

/-- Every array of region 1 at its exit: an input as entered, the output at what the write-backs fold to. -/
theorem hF1 (c : Dev nD) : ∀ w : Fin cfg1.W, (pdats m 1 c).arrAt w cfg1.N = Gen.V12 m (outs m) c (Pipeline.arrRef spec1 w)
  | 0 => hF1_in m c 0 rfl (by decide)
  | 1 => hF1_in m c 1 rfl (by decide)
  | 2 => hF1_in m c 2 rfl (by decide)
  | 3 => hF1_in m c 3 rfl (by decide)
  | 4 => hF1_in m c 4 rfl (by decide)
  | 5 => hF1_in m c 5 rfl (by decide)
  | 6 => hF1_in m c 6 rfl (by decide)
  | 7 => by
    show out1 m c = Function.update (Gen.V11 m (outs m) c) (Proc.devRef .tc main_v58) (outs m 12 main_v58 c) (Proc.devRef .tc main_v58)
    rw [Function.update_self, outs_v58]
  | ⟨_ + 8, h⟩ => absurd h (Nat.not_lt.2 (Nat.le_add_left _ _))

/-- A buffer that is no array of region 1 is not its output array: the region leaves it as entered. -/
theorem hrest1 (c : Dev nD) (b : Ref sig .tc) (hb : b ∉ Finset.univ.image (Pipeline.arrRef spec1)) :
    Gen.V12 m (outs m) c b = Gen.V11 m (outs m) c b :=
  Gen.V12_of m (outs m) c b fun hmem => hb (by
    rw [List.mem_singleton] at hmem
    subst hmem
    exact Finset.mem_image.mpr ⟨7, Finset.mem_univ _, rfl⟩)

/-- Region 1's proof data stand at the entry contents the program reaches. -/
theorem hp1 (c : Dev nD) : pdats m 1 c = dat1 (fun c b => Gen.V11 m (outs m) c b) c :=
  congrArg (fun V : RefVal F => dat1 V c) (funext fun c => funext fun b => (congrFun (V11_outs m c) (Proc.devRef .tc b)).symm)

/-! ### Region 2 -/

/-- An input window's array is never written: it leaves region 2 as it entered, and the valuation after the
    region changes the output array only. -/
theorem hF2_in (c : Dev nD) (w : Fin cfg2.W) (hin : (cfg2.win w).isOut = false)
    (hne : Pipeline.arrRef spec2 w ∉ ([main_v89] : List (Ref sig .tc))) :
    (pdats m 2 c).arrAt w cfg2.N = Gen.V18 m (outs m) c (Pipeline.arrRef spec2 w) :=
  ((dat2 (En2 m) c).arrAt_in w hin _).trans <| (A_eq2 (En2 m) c w).trans <|
    (congrFun (V17_outs m c) (Proc.devRef .tc (Pipeline.arrRef spec2 w))).symm.trans <| (Gen.V18_of m (outs m) c (Pipeline.arrRef spec2 w) hne).symm

/-- Every array of region 2 at its exit: an input as entered, the output at what the write-backs fold to. -/
theorem hF2 (c : Dev nD) : ∀ w : Fin cfg2.W, (pdats m 2 c).arrAt w cfg2.N = Gen.V18 m (outs m) c (Pipeline.arrRef spec2 w)
  | 0 => hF2_in m c 0 rfl (by decide)
  | 1 => hF2_in m c 1 rfl (by decide)
  | 2 => hF2_in m c 2 rfl (by decide)
  | 3 => hF2_in m c 3 rfl (by decide)
  | 4 => hF2_in m c 4 rfl (by decide)
  | 5 => hF2_in m c 5 rfl (by decide)
  | 6 => hF2_in m c 6 rfl (by decide)
  | 7 => by
    show out2 m c = Function.update (Gen.V17 m (outs m) c) (Proc.devRef .tc main_v89) (outs m 18 main_v89 c) (Proc.devRef .tc main_v89)
    rw [Function.update_self, outs_v89]
  | ⟨_ + 8, h⟩ => absurd h (Nat.not_lt.2 (Nat.le_add_left _ _))

/-- A buffer that is no array of region 2 is not its output array: the region leaves it as entered. -/
theorem hrest2 (c : Dev nD) (b : Ref sig .tc) (hb : b ∉ Finset.univ.image (Pipeline.arrRef spec2)) :
    Gen.V18 m (outs m) c b = Gen.V17 m (outs m) c b :=
  Gen.V18_of m (outs m) c b fun hmem => hb (by
    rw [List.mem_singleton] at hmem
    subst hmem
    exact Finset.mem_image.mpr ⟨7, Finset.mem_univ _, rfl⟩)

/-- Region 2's proof data stand at the entry contents the program reaches. -/
theorem hp2 (c : Dev nD) : pdats m 2 c = dat2 (fun c b => Gen.V17 m (outs m) c b) c :=
  congrArg (fun V : RefVal F => dat2 V c) (funext fun c => funext fun b => (congrFun (V17_outs m c) (Proc.devRef .tc b)).symm)

/-! ## The three records, the frame and the result -/

/-- Region 0's record: entered from the contents after the first host stretches, left with its output array written. -/
def R0 : Pipeline.RegionSeg (pcfgs (F := F)) Gen.adm (pdats m) () defs₀ 𝒱₀ L lv 0 :=
  reg0 (pdats m) (Gen.V5 m) (Gen.V6 m (outs m)) (hp0 m) (hF0 m) (hrest0 m)
/-- Region 1's record. -/
def R1 : Pipeline.RegionSeg (pcfgs (F := F)) Gen.adm (pdats m) () defs₀ 𝒱₀ L lv 1 :=
  reg1 (pdats m) (Gen.V11 m (outs m)) (Gen.V12 m (outs m)) (hp1 m) (hF1 m) (hrest1 m)
/-- Region 2's record. -/
def R2 : Pipeline.RegionSeg (pcfgs (F := F)) Gen.adm (pdats m) () defs₀ 𝒱₀ L lv 2 :=
  reg2 (pdats m) (Gen.V17 m (outs m)) (Gen.V18 m (outs m)) (hp2 m) (hF2 m) (hrest2 m)

/-- THE FRAME OF THE PROGRAM: every weakly fair execution of @main from memory `m` with zero counters terminates,
    and every final memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_regs m ρ (outs m) (pdats m)
    (R0 m) (fun c => by rw [R0, reg0_pre]) (fun c => by rw [R0, reg0_post])
    (R1 m) (fun c => by rw [R1, reg1_pre]) (fun c => by rw [R1, reg1_post])
    (R2 m) (fun c => by rw [R2, reg2_pre]) (fun c => by rw [R2, reg2_post])

/-- THE RESULT OF THE PROGRAM: the same run, read at the result buffer too: it ends at the last valuation's contents,
    the host tail's sum over what the three regions leave. -/
theorem run_value (ρ : Dev nD → PrngReg) :
    θ_run defs (onTc (τ := τ) (main (F := F))) ⟨m, fun _ => 0, ρ⟩ (fun r => ∀ c : Dev nD,
      r.2.mem ((c.tc : Thread nD τ).loc main_v94) = Gen.V19 m (outs m) c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  value_of_regs m ρ (outs m) (pdats m)
    (R0 m) (fun c => by rw [R0, reg0_pre]) (fun c => by rw [R0, reg0_post])
    (R1 m) (fun c => by rw [R1, reg1_pre]) (fun c => by rw [R1, reg1_post])
    (R2 m) (fun c => by rw [R2, reg2_pre]) (fun c => by rw [R2, reg2_post])

end Cert.KernelIdeal.Hand

end
-- ==== Proof.Arr.lean ====
/-
  A program's four-dimensional array `[B, H, W, C]` read as `[B, H·W, C]`: the two spatial axes flattened row by
  row, token `t = h·W + w` — what both programs' reshapes do.
-/
import Idealize.ShloMosaic.Lib.ValueIdx

noncomputable section

namespace Cert.Arr

open Idealize.ShloMosaic Idealize.ShloMosaic.ValueIdx

theorem pos_of_fin_mul {H W : ℕ} (t : Fin (H * W)) : 0 < W :=
  Nat.pos_of_ne_zero fun h => by subst h; exact absurd t.isLt (by simp)

/-- The row of token `t`. -/
def hOf {H W : ℕ} (t : Fin (H * W)) : Fin H :=
  ⟨t.val / W, (Nat.div_lt_iff_lt_mul (pos_of_fin_mul t)).mpr t.isLt⟩
/-- The column of token `t`. -/
def wOf {H W : ℕ} (t : Fin (H * W)) : Fin W := ⟨t.val % W, Nat.mod_lt _ (pos_of_fin_mul t)⟩

/-- `[B, H, W, C]` as `[B, H·W, C]`. -/
def flat {α : Type} {B H W C : ℕ} (x : (⟨4, ![B, H, W, C]⟩ : Shape).Idx → α) (b : Fin B) (t : Fin (H * W)) (ch : Fin C) : α :=
  x (ix4 b (hOf t) (wOf t) ch)

/-- A three-dimensional array `[B, N, C]` as a curried function. -/
def cur3 {α : Type} {B N C : ℕ} (x : (⟨3, ![B, N, C]⟩ : Shape).Idx → α) (b : Fin B) (t : Fin N) (ch : Fin C) : α :=
  x (ix3 b t ch)

end Cert.Arr

end
-- ==== Proof.Spec.lean ====
/-
  The two programs' value, level by level, as functions of the argument arrays on the extended reals.

  One level takes a content array `c` and a stylised array `cs` of `B × Nq × C` entries (batch, tokens, channels; the
  two spatial axes flattened) and a style array `s` of `B × Nk × C` entries.  Both programs normalise `c` and `s` per
  batch entry and channel by the mean and the standard deviation over the tokens, l2-normalise each token's channel
  vector, take the scores `q · k`, weigh the style's values and their squares by the exponentials of the scores, and
  compare `S · nc + M` with `cs` in the mean of squares.

  The REFERENCE divides by the standard deviation, and normalises the weights as a softmax: the row maximum is
  subtracted before the exponential, and each weight is divided by the row's sum of exponentials.
  The KERNEL multiplies by the reciprocal of the standard deviation, takes the exponentials of the scores themselves,
  adds up the weighted values key block by key block, and scales by the reciprocal of the sum of the weights at the
  end; it adds the squared errors tile by tile (a batch tile of `bb` entries by a query tile of `tq` tokens), writes
  each tile's sum into all 8 × 128 entries of an output block, and the host divides the sum of all the blocks'
  entries by 1024 and then by the number of elements.

  Over the reals the two are one number; `Spec/…` proves it for finite inputs.
-/
import Idealize.ShloMosaic.PureOps.Ideal
import Mathlib.Logic.Equiv.Fin.Basic

noncomputable section

namespace Cert.Spec

open Idealize.ShloMosaic
open scoped BigOperators

/-- The float constants of one level, as the real numbers their patterns denote: the token counts the two means
    divide by, the variance's epsilon, the norm's floor (which is also the deviation's epsilon), the number of
    elements, and the output block's size. -/
structure Consts where
  nQ : ℝ
  nK : ℝ
  eps : ℝ
  e12 : ℝ
  nTot : ℝ
  k1024 : ℝ

/-- What the equality of the two programs uses of the constants. -/
structure Consts.Pos (k : Consts) : Prop where
  nQ : 0 < k.nQ
  nK : 0 < k.nK
  eps : 0 < k.eps
  e12 : 0 < k.e12
  nTot : 0 < k.nTot
  k1024 : k.k1024 = 1024

/-! ## What both programs compute the same way -/

section Stats

variable {B N C : ℕ}

/-- The mean over the tokens, per batch entry and channel. -/
def mean (n : ℝ) (x : Fin B → Fin N → Fin C → EReal) (b : Fin B) (ch : Fin C) : EReal :=
  Ideal.div (∑ t, x b t ch) (n : EReal)

/-- The (biased) variance over the tokens. -/
def var (n : ℝ) (x : Fin B → Fin N → Fin C → EReal) (b : Fin B) (ch : Fin C) : EReal :=
  Ideal.div (∑ t, (x b t ch - mean n x b ch) * (x b t ch - mean n x b ch)) (n : EReal)

/-- The standard deviation, with the epsilon under the root. -/
def sd (eps n : ℝ) (x : Fin B → Fin N → Fin C → EReal) (b : Fin B) (ch : Fin C) : EReal :=
  Ideal.sqrt (var n x b ch + (eps : EReal))

/-- The instance normalisation as the reference spells it: a quotient. -/
def inormR (eps n : ℝ) (x : Fin B → Fin N → Fin C → EReal) (b : Fin B) (t : Fin N) (ch : Fin C) : EReal :=
  Ideal.div (x b t ch - mean n x b ch) (sd eps n x b ch)

/-- The instance normalisation as the kernel spells it: a product with the reciprocal of the deviation. -/
def inormK (eps n : ℝ) (x : Fin B → Fin N → Fin C → EReal) (b : Fin B) (t : Fin N) (ch : Fin C) : EReal :=
  (x b t ch - mean n x b ch) * Ideal.div 1 (sd eps n x b ch)

/-- Each token's channel vector divided by its euclidean norm, the norm floored at `e12`. -/
def l2n (e12 : ℝ) (y : Fin B → Fin N → Fin C → EReal) (b : Fin B) (t : Fin N) (ch : Fin C) : EReal :=
  Ideal.div (y b t ch) (max (Ideal.sqrt (∑ ch', y b t ch' * y b t ch')) (e12 : EReal))

end Stats

/-- The score of query token `q` against key token `m`: the inner product over the channels. -/
def score {B Nq Nk C : ℕ} (qn : Fin B → Fin Nq → Fin C → EReal) (kn : Fin B → Fin Nk → Fin C → EReal)
    (b : Fin B) (q : Fin Nq) (m : Fin Nk) : EReal :=
  ∑ ch, qn b q ch * kn b m ch

/-- The attention-weighted standard deviation from the weighted mean `M` and the weighted mean of squares `M2`. -/
def spread (e12 : ℝ) (M M2 : EReal) : EReal :=
  Ideal.sqrt (max (M2 - M * M) 0 + (e12 : EReal))

/-! ## The reference -/

section Ref

variable {B Nq Nk C : ℕ} (k : Consts)
  (cs c : Fin B → Fin Nq → Fin C → EReal) (s : Fin B → Fin Nk → Fin C → EReal)

/-- The reference's scores. -/
def scoreR (b : Fin B) (q : Fin Nq) (m : Fin Nk) : EReal :=
  score (l2n k.e12 (inormR k.eps k.nQ c)) (l2n k.e12 (inormR k.eps k.nK s)) b q m

/-- The largest score of a row (from `⊥`, the reduction's initial value). -/
def rowMaxR (b : Fin B) (q : Fin Nq) : EReal :=
  Finset.univ.fold max ⊥ (fun m => scoreR k c s b q m)

/-- The exponential of a score less the row's maximum. -/
def expR (b : Fin B) (q : Fin Nq) (m : Fin Nk) : EReal :=
  Ideal.exp (scoreR k c s b q m - rowMaxR k c s b q)

/-- The softmax weight. -/
def attnR (b : Fin B) (q : Fin Nq) (m : Fin Nk) : EReal :=
  Ideal.div (expR k c s b q m) (∑ m', expR k c s b q m')

/-- The attention-weighted mean of the style's values, and of their squares. -/
def meanR (b : Fin B) (q : Fin Nq) (ch : Fin C) : EReal := ∑ m, attnR k c s b q m * s b m ch
def mean2R (b : Fin B) (q : Fin Nq) (ch : Fin C) : EReal := ∑ m, attnR k c s b q m * (s b m ch * s b m ch)

/-- The transferred feature `S · nc + M`. -/
def aatR (b : Fin B) (q : Fin Nq) (ch : Fin C) : EReal :=
  spread k.e12 (meanR k c s b q ch) (mean2R k c s b q ch) * inormR k.eps k.nQ c b q ch + meanR k c s b q ch

/-- The reference's loss of the level: the mean of the squared errors. -/
def lossR : EReal :=
  Ideal.div (∑ b, ∑ q, ∑ ch, (cs b q ch - aatR k c s b q ch) * (cs b q ch - aatR k c s b q ch)) (k.nTot : EReal)

end Ref

/-! ## The kernel -/

section Ker

variable (nb bb nq tq nk tk : ℕ) {C : ℕ} (k : Consts)
  (cs c : Fin (nb * bb) → Fin (nq * tq) → Fin C → EReal) (s : Fin (nb * bb) → Fin (nk * tk) → Fin C → EReal)

/-- Entry `j` of tile `i` along an axis cut into tiles of `n`: position `i * n + j`. -/
abbrev tix {m n : ℕ} (i : Fin m) (j : Fin n) : Fin (m * n) := finProdFinEquiv (i, j)

/-- The kernel's scores. -/
def scoreK (b : Fin (nb * bb)) (q : Fin (nq * tq)) (m : Fin (nk * tk)) : EReal :=
  score (l2n k.e12 (inormK k.eps k.nQ c)) (l2n k.e12 (inormK k.eps k.nK s)) b q m

/-- The weight of a key: the exponential of its score. -/
def expK (b : Fin (nb * bb)) (q : Fin (nq * tq)) (m : Fin (nk * tk)) : EReal :=
  Ideal.exp (scoreK nb bb nq tq nk tk k c s b q m)

/-- The sum of a row's weights, key block by key block. -/
def sumK (b : Fin (nb * bb)) (q : Fin (nq * tq)) : EReal :=
  ∑ kb : Fin nk, ∑ m' : Fin tk, expK nb bb nq tq nk tk k c s b q (tix kb m')

/-- The weighted sums of the style's values and of their squares, key block by key block. -/
def accK (b : Fin (nb * bb)) (q : Fin (nq * tq)) (ch : Fin C) : EReal :=
  ∑ kb : Fin nk, ∑ m' : Fin tk, expK nb bb nq tq nk tk k c s b q (tix kb m') * s b (tix kb m') ch
def acc2K (b : Fin (nb * bb)) (q : Fin (nq * tq)) (ch : Fin C) : EReal :=
  ∑ kb : Fin nk, ∑ m' : Fin tk,
    expK nb bb nq tq nk tk k c s b q (tix kb m') * (s b (tix kb m') ch * s b (tix kb m') ch)

/-- The weighted means: the sums scaled by the reciprocal of the sum of the weights. -/
def meanK (b : Fin (nb * bb)) (q : Fin (nq * tq)) (ch : Fin C) : EReal :=
  accK nb bb nq tq nk tk k c s b q ch * Ideal.div 1 (sumK nb bb nq tq nk tk k c s b q)
def mean2K (b : Fin (nb * bb)) (q : Fin (nq * tq)) (ch : Fin C) : EReal :=
  acc2K nb bb nq tq nk tk k c s b q ch * Ideal.div 1 (sumK nb bb nq tq nk tk k c s b q)

/-- The transferred feature `S · nc + M`. -/
def aatK (b : Fin (nb * bb)) (q : Fin (nq * tq)) (ch : Fin C) : EReal :=
  spread k.e12 (meanK nb bb nq tq nk tk k c s b q ch) (mean2K nb bb nq tq nk tk k c s b q ch)
      * inormK k.eps k.nQ c b q ch
    + meanK nb bb nq tq nk tk k c s b q ch

/-- The squared errors of one tile (batch tile `bi`, query tile `qi`) added up. -/
def tileK (bi : Fin nb) (qi : Fin nq) : EReal :=
  ∑ b' : Fin bb, ∑ q' : Fin tq, ∑ ch : Fin C,
    (cs (tix bi b') (tix qi q') ch - aatK nb bb nq tq nk tk k c s (tix bi b') (tix qi q') ch)
      * (cs (tix bi b') (tix qi q') ch - aatK nb bb nq tq nk tk k c s (tix bi b') (tix qi q') ch)

/-- The kernel's loss of the level: every tile's sum stands in the 8 × 128 entries of its output block; the
    entries of all the blocks are added, divided by 1024 and by the number of elements. -/
def lossK : EReal :=
  Ideal.div (Ideal.div (∑ bi : Fin nb, ∑ qi : Fin nq, ∑ _i : Fin 8, ∑ _j : Fin 128,
      tileK nb bb nq tq nk tk k cs c s bi qi) (k.k1024 : EReal)) (k.nTot : EReal)

end Ker

end Cert.Spec

end
-- ==== Proof.KI.HostLemmas.lean ====
/-
  The host operations of one level's statistics, read at an index on the extended reals, over VARIABLE arrays.
  A `[B, H, W, C]` array is read as `[B, H·W, C]` (token `t` is row `t / W`, column `t % W`).  The host's sum over the
  two spatial axes at `(b, ch)` is the initial value plus the sum over the tokens; the broadcasts and reshapes between
  `[B, C]`, `[B, 1, 1, C]`, `[B, 1, C]` and `[B, H, W, C]` move no value.
-/
import proofs.«170986_j45183055954173_2_alg».proof.Proof.Arr
import proofs.«170986_j45183055954173_2_alg».proof.Proof.Spec
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

namespace Cert.KernelIdeal.HostVal

open Idealize.ShloMosaic Idealize.ShloMosaic.ValueIdx
open scoped BigOperators
open Cert.Arr

variable {B H W C : ℕ}

theorem finProd_hw (t : Fin (H * W)) : finProdFinEquiv (hOf t, wOf t) = t :=
  Fin.ext (by show (t.val % W) + W * (t.val / W) = t.val; exact Nat.mod_add_div _ _)

theorem hOf_finProd (h : Fin H) (w : Fin W) : hOf (finProdFinEquiv (h, w)) = h :=
  Fin.ext (by
    show (w.val + W * h.val) / W = h.val
    rw [Nat.add_mul_div_left _ _ (Nat.pos_of_ne_zero fun e => by subst e; exact absurd w.isLt (by simp)), Nat.div_eq_of_lt w.isLt, Nat.zero_add])

theorem wOf_finProd (h : Fin H) (w : Fin W) : wOf (finProdFinEquiv (h, w)) = w :=
  Fin.ext (by
    show (w.val + W * h.val) % W = w.val
    rw [Nat.add_mul_mod_self_left, Nat.mod_eq_of_lt w.isLt])

/-- The source indices a reduce over the two spatial axes sends to `(b, ch)` are the tokens of batch entry `b` at channel `ch`. -/
theorem sum_drop12 (hr : (⟨4, ![B, H, W, C]⟩ : Shape).ReducesTo [1, 2] ⟨2, ![B, C]⟩)
    (X : (⟨4, ![B, H, W, C]⟩ : Shape).Idx → EReal) (b : Fin B) (ch : Fin C) :
    ∑ i ∈ Finset.univ.filter (fun i => hr.drop i = ix2 b ch), X i = ∑ t : Fin (H * W), flat X b t ch := by
  have hd0 : ∀ i, (hr.drop i 0 : ℕ) = i 0 := fun i => hr.drop_apply_val i 0
  have hd1 : ∀ i, (hr.drop i 1 : ℕ) = i 3 := fun i => hr.drop_apply_val i 1
  have hleft : ∀ i ∈ Finset.univ.filter (fun i => hr.drop i = ix2 b ch),
      ix4 b (hOf (finProdFinEquiv (i 1, i 2))) (wOf (finProdFinEquiv (i 1, i 2))) ch = i := by
    intro i hi
    have hi' := (Finset.mem_filter.mp hi).2
    have e0 : (i 0 : ℕ) = b := (hd0 i).symm.trans (congrArg (fun j : (⟨2, ![B, C]⟩ : Shape).Idx => (j 0 : ℕ)) hi')
    have e3 : (i 3 : ℕ) = ch := (hd1 i).symm.trans (congrArg (fun j : (⟨2, ![B, C]⟩ : Shape).Idx => (j 1 : ℕ)) hi')
    funext a
    match a with
    | ⟨0, _⟩ => exact Fin.ext e0.symm
    | ⟨1, _⟩ => exact hOf_finProd (i 1) (i 2)
    | ⟨2, _⟩ => exact wOf_finProd (i 1) (i 2)
    | ⟨3, _⟩ => exact Fin.ext e3.symm
  refine Finset.sum_nbij' (fun i => finProdFinEquiv (i 1, i 2)) (fun t => ix4 b (hOf t) (wOf t) ch) ?_ ?_ hleft ?_ ?_
  · intro i _; exact Finset.mem_univ _
  · intro t _
    rw [Finset.mem_filter]
    refine ⟨Finset.mem_univ _, funext fun a => Fin.ext ?_⟩
    match a with
    | ⟨0, _⟩ => exact hd0 _
    | ⟨1, _⟩ => exact hd1 _
  · intro t _; exact finProd_hw t
  · intro i hi
    exact congrArg X (hleft i hi).symm

/-- The host's sum over the two spatial axes of a `[B, H, W, C]` array, read at `(b, ch)`: the initial value plus the
    sum over the tokens. -/
theorem reduce12_apply (hr : (⟨4, ![B, H, W, C]⟩ : Shape).ReducesTo [1, 2] ⟨2, ![B, C]⟩)
    (X : FVec Ideal ⟨4, ![B, H, W, C]⟩ .f32) (init : FVec Ideal ⟨0, ![]⟩ .f32) (hu : 0 < (⟨0, ![]⟩ : Shape).numel)
    (b : Fin B) (ch : Fin C) :
    @Eq EReal (Host.reduceAdd X init hr hu (ix2 b ch)) (init ix0 + ∑ t : Fin (H * W), flat X b t ch) := by
  rw [hostReduceAdd_apply]
  unfold Ideal.hostReduceAdd
  rw [sum_drop12 hr X b ch, eq_ix0 (Shape.Idx.first hu)]

/-- A `[B, C]` array broadcast to `[B, 1, 1, C]` along axes 0 and 3. -/
theorem bcast03_apply {α : Type} (h : (⟨2, ![B, C]⟩ : Shape).BroadcastsInDim ⟨4, ![B, 1, 1, C]⟩ ![0, 3])
    (Y : (⟨2, ![B, C]⟩ : Shape).Idx → α) (b : Fin B) (ch : Fin C) :
    broadcastInDim ⟨4, ![B, 1, 1, C]⟩ ![0, 3] h Y (ix4 b 0 0 ch) = Y (ix2 b ch) := by
  refine broadcastInDim_apply ![0, 3] h Y (ix4 b 0 0 ch) (ix2 b ch) fun a => ?_
  match a with
  | ⟨0, _⟩ =>
    show b.val = if B = 1 then 0 else b.val
    split_ifs with h1
    · have := b.isLt; omega
    · rfl
  | ⟨1, _⟩ =>
    show ch.val = if C = 1 then 0 else ch.val
    split_ifs with h1
    · have := ch.isLt; omega
    · rfl

/-- A `[B, 1, 1, C]` array broadcast over the two spatial axes. -/
theorem bcastFull_apply {α : Type} (h : (⟨4, ![B, 1, 1, C]⟩ : Shape).BroadcastsInDim ⟨4, ![B, H, W, C]⟩ ![0, 1, 2, 3])
    (Y : (⟨4, ![B, 1, 1, C]⟩ : Shape).Idx → α) (b : Fin B) (hh : Fin H) (ww : Fin W) (ch : Fin C) :
    broadcastInDim ⟨4, ![B, H, W, C]⟩ ![0, 1, 2, 3] h Y (ix4 b hh ww ch) = Y (ix4 b 0 0 ch) := by
  refine broadcastInDim_apply ![0, 1, 2, 3] h Y (ix4 b hh ww ch) (ix4 b 0 0 ch) fun a => ?_
  match a with
  | ⟨0, _⟩ =>
    show b.val = if B = 1 then 0 else b.val
    split_ifs with h1
    · have := b.isLt; omega
    · rfl
  | ⟨1, _⟩ => exact (if_pos rfl).symm
  | ⟨2, _⟩ => exact (if_pos rfl).symm
  | ⟨3, _⟩ =>
    show ch.val = if C = 1 then 0 else ch.val
    split_ifs with h1
    · have := ch.isLt; omega
    · rfl

/-- `[B, H, W, C]` reshaped to `[B, H·W, C]`: token `t` is row `t / W`, column `t % W`. -/
theorem flat_cast {α : Type} (h : (⟨4, ![B, H, W, C]⟩ : Shape).ShapeCasts ⟨3, ![B, H * W, C]⟩)
    (X : (⟨4, ![B, H, W, C]⟩ : Shape).Idx → α) (b : Fin B) (t : Fin (H * W)) (ch : Fin C) :
    shapeCast ⟨3, ![B, H * W, C]⟩ X h (ix3 b t ch) = flat X b t ch := by
  refine shapeCast_apply X h (ix3 b t ch) (ix4 b (hOf t) (wOf t) ch) ?_
  rw [Shape.rowMajor_val_four, Shape.rowMajor_val_three]
  show ((b.val * H + t.val / W) * W + t.val % W) * C + ch.val = (b.val * (H * W) + t.val) * C + ch.val
  have e : (b.val * H + t.val / W) * W + t.val % W = b.val * (H * W) + t.val := by
    rw [Nat.add_mul, Nat.mul_assoc, Nat.add_assoc, Nat.div_add_mod']
  rw [e]

/-- `[B, 1, 1, C]` reshaped to `[B, 1, C]`. -/
theorem stat_cast {α : Type} (h : (⟨4, ![B, 1, 1, C]⟩ : Shape).ShapeCasts ⟨3, ![B, 1, C]⟩)
    (Y : (⟨4, ![B, 1, 1, C]⟩ : Shape).Idx → α) (b : Fin B) (ch : Fin C) :
    shapeCast ⟨3, ![B, 1, C]⟩ Y h (ix3 b 0 ch) = Y (ix4 b 0 0 ch) := by
  refine shapeCast_apply Y h (ix3 b 0 ch) (ix4 b 0 0 ch) ?_
  rw [Shape.rowMajor_val_four, Shape.rowMajor_val_three]
  show ((b.val * 1 + 0) * 1 + 0) * C + ch.val = (b.val * 1 + 0) * C + ch.val
  simp only [Nat.mul_one, Nat.add_zero]

theorem hostSqrt_apply {s : Shape} {φ : FTy} (a : FVec Ideal s φ) (i : s.Idx) : Host.sqrt a i = Ideal.sqrt (a i) := rfl

/-! ## The statistics' chains of operations, over a variable array -/

section Chains

variable (hr : (⟨4, ![B, H, W, C]⟩ : Shape).ReducesTo [1, 2] ⟨2, ![B, C]⟩) (hu : 0 < (⟨0, ![]⟩ : Shape).numel)
  (h03 : (⟨2, ![B, C]⟩ : Shape).BroadcastsInDim ⟨4, ![B, 1, 1, C]⟩ ![0, 3])
  (hS : (⟨0, ![]⟩ : Shape).BroadcastsInDim ⟨4, ![B, 1, 1, C]⟩ ![])
  (hF : (⟨4, ![B, 1, 1, C]⟩ : Shape).BroadcastsInDim ⟨4, ![B, H, W, C]⟩ ![0, 1, 2, 3])
  (hc : (⟨4, ![B, 1, 1, C]⟩ : Shape).ShapeCasts ⟨3, ![B, 1, C]⟩)
  (n : BitVec 32)

/-- The mean over the tokens as the host computes it: the sum over the spatial axes, broadcast, divided by the count. -/
abbrev meanT (X : FVec Ideal ⟨4, ![B, H, W, C]⟩ .f32) : FVec Ideal ⟨4, ![B, 1, 1, C]⟩ .f32 :=
  Host.divf (broadcastInDim ⟨4, ![B, 1, 1, C]⟩ ![0, 3] h03 (Host.reduceAdd X (constant (F := Ideal) ⟨0, ![]⟩ .f32 0x00000000#32) hr hu))
    (broadcastInDim ⟨4, ![B, 1, 1, C]⟩ ![] hS (constant (F := Ideal) ⟨0, ![]⟩ .f32 n))

/-- The count less the degrees of freedom `c0`, as the host computes it. -/
abbrev cntT (c0 : IVec ⟨0, ![]⟩ 32) : FVec Ideal ⟨0, ![]⟩ .f32 :=
  subf (constant (F := Ideal) ⟨0, ![]⟩ .f32 n) (sitofp .f32 c0)

/-- The deviations from the mean. -/
abbrev devT (X : FVec Ideal ⟨4, ![B, H, W, C]⟩ .f32) : FVec Ideal ⟨4, ![B, H, W, C]⟩ .f32 :=
  subf X (broadcastInDim ⟨4, ![B, H, W, C]⟩ ![0, 1, 2, 3] hF (meanT hr hu h03 hS n X))

/-- The variance over the tokens as the host computes it (`jnp.var` with `c0` degrees of freedom: the quotient where the
    count less `c0` is positive, else the quiet not-a-number). -/
abbrev varT (X : FVec Ideal ⟨4, ![B, H, W, C]⟩ .f32) (c0 : IVec ⟨0, ![]⟩ 32) : FVec Ideal ⟨4, ![B, 1, 1, C]⟩ .f32 :=
  select (broadcastInDim ⟨4, ![B, 1, 1, C]⟩ ![] hS (cmpf .ogt (cntT n c0) (constant (F := Ideal) ⟨0, ![]⟩ .f32 0x00000000#32)))
    (Host.divf
      (broadcastInDim ⟨4, ![B, 1, 1, C]⟩ ![0, 3] h03
        (Host.reduceAdd (mulf (devT hr hu h03 hS hF n X) (devT hr hu h03 hS hF n X)) (constant (F := Ideal) ⟨0, ![]⟩ .f32 0x00000000#32) hr hu))
      (broadcastInDim ⟨4, ![B, 1, 1, C]⟩ ![] hS (cntT n c0)))
    (broadcastInDim ⟨4, ![B, 1, 1, C]⟩ ![] hS (id (constant (F := Ideal) ⟨0, ![]⟩ .f32 0x7FC00000#32)))

/-- The reciprocal of the deviation as the host computes it: one over the root of the variance plus epsilon. -/
abbrev rstdT (eps : BitVec 32) (v : FVec Ideal ⟨4, ![B, 1, 1, C]⟩ .f32) : FVec Ideal ⟨4, ![B, 1, 1, C]⟩ .f32 :=
  Host.divf (broadcastInDim ⟨4, ![B, 1, 1, C]⟩ ![] hS (constant (F := Ideal) ⟨0, ![]⟩ .f32 0x3F800000#32))
    (Host.sqrt (addf v (broadcastInDim ⟨4, ![B, 1, 1, C]⟩ ![] hS (constant (F := Ideal) ⟨0, ![]⟩ .f32 eps))))

variable (nR : ℝ) (hn : Ideal.ofBits .f32 n = (nR : EReal))
include hn

theorem meanT_apply (X : FVec Ideal ⟨4, ![B, H, W, C]⟩ .f32) (b : Fin B) (ch : Fin C) :
    @Eq EReal (meanT hr hu h03 hS n X (ix4 b 0 0 ch)) (Cert.Spec.mean nR (flat X) b ch) := by
  unfold Cert.Spec.mean meanT
  rw [hostDivf_apply, bcast03_apply, reduce12_apply, broadcastInDim_scalar_apply, constant_apply, constant_apply, hn]
  rw [show Ideal.ofBits .f32 0x00000000#32 = 0 from by simp [Ideal.ofBits, Ideal.ieee], zero_add]

theorem devT_apply (X : FVec Ideal ⟨4, ![B, H, W, C]⟩ .f32) (b : Fin B) (t : Fin (H * W)) (ch : Fin C) :
    @Eq EReal (flat (devT hr hu h03 hS hF n X) b t ch) (flat X b t ch - Cert.Spec.mean nR (flat X) b ch) := by
  unfold flat devT
  rw [subf_apply, bcastFull_apply, meanT_apply hr hu h03 hS n nR hn X b ch]
  rfl

theorem varT_apply (hpos : 0 < nR) (X : FVec Ideal ⟨4, ![B, H, W, C]⟩ .f32) (b : Fin B) (ch : Fin C) :
    @Eq EReal (varT hr hu h03 hS hF n X (constantI ⟨0, ![]⟩ 32 0#32) (ix4 b 0 0 ch)) (Cert.Spec.var nR (flat X) b ch) := by
  have hcnt : @Eq EReal (cntT n (constantI ⟨0, ![]⟩ 32 0#32) ix0) (nR : EReal) := by
    unfold cntT
    rw [subf_apply, constant_apply, hn, sitofp_apply, constantI_apply]
    show (nR : EReal) - (((0#32 : BitVec 32).toInt : ℝ) : EReal) = nR
    rw [BitVec.toInt_zero]; simp
  have hz : Ideal.ofBits .f32 0x00000000#32 = 0 := by simp [Ideal.ofBits, Ideal.ieee]
  have hcond : (broadcastInDim ⟨4, ![B, 1, 1, C]⟩ ![] hS
      (cmpf .ogt (cntT n (constantI ⟨0, ![]⟩ 32 0#32)) (constant (F := Ideal) ⟨0, ![]⟩ .f32 0x00000000#32))) (ix4 b 0 0 ch) = 1#1 := by
    rw [broadcastInDim_scalar_apply, cmpf_apply, hcnt, constant_apply, hz]
    show BitVec.ofBool (decide ((0 : EReal) < (nR : EReal))) = 1#1
    rw [decide_eq_true (by exact_mod_cast hpos)]; rfl
  unfold varT
  rw [select_apply, hcond, select_one, hostDivf_apply, bcast03_apply, reduce12_apply, broadcastInDim_scalar_apply, hcnt,
    constant_apply, hz, zero_add]
  unfold Cert.Spec.var
  refine congrArg (fun s => Ideal.div s (nR : EReal)) (Finset.sum_congr rfl fun t _ => ?_)
  have hd := devT_apply hr hu h03 hS hF n nR hn X b t ch
  show (devT hr hu h03 hS hF n X) (ix4 b (hOf t) (wOf t) ch) * (devT hr hu h03 hS hF n X) (ix4 b (hOf t) (wOf t) ch) = _
  unfold flat at hd
  rw [hd]; rfl

omit hn in
theorem rstdT_apply (eps : BitVec 32) (eR : ℝ) (he : Ideal.ofBits .f32 eps = (eR : EReal))
    (v : FVec Ideal ⟨4, ![B, 1, 1, C]⟩ .f32) (j : (⟨4, ![B, 1, 1, C]⟩ : Shape).Idx) :
    @Eq EReal (rstdT hS eps v j) (Ideal.div 1 (Ideal.sqrt (v j + (eR : EReal)))) := by
  unfold rstdT
  rw [hostDivf_apply, broadcastInDim_scalar_apply, constant_apply, hostSqrt_apply, addf_apply, broadcastInDim_scalar_apply,
    constant_apply, he]
  rw [show Ideal.ofBits .f32 0x3F800000#32 = (1 : EReal) from by
    rw [show (1 : EReal) = ((1 : ℝ) : EReal) from by norm_cast]; simp [Ideal.ofBits, Ideal.ieee, -EReal.coe_mul]; norm_num]

/-- The reshaped reciprocal deviation, read at `(b, 0, ch)`. -/
theorem rstd_chain (hpos : 0 < nR) (eps : BitVec 32) (eR : ℝ) (he : Ideal.ofBits .f32 eps = (eR : EReal))
    (X : FVec Ideal ⟨4, ![B, H, W, C]⟩ .f32) (b : Fin B) (ch : Fin C) :
    @Eq EReal (shapeCast ⟨3, ![B, 1, C]⟩ (rstdT hS eps (varT hr hu h03 hS hF n X (constantI ⟨0, ![]⟩ 32 0#32))) hc (ix3 b 0 ch))
      (Ideal.div 1 (Cert.Spec.sd eR nR (flat X) b ch)) := by
  rw [stat_cast, rstdT_apply hS eps eR he, varT_apply hr hu h03 hS hF n nR hn hpos X b ch]
  rfl

/-- The reshaped mean, read at `(b, 0, ch)`. -/
theorem mean_chain (X : FVec Ideal ⟨4, ![B, H, W, C]⟩ .f32) (b : Fin B) (ch : Fin C) :
    @Eq EReal (shapeCast ⟨3, ![B, 1, C]⟩ (meanT hr hu h03 hS n X) hc (ix3 b 0 ch)) (Cert.Spec.mean nR (flat X) b ch) := by
  rw [stat_cast, meanT_apply hr hu h03 hS n nR hn X b ch]

end Chains

end Cert.KernelIdeal.HostVal

end
-- ==== Proof.Consts.lean ====
/-
  The float constants both programs spell, as the extended reals their patterns denote.  The variance's epsilon is
  the float nearest 1e-5, `10995116 · 2⁻⁴⁰`; the norm's floor is the float nearest 1e-12, `9223372 · 2⁻⁶³`; the
  others are powers of two.
-/
import Idealize.ShloMosaic.PureOps.Ideal
import proofs.«170986_j45183055954173_2_alg».proof.Proof.Spec

noncomputable section

namespace Cert.Consts

open Idealize.ShloMosaic

/-- The variance's epsilon. -/
def epsR : ℝ := 10995116 * (2 : ℝ) ^ (-40 : ℤ)
/-- The floor under the euclidean norm (and the epsilon of the weighted deviation). -/
def e12R : ℝ := 9223372 * (2 : ℝ) ^ (-63 : ℤ)

theorem epsR_pos : 0 < epsR := by unfold epsR; positivity
theorem e12R_pos : 0 < e12R := by unfold e12R; positivity

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_4096 : Ideal.ofBits .f32 0x45800000#32 = ((4096 : ℝ) : EReal) := by
  simp [Ideal.ofBits, Ideal.ieee, -EReal.coe_mul]; norm_num
theorem ofBits_524288 : Ideal.ofBits .f32 0x49000000#32 = ((524288 : ℝ) : EReal) := by
  simp [Ideal.ofBits, Ideal.ieee, -EReal.coe_mul]; norm_num
theorem ofBits_2097152 : Ideal.ofBits .f32 0x4A000000#32 = ((2097152 : ℝ) : EReal) := by
  simp [Ideal.ofBits, Ideal.ieee, -EReal.coe_mul]; norm_num
theorem ofBits_4194304 : Ideal.ofBits .f32 0x4A800000#32 = ((4194304 : ℝ) : EReal) := by
  simp [Ideal.ofBits, Ideal.ieee, -EReal.coe_mul]; norm_num
theorem ofBits_eps : Ideal.ofBits .f32 0x3727C5AC#32 = ((epsR : ℝ) : EReal) := by
  simp [Ideal.ofBits, Ideal.ieee, epsR, -EReal.coe_mul]
theorem ofBits_e12 : Ideal.ofBits .f32 0x2B8CBCCC#32 = ((e12R : ℝ) : EReal) := by
  simp [Ideal.ofBits, Ideal.ieee, e12R, -EReal.coe_mul]
/-- The maximum's initial value. -/
theorem ofBits_ninf : Ideal.ofBits .f32 0xFF800000#32 = ⊥ := by
  simp [Ideal.ofBits, Ideal.ieee]

/-- The constants of the three levels (token counts 4096, 1024, 256; element counts 2²², 2²¹, 2¹⁹). -/
def k2 : Cert.Spec.Consts := ⟨4096, 4096, epsR, e12R, 4194304, 1024⟩
def k3 : Cert.Spec.Consts := ⟨1024, 1024, epsR, e12R, 2097152, 1024⟩
def k4 : Cert.Spec.Consts := ⟨256, 256, epsR, e12R, 524288, 1024⟩

theorem k2_pos : k2.Pos := ⟨by norm_num [k2], by norm_num [k2], epsR_pos, e12R_pos, by norm_num [k2], rfl⟩
theorem k3_pos : k3.Pos := ⟨by norm_num [k3], by norm_num [k3], epsR_pos, e12R_pos, by norm_num [k3], rfl⟩
theorem k4_pos : k4.Pos := ⟨by norm_num [k4], by norm_num [k4], epsR_pos, e12R_pos, by norm_num [k4], rfl⟩

end Cert.Consts

end
-- ==== Proof.KI.HostTail.lean ====
/-
  The host tail of the kernel program on the extended reals: each region's output blocks are added up, divided by 1024
  (every tile's sum stands in all 8 × 128 entries of its block) and by the level's number of elements; the three
  quotients are added.  Read off the last valuation at the result buffer, over whatever the regions left.
-/
import proofs.«170986_j45183055954173_2_alg».proof.Proof.KI.Common
import proofs.«170986_j45183055954173_2_alg».proof.Proof.KI.HostLemmas
import proofs.«170986_j45183055954173_2_alg».proof.Proof.Spec
import proofs.«170986_j45183055954173_2_alg».proof.Proof.Consts
import proofs.«170986_j45183055954173_2_alg».proof.Proof.Arr
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.HostVal

open Idealize.ShloMosaic Idealize.ShloMosaic.TcCoe Idealize.ShloMosaic.ValueIdx Idealize.ShloMosaic.StableHlo
open scoped BigOperators
open Cert.KernelIdeal Cert.KernelIdeal.Gen Cert.Arr

variable (m : (ℓ : Loc nD τ sig) → Buf (Elt Ideal) ℓ) (outs : Gen.Outs (F := Ideal)) (c : Dev nD)

/-- One level's loss as the host computes it from the region's output array `o`: the sum of all entries, divided twice. -/
theorem loss_apply {s : Shape} {axes : List (Fin s.rank)} (hr : s.ReducesTo axes ⟨0, ![]⟩) (hu : 0 < (⟨0, ![]⟩ : Shape).numel)
    (o : FVec Ideal s .f32) (d1 d2 : BitVec 32) (r1 r2 : ℝ) (h1 : Ideal.ofBits .f32 d1 = (r1 : EReal)) (h2 : Ideal.ofBits .f32 d2 = (r2 : EReal)) :
    @Eq EReal (Host.divf (Host.divf (Host.reduceAdd o (constant (F := Ideal) ⟨0, ![]⟩ .f32 0x00000000#32) hr hu)
        (constant (F := Ideal) ⟨0, ![]⟩ .f32 d1)) (constant (F := Ideal) ⟨0, ![]⟩ .f32 d2) ix0)
      (Ideal.div (Ideal.div (∑ j, o j) (r1 : EReal)) (r2 : EReal)) := by
  rw [hostDivf_apply, hostDivf_apply, hostReduceAdd_apply, Ideal.hostReduceAdd_total hr (fun b => b.elim0), constant_apply, constant_apply,
    constant_apply, h1, h2, Cert.Consts.ofBits_zero, zero_add]

/-- What region 0 left in its output array is what the first stretch after it reads. -/
theorem out0_at : Gen.V6 m outs c (Proc.devRef .tc main_v27) = outs 6 main_v27 c := Function.update_self ..
theorem out1_at : Gen.V12 m outs c (Proc.devRef .tc main_v58) = outs 12 main_v58 c := Function.update_self ..
theorem out2_at : Gen.V18 m outs c (Proc.devRef .tc main_v89) = outs 18 main_v89 c := Function.update_self ..

/-- The first level's loss, computed by the stretch after region 0. -/
theorem loss0 : @Eq EReal ((Gen.V7 m outs c main_v30 : S_.Idx → EReal) ix0)
    (Ideal.div (Ideal.div (∑ j, (outs 6 main_v27 c : S2x8x8x128.Idx → EReal) j) ((1024 : ℝ) : EReal)) ((4194304 : ℝ) : EReal)) := by
  show (StableHlo.after Gen.hostOps1 (Gen.V6 m outs c) (Proc.devRef .tc main_v30) : S_.Idx → EReal) ix0 = _
  after_results_simp
  rw [out0_at m outs c]
  exact loss_apply Gen.reducesTo_S2x8x8x128_S_d0_1_2_3 Gen.h_S_ (outs 6 main_v27 c : S2x8x8x128.Idx → EReal) 0x44800000#32 0x4A800000#32 1024 4194304
    Cert.Consts.ofBits_1024 Cert.Consts.ofBits_4194304

/-- The second level's loss, computed by the stretch after region 1. -/
theorem loss1 : @Eq EReal ((Gen.V13 m outs c main_v61 : S_.Idx → EReal) ix0)
    (Ideal.div (Ideal.div (∑ j, (outs 12 main_v58 c : S2x2x8x128.Idx → EReal) j) ((1024 : ℝ) : EReal)) ((2097152 : ℝ) : EReal)) := by
  show (StableHlo.after Gen.hostOps2 (Gen.V12 m outs c) (Proc.devRef .tc main_v61) : S_.Idx → EReal) ix0 = _
  after_results_simp
  rw [out1_at m outs c]
  exact loss_apply Gen.reducesTo_S2x2x8x128_S_d0_1_2_3 Gen.h_S_ (outs 12 main_v58 c : S2x2x8x128.Idx → EReal) 0x44800000#32 0x4A000000#32 1024 2097152
    Cert.Consts.ofBits_1024 Cert.Consts.ofBits_2097152

/-- The first loss is still in its buffer when the tail reads it. -/
theorem keep0 : Gen.V18 m outs c (Proc.devRef .tc main_v30) = Gen.V7 m outs c (Proc.devRef .tc main_v30) :=
  ((Gen.V18_of m outs c main_v30 (by decide)).trans ((Gen.V17_of m outs c main_v30 (by decide)).trans ((Gen.V16_of m outs c main_v30 (by decide)).trans ((Gen.V15_of m outs c main_v30 (by decide)).trans ((Gen.V14_of m outs c main_v30 (by decide)).trans ((Gen.V13_of m outs c main_v30 (by decide)).trans ((Gen.V12_of m outs c main_v30 (by decide)).trans ((Gen.V11_of m outs c main_v30 (by decide)).trans ((Gen.V10_of m outs c main_v30 (by decide)).trans ((Gen.V9_of m outs c main_v30 (by decide)).trans (Gen.V8_of m outs c main_v30 (by decide))))))))))))

/-- So is the second. -/
theorem keep1 : Gen.V18 m outs c (Proc.devRef .tc main_v61) = Gen.V13 m outs c (Proc.devRef .tc main_v61) :=
  ((Gen.V18_of m outs c main_v61 (by decide)).trans ((Gen.V17_of m outs c main_v61 (by decide)).trans ((Gen.V16_of m outs c main_v61 (by decide)).trans ((Gen.V15_of m outs c main_v61 (by decide)).trans (Gen.V14_of m outs c main_v61 (by decide))))))

/-- THE TAIL: the program's result is the sum of the three levels' losses. -/
theorem tail : @Eq EReal ((Gen.V19 m outs c main_v94 : S_.Idx → EReal) ix0)
    ((Ideal.div (Ideal.div (∑ j, (outs 6 main_v27 c : S2x8x8x128.Idx → EReal) j) ((1024 : ℝ) : EReal)) ((4194304 : ℝ) : EReal)
        + Ideal.div (Ideal.div (∑ j, (outs 12 main_v58 c : S2x2x8x128.Idx → EReal) j) ((1024 : ℝ) : EReal)) ((2097152 : ℝ) : EReal))
      + Ideal.div (Ideal.div (∑ j, (outs 18 main_v89 c : S2x1x8x128.Idx → EReal) j) ((1024 : ℝ) : EReal)) ((524288 : ℝ) : EReal)) := by
  show (StableHlo.after Gen.hostOps3 (Gen.V18 m outs c) (Proc.devRef .tc main_v94) : S_.Idx → EReal) ix0 = _
  after_results_simp
  rw [out2_at m outs c, keep0 m outs c, keep1 m outs c, addf_apply, addf_apply]
  refine congrArg₂ (· + ·) (congrArg₂ (· + ·) (loss0 m outs c) (loss1 m outs c)) ?_
  exact loss_apply Gen.reducesTo_S2x1x8x128_S_d0_1_2_3 Gen.h_S_ (outs 18 main_v89 c : S2x1x8x128.Idx → EReal) 0x44800000#32 0x49000000#32 1024 524288
    Cert.Consts.ofBits_1024 Cert.Consts.ofBits_524288

end Cert.KernelIdeal.HostVal

end
-- ==== Proof.KI.Value.lean ====
/-
  The kernel program's result on the extended reals, from the three regions' output sums.  The host adds up each
  region's output array, divides by 1024 (every tile's sum stands in all 8 × 128 entries of its block) and by the
  level's number of elements, and adds the three quotients; when each array's entries add up to the level's tile sums
  repeated 8 × 128 times, each quotient is the level's loss `Spec.lossK`.
-/
import proofs.«170986_j45183055954173_2_alg».proof.Proof.KI.Main
import proofs.«170986_j45183055954173_2_alg».proof.Proof.KI.HostTail
import proofs.«170986_j45183055954173_2_alg».proof.Proof.Spec
import proofs.«170986_j45183055954173_2_alg».proof.Proof.Consts
import proofs.«170986_j45183055954173_2_alg».proof.Proof.Arr

set_option maxRecDepth 16384

noncomputable section

namespace Cert.KernelIdeal.Hand

open Idealize.ShloMosaic Idealize.ShloMosaic.TcCoe Idealize.ShloMosaic.ValueIdx
open scoped BigOperators
open Cert.KernelIdeal Cert.KernelIdeal.Gen

/-- A level's loss from the sum of its region's output array: the sum of the tile sums, each repeated 8 × 128 times,
    divided by 1024 and by the number of elements. -/
theorem lossK_of_sum (nb bb nq tq nk tk : ℕ) {C : ℕ} (k : Cert.Spec.Consts) (n : ℝ) (hk : k.k1024 = 1024) (hn : k.nTot = n)
    (cs c : Fin (nb * bb) → Fin (nq * tq) → Fin C → EReal) (s : Fin (nb * bb) → Fin (nk * tk) → Fin C → EReal) (S : EReal)
    (h : S = ∑ bi : Fin nb, ∑ qi : Fin nq, ∑ _i : Fin 8, ∑ _j : Fin 128, Cert.Spec.tileK nb bb nq tq nk tk k cs c s bi qi) :
    Ideal.div (Ideal.div S ((1024 : ℝ) : EReal)) ((n : ℝ) : EReal) = Cert.Spec.lossK nb bb nq tq nk tk k cs c s := by
  subst h
  unfold Cert.Spec.lossK
  rw [hk, hn]

/-- THE KERNEL'S VALUE: given the three regions' output sums, the program's result is the sum of the three levels'
    losses as the kernel forms them. -/
theorem kernel_value_of (m : (ℓ : Loc nD τ sig) → Buf (Elt Ideal) ℓ) (c : Dev nD)
    (h0 : @Eq EReal (∑ j, (out0 m c : S2x8x8x128.Idx → EReal) j)
      (∑ bi : Fin 2, ∑ qi : Fin 8, ∑ _i : Fin 8, ∑ _j : Fin 128,
        Cert.Spec.tileK 2 2 8 512 4 1024 Cert.Consts.k2
          (Cert.Arr.flat (B := 4) (H := 64) (W := 64) (C := 256) (m ((c : Thread nD τ).loc main_arg0) : S4x64x64x256.Idx → EReal))
          (Cert.Arr.flat (B := 4) (H := 64) (W := 64) (C := 256) (m ((c : Thread nD τ).loc main_arg3) : S4x64x64x256.Idx → EReal))
          (Cert.Arr.flat (B := 4) (H := 64) (W := 64) (C := 256) (m ((c : Thread nD τ).loc main_arg6) : S4x64x64x256.Idx → EReal)) bi qi))
    (h1 : @Eq EReal (∑ j, (out1 m c : S2x2x8x128.Idx → EReal) j)
      (∑ bi : Fin 2, ∑ qi : Fin 2, ∑ _i : Fin 8, ∑ _j : Fin 128,
        Cert.Spec.tileK 2 2 2 512 2 512 Cert.Consts.k3
          (Cert.Arr.flat (B := 4) (H := 32) (W := 32) (C := 512) (m ((c : Thread nD τ).loc main_arg1) : S4x32x32x512.Idx → EReal))
          (Cert.Arr.flat (B := 4) (H := 32) (W := 32) (C := 512) (m ((c : Thread nD τ).loc main_arg4) : S4x32x32x512.Idx → EReal))
          (Cert.Arr.flat (B := 4) (H := 32) (W := 32) (C := 512) (m ((c : Thread nD τ).loc main_arg7) : S4x32x32x512.Idx → EReal)) bi qi))
    (h2 : @Eq EReal (∑ j, (out2 m c : S2x1x8x128.Idx → EReal) j)
      (∑ bi : Fin 2, ∑ qi : Fin 1, ∑ _i : Fin 8, ∑ _j : Fin 128,
        Cert.Spec.tileK 2 2 1 256 1 256 Cert.Consts.k4
          (Cert.Arr.flat (B := 4) (H := 16) (W := 16) (C := 512) (m ((c : Thread nD τ).loc main_arg2) : S4x16x16x512.Idx → EReal))
          (Cert.Arr.flat (B := 4) (H := 16) (W := 16) (C := 512) (m ((c : Thread nD τ).loc main_arg5) : S4x16x16x512.Idx → EReal))
          (Cert.Arr.flat (B := 4) (H := 16) (W := 16) (C := 512) (m ((c : Thread nD τ).loc main_arg8) : S4x16x16x512.Idx → EReal)) bi qi)) :
    Gen.V19 m (outs m) c main_v94 = fun _ =>
      (Cert.Spec.lossK 2 2 8 512 4 1024 Cert.Consts.k2
          (Cert.Arr.flat (B := 4) (H := 64) (W := 64) (C := 256) (m ((c : Thread nD τ).loc main_arg0) : S4x64x64x256.Idx → EReal))
          (Cert.Arr.flat (B := 4) (H := 64) (W := 64) (C := 256) (m ((c : Thread nD τ).loc main_arg3) : S4x64x64x256.Idx → EReal))
          (Cert.Arr.flat (B := 4) (H := 64) (W := 64) (C := 256) (m ((c : Thread nD τ).loc main_arg6) : S4x64x64x256.Idx → EReal))
        + Cert.Spec.lossK 2 2 2 512 2 512 Cert.Consts.k3
          (Cert.Arr.flat (B := 4) (H := 32) (W := 32) (C := 512) (m ((c : Thread nD τ).loc main_arg1) : S4x32x32x512.Idx → EReal))
          (Cert.Arr.flat (B := 4) (H := 32) (W := 32) (C := 512) (m ((c : Thread nD τ).loc main_arg4) : S4x32x32x512.Idx → EReal))
          (Cert.Arr.flat (B := 4) (H := 32) (W := 32) (C := 512) (m ((c : Thread nD τ).loc main_arg7) : S4x32x32x512.Idx → EReal)))
        + Cert.Spec.lossK 2 2 1 256 1 256 Cert.Consts.k4
          (Cert.Arr.flat (B := 4) (H := 16) (W := 16) (C := 512) (m ((c : Thread nD τ).loc main_arg2) : S4x16x16x512.Idx → EReal))
          (Cert.Arr.flat (B := 4) (H := 16) (W := 16) (C := 512) (m ((c : Thread nD τ).loc main_arg5) : S4x16x16x512.Idx → EReal))
          (Cert.Arr.flat (B := 4) (H := 16) (W := 16) (C := 512) (m ((c : Thread nD τ).loc main_arg8) : S4x16x16x512.Idx → EReal)) := by
  funext i
  obtain rfl : i = ix0 := eq_ix0 i
  refine (Cert.KernelIdeal.HostVal.tail m (outs m) c).trans ?_
  rw [outs_v27, outs_v58, outs_v89]
  exact congrArg₂ (· + ·)
    (congrArg₂ (· + ·)
      (lossK_of_sum 2 2 8 512 4 1024 Cert.Consts.k2 4194304 rfl rfl _ _ _ _ h0)
      (lossK_of_sum 2 2 2 512 2 512 Cert.Consts.k3 2097152 rfl rfl _ _ _ _ h1))
    (lossK_of_sum 2 2 1 256 1 256 Cert.Consts.k4 524288 rfl rfl _ _ _ _ h2)

end Cert.KernelIdeal.Hand

end
-- ==== Proof.KI.Host0.lean ====
/-
  What region 0 of the kernel program finds in its operands' arrays, on the extended reals: the three argument arrays of
  the level with the two spatial axes flattened, and the mean and the reciprocal deviation over the tokens of the content
  and of the style array, as the host operations before the region compute them from the launch contents.
-/
import proofs.«170986_j45183055954173_2_alg».proof.Proof.KI.Common
import proofs.«170986_j45183055954173_2_alg».proof.Proof.KI.HostLemmas
import proofs.«170986_j45183055954173_2_alg».proof.Proof.Spec
import proofs.«170986_j45183055954173_2_alg».proof.Proof.Consts
import proofs.«170986_j45183055954173_2_alg».proof.Proof.Arr
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.HostVal

open Idealize.ShloMosaic Idealize.ShloMosaic.TcCoe Idealize.ShloMosaic.ValueIdx Idealize.ShloMosaic.StableHlo
open scoped BigOperators
open Cert.KernelIdeal Cert.KernelIdeal.Gen Cert.Arr

variable (m : (ℓ : Loc nD τ sig) → Buf (Elt Ideal) ℓ) (c : Dev nD)

/-- The level's `c` operand as the region finds it: the argument array, the spatial axes flattened. -/
theorem entry0_c (b : Fin 4) (t : Fin 4096) (ch : Fin 256) :
    @Eq EReal ((Gen.V5 m c main_v24 : S4x4096x256.Idx → EReal) (ix3 b t ch)) (flat (m ((c : Thread nD τ).loc main_arg3) : S4x64x64x256.Idx → EReal) b t ch) := by
  show (StableHlo.after Gen.hostOps0_4 (Gen.V4 m c) (Proc.devRef .tc main_v24) : S4x4096x256.Idx → EReal) (ix3 b t ch) = _
  after_results_simp
  exact flat_cast (B := 4) (H := 64) (W := 64) (C := 256) Gen.shapeCasts_S4x64x64x256_S4x4096x256 (m ((c : Thread nD τ).loc main_arg3) : S4x64x64x256.Idx → EReal) b t ch

/-- The level's `s` operand as the region finds it: the argument array, the spatial axes flattened. -/
theorem entry0_s (b : Fin 4) (t : Fin 4096) (ch : Fin 256) :
    @Eq EReal ((Gen.V5 m c main_v25 : S4x4096x256.Idx → EReal) (ix3 b t ch)) (flat (m ((c : Thread nD τ).loc main_arg6) : S4x64x64x256.Idx → EReal) b t ch) := by
  show (StableHlo.after Gen.hostOps0_4 (Gen.V4 m c) (Proc.devRef .tc main_v25) : S4x4096x256.Idx → EReal) (ix3 b t ch) = _
  after_results_simp
  exact flat_cast (B := 4) (H := 64) (W := 64) (C := 256) Gen.shapeCasts_S4x64x64x256_S4x4096x256 (m ((c : Thread nD τ).loc main_arg6) : S4x64x64x256.Idx → EReal) b t ch

/-- The level's `cs` operand as the region finds it: the argument array, the spatial axes flattened. -/
theorem entry0_cs (b : Fin 4) (t : Fin 4096) (ch : Fin 256) :
    @Eq EReal ((Gen.V5 m c main_v26 : S4x4096x256.Idx → EReal) (ix3 b t ch)) (flat (m ((c : Thread nD τ).loc main_arg0) : S4x64x64x256.Idx → EReal) b t ch) := by
  show (StableHlo.after Gen.hostOps0_4 (Gen.V4 m c) (Proc.devRef .tc main_v26) : S4x4096x256.Idx → EReal) (ix3 b t ch) = _
  after_results_simp
  exact flat_cast (B := 4) (H := 64) (W := 64) (C := 256) Gen.shapeCasts_S4x64x64x256_S4x4096x256 (m ((c : Thread nD τ).loc main_arg0) : S4x64x64x256.Idx → EReal) b t ch

/-- The mean over the tokens of `main_arg3`, per batch entry and channel, as the region finds it. -/
theorem entry0_mc (b : Fin 4) (ch : Fin 256) :
    @Eq EReal ((Gen.V5 m c main_v20 : S4x1x256.Idx → EReal) (ix3 b 0 ch)) (Cert.Spec.mean 4096 (flat (m ((c : Thread nD τ).loc main_arg3) : S4x64x64x256.Idx → EReal)) b ch) := by
  show (StableHlo.after Gen.hostOps0_4 (Gen.V4 m c) (Proc.devRef .tc main_v20) : S4x1x256.Idx → EReal) (ix3 b 0 ch) = _
  after_results_simp
  exact mean_chain (B := 4) (H := 64) (W := 64) (C := 256) Gen.reducesTo_S4x64x64x256_S4x256_d1_2 Gen.h_S_ Gen.bcast_S4x256_S4x1x1x256_0_3 Gen.bcast_S_S4x1x1x256 Gen.shapeCasts_S4x1x1x256_S4x1x256 0x45800000#32 4096 Cert.Consts.ofBits_4096 (m ((c : Thread nD τ).loc main_arg3) : S4x64x64x256.Idx → EReal) b ch

/-- The mean over the tokens of `main_arg6`, per batch entry and channel, as the region finds it. -/
theorem entry0_ms (b : Fin 4) (ch : Fin 256) :
    @Eq EReal ((Gen.V5 m c main_v22 : S4x1x256.Idx → EReal) (ix3 b 0 ch)) (Cert.Spec.mean 4096 (flat (m ((c : Thread nD τ).loc main_arg6) : S4x64x64x256.Idx → EReal)) b ch) := by
  show (StableHlo.after Gen.hostOps0_4 (Gen.V4 m c) (Proc.devRef .tc main_v22) : S4x1x256.Idx → EReal) (ix3 b 0 ch) = _
  after_results_simp
  exact mean_chain (B := 4) (H := 64) (W := 64) (C := 256) Gen.reducesTo_S4x64x64x256_S4x256_d1_2 Gen.h_S_ Gen.bcast_S4x256_S4x1x1x256_0_3 Gen.bcast_S_S4x1x1x256 Gen.shapeCasts_S4x1x1x256_S4x1x256 0x45800000#32 4096 Cert.Consts.ofBits_4096 (m ((c : Thread nD τ).loc main_arg6) : S4x64x64x256.Idx → EReal) b ch

/-- The reciprocal of the deviation over the tokens of `main_arg3`, per batch entry and channel, as the region finds it. -/
theorem entry0_rc (b : Fin 4) (ch : Fin 256) :
    @Eq EReal ((Gen.V5 m c main_v21 : S4x1x256.Idx → EReal) (ix3 b 0 ch))
      (Ideal.div 1 (Cert.Spec.sd Cert.Consts.epsR 4096 (flat (m ((c : Thread nD τ).loc main_arg3) : S4x64x64x256.Idx → EReal)) b ch)) := by
  show (StableHlo.after Gen.hostOps0_4 (Gen.V4 m c) (Proc.devRef .tc main_v21) : S4x1x256.Idx → EReal) (ix3 b 0 ch) = _
  after_results_simp
  simp only [TRef.toBuf, TRef.ofBuf, cast_eq]
  exact rstd_chain (B := 4) (H := 64) (W := 64) (C := 256) Gen.reducesTo_S4x64x64x256_S4x256_d1_2 Gen.h_S_ Gen.bcast_S4x256_S4x1x1x256_0_3 Gen.bcast_S_S4x1x1x256 Gen.bcast_S4x1x1x256_S4x64x64x256_0_1_2_3 Gen.shapeCasts_S4x1x1x256_S4x1x256 0x45800000#32 4096 Cert.Consts.ofBits_4096 (by norm_num) 0x3727C5AC#32 Cert.Consts.epsR Cert.Consts.ofBits_eps (m ((c : Thread nD τ).loc main_arg3) : S4x64x64x256.Idx → EReal) b ch

/-- The reciprocal of the deviation over the tokens of `main_arg6`, per batch entry and channel, as the region finds it. -/
theorem entry0_rs (b : Fin 4) (ch : Fin 256) :
    @Eq EReal ((Gen.V5 m c main_v23 : S4x1x256.Idx → EReal) (ix3 b 0 ch))
      (Ideal.div 1 (Cert.Spec.sd Cert.Consts.epsR 4096 (flat (m ((c : Thread nD τ).loc main_arg6) : S4x64x64x256.Idx → EReal)) b ch)) := by
  show (StableHlo.after Gen.hostOps0_4 (Gen.V4 m c) (Proc.devRef .tc main_v23) : S4x1x256.Idx → EReal) (ix3 b 0 ch) = _
  after_results_simp
  simp only [TRef.toBuf, TRef.ofBuf, cast_eq]
  exact rstd_chain (B := 4) (H := 64) (W := 64) (C := 256) Gen.reducesTo_S4x64x64x256_S4x256_d1_2 Gen.h_S_ Gen.bcast_S4x256_S4x1x1x256_0_3 Gen.bcast_S_S4x1x1x256 Gen.bcast_S4x1x1x256_S4x64x64x256_0_1_2_3 Gen.shapeCasts_S4x1x1x256_S4x1x256 0x45800000#32 4096 Cert.Consts.ofBits_4096 (by norm_num) 0x3727C5AC#32 Cert.Consts.epsR Cert.Consts.ofBits_eps (m ((c : Thread nD τ).loc main_arg6) : S4x64x64x256.Idx → EReal) b ch

end Cert.KernelIdeal.HostVal

end
-- ==== Proof.KI.Host1.lean ====
/-
  What region 1 of the kernel program finds in its operands' arrays, on the extended reals: the three argument arrays of
  the level with the two spatial axes flattened, and the mean and the reciprocal deviation over the tokens of the content
  and of the style array, as the host operations before the region compute them from the launch contents.
-/
import proofs.«170986_j45183055954173_2_alg».proof.Proof.KI.Common
import proofs.«170986_j45183055954173_2_alg».proof.Proof.KI.HostLemmas
import proofs.«170986_j45183055954173_2_alg».proof.Proof.Spec
import proofs.«170986_j45183055954173_2_alg».proof.Proof.Consts
import proofs.«170986_j45183055954173_2_alg».proof.Proof.Arr
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.HostVal

open Idealize.ShloMosaic Idealize.ShloMosaic.TcCoe Idealize.ShloMosaic.ValueIdx Idealize.ShloMosaic.StableHlo
open scoped BigOperators
open Cert.KernelIdeal Cert.KernelIdeal.Gen Cert.Arr

variable (m : (ℓ : Loc nD τ sig) → Buf (Elt Ideal) ℓ) (outs : Gen.Outs (F := Ideal)) (c : Dev nD)

theorem leaf1_main_arg4 : Gen.V6 m outs c (Proc.devRef .tc main_arg4) = m ((c : Thread nD τ).loc main_arg4) :=
  ((Gen.V6_of m outs c main_arg4 (by decide)).trans ((Gen.V5_of m c main_arg4 (by decide)).trans ((Gen.V4_of m c main_arg4 (by decide)).trans ((Gen.V3_of m c main_arg4 (by decide)).trans ((Gen.V2_of m c main_arg4 (by decide)).trans (Gen.V1_of m c main_arg4 (by decide)))))))

theorem leaf1_main_arg7 : Gen.V6 m outs c (Proc.devRef .tc main_arg7) = m ((c : Thread nD τ).loc main_arg7) :=
  ((Gen.V6_of m outs c main_arg7 (by decide)).trans ((Gen.V5_of m c main_arg7 (by decide)).trans ((Gen.V4_of m c main_arg7 (by decide)).trans ((Gen.V3_of m c main_arg7 (by decide)).trans ((Gen.V2_of m c main_arg7 (by decide)).trans (Gen.V1_of m c main_arg7 (by decide)))))))

theorem leaf1_main_arg1 : Gen.V6 m outs c (Proc.devRef .tc main_arg1) = m ((c : Thread nD τ).loc main_arg1) :=
  ((Gen.V6_of m outs c main_arg1 (by decide)).trans ((Gen.V5_of m c main_arg1 (by decide)).trans ((Gen.V4_of m c main_arg1 (by decide)).trans ((Gen.V3_of m c main_arg1 (by decide)).trans ((Gen.V2_of m c main_arg1 (by decide)).trans (Gen.V1_of m c main_arg1 (by decide)))))))

/-- The level's `c` operand as the region finds it: the argument array, the spatial axes flattened. -/
theorem entry1_c (b : Fin 4) (t : Fin 1024) (ch : Fin 512) :
    @Eq EReal ((Gen.V11 m outs c main_v55 : S4x1024x512.Idx → EReal) (ix3 b t ch)) (flat (m ((c : Thread nD τ).loc main_arg4) : S4x32x32x512.Idx → EReal) b t ch) := by
  show (StableHlo.after Gen.hostOps1_4 (Gen.V10 m outs c) (Proc.devRef .tc main_v55) : S4x1024x512.Idx → EReal) (ix3 b t ch) = _
  after_results_simp
  rw [leaf1_main_arg4 m outs c]
  exact flat_cast (B := 4) (H := 32) (W := 32) (C := 512) Gen.shapeCasts_S4x32x32x512_S4x1024x512 (m ((c : Thread nD τ).loc main_arg4) : S4x32x32x512.Idx → EReal) b t ch

/-- The level's `s` operand as the region finds it: the argument array, the spatial axes flattened. -/
theorem entry1_s (b : Fin 4) (t : Fin 1024) (ch : Fin 512) :
    @Eq EReal ((Gen.V11 m outs c main_v56 : S4x1024x512.Idx → EReal) (ix3 b t ch)) (flat (m ((c : Thread nD τ).loc main_arg7) : S4x32x32x512.Idx → EReal) b t ch) := by
  show (StableHlo.after Gen.hostOps1_4 (Gen.V10 m outs c) (Proc.devRef .tc main_v56) : S4x1024x512.Idx → EReal) (ix3 b t ch) = _
  after_results_simp
  rw [leaf1_main_arg7 m outs c]
  exact flat_cast (B := 4) (H := 32) (W := 32) (C := 512) Gen.shapeCasts_S4x32x32x512_S4x1024x512 (m ((c : Thread nD τ).loc main_arg7) : S4x32x32x512.Idx → EReal) b t ch

/-- The level's `cs` operand as the region finds it: the argument array, the spatial axes flattened. -/
theorem entry1_cs (b : Fin 4) (t : Fin 1024) (ch : Fin 512) :
    @Eq EReal ((Gen.V11 m outs c main_v57 : S4x1024x512.Idx → EReal) (ix3 b t ch)) (flat (m ((c : Thread nD τ).loc main_arg1) : S4x32x32x512.Idx → EReal) b t ch) := by
  show (StableHlo.after Gen.hostOps1_4 (Gen.V10 m outs c) (Proc.devRef .tc main_v57) : S4x1024x512.Idx → EReal) (ix3 b t ch) = _
  after_results_simp
  rw [leaf1_main_arg1 m outs c]
  exact flat_cast (B := 4) (H := 32) (W := 32) (C := 512) Gen.shapeCasts_S4x32x32x512_S4x1024x512 (m ((c : Thread nD τ).loc main_arg1) : S4x32x32x512.Idx → EReal) b t ch

/-- The mean over the tokens of `main_arg4`, per batch entry and channel, as the region finds it. -/
theorem entry1_mc (b : Fin 4) (ch : Fin 512) :
    @Eq EReal ((Gen.V11 m outs c main_v51 : S4x1x512.Idx → EReal) (ix3 b 0 ch)) (Cert.Spec.mean 1024 (flat (m ((c : Thread nD τ).loc main_arg4) : S4x32x32x512.Idx → EReal)) b ch) := by
  show (StableHlo.after Gen.hostOps1_4 (Gen.V10 m outs c) (Proc.devRef .tc main_v51) : S4x1x512.Idx → EReal) (ix3 b 0 ch) = _
  after_results_simp
  rw [leaf1_main_arg4 m outs c]
  exact mean_chain (B := 4) (H := 32) (W := 32) (C := 512) Gen.reducesTo_S4x32x32x512_S4x512_d1_2 Gen.h_S_ Gen.bcast_S4x512_S4x1x1x512_0_3 Gen.bcast_S_S4x1x1x512 Gen.shapeCasts_S4x1x1x512_S4x1x512 0x44800000#32 1024 Cert.Consts.ofBits_1024 (m ((c : Thread nD τ).loc main_arg4) : S4x32x32x512.Idx → EReal) b ch

/-- The mean over the tokens of `main_arg7`, per batch entry and channel, as the region finds it. -/
theorem entry1_ms (b : Fin 4) (ch : Fin 512) :
    @Eq EReal ((Gen.V11 m outs c main_v53 : S4x1x512.Idx → EReal) (ix3 b 0 ch)) (Cert.Spec.mean 1024 (flat (m ((c : Thread nD τ).loc main_arg7) : S4x32x32x512.Idx → EReal)) b ch) := by
  show (StableHlo.after Gen.hostOps1_4 (Gen.V10 m outs c) (Proc.devRef .tc main_v53) : S4x1x512.Idx → EReal) (ix3 b 0 ch) = _
  after_results_simp
  rw [leaf1_main_arg7 m outs c]
  exact mean_chain (B := 4) (H := 32) (W := 32) (C := 512) Gen.reducesTo_S4x32x32x512_S4x512_d1_2 Gen.h_S_ Gen.bcast_S4x512_S4x1x1x512_0_3 Gen.bcast_S_S4x1x1x512 Gen.shapeCasts_S4x1x1x512_S4x1x512 0x44800000#32 1024 Cert.Consts.ofBits_1024 (m ((c : Thread nD τ).loc main_arg7) : S4x32x32x512.Idx → EReal) b ch

/-- The reciprocal of the deviation over the tokens of `main_arg4`, per batch entry and channel, as the region finds it. -/
theorem entry1_rc (b : Fin 4) (ch : Fin 512) :
    @Eq EReal ((Gen.V11 m outs c main_v52 : S4x1x512.Idx → EReal) (ix3 b 0 ch))
      (Ideal.div 1 (Cert.Spec.sd Cert.Consts.epsR 1024 (flat (m ((c : Thread nD τ).loc main_arg4) : S4x32x32x512.Idx → EReal)) b ch)) := by
  show (StableHlo.after Gen.hostOps1_4 (Gen.V10 m outs c) (Proc.devRef .tc main_v52) : S4x1x512.Idx → EReal) (ix3 b 0 ch) = _
  after_results_simp
  simp only [TRef.toBuf, TRef.ofBuf, cast_eq]
  rw [leaf1_main_arg4 m outs c]
  exact rstd_chain (B := 4) (H := 32) (W := 32) (C := 512) Gen.reducesTo_S4x32x32x512_S4x512_d1_2 Gen.h_S_ Gen.bcast_S4x512_S4x1x1x512_0_3 Gen.bcast_S_S4x1x1x512 Gen.bcast_S4x1x1x512_S4x32x32x512_0_1_2_3 Gen.shapeCasts_S4x1x1x512_S4x1x512 0x44800000#32 1024 Cert.Consts.ofBits_1024 (by norm_num) 0x3727C5AC#32 Cert.Consts.epsR Cert.Consts.ofBits_eps (m ((c : Thread nD τ).loc main_arg4) : S4x32x32x512.Idx → EReal) b ch

/-- The reciprocal of the deviation over the tokens of `main_arg7`, per batch entry and channel, as the region finds it. -/
theorem entry1_rs (b : Fin 4) (ch : Fin 512) :
    @Eq EReal ((Gen.V11 m outs c main_v54 : S4x1x512.Idx → EReal) (ix3 b 0 ch))
      (Ideal.div 1 (Cert.Spec.sd Cert.Consts.epsR 1024 (flat (m ((c : Thread nD τ).loc main_arg7) : S4x32x32x512.Idx → EReal)) b ch)) := by
  show (StableHlo.after Gen.hostOps1_4 (Gen.V10 m outs c) (Proc.devRef .tc main_v54) : S4x1x512.Idx → EReal) (ix3 b 0 ch) = _
  after_results_simp
  simp only [TRef.toBuf, TRef.ofBuf, cast_eq]
  rw [leaf1_main_arg7 m outs c]
  exact rstd_chain (B := 4) (H := 32) (W := 32) (C := 512) Gen.reducesTo_S4x32x32x512_S4x512_d1_2 Gen.h_S_ Gen.bcast_S4x512_S4x1x1x512_0_3 Gen.bcast_S_S4x1x1x512 Gen.bcast_S4x1x1x512_S4x32x32x512_0_1_2_3 Gen.shapeCasts_S4x1x1x512_S4x1x512 0x44800000#32 1024 Cert.Consts.ofBits_1024 (by norm_num) 0x3727C5AC#32 Cert.Consts.epsR Cert.Consts.ofBits_eps (m ((c : Thread nD τ).loc main_arg7) : S4x32x32x512.Idx → EReal) b ch

end Cert.KernelIdeal.HostVal

end
-- ==== Proof.KI.Host2.lean ====
/-
  What region 2 of the kernel program finds in its operands' arrays, on the extended reals: the three argument arrays of
  the level with the two spatial axes flattened, and the mean and the reciprocal deviation over the tokens of the content
  and of the style array, as the host operations before the region compute them from the launch contents.
-/
import proofs.«170986_j45183055954173_2_alg».proof.Proof.KI.Common
import proofs.«170986_j45183055954173_2_alg».proof.Proof.KI.HostLemmas
import proofs.«170986_j45183055954173_2_alg».proof.Proof.Spec
import proofs.«170986_j45183055954173_2_alg».proof.Proof.Consts
import proofs.«170986_j45183055954173_2_alg».proof.Proof.Arr
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.HostVal

open Idealize.ShloMosaic Idealize.ShloMosaic.TcCoe Idealize.ShloMosaic.ValueIdx Idealize.ShloMosaic.StableHlo
open scoped BigOperators
open Cert.KernelIdeal Cert.KernelIdeal.Gen Cert.Arr

variable (m : (ℓ : Loc nD τ sig) → Buf (Elt Ideal) ℓ) (outs : Gen.Outs (F := Ideal)) (c : Dev nD)

theorem leaf2_main_arg5 : Gen.V12 m outs c (Proc.devRef .tc main_arg5) = m ((c : Thread nD τ).loc main_arg5) :=
  ((Gen.V12_of m outs c main_arg5 (by decide)).trans ((Gen.V11_of m outs c main_arg5 (by decide)).trans ((Gen.V10_of m outs c main_arg5 (by decide)).trans ((Gen.V9_of m outs c main_arg5 (by decide)).trans ((Gen.V8_of m outs c main_arg5 (by decide)).trans ((Gen.V7_of m outs c main_arg5 (by decide)).trans ((Gen.V6_of m outs c main_arg5 (by decide)).trans ((Gen.V5_of m c main_arg5 (by decide)).trans ((Gen.V4_of m c main_arg5 (by decide)).trans ((Gen.V3_of m c main_arg5 (by decide)).trans ((Gen.V2_of m c main_arg5 (by decide)).trans (Gen.V1_of m c main_arg5 (by decide)))))))))))))

theorem leaf2_main_arg8 : Gen.V12 m outs c (Proc.devRef .tc main_arg8) = m ((c : Thread nD τ).loc main_arg8) :=
  ((Gen.V12_of m outs c main_arg8 (by decide)).trans ((Gen.V11_of m outs c main_arg8 (by decide)).trans ((Gen.V10_of m outs c main_arg8 (by decide)).trans ((Gen.V9_of m outs c main_arg8 (by decide)).trans ((Gen.V8_of m outs c main_arg8 (by decide)).trans ((Gen.V7_of m outs c main_arg8 (by decide)).trans ((Gen.V6_of m outs c main_arg8 (by decide)).trans ((Gen.V5_of m c main_arg8 (by decide)).trans ((Gen.V4_of m c main_arg8 (by decide)).trans ((Gen.V3_of m c main_arg8 (by decide)).trans ((Gen.V2_of m c main_arg8 (by decide)).trans (Gen.V1_of m c main_arg8 (by decide)))))))))))))

theorem leaf2_main_arg2 : Gen.V12 m outs c (Proc.devRef .tc main_arg2) = m ((c : Thread nD τ).loc main_arg2) :=
  ((Gen.V12_of m outs c main_arg2 (by decide)).trans ((Gen.V11_of m outs c main_arg2 (by decide)).trans ((Gen.V10_of m outs c main_arg2 (by decide)).trans ((Gen.V9_of m outs c main_arg2 (by decide)).trans ((Gen.V8_of m outs c main_arg2 (by decide)).trans ((Gen.V7_of m outs c main_arg2 (by decide)).trans ((Gen.V6_of m outs c main_arg2 (by decide)).trans ((Gen.V5_of m c main_arg2 (by decide)).trans ((Gen.V4_of m c main_arg2 (by decide)).trans ((Gen.V3_of m c main_arg2 (by decide)).trans ((Gen.V2_of m c main_arg2 (by decide)).trans (Gen.V1_of m c main_arg2 (by decide)))))))))))))

/-- The level's `c` operand as the region finds it: the argument array, the spatial axes flattened. -/
theorem entry2_c (b : Fin 4) (t : Fin 256) (ch : Fin 512) :
    @Eq EReal ((Gen.V17 m outs c main_v86 : S4x256x512.Idx → EReal) (ix3 b t ch)) (flat (m ((c : Thread nD τ).loc main_arg5) : S4x16x16x512.Idx → EReal) b t ch) := by
  show (StableHlo.after Gen.hostOps2_4 (Gen.V16 m outs c) (Proc.devRef .tc main_v86) : S4x256x512.Idx → EReal) (ix3 b t ch) = _
  after_results_simp
  rw [leaf2_main_arg5 m outs c]
  exact flat_cast (B := 4) (H := 16) (W := 16) (C := 512) Gen.shapeCasts_S4x16x16x512_S4x256x512 (m ((c : Thread nD τ).loc main_arg5) : S4x16x16x512.Idx → EReal) b t ch

/-- The level's `s` operand as the region finds it: the argument array, the spatial axes flattened. -/
theorem entry2_s (b : Fin 4) (t : Fin 256) (ch : Fin 512) :
    @Eq EReal ((Gen.V17 m outs c main_v87 : S4x256x512.Idx → EReal) (ix3 b t ch)) (flat (m ((c : Thread nD τ).loc main_arg8) : S4x16x16x512.Idx → EReal) b t ch) := by
  show (StableHlo.after Gen.hostOps2_4 (Gen.V16 m outs c) (Proc.devRef .tc main_v87) : S4x256x512.Idx → EReal) (ix3 b t ch) = _
  after_results_simp
  rw [leaf2_main_arg8 m outs c]
  exact flat_cast (B := 4) (H := 16) (W := 16) (C := 512) Gen.shapeCasts_S4x16x16x512_S4x256x512 (m ((c : Thread nD τ).loc main_arg8) : S4x16x16x512.Idx → EReal) b t ch

/-- The level's `cs` operand as the region finds it: the argument array, the spatial axes flattened. -/
theorem entry2_cs (b : Fin 4) (t : Fin 256) (ch : Fin 512) :
    @Eq EReal ((Gen.V17 m outs c main_v88 : S4x256x512.Idx → EReal) (ix3 b t ch)) (flat (m ((c : Thread nD τ).loc main_arg2) : S4x16x16x512.Idx → EReal) b t ch) := by
  show (StableHlo.after Gen.hostOps2_4 (Gen.V16 m outs c) (Proc.devRef .tc main_v88) : S4x256x512.Idx → EReal) (ix3 b t ch) = _
  after_results_simp
  rw [leaf2_main_arg2 m outs c]
  exact flat_cast (B := 4) (H := 16) (W := 16) (C := 512) Gen.shapeCasts_S4x16x16x512_S4x256x512 (m ((c : Thread nD τ).loc main_arg2) : S4x16x16x512.Idx → EReal) b t ch

/-- The mean over the tokens of `main_arg5`, per batch entry and channel, as the region finds it. -/
theorem entry2_mc (b : Fin 4) (ch : Fin 512) :
    @Eq EReal ((Gen.V17 m outs c main_v82 : S4x1x512.Idx → EReal) (ix3 b 0 ch)) (Cert.Spec.mean 256 (flat (m ((c : Thread nD τ).loc main_arg5) : S4x16x16x512.Idx → EReal)) b ch) := by
  show (StableHlo.after Gen.hostOps2_4 (Gen.V16 m outs c) (Proc.devRef .tc main_v82) : S4x1x512.Idx → EReal) (ix3 b 0 ch) = _
  after_results_simp
  rw [leaf2_main_arg5 m outs c]
  exact mean_chain (B := 4) (H := 16) (W := 16) (C := 512) Gen.reducesTo_S4x16x16x512_S4x512_d1_2 Gen.h_S_ Gen.bcast_S4x512_S4x1x1x512_0_3 Gen.bcast_S_S4x1x1x512 Gen.shapeCasts_S4x1x1x512_S4x1x512 0x43800000#32 256 Cert.Consts.ofBits_256 (m ((c : Thread nD τ).loc main_arg5) : S4x16x16x512.Idx → EReal) b ch

/-- The mean over the tokens of `main_arg8`, per batch entry and channel, as the region finds it. -/
theorem entry2_ms (b : Fin 4) (ch : Fin 512) :
    @Eq EReal ((Gen.V17 m outs c main_v84 : S4x1x512.Idx → EReal) (ix3 b 0 ch)) (Cert.Spec.mean 256 (flat (m ((c : Thread nD τ).loc main_arg8) : S4x16x16x512.Idx → EReal)) b ch) := by
  show (StableHlo.after Gen.hostOps2_4 (Gen.V16 m outs c) (Proc.devRef .tc main_v84) : S4x1x512.Idx → EReal) (ix3 b 0 ch) = _
  after_results_simp
  rw [leaf2_main_arg8 m outs c]
  exact mean_chain (B := 4) (H := 16) (W := 16) (C := 512) Gen.reducesTo_S4x16x16x512_S4x512_d1_2 Gen.h_S_ Gen.bcast_S4x512_S4x1x1x512_0_3 Gen.bcast_S_S4x1x1x512 Gen.shapeCasts_S4x1x1x512_S4x1x512 0x43800000#32 256 Cert.Consts.ofBits_256 (m ((c : Thread nD τ).loc main_arg8) : S4x16x16x512.Idx → EReal) b ch

/-- The reciprocal of the deviation over the tokens of `main_arg5`, per batch entry and channel, as the region finds it. -/
theorem entry2_rc (b : Fin 4) (ch : Fin 512) :
    @Eq EReal ((Gen.V17 m outs c main_v83 : S4x1x512.Idx → EReal) (ix3 b 0 ch))
      (Ideal.div 1 (Cert.Spec.sd Cert.Consts.epsR 256 (flat (m ((c : Thread nD τ).loc main_arg5) : S4x16x16x512.Idx → EReal)) b ch)) := by
  show (StableHlo.after Gen.hostOps2_4 (Gen.V16 m outs c) (Proc.devRef .tc main_v83) : S4x1x512.Idx → EReal) (ix3 b 0 ch) = _
  after_results_simp
  simp only [TRef.toBuf, TRef.ofBuf, cast_eq]
  rw [leaf2_main_arg5 m outs c]
  exact rstd_chain (B := 4) (H := 16) (W := 16) (C := 512) Gen.reducesTo_S4x16x16x512_S4x512_d1_2 Gen.h_S_ Gen.bcast_S4x512_S4x1x1x512_0_3 Gen.bcast_S_S4x1x1x512 Gen.bcast_S4x1x1x512_S4x16x16x512_0_1_2_3 Gen.shapeCasts_S4x1x1x512_S4x1x512 0x43800000#32 256 Cert.Consts.ofBits_256 (by norm_num) 0x3727C5AC#32 Cert.Consts.epsR Cert.Consts.ofBits_eps (m ((c : Thread nD τ).loc main_arg5) : S4x16x16x512.Idx → EReal) b ch

/-- The reciprocal of the deviation over the tokens of `main_arg8`, per batch entry and channel, as the region finds it. -/
theorem entry2_rs (b : Fin 4) (ch : Fin 512) :
    @Eq EReal ((Gen.V17 m outs c main_v85 : S4x1x512.Idx → EReal) (ix3 b 0 ch))
      (Ideal.div 1 (Cert.Spec.sd Cert.Consts.epsR 256 (flat (m ((c : Thread nD τ).loc main_arg8) : S4x16x16x512.Idx → EReal)) b ch)) := by
  show (StableHlo.after Gen.hostOps2_4 (Gen.V16 m outs c) (Proc.devRef .tc main_v85) : S4x1x512.Idx → EReal) (ix3 b 0 ch) = _
  after_results_simp
  simp only [TRef.toBuf, TRef.ofBuf, cast_eq]
  rw [leaf2_main_arg8 m outs c]
  exact rstd_chain (B := 4) (H := 16) (W := 16) (C := 512) Gen.reducesTo_S4x16x16x512_S4x512_d1_2 Gen.h_S_ Gen.bcast_S4x512_S4x1x1x512_0_3 Gen.bcast_S_S4x1x1x512 Gen.bcast_S4x1x1x512_S4x16x16x512_0_1_2_3 Gen.shapeCasts_S4x1x1x512_S4x1x512 0x43800000#32 256 Cert.Consts.ofBits_256 (by norm_num) 0x3727C5AC#32 Cert.Consts.epsR Cert.Consts.ofBits_eps (m ((c : Thread nD τ).loc main_arg8) : S4x16x16x512.Idx → EReal) b ch

end Cert.KernelIdeal.HostVal

end
-- ==== Proof.KI.Region0ValPieces.lean ====
/-
  Region 0: what the body leaves in each buffer at each of its three control cases, as values of the point's input blocks
  and of what the point before left in the scratch buffers.  Each is the covering store's payload; a load that follows a
  covering store reads that store's payload.  At a first key step the running sums start from the stored zeros and the
  two caches are filled; at a later step the sums grow by the key block's share against the cached queries; at the last
  step the output block is the tile's value computed from the grown sums, the cached content block and the stylised block.
-/
import proofs.«170986_j45183055954173_2_alg».proof.Proof.KI.Region0
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

theorem hz3_0 : (![0, 0, 0] : Fin 3 → Nat) = fun _ => 0 := funext fun a => by fin_cases a <;> rfl
theorem hz4_0 : (![0, 0, 0, 0] : Fin 4 → Nat) = fun _ => 0 := funext fun a => by fin_cases a <;> rfl

/-- The output block where no case stores into it: a placeholder nothing reads. -/
abbrev o7junk0 : Vec F S1x1x8x128 .f32 := VO0_7.read (Elt F) (VO0_7.writes (Elt F) VO0_7.junk [])

set_option maxHeartbeats 4000000 in
/-- A first key step. -/
theorem outs0_A_eq (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) :
    outs0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6
      = (o7junk0, k0_pay14 x1 x5 x6 (k0_pay11 (k0_pay7 x0 x3 x4) (k0_pay9 x0 x3 x4) k0_pay10) k0_pay4,
          k0_pay1 (k0_pay12 x1) (k0_pay13 x1 x5 x6 (k0_pay11 (k0_pay7 x0 x3 x4) (k0_pay9 x0 x3 x4) k0_pay10)) k0_pay5,
          k0_pay2 (k0_pay12 x1) (k0_pay13 x1 x5 x6 (k0_pay11 (k0_pay7 x0 x3 x4) (k0_pay9 x0 x3 x4) k0_pay10)) k0_pay6,
          k0_pay8 x0 x3 x4, (k0_pay11 (k0_pay7 x0 x3 x4) (k0_pay9 x0 x3 x4) k0_pay10)) := by
  unfold outs0_A
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6),
    View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6),
    View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6),
    View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6),
    View.read_writes_eq_canon _ _ _ (scover0_A_4 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  simp only [View.canon_unit_zero (S := S2x512x1) hz3_0, View.canon_unit_zero (S := S2x512x256) hz3_0, View.canon_unit_zero (S := S1x1x8x128) hz4_0,
    View.canon_cons_unit_zero (S := S2x512x1) hz3_0, View.canon_cons_unit_zero (S := S2x512x256) hz3_0,
    View.readAt_eq_ld, Memref.IsWhole.read_unread, View.ld_unit_zero (S := S2x512x256) hz3_0, View.ld_unit_zero (S := S2x1024x256) hz3_0,
    View.ld_unit_zero (S := S2x1x256) hz3_0, View.ld_unit_zero (S := S2x512x1) hz3_0, View.ld_unit_zero (S := S1x1x8x128) hz4_0,
    View.readCov_unit_zero (S := S2x512x256) _ hz3_0, View.readCov_unit_zero (S := S2x512x1) _ hz3_0]

set_option maxHeartbeats 4000000 in
/-- A middle key step, over what the point before left. -/
theorem outs0_B_eq (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : ¬cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) :
    outs0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4
      = (o7junk0, k0_pay14 x1 x5 x6 xs4 xs0,
          k0_pay1 (k0_pay12 x1) (k0_pay13 x1 x5 x6 xs4) xs1, k0_pay2 (k0_pay12 x1) (k0_pay13 x1 x5 x6 xs4) xs2, xs3, xs4) := by
  unfold outs0_B
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4),
    View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4),
    View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4)]
  unfold kernelRun0_B
  dsimp only
  sl_unfold_words
  simp only [View.canon_unit_zero (S := S2x512x1) hz3_0, View.canon_unit_zero (S := S2x512x256) hz3_0, View.canon_unit_zero (S := S1x1x8x128) hz4_0,
    View.canon_cons_unit_zero (S := S2x512x1) hz3_0, View.canon_cons_unit_zero (S := S2x512x256) hz3_0,
    View.readAt_eq_ld, Memref.IsWhole.read_unread, View.ld_unit_zero (S := S2x512x256) hz3_0, View.ld_unit_zero (S := S2x1024x256) hz3_0,
    View.ld_unit_zero (S := S2x1x256) hz3_0, View.ld_unit_zero (S := S2x512x1) hz3_0, View.ld_unit_zero (S := S1x1x8x128) hz4_0,
    View.readCov_unit_zero (S := S2x512x256) _ hz3_0, View.readCov_unit_zero (S := S2x512x1) _ hz3_0]

set_option maxHeartbeats 4000000 in
/-- The last key step, over what the point before left. -/
theorem outs0_C_eq (c : Dev nD) (i : grid0.Coords) (arg3 : Memref sig .tc .vmem S2x512x256 .f32) (harg3 : arg3.IsWhole) (arg4 : Memref sig .tc .vmem S2x1024x256 .f32) (harg4 : arg4.IsWhole) (arg5 : Memref sig .tc .vmem S2x512x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S2x1x256 .f32) (harg9 : arg9.IsWhole) (arg10 : Memref sig .tc .vmem S1x1x8x128 .f32) (harg10 : arg10.IsWhole) (arg11 : Memref sig .tc .vmem S2x512x1 .f32) (harg11 : arg11.IsWhole) (arg12 : Memref sig .tc .vmem S2x512x256 .f32) (harg12 : arg12.IsWhole) (arg13 : Memref sig .tc .vmem S2x512x256 .f32) (harg13 : arg13.IsWhole) (arg14 : Memref sig .tc .vmem S2x512x256 .f32) (harg14 : arg14.IsWhole) (arg15 : Memref sig .tc .vmem S2x512x256 .bf16) (harg15 : arg15.IsWhole) (hc0 : ¬cond0_0 i) (hc1 : cond0_1 i) (x0 : Vec F S2x512x256 .f32) (x1 : Vec F S2x1024x256 .f32) (x2 : Vec F S2x512x256 .f32) (x3 : Vec F S2x1x256 .f32) (x4 : Vec F S2x1x256 .f32) (x5 : Vec F S2x1x256 .f32) (x6 : Vec F S2x1x256 .f32) (xs0 : Vec F S2x512x1 .f32) (xs1 : Vec F S2x512x256 .f32) (xs2 : Vec F S2x512x256 .f32) (xs3 : Vec F S2x512x256 .f32) (xs4 : Vec F S2x512x256 .bf16) :
    outs0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4
      = (k0_pay3 (k0_pay14 x1 x5 x6 xs4 xs0) (k0_pay1 (k0_pay12 x1) (k0_pay13 x1 x5 x6 xs4) xs1)
            (k0_pay2 (k0_pay12 x1) (k0_pay13 x1 x5 x6 xs4) xs2) xs3 x2,
          k0_pay14 x1 x5 x6 xs4 xs0,
          k0_pay1 (k0_pay12 x1) (k0_pay13 x1 x5 x6 xs4) xs1, k0_pay2 (k0_pay12 x1) (k0_pay13 x1 x5 x6 xs4) xs2, xs3, xs4) := by
  unfold outs0_C
  rw [View.read_writes_eq_canon _ _ _ (cover0_C_7 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4),
    View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4),
    View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4),
    View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3 xs4)]
  unfold kernelRun0_C
  dsimp only
  sl_unfold_words
  simp only [View.canon_unit_zero (S := S2x512x1) hz3_0, View.canon_unit_zero (S := S2x512x256) hz3_0, View.canon_unit_zero (S := S1x1x8x128) hz4_0,
    View.canon_cons_unit_zero (S := S2x512x1) hz3_0, View.canon_cons_unit_zero (S := S2x512x256) hz3_0,
    View.readAt_eq_ld, Memref.IsWhole.read_unread, View.ld_unit_zero (S := S2x512x256) hz3_0, View.ld_unit_zero (S := S2x1024x256) hz3_0,
    View.ld_unit_zero (S := S2x1x256) hz3_0, View.ld_unit_zero (S := S2x512x1) hz3_0, View.ld_unit_zero (S := S1x1x8x128) hz4_0,
    View.readCov_unit_zero (S := S2x512x256) _ hz3_0, View.readCov_unit_zero (S := S2x512x1) _ hz3_0]

end Cert.KernelIdeal.Hand

end
-- ==== Proof.KI.Pay0.lean ====
/-
  The values the kernel bodies store, read at an index, at the ideal values (the extended reals).

  Each of the three kernels runs the same body at its own block shapes: a query tile of `Q` tokens, a key block of
  `M` tokens, `C` channels, two batch entries.  At the first key step it clears the running sums and caches the
  normalised content block `nc = (c − μ) · r` and its l2-normalised form; at every key step it normalises and
  l2-normalises the key block the same way, takes the scores `q · k` over the channels, their exponentials, and adds
  the row sums, the weighted values and the weighted squares to the running sums; at the last key step it scales the
  sums by the reciprocal of the sum of the weights, forms `S · nc + M`, and adds up the squared errors of the tile.

  This module has the layout operations of these bodies read at an index given by coordinates, the reductions read as
  sums over a coordinate, and then, for the first kernel (Q = 512, M = 1024, C = 256), one equation per stored value.
-/
import proofs.«170986_j45183055954173_2_alg».proof.Proof.Gen.KernelIdeal.Skeleton
import proofs.«170986_j45183055954173_2_alg».proof.Proof.Spec
import proofs.«170986_j45183055954173_2_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx
open Cert.KernelIdeal Cert.KernelIdeal.Gen
open scoped BigOperators

/-! ## Layout operations of these kernels read at an index given by coordinates -/

section Layout
variable {α : Type}

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The elements of a shape cast are the operand's: the sum over the cast is the sum over the operand. -/
theorem sum_shapeCast {M : Type} [AddCommMonoid M] {s t : Shape} (x : s.Idx → M) (h : s.ShapeCasts t) :
    ∑ j, shapeCast t x h j = ∑ i, x i :=
  Equiv.sum_comp (Shape.reshapeEquiv h) x

/-- The one element of a `[1]` vector cast to `[1, 1, 1, 1]`, extracted. -/
theorem extractAt_cast_1111 (x : (⟨1, ![1]⟩ : Shape).Idx → α) (h : (⟨1, ![1]⟩ : Shape).ShapeCasts ⟨4, ![1, 1, 1, 1]⟩)
    (hp : ∀ a, (![0, 0, 0, 0] : Fin 4 → ℕ) a < (⟨4, ![1, 1, 1, 1]⟩ : Shape).size a) :
    extractAt ![0, 0, 0, 0] (shapeCast ⟨4, ![1, 1, 1, 1]⟩ x h) hp = x (ix1 (0 : Fin 1)) :=
  shapeCast_apply x h _ _ (by rw [Shape.rowMajor_val_one, Shape.rowMajor_val_four]; rfl)

end Layout

/-! ## Reductions and pointwise functions at an index, at the ideal values -/

/-- A square root at an index is the ideal square root of the element. -/
theorem sqrt_apply {s : Shape} {φ : FTy} (v : FVec Ideal s φ) (i : s.Idx) : sqrt v i = Ideal.sqrt (v i) := rfl
/-- An exponential at an index is the ideal exponential of the element. -/
theorem exp_apply {s : Shape} {φ : FTy} (v : FVec Ideal s φ) (i : s.Idx) : exp v i = Ideal.exp (v i) := rfl

/-- A sum over the last axis of an `[a, b, c]` vector, read at `(i, j)`: the sum over the last coordinate. -/
theorem reduce_last_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction (F := Ideal) .add [2] ⟨2, ![a, b]⟩ src 0x00000000#32 h hφ hacc (ix2 i j)
      = ∑ k : Fin c, src (ix3 i j k) := by
  refine (Ideal.multiReduction_add_single src 0x00000000#32 h hφ hacc (ix2 i j)).trans ?_
  refine Finset.sum_congr rfl fun k _ => congrArg src ?_
  funext ax
  match ax with
  | ⟨0, _⟩ => exact Fin.ext rfl
  | ⟨1, _⟩ => exact Fin.ext rfl
  | ⟨2, _⟩ => exact Fin.ext rfl

/-- The keep-dims row sum: a sum over the last axis cast back to `[a, b, 1]`, read at `(i, j, u)`. -/
theorem rowSum_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32)
    (hc : (⟨2, ![a, b]⟩ : Shape).ShapeCasts ⟨3, ![a, b, 1]⟩) (i : Fin a) (j : Fin b) (u : Fin 1) :
    shapeCast ⟨3, ![a, b, 1]⟩ (multiReduction (F := Ideal) .add [2] ⟨2, ![a, b]⟩ src 0x00000000#32 h hφ hacc) hc (ix3 i j u)
      = ∑ k : Fin c, src (ix3 i j k) :=
  (shapeCast_ab_ab1_apply _ hc i j u).trans (reduce_last_apply src h hφ hacc i j)

/-! ## The values the payloads are stated with -/

/-- A block normalised per batch entry and channel, `(x − μ) · r`: the statistics `μ`, `r` have a unit token axis. -/
def nrm {B N C : ℕ} (x : (⟨3, ![B, N, C]⟩ : Shape).Idx → EReal) (mu rs : (⟨3, ![B, 1, C]⟩ : Shape).Idx → EReal)
    (b : Fin B) (t : Fin N) (ch : Fin C) : EReal :=
  (x (ix3 b t ch) - mu (ix3 b (0 : Fin 1) ch)) * rs (ix3 b (0 : Fin 1) ch)

/-- A weighted sum scaled by the reciprocal of the row's sum of weights `l`. -/
def wmean {B N C : ℕ} (l : (⟨3, ![B, N, 1]⟩ : Shape).Idx → EReal) (acc : (⟨3, ![B, N, C]⟩ : Shape).Idx → EReal)
    (b : Fin B) (t : Fin N) (ch : Fin C) : EReal :=
  acc (ix3 b t ch) * Ideal.div 1 (l (ix3 b t (0 : Fin 1)))

/-- The error of one element: the stylised value less `S · nc + M`, with `M`, `M2` the two weighted means. -/
def terr {B N C : ℕ} (l : (⟨3, ![B, N, 1]⟩ : Shape).Idx → EReal) (acc acc2 nc cs : (⟨3, ![B, N, C]⟩ : Shape).Idx → EReal)
    (b : Fin B) (t : Fin N) (ch : Fin C) : EReal :=
  cs (ix3 b t ch) - (Cert.Spec.spread Cert.Consts.e12R (wmean l acc b t ch) (wmean l acc2 b t ch) * nc (ix3 b t ch)
    + wmean l acc b t ch)

/-- The normalised block in vector form, read at an index. -/
theorem nrm_vec_apply {B N C : ℕ} (x : FVec Ideal ⟨3, ![B, N, C]⟩ .f32) (mu rs : FVec Ideal ⟨3, ![B, 1, C]⟩ .f32)
    (h h' : (⟨3, ![B, 1, C]⟩ : Shape).Broadcasts ⟨3, ![B, N, C]⟩) (b : Fin B) (t : Fin N) (ch : Fin C) :
    mulf (subf x (broadcastTo ⟨3, ![B, N, C]⟩ mu h)) (broadcastTo ⟨3, ![B, N, C]⟩ rs h') (ix3 b t ch) = nrm x mu rs b t ch :=
  congrArg₂ (· * ·) (congrArg (x (ix3 b t ch) - ·) (broadcastTo_a1c_abc_apply mu h b t ch))
    (broadcastTo_a1c_abc_apply rs h' b t ch)

/-- A block divided by its rows' euclidean norms floored at `w`, in vector form, read at an index. -/
theorem l2n_vec_apply {a b c : ℕ} (y : FVec Ideal ⟨3, ![a, b, c]⟩ .f32) (w : FVec Ideal ⟨3, ![a, b, 1]⟩ .f32)
    (hr : (⟨3, ![a, b, c]⟩ : Shape).Reduces [2] ⟨2, ![a, b]⟩) (hφ : FKind.Formats .f32)
    (hacc : (0x00000000#32 : BitVec 32) = 0x00000000#32)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    divf y (broadcastTo ⟨3, ![a, b, c]⟩ (maximumf (sqrt (shapeCast ⟨3, ![a, b, 1]⟩
        (multiReduction (F := Ideal) .add [2] ⟨2, ![a, b]⟩ (mulf y y) 0x00000000#32 hr hφ hacc) hc)) w) hb) (ix3 i j k)
      = Ideal.div (y (ix3 i j k))
          (max (Ideal.sqrt (∑ k' : Fin c, y (ix3 i j k') * y (ix3 i j k'))) (w (ix3 i j (0 : Fin 1)))) := by
  refine congrArg (Ideal.div (y (ix3 i j k))) ?_
  refine (broadcastTo_ab1_abc_apply _ hb i j k).trans ?_
  refine congrArg (max · (w (ix3 i j (0 : Fin 1)))) ?_
  refine congrArg Ideal.sqrt ?_
  exact rowSum_apply (mulf y y) hr hφ hacc hc i j 0

/-! ## The last step's tile sum and its summand, in vector form -/

/-- The sum of a `[2, n, c]` vector over all its entries, as the bodies take it — cast to `[1, 2, n, c]`, reduced over
    the last three axes, the one entry extracted and broadcast —: the triple sum over the coordinates, at every
    entry of the broadcast. -/
theorem tile_sum_apply {n c : ℕ} {t : Shape} (e : FVec Ideal ⟨3, ![2, n, c]⟩ .f32)
    (h1 : (⟨3, ![2, n, c]⟩ : Shape).ShapeCasts ⟨4, ![1, 2, n, c]⟩)
    (h2 : (⟨4, ![1, 2, n, c]⟩ : Shape).Reduces [1, 2, 3] ⟨1, ![1]⟩) (hφ : FKind.Formats .f32)
    (hacc : (0x00000000#32 : BitVec 32) = 0x00000000#32)
    (h3 : (⟨1, ![1]⟩ : Shape).ShapeCasts ⟨4, ![1, 1, 1, 1]⟩)
    (hp : ∀ a, (![0, 0, 0, 0] : Fin 4 → ℕ) a < (⟨4, ![1, 1, 1, 1]⟩ : Shape).size a) (j : t.Idx) :
    broadcast t (extractAt ![0, 0, 0, 0] (shapeCast ⟨4, ![1, 1, 1, 1]⟩
        (multiReduction (F := Ideal) .add [1, 2, 3] ⟨1, ![1]⟩ (shapeCast ⟨4, ![1, 2, n, c]⟩ e h1) 0x00000000#32 h2 hφ hacc)
        h3) hp) j
      = ∑ b : Fin 2, ∑ q : Fin n, ∑ ch : Fin c, e (ix3 b q ch) := by
  refine (extractAt_cast_1111 _ h3 hp).trans ?_
  refine (Ideal.multiReduction_add_total _ 0x00000000#32 h2 (fun b => by
    obtain rfl : b = 0 := Subsingleton.elim _ _
    rfl) hφ hacc (ix1 (0 : Fin 1))).trans ?_
  exact (sum_shapeCast e h1).trans (sum_idx3 e)

/-- The error `cs − (S · nc + M)` in vector form, read at an index: `M`, `M2` the running sums scaled by the
    reciprocal of the sum of the weights, `S` the root of `max (M2 − M · M) 0` plus the floor. -/
theorem terr_vec_apply {B N C : ℕ} (l : FVec Ideal ⟨3, ![B, N, 1]⟩ .f32) (acc acc2 nc cs : FVec Ideal ⟨3, ![B, N, C]⟩ .f32)
    (hb hb' : (⟨3, ![B, N, 1]⟩ : Shape).Broadcasts ⟨3, ![B, N, C]⟩) (b : Fin B) (t : Fin N) (ch : Fin C) :
    subf cs (addf (mulf (sqrt (addf (maximumf
          (subf (mulf acc2 (broadcastTo ⟨3, ![B, N, C]⟩ (divf (broadcast ⟨3, ![B, N, 1]⟩ (Scalar.ofBits (F := Ideal) .f32 0x3F800000#32)) l) hb'))
            (mulf (mulf acc (broadcastTo ⟨3, ![B, N, C]⟩ (divf (broadcast ⟨3, ![B, N, 1]⟩ (Scalar.ofBits (F := Ideal) .f32 0x3F800000#32)) l) hb))
              (mulf acc (broadcastTo ⟨3, ![B, N, C]⟩ (divf (broadcast ⟨3, ![B, N, 1]⟩ (Scalar.ofBits (F := Ideal) .f32 0x3F800000#32)) l) hb))))
          (broadcast ⟨3, ![B, N, C]⟩ (Scalar.ofBits (F := Ideal) .f32 0x00000000#32)))
          (broadcast ⟨3, ![B, N, C]⟩ (Scalar.ofBits (F := Ideal) .f32 0x2B8CBCCC#32)))) nc)
        (mulf acc (broadcastTo ⟨3, ![B, N, C]⟩ (divf (broadcast ⟨3, ![B, N, 1]⟩ (Scalar.ofBits (F := Ideal) .f32 0x3F800000#32)) l) hb)))
      (ix3 b t ch)
      = terr l acc acc2 nc cs b t ch := by
  have hB : ∀ h : (⟨3, ![B, N, 1]⟩ : Shape).Broadcasts ⟨3, ![B, N, C]⟩,
      broadcastTo ⟨3, ![B, N, C]⟩ (divf (broadcast ⟨3, ![B, N, 1]⟩ (Scalar.ofBits (F := Ideal) .f32 0x3F800000#32)) l) h
        (ix3 b t ch) = Ideal.div 1 (l (ix3 b t (0 : Fin 1))) := fun h => by
    refine (broadcastTo_ab1_abc_apply _ h b t ch).trans ?_
    show Ideal.div (Ideal.ofBits .f32 0x3F800000#32) _ = _
    rw [Cert.Consts.ofBits_one, EReal.coe_one]
  simp only [mulf_apply, subf_apply, addf_apply, maximumf_apply, sqrt_apply, broadcast_apply, hB]
  simp only [Ideal.ofBits_def, Cert.Consts.ofBits_zero, Cert.Consts.ofBits_e12]
  rfl

/-! ## Region 0: query tile 512, key block 1024, 256 channels -/

namespace R0

/-- The weights-by-values product at `(b, q, ch)`: the sum over the key block's tokens. -/
theorem matmul_pv_apply (w : FVec Ideal S2x512x1024 .f32) (v : FVec Ideal S2x1024x256 .f32) (b : Fin 2) (q : Fin 512) (ch : Fin 256) :
    matmul (F := Ideal) dot_S2x512x1024_S2x1024x256_S2x512x256_2_1_1_2_0_0 none w v (constant (F := Ideal) S2x512x256 .f32 0x00000000#32) (ix3 b q ch)
      = ∑ m : Fin 1024, w (ix3 b q m) * v (ix3 b m ch) := by
  refine (Ideal.matmul_constant_zero_apply dot_S2x512x1024_S2x1024x256_S2x512x256_2_1_1_2_0_0 none w v (ix3 b q ch)).trans ?_
  refine (Equiv.sum_comp (contrEquiv1 dot_S2x512x1024_S2x1024x256_S2x512x256_2_1_1_2_0_0 1024 rfl rfl).symm _).symm.trans ?_
  refine Finset.sum_congr rfl fun m _ => ?_
  refine congrArg₂ (· * ·) (congrArg w ?_) (congrArg v ?_)
  · funext ax
    match ax with
    | ⟨0, _⟩ => exact Fin.ext rfl
    | ⟨1, _⟩ => exact Fin.ext rfl
    | ⟨2, _⟩ =>
      exact Fin.ext ((DotDims.lhsIdx_val_of_single dot_S2x512x1024_S2x1024x256_S2x512x256_2_1_1_2_0_0 rfl _ _).trans (contrEquiv1_symm_val dot_S2x512x1024_S2x1024x256_S2x512x256_2_1_1_2_0_0 1024 rfl rfl m))
  · funext ax
    match ax with
    | ⟨0, _⟩ => exact Fin.ext rfl
    | ⟨1, _⟩ =>
      exact Fin.ext ((DotDims.rhsIdx_val_of_single dot_S2x512x1024_S2x1024x256_S2x512x256_2_1_1_2_0_0 rfl _ _).trans (contrEquiv1_symm_val dot_S2x512x1024_S2x1024x256_S2x512x256_2_1_1_2_0_0 1024 rfl rfl m))
    | ⟨2, _⟩ => exact Fin.ext rfl

/-- The queries-by-keys product at `(b, q, m)`: the inner product over the channels. -/
theorem matmul_qk_apply (x : FVec Ideal S2x512x256 .bf16) (y : FVec Ideal S2x1024x256 .bf16) (b : Fin 2) (q : Fin 512) (m : Fin 1024) :
    matmul (F := Ideal) dot_S2x512x256_S2x1024x256_S2x512x1024_2_2_1_1_0_0 none x y (constant (F := Ideal) S2x512x1024 .f32 0x00000000#32) (ix3 b q m)
      = ∑ ch : Fin 256, x (ix3 b q ch) * y (ix3 b m ch) := by
  refine (Ideal.matmul_constant_zero_apply dot_S2x512x256_S2x1024x256_S2x512x1024_2_2_1_1_0_0 none x y (ix3 b q m)).trans ?_
  refine (Equiv.sum_comp (contrEquiv1 dot_S2x512x256_S2x1024x256_S2x512x1024_2_2_1_1_0_0 256 rfl rfl).symm _).symm.trans ?_
  refine Finset.sum_congr rfl fun ch _ => ?_
  refine congrArg₂ (· * ·) (congrArg x ?_) (congrArg y ?_)
  · funext ax
    match ax with
    | ⟨0, _⟩ => exact Fin.ext rfl
    | ⟨1, _⟩ => exact Fin.ext rfl
    | ⟨2, _⟩ =>
      exact Fin.ext ((DotDims.lhsIdx_val_of_single dot_S2x512x256_S2x1024x256_S2x512x1024_2_2_1_1_0_0 rfl _ _).trans (contrEquiv1_symm_val dot_S2x512x256_S2x1024x256_S2x512x1024_2_2_1_1_0_0 256 rfl rfl ch))
  · funext ax
    match ax with
    | ⟨0, _⟩ => exact Fin.ext rfl
    | ⟨1, _⟩ => exact Fin.ext rfl
    | ⟨2, _⟩ =>
      exact Fin.ext ((DotDims.rhsIdx_val_of_single dot_S2x512x256_S2x1024x256_S2x512x1024_2_2_1_1_0_0 rfl _ _).trans (contrEquiv1_symm_val dot_S2x512x256_S2x1024x256_S2x512x1024_2_2_1_1_0_0 256 rfl rfl ch))

/-- The zero the row sums start from. -/
theorem pay4_apply (j : S2x512x1.Idx) : k0_pay4 (F := Ideal) j = 0 := by
  unfold k0_pay4
  simp only [shapeCast_self]
  exact Cert.Consts.ofBits_zero

/-- The zero the weighted sums of the values start from. -/
theorem pay5_apply (j : S2x512x256.Idx) : k0_pay5 (F := Ideal) j = 0 := by
  unfold k0_pay5
  simp only [shapeCast_self]
  exact Cert.Consts.ofBits_zero

/-- The zero the weighted sums of the squares start from. -/
theorem pay6_apply (j : S2x512x256.Idx) : k0_pay6 (F := Ideal) j = 0 := by
  unfold k0_pay6
  simp only [shapeCast_self]
  exact Cert.Consts.ofBits_zero

/-- The normalised content block `nc`. -/
theorem pay7_apply (x0 : Vec Ideal S2x512x256 .f32) (x3 x4 : Vec Ideal S2x1x256 .f32) (b : Fin 2) (q : Fin 512) (ch : Fin 256) :
    k0_pay7 (F := Ideal) x0 x3 x4 (ix3 b q ch) = nrm x0 x3 x4 b q ch := by
  unfold k0_pay7
  simp only [shapeCast_self]
  exact nrm_vec_apply x0 x3 x4 _ _ b q ch

/-- The value cached for the last step is the same block. -/
theorem pay8_eq (x0 : Vec Ideal S2x512x256 .f32) (x3 x4 : Vec Ideal S2x1x256 .f32) :
    k0_pay8 (F := Ideal) x0 x3 x4 = k0_pay7 (F := Ideal) x0 x3 x4 := by
  unfold k0_pay8
  exact shapeCast_self _ _

theorem pay8_apply (x0 : Vec Ideal S2x512x256 .f32) (x3 x4 : Vec Ideal S2x1x256 .f32) (b : Fin 2) (q : Fin 512) (ch : Fin 256) :
    k0_pay8 (F := Ideal) x0 x3 x4 (ix3 b q ch) = nrm x0 x3 x4 b q ch := by
  rw [pay8_eq]; exact pay7_apply x0 x3 x4 b q ch

/-- The euclidean norm of each token's normalised channel vector. -/
theorem pay9_apply (x0 : Vec Ideal S2x512x256 .f32) (x3 x4 : Vec Ideal S2x1x256 .f32) (b : Fin 2) (q : Fin 512) :
    k0_pay9 (F := Ideal) x0 x3 x4 (ix3 b q (0 : Fin 1))
      = Ideal.sqrt (∑ ch : Fin 256, nrm x0 x3 x4 b q ch * nrm x0 x3 x4 b q ch) := by
  unfold k0_pay9
  refine congrArg Ideal.sqrt ?_
  refine (rowSum_apply _ _ _ _ _ b q 0).trans ?_
  refine Finset.sum_congr rfl fun ch _ => ?_
  exact congrArg₂ (· * ·) (pay7_apply x0 x3 x4 b q ch) (pay7_apply x0 x3 x4 b q ch)

/-- The floor under the norm. -/
theorem pay10_apply (j : S2x512x1.Idx) : k0_pay10 (F := Ideal) j = (Cert.Consts.e12R : EReal) := by
  unfold k0_pay10
  exact Cert.Consts.ofBits_e12

/-- The l2-normalised query block: the narrowing to bf16 is the identity at the ideal values. -/
theorem pay11_apply (v69 : FVec Ideal S2x512x256 .f32) (v76 v77 : FVec Ideal S2x512x1 .f32) (b : Fin 2) (q : Fin 512) (ch : Fin 256) :
    k0_pay11 (F := Ideal) v69 v76 v77 (ix3 b q ch)
      = Ideal.div (v69 (ix3 b q ch)) (max (v76 (ix3 b q (0 : Fin 1))) (v77 (ix3 b q (0 : Fin 1)))) := by
  unfold k0_pay11
  simp only [shapeCast_self]
  exact congrArg (Ideal.div (v69 (ix3 b q ch))) (broadcastTo_ab1_abc_apply (maximumf v76 v77) _ b q ch)

/-- The key block as loaded. -/
theorem pay12_eq (v3 : Vec Ideal S2x1024x256 .f32) : k0_pay12 (F := Ideal) v3 = v3 := by
  unfold k0_pay12
  exact shapeCast_self v3 _

/-- The weights of the key block: the exponentials of the scores. -/
theorem pay13_apply (v3 : Vec Ideal S2x1024x256 .f32) (v5 v9 : Vec Ideal S2x1x256 .f32) (v22 : Vec Ideal S2x512x256 .bf16)
    (b : Fin 2) (q : Fin 512) (m : Fin 1024) :
    k0_pay13 (F := Ideal) v3 v5 v9 v22 (ix3 b q m)
      = Ideal.exp (∑ ch : Fin 256, v22 (ix3 b q ch) * Ideal.div (nrm v3 v5 v9 b m ch)
          (max (Ideal.sqrt (∑ ch' : Fin 256, nrm v3 v5 v9 b m ch' * nrm v3 v5 v9 b m ch')) (Cert.Consts.e12R : EReal))) := by
  unfold k0_pay13
  simp only [shapeCast_self, pay12_eq]
  refine congrArg Ideal.exp ?_
  refine (matmul_qk_apply v22 _ b q m).trans ?_
  refine Finset.sum_congr rfl fun ch _ => congrArg (v22 (ix3 b q ch) * ·) ?_
  refine (l2n_vec_apply _ _ _ _ _ _ _ b m ch).trans ?_
  refine congrArg₂ Ideal.div (nrm_vec_apply v3 v5 v9 _ _ b m ch) ?_
  refine congrArg₂ max (congrArg Ideal.sqrt (Finset.sum_congr rfl fun ch' _ => ?_)) Cert.Consts.ofBits_e12
  exact congrArg₂ (· * ·) (nrm_vec_apply v3 v5 v9 _ _ b m ch') (nrm_vec_apply v3 v5 v9 _ _ b m ch')

/-- The running row sums: the old sums plus the block's. -/
theorem pay14_apply (v3 : Vec Ideal S2x1024x256 .f32) (v5 v9 : Vec Ideal S2x1x256 .f32) (v22 : Vec Ideal S2x512x256 .bf16)
    (v25 : Vec Ideal S2x512x1 .f32) (b : Fin 2) (q : Fin 512) :
    k0_pay14 (F := Ideal) v3 v5 v9 v22 v25 (ix3 b q (0 : Fin 1))
      = v25 (ix3 b q (0 : Fin 1)) + ∑ m : Fin 1024, k0_pay13 (F := Ideal) v3 v5 v9 v22 (ix3 b q m) := by
  unfold k0_pay14
  simp only [shapeCast_self]
  exact congrArg (v25 (ix3 b q (0 : Fin 1)) + ·) (rowSum_apply _ _ _ _ _ b q 0)

/-- The running weighted sums of the values. -/
theorem pay1_apply (v4 : FVec Ideal S2x1024x256 .f32) (v24 : FVec Ideal S2x512x1024 .f32) (v32 : Vec Ideal S2x512x256 .f32)
    (b : Fin 2) (q : Fin 512) (ch : Fin 256) :
    k0_pay1 (F := Ideal) v4 v24 v32 (ix3 b q ch) = v32 (ix3 b q ch) + ∑ m : Fin 1024, v24 (ix3 b q m) * v4 (ix3 b m ch) := by
  unfold k0_pay1
  simp only [shapeCast_self]
  exact congrArg (v32 (ix3 b q ch) + ·) (matmul_pv_apply v24 v4 b q ch)

/-- The running weighted sums of the squares. -/
theorem pay2_apply (v4 : FVec Ideal S2x1024x256 .f32) (v24 : FVec Ideal S2x512x1024 .f32) (v39 : Vec Ideal S2x512x256 .f32)
    (b : Fin 2) (q : Fin 512) (ch : Fin 256) :
    k0_pay2 (F := Ideal) v4 v24 v39 (ix3 b q ch)
      = v39 (ix3 b q ch) + ∑ m : Fin 1024, v24 (ix3 b q m) * (v4 (ix3 b m ch) * v4 (ix3 b m ch)) := by
  unfold k0_pay2
  simp only [shapeCast_self]
  exact congrArg (v39 (ix3 b q ch) + ·) (matmul_pv_apply v24 (mulf v4 v4) b q ch)

/-- The tile's sum of squared errors, in every entry of the output block. -/
theorem pay3_apply (v48 : Vec Ideal S2x512x1 .f32) (v51 v54 v64 v67 : Vec Ideal S2x512x256 .f32) (j : S1x1x8x128.Idx) :
    k0_pay3 (F := Ideal) v48 v51 v54 v64 v67 j
      = ∑ b : Fin 2, ∑ q : Fin 512, ∑ ch : Fin 256,
          terr v48 v51 v54 v64 v67 b q ch * terr v48 v51 v54 v64 v67 b q ch := by
  unfold k0_pay3
  simp only [shapeCast_self]
  refine (tile_sum_apply _ _ _ _ _ _ _ j).trans ?_
  refine Finset.sum_congr rfl fun b _ => Finset.sum_congr rfl fun q _ => Finset.sum_congr rfl fun ch _ => ?_
  exact congrArg₂ (· * ·) (terr_vec_apply v48 v51 v54 v64 v67 _ _ b q ch) (terr_vec_apply v48 v51 v54 v64 v67 _ _ b q ch)

end R0

end Cert.KernelIdeal.PayVal

end
-- ==== Proof.KI.Region0ValMath.lean ====
/-
  Region 0's tile arithmetic on the extended reals, over VARIABLE blocks.  One tile (batch tile `bi`, query tile `qi`)
  is four key steps: the first clears the running sums and caches the normalised content block and its unit-length
  form; every step adds the key block's row sums of weights, weighted values and weighted squares; the last forms the
  squared errors and adds them up.  Given what the blocks hold in terms of the level's arrays, the stored output value
  is the tile's sum `Spec.tileK`.
-/
import proofs.«170986_j45183055954173_2_alg».proof.Proof.KI.Pay0
import proofs.«170986_j45183055954173_2_alg».proof.Proof.Spec
import proofs.«170986_j45183055954173_2_alg».proof.Proof.Consts

noncomputable section

namespace Cert.KernelIdeal.Hand.Val0

open Idealize.ShloMosaic Idealize.ShloMosaic.ValueIdx
open Cert.KernelIdeal Cert.KernelIdeal.Gen Cert.KernelIdeal.PayVal Cert.KernelIdeal.PayVal.R0
open scoped BigOperators
open Cert.Spec (tix)

/-- The unit-length query block the first key step caches. -/
abbrev qn0 (x0 : Vec Ideal S2x512x256 .f32) (x3 x4 : Vec Ideal S2x1x256 .f32) : FVec Ideal S2x512x256 .bf16 :=
  k0_pay11 (F := Ideal) (k0_pay7 x0 x3 x4) (k0_pay9 x0 x3 x4) k0_pay10
/-- One key step on the row sums, the weighted values, the weighted squares. -/
abbrev lStep0 (s : Vec Ideal S2x1024x256 .f32) (x5 x6 : Vec Ideal S2x1x256 .f32) (qn : Vec Ideal S2x512x256 .bf16) (l : Vec Ideal S2x512x1 .f32) :
    FVec Ideal S2x512x1 .f32 := k0_pay14 (F := Ideal) s x5 x6 qn l
abbrev aStep0 (s : Vec Ideal S2x1024x256 .f32) (x5 x6 : Vec Ideal S2x1x256 .f32) (qn : Vec Ideal S2x512x256 .bf16) (a : Vec Ideal S2x512x256 .f32) :
    FVec Ideal S2x512x256 .f32 := k0_pay1 (F := Ideal) (k0_pay12 s) (k0_pay13 s x5 x6 qn) a
abbrev a2Step0 (s : Vec Ideal S2x1024x256 .f32) (x5 x6 : Vec Ideal S2x1x256 .f32) (qn : Vec Ideal S2x512x256 .bf16) (a : Vec Ideal S2x512x256 .f32) :
    FVec Ideal S2x512x256 .f32 := k0_pay2 (F := Ideal) (k0_pay12 s) (k0_pay13 s x5 x6 qn) a

section Tile

variable (Cc Ccs : Fin (2 * 2) → Fin (8 * 512) → Fin 256 → EReal) (Cs : Fin (2 * 2) → Fin (4 * 1024) → Fin 256 → EReal)
  (bi : Fin 2) (qi : Fin 8)
  (x0 x2 : Vec Ideal S2x512x256 .f32) (x3 x4 : Vec Ideal S2x1x256 .f32) (x5 x6 : Fin 4 → Vec Ideal S2x1x256 .f32) (s : Fin 4 → Vec Ideal S2x1024x256 .f32)
  (h0 : ∀ (b : Fin 2) (q : Fin 512) (ch : Fin 256), @Eq EReal (x0 (ix3 b q ch)) (Cc (tix bi b) (tix qi q) ch))
  (h2 : ∀ (b : Fin 2) (q : Fin 512) (ch : Fin 256), @Eq EReal (x2 (ix3 b q ch)) (Ccs (tix bi b) (tix qi q) ch))
  (h3 : ∀ (b : Fin 2) (ch : Fin 256), @Eq EReal (x3 (ix3 b (0 : Fin 1) ch)) (Cert.Spec.mean Cert.Consts.k2.nQ Cc (tix bi b) ch))
  (h4 : ∀ (b : Fin 2) (ch : Fin 256), @Eq EReal (x4 (ix3 b (0 : Fin 1) ch)) (Ideal.div 1 (Cert.Spec.sd Cert.Consts.k2.eps Cert.Consts.k2.nQ Cc (tix bi b) ch)))
  (h5 : ∀ (kb : Fin 4) (b : Fin 2) (ch : Fin 256), @Eq EReal (x5 kb (ix3 b (0 : Fin 1) ch)) (Cert.Spec.mean Cert.Consts.k2.nK Cs (tix bi b) ch))
  (h6 : ∀ (kb : Fin 4) (b : Fin 2) (ch : Fin 256), @Eq EReal (x6 kb (ix3 b (0 : Fin 1) ch)) (Ideal.div 1 (Cert.Spec.sd Cert.Consts.k2.eps Cert.Consts.k2.nK Cs (tix bi b) ch)))
  (hs : ∀ (kb : Fin 4) (b : Fin 2) (m : Fin 1024) (ch : Fin 256), @Eq EReal (s kb (ix3 b m ch)) (Cs (tix bi b) (tix kb m) ch))

include h0 h3 h4 in
/-- The normalised content block is the kernel's instance normalisation of the content array. -/
theorem nrm_c (b : Fin 2) (q : Fin 512) (ch : Fin 256) :
    nrm x0 x3 x4 b q ch = Cert.Spec.inormK Cert.Consts.k2.eps Cert.Consts.k2.nQ Cc (tix bi b) (tix qi q) ch := by
  unfold nrm Cert.Spec.inormK
  rw [h0, h3, h4]

include h5 h6 hs in
/-- A key block normalised is the instance normalisation of the style array. -/
theorem nrm_s (kb : Fin 4) (b : Fin 2) (m : Fin 1024) (ch : Fin 256) :
    nrm (s kb) (x5 kb) (x6 kb) b m ch = Cert.Spec.inormK Cert.Consts.k2.eps Cert.Consts.k2.nK Cs (tix bi b) (tix kb m) ch := by
  unfold nrm Cert.Spec.inormK
  rw [hs, h5, h6]

include h0 h3 h4 in
/-- The cached unit-length query block. -/
theorem qn0_apply (b : Fin 2) (q : Fin 512) (ch : Fin 256) :
    @Eq EReal (qn0 x0 x3 x4 (ix3 b q ch))
      (Cert.Spec.l2n Cert.Consts.k2.e12 (Cert.Spec.inormK Cert.Consts.k2.eps Cert.Consts.k2.nQ Cc) (tix bi b) (tix qi q) ch) := by
  unfold qn0
  rw [pay11_apply, pay7_apply, pay9_apply, pay10_apply]
  unfold Cert.Spec.l2n
  rw [nrm_c Cc bi qi x0 x3 x4 h0 h3 h4]
  refine congrArg (fun z => Ideal.div _ (max (Ideal.sqrt z) _)) (Finset.sum_congr rfl fun ch' _ => ?_)
  rw [nrm_c Cc bi qi x0 x3 x4 h0 h3 h4]

include h0 h3 h4 h5 h6 hs in
/-- The weights of key block `kb`: the exponentials of the scores. -/
theorem w_apply (kb : Fin 4) (b : Fin 2) (q : Fin 512) (m : Fin 1024) :
    @Eq EReal (k0_pay13 (F := Ideal) (s kb) (x5 kb) (x6 kb) (qn0 x0 x3 x4) (ix3 b q m))
      (Cert.Spec.expK 2 2 8 512 4 1024 Cert.Consts.k2 Cc Cs (tix bi b) (tix qi q) (tix kb m)) := by
  rw [pay13_apply]
  unfold Cert.Spec.expK Cert.Spec.scoreK Cert.Spec.score
  refine congrArg Ideal.exp (Finset.sum_congr rfl fun ch _ => ?_)
  rw [qn0_apply Cc bi qi x0 x3 x4 h0 h3 h4]
  refine congrArg₂ (fun a b : EReal => a * b) rfl ?_
  unfold Cert.Spec.l2n
  rw [nrm_s Cs bi x5 x6 s h5 h6 hs]
  refine congrArg (fun z => Ideal.div _ (max (Ideal.sqrt z) _)) (Finset.sum_congr rfl fun ch' _ => ?_)
  rw [nrm_s Cs bi x5 x6 s h5 h6 hs]

/-- The row sums, the weighted values and the weighted squares after the tile's four key steps. -/
abbrev l4 : FVec Ideal S2x512x1 .f32 :=
  lStep0 (s 3) (x5 3) (x6 3) (qn0 x0 x3 x4) (lStep0 (s 2) (x5 2) (x6 2) (qn0 x0 x3 x4) (lStep0 (s 1) (x5 1) (x6 1) (qn0 x0 x3 x4) (lStep0 (s 0) (x5 0) (x6 0) (qn0 x0 x3 x4) (k0_pay4 (F := Ideal)))))
abbrev a4 : FVec Ideal S2x512x256 .f32 :=
  aStep0 (s 3) (x5 3) (x6 3) (qn0 x0 x3 x4) (aStep0 (s 2) (x5 2) (x6 2) (qn0 x0 x3 x4) (aStep0 (s 1) (x5 1) (x6 1) (qn0 x0 x3 x4) (aStep0 (s 0) (x5 0) (x6 0) (qn0 x0 x3 x4) (k0_pay5 (F := Ideal)))))
abbrev a24 : FVec Ideal S2x512x256 .f32 :=
  a2Step0 (s 3) (x5 3) (x6 3) (qn0 x0 x3 x4) (a2Step0 (s 2) (x5 2) (x6 2) (qn0 x0 x3 x4) (a2Step0 (s 1) (x5 1) (x6 1) (qn0 x0 x3 x4) (a2Step0 (s 0) (x5 0) (x6 0) (qn0 x0 x3 x4) (k0_pay6 (F := Ideal)))))

include h0 h3 h4 h5 h6 hs in
/-- The row sums of the weights over the four key blocks. -/
theorem l4_apply (b : Fin 2) (q : Fin 512) :
    @Eq EReal (l4 x0 x3 x4 x5 x6 s (ix3 b q (0 : Fin 1)))
      (Cert.Spec.sumK 2 2 8 512 4 1024 Cert.Consts.k2 Cc Cs (tix bi b) (tix qi q)) := by
  unfold l4 lStep0
  rw [pay14_apply, pay14_apply, pay14_apply, pay14_apply, pay4_apply, zero_add]
  unfold Cert.Spec.sumK
  rw [Fin.sum_univ_four]
  simp only [w_apply Cc Cs bi qi x0 x3 x4 x5 x6 s h0 h3 h4 h5 h6 hs]

include h0 h3 h4 h5 h6 hs in
/-- The weighted values over the four key blocks. -/
theorem a4_apply (b : Fin 2) (q : Fin 512) (ch : Fin 256) :
    @Eq EReal (a4 x0 x3 x4 x5 x6 s (ix3 b q ch))
      (Cert.Spec.accK 2 2 8 512 4 1024 Cert.Consts.k2 Cc Cs (tix bi b) (tix qi q) ch) := by
  unfold a4 aStep0
  rw [pay1_apply, pay1_apply, pay1_apply, pay1_apply, pay5_apply, zero_add]
  unfold Cert.Spec.accK
  rw [Fin.sum_univ_four]
  simp only [w_apply Cc Cs bi qi x0 x3 x4 x5 x6 s h0 h3 h4 h5 h6 hs, pay12_eq, hs]

include h0 h3 h4 h5 h6 hs in
/-- The weighted squares over the four key blocks. -/
theorem a24_apply (b : Fin 2) (q : Fin 512) (ch : Fin 256) :
    @Eq EReal (a24 x0 x3 x4 x5 x6 s (ix3 b q ch))
      (Cert.Spec.acc2K 2 2 8 512 4 1024 Cert.Consts.k2 Cc Cs (tix bi b) (tix qi q) ch) := by
  unfold a24 a2Step0
  rw [pay2_apply, pay2_apply, pay2_apply, pay2_apply, pay6_apply, zero_add]
  unfold Cert.Spec.acc2K
  rw [Fin.sum_univ_four]
  simp only [w_apply Cc Cs bi qi x0 x3 x4 x5 x6 s h0 h3 h4 h5 h6 hs, pay12_eq, hs]

include h0 h2 h3 h4 h5 h6 hs in
/-- THE TILE: what the last key step stores in every entry of the output block is the tile's sum of squared errors. -/
theorem tile0_value (j : S1x1x8x128.Idx) :
    @Eq EReal (k0_pay3 (F := Ideal) (l4 x0 x3 x4 x5 x6 s) (a4 x0 x3 x4 x5 x6 s) (a24 x0 x3 x4 x5 x6 s) (k0_pay8 x0 x3 x4) x2 j)
      (Cert.Spec.tileK 2 2 8 512 4 1024 Cert.Consts.k2 Ccs Cc Cs bi qi) := by
  rw [pay3_apply]
  unfold Cert.Spec.tileK
  refine Finset.sum_congr rfl fun b _ => Finset.sum_congr rfl fun q _ => Finset.sum_congr rfl fun ch _ => ?_
  have e : terr (l4 x0 x3 x4 x5 x6 s) (a4 x0 x3 x4 x5 x6 s) (a24 x0 x3 x4 x5 x6 s) (k0_pay8 x0 x3 x4) x2 b q ch
      = Ccs (tix bi b) (tix qi q) ch - Cert.Spec.aatK 2 2 8 512 4 1024 Cert.Consts.k2 Cc Cs (tix bi b) (tix qi q) ch := by
    unfold terr wmean Cert.Spec.aatK Cert.Spec.meanK Cert.Spec.mean2K
    rw [l4_apply Cc Cs bi qi x0 x3 x4 x5 x6 s h0 h3 h4 h5 h6 hs, a4_apply Cc Cs bi qi x0 x3 x4 x5 x6 s h0 h3 h4 h5 h6 hs, a24_apply Cc Cs bi qi x0 x3 x4 x5 x6 s h0 h3 h4 h5 h6 hs, pay8_apply, nrm_c Cc bi qi x0 x3 x4 h0 h3 h4, h2]
    rfl
  rw [e]

end Tile

end Cert.KernelIdeal.Hand.Val0

end
-- ==== Proof.KI.Region0ValChain.lean ====
/-
  Region 0: the buffers after a tile's last key step, unrolled.  A tile is four consecutive points: a first key step,
  two middle ones, the last.  What the last point leaves in the output block is the tile's value computed from the four
  key blocks' shares, the first point's cached content block, and the last point's stylised block.
-/
import proofs.«170986_j45183055954173_2_alg».proof.Proof.KI.Region0ValPieces
import proofs.«170986_j45183055954173_2_alg».proof.Proof.KI.Region0ValMath

set_option maxRecDepth 16384

noncomputable section

namespace Cert.KernelIdeal.Hand.Val0

open Idealize.ShloMosaic Idealize.ShloMosaic.TcCoe
open Idealize.ShloMosaic.Pipeline (Dat Cfg Window)
open Cert.KernelIdeal Cert.KernelIdeal.Gen

section Steps

variable {F : FTy → Type} [FloatOps F] (V : RefVal F) (c : Dev nD)

/-- The point before. -/
abbrev tm1 (t : Fin cfg0.N) : Fin cfg0.N := ⟨t.val - 1, pred_lt0 t.isLt⟩

/-- After a first key step. -/
theorem at0_A (t : Fin cfg0.N) (h0 : t.val % 4 = 0) :
    outsAt0 V c t.val t.isLt
      = (o7junk0, k0_pay14 (iblk0 V c 1 t) (iblk0 V c 5 t) (iblk0 V c 6 t) (k0_pay11 (k0_pay7 (iblk0 V c 0 t) (iblk0 V c 3 t) (iblk0 V c 4 t)) (k0_pay9 (iblk0 V c 0 t) (iblk0 V c 3 t) (iblk0 V c 4 t)) k0_pay10) k0_pay4,
          k0_pay1 (k0_pay12 (iblk0 V c 1 t)) (k0_pay13 (iblk0 V c 1 t) (iblk0 V c 5 t) (iblk0 V c 6 t) (k0_pay11 (k0_pay7 (iblk0 V c 0 t) (iblk0 V c 3 t) (iblk0 V c 4 t)) (k0_pay9 (iblk0 V c 0 t) (iblk0 V c 3 t) (iblk0 V c 4 t)) k0_pay10)) k0_pay5,
          k0_pay2 (k0_pay12 (iblk0 V c 1 t)) (k0_pay13 (iblk0 V c 1 t) (iblk0 V c 5 t) (iblk0 V c 6 t) (k0_pay11 (k0_pay7 (iblk0 V c 0 t) (iblk0 V c 3 t) (iblk0 V c 4 t)) (k0_pay9 (iblk0 V c 0 t) (iblk0 V c 3 t) (iblk0 V c 4 t)) k0_pay10)) k0_pay6,
          k0_pay8 (iblk0 V c 0 t) (iblk0 V c 3 t) (iblk0 V c 4 t), (k0_pay11 (k0_pay7 (iblk0 V c 0 t) (iblk0 V c 3 t) (iblk0 V c 4 t)) (k0_pay9 (iblk0 V c 0 t) (iblk0 V c 3 t) (iblk0 V c 4 t)) k0_pay10)) := by
  rw [outsAt0_A V c t h0, outs0_A_eq]

/-- After a middle key step, over what the point before left (`P`). -/
theorem at0_B (t : Fin cfg0.N) (h0 : ¬t.val % 4 = 0) (h1 : ¬t.val % 4 = 3) (P : Outs0 F)
    (hP : outsAt0 V c (t.val - 1) (pred_lt0 t.isLt) = P) :
    outsAt0 V c t.val t.isLt
      = (o7junk0, k0_pay14 (iblk0 V c 1 t) (iblk0 V c 5 t) (iblk0 V c 6 t) P.2.2.2.2.2 P.2.1,
          k0_pay1 (k0_pay12 (iblk0 V c 1 t)) (k0_pay13 (iblk0 V c 1 t) (iblk0 V c 5 t) (iblk0 V c 6 t) P.2.2.2.2.2) P.2.2.1,
          k0_pay2 (k0_pay12 (iblk0 V c 1 t)) (k0_pay13 (iblk0 V c 1 t) (iblk0 V c 5 t) (iblk0 V c 6 t) P.2.2.2.2.2) P.2.2.2.1,
          P.2.2.2.2.1, P.2.2.2.2.2) := by
  rw [outsAt0_B V c t h0 h1, outs0_B_eq, hP]

/-- After the last key step, over what the point before left (`P`). -/
theorem at0_C (t : Fin cfg0.N) (h0 : ¬t.val % 4 = 0) (h1 : t.val % 4 = 3) (P : Outs0 F)
    (hP : outsAt0 V c (t.val - 1) (pred_lt0 t.isLt) = P) :
    outsAt0 V c t.val t.isLt
      = (k0_pay3 (k0_pay14 (iblk0 V c 1 t) (iblk0 V c 5 t) (iblk0 V c 6 t) P.2.2.2.2.2 P.2.1)
            (k0_pay1 (k0_pay12 (iblk0 V c 1 t)) (k0_pay13 (iblk0 V c 1 t) (iblk0 V c 5 t) (iblk0 V c 6 t) P.2.2.2.2.2) P.2.2.1)
            (k0_pay2 (k0_pay12 (iblk0 V c 1 t)) (k0_pay13 (iblk0 V c 1 t) (iblk0 V c 5 t) (iblk0 V c 6 t) P.2.2.2.2.2) P.2.2.2.1)
            P.2.2.2.2.1 (iblk0 V c 2 t),
          k0_pay14 (iblk0 V c 1 t) (iblk0 V c 5 t) (iblk0 V c 6 t) P.2.2.2.2.2 P.2.1,
          k0_pay1 (k0_pay12 (iblk0 V c 1 t)) (k0_pay13 (iblk0 V c 1 t) (iblk0 V c 5 t) (iblk0 V c 6 t) P.2.2.2.2.2) P.2.2.1,
          k0_pay2 (k0_pay12 (iblk0 V c 1 t)) (k0_pay13 (iblk0 V c 1 t) (iblk0 V c 5 t) (iblk0 V c 6 t) P.2.2.2.2.2) P.2.2.2.1,
          P.2.2.2.2.1, P.2.2.2.2.2) := by
  rw [outsAt0_C V c t h0 h1, outs0_C_eq, hP]

end Steps

section Last

variable (V : RefVal Ideal) (c : Dev nD)

/-- The four points of the tile whose last point is `t`. -/
abbrev tk (t : Fin cfg0.N) : Fin 4 → Fin cfg0.N := ![tm1 (tm1 (tm1 t)), tm1 (tm1 t), tm1 t, t]

/-- THE LAST POINT OF A TILE: the output block is the tile's value from the four key blocks. -/
theorem last0_out (t : Fin cfg0.N) (h3 : t.val % 4 = 3) :
    (outsAt0 V c t.val t.isLt).1
      = k0_pay3 (F := Ideal)
          (l4 (iblk0 V c 0 (tk t 0)) (iblk0 V c 3 (tk t 0)) (iblk0 V c 4 (tk t 0)) (fun k => iblk0 V c 5 (tk t k)) (fun k => iblk0 V c 6 (tk t k)) (fun k => iblk0 V c 1 (tk t k)))
          (a4 (iblk0 V c 0 (tk t 0)) (iblk0 V c 3 (tk t 0)) (iblk0 V c 4 (tk t 0)) (fun k => iblk0 V c 5 (tk t k)) (fun k => iblk0 V c 6 (tk t k)) (fun k => iblk0 V c 1 (tk t k)))
          (a24 (iblk0 V c 0 (tk t 0)) (iblk0 V c 3 (tk t 0)) (iblk0 V c 4 (tk t 0)) (fun k => iblk0 V c 5 (tk t k)) (fun k => iblk0 V c 6 (tk t k)) (fun k => iblk0 V c 1 (tk t k)))
          (k0_pay8 (iblk0 V c 0 (tk t 0)) (iblk0 V c 3 (tk t 0)) (iblk0 V c 4 (tk t 0))) (iblk0 V c 2 t) := by
  have hN : cfg0.N = 64 := N_0
  have ht := t.isLt
  have e0 := at0_A V c (tm1 (tm1 (tm1 t))) (by show (t.val - 1 - 1 - 1) % 4 = 0; omega)
  have e1 := at0_B V c (tm1 (tm1 t)) (by show ¬(t.val - 1 - 1) % 4 = 0; omega) (by show ¬(t.val - 1 - 1) % 4 = 3; omega) _ e0
  have e2 := at0_B V c (tm1 t) (by show ¬(t.val - 1) % 4 = 0; omega) (by show ¬(t.val - 1) % 4 = 3; omega) _ e1
  have e3 := at0_C V c t (by omega) h3 _ e2
  rw [e3]
  rfl

end Last

end Cert.KernelIdeal.Hand.Val0

end
-- ==== Proof.KI.Region0Cover.lean ====
/-
  Region 0 of the kernel program: from the blocks to the array.  The output array has shape (2, 8, 8, 128); the grid is
  2 x 8 x 4 (batch tile, query tile, kv step) and the point numbered `t` works on batch tile `t / 32` and query tile
  `t / 4 % 8`.  A point at the last kv step writes back block `(t / 32, t / 4 % 8, 0, 0)` of shape (1, 1, 8, 128); the
  sixteen blocks tile the array.  So when every entry of the block written at the last step of tile `(b, q)` is one
  value `T b q` (the tile's sum of squared errors, broadcast), the array ends holding `T` of its two leading
  coordinates, and on the extended reals its sum over all entries is the nested sum of `T` over the sixteen tiles and
  the 8 x 128 entries of each.
-/
import proofs.«170986_j45183055954173_2_alg».proof.Proof.KI.Region0
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## A rank-4 index set as a product -/

/-- A rank-4 index set is the product of its four coordinate ranges … -/
private def idxEquiv4 {n0 n1 n2 n3 : ℕ} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
private theorem sum_idx4 {M : Type*} [AddCommMonoid M] {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## The output window's blocks -/

variable {F : FTy → Type} [FloatOps F]
variable (V : RefVal F)

/-- The batch tile a point of the grid works on. -/
def bt0 (t : Fin cfg0.N) : Fin 2 := ⟨t.val / 32, by have := lt_of_lt_of_eq t.isLt N_0; omega⟩
/-- The query tile a point of the grid works on. -/
def qt0 (t : Fin cfg0.N) : Fin 8 := ⟨t.val / 4 % 8, by omega⟩

/-- The printed index map of the output window, decided over the grid: point `t` is on block `(t / 32, t / 4 % 8, 0, 0)`. -/
theorem idx_facts0_7 : ∀ t : Fin cfg0.N, win0_7.index t (0 : Fin 4) = t.val / 32 ∧ win0_7.index t (1 : Fin 4) = t.val / 4 % 8
    ∧ win0_7.index t (2 : Fin 4) = 0 ∧ win0_7.index t (3 : Fin 4) = 0 :=
  (by decide +kernel : ∀ t : Fin grid0.N, win0_7.index t (0 : Fin 4) = t.val / 32 ∧ win0_7.index t (1 : Fin 4) = t.val / 4 % 8
    ∧ win0_7.index t (2 : Fin 4) = 0 ∧ win0_7.index t (3 : Fin 4) = 0)

/-- An index of the array is in point `t`'s block iff each coordinate is in the block's range on its axis. -/
theorem mem_blk0_7 (t : Fin cfg0.N) (i : S2x8x8x128.Idx) :
    i ∈ ((cfg0.win 7).blk t).view.set ↔ ∀ a : Fin 4, win0_7.index t a * S1x1x8x128.size a ≤ (i a).val
      ∧ (i a).val < win0_7.index t a * S1x1x8x128.size a + S1x1x8x128.size a := by
  show i ∈ ((View.whole main_v27).slice (win0_7.rect t)).set ↔ _
  rw [View.set_slice_whole, Rect.mem_set_unit]
  exact Iff.rfl

/-- The sixteen blocks tile the array: every index is in the block written back at the last kv step of the tile its two
    leading coordinates name. -/
theorem covered0_7 (i : S2x8x8x128.Idx) :
    ∃ t : Fin cfg0.N, (cfg0.win 7).flush t = true ∧ i ∈ ((cfg0.win 7).blk t).view.set := by
  have hi0 : (i 0).val < 2 := (i 0).isLt
  have hi1 : (i 1).val < 8 := (i 1).isLt
  have hi2 : (i 2).val < 8 := (i 2).isLt
  have hi3 : (i 3).val < 128 := (i 3).isLt
  have hlt : ((i 0).val * 8 + (i 1).val) * 4 + 3 < cfg0.N := lt_of_lt_of_eq (by omega) N_0.symm
  refine ⟨⟨((i 0).val * 8 + (i 1).val) * 4 + 3, hlt⟩, (flush0_7 _).mpr (by show (((i 0).val * 8 + (i 1).val) * 4 + 3) % 4 = 3; omega), ?_⟩
  rw [mem_blk0_7]
  obtain ⟨e0, e1, e2, e3⟩ := idx_facts0_7 ⟨((i 0).val * 8 + (i 1).val) * 4 + 3, hlt⟩
  have d0 : (((i 0).val * 8 + (i 1).val) * 4 + 3) / 32 = (i 0).val := by omega
  have d1 : (((i 0).val * 8 + (i 1).val) * 4 + 3) / 4 % 8 = (i 1).val := by omega
  intro a
  match a with
  | ⟨0, _⟩ => show win0_7.index _ (0 : Fin 4) * 1 ≤ (i 0).val ∧ (i 0).val < win0_7.index _ (0 : Fin 4) * 1 + 1; rw [e0]; dsimp only; omega
  | ⟨1, _⟩ => show win0_7.index _ (1 : Fin 4) * 1 ≤ (i 1).val ∧ (i 1).val < win0_7.index _ (1 : Fin 4) * 1 + 1; rw [e1]; dsimp only; omega
  | ⟨2, _⟩ => show win0_7.index _ (2 : Fin 4) * 8 ≤ (i 2).val ∧ (i 2).val < win0_7.index _ (2 : Fin 4) * 8 + 8; rw [e2]; omega
  | ⟨3, _⟩ => show win0_7.index _ (3 : Fin 4) * 128 ≤ (i 3).val ∧ (i 3).val < win0_7.index _ (3 : Fin 4) * 128 + 128; rw [e3]; omega

/-! ## The array after the region -/

/-- What point `t` writes back to the output array: the output component of `outsAt0`. -/
theorem flushed0_7 (c : Dev nD) (t : Fin cfg0.N) :
    (dat0 V c).flushed 7 t = (cfg0.win 7).cut (grid0.coords t) (outsAt0 V c t.val t.isLt).1 := by
  show (cfg0.win 7).cut (grid0.coords t) ((dat0 V c).after 7 t) = _
  rw [after0_7]

/-- When every entry of the block a last-kv-step point leaves is one value `T` of the point's tile, the point writes back
    its block of the array `i ↦ T (i 0) (i 1)`. -/
theorem flushed0_7_eq (c : Dev nD) (T : Fin 2 → Fin 8 → Elt F .f32)
    (hT : ∀ (t : Fin cfg0.N), t.val % 4 = 3 → ∀ y : S1x1x8x128.Idx, (outsAt0 V c t.val t.isLt).1 y = T (bt0 t) (qt0 t))
    (t : Fin cfg0.N) (ht : (cfg0.win 7).flush t = true) :
    (dat0 V c).flushed 7 t = ((cfg0.win 7).blk t).view.read (Elt F) (fun i : S2x8x8x128.Idx => T (i 0) (i 1)) := by
  rw [flushed0_7]
  funext j
  show (outsAt0 V c t.val t.isLt).1 j = T ((((cfg0.win 7).blk t).view.emb j) 0) ((((cfg0.win 7).blk t).view.emb j) 1)
  rw [hT t ((flush0_7 t).mp ht) j]
  obtain ⟨e0, e1, -, -⟩ := idx_facts0_7 t
  congr 1
  · apply Fin.ext
    show t.val / 32 = win0_7.index t (0 : Fin 4) * 1 + 1 * (j 0).val
    have hj : (j 0).val < 1 := (j 0).isLt
    omega
  · apply Fin.ext
    show t.val / 4 % 8 = win0_7.index t (1 : Fin 4) * 1 + 1 * (j 1).val
    have hj : (j 1).val < 1 := (j 1).isLt
    omega

/-- THE ARRAY after the region: `T` of the two leading coordinates, everywhere. -/
theorem final0_7 (c : Dev nD) (T : Fin 2 → Fin 8 → Elt F .f32)
    (hT : ∀ (t : Fin cfg0.N), t.val % 4 = 3 → ∀ y : S1x1x8x128.Idx, (outsAt0 V c t.val t.isLt).1 y = T (bt0 t) (qt0 t)) :
    (dat0 V c).arrAt 7 cfg0.N = (fun i : S2x8x8x128.Idx => T (i 0) (i 1)) :=
  (dat0 V c).arrAt_eq_of_cover 7 (fun i : S2x8x8x128.Idx => T (i 0) (i 1)) (fun t ht => flushed0_7_eq V c T hT t ht) covered0_7

/-! ## Its sum, on the extended reals -/

/-- The sum of all entries of the output array: the nested sum, over the two batch tiles, the eight query tiles and the
    8 x 128 entries of each tile's block, of the tile's value. -/
theorem sum_out0 (V : RefVal Ideal) (c : Dev nD) (T : Fin 2 → Fin 8 → EReal)
    (hT : ∀ (t : Fin cfg0.N), t.val % 4 = 3 → ∀ y : S1x1x8x128.Idx, @Eq EReal ((outsAt0 V c t.val t.isLt).1 y) (T (bt0 t) (qt0 t))) :
    @Eq EReal (∑ j, ((dat0 V c).arrAt 7 cfg0.N : S2x8x8x128.Idx → EReal) j)
      (∑ b : Fin 2, ∑ q : Fin 8, ∑ _r : Fin 8, ∑ _l : Fin 128, T b q) := by
  rw [final0_7 V c T hT]
  exact sum_idx4 (fun i : S2x8x8x128.Idx => T (i 0) (i 1))

/-- The same with the inner sums counted: each tile's value stands in 1024 entries. -/
theorem sum_out0_nsmul (V : RefVal Ideal) (c : Dev nD) (T : Fin 2 → Fin 8 → EReal)
    (hT : ∀ (t : Fin cfg0.N), t.val % 4 = 3 → ∀ y : S1x1x8x128.Idx, @Eq EReal ((outsAt0 V c t.val t.isLt).1 y) (T (bt0 t) (qt0 t))) :
    @Eq EReal (∑ j, ((dat0 V c).arrAt 7 cfg0.N : S2x8x8x128.Idx → EReal) j) (∑ b : Fin 2, ∑ q : Fin 8, 1024 • T b q) := by
  rw [sum_out0 V c T hT]
  refine Finset.sum_congr rfl fun b _ => Finset.sum_congr rfl fun q _ => ?_
  simp only [Finset.sum_const, Finset.card_univ, Fintype.card_fin, smul_smul]
  rfl

end Cert.KernelIdeal.Hand

end
-- ==== Proof.KI.Region0Blocks.lean ====
/-
  Region 0 of the kernel program: the blocks its body loads at a point, read off the arrays the region finds.  The grid
  is 2 x 8 x 4 (batch tile, query tile, kv step), so the point numbered `t` is batch tile `t / 32`, query tile
  `t / 4 % 8`, kv step `t % 4`.  The content and stylised blocks are two batch entries by the query tile's 512 tokens;
  the style block two batch entries by the kv step's 1024 tokens; the four statistics two batch entries.
-/
import proofs.«170986_j45183055954173_2_alg».proof.Proof.KI.Region0Cover
import proofs.«170986_j45183055954173_2_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

/-- The kv step a point of the grid is at. -/
def kt0 (t : Fin cfg0.N) : Fin 4 := ⟨t.val % 4, by omega⟩

/-- Entry `j` of tile `i` along an axis cut into tiles of `n` is position `j + n * i`. -/
theorem tix_val0 {m n : ℕ} (i : Fin m) (j : Fin n) : (Cert.Spec.tix i j).val = j.val + n * i.val := rfl

/-- Window 0's block index at a point, decided over the grid. -/
theorem idx_facts0_0 : ∀ t : Fin cfg0.N, win0_0.index t (0 : Fin 3) = t.val / 32 ∧ win0_0.index t (1 : Fin 3) = t.val / 4 % 8
    ∧ win0_0.index t (2 : Fin 3) = 0 :=
  (by decide +kernel : ∀ t : Fin grid0.N, win0_0.index t (0 : Fin 3) = t.val / 32 ∧ win0_0.index t (1 : Fin 3) = t.val / 4 % 8
    ∧ win0_0.index t (2 : Fin 3) = 0)

/-- The content block at a point: batch entries `2 (t / 32) + b`, tokens `512 (t / 4 % 8) + q` of its array. -/
theorem blk0_0 (V : RefVal F) (c : Dev nD) (t : Fin cfg0.N) (b : Fin 2) (q : Fin 512) (ch : Fin 256) :
    iblk0 V c 0 t (ix3 b q ch) = (V c main_v24 : S4x4096x256.Idx → Elt F .f32) (ix3 (Cert.Spec.tix (bt0 t) b) (Cert.Spec.tix (qt0 t) q) ch) := by
  show (V c main_v24 : S4x4096x256.Idx → Elt F .f32) (((cfg0.win 0).blk t).view.emb (ix3 b q ch)) = _
  congr 1
  obtain ⟨e0, e1, e2⟩ := idx_facts0_0 t
  funext a
  match a with
  | ⟨0, _⟩ =>
    apply Fin.ext
    show win0_0.index t (0 : Fin 3) * 2 + 1 * b.val = (Cert.Spec.tix (bt0 t) b).val
    rw [e0, tix_val0]; show _ = b.val + 2 * (t.val / 32); omega
  | ⟨1, _⟩ =>
    apply Fin.ext
    show win0_0.index t (1 : Fin 3) * 512 + 1 * q.val = (Cert.Spec.tix (qt0 t) q).val
    rw [e1, tix_val0]; show _ = q.val + 512 * (t.val / 4 % 8); omega
  | ⟨2, _⟩ =>
    apply Fin.ext
    show win0_0.index t (2 : Fin 3) * 256 + 1 * ch.val = ch.val
    rw [e2]; omega

/-- Window 1's block index at a point, decided over the grid. -/
theorem idx_facts0_1 : ∀ t : Fin cfg0.N, win0_1.index t (0 : Fin 3) = t.val / 32 ∧ win0_1.index t (1 : Fin 3) = t.val % 4
    ∧ win0_1.index t (2 : Fin 3) = 0 :=
  (by decide +kernel : ∀ t : Fin grid0.N, win0_1.index t (0 : Fin 3) = t.val / 32 ∧ win0_1.index t (1 : Fin 3) = t.val % 4
    ∧ win0_1.index t (2 : Fin 3) = 0)

/-- The style block at a point: batch entries `2 (t / 32) + b`, tokens `1024 (t % 4) + m` of its array. -/
theorem blk0_1 (V : RefVal F) (c : Dev nD) (t : Fin cfg0.N) (b : Fin 2) (m : Fin 1024) (ch : Fin 256) :
    iblk0 V c 1 t (ix3 b m ch) = (V c main_v25 : S4x4096x256.Idx → Elt F .f32) (ix3 (Cert.Spec.tix (bt0 t) b) (Cert.Spec.tix (kt0 t) m) ch) := by
  show (V c main_v25 : S4x4096x256.Idx → Elt F .f32) (((cfg0.win 1).blk t).view.emb (ix3 b m ch)) = _
  congr 1
  obtain ⟨e0, e1, e2⟩ := idx_facts0_1 t
  funext a
  match a with
  | ⟨0, _⟩ =>
    apply Fin.ext
    show win0_1.index t (0 : Fin 3) * 2 + 1 * b.val = (Cert.Spec.tix (bt0 t) b).val
    rw [e0, tix_val0]; show _ = b.val + 2 * (t.val / 32); omega
  | ⟨1, _⟩ =>
    apply Fin.ext
    show win0_1.index t (1 : Fin 3) * 1024 + 1 * m.val = (Cert.Spec.tix (kt0 t) m).val
    rw [e1, tix_val0]; show _ = m.val + 1024 * (t.val % 4); omega
  | ⟨2, _⟩ =>
    apply Fin.ext
    show win0_1.index t (2 : Fin 3) * 256 + 1 * ch.val = ch.val
    rw [e2]; omega

/-- Window 2's block index at a point, decided over the grid. -/
theorem idx_facts0_2 : ∀ t : Fin cfg0.N, win0_2.index t (0 : Fin 3) = t.val / 32 ∧ win0_2.index t (1 : Fin 3) = t.val / 4 % 8
    ∧ win0_2.index t (2 : Fin 3) = 0 :=
  (by decide +kernel : ∀ t : Fin grid0.N, win0_2.index t (0 : Fin 3) = t.val / 32 ∧ win0_2.index t (1 : Fin 3) = t.val / 4 % 8
    ∧ win0_2.index t (2 : Fin 3) = 0)

/-- The stylised block at a point: the content block's batch entries and tokens, of its own array. -/
theorem blk0_2 (V : RefVal F) (c : Dev nD) (t : Fin cfg0.N) (b : Fin 2) (q : Fin 512) (ch : Fin 256) :
    iblk0 V c 2 t (ix3 b q ch) = (V c main_v26 : S4x4096x256.Idx → Elt F .f32) (ix3 (Cert.Spec.tix (bt0 t) b) (Cert.Spec.tix (qt0 t) q) ch) := by
  show (V c main_v26 : S4x4096x256.Idx → Elt F .f32) (((cfg0.win 2).blk t).view.emb (ix3 b q ch)) = _
  congr 1
  obtain ⟨e0, e1, e2⟩ := idx_facts0_2 t
  funext a
  match a with
  | ⟨0, _⟩ =>
    apply Fin.ext
    show win0_2.index t (0 : Fin 3) * 2 + 1 * b.val = (Cert.Spec.tix (bt0 t) b).val
    rw [e0, tix_val0]; show _ = b.val + 2 * (t.val / 32); omega
  | ⟨1, _⟩ =>
    apply Fin.ext
    show win0_2.index t (1 : Fin 3) * 512 + 1 * q.val = (Cert.Spec.tix (qt0 t) q).val
    rw [e1, tix_val0]; show _ = q.val + 512 * (t.val / 4 % 8); omega
  | ⟨2, _⟩ =>
    apply Fin.ext
    show win0_2.index t (2 : Fin 3) * 256 + 1 * ch.val = ch.val
    rw [e2]; omega

/-- Window 3's block index at a point, decided over the grid. -/
theorem idx_facts0_3 : ∀ t : Fin cfg0.N, win0_3.index t (0 : Fin 3) = t.val / 32 ∧ win0_3.index t (1 : Fin 3) = 0
    ∧ win0_3.index t (2 : Fin 3) = 0 :=
  (by decide +kernel : ∀ t : Fin grid0.N, win0_3.index t (0 : Fin 3) = t.val / 32 ∧ win0_3.index t (1 : Fin 3) = 0
    ∧ win0_3.index t (2 : Fin 3) = 0)

/-- The content means at a point: batch entries `2 (t / 32) + b`. -/
theorem blk0_3 (V : RefVal F) (c : Dev nD) (t : Fin cfg0.N) (b : Fin 2) (ch : Fin 256) :
    iblk0 V c 3 t (ix3 b (0 : Fin 1) ch) = (V c main_v20 : S4x1x256.Idx → Elt F .f32) (ix3 (Cert.Spec.tix (bt0 t) b) (0 : Fin 1) ch) := by
  show (V c main_v20 : S4x1x256.Idx → Elt F .f32) (((cfg0.win 3).blk t).view.emb (ix3 b (0 : Fin 1) ch)) = _
  congr 1
  obtain ⟨e0, e1, e2⟩ := idx_facts0_3 t
  funext a
  match a with
  | ⟨0, _⟩ =>
    apply Fin.ext
    show win0_3.index t (0 : Fin 3) * 2 + 1 * b.val = (Cert.Spec.tix (bt0 t) b).val
    rw [e0, tix_val0]; show _ = b.val + 2 * (t.val / 32); omega
  | ⟨1, _⟩ =>
    apply Fin.ext
    show win0_3.index t (1 : Fin 3) * 1 + 1 * 0 = 0
    rw [e1]
  | ⟨2, _⟩ =>
    apply Fin.ext
    show win0_3.index t (2 : Fin 3) * 256 + 1 * ch.val = ch.val
    rw [e2]; omega

/-- Window 4's block index at a point, decided over the grid. -/
theorem idx_facts0_4 : ∀ t : Fin cfg0.N, win0_4.index t (0 : Fin 3) = t.val / 32 ∧ win0_4.index t (1 : Fin 3) = 0
    ∧ win0_4.index t (2 : Fin 3) = 0 :=
  (by decide +kernel : ∀ t : Fin grid0.N, win0_4.index t (0 : Fin 3) = t.val / 32 ∧ win0_4.index t (1 : Fin 3) = 0
    ∧ win0_4.index t (2 : Fin 3) = 0)

/-- The content reciprocal deviations at a point. -/
theorem blk0_4 (V : RefVal F) (c : Dev nD) (t : Fin cfg0.N) (b : Fin 2) (ch : Fin 256) :
    iblk0 V c 4 t (ix3 b (0 : Fin 1) ch) = (V c main_v21 : S4x1x256.Idx → Elt F .f32) (ix3 (Cert.Spec.tix (bt0 t) b) (0 : Fin 1) ch) := by
  show (V c main_v21 : S4x1x256.Idx → Elt F .f32) (((cfg0.win 4).blk t).view.emb (ix3 b (0 : Fin 1) ch)) = _
  congr 1
  obtain ⟨e0, e1, e2⟩ := idx_facts0_4 t
  funext a
  match a with
  | ⟨0, _⟩ =>
    apply Fin.ext
    show win0_4.index t (0 : Fin 3) * 2 + 1 * b.val = (Cert.Spec.tix (bt0 t) b).val
    rw [e0, tix_val0]; show _ = b.val + 2 * (t.val / 32); omega
  | ⟨1, _⟩ =>
    apply Fin.ext
    show win0_4.index t (1 : Fin 3) * 1 + 1 * 0 = 0
    rw [e1]
  | ⟨2, _⟩ =>
    apply Fin.ext
    show win0_4.index t (2 : Fin 3) * 256 + 1 * ch.val = ch.val
    rw [e2]; omega

/-- Window 5's block index at a point, decided over the grid. -/
theorem idx_facts0_5 : ∀ t : Fin cfg0.N, win0_5.index t (0 : Fin 3) = t.val / 32 ∧ win0_5.index t (1 : Fin 3) = 0
    ∧ win0_5.index t (2 : Fin 3) = 0 :=
  (by decide +kernel : ∀ t : Fin grid0.N, win0_5.index t (0 : Fin 3) = t.val / 32 ∧ win0_5.index t (1 : Fin 3) = 0
    ∧ win0_5.index t (2 : Fin 3) = 0)

/-- The style means at a point. -/
theorem blk0_5 (V : RefVal F) (c : Dev nD) (t : Fin cfg0.N) (b : Fin 2) (ch : Fin 256) :
    iblk0 V c 5 t (ix3 b (0 : Fin 1) ch) = (V c main_v22 : S4x1x256.Idx → Elt F .f32) (ix3 (Cert.Spec.tix (bt0 t) b) (0 : Fin 1) ch) := by
  show (V c main_v22 : S4x1x256.Idx → Elt F .f32) (((cfg0.win 5).blk t).view.emb (ix3 b (0 : Fin 1) ch)) = _
  congr 1
  obtain ⟨e0, e1, e2⟩ := idx_facts0_5 t
  funext a
  match a with
  | ⟨0, _⟩ =>
    apply Fin.ext
    show win0_5.index t (0 : Fin 3) * 2 + 1 * b.val = (Cert.Spec.tix (bt0 t) b).val
    rw [e0, tix_val0]; show _ = b.val + 2 * (t.val / 32); omega
  | ⟨1, _⟩ =>
    apply Fin.ext
    show win0_5.index t (1 : Fin 3) * 1 + 1 * 0 = 0
    rw [e1]
  | ⟨2, _⟩ =>
    apply Fin.ext
    show win0_5.index t (2 : Fin 3) * 256 + 1 * ch.val = ch.val
    rw [e2]; omega

/-- Window 6's block index at a point, decided over the grid. -/
theorem idx_facts0_6 : ∀ t : Fin cfg0.N, win0_6.index t (0 : Fin 3) = t.val / 32 ∧ win0_6.index t (1 : Fin 3) = 0
    ∧ win0_6.index t (2 : Fin 3) = 0 :=
  (by decide +kernel : ∀ t : Fin grid0.N, win0_6.index t (0 : Fin 3) = t.val / 32 ∧ win0_6.index t (1 : Fin 3) = 0
    ∧ win0_6.index t (2 : Fin 3) = 0)

/-- The style reciprocal deviations at a point. -/
theorem blk0_6 (V : RefVal F) (c : Dev nD) (t : Fin cfg0.N) (b : Fin 2) (ch : Fin 256) :
    iblk0 V c 6 t (ix3 b (0 : Fin 1) ch) = (V c main_v23 : S4x1x256.Idx → Elt F .f32) (ix3 (Cert.Spec.tix (bt0 t) b) (0 : Fin 1) ch) := by
  show (V c main_v23 : S4x1x256.Idx → Elt F .f32) (((cfg0.win 6).blk t).view.emb (ix3 b (0 : Fin 1) ch)) = _
  congr 1
  obtain ⟨e0, e1, e2⟩ := idx_facts0_6 t
  funext a
  match a with
  | ⟨0, _⟩ =>
    apply Fin.ext
    show win0_6.index t (0 : Fin 3) * 2 + 1 * b.val = (Cert.Spec.tix (bt0 t) b).val
    rw [e0, tix_val0]; show _ = b.val + 2 * (t.val / 32); omega
  | ⟨1, _⟩ =>
    apply Fin.ext
    show win0_6.index t (1 : Fin 3) * 1 + 1 * 0 = 0
    rw [e1]
  | ⟨2, _⟩ =>
    apply Fin.ext
    show win0_6.index t (2 : Fin 3) * 256 + 1 * ch.val = ch.val
    rw [e2]; omega

end Cert.KernelIdeal.Hand

end
-- ==== Proof.KI.Region0ValTile.lean ====
/-
  Region 0's output array on the extended reals.  At the last point of the tile (bi, qi) every entry of the output block is
  the tile's sum of squared errors `Spec.tileK … bi qi`, given what the region's seven operand arrays hold at entry;
  so the array's entries add up to the sum over the tiles of 1024 copies of the tile's sum, and the level's loss, as the
  host stretch after the region computes it, is `Spec.lossK` of the argument arrays.
-/
import proofs.«170986_j45183055954173_2_alg».proof.Proof.KI.Region0ValChain
import proofs.«170986_j45183055954173_2_alg».proof.Proof.KI.Region0Cover
import proofs.«170986_j45183055954173_2_alg».proof.Proof.KI.Region0Blocks
import proofs.«170986_j45183055954173_2_alg».proof.Proof.KI.Host0
import proofs.«170986_j45183055954173_2_alg».proof.Proof.KI.HostTail

set_option maxRecDepth 16384

noncomputable section

namespace Cert.KernelIdeal.Hand.Val0

open Idealize.ShloMosaic Idealize.ShloMosaic.TcCoe Idealize.ShloMosaic.ValueIdx
open Idealize.ShloMosaic.Pipeline (Dat Cfg Window)
open Cert.KernelIdeal Cert.KernelIdeal.Gen
open scoped BigOperators
open Cert.Spec (tix)

/-! ## The tile's four points -/

theorem tk_val (t : Fin cfg0.N) (h3 : t.val % 4 = 3) (k : Fin 4) : (tk t k).val = t.val - 3 + k.val := by
  match k with
  | ⟨0, _⟩ => show t.val - 1 - 1 - 1 = t.val - 3 + 0; omega
  | ⟨1, _⟩ => show t.val - 1 - 1 = t.val - 3 + 1; omega
  | ⟨2, _⟩ => show t.val - 1 = t.val - 3 + 2; omega
  | ⟨3, _⟩ => show t.val = t.val - 3 + 3; omega

/-- The four points are in one batch tile, -/
theorem bt_tk (t : Fin cfg0.N) (h3 : t.val % 4 = 3) (k : Fin 4) : bt0 (tk t k) = bt0 t :=
  Fin.ext (by show (tk t k).val / 32 = t.val / 32; rw [tk_val t h3 k]; have := k.isLt; omega)
/-- one query tile, -/
theorem qt_tk (t : Fin cfg0.N) (h3 : t.val % 4 = 3) (k : Fin 4) : qt0 (tk t k) = qt0 t :=
  Fin.ext (by show (tk t k).val / 4 % 8 = t.val / 4 % 8; rw [tk_val t h3 k]; have := k.isLt; omega)
/-- and the `k`-th is at key step `k`. -/
theorem kt_tk (t : Fin cfg0.N) (h3 : t.val % 4 = 3) (k : Fin 4) : kt0 (tk t k) = k :=
  Fin.ext (by show (tk t k).val % 4 = k.val; rw [tk_val t h3 k]; have := k.isLt; omega)

section Tile

variable (V : RefVal Ideal) (c : Dev nD)
  (Cc Ccs : Fin (2 * 2) → Fin (8 * 512) → Fin 256 → EReal) (Cs : Fin (2 * 2) → Fin (4 * 1024) → Fin 256 → EReal)
  (hc : ∀ (b : Fin (2 * 2)) (t : Fin (8 * 512)) (ch : Fin 256), @Eq EReal ((V c main_v24 : S4x4096x256.Idx → EReal) (ix3 b t ch)) (Cc b t ch))
  (hs : ∀ (b : Fin (2 * 2)) (t : Fin (4 * 1024)) (ch : Fin 256), @Eq EReal ((V c main_v25 : S4x4096x256.Idx → EReal) (ix3 b t ch)) (Cs b t ch))
  (hcs : ∀ (b : Fin (2 * 2)) (t : Fin (8 * 512)) (ch : Fin 256), @Eq EReal ((V c main_v26 : S4x4096x256.Idx → EReal) (ix3 b t ch)) (Ccs b t ch))
  (hmc : ∀ (b : Fin (2 * 2)) (ch : Fin 256), @Eq EReal ((V c main_v20 : S4x1x256.Idx → EReal) (ix3 b 0 ch)) (Cert.Spec.mean Cert.Consts.k2.nQ Cc b ch))
  (hrc : ∀ (b : Fin (2 * 2)) (ch : Fin 256), @Eq EReal ((V c main_v21 : S4x1x256.Idx → EReal) (ix3 b 0 ch)) (Ideal.div 1 (Cert.Spec.sd Cert.Consts.k2.eps Cert.Consts.k2.nQ Cc b ch)))
  (hms : ∀ (b : Fin (2 * 2)) (ch : Fin 256), @Eq EReal ((V c main_v22 : S4x1x256.Idx → EReal) (ix3 b 0 ch)) (Cert.Spec.mean Cert.Consts.k2.nK Cs b ch))
  (hrs : ∀ (b : Fin (2 * 2)) (ch : Fin 256), @Eq EReal ((V c main_v23 : S4x1x256.Idx → EReal) (ix3 b 0 ch)) (Ideal.div 1 (Cert.Spec.sd Cert.Consts.k2.eps Cert.Consts.k2.nK Cs b ch)))

include hc hs hcs hmc hrc hms hrs in
/-- AT A TILE'S LAST POINT every entry of the output block is the tile's sum. -/
theorem last0_value (t : Fin cfg0.N) (h3 : t.val % 4 = 3) (j : S1x1x8x128.Idx) :
    @Eq EReal ((outsAt0 V c t.val t.isLt).1 j) (Cert.Spec.tileK 2 2 8 512 4 1024 Cert.Consts.k2 Ccs Cc Cs (bt0 t) (qt0 t)) := by
  rw [last0_out V c t h3]
  refine tile0_value Cc Ccs Cs (bt0 t) (qt0 t) (iblk0 V c 0 (tk t 0)) (iblk0 V c 2 t) (iblk0 V c 3 (tk t 0)) (iblk0 V c 4 (tk t 0))
    (fun k => iblk0 V c 5 (tk t k)) (fun k => iblk0 V c 6 (tk t k)) (fun k => iblk0 V c 1 (tk t k)) ?_ ?_ ?_ ?_ ?_ ?_ ?_ j
  · intro b q ch
    rw [blk0_0 V c (tk t 0) b q ch, hc, bt_tk t h3 0, qt_tk t h3 0]
  · intro b q ch
    rw [blk0_2 V c t b q ch, hcs]
  · intro b ch
    rw [blk0_3 V c (tk t 0) b ch, hmc, bt_tk t h3 0]
  · intro b ch
    rw [blk0_4 V c (tk t 0) b ch, hrc, bt_tk t h3 0]
  · intro kb b ch
    show @Eq EReal (iblk0 V c 5 (tk t kb) (ix3 b (0 : Fin 1) ch)) _
    rw [blk0_5 V c (tk t kb) b ch, hms, bt_tk t h3 kb]
  · intro kb b ch
    show @Eq EReal (iblk0 V c 6 (tk t kb) (ix3 b (0 : Fin 1) ch)) _
    rw [blk0_6 V c (tk t kb) b ch, hrs, bt_tk t h3 kb]
  · intro kb b m ch
    show @Eq EReal (iblk0 V c 1 (tk t kb) (ix3 b m ch)) _
    rw [blk0_1 V c (tk t kb) b m ch, hs, bt_tk t h3 kb, kt_tk t h3 kb]

include hc hs hcs hmc hrc hms hrs in
/-- THE OUTPUT ARRAY'S ENTRIES ADD UP to the sum over the tiles of the 8 × 128 copies of each tile's sum. -/
theorem out0_sum :
    @Eq EReal (∑ j, ((dat0 V c).arrAt 7 cfg0.N : S2x8x8x128.Idx → EReal) j)
      (∑ bi : Fin 2, ∑ qi : Fin 8, ∑ _i : Fin 8, ∑ _j : Fin 128, Cert.Spec.tileK 2 2 8 512 4 1024 Cert.Consts.k2 Ccs Cc Cs bi qi) :=
  sum_out0 V c (fun b q => Cert.Spec.tileK 2 2 8 512 4 1024 Cert.Consts.k2 Ccs Cc Cs b q)
    (fun t h3 y => last0_value V c Cc Ccs Cs hc hs hcs hmc hrc hms hrs t h3 y)

end Tile

/-! ## The level's loss -/

section Level

variable (m : (ℓ : Loc nD τ sig) → Buf (Elt Ideal) ℓ) (outs : Gen.Outs (F := Ideal)) (c : Dev nD)

/-- The region's operand arrays as the host stretches before it leave them. -/
abbrev Ventry0 : RefVal Ideal := fun c b => Gen.V5 m c b

/-- THE FIRST LEVEL'S LOSS: if the region leaves in its output array what its write-backs leave, the stretch after it
    computes the kernel's loss of the level from the argument arrays. -/
theorem level0_value (ho : outs 6 main_v27 c = (dat0 (Ventry0 m) c).arrAt 7 cfg0.N) :
    @Eq EReal ((Gen.V7 m outs c main_v30 : S_.Idx → EReal) ix0)
      (Cert.Spec.lossK 2 2 8 512 4 1024 Cert.Consts.k2
        (Cert.Arr.flat (B := 4) (H := 64) (W := 64) (C := 256) (m ((c : Thread nD τ).loc main_arg0) : S4x64x64x256.Idx → EReal))
        (Cert.Arr.flat (B := 4) (H := 64) (W := 64) (C := 256) (m ((c : Thread nD τ).loc main_arg3) : S4x64x64x256.Idx → EReal))
        (Cert.Arr.flat (B := 4) (H := 64) (W := 64) (C := 256) (m ((c : Thread nD τ).loc main_arg6) : S4x64x64x256.Idx → EReal))) := by
  refine (Cert.KernelIdeal.HostVal.loss0 m outs c).trans ?_
  unfold Cert.Spec.lossK
  rw [ho]
  rw [out0_sum (Ventry0 m) c
    (Cert.Arr.flat (B := 4) (H := 64) (W := 64) (C := 256) (m ((c : Thread nD τ).loc main_arg3) : S4x64x64x256.Idx → EReal))
    (Cert.Arr.flat (B := 4) (H := 64) (W := 64) (C := 256) (m ((c : Thread nD τ).loc main_arg0) : S4x64x64x256.Idx → EReal))
    (Cert.Arr.flat (B := 4) (H := 64) (W := 64) (C := 256) (m ((c : Thread nD τ).loc main_arg6) : S4x64x64x256.Idx → EReal))
    (fun b t ch => Cert.KernelIdeal.HostVal.entry0_c m c b t ch)
    (fun b t ch => Cert.KernelIdeal.HostVal.entry0_s m c b t ch)
    (fun b t ch => Cert.KernelIdeal.HostVal.entry0_cs m c b t ch)
    (fun b ch => Cert.KernelIdeal.HostVal.entry0_mc m c b ch)
    (fun b ch => Cert.KernelIdeal.HostVal.entry0_rc m c b ch)
    (fun b ch => Cert.KernelIdeal.HostVal.entry0_ms m c b ch)
    (fun b ch => Cert.KernelIdeal.HostVal.entry0_rs m c b ch)]
  rfl

end Level

end Cert.KernelIdeal.Hand.Val0

end
-- ==== Proof.KI.Region1ValPieces.lean ====
/-
  Region 1: what the body leaves in each buffer, as a value.

  At a first kv step every scratch buffer ends at one function of the point's input blocks: the denominator at the
  zero plus the key block's row sums of weights, the two accumulators at the zero plus the weighted values and the
  weighted squares, the two caches at the normalised content block and its unit-length form.  At a last kv step the
  three accumulating buffers end at what they held plus the key block's share, computed against the cached queries,
  and the output block at the tile's sum of squared errors from those and the cached normalised content.  Each is the
  covering store's payload; a load that follows a covering store reads that store's payload.
-/
import proofs.«170986_j45183055954173_2_alg».proof.Proof.KI.Region1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A whole scratch buffer owned at contents `xs` reads `xs`. -/
theorem readS1_0 (xs : Vec F S2x512x1 .f32) :
    View.read (Elt F) (View.whole cc1_scratch0) ((Memref.isWhole_whole cc1_scratch0).unread xs) = xs :=
  (Memref.isWhole_whole cc1_scratch0).read_unread xs
theorem readS1_1 (xs : Vec F S2x512x512 .f32) :
    View.read (Elt F) (View.whole cc1_scratch1) ((Memref.isWhole_whole cc1_scratch1).unread xs) = xs :=
  (Memref.isWhole_whole cc1_scratch1).read_unread xs
theorem readS1_2 (xs : Vec F S2x512x512 .f32) :
    View.read (Elt F) (View.whole cc1_scratch2) ((Memref.isWhole_whole cc1_scratch2).unread xs) = xs :=
  (Memref.isWhole_whole cc1_scratch2).read_unread xs
theorem readS1_3 (xs : Vec F S2x512x512 .f32) :
    View.read (Elt F) (View.whole cc1_scratch3) ((Memref.isWhole_whole cc1_scratch3).unread xs) = xs :=
  (Memref.isWhole_whole cc1_scratch3).read_unread xs
theorem readS1_4 (xs : Vec F S2x512x512 .bf16) :
    View.read (Elt F) (View.whole cc1_scratch4) ((Memref.isWhole_whole cc1_scratch4).unread xs) = xs :=
  (Memref.isWhole_whole cc1_scratch4).read_unread xs

/-! ## A first kv step -/

theorem sout1_A_0_eq (c : Dev nD) (t : Fin cfg1.N) (h0 : t.val % 2 = 0) (x0 x1 x2 : Vec F S2x512x512 .f32) (x3 x4 x5 x6 : Vec F S2x1x512 .f32) :
    sout1_A_0 c t h0 x0 x1 x2 x3 x4 x5 x6 = k1_pay14 x1 x5 x6 (k1_pay11 (k1_pay7 x0 x3 x4) (k1_pay9 x0 x3 x4) k1_pay10) k1_pay4 := by
  unfold sout1_A_0
  rw [View.read_writes_eq_canon _ _ _ (scover1_A_0 c t h0 x0 x1 x2 x3 x4 x5 x6)]
  unfold runAt1_A kernelRun1_A
  dsimp only
  sl_unfold_words
  rw [View.canon_cons_unit_zero (S := S2x512x1) hz3]
  simp only [View.readAt_eq_ld, Memref.IsWhole.read_unread, View.ld_unit_zero (S := S2x512x512) hz3,
    View.ld_unit_zero (S := S2x1x512) hz3, View.ld_unit_zero (S := S2x512x1) hz3, View.ld_unit_zero (S := S1x1x8x128) hz4,
    View.readCov_unit_zero (S := S2x512x512) _ hz3, View.readCov_unit_zero (S := S2x512x1) _ hz3,
    readS1_0, readS1_1, readS1_2, readS1_3, readS1_4]

theorem sout1_A_1_eq (c : Dev nD) (t : Fin cfg1.N) (h0 : t.val % 2 = 0) (x0 x1 x2 : Vec F S2x512x512 .f32) (x3 x4 x5 x6 : Vec F S2x1x512 .f32) :
    sout1_A_1 c t h0 x0 x1 x2 x3 x4 x5 x6 = k1_pay1 (k1_pay12 x1) (k1_pay13 x1 x5 x6 (k1_pay11 (k1_pay7 x0 x3 x4) (k1_pay9 x0 x3 x4) k1_pay10)) k1_pay5 := by
  unfold sout1_A_1
  rw [View.read_writes_eq_canon _ _ _ (scover1_A_1 c t h0 x0 x1 x2 x3 x4 x5 x6)]
  unfold runAt1_A kernelRun1_A
  dsimp only
  sl_unfold_words
  rw [View.canon_cons_unit_zero (S := S2x512x512) hz3]
  simp only [View.readAt_eq_ld, Memref.IsWhole.read_unread, View.ld_unit_zero (S := S2x512x512) hz3,
    View.ld_unit_zero (S := S2x1x512) hz3, View.ld_unit_zero (S := S2x512x1) hz3, View.ld_unit_zero (S := S1x1x8x128) hz4,
    View.readCov_unit_zero (S := S2x512x512) _ hz3, View.readCov_unit_zero (S := S2x512x1) _ hz3,
    readS1_0, readS1_1, readS1_2, readS1_3, readS1_4]

theorem sout1_A_2_eq (c : Dev nD) (t : Fin cfg1.N) (h0 : t.val % 2 = 0) (x0 x1 x2 : Vec F S2x512x512 .f32) (x3 x4 x5 x6 : Vec F S2x1x512 .f32) :
    sout1_A_2 c t h0 x0 x1 x2 x3 x4 x5 x6 = k1_pay2 (k1_pay12 x1) (k1_pay13 x1 x5 x6 (k1_pay11 (k1_pay7 x0 x3 x4) (k1_pay9 x0 x3 x4) k1_pay10)) k1_pay6 := by
  unfold sout1_A_2
  rw [View.read_writes_eq_canon _ _ _ (scover1_A_2 c t h0 x0 x1 x2 x3 x4 x5 x6)]
  unfold runAt1_A kernelRun1_A
  dsimp only
  sl_unfold_words
  rw [View.canon_cons_unit_zero (S := S2x512x512) hz3]
  simp only [View.readAt_eq_ld, Memref.IsWhole.read_unread, View.ld_unit_zero (S := S2x512x512) hz3,
    View.ld_unit_zero (S := S2x1x512) hz3, View.ld_unit_zero (S := S2x512x1) hz3, View.ld_unit_zero (S := S1x1x8x128) hz4,
    View.readCov_unit_zero (S := S2x512x512) _ hz3, View.readCov_unit_zero (S := S2x512x1) _ hz3,
    readS1_0, readS1_1, readS1_2, readS1_3, readS1_4]

theorem sout1_A_3_eq (c : Dev nD) (t : Fin cfg1.N) (h0 : t.val % 2 = 0) (x0 x1 x2 : Vec F S2x512x512 .f32) (x3 x4 x5 x6 : Vec F S2x1x512 .f32) :
    sout1_A_3 c t h0 x0 x1 x2 x3 x4 x5 x6 = k1_pay8 x0 x3 x4 := by
  unfold sout1_A_3
  rw [View.read_writes_eq_canon _ _ _ (scover1_A_3 c t h0 x0 x1 x2 x3 x4 x5 x6)]
  unfold runAt1_A kernelRun1_A
  dsimp only
  sl_unfold_words
  rw [View.canon_unit_zero (S := S2x512x512) hz3]
  simp only [View.readAt_eq_ld, Memref.IsWhole.read_unread, View.ld_unit_zero (S := S2x512x512) hz3,
    View.ld_unit_zero (S := S2x1x512) hz3, View.ld_unit_zero (S := S2x512x1) hz3, View.ld_unit_zero (S := S1x1x8x128) hz4,
    View.readCov_unit_zero (S := S2x512x512) _ hz3, View.readCov_unit_zero (S := S2x512x1) _ hz3,
    readS1_0, readS1_1, readS1_2, readS1_3, readS1_4]

theorem sout1_A_4_eq (c : Dev nD) (t : Fin cfg1.N) (h0 : t.val % 2 = 0) (x0 x1 x2 : Vec F S2x512x512 .f32) (x3 x4 x5 x6 : Vec F S2x1x512 .f32) :
    sout1_A_4 c t h0 x0 x1 x2 x3 x4 x5 x6 = (k1_pay11 (k1_pay7 x0 x3 x4) (k1_pay9 x0 x3 x4) k1_pay10) := by
  unfold sout1_A_4
  rw [View.read_writes_eq_canon _ _ _ (scover1_A_4 c t h0 x0 x1 x2 x3 x4 x5 x6)]
  unfold runAt1_A kernelRun1_A
  dsimp only
  sl_unfold_words
  rw [View.canon_unit_zero (S := S2x512x512) hz3]
  simp only [View.readAt_eq_ld, Memref.IsWhole.read_unread, View.ld_unit_zero (S := S2x512x512) hz3,
    View.ld_unit_zero (S := S2x1x512) hz3, View.ld_unit_zero (S := S2x512x1) hz3, View.ld_unit_zero (S := S1x1x8x128) hz4,
    View.readCov_unit_zero (S := S2x512x512) _ hz3, View.readCov_unit_zero (S := S2x512x1) _ hz3,
    readS1_0, readS1_1, readS1_2, readS1_3, readS1_4]

/-! ## A last kv step -/

theorem sout1_C_0_eq (c : Dev nD) (t : Fin cfg1.N) (h1 : t.val % 2 = 1) (x0 x1 x2 : Vec F S2x512x512 .f32) (x3 x4 x5 x6 : Vec F S2x1x512 .f32) (xs0 : Vec F S2x512x1 .f32) (xs1 xs2 xs3 : Vec F S2x512x512 .f32) (xs4 : Vec F S2x512x512 .bf16) :
    sout1_C_0 c t h1 x0 x1 x2 x3 x4 x5 x6 xs0 xs1 xs2 xs3 xs4 = k1_pay14 x1 x5 x6 xs4 xs0 := by
  unfold sout1_C_0
  rw [View.read_writes_eq_canon _ _ _ (scover1_C_0 c t h1 x0 x1 x2 x3 x4 x5 x6 xs0 xs1 xs2 xs3 xs4)]
  unfold runAt1_C kernelRun1_C
  dsimp only
  sl_unfold_words
  rw [View.canon_unit_zero (S := S2x512x1) hz3]
  simp only [View.readAt_eq_ld, Memref.IsWhole.read_unread, View.ld_unit_zero (S := S2x512x512) hz3,
    View.ld_unit_zero (S := S2x1x512) hz3, View.ld_unit_zero (S := S2x512x1) hz3, View.ld_unit_zero (S := S1x1x8x128) hz4,
    View.readCov_unit_zero (S := S2x512x512) _ hz3, View.readCov_unit_zero (S := S2x512x1) _ hz3,
    readS1_0, readS1_1, readS1_2, readS1_3, readS1_4]

theorem sout1_C_1_eq (c : Dev nD) (t : Fin cfg1.N) (h1 : t.val % 2 = 1) (x0 x1 x2 : Vec F S2x512x512 .f32) (x3 x4 x5 x6 : Vec F S2x1x512 .f32) (xs0 : Vec F S2x512x1 .f32) (xs1 xs2 xs3 : Vec F S2x512x512 .f32) (xs4 : Vec F S2x512x512 .bf16) :
    sout1_C_1 c t h1 x0 x1 x2 x3 x4 x5 x6 xs0 xs1 xs2 xs3 xs4 = k1_pay1 (k1_pay12 x1) (k1_pay13 x1 x5 x6 xs4) xs1 := by
  unfold sout1_C_1
  rw [View.read_writes_eq_canon _ _ _ (scover1_C_1 c t h1 x0 x1 x2 x3 x4 x5 x6 xs0 xs1 xs2 xs3 xs4)]
  unfold runAt1_C kernelRun1_C
  dsimp only
  sl_unfold_words
  rw [View.canon_unit_zero (S := S2x512x512) hz3]
  simp only [View.readAt_eq_ld, Memref.IsWhole.read_unread, View.ld_unit_zero (S := S2x512x512) hz3,
    View.ld_unit_zero (S := S2x1x512) hz3, View.ld_unit_zero (S := S2x512x1) hz3, View.ld_unit_zero (S := S1x1x8x128) hz4,
    View.readCov_unit_zero (S := S2x512x512) _ hz3, View.readCov_unit_zero (S := S2x512x1) _ hz3,
    readS1_0, readS1_1, readS1_2, readS1_3, readS1_4]

theorem sout1_C_2_eq (c : Dev nD) (t : Fin cfg1.N) (h1 : t.val % 2 = 1) (x0 x1 x2 : Vec F S2x512x512 .f32) (x3 x4 x5 x6 : Vec F S2x1x512 .f32) (xs0 : Vec F S2x512x1 .f32) (xs1 xs2 xs3 : Vec F S2x512x512 .f32) (xs4 : Vec F S2x512x512 .bf16) :
    sout1_C_2 c t h1 x0 x1 x2 x3 x4 x5 x6 xs0 xs1 xs2 xs3 xs4 = k1_pay2 (k1_pay12 x1) (k1_pay13 x1 x5 x6 xs4) xs2 := by
  unfold sout1_C_2
  rw [View.read_writes_eq_canon _ _ _ (scover1_C_2 c t h1 x0 x1 x2 x3 x4 x5 x6 xs0 xs1 xs2 xs3 xs4)]
  unfold runAt1_C kernelRun1_C
  dsimp only
  sl_unfold_words
  rw [View.canon_unit_zero (S := S2x512x512) hz3]
  simp only [View.readAt_eq_ld, Memref.IsWhole.read_unread, View.ld_unit_zero (S := S2x512x512) hz3,
    View.ld_unit_zero (S := S2x1x512) hz3, View.ld_unit_zero (S := S2x512x1) hz3, View.ld_unit_zero (S := S1x1x8x128) hz4,
    View.readCov_unit_zero (S := S2x512x512) _ hz3, View.readCov_unit_zero (S := S2x512x1) _ hz3,
    readS1_0, readS1_1, readS1_2, readS1_3, readS1_4]

theorem out1_C_7_eq (c : Dev nD) (t : Fin cfg1.N) (h1 : t.val % 2 = 1) (x0 x1 x2 : Vec F S2x512x512 .f32) (x3 x4 x5 x6 : Vec F S2x1x512 .f32) (xs0 : Vec F S2x512x1 .f32) (xs1 xs2 xs3 : Vec F S2x512x512 .f32) (xs4 : Vec F S2x512x512 .bf16) :
    out1_C_7 c t h1 x0 x1 x2 x3 x4 x5 x6 xs0 xs1 xs2 xs3 xs4 = k1_pay3 (k1_pay14 x1 x5 x6 xs4 xs0) (k1_pay1 (k1_pay12 x1) (k1_pay13 x1 x5 x6 xs4) xs1) (k1_pay2 (k1_pay12 x1) (k1_pay13 x1 x5 x6 xs4) xs2) xs3 x2 := by
  unfold out1_C_7
  rw [View.read_writes_eq_canon _ _ _ (cover1_C_7 c t h1 x0 x1 x2 x3 x4 x5 x6 xs0 xs1 xs2 xs3 xs4)]
  unfold runAt1_C kernelRun1_C
  dsimp only
  sl_unfold_words
  rw [View.canon_unit_zero (S := S1x1x8x128) hz4]
  simp only [View.readAt_eq_ld, Memref.IsWhole.read_unread, View.ld_unit_zero (S := S2x512x512) hz3,
    View.ld_unit_zero (S := S2x1x512) hz3, View.ld_unit_zero (S := S2x512x1) hz3, View.ld_unit_zero (S := S1x1x8x128) hz4,
    View.readCov_unit_zero (S := S2x512x512) _ hz3, View.readCov_unit_zero (S := S2x512x1) _ hz3,
    readS1_0, readS1_1, readS1_2, readS1_3, readS1_4]

end Cert.KernelIdeal.Hand

end
-- ==== Proof.KI.Pay1.lean ====
/-
  The values the second kernel's body stores, read at an index, at the ideal values: the equations of the first
  kernel's module at this kernel's block shapes (a query tile of 512 tokens, a key block of 512 tokens, 512 channels).
-/
import proofs.«170986_j45183055954173_2_alg».proof.Proof.KI.Pay0

noncomputable section

namespace Cert.KernelIdeal.PayVal

open Idealize.ShloMosaic Idealize.ShloMosaic.ValueIdx
open Cert.KernelIdeal Cert.KernelIdeal.Gen
open scoped BigOperators

/-! ## Region 1: query tile 512, key block 512, 512 channels -/

namespace R1

/-- The weights-by-values product at `(b, q, ch)`: the sum over the key block's tokens. -/
theorem matmul_pv_apply (w : FVec Ideal S2x512x512 .f32) (v : FVec Ideal S2x512x512 .f32) (b : Fin 2) (q : Fin 512) (ch : Fin 512) :
    matmul (F := Ideal) dot_S2x512x512_S2x512x512_S2x512x512_2_1_1_2_0_0 none w v (constant (F := Ideal) S2x512x512 .f32 0x00000000#32) (ix3 b q ch)
      = ∑ m : Fin 512, w (ix3 b q m) * v (ix3 b m ch) := by
  refine (Ideal.matmul_constant_zero_apply dot_S2x512x512_S2x512x512_S2x512x512_2_1_1_2_0_0 none w v (ix3 b q ch)).trans ?_
  refine (Equiv.sum_comp (contrEquiv1 dot_S2x512x512_S2x512x512_S2x512x512_2_1_1_2_0_0 512 rfl rfl).symm _).symm.trans ?_
  refine Finset.sum_congr rfl fun m _ => ?_
  refine congrArg₂ (· * ·) (congrArg w ?_) (congrArg v ?_)
  · funext ax
    match ax with
    | ⟨0, _⟩ => exact Fin.ext rfl
    | ⟨1, _⟩ => exact Fin.ext rfl
    | ⟨2, _⟩ =>
      exact Fin.ext ((DotDims.lhsIdx_val_of_single dot_S2x512x512_S2x512x512_S2x512x512_2_1_1_2_0_0 rfl _ _).trans (contrEquiv1_symm_val dot_S2x512x512_S2x512x512_S2x512x512_2_1_1_2_0_0 512 rfl rfl m))
  · funext ax
    match ax with
    | ⟨0, _⟩ => exact Fin.ext rfl
    | ⟨1, _⟩ =>
      exact Fin.ext ((DotDims.rhsIdx_val_of_single dot_S2x512x512_S2x512x512_S2x512x512_2_1_1_2_0_0 rfl _ _).trans (contrEquiv1_symm_val dot_S2x512x512_S2x512x512_S2x512x512_2_1_1_2_0_0 512 rfl rfl m))
    | ⟨2, _⟩ => exact Fin.ext rfl

/-- The queries-by-keys product at `(b, q, m)`: the inner product over the channels. -/
theorem matmul_qk_apply (x : FVec Ideal S2x512x512 .bf16) (y : FVec Ideal S2x512x512 .bf16) (b : Fin 2) (q : Fin 512) (m : Fin 512) :
    matmul (F := Ideal) dot_S2x512x512_S2x512x512_S2x512x512_2_2_1_1_0_0 none x y (constant (F := Ideal) S2x512x512 .f32 0x00000000#32) (ix3 b q m)
      = ∑ ch : Fin 512, x (ix3 b q ch) * y (ix3 b m ch) := by
  refine (Ideal.matmul_constant_zero_apply dot_S2x512x512_S2x512x512_S2x512x512_2_2_1_1_0_0 none x y (ix3 b q m)).trans ?_
  refine (Equiv.sum_comp (contrEquiv1 dot_S2x512x512_S2x512x512_S2x512x512_2_2_1_1_0_0 512 rfl rfl).symm _).symm.trans ?_
  refine Finset.sum_congr rfl fun ch _ => ?_
  refine congrArg₂ (· * ·) (congrArg x ?_) (congrArg y ?_)
  · funext ax
    match ax with
    | ⟨0, _⟩ => exact Fin.ext rfl
    | ⟨1, _⟩ => exact Fin.ext rfl
    | ⟨2, _⟩ =>
      exact Fin.ext ((DotDims.lhsIdx_val_of_single dot_S2x512x512_S2x512x512_S2x512x512_2_2_1_1_0_0 rfl _ _).trans (contrEquiv1_symm_val dot_S2x512x512_S2x512x512_S2x512x512_2_2_1_1_0_0 512 rfl rfl ch))
  · funext ax
    match ax with
    | ⟨0, _⟩ => exact Fin.ext rfl
    | ⟨1, _⟩ => exact Fin.ext rfl
    | ⟨2, _⟩ =>
      exact Fin.ext ((DotDims.rhsIdx_val_of_single dot_S2x512x512_S2x512x512_S2x512x512_2_2_1_1_0_0 rfl _ _).trans (contrEquiv1_symm_val dot_S2x512x512_S2x512x512_S2x512x512_2_2_1_1_0_0 512 rfl rfl ch))

/-- The zero the row sums start from. -/
theorem pay4_apply (j : S2x512x1.Idx) : k1_pay4 (F := Ideal) j = 0 := by
  unfold k1_pay4
  simp only [shapeCast_self]
  exact Cert.Consts.ofBits_zero

/-- The zero the weighted sums of the values start from. -/
theorem pay5_apply (j : S2x512x512.Idx) : k1_pay5 (F := Ideal) j = 0 := by
  unfold k1_pay5
  simp only [shapeCast_self]
  exact Cert.Consts.ofBits_zero

/-- The zero the weighted sums of the squares start from. -/
theorem pay6_apply (j : S2x512x512.Idx) : k1_pay6 (F := Ideal) j = 0 := by
  unfold k1_pay6
  simp only [shapeCast_self]
  exact Cert.Consts.ofBits_zero

/-- The normalised content block `nc`. -/
theorem pay7_apply (x0 : Vec Ideal S2x512x512 .f32) (x3 x4 : Vec Ideal S2x1x512 .f32) (b : Fin 2) (q : Fin 512) (ch : Fin 512) :
    k1_pay7 (F := Ideal) x0 x3 x4 (ix3 b q ch) = nrm x0 x3 x4 b q ch := by
  unfold k1_pay7
  simp only [shapeCast_self]
  exact nrm_vec_apply x0 x3 x4 _ _ b q ch

/-- The value cached for the last step is the same block. -/
theorem pay8_eq (x0 : Vec Ideal S2x512x512 .f32) (x3 x4 : Vec Ideal S2x1x512 .f32) :
    k1_pay8 (F := Ideal) x0 x3 x4 = k1_pay7 (F := Ideal) x0 x3 x4 := by
  unfold k1_pay8
  exact shapeCast_self _ _

theorem pay8_apply (x0 : Vec Ideal S2x512x512 .f32) (x3 x4 : Vec Ideal S2x1x512 .f32) (b : Fin 2) (q : Fin 512) (ch : Fin 512) :
    k1_pay8 (F := Ideal) x0 x3 x4 (ix3 b q ch) = nrm x0 x3 x4 b q ch := by
  rw [pay8_eq]; exact pay7_apply x0 x3 x4 b q ch

/-- The euclidean norm of each token's normalised channel vector. -/
theorem pay9_apply (x0 : Vec Ideal S2x512x512 .f32) (x3 x4 : Vec Ideal S2x1x512 .f32) (b : Fin 2) (q : Fin 512) :
    k1_pay9 (F := Ideal) x0 x3 x4 (ix3 b q (0 : Fin 1))
      = Ideal.sqrt (∑ ch : Fin 512, nrm x0 x3 x4 b q ch * nrm x0 x3 x4 b q ch) := by
  unfold k1_pay9
  refine congrArg Ideal.sqrt ?_
  refine (rowSum_apply _ _ _ _ _ b q 0).trans ?_
  refine Finset.sum_congr rfl fun ch _ => ?_
  exact congrArg₂ (· * ·) (pay7_apply x0 x3 x4 b q ch) (pay7_apply x0 x3 x4 b q ch)

/-- The floor under the norm. -/
theorem pay10_apply (j : S2x512x1.Idx) : k1_pay10 (F := Ideal) j = (Cert.Consts.e12R : EReal) := by
  unfold k1_pay10
  exact Cert.Consts.ofBits_e12

/-- The l2-normalised query block: the narrowing to bf16 is the identity at the ideal values. -/
theorem pay11_apply (v69 : FVec Ideal S2x512x512 .f32) (v76 v77 : FVec Ideal S2x512x1 .f32) (b : Fin 2) (q : Fin 512) (ch : Fin 512) :
    k1_pay11 (F := Ideal) v69 v76 v77 (ix3 b q ch)
      = Ideal.div (v69 (ix3 b q ch)) (max (v76 (ix3 b q (0 : Fin 1))) (v77 (ix3 b q (0 : Fin 1)))) := by
  unfold k1_pay11
  simp only [shapeCast_self]
  exact congrArg (Ideal.div (v69 (ix3 b q ch))) (broadcastTo_ab1_abc_apply (maximumf v76 v77) _ b q ch)

/-- The key block as loaded. -/
theorem pay12_eq (v3 : Vec Ideal S2x512x512 .f32) : k1_pay12 (F := Ideal) v3 = v3 := by
  unfold k1_pay12
  exact shapeCast_self v3 _

/-- The weights of the key block: the exponentials of the scores. -/
theorem pay13_apply (v3 : Vec Ideal S2x512x512 .f32) (v5 v9 : Vec Ideal S2x1x512 .f32) (v22 : Vec Ideal S2x512x512 .bf16)
    (b : Fin 2) (q : Fin 512) (m : Fin 512) :
    k1_pay13 (F := Ideal) v3 v5 v9 v22 (ix3 b q m)
      = Ideal.exp (∑ ch : Fin 512, v22 (ix3 b q ch) * Ideal.div (nrm v3 v5 v9 b m ch)
          (max (Ideal.sqrt (∑ ch' : Fin 512, nrm v3 v5 v9 b m ch' * nrm v3 v5 v9 b m ch')) (Cert.Consts.e12R : EReal))) := by
  unfold k1_pay13
  simp only [shapeCast_self, pay12_eq]
  refine congrArg Ideal.exp ?_
  refine (matmul_qk_apply v22 _ b q m).trans ?_
  refine Finset.sum_congr rfl fun ch _ => congrArg (v22 (ix3 b q ch) * ·) ?_
  refine (l2n_vec_apply _ _ _ _ _ _ _ b m ch).trans ?_
  refine congrArg₂ Ideal.div (nrm_vec_apply v3 v5 v9 _ _ b m ch) ?_
  refine congrArg₂ max (congrArg Ideal.sqrt (Finset.sum_congr rfl fun ch' _ => ?_)) Cert.Consts.ofBits_e12
  exact congrArg₂ (· * ·) (nrm_vec_apply v3 v5 v9 _ _ b m ch') (nrm_vec_apply v3 v5 v9 _ _ b m ch')

/-- The running row sums: the old sums plus the block's. -/
theorem pay14_apply (v3 : Vec Ideal S2x512x512 .f32) (v5 v9 : Vec Ideal S2x1x512 .f32) (v22 : Vec Ideal S2x512x512 .bf16)
    (v25 : Vec Ideal S2x512x1 .f32) (b : Fin 2) (q : Fin 512) :
    k1_pay14 (F := Ideal) v3 v5 v9 v22 v25 (ix3 b q (0 : Fin 1))
      = v25 (ix3 b q (0 : Fin 1)) + ∑ m : Fin 512, k1_pay13 (F := Ideal) v3 v5 v9 v22 (ix3 b q m) := by
  unfold k1_pay14
  simp only [shapeCast_self]
  exact congrArg (v25 (ix3 b q (0 : Fin 1)) + ·) (rowSum_apply _ _ _ _ _ b q 0)

/-- The running weighted sums of the values. -/
theorem pay1_apply (v4 : FVec Ideal S2x512x512 .f32) (v24 : FVec Ideal S2x512x512 .f32) (v32 : Vec Ideal S2x512x512 .f32)
    (b : Fin 2) (q : Fin 512) (ch : Fin 512) :
    k1_pay1 (F := Ideal) v4 v24 v32 (ix3 b q ch) = v32 (ix3 b q ch) + ∑ m : Fin 512, v24 (ix3 b q m) * v4 (ix3 b m ch) := by
  unfold k1_pay1
  simp only [shapeCast_self]
  exact congrArg (v32 (ix3 b q ch) + ·) (matmul_pv_apply v24 v4 b q ch)

/-- The running weighted sums of the squares. -/
theorem pay2_apply (v4 : FVec Ideal S2x512x512 .f32) (v24 : FVec Ideal S2x512x512 .f32) (v39 : Vec Ideal S2x512x512 .f32)
    (b : Fin 2) (q : Fin 512) (ch : Fin 512) :
    k1_pay2 (F := Ideal) v4 v24 v39 (ix3 b q ch)
      = v39 (ix3 b q ch) + ∑ m : Fin 512, v24 (ix3 b q m) * (v4 (ix3 b m ch) * v4 (ix3 b m ch)) := by
  unfold k1_pay2
  simp only [shapeCast_self]
  exact congrArg (v39 (ix3 b q ch) + ·) (matmul_pv_apply v24 (mulf v4 v4) b q ch)

/-- The tile's sum of squared errors, in every entry of the output block. -/
theorem pay3_apply (v48 : Vec Ideal S2x512x1 .f32) (v51 v54 v64 v67 : Vec Ideal S2x512x512 .f32) (j : S1x1x8x128.Idx) :
    k1_pay3 (F := Ideal) v48 v51 v54 v64 v67 j
      = ∑ b : Fin 2, ∑ q : Fin 512, ∑ ch : Fin 512,
          terr v48 v51 v54 v64 v67 b q ch * terr v48 v51 v54 v64 v67 b q ch := by
  unfold k1_pay3
  simp only [shapeCast_self]
  refine (tile_sum_apply _ _ _ _ _ _ _ j).trans ?_
  refine Finset.sum_congr rfl fun b _ => Finset.sum_congr rfl fun q _ => Finset.sum_congr rfl fun ch _ => ?_
  exact congrArg₂ (· * ·) (terr_vec_apply v48 v51 v54 v64 v67 _ _ b q ch) (terr_vec_apply v48 v51 v54 v64 v67 _ _ b q ch)

end R1

end Cert.KernelIdeal.PayVal

end
-- ==== Proof.KI.Region1ValMath.lean ====
/-
  Region 1's tile arithmetic on the extended reals, over VARIABLE blocks.  One tile (batch tile `bi`, query tile `qi`)
  is two key steps: the first clears the running sums and caches the normalised content block and its unit-length
  form; every step adds the key block's row sums of weights, weighted values and weighted squares; the last forms the
  squared errors and adds them up.  Given what the blocks hold in terms of the level's arrays, the stored output value
  is the tile's sum `Spec.tileK`.
-/
import proofs.«170986_j45183055954173_2_alg».proof.Proof.KI.Pay1
import proofs.«170986_j45183055954173_2_alg».proof.Proof.Spec
import proofs.«170986_j45183055954173_2_alg».proof.Proof.Consts

noncomputable section

namespace Cert.KernelIdeal.Hand

open Idealize.ShloMosaic Idealize.ShloMosaic.ValueIdx
open Cert.KernelIdeal Cert.KernelIdeal.Gen Cert.KernelIdeal.PayVal Cert.KernelIdeal.PayVal.R1
open scoped BigOperators
open Cert.Spec (tix)

section Tile

variable (Cc Ccs : Fin (2 * 2) → Fin (2 * 512) → Fin 512 → EReal) (Cs : Fin (2 * 2) → Fin (2 * 512) → Fin 512 → EReal)
  (bi : Fin 2) (qi : Fin 2)
  (x0 x2 : Vec Ideal S2x512x512 .f32) (x3 x4 x5 x6 : Vec Ideal S2x1x512 .f32) (s : Fin 2 → Vec Ideal S2x512x512 .f32)
  (h0 : ∀ (b : Fin 2) (q : Fin 512) (ch : Fin 512), @Eq EReal (x0 (ix3 b q ch)) (Cc (tix bi b) (tix qi q) ch))
  (h2 : ∀ (b : Fin 2) (q : Fin 512) (ch : Fin 512), @Eq EReal (x2 (ix3 b q ch)) (Ccs (tix bi b) (tix qi q) ch))
  (h3 : ∀ (b : Fin 2) (ch : Fin 512), @Eq EReal (x3 (ix3 b (0 : Fin 1) ch)) (Cert.Spec.mean Cert.Consts.k3.nQ Cc (tix bi b) ch))
  (h4 : ∀ (b : Fin 2) (ch : Fin 512), @Eq EReal (x4 (ix3 b (0 : Fin 1) ch)) (Ideal.div 1 (Cert.Spec.sd Cert.Consts.k3.eps Cert.Consts.k3.nQ Cc (tix bi b) ch)))
  (h5 : ∀ (b : Fin 2) (ch : Fin 512), @Eq EReal (x5 (ix3 b (0 : Fin 1) ch)) (Cert.Spec.mean Cert.Consts.k3.nK Cs (tix bi b) ch))
  (h6 : ∀ (b : Fin 2) (ch : Fin 512), @Eq EReal (x6 (ix3 b (0 : Fin 1) ch)) (Ideal.div 1 (Cert.Spec.sd Cert.Consts.k3.eps Cert.Consts.k3.nK Cs (tix bi b) ch)))
  (hs : ∀ (kb : Fin 2) (b : Fin 2) (m : Fin 512) (ch : Fin 512), @Eq EReal (s kb (ix3 b m ch)) (Cs (tix bi b) (tix kb m) ch))

include h0 h3 h4 in
/-- The normalised content block is the kernel's instance normalisation of the content array. -/
theorem nrm_c1 (b : Fin 2) (q : Fin 512) (ch : Fin 512) :
    nrm x0 x3 x4 b q ch = Cert.Spec.inormK Cert.Consts.k3.eps Cert.Consts.k3.nQ Cc (tix bi b) (tix qi q) ch := by
  unfold nrm Cert.Spec.inormK
  rw [h0, h3, h4]

include h5 h6 hs in
/-- A key block normalised is the instance normalisation of the style array. -/
theorem nrm_s1 (kb : Fin 2) (b : Fin 2) (m : Fin 512) (ch : Fin 512) :
    nrm (s kb) x5 x6 b m ch = Cert.Spec.inormK Cert.Consts.k3.eps Cert.Consts.k3.nK Cs (tix bi b) (tix kb m) ch := by
  unfold nrm Cert.Spec.inormK
  rw [hs, h5, h6]

include h0 h3 h4 in
/-- The cached unit-length query block. -/
theorem qn1_apply (b : Fin 2) (q : Fin 512) (ch : Fin 512) :
    @Eq EReal ((k1_pay11 (F := Ideal) (k1_pay7 (F := Ideal) x0 x3 x4) (k1_pay9 (F := Ideal) x0 x3 x4) (k1_pay10 (F := Ideal))) (ix3 b q ch))
      (Cert.Spec.l2n Cert.Consts.k3.e12 (Cert.Spec.inormK Cert.Consts.k3.eps Cert.Consts.k3.nQ Cc) (tix bi b) (tix qi q) ch) := by
  rw [pay11_apply, pay7_apply, pay9_apply, pay10_apply]
  unfold Cert.Spec.l2n
  rw [nrm_c1 Cc bi qi x0 x3 x4 h0 h3 h4]
  refine congrArg (fun z => Ideal.div _ (max (Ideal.sqrt z) _)) (Finset.sum_congr rfl fun ch' _ => ?_)
  rw [nrm_c1 Cc bi qi x0 x3 x4 h0 h3 h4]

include h0 h3 h4 h5 h6 hs in
/-- The weights of a key block: the exponentials of the scores. -/
theorem w1_apply (kb : Fin 2) (b : Fin 2) (q : Fin 512) (m : Fin 512) :
    @Eq EReal (k1_pay13 (F := Ideal) (s kb) x5 x6 (k1_pay11 (F := Ideal) (k1_pay7 (F := Ideal) x0 x3 x4) (k1_pay9 (F := Ideal) x0 x3 x4) (k1_pay10 (F := Ideal))) (ix3 b q m))
      (Cert.Spec.expK 2 2 2 512 2 512 Cert.Consts.k3 Cc Cs (tix bi b) (tix qi q) (tix kb m)) := by
  rw [pay13_apply]
  unfold Cert.Spec.expK Cert.Spec.scoreK Cert.Spec.score
  refine congrArg Ideal.exp (Finset.sum_congr rfl fun ch _ => ?_)
  rw [qn1_apply Cc bi qi x0 x3 x4 h0 h3 h4]
  refine congrArg₂ (fun a b : EReal => a * b) rfl ?_
  unfold Cert.Spec.l2n
  rw [nrm_s1 Cs bi x5 x6 s h5 h6 hs]
  refine congrArg (fun z => Ideal.div _ (max (Ideal.sqrt z) _)) (Finset.sum_congr rfl fun ch' _ => ?_)
  rw [nrm_s1 Cs bi x5 x6 s h5 h6 hs]

include h0 h3 h4 h5 h6 hs in
/-- The row sums of the weights over the tile's key blocks. -/
theorem l2_apply (b : Fin 2) (q : Fin 512) :
    @Eq EReal ((k1_pay14 (F := Ideal) (s 1) x5 x6 (k1_pay11 (F := Ideal) (k1_pay7 (F := Ideal) x0 x3 x4) (k1_pay9 (F := Ideal) x0 x3 x4) (k1_pay10 (F := Ideal))) (k1_pay14 (F := Ideal) (s 0) x5 x6 (k1_pay11 (F := Ideal) (k1_pay7 (F := Ideal) x0 x3 x4) (k1_pay9 (F := Ideal) x0 x3 x4) (k1_pay10 (F := Ideal))) (k1_pay4 (F := Ideal)))) (ix3 b q (0 : Fin 1)))
      (Cert.Spec.sumK 2 2 2 512 2 512 Cert.Consts.k3 Cc Cs (tix bi b) (tix qi q)) := by
  rw [pay14_apply, pay14_apply, pay4_apply, zero_add]
  unfold Cert.Spec.sumK
  rw [Fin.sum_univ_two]
  simp only [w1_apply Cc Cs bi qi x0 x3 x4 x5 x6 s h0 h3 h4 h5 h6 hs]

include h0 h3 h4 h5 h6 hs in
/-- The weighted values over the tile's key blocks. -/
theorem a2_apply (b : Fin 2) (q : Fin 512) (ch : Fin 512) :
    @Eq EReal ((k1_pay1 (F := Ideal) (k1_pay12 (F := Ideal) (s 1)) (k1_pay13 (F := Ideal) (s 1) x5 x6 (k1_pay11 (F := Ideal) (k1_pay7 (F := Ideal) x0 x3 x4) (k1_pay9 (F := Ideal) x0 x3 x4) (k1_pay10 (F := Ideal)))) (k1_pay1 (F := Ideal) (k1_pay12 (F := Ideal) (s 0)) (k1_pay13 (F := Ideal) (s 0) x5 x6 (k1_pay11 (F := Ideal) (k1_pay7 (F := Ideal) x0 x3 x4) (k1_pay9 (F := Ideal) x0 x3 x4) (k1_pay10 (F := Ideal)))) (k1_pay5 (F := Ideal)))) (ix3 b q ch))
      (Cert.Spec.accK 2 2 2 512 2 512 Cert.Consts.k3 Cc Cs (tix bi b) (tix qi q) ch) := by
  rw [pay1_apply, pay1_apply, pay5_apply, zero_add]
  unfold Cert.Spec.accK
  rw [Fin.sum_univ_two]
  simp only [w1_apply Cc Cs bi qi x0 x3 x4 x5 x6 s h0 h3 h4 h5 h6 hs, pay12_eq, hs]

include h0 h3 h4 h5 h6 hs in
/-- The weighted squares over the tile's key blocks. -/
theorem a22_apply (b : Fin 2) (q : Fin 512) (ch : Fin 512) :
    @Eq EReal ((k1_pay2 (F := Ideal) (k1_pay12 (F := Ideal) (s 1)) (k1_pay13 (F := Ideal) (s 1) x5 x6 (k1_pay11 (F := Ideal) (k1_pay7 (F := Ideal) x0 x3 x4) (k1_pay9 (F := Ideal) x0 x3 x4) (k1_pay10 (F := Ideal)))) (k1_pay2 (F := Ideal) (k1_pay12 (F := Ideal) (s 0)) (k1_pay13 (F := Ideal) (s 0) x5 x6 (k1_pay11 (F := Ideal) (k1_pay7 (F := Ideal) x0 x3 x4) (k1_pay9 (F := Ideal) x0 x3 x4) (k1_pay10 (F := Ideal)))) (k1_pay6 (F := Ideal)))) (ix3 b q ch))
      (Cert.Spec.acc2K 2 2 2 512 2 512 Cert.Consts.k3 Cc Cs (tix bi b) (tix qi q) ch) := by
  rw [pay2_apply, pay2_apply, pay6_apply, zero_add]
  unfold Cert.Spec.acc2K
  rw [Fin.sum_univ_two]
  simp only [w1_apply Cc Cs bi qi x0 x3 x4 x5 x6 s h0 h3 h4 h5 h6 hs, pay12_eq, hs]

include h0 h2 h3 h4 h5 h6 hs in
/-- THE TILE: what the last key step stores in every entry of the output block is the tile's sum of squared errors. -/
theorem tile1_value (j : S1x1x8x128.Idx) :
    @Eq EReal (k1_pay3 (F := Ideal)
        (k1_pay14 (F := Ideal) (s 1) x5 x6 (k1_pay11 (F := Ideal) (k1_pay7 (F := Ideal) x0 x3 x4) (k1_pay9 (F := Ideal) x0 x3 x4) (k1_pay10 (F := Ideal))) (k1_pay14 (F := Ideal) (s 0) x5 x6 (k1_pay11 (F := Ideal) (k1_pay7 (F := Ideal) x0 x3 x4) (k1_pay9 (F := Ideal) x0 x3 x4) (k1_pay10 (F := Ideal))) (k1_pay4 (F := Ideal))))
        (k1_pay1 (F := Ideal) (k1_pay12 (F := Ideal) (s 1)) (k1_pay13 (F := Ideal) (s 1) x5 x6 (k1_pay11 (F := Ideal) (k1_pay7 (F := Ideal) x0 x3 x4) (k1_pay9 (F := Ideal) x0 x3 x4) (k1_pay10 (F := Ideal)))) (k1_pay1 (F := Ideal) (k1_pay12 (F := Ideal) (s 0)) (k1_pay13 (F := Ideal) (s 0) x5 x6 (k1_pay11 (F := Ideal) (k1_pay7 (F := Ideal) x0 x3 x4) (k1_pay9 (F := Ideal) x0 x3 x4) (k1_pay10 (F := Ideal)))) (k1_pay5 (F := Ideal))))
        (k1_pay2 (F := Ideal) (k1_pay12 (F := Ideal) (s 1)) (k1_pay13 (F := Ideal) (s 1) x5 x6 (k1_pay11 (F := Ideal) (k1_pay7 (F := Ideal) x0 x3 x4) (k1_pay9 (F := Ideal) x0 x3 x4) (k1_pay10 (F := Ideal)))) (k1_pay2 (F := Ideal) (k1_pay12 (F := Ideal) (s 0)) (k1_pay13 (F := Ideal) (s 0) x5 x6 (k1_pay11 (F := Ideal) (k1_pay7 (F := Ideal) x0 x3 x4) (k1_pay9 (F := Ideal) x0 x3 x4) (k1_pay10 (F := Ideal)))) (k1_pay6 (F := Ideal))))
        (k1_pay8 (F := Ideal) x0 x3 x4) x2 j)
      (Cert.Spec.tileK 2 2 2 512 2 512 Cert.Consts.k3 Ccs Cc Cs bi qi) := by
  rw [pay3_apply]
  unfold Cert.Spec.tileK
  refine Finset.sum_congr rfl fun b _ => Finset.sum_congr rfl fun q _ => Finset.sum_congr rfl fun ch _ => ?_
  have e : terr (k1_pay14 (F := Ideal) (s 1) x5 x6 (k1_pay11 (F := Ideal) (k1_pay7 (F := Ideal) x0 x3 x4) (k1_pay9 (F := Ideal) x0 x3 x4) (k1_pay10 (F := Ideal))) (k1_pay14 (F := Ideal) (s 0) x5 x6 (k1_pay11 (F := Ideal) (k1_pay7 (F := Ideal) x0 x3 x4) (k1_pay9 (F := Ideal) x0 x3 x4) (k1_pay10 (F := Ideal))) (k1_pay4 (F := Ideal))))
        (k1_pay1 (F := Ideal) (k1_pay12 (F := Ideal) (s 1)) (k1_pay13 (F := Ideal) (s 1) x5 x6 (k1_pay11 (F := Ideal) (k1_pay7 (F := Ideal) x0 x3 x4) (k1_pay9 (F := Ideal) x0 x3 x4) (k1_pay10 (F := Ideal)))) (k1_pay1 (F := Ideal) (k1_pay12 (F := Ideal) (s 0)) (k1_pay13 (F := Ideal) (s 0) x5 x6 (k1_pay11 (F := Ideal) (k1_pay7 (F := Ideal) x0 x3 x4) (k1_pay9 (F := Ideal) x0 x3 x4) (k1_pay10 (F := Ideal)))) (k1_pay5 (F := Ideal))))
        (k1_pay2 (F := Ideal) (k1_pay12 (F := Ideal) (s 1)) (k1_pay13 (F := Ideal) (s 1) x5 x6 (k1_pay11 (F := Ideal) (k1_pay7 (F := Ideal) x0 x3 x4) (k1_pay9 (F := Ideal) x0 x3 x4) (k1_pay10 (F := Ideal)))) (k1_pay2 (F := Ideal) (k1_pay12 (F := Ideal) (s 0)) (k1_pay13 (F := Ideal) (s 0) x5 x6 (k1_pay11 (F := Ideal) (k1_pay7 (F := Ideal) x0 x3 x4) (k1_pay9 (F := Ideal) x0 x3 x4) (k1_pay10 (F := Ideal)))) (k1_pay6 (F := Ideal))))
        (k1_pay8 (F := Ideal) x0 x3 x4) x2 b q ch
      = Ccs (tix bi b) (tix qi q) ch - Cert.Spec.aatK 2 2 2 512 2 512 Cert.Consts.k3 Cc Cs (tix bi b) (tix qi q) ch := by
    unfold terr wmean Cert.Spec.aatK Cert.Spec.meanK Cert.Spec.mean2K
    rw [l2_apply Cc Cs bi qi x0 x3 x4 x5 x6 s h0 h3 h4 h5 h6 hs, a2_apply Cc Cs bi qi x0 x3 x4 x5 x6 s h0 h3 h4 h5 h6 hs, a22_apply Cc Cs bi qi x0 x3 x4 x5 x6 s h0 h3 h4 h5 h6 hs, pay8_apply, nrm_c1 Cc bi qi x0 x3 x4 h0 h3 h4, h2]
    rfl
  rw [e]

end Tile

end Cert.KernelIdeal.Hand

end
-- ==== Proof.KI.Region1Val.lean ====
/-
  Region 1's output block as a value.

  The grid's points come in pairs: tile `j` (batch tile `j / 2`, query tile `j % 2`) is the first kv step at point `2j`
  and the last at `2j + 1`.  After the last step the output block holds the last step's payload over what the first
  step left in the scratch buffers, a term in the blocks the seven input windows show at the two points.  Each block,
  read at coordinates, is the window's array at the tile's rows (the index maps are decided over the eight points);
  the statistics' blocks do not depend on the kv step.  With what the seven arrays hold, the tile arithmetic gives:
  every entry of the output block is the tile's sum of squared errors.
-/
import proofs.«170986_j45183055954173_2_alg».proof.Proof.KI.Region1ValPieces
import proofs.«170986_j45183055954173_2_alg».proof.Proof.KI.Region1ValMath
import Idealize.ShloMosaic.Lib.ValueIdx
import Idealize.ShloMosaic.Lib.Pipeline.Value
import proofs.«170986_j45183055954173_2_alg».proof.Proof.Spec
import proofs.«170986_j45183055954173_2_alg».proof.Proof.Consts

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx
open Cert.Spec (tix)
open scoped BigOperators

/-! ## A tile's two points -/

/-- Point `kb` of tile `j`: `2j + kb`. -/
def pt1 (j : Fin 4) (kb : Fin 2) : Fin cfg1.N :=
  ⟨2 * j.val + kb.val, by have hN : cfg1.N = 8 := N_1; have := j.isLt; have := kb.isLt; omega⟩

theorem pt1_val (j : Fin 4) (kb : Fin 2) : (pt1 j kb).val = 2 * j.val + kb.val := rfl
theorem pt1_even (j : Fin 4) : (pt1 j 0).val % 2 = 0 := by rw [pt1_val]; show (2 * j.val + 0) % 2 = 0; omega
theorem pt1_odd (j : Fin 4) : (pt1 j 1).val % 2 = 1 := by rw [pt1_val]; show (2 * j.val + 1) % 2 = 1; omega

/-- The batch tile and the query tile of tile `j`. -/
def bi1 (j : Fin 4) : Fin 2 := ⟨j.val / 2, by have := j.isLt; omega⟩
def qi1 (j : Fin 4) : Fin 2 := ⟨j.val % 2, by omega⟩

/-! ## The index maps over the grid -/

theorem idx1_0 : ∀ t : Fin cfg1.N, win1_0.index t 0 = t.val / 4 ∧ win1_0.index t 1 = t.val / 2 % 2 ∧ win1_0.index t 2 = 0 :=
  (by decide +kernel : ∀ t : Fin grid1.N, win1_0.index t 0 = t.val / 4 ∧ win1_0.index t 1 = t.val / 2 % 2 ∧ win1_0.index t 2 = 0)
theorem idx1_1 : ∀ t : Fin cfg1.N, win1_1.index t 0 = t.val / 4 ∧ win1_1.index t 1 = t.val % 2 ∧ win1_1.index t 2 = 0 :=
  (by decide +kernel : ∀ t : Fin grid1.N, win1_1.index t 0 = t.val / 4 ∧ win1_1.index t 1 = t.val % 2 ∧ win1_1.index t 2 = 0)
theorem idx1_2 : ∀ t : Fin cfg1.N, win1_2.index t 0 = t.val / 4 ∧ win1_2.index t 1 = t.val / 2 % 2 ∧ win1_2.index t 2 = 0 :=
  (by decide +kernel : ∀ t : Fin grid1.N, win1_2.index t 0 = t.val / 4 ∧ win1_2.index t 1 = t.val / 2 % 2 ∧ win1_2.index t 2 = 0)
theorem idx1_3 : ∀ t : Fin cfg1.N, win1_3.index t 0 = t.val / 4 ∧ win1_3.index t 1 = 0 ∧ win1_3.index t 2 = 0 :=
  (by decide +kernel : ∀ t : Fin grid1.N, win1_3.index t 0 = t.val / 4 ∧ win1_3.index t 1 = 0 ∧ win1_3.index t 2 = 0)
theorem idx1_4 : ∀ t : Fin cfg1.N, win1_4.index t 0 = t.val / 4 ∧ win1_4.index t 1 = 0 ∧ win1_4.index t 2 = 0 :=
  (by decide +kernel : ∀ t : Fin grid1.N, win1_4.index t 0 = t.val / 4 ∧ win1_4.index t 1 = 0 ∧ win1_4.index t 2 = 0)
theorem idx1_5 : ∀ t : Fin cfg1.N, win1_5.index t 0 = t.val / 4 ∧ win1_5.index t 1 = 0 ∧ win1_5.index t 2 = 0 :=
  (by decide +kernel : ∀ t : Fin grid1.N, win1_5.index t 0 = t.val / 4 ∧ win1_5.index t 1 = 0 ∧ win1_5.index t 2 = 0)
theorem idx1_6 : ∀ t : Fin cfg1.N, win1_6.index t 0 = t.val / 4 ∧ win1_6.index t 1 = 0 ∧ win1_6.index t 2 = 0 :=
  (by decide +kernel : ∀ t : Fin grid1.N, win1_6.index t 0 = t.val / 4 ∧ win1_6.index t 1 = 0 ∧ win1_6.index t 2 = 0)
theorem idx1_7 : ∀ t : Fin cfg1.N, win1_7.index t 0 = t.val / 4 ∧ win1_7.index t 1 = t.val / 2 % 2 ∧ win1_7.index t 2 = 0 ∧ win1_7.index t 3 = 0 :=
  (by decide +kernel : ∀ t : Fin grid1.N, win1_7.index t 0 = t.val / 4 ∧ win1_7.index t 1 = t.val / 2 % 2 ∧ win1_7.index t 2 = 0 ∧ win1_7.index t 3 = 0)

section Region1Val
variable (V : RefVal F)

/-! ## The accumulation over a tile -/

theorem outsAt1_congr (c : Dev nD) {n m : ℕ} (h : n = m) (hn : n < cfg1.N) (hm : m < cfg1.N) :
    outsAt1 V c n hn = outsAt1 V c m hm := by subst h; rfl

/-- After a tile's last step: that step over what the tile's first step left. -/
theorem outsAt1_tile (c : Dev nD) (j : Fin 4) :
    outsAt1 V c (pt1 j 1).val (pt1 j 1).isLt
      = stepC1 V c (pt1 j 1) (pt1_odd j) (stepA1 V c (pt1 j 0) (pt1_even j)) := by
  rw [outsAt1_C V c (pt1 j 1) (pt1_odd j)]
  refine congrArg (stepC1 V c (pt1 j 1) (pt1_odd j)) ?_
  refine (outsAt1_congr V c ?_ _ (pt1 j 0).isLt).trans (outsAt1_A V c (pt1 j 0) (pt1_even j))
  rw [pt1_val, pt1_val]; show 2 * j.val + 1 - 1 = 2 * j.val + 0; omega

/-- What the output block holds after a tile's two steps, from the blocks at the first step (`x…`) and at the last
    (`y…`). -/
def tileOut1 (x0 x1 : Vec F S2x512x512 .f32) (x3 x4 x5 x6 : Vec F S2x1x512 .f32) (y1 y2 : Vec F S2x512x512 .f32)
    (y5 y6 : Vec F S2x1x512 .f32) : FVec F S1x1x8x128 .f32 :=
  k1_pay3
    (k1_pay14 y1 y5 y6 (k1_pay11 (k1_pay7 x0 x3 x4) (k1_pay9 x0 x3 x4) k1_pay10)
      (k1_pay14 x1 x5 x6 (k1_pay11 (k1_pay7 x0 x3 x4) (k1_pay9 x0 x3 x4) k1_pay10) k1_pay4))
    (k1_pay1 (k1_pay12 y1) (k1_pay13 y1 y5 y6 (k1_pay11 (k1_pay7 x0 x3 x4) (k1_pay9 x0 x3 x4) k1_pay10))
      (k1_pay1 (k1_pay12 x1) (k1_pay13 x1 x5 x6 (k1_pay11 (k1_pay7 x0 x3 x4) (k1_pay9 x0 x3 x4) k1_pay10)) k1_pay5))
    (k1_pay2 (k1_pay12 y1) (k1_pay13 y1 y5 y6 (k1_pay11 (k1_pay7 x0 x3 x4) (k1_pay9 x0 x3 x4) k1_pay10))
      (k1_pay2 (k1_pay12 x1) (k1_pay13 x1 x5 x6 (k1_pay11 (k1_pay7 x0 x3 x4) (k1_pay9 x0 x3 x4) k1_pay10)) k1_pay6))
    (k1_pay8 x0 x3 x4) y2

theorem out1_tile (c : Dev nD) (j : Fin 4) :
    (outsAt1 V c (pt1 j 1).val (pt1 j 1).isLt).1
      = tileOut1 (iblk1 V c 0 (pt1 j 0)) (iblk1 V c 1 (pt1 j 0)) (iblk1 V c 3 (pt1 j 0)) (iblk1 V c 4 (pt1 j 0))
          (iblk1 V c 5 (pt1 j 0)) (iblk1 V c 6 (pt1 j 0)) (iblk1 V c 1 (pt1 j 1)) (iblk1 V c 2 (pt1 j 1))
          (iblk1 V c 5 (pt1 j 1)) (iblk1 V c 6 (pt1 j 1)) := by
  rw [outsAt1_tile]
  unfold stepC1 stepA1
  dsimp only
  rw [out1_C_7_eq, sout1_A_0_eq, sout1_A_1_eq, sout1_A_2_eq, sout1_A_3_eq, sout1_A_4_eq]
  rfl

/-! ## The blocks, read at coordinates -/

theorem tix_val {m n : ℕ} (i : Fin m) (k : Fin n) : (tix i k).val = k.val + n * i.val := rfl

theorem iblk1_0_apply (c : Dev nD) (j : Fin 4) (kb : Fin 2) (b : Fin 2) (q : Fin 512) (ch : Fin 512) :
    iblk1 V c 0 (pt1 j kb) (ix3 b q ch) = V c main_v55 (ix3 (tix (bi1 j) b) (tix (qi1 j) q) ch) := by
  have hi := idx1_0 (pt1 j kb)
  rw [pt1_val] at hi
  have hj := j.isLt; have hk := kb.isLt
  unfold iblk1
  rw [View.read_apply, cast_eq]
  show V c main_v55 _ = V c main_v55 _
  congr 1
  funext a
  apply Fin.ext
  match a with
  | ⟨0, _⟩ =>
    show win1_0.index (pt1 j kb) 0 * 2 + 1 * b.val = (tix (bi1 j) b).val
    rw [hi.1, tix_val]; show (2 * j.val + kb.val) / 4 * 2 + 1 * b.val = b.val + 2 * (j.val / 2); omega
  | ⟨1, _⟩ =>
    show win1_0.index (pt1 j kb) 1 * 512 + 1 * q.val = (tix (qi1 j) q).val
    rw [hi.2.1, tix_val]; show (2 * j.val + kb.val) / 2 % 2 * 512 + 1 * q.val = q.val + 512 * (j.val % 2); omega
  | ⟨2, _⟩ =>
    show win1_0.index (pt1 j kb) 2 * 512 + 1 * ch.val = ch.val
    rw [hi.2.2]; omega

theorem iblk1_1_apply (c : Dev nD) (j : Fin 4) (kb : Fin 2) (b : Fin 2) (q : Fin 512) (ch : Fin 512) :
    iblk1 V c 1 (pt1 j kb) (ix3 b q ch) = V c main_v56 (ix3 (tix (bi1 j) b) (tix kb q) ch) := by
  have hi := idx1_1 (pt1 j kb)
  rw [pt1_val] at hi
  have hj := j.isLt; have hk := kb.isLt
  unfold iblk1
  rw [View.read_apply, cast_eq]
  show V c main_v56 _ = V c main_v56 _
  congr 1
  funext a
  apply Fin.ext
  match a with
  | ⟨0, _⟩ =>
    show win1_1.index (pt1 j kb) 0 * 2 + 1 * b.val = (tix (bi1 j) b).val
    rw [hi.1, tix_val]; show (2 * j.val + kb.val) / 4 * 2 + 1 * b.val = b.val + 2 * (j.val / 2); omega
  | ⟨1, _⟩ =>
    show win1_1.index (pt1 j kb) 1 * 512 + 1 * q.val = (tix kb q).val
    rw [hi.2.1, tix_val]; show (2 * j.val + kb.val) % 2 * 512 + 1 * q.val = q.val + 512 * kb.val; omega
  | ⟨2, _⟩ =>
    show win1_1.index (pt1 j kb) 2 * 512 + 1 * ch.val = ch.val
    rw [hi.2.2]; omega

theorem iblk1_2_apply (c : Dev nD) (j : Fin 4) (kb : Fin 2) (b : Fin 2) (q : Fin 512) (ch : Fin 512) :
    iblk1 V c 2 (pt1 j kb) (ix3 b q ch) = V c main_v57 (ix3 (tix (bi1 j) b) (tix (qi1 j) q) ch) := by
  have hi := idx1_2 (pt1 j kb)
  rw [pt1_val] at hi
  have hj := j.isLt; have hk := kb.isLt
  unfold iblk1
  rw [View.read_apply, cast_eq]
  show V c main_v57 _ = V c main_v57 _
  congr 1
  funext a
  apply Fin.ext
  match a with
  | ⟨0, _⟩ =>
    show win1_2.index (pt1 j kb) 0 * 2 + 1 * b.val = (tix (bi1 j) b).val
    rw [hi.1, tix_val]; show (2 * j.val + kb.val) / 4 * 2 + 1 * b.val = b.val + 2 * (j.val / 2); omega
  | ⟨1, _⟩ =>
    show win1_2.index (pt1 j kb) 1 * 512 + 1 * q.val = (tix (qi1 j) q).val
    rw [hi.2.1, tix_val]; show (2 * j.val + kb.val) / 2 % 2 * 512 + 1 * q.val = q.val + 512 * (j.val % 2); omega
  | ⟨2, _⟩ =>
    show win1_2.index (pt1 j kb) 2 * 512 + 1 * ch.val = ch.val
    rw [hi.2.2]; omega

theorem iblk1_3_apply (c : Dev nD) (j : Fin 4) (kb : Fin 2) (b : Fin 2) (u : Fin 1) (ch : Fin 512) :
    iblk1 V c 3 (pt1 j kb) (ix3 b u ch) = V c main_v51 (ix3 (tix (bi1 j) b) (0 : Fin 1) ch) := by
  have hi := idx1_3 (pt1 j kb)
  rw [pt1_val] at hi
  have hj := j.isLt; have hk := kb.isLt; have hu := u.isLt
  unfold iblk1
  rw [View.read_apply, cast_eq]
  show V c main_v51 _ = V c main_v51 _
  congr 1
  funext a
  apply Fin.ext
  match a with
  | ⟨0, _⟩ =>
    show win1_3.index (pt1 j kb) 0 * 2 + 1 * b.val = (tix (bi1 j) b).val
    rw [hi.1, tix_val]; show (2 * j.val + kb.val) / 4 * 2 + 1 * b.val = b.val + 2 * (j.val / 2); omega
  | ⟨1, _⟩ =>
    show win1_3.index (pt1 j kb) 1 * 1 + 1 * u.val = 0
    rw [hi.2.1]; omega
  | ⟨2, _⟩ =>
    show win1_3.index (pt1 j kb) 2 * 512 + 1 * ch.val = ch.val
    rw [hi.2.2]; omega

theorem iblk1_4_apply (c : Dev nD) (j : Fin 4) (kb : Fin 2) (b : Fin 2) (u : Fin 1) (ch : Fin 512) :
    iblk1 V c 4 (pt1 j kb) (ix3 b u ch) = V c main_v52 (ix3 (tix (bi1 j) b) (0 : Fin 1) ch) := by
  have hi := idx1_4 (pt1 j kb)
  rw [pt1_val] at hi
  have hj := j.isLt; have hk := kb.isLt; have hu := u.isLt
  unfold iblk1
  rw [View.read_apply, cast_eq]
  show V c main_v52 _ = V c main_v52 _
  congr 1
  funext a
  apply Fin.ext
  match a with
  | ⟨0, _⟩ =>
    show win1_4.index (pt1 j kb) 0 * 2 + 1 * b.val = (tix (bi1 j) b).val
    rw [hi.1, tix_val]; show (2 * j.val + kb.val) / 4 * 2 + 1 * b.val = b.val + 2 * (j.val / 2); omega
  | ⟨1, _⟩ =>
    show win1_4.index (pt1 j kb) 1 * 1 + 1 * u.val = 0
    rw [hi.2.1]; omega
  | ⟨2, _⟩ =>
    show win1_4.index (pt1 j kb) 2 * 512 + 1 * ch.val = ch.val
    rw [hi.2.2]; omega

theorem iblk1_5_apply (c : Dev nD) (j : Fin 4) (kb : Fin 2) (b : Fin 2) (u : Fin 1) (ch : Fin 512) :
    iblk1 V c 5 (pt1 j kb) (ix3 b u ch) = V c main_v53 (ix3 (tix (bi1 j) b) (0 : Fin 1) ch) := by
  have hi := idx1_5 (pt1 j kb)
  rw [pt1_val] at hi
  have hj := j.isLt; have hk := kb.isLt; have hu := u.isLt
  unfold iblk1
  rw [View.read_apply, cast_eq]
  show V c main_v53 _ = V c main_v53 _
  congr 1
  funext a
  apply Fin.ext
  match a with
  | ⟨0, _⟩ =>
    show win1_5.index (pt1 j kb) 0 * 2 + 1 * b.val = (tix (bi1 j) b).val
    rw [hi.1, tix_val]; show (2 * j.val + kb.val) / 4 * 2 + 1 * b.val = b.val + 2 * (j.val / 2); omega
  | ⟨1, _⟩ =>
    show win1_5.index (pt1 j kb) 1 * 1 + 1 * u.val = 0
    rw [hi.2.1]; omega
  | ⟨2, _⟩ =>
    show win1_5.index (pt1 j kb) 2 * 512 + 1 * ch.val = ch.val
    rw [hi.2.2]; omega

theorem iblk1_6_apply (c : Dev nD) (j : Fin 4) (kb : Fin 2) (b : Fin 2) (u : Fin 1) (ch : Fin 512) :
    iblk1 V c 6 (pt1 j kb) (ix3 b u ch) = V c main_v54 (ix3 (tix (bi1 j) b) (0 : Fin 1) ch) := by
  have hi := idx1_6 (pt1 j kb)
  rw [pt1_val] at hi
  have hj := j.isLt; have hk := kb.isLt; have hu := u.isLt
  unfold iblk1
  rw [View.read_apply, cast_eq]
  show V c main_v54 _ = V c main_v54 _
  congr 1
  funext a
  apply Fin.ext
  match a with
  | ⟨0, _⟩ =>
    show win1_6.index (pt1 j kb) 0 * 2 + 1 * b.val = (tix (bi1 j) b).val
    rw [hi.1, tix_val]; show (2 * j.val + kb.val) / 4 * 2 + 1 * b.val = b.val + 2 * (j.val / 2); omega
  | ⟨1, _⟩ =>
    show win1_6.index (pt1 j kb) 1 * 1 + 1 * u.val = 0
    rw [hi.2.1]; omega
  | ⟨2, _⟩ =>
    show win1_6.index (pt1 j kb) 2 * 512 + 1 * ch.val = ch.val
    rw [hi.2.2]; omega

/-- A statistics block does not depend on the kv step: the last step's is the first step's. -/
theorem iblk1_5_kv (c : Dev nD) (j : Fin 4) : iblk1 V c 5 (pt1 j 1) = iblk1 V c 5 (pt1 j 0) := by
  funext y
  obtain ⟨b, u, ch, rfl⟩ : ∃ (b : Fin 2) (u : Fin 1) (ch : Fin 512), y = ix3 b u ch := ⟨y 0, y 1, y 2, eq_ix3 y⟩
  rw [iblk1_5_apply, iblk1_5_apply]
theorem iblk1_6_kv (c : Dev nD) (j : Fin 4) : iblk1 V c 6 (pt1 j 1) = iblk1 V c 6 (pt1 j 0) := by
  funext y
  obtain ⟨b, u, ch, rfl⟩ : ∃ (b : Fin 2) (u : Fin 1) (ch : Fin 512), y = ix3 b u ch := ⟨y 0, y 1, y 2, eq_ix3 y⟩
  rw [iblk1_6_apply, iblk1_6_apply]

end Region1Val

/-! ## The region's output, under what its seven input arrays hold -/

section Final1
variable (V : RefVal Ideal) (Cc Ccs Cs : Fin (2 * 2) → Fin (2 * 512) → Fin 512 → EReal)
    (hc : ∀ (c : Dev nD) (b : Fin (2 * 2)) (t : Fin (2 * 512)) (ch : Fin 512), @Eq EReal (V c main_v55 (ix3 b t ch)) (Cc b t ch))
    (hs : ∀ (c : Dev nD) (b : Fin (2 * 2)) (t : Fin (2 * 512)) (ch : Fin 512), @Eq EReal (V c main_v56 (ix3 b t ch)) (Cs b t ch))
    (hcs : ∀ (c : Dev nD) (b : Fin (2 * 2)) (t : Fin (2 * 512)) (ch : Fin 512), @Eq EReal (V c main_v57 (ix3 b t ch)) (Ccs b t ch))
    (hmc : ∀ (c : Dev nD) (b : Fin (2 * 2)) (ch : Fin 512), @Eq EReal (V c main_v51 (ix3 b (0 : Fin 1) ch)) (Cert.Spec.mean Cert.Consts.k3.nQ Cc b ch))
    (hrc : ∀ (c : Dev nD) (b : Fin (2 * 2)) (ch : Fin 512), @Eq EReal (V c main_v52 (ix3 b (0 : Fin 1) ch)) (Ideal.div 1 (Cert.Spec.sd Cert.Consts.k3.eps Cert.Consts.k3.nQ Cc b ch)))
    (hms : ∀ (c : Dev nD) (b : Fin (2 * 2)) (ch : Fin 512), @Eq EReal (V c main_v53 (ix3 b (0 : Fin 1) ch)) (Cert.Spec.mean Cert.Consts.k3.nK Cs b ch))
    (hrs : ∀ (c : Dev nD) (b : Fin (2 * 2)) (ch : Fin 512), @Eq EReal (V c main_v54 (ix3 b (0 : Fin 1) ch)) (Ideal.div 1 (Cert.Spec.sd Cert.Consts.k3.eps Cert.Consts.k3.nK Cs b ch)))

include hc hs hcs hmc hrc hms hrs in
/-- After a tile's last step every entry of the output block is the tile's sum of squared errors. -/
theorem tile1_out (c : Dev nD) (j : Fin 4) (y : S1x1x8x128.Idx) :
    (outsAt1 V c (pt1 j 1).val (pt1 j 1).isLt).1 y
      = Cert.Spec.tileK 2 2 2 512 2 512 Cert.Consts.k3 Ccs Cc Cs (bi1 j) (qi1 j) := by
  rw [out1_tile V c j]
  unfold tileOut1
  rw [iblk1_5_kv V c j, iblk1_6_kv V c j]
  exact tile1_value Cc Ccs Cs (bi1 j) (qi1 j) (iblk1 V c 0 (pt1 j 0)) (iblk1 V c 2 (pt1 j 1)) (iblk1 V c 3 (pt1 j 0))
    (iblk1 V c 4 (pt1 j 0)) (iblk1 V c 5 (pt1 j 0)) (iblk1 V c 6 (pt1 j 0)) (fun kb => iblk1 V c 1 (pt1 j kb))
    (fun b q ch => (iblk1_0_apply V c j 0 b q ch).trans (hc c (tix (bi1 j) b) (tix (qi1 j) q) ch))
    (fun b q ch => (iblk1_2_apply V c j 1 b q ch).trans (hcs c (tix (bi1 j) b) (tix (qi1 j) q) ch))
    (fun b ch => (iblk1_3_apply V c j 0 b 0 ch).trans (hmc c (tix (bi1 j) b) ch))
    (fun b ch => (iblk1_4_apply V c j 0 b 0 ch).trans (hrc c (tix (bi1 j) b) ch))
    (fun b ch => (iblk1_5_apply V c j 0 b 0 ch).trans (hms c (tix (bi1 j) b) ch))
    (fun b ch => (iblk1_6_apply V c j 0 b 0 ch).trans (hrs c (tix (bi1 j) b) ch))
    (fun kb b m ch => (iblk1_1_apply V c j kb b m ch).trans (hs c (tix (bi1 j) b) (tix kb m) ch))
    y

end Final1

end Cert.KernelIdeal.Hand

end
-- ==== Proof.KI.Region1Cover.lean ====
/-
  Region 1 of the kernel program: from the blocks to the array.  The output array has shape (2, 2, 8, 128); the grid is
  2 x 2 x 2 (batch tile, query tile, kv step) and the point numbered t works on batch tile t / 4 and query tile
  t / 2 % 2.  A point at the last kv step writes back block (t / 4, t / 2 % 2, 0, 0) of shape (1, 1, 8, 128); the four
  blocks tile the array.  So when every entry of the block written at the last step of tile (b, q) is one value T b q
  (the tile's sum of squared errors, broadcast), the array ends holding T of its two leading coordinates, and on the
  extended reals its sum over all entries is the nested sum of T over the four tiles and the 8 x 128 entries of each.
-/
import proofs.«170986_j45183055954173_2_alg».proof.Proof.KI.Region1
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## A rank-4 index set as a product -/

/-- A rank-4 index set is the product of its four coordinate ranges … -/
private def idxEquiv4 {n0 n1 n2 n3 : ℕ} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
private theorem sum_idx4 {M : Type*} [AddCommMonoid M] {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## The output window's blocks -/

variable {F : FTy → Type} [FloatOps F]
variable (V : RefVal F)

/-- The batch tile a point of the grid works on. -/
def bt1 (t : Fin cfg1.N) : Fin 2 := ⟨t.val / 4, by have := lt_of_lt_of_eq t.isLt N_1; omega⟩
/-- The query tile a point of the grid works on. -/
def qt1 (t : Fin cfg1.N) : Fin 2 := ⟨t.val / 2 % 2, by omega⟩

/-- The printed index map of the output window, decided over the grid: point t is on block (t / 4, t / 2 % 2, 0, 0). -/
theorem idx_facts1_7 : ∀ t : Fin cfg1.N, win1_7.index t (0 : Fin 4) = t.val / 4 ∧ win1_7.index t (1 : Fin 4) = t.val / 2 % 2
    ∧ win1_7.index t (2 : Fin 4) = 0 ∧ win1_7.index t (3 : Fin 4) = 0 :=
  (by decide +kernel : ∀ t : Fin grid1.N, win1_7.index t (0 : Fin 4) = t.val / 4 ∧ win1_7.index t (1 : Fin 4) = t.val / 2 % 2
    ∧ win1_7.index t (2 : Fin 4) = 0 ∧ win1_7.index t (3 : Fin 4) = 0)

/-- An index of the array is in point t's block iff each coordinate is in the block's range on its axis. -/
theorem mem_blk1_7 (t : Fin cfg1.N) (i : S2x2x8x128.Idx) :
    i ∈ ((cfg1.win 7).blk t).view.set ↔ ∀ a : Fin 4, win1_7.index t a * S1x1x8x128.size a ≤ (i a).val
      ∧ (i a).val < win1_7.index t a * S1x1x8x128.size a + S1x1x8x128.size a := by
  show i ∈ ((View.whole main_v58).slice (win1_7.rect t)).set ↔ _
  rw [View.set_slice_whole, Rect.mem_set_unit]
  exact Iff.rfl

/-- The four blocks tile the array: every index is in the block written back at the last kv step of the tile its two
    leading coordinates name. -/
theorem covered1_7 (i : S2x2x8x128.Idx) :
    ∃ t : Fin cfg1.N, (cfg1.win 7).flush t = true ∧ i ∈ ((cfg1.win 7).blk t).view.set := by
  have hi0 : (i 0).val < 2 := (i 0).isLt
  have hi1 : (i 1).val < 2 := (i 1).isLt
  have hi2 : (i 2).val < 8 := (i 2).isLt
  have hi3 : (i 3).val < 128 := (i 3).isLt
  have hlt : ((i 0).val * 2 + (i 1).val) * 2 + 1 < cfg1.N := lt_of_lt_of_eq (by omega) N_1.symm
  refine ⟨⟨((i 0).val * 2 + (i 1).val) * 2 + 1, hlt⟩, (flush1_7 _).mpr (by show (((i 0).val * 2 + (i 1).val) * 2 + 1) % 2 = 1; omega), ?_⟩
  rw [mem_blk1_7]
  obtain ⟨e0, e1, e2, e3⟩ := idx_facts1_7 ⟨((i 0).val * 2 + (i 1).val) * 2 + 1, hlt⟩
  have d0 : (((i 0).val * 2 + (i 1).val) * 2 + 1) / 4 = (i 0).val := by omega
  have d1 : (((i 0).val * 2 + (i 1).val) * 2 + 1) / 2 % 2 = (i 1).val := by omega
  intro a
  match a with
  | ⟨0, _⟩ => show win1_7.index _ (0 : Fin 4) * 1 ≤ (i 0).val ∧ (i 0).val < win1_7.index _ (0 : Fin 4) * 1 + 1; rw [e0]; dsimp only; omega
  | ⟨1, _⟩ => show win1_7.index _ (1 : Fin 4) * 1 ≤ (i 1).val ∧ (i 1).val < win1_7.index _ (1 : Fin 4) * 1 + 1; rw [e1]; dsimp only; omega
  | ⟨2, _⟩ => show win1_7.index _ (2 : Fin 4) * 8 ≤ (i 2).val ∧ (i 2).val < win1_7.index _ (2 : Fin 4) * 8 + 8; rw [e2]; omega
  | ⟨3, _⟩ => show win1_7.index _ (3 : Fin 4) * 128 ≤ (i 3).val ∧ (i 3).val < win1_7.index _ (3 : Fin 4) * 128 + 128; rw [e3]; omega

/-! ## The array after the region -/

/-- What point t writes back to the output array: the output component of the accumulation. -/
theorem flushed1_7 (c : Dev nD) (t : Fin cfg1.N) :
    (dat1 V c).flushed 7 t = (cfg1.win 7).cut (grid1.coords t) (outsAt1 V c t.val t.isLt).1 := by
  show (cfg1.win 7).cut (grid1.coords t) ((dat1 V c).after 7 t) = _
  rw [after1_7]

/-- When every entry of the block a last-kv-step point leaves is one value T of the point's tile, the point writes back
    its block of the array i ↦ T (i 0) (i 1). -/
theorem flushed1_7_eq (c : Dev nD) (T : Fin 2 → Fin 2 → Elt F .f32)
    (hT : ∀ (t : Fin cfg1.N), t.val % 2 = 1 → ∀ y : S1x1x8x128.Idx, (outsAt1 V c t.val t.isLt).1 y = T (bt1 t) (qt1 t))
    (t : Fin cfg1.N) (ht : (cfg1.win 7).flush t = true) :
    (dat1 V c).flushed 7 t = ((cfg1.win 7).blk t).view.read (Elt F) (fun i : S2x2x8x128.Idx => T (i 0) (i 1)) := by
  rw [flushed1_7]
  funext j
  show (outsAt1 V c t.val t.isLt).1 j = T ((((cfg1.win 7).blk t).view.emb j) 0) ((((cfg1.win 7).blk t).view.emb j) 1)
  rw [hT t ((flush1_7 t).mp ht) j]
  obtain ⟨e0, e1, -, -⟩ := idx_facts1_7 t
  congr 1
  · apply Fin.ext
    show t.val / 4 = win1_7.index t (0 : Fin 4) * 1 + 1 * (j 0).val
    have hj : (j 0).val < 1 := (j 0).isLt
    omega
  · apply Fin.ext
    show t.val / 2 % 2 = win1_7.index t (1 : Fin 4) * 1 + 1 * (j 1).val
    have hj : (j 1).val < 1 := (j 1).isLt
    omega

/-- THE ARRAY after the region: T of the two leading coordinates, everywhere. -/
theorem final1_7 (c : Dev nD) (T : Fin 2 → Fin 2 → Elt F .f32)
    (hT : ∀ (t : Fin cfg1.N), t.val % 2 = 1 → ∀ y : S1x1x8x128.Idx, (outsAt1 V c t.val t.isLt).1 y = T (bt1 t) (qt1 t)) :
    (dat1 V c).arrAt 7 cfg1.N = (fun i : S2x2x8x128.Idx => T (i 0) (i 1)) :=
  (dat1 V c).arrAt_eq_of_cover 7 (fun i : S2x2x8x128.Idx => T (i 0) (i 1)) (fun t ht => flushed1_7_eq V c T hT t ht) covered1_7

/-! ## Its sum, on the extended reals -/

/-- The sum of all entries of the output array: the nested sum, over the two batch tiles, the two query tiles and the
    8 x 128 entries of each tile's block, of the tile's value. -/
theorem sum_out1 (V : RefVal Ideal) (c : Dev nD) (T : Fin 2 → Fin 2 → EReal)
    (hT : ∀ (t : Fin cfg1.N), t.val % 2 = 1 → ∀ y : S1x1x8x128.Idx, @Eq EReal ((outsAt1 V c t.val t.isLt).1 y) (T (bt1 t) (qt1 t))) :
    @Eq EReal (∑ j, ((dat1 V c).arrAt 7 cfg1.N : S2x2x8x128.Idx → EReal) j)
      (∑ b : Fin 2, ∑ q : Fin 2, ∑ _r : Fin 8, ∑ _l : Fin 128, T b q) := by
  rw [final1_7 V c T hT]
  exact sum_idx4 (fun i : S2x2x8x128.Idx => T (i 0) (i 1))

/-- The same with the inner sums counted: each tile's value stands in 1024 entries. -/
theorem sum_out1_nsmul (V : RefVal Ideal) (c : Dev nD) (T : Fin 2 → Fin 2 → EReal)
    (hT : ∀ (t : Fin cfg1.N), t.val % 2 = 1 → ∀ y : S1x1x8x128.Idx, @Eq EReal ((outsAt1 V c t.val t.isLt).1 y) (T (bt1 t) (qt1 t))) :
    @Eq EReal (∑ j, ((dat1 V c).arrAt 7 cfg1.N : S2x2x8x128.Idx → EReal) j) (∑ b : Fin 2, ∑ q : Fin 2, 1024 • T b q) := by
  rw [sum_out1 V c T hT]
  refine Finset.sum_congr rfl fun b _ => Finset.sum_congr rfl fun q _ => ?_
  simp only [Finset.sum_const, Finset.card_univ, Fintype.card_fin, smul_smul]
  rfl

end Cert.KernelIdeal.Hand

end
-- ==== Proof.KI.Region1Sum.lean ====
/-
  Region 1's output array, summed: under what the region's seven input arrays hold, the sum of all the entries of the
  output array is every tile's sum of squared errors, once per entry of the tile's 8 × 128 block.
-/
import proofs.«170986_j45183055954173_2_alg».proof.Proof.KI.Region1Val
import proofs.«170986_j45183055954173_2_alg».proof.Proof.KI.Region1Cover

set_option maxRecDepth 16384

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen
open Cert.Spec (tix)
open scoped BigOperators

section Sum1
variable (V : RefVal Ideal) (Cc Ccs Cs : Fin (2 * 2) → Fin (2 * 512) → Fin 512 → EReal)
    (hc : ∀ (c : Dev nD) (b : Fin (2 * 2)) (t : Fin (2 * 512)) (ch : Fin 512), @Eq EReal (V c main_v55 (ix3 b t ch)) (Cc b t ch))
    (hs : ∀ (c : Dev nD) (b : Fin (2 * 2)) (t : Fin (2 * 512)) (ch : Fin 512), @Eq EReal (V c main_v56 (ix3 b t ch)) (Cs b t ch))
    (hcs : ∀ (c : Dev nD) (b : Fin (2 * 2)) (t : Fin (2 * 512)) (ch : Fin 512), @Eq EReal (V c main_v57 (ix3 b t ch)) (Ccs b t ch))
    (hmc : ∀ (c : Dev nD) (b : Fin (2 * 2)) (ch : Fin 512), @Eq EReal (V c main_v51 (ix3 b (0 : Fin 1) ch)) (Cert.Spec.mean Cert.Consts.k3.nQ Cc b ch))
    (hrc : ∀ (c : Dev nD) (b : Fin (2 * 2)) (ch : Fin 512), @Eq EReal (V c main_v52 (ix3 b (0 : Fin 1) ch)) (Ideal.div 1 (Cert.Spec.sd Cert.Consts.k3.eps Cert.Consts.k3.nQ Cc b ch)))
    (hms : ∀ (c : Dev nD) (b : Fin (2 * 2)) (ch : Fin 512), @Eq EReal (V c main_v53 (ix3 b (0 : Fin 1) ch)) (Cert.Spec.mean Cert.Consts.k3.nK Cs b ch))
    (hrs : ∀ (c : Dev nD) (b : Fin (2 * 2)) (ch : Fin 512), @Eq EReal (V c main_v54 (ix3 b (0 : Fin 1) ch)) (Ideal.div 1 (Cert.Spec.sd Cert.Consts.k3.eps Cert.Consts.k3.nK Cs b ch)))

include hc hs hcs hmc hrc hms hrs in
/-- At every last kv step the output block's entries are the point's tile's sum of squared errors. -/
theorem tile1_out_at (c : Dev nD) (t : Fin cfg1.N) (h1 : t.val % 2 = 1) (y : S1x1x8x128.Idx) :
    @Eq EReal ((outsAt1 V c t.val t.isLt).1 y)
      (Cert.Spec.tileK 2 2 2 512 2 512 Cert.Consts.k3 Ccs Cc Cs (bt1 t) (qt1 t)) := by
  have hN : cfg1.N = 8 := N_1
  obtain ⟨j, rfl⟩ : ∃ j : Fin 4, t = pt1 j 1 :=
    ⟨⟨t.val / 2, by have := t.isLt; omega⟩, Fin.ext (by rw [pt1_val]; show t.val = 2 * (t.val / 2) + 1; omega)⟩
  have hj := j.isLt
  have e0 : bt1 (pt1 j 1) = bi1 j := Fin.ext (by show (2 * j.val + 1) / 4 = j.val / 2; omega)
  have e1 : qt1 (pt1 j 1) = qi1 j := Fin.ext (by show (2 * j.val + 1) / 2 % 2 = j.val % 2; omega)
  rw [e0, e1]
  exact tile1_out V Cc Ccs Cs hc hs hcs hmc hrc hms hrs c j y

include hc hs hcs hmc hrc hms hrs in
/-- THE REGION'S OUTPUT ARRAY, summed. -/
theorem out1_sum (c : Dev nD) :
    @Eq EReal (∑ j, ((dat1 V c).arrAt 7 cfg1.N : S2x2x8x128.Idx → EReal) j)
      (∑ bi : Fin 2, ∑ qi : Fin 2, ∑ _i : Fin 8, ∑ _j : Fin 128,
        Cert.Spec.tileK 2 2 2 512 2 512 Cert.Consts.k3 Ccs Cc Cs bi qi) :=
  sum_out1 V c (fun bi qi => Cert.Spec.tileK 2 2 2 512 2 512 Cert.Consts.k3 Ccs Cc Cs bi qi)
    (tile1_out_at V Cc Ccs Cs hc hs hcs hmc hrc hms hrs c)

end Sum1

end Cert.KernelIdeal.Hand

end
-- ==== Proof.KI.Region2Val1.lean ====
/-
  Region 2 of the kernel program: what the body leaves in the output block, as one term over the blocks it loaded.
  At a point of this region the body clears the three running sums, caches the normalised content block and its
  l2-normalised form, adds the one key block's weights, weighted values and weighted squares to the cleared sums, and
  stores the tile's sum of squared errors: every scratch buffer it reads is one it has just stored whole, so the
  stored payloads compose.
-/
import proofs.«170986_j45183055954173_2_alg».proof.Proof.KI.Region2Dat
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A load through the whole-shape rectangle of what a store through it, last of several, left: its payload. -/
theorem readCov_cons_unit_zero {Val : EltTy → Type} [∀ e, Nonempty (Val e)] {S : Shape} {e : EltTy} {sig' : RefSig} {κ : Kind}
    {sp : Space} (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- The l2-normalised query block the body caches, from the content block and its statistics. -/
def qn2 (x0 : Vec F S2x256x512 .f32) (x3 x4 : Vec F S2x1x512 .f32) : Vec F S2x256x512 .bf16 :=
  k2_pay11 (k2_pay7 x0 x3 x4) (k2_pay9 x0 x3 x4) k2_pay10

/-- The output block from the seven blocks the body loads: the content, style and stylised blocks and the four
    statistics. -/
def body2 (x0 x1 x2 : Vec F S2x256x512 .f32) (x3 x4 x5 x6 : Vec F S2x1x512 .f32) : Vec F S1x1x8x128 .f32 :=
  k2_pay3 (k2_pay14 x1 x5 x6 (qn2 x0 x3 x4) k2_pay4)
    (k2_pay1 (k2_pay12 x1) (k2_pay13 x1 x5 x6 (qn2 x0 x3 x4)) k2_pay5)
    (k2_pay2 (k2_pay12 x1) (k2_pay13 x1 x5 x6 (qn2 x0 x3 x4)) k2_pay6)
    (k2_pay8 x0 x3 x4) x2

/-- The output block's found pieces read back: the one covering store's payload, every scratch load reading the
    payload of the store before it. -/
theorem out2_piece (c : Dev nD) (i : grid2.Coords) (arg3 : Memref sig .tc .vmem S2x256x512 .f32) (harg3 : arg3.IsWhole) (arg4 : Memref sig .tc .vmem S2x256x512 .f32) (harg4 : arg4.IsWhole) (arg5 : Memref sig .tc .vmem S2x256x512 .f32) (harg5 : arg5.IsWhole) (arg6 : Memref sig .tc .vmem S2x1x512 .f32) (harg6 : arg6.IsWhole) (arg7 : Memref sig .tc .vmem S2x1x512 .f32) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S1x1x8x128 .f32) (harg10 : arg10.IsWhole) (arg11 : Memref sig .tc .vmem S2x256x1 .f32) (harg11 : arg11.IsWhole) (arg12 : Memref sig .tc .vmem S2x256x512 .f32) (harg12 : arg12.IsWhole) (arg13 : Memref sig .tc .vmem S2x256x512 .f32) (harg13 : arg13.IsWhole) (arg14 : Memref sig .tc .vmem S2x256x512 .f32) (harg14 : arg14.IsWhole) (arg15 : Memref sig .tc .vmem S2x256x512 .bf16) (harg15 : arg15.IsWhole) (hc0 : cond2_0 i) (hc1 : cond2_1 i)
    (x0 x1 x2 : Vec F S2x256x512 .f32) (x3 x4 x5 x6 : Vec F S2x1x512 .f32) :
    View.canon (kernelRun2 (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1 = body2 x0 x1 x2 x3 x4 x5 x6 := by
  unfold kernelRun2
  dsimp only
  sl_unfold_words
  rw [View.canon_unit_zero (S := S1x1x8x128) hz4]
  simp only [readCov_cons_unit_zero (S := S2x256x1) _ hz3, readCov_cons_unit_zero (S := S2x256x512) _ hz3]
  simp only [View.readAt_eq_ld, harg3.read_unread, harg4.read_unread, harg5.read_unread, harg6.read_unread,
    harg7.read_unread, harg8.read_unread, harg9.read_unread, View.ld_unit_zero (S := S2x256x512) hz3,
    View.ld_unit_zero (S := S2x1x512) hz3]
  rfl

/-- So at a point the output's staging buffer holds the body's term of the point's blocks. -/
theorem outsAt2_eq (V : RefVal F) (c : Dev nD) (t : Fin cfg2.N) :
    (outsAt2 V c t.val t.isLt).1
      = body2 (iblk2 V c 0 t) (iblk2 V c 1 t) (iblk2 V c 2 t) (iblk2 V c 3 t) (iblk2 V c 4 t) (iblk2 V c 5 t) (iblk2 V c 6 t) := by
  rw [outsAt2_A V c t (Nat.mod_one _) (Nat.mod_one _)]
  dsimp only
  exact out2_piece c (grid2.coords t) (ms2_0 t) (hs2_0 t) (ms2_1 t) (hs2_1 t) (ms2_2 t) (hs2_2 t) (ms2_3 t) (hs2_3 t) (ms2_4 t) (hs2_4 t)
    (ms2_5 t) (hs2_5 t) (ms2_6 t) (hs2_6 t) (ms2_7 t) (hs2_7 t) scM2_0 (Memref.isWhole_whole _) scM2_1 (Memref.isWhole_whole _)
    scM2_2 (Memref.isWhole_whole _) scM2_3 (Memref.isWhole_whole _) scM2_4 (Memref.isWhole_whole _) (hcond2_0 t) (hcond2_1 t)
    (iblk2 V c 0 t) (iblk2 V c 1 t) (iblk2 V c 2 t) (iblk2 V c 3 t) (iblk2 V c 4 t) (iblk2 V c 5 t) (iblk2 V c 6 t)

end Cert.KernelIdeal.Hand

end
-- ==== Proof.KI.Region2Val2.lean ====
/-
  Region 2 of the kernel program: the blocks its body loads at a point, read off the arrays the region finds.  The
  grid has two points, one per batch tile; the block of every input at point `t` is batch entries `2 t` and
  `2 t + 1` of its array, all tokens, all channels.
-/
import proofs.«170986_j45183055954173_2_alg».proof.Proof.KI.Region2Val1
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

/-- The input windows' block indices at a point: the batch tile is the point, the other axes have one block. -/
theorem idx2_in : ∀ t : Fin cfg2.N,
    (win2_0.index t 0 = t.val ∧ win2_0.index t 1 = 0 ∧ win2_0.index t 2 = 0)
    ∧ (win2_1.index t 0 = t.val ∧ win2_1.index t 1 = 0 ∧ win2_1.index t 2 = 0)
    ∧ (win2_2.index t 0 = t.val ∧ win2_2.index t 1 = 0 ∧ win2_2.index t 2 = 0)
    ∧ (win2_3.index t 0 = t.val ∧ win2_3.index t 1 = 0 ∧ win2_3.index t 2 = 0)
    ∧ (win2_4.index t 0 = t.val ∧ win2_4.index t 1 = 0 ∧ win2_4.index t 2 = 0)
    ∧ (win2_5.index t 0 = t.val ∧ win2_5.index t 1 = 0 ∧ win2_5.index t 2 = 0)
    ∧ (win2_6.index t 0 = t.val ∧ win2_6.index t 1 = 0 ∧ win2_6.index t 2 = 0) :=
  (by decide +kernel : ∀ t : Fin grid2.N, _)

/-- The content block at a point: rows `2 t + b` of its array. -/
theorem blk2_0 (V : RefVal F) (c : Dev nD) (t : Fin cfg2.N) (b : Fin 2) (q : Fin 256) (ch : Fin 512) (B : Fin 4) (Q : Fin 256)
    (hB : B.val = 2 * t.val + b.val) (hQ : Q.val = q.val) :
    (iblk2 V c 0 t : Vec F S2x256x512 .f32) (ix3 b q ch) = (V c main_v86 : Vec F S4x256x512 .f32) (ix3 B Q ch) := by
  unfold iblk2
  rw [View.read_apply]
  show V c main_v86 _ = V c main_v86 _
  congr 1
  funext a
  apply Fin.ext
  match a with
  | ⟨0, _⟩ => show win2_0.index t 0 * 2 + 1 * b.val = B.val; rw [(idx2_in t).1.1, hB]; omega
  | ⟨1, _⟩ => show win2_0.index t 1 * 256 + 1 * q.val = Q.val; rw [(idx2_in t).1.2.1, hQ]; omega
  | ⟨2, _⟩ => show win2_0.index t 2 * 512 + 1 * ch.val = ch.val; rw [(idx2_in t).1.2.2]; omega

/-- The style block at a point: rows `2 t + b` of its array. -/
theorem blk2_1 (V : RefVal F) (c : Dev nD) (t : Fin cfg2.N) (b : Fin 2) (q : Fin 256) (ch : Fin 512) (B : Fin 4) (Q : Fin 256)
    (hB : B.val = 2 * t.val + b.val) (hQ : Q.val = q.val) :
    (iblk2 V c 1 t : Vec F S2x256x512 .f32) (ix3 b q ch) = (V c main_v87 : Vec F S4x256x512 .f32) (ix3 B Q ch) := by
  unfold iblk2
  rw [View.read_apply]
  show V c main_v87 _ = V c main_v87 _
  congr 1
  funext a
  apply Fin.ext
  match a with
  | ⟨0, _⟩ => show win2_1.index t 0 * 2 + 1 * b.val = B.val; rw [(idx2_in t).2.1.1, hB]; omega
  | ⟨1, _⟩ => show win2_1.index t 1 * 256 + 1 * q.val = Q.val; rw [(idx2_in t).2.1.2.1, hQ]; omega
  | ⟨2, _⟩ => show win2_1.index t 2 * 512 + 1 * ch.val = ch.val; rw [(idx2_in t).2.1.2.2]; omega

/-- The stylised block at a point: rows `2 t + b` of its array. -/
theorem blk2_2 (V : RefVal F) (c : Dev nD) (t : Fin cfg2.N) (b : Fin 2) (q : Fin 256) (ch : Fin 512) (B : Fin 4) (Q : Fin 256)
    (hB : B.val = 2 * t.val + b.val) (hQ : Q.val = q.val) :
    (iblk2 V c 2 t : Vec F S2x256x512 .f32) (ix3 b q ch) = (V c main_v88 : Vec F S4x256x512 .f32) (ix3 B Q ch) := by
  unfold iblk2
  rw [View.read_apply]
  show V c main_v88 _ = V c main_v88 _
  congr 1
  funext a
  apply Fin.ext
  match a with
  | ⟨0, _⟩ => show win2_2.index t 0 * 2 + 1 * b.val = B.val; rw [(idx2_in t).2.2.1.1, hB]; omega
  | ⟨1, _⟩ => show win2_2.index t 1 * 256 + 1 * q.val = Q.val; rw [(idx2_in t).2.2.1.2.1, hQ]; omega
  | ⟨2, _⟩ => show win2_2.index t 2 * 512 + 1 * ch.val = ch.val; rw [(idx2_in t).2.2.1.2.2]; omega

/-- The content mean block at a point: rows `2 t + b` of its array. -/
theorem blk2_3 (V : RefVal F) (c : Dev nD) (t : Fin cfg2.N) (b : Fin 2) (ch : Fin 512) (B : Fin 4)
    (hB : B.val = 2 * t.val + b.val) :
    (iblk2 V c 3 t : Vec F S2x1x512 .f32) (ix3 b (0 : Fin 1) ch) = (V c main_v82 : Vec F S4x1x512 .f32) (ix3 B (0 : Fin 1) ch) := by
  unfold iblk2
  rw [View.read_apply]
  show V c main_v82 _ = V c main_v82 _
  congr 1
  funext a
  apply Fin.ext
  match a with
  | ⟨0, _⟩ => show win2_3.index t 0 * 2 + 1 * b.val = B.val; rw [(idx2_in t).2.2.2.1.1, hB]; omega
  | ⟨1, _⟩ => show win2_3.index t 1 * 1 + 1 * 0 = 0; rw [(idx2_in t).2.2.2.1.2.1]
  | ⟨2, _⟩ => show win2_3.index t 2 * 512 + 1 * ch.val = ch.val; rw [(idx2_in t).2.2.2.1.2.2]; omega

/-- The content reciprocal deviation block at a point: rows `2 t + b` of its array. -/
theorem blk2_4 (V : RefVal F) (c : Dev nD) (t : Fin cfg2.N) (b : Fin 2) (ch : Fin 512) (B : Fin 4)
    (hB : B.val = 2 * t.val + b.val) :
    (iblk2 V c 4 t : Vec F S2x1x512 .f32) (ix3 b (0 : Fin 1) ch) = (V c main_v83 : Vec F S4x1x512 .f32) (ix3 B (0 : Fin 1) ch) := by
  unfold iblk2
  rw [View.read_apply]
  show V c main_v83 _ = V c main_v83 _
  congr 1
  funext a
  apply Fin.ext
  match a with
  | ⟨0, _⟩ => show win2_4.index t 0 * 2 + 1 * b.val = B.val; rw [(idx2_in t).2.2.2.2.1.1, hB]; omega
  | ⟨1, _⟩ => show win2_4.index t 1 * 1 + 1 * 0 = 0; rw [(idx2_in t).2.2.2.2.1.2.1]
  | ⟨2, _⟩ => show win2_4.index t 2 * 512 + 1 * ch.val = ch.val; rw [(idx2_in t).2.2.2.2.1.2.2]; omega

/-- The style mean block at a point: rows `2 t + b` of its array. -/
theorem blk2_5 (V : RefVal F) (c : Dev nD) (t : Fin cfg2.N) (b : Fin 2) (ch : Fin 512) (B : Fin 4)
    (hB : B.val = 2 * t.val + b.val) :
    (iblk2 V c 5 t : Vec F S2x1x512 .f32) (ix3 b (0 : Fin 1) ch) = (V c main_v84 : Vec F S4x1x512 .f32) (ix3 B (0 : Fin 1) ch) := by
  unfold iblk2
  rw [View.read_apply]
  show V c main_v84 _ = V c main_v84 _
  congr 1
  funext a
  apply Fin.ext
  match a with
  | ⟨0, _⟩ => show win2_5.index t 0 * 2 + 1 * b.val = B.val; rw [(idx2_in t).2.2.2.2.2.1.1, hB]; omega
  | ⟨1, _⟩ => show win2_5.index t 1 * 1 + 1 * 0 = 0; rw [(idx2_in t).2.2.2.2.2.1.2.1]
  | ⟨2, _⟩ => show win2_5.index t 2 * 512 + 1 * ch.val = ch.val; rw [(idx2_in t).2.2.2.2.2.1.2.2]; omega

/-- The style reciprocal deviation block at a point: rows `2 t + b` of its array. -/
theorem blk2_6 (V : RefVal F) (c : Dev nD) (t : Fin cfg2.N) (b : Fin 2) (ch : Fin 512) (B : Fin 4)
    (hB : B.val = 2 * t.val + b.val) :
    (iblk2 V c 6 t : Vec F S2x1x512 .f32) (ix3 b (0 : Fin 1) ch) = (V c main_v85 : Vec F S4x1x512 .f32) (ix3 B (0 : Fin 1) ch) := by
  unfold iblk2
  rw [View.read_apply]
  show V c main_v85 _ = V c main_v85 _
  congr 1
  funext a
  apply Fin.ext
  match a with
  | ⟨0, _⟩ => show win2_6.index t 0 * 2 + 1 * b.val = B.val; rw [(idx2_in t).2.2.2.2.2.2.1, hB]; omega
  | ⟨1, _⟩ => show win2_6.index t 1 * 1 + 1 * 0 = 0; rw [(idx2_in t).2.2.2.2.2.2.2.1]
  | ⟨2, _⟩ => show win2_6.index t 2 * 512 + 1 * ch.val = ch.val; rw [(idx2_in t).2.2.2.2.2.2.2.2]; omega

end Cert.KernelIdeal.Hand

end
-- ==== Proof.KI.Pay2.lean ====
/-
  The values the third kernel's body stores, read at an index, at the ideal values: the equations of the first
  kernel's module at this kernel's block shapes (a query tile of 256 tokens, a key block of 256 tokens, 512 channels).
-/
import proofs.«170986_j45183055954173_2_alg».proof.Proof.KI.Pay0

noncomputable section

namespace Cert.KernelIdeal.PayVal

open Idealize.ShloMosaic Idealize.ShloMosaic.ValueIdx
open Cert.KernelIdeal Cert.KernelIdeal.Gen
open scoped BigOperators

/-! ## Region 2: query tile 256, key block 256, 512 channels -/

namespace R2

/-- The weights-by-values product at `(b, q, ch)`: the sum over the key block's tokens. -/
theorem matmul_pv_apply (w : FVec Ideal S2x256x256 .f32) (v : FVec Ideal S2x256x512 .f32) (b : Fin 2) (q : Fin 256) (ch : Fin 512) :
    matmul (F := Ideal) dot_S2x256x256_S2x256x512_S2x256x512_2_1_1_2_0_0 none w v (constant (F := Ideal) S2x256x512 .f32 0x00000000#32) (ix3 b q ch)
      = ∑ m : Fin 256, w (ix3 b q m) * v (ix3 b m ch) := by
  refine (Ideal.matmul_constant_zero_apply dot_S2x256x256_S2x256x512_S2x256x512_2_1_1_2_0_0 none w v (ix3 b q ch)).trans ?_
  refine (Equiv.sum_comp (contrEquiv1 dot_S2x256x256_S2x256x512_S2x256x512_2_1_1_2_0_0 256 rfl rfl).symm _).symm.trans ?_
  refine Finset.sum_congr rfl fun m _ => ?_
  refine congrArg₂ (· * ·) (congrArg w ?_) (congrArg v ?_)
  · funext ax
    match ax with
    | ⟨0, _⟩ => exact Fin.ext rfl
    | ⟨1, _⟩ => exact Fin.ext rfl
    | ⟨2, _⟩ =>
      exact Fin.ext ((DotDims.lhsIdx_val_of_single dot_S2x256x256_S2x256x512_S2x256x512_2_1_1_2_0_0 rfl _ _).trans (contrEquiv1_symm_val dot_S2x256x256_S2x256x512_S2x256x512_2_1_1_2_0_0 256 rfl rfl m))
  · funext ax
    match ax with
    | ⟨0, _⟩ => exact Fin.ext rfl
    | ⟨1, _⟩ =>
      exact Fin.ext ((DotDims.rhsIdx_val_of_single dot_S2x256x256_S2x256x512_S2x256x512_2_1_1_2_0_0 rfl _ _).trans (contrEquiv1_symm_val dot_S2x256x256_S2x256x512_S2x256x512_2_1_1_2_0_0 256 rfl rfl m))
    | ⟨2, _⟩ => exact Fin.ext rfl

/-- The queries-by-keys product at `(b, q, m)`: the inner product over the channels. -/
theorem matmul_qk_apply (x : FVec Ideal S2x256x512 .bf16) (y : FVec Ideal S2x256x512 .bf16) (b : Fin 2) (q : Fin 256) (m : Fin 256) :
    matmul (F := Ideal) dot_S2x256x512_S2x256x512_S2x256x256_2_2_1_1_0_0 none x y (constant (F := Ideal) S2x256x256 .f32 0x00000000#32) (ix3 b q m)
      = ∑ ch : Fin 512, x (ix3 b q ch) * y (ix3 b m ch) := by
  refine (Ideal.matmul_constant_zero_apply dot_S2x256x512_S2x256x512_S2x256x256_2_2_1_1_0_0 none x y (ix3 b q m)).trans ?_
  refine (Equiv.sum_comp (contrEquiv1 dot_S2x256x512_S2x256x512_S2x256x256_2_2_1_1_0_0 512 rfl rfl).symm _).symm.trans ?_
  refine Finset.sum_congr rfl fun ch _ => ?_
  refine congrArg₂ (· * ·) (congrArg x ?_) (congrArg y ?_)
  · funext ax
    match ax with
    | ⟨0, _⟩ => exact Fin.ext rfl
    | ⟨1, _⟩ => exact Fin.ext rfl
    | ⟨2, _⟩ =>
      exact Fin.ext ((DotDims.lhsIdx_val_of_single dot_S2x256x512_S2x256x512_S2x256x256_2_2_1_1_0_0 rfl _ _).trans (contrEquiv1_symm_val dot_S2x256x512_S2x256x512_S2x256x256_2_2_1_1_0_0 512 rfl rfl ch))
  · funext ax
    match ax with
    | ⟨0, _⟩ => exact Fin.ext rfl
    | ⟨1, _⟩ => exact Fin.ext rfl
    | ⟨2, _⟩ =>
      exact Fin.ext ((DotDims.rhsIdx_val_of_single dot_S2x256x512_S2x256x512_S2x256x256_2_2_1_1_0_0 rfl _ _).trans (contrEquiv1_symm_val dot_S2x256x512_S2x256x512_S2x256x256_2_2_1_1_0_0 512 rfl rfl ch))

/-- The zero the row sums start from. -/
theorem pay4_apply (j : S2x256x1.Idx) : k2_pay4 (F := Ideal) j = 0 := by
  unfold k2_pay4
  simp only [shapeCast_self]
  exact Cert.Consts.ofBits_zero

/-- The zero the weighted sums of the values start from. -/
theorem pay5_apply (j : S2x256x512.Idx) : k2_pay5 (F := Ideal) j = 0 := by
  unfold k2_pay5
  simp only [shapeCast_self]
  exact Cert.Consts.ofBits_zero

/-- The zero the weighted sums of the squares start from. -/
theorem pay6_apply (j : S2x256x512.Idx) : k2_pay6 (F := Ideal) j = 0 := by
  unfold k2_pay6
  simp only [shapeCast_self]
  exact Cert.Consts.ofBits_zero

/-- The normalised content block `nc`. -/
theorem pay7_apply (x0 : Vec Ideal S2x256x512 .f32) (x3 x4 : Vec Ideal S2x1x512 .f32) (b : Fin 2) (q : Fin 256) (ch : Fin 512) :
    k2_pay7 (F := Ideal) x0 x3 x4 (ix3 b q ch) = nrm x0 x3 x4 b q ch := by
  unfold k2_pay7
  simp only [shapeCast_self]
  exact nrm_vec_apply x0 x3 x4 _ _ b q ch

/-- The value cached for the last step is the same block. -/
theorem pay8_eq (x0 : Vec Ideal S2x256x512 .f32) (x3 x4 : Vec Ideal S2x1x512 .f32) :
    k2_pay8 (F := Ideal) x0 x3 x4 = k2_pay7 (F := Ideal) x0 x3 x4 := by
  unfold k2_pay8
  exact shapeCast_self _ _

theorem pay8_apply (x0 : Vec Ideal S2x256x512 .f32) (x3 x4 : Vec Ideal S2x1x512 .f32) (b : Fin 2) (q : Fin 256) (ch : Fin 512) :
    k2_pay8 (F := Ideal) x0 x3 x4 (ix3 b q ch) = nrm x0 x3 x4 b q ch := by
  rw [pay8_eq]; exact pay7_apply x0 x3 x4 b q ch

/-- The euclidean norm of each token's normalised channel vector. -/
theorem pay9_apply (x0 : Vec Ideal S2x256x512 .f32) (x3 x4 : Vec Ideal S2x1x512 .f32) (b : Fin 2) (q : Fin 256) :
    k2_pay9 (F := Ideal) x0 x3 x4 (ix3 b q (0 : Fin 1))
      = Ideal.sqrt (∑ ch : Fin 512, nrm x0 x3 x4 b q ch * nrm x0 x3 x4 b q ch) := by
  unfold k2_pay9
  refine congrArg Ideal.sqrt ?_
  refine (rowSum_apply _ _ _ _ _ b q 0).trans ?_
  refine Finset.sum_congr rfl fun ch _ => ?_
  exact congrArg₂ (· * ·) (pay7_apply x0 x3 x4 b q ch) (pay7_apply x0 x3 x4 b q ch)

/-- The floor under the norm. -/
theorem pay10_apply (j : S2x256x1.Idx) : k2_pay10 (F := Ideal) j = (Cert.Consts.e12R : EReal) := by
  unfold k2_pay10
  exact Cert.Consts.ofBits_e12

/-- The l2-normalised query block: the narrowing to bf16 is the identity at the ideal values. -/
theorem pay11_apply (v69 : FVec Ideal S2x256x512 .f32) (v76 v77 : FVec Ideal S2x256x1 .f32) (b : Fin 2) (q : Fin 256) (ch : Fin 512) :
    k2_pay11 (F := Ideal) v69 v76 v77 (ix3 b q ch)
      = Ideal.div (v69 (ix3 b q ch)) (max (v76 (ix3 b q (0 : Fin 1))) (v77 (ix3 b q (0 : Fin 1)))) := by
  unfold k2_pay11
  simp only [shapeCast_self]
  exact congrArg (Ideal.div (v69 (ix3 b q ch))) (broadcastTo_ab1_abc_apply (maximumf v76 v77) _ b q ch)

/-- The key block as loaded. -/
theorem pay12_eq (v3 : Vec Ideal S2x256x512 .f32) : k2_pay12 (F := Ideal) v3 = v3 := by
  unfold k2_pay12
  exact shapeCast_self v3 _

/-- The weights of the key block: the exponentials of the scores. -/
theorem pay13_apply (v3 : Vec Ideal S2x256x512 .f32) (v5 v9 : Vec Ideal S2x1x512 .f32) (v22 : Vec Ideal S2x256x512 .bf16)
    (b : Fin 2) (q : Fin 256) (m : Fin 256) :
    k2_pay13 (F := Ideal) v3 v5 v9 v22 (ix3 b q m)
      = Ideal.exp (∑ ch : Fin 512, v22 (ix3 b q ch) * Ideal.div (nrm v3 v5 v9 b m ch)
          (max (Ideal.sqrt (∑ ch' : Fin 512, nrm v3 v5 v9 b m ch' * nrm v3 v5 v9 b m ch')) (Cert.Consts.e12R : EReal))) := by
  unfold k2_pay13
  simp only [shapeCast_self, pay12_eq]
  refine congrArg Ideal.exp ?_
  refine (matmul_qk_apply v22 _ b q m).trans ?_
  refine Finset.sum_congr rfl fun ch _ => congrArg (v22 (ix3 b q ch) * ·) ?_
  refine (l2n_vec_apply _ _ _ _ _ _ _ b m ch).trans ?_
  refine congrArg₂ Ideal.div (nrm_vec_apply v3 v5 v9 _ _ b m ch) ?_
  refine congrArg₂ max (congrArg Ideal.sqrt (Finset.sum_congr rfl fun ch' _ => ?_)) Cert.Consts.ofBits_e12
  exact congrArg₂ (· * ·) (nrm_vec_apply v3 v5 v9 _ _ b m ch') (nrm_vec_apply v3 v5 v9 _ _ b m ch')

/-- The running row sums: the old sums plus the block's. -/
theorem pay14_apply (v3 : Vec Ideal S2x256x512 .f32) (v5 v9 : Vec Ideal S2x1x512 .f32) (v22 : Vec Ideal S2x256x512 .bf16)
    (v25 : Vec Ideal S2x256x1 .f32) (b : Fin 2) (q : Fin 256) :
    k2_pay14 (F := Ideal) v3 v5 v9 v22 v25 (ix3 b q (0 : Fin 1))
      = v25 (ix3 b q (0 : Fin 1)) + ∑ m : Fin 256, k2_pay13 (F := Ideal) v3 v5 v9 v22 (ix3 b q m) := by
  unfold k2_pay14
  simp only [shapeCast_self]
  exact congrArg (v25 (ix3 b q (0 : Fin 1)) + ·) (rowSum_apply _ _ _ _ _ b q 0)

/-- The running weighted sums of the values. -/
theorem pay1_apply (v4 : FVec Ideal S2x256x512 .f32) (v24 : FVec Ideal S2x256x256 .f32) (v32 : Vec Ideal S2x256x512 .f32)
    (b : Fin 2) (q : Fin 256) (ch : Fin 512) :
    k2_pay1 (F := Ideal) v4 v24 v32 (ix3 b q ch) = v32 (ix3 b q ch) + ∑ m : Fin 256, v24 (ix3 b q m) * v4 (ix3 b m ch) := by
  unfold k2_pay1
  simp only [shapeCast_self]
  exact congrArg (v32 (ix3 b q ch) + ·) (matmul_pv_apply v24 v4 b q ch)

/-- The running weighted sums of the squares. -/
theorem pay2_apply (v4 : FVec Ideal S2x256x512 .f32) (v24 : FVec Ideal S2x256x256 .f32) (v39 : Vec Ideal S2x256x512 .f32)
    (b : Fin 2) (q : Fin 256) (ch : Fin 512) :
    k2_pay2 (F := Ideal) v4 v24 v39 (ix3 b q ch)
      = v39 (ix3 b q ch) + ∑ m : Fin 256, v24 (ix3 b q m) * (v4 (ix3 b m ch) * v4 (ix3 b m ch)) := by
  unfold k2_pay2
  simp only [shapeCast_self]
  exact congrArg (v39 (ix3 b q ch) + ·) (matmul_pv_apply v24 (mulf v4 v4) b q ch)

/-- The tile's sum of squared errors, in every entry of the output block. -/
theorem pay3_apply (v48 : Vec Ideal S2x256x1 .f32) (v51 v54 v64 v67 : Vec Ideal S2x256x512 .f32) (j : S1x1x8x128.Idx) :
    k2_pay3 (F := Ideal) v48 v51 v54 v64 v67 j
      = ∑ b : Fin 2, ∑ q : Fin 256, ∑ ch : Fin 512,
          terr v48 v51 v54 v64 v67 b q ch * terr v48 v51 v54 v64 v67 b q ch := by
  unfold k2_pay3
  simp only [shapeCast_self]
  refine (tile_sum_apply _ _ _ _ _ _ _ j).trans ?_
  refine Finset.sum_congr rfl fun b _ => Finset.sum_congr rfl fun q _ => Finset.sum_congr rfl fun ch _ => ?_
  exact congrArg₂ (· * ·) (terr_vec_apply v48 v51 v54 v64 v67 _ _ b q ch) (terr_vec_apply v48 v51 v54 v64 v67 _ _ b q ch)

end R2

end Cert.KernelIdeal.PayVal

end
-- ==== Proof.KI.Region2ValMath.lean ====
/-
  Region 2's tile arithmetic on the extended reals, over VARIABLE blocks.  One tile (batch tile `bi`, query tile `qi`)
  is one key step: the first clears the running sums and caches the normalised content block and its unit-length
  form; every step adds the key block's row sums of weights, weighted values and weighted squares; the last forms the
  squared errors and adds them up.  Given what the blocks hold in terms of the level's arrays, the stored output value
  is the tile's sum `Spec.tileK`.
-/
import proofs.«170986_j45183055954173_2_alg».proof.Proof.KI.Pay2
import proofs.«170986_j45183055954173_2_alg».proof.Proof.Spec
import proofs.«170986_j45183055954173_2_alg».proof.Proof.Consts

noncomputable section

namespace Cert.KernelIdeal.Hand

open Idealize.ShloMosaic Idealize.ShloMosaic.ValueIdx
open Cert.KernelIdeal Cert.KernelIdeal.Gen Cert.KernelIdeal.PayVal Cert.KernelIdeal.PayVal.R2
open scoped BigOperators
open Cert.Spec (tix)

section Tile

variable (Cc Ccs : Fin (2 * 2) → Fin (1 * 256) → Fin 512 → EReal) (Cs : Fin (2 * 2) → Fin (1 * 256) → Fin 512 → EReal)
  (bi : Fin 2) (qi : Fin 1)
  (x0 x2 : Vec Ideal S2x256x512 .f32) (x3 x4 x5 x6 : Vec Ideal S2x1x512 .f32) (x1 : Vec Ideal S2x256x512 .f32)
  (h0 : ∀ (b : Fin 2) (q : Fin 256) (ch : Fin 512), @Eq EReal (x0 (ix3 b q ch)) (Cc (tix bi b) (tix qi q) ch))
  (h2 : ∀ (b : Fin 2) (q : Fin 256) (ch : Fin 512), @Eq EReal (x2 (ix3 b q ch)) (Ccs (tix bi b) (tix qi q) ch))
  (h3 : ∀ (b : Fin 2) (ch : Fin 512), @Eq EReal (x3 (ix3 b (0 : Fin 1) ch)) (Cert.Spec.mean Cert.Consts.k4.nQ Cc (tix bi b) ch))
  (h4 : ∀ (b : Fin 2) (ch : Fin 512), @Eq EReal (x4 (ix3 b (0 : Fin 1) ch)) (Ideal.div 1 (Cert.Spec.sd Cert.Consts.k4.eps Cert.Consts.k4.nQ Cc (tix bi b) ch)))
  (h5 : ∀ (b : Fin 2) (ch : Fin 512), @Eq EReal (x5 (ix3 b (0 : Fin 1) ch)) (Cert.Spec.mean Cert.Consts.k4.nK Cs (tix bi b) ch))
  (h6 : ∀ (b : Fin 2) (ch : Fin 512), @Eq EReal (x6 (ix3 b (0 : Fin 1) ch)) (Ideal.div 1 (Cert.Spec.sd Cert.Consts.k4.eps Cert.Consts.k4.nK Cs (tix bi b) ch)))
  (h1 : ∀ (b : Fin 2) (m : Fin 256) (ch : Fin 512), @Eq EReal (x1 (ix3 b m ch)) (Cs (tix bi b) (tix (0 : Fin 1) m) ch))

include h0 h3 h4 in
/-- The normalised content block is the kernel's instance normalisation of the content array. -/
theorem nrm_c2 (b : Fin 2) (q : Fin 256) (ch : Fin 512) :
    nrm x0 x3 x4 b q ch = Cert.Spec.inormK Cert.Consts.k4.eps Cert.Consts.k4.nQ Cc (tix bi b) (tix qi q) ch := by
  unfold nrm Cert.Spec.inormK
  rw [h0, h3, h4]

include h5 h6 h1 in
/-- A key block normalised is the instance normalisation of the style array. -/
theorem nrm_s2 (b : Fin 2) (m : Fin 256) (ch : Fin 512) :
    nrm x1 x5 x6 b m ch = Cert.Spec.inormK Cert.Consts.k4.eps Cert.Consts.k4.nK Cs (tix bi b) (tix (0 : Fin 1) m) ch := by
  unfold nrm Cert.Spec.inormK
  rw [h1, h5, h6]

include h0 h3 h4 in
/-- The cached unit-length query block. -/
theorem qn2_apply (b : Fin 2) (q : Fin 256) (ch : Fin 512) :
    @Eq EReal ((k2_pay11 (F := Ideal) (k2_pay7 (F := Ideal) x0 x3 x4) (k2_pay9 (F := Ideal) x0 x3 x4) (k2_pay10 (F := Ideal))) (ix3 b q ch))
      (Cert.Spec.l2n Cert.Consts.k4.e12 (Cert.Spec.inormK Cert.Consts.k4.eps Cert.Consts.k4.nQ Cc) (tix bi b) (tix qi q) ch) := by
  rw [pay11_apply, pay7_apply, pay9_apply, pay10_apply]
  unfold Cert.Spec.l2n
  rw [nrm_c2 Cc bi qi x0 x3 x4 h0 h3 h4]
  refine congrArg (fun z => Ideal.div _ (max (Ideal.sqrt z) _)) (Finset.sum_congr rfl fun ch' _ => ?_)
  rw [nrm_c2 Cc bi qi x0 x3 x4 h0 h3 h4]

include h0 h3 h4 h5 h6 h1 in
/-- The weights of a key block: the exponentials of the scores. -/
theorem w2_apply (b : Fin 2) (q : Fin 256) (m : Fin 256) :
    @Eq EReal (k2_pay13 (F := Ideal) x1 x5 x6 (k2_pay11 (F := Ideal) (k2_pay7 (F := Ideal) x0 x3 x4) (k2_pay9 (F := Ideal) x0 x3 x4) (k2_pay10 (F := Ideal))) (ix3 b q m))
      (Cert.Spec.expK 2 2 1 256 1 256 Cert.Consts.k4 Cc Cs (tix bi b) (tix qi q) (tix (0 : Fin 1) m)) := by
  rw [pay13_apply]
  unfold Cert.Spec.expK Cert.Spec.scoreK Cert.Spec.score
  refine congrArg Ideal.exp (Finset.sum_congr rfl fun ch _ => ?_)
  rw [qn2_apply Cc bi qi x0 x3 x4 h0 h3 h4]
  refine congrArg₂ (fun a b : EReal => a * b) rfl ?_
  unfold Cert.Spec.l2n
  rw [nrm_s2 Cs bi x5 x6 x1 h5 h6 h1]
  refine congrArg (fun z => Ideal.div _ (max (Ideal.sqrt z) _)) (Finset.sum_congr rfl fun ch' _ => ?_)
  rw [nrm_s2 Cs bi x5 x6 x1 h5 h6 h1]

include h0 h3 h4 h5 h6 h1 in
/-- The row sums of the weights over the tile's key blocks. -/
theorem l1_apply (b : Fin 2) (q : Fin 256) :
    @Eq EReal ((k2_pay14 (F := Ideal) x1 x5 x6 (k2_pay11 (F := Ideal) (k2_pay7 (F := Ideal) x0 x3 x4) (k2_pay9 (F := Ideal) x0 x3 x4) (k2_pay10 (F := Ideal))) (k2_pay4 (F := Ideal))) (ix3 b q (0 : Fin 1)))
      (Cert.Spec.sumK 2 2 1 256 1 256 Cert.Consts.k4 Cc Cs (tix bi b) (tix qi q)) := by
  rw [pay14_apply, pay4_apply, zero_add]
  unfold Cert.Spec.sumK
  rw [Fin.sum_univ_one]
  simp only [w2_apply Cc Cs bi qi x0 x3 x4 x5 x6 x1 h0 h3 h4 h5 h6 h1]

include h0 h3 h4 h5 h6 h1 in
/-- The weighted values over the tile's key blocks. -/
theorem a1_apply (b : Fin 2) (q : Fin 256) (ch : Fin 512) :
    @Eq EReal ((k2_pay1 (F := Ideal) (k2_pay12 (F := Ideal) x1) (k2_pay13 (F := Ideal) x1 x5 x6 (k2_pay11 (F := Ideal) (k2_pay7 (F := Ideal) x0 x3 x4) (k2_pay9 (F := Ideal) x0 x3 x4) (k2_pay10 (F := Ideal)))) (k2_pay5 (F := Ideal))) (ix3 b q ch))
      (Cert.Spec.accK 2 2 1 256 1 256 Cert.Consts.k4 Cc Cs (tix bi b) (tix qi q) ch) := by
  rw [pay1_apply, pay5_apply, zero_add]
  unfold Cert.Spec.accK
  rw [Fin.sum_univ_one]
  simp only [w2_apply Cc Cs bi qi x0 x3 x4 x5 x6 x1 h0 h3 h4 h5 h6 h1, pay12_eq, h1]

include h0 h3 h4 h5 h6 h1 in
/-- The weighted squares over the tile's key blocks. -/
theorem a21_apply (b : Fin 2) (q : Fin 256) (ch : Fin 512) :
    @Eq EReal ((k2_pay2 (F := Ideal) (k2_pay12 (F := Ideal) x1) (k2_pay13 (F := Ideal) x1 x5 x6 (k2_pay11 (F := Ideal) (k2_pay7 (F := Ideal) x0 x3 x4) (k2_pay9 (F := Ideal) x0 x3 x4) (k2_pay10 (F := Ideal)))) (k2_pay6 (F := Ideal))) (ix3 b q ch))
      (Cert.Spec.acc2K 2 2 1 256 1 256 Cert.Consts.k4 Cc Cs (tix bi b) (tix qi q) ch) := by
  rw [pay2_apply, pay6_apply, zero_add]
  unfold Cert.Spec.acc2K
  rw [Fin.sum_univ_one]
  simp only [w2_apply Cc Cs bi qi x0 x3 x4 x5 x6 x1 h0 h3 h4 h5 h6 h1, pay12_eq, h1]

include h0 h2 h3 h4 h5 h6 h1 in
/-- THE TILE: what the last key step stores in every entry of the output block is the tile's sum of squared errors. -/
theorem tile2_value (j : S1x1x8x128.Idx) :
    @Eq EReal (k2_pay3 (F := Ideal)
        (k2_pay14 (F := Ideal) x1 x5 x6 (k2_pay11 (F := Ideal) (k2_pay7 (F := Ideal) x0 x3 x4) (k2_pay9 (F := Ideal) x0 x3 x4) (k2_pay10 (F := Ideal))) (k2_pay4 (F := Ideal)))
        (k2_pay1 (F := Ideal) (k2_pay12 (F := Ideal) x1) (k2_pay13 (F := Ideal) x1 x5 x6 (k2_pay11 (F := Ideal) (k2_pay7 (F := Ideal) x0 x3 x4) (k2_pay9 (F := Ideal) x0 x3 x4) (k2_pay10 (F := Ideal)))) (k2_pay5 (F := Ideal)))
        (k2_pay2 (F := Ideal) (k2_pay12 (F := Ideal) x1) (k2_pay13 (F := Ideal) x1 x5 x6 (k2_pay11 (F := Ideal) (k2_pay7 (F := Ideal) x0 x3 x4) (k2_pay9 (F := Ideal) x0 x3 x4) (k2_pay10 (F := Ideal)))) (k2_pay6 (F := Ideal)))
        (k2_pay8 (F := Ideal) x0 x3 x4) x2 j)
      (Cert.Spec.tileK 2 2 1 256 1 256 Cert.Consts.k4 Ccs Cc Cs bi qi) := by
  rw [pay3_apply]
  unfold Cert.Spec.tileK
  refine Finset.sum_congr rfl fun b _ => Finset.sum_congr rfl fun q _ => Finset.sum_congr rfl fun ch _ => ?_
  have e : terr (k2_pay14 (F := Ideal) x1 x5 x6 (k2_pay11 (F := Ideal) (k2_pay7 (F := Ideal) x0 x3 x4) (k2_pay9 (F := Ideal) x0 x3 x4) (k2_pay10 (F := Ideal))) (k2_pay4 (F := Ideal)))
        (k2_pay1 (F := Ideal) (k2_pay12 (F := Ideal) x1) (k2_pay13 (F := Ideal) x1 x5 x6 (k2_pay11 (F := Ideal) (k2_pay7 (F := Ideal) x0 x3 x4) (k2_pay9 (F := Ideal) x0 x3 x4) (k2_pay10 (F := Ideal)))) (k2_pay5 (F := Ideal)))
        (k2_pay2 (F := Ideal) (k2_pay12 (F := Ideal) x1) (k2_pay13 (F := Ideal) x1 x5 x6 (k2_pay11 (F := Ideal) (k2_pay7 (F := Ideal) x0 x3 x4) (k2_pay9 (F := Ideal) x0 x3 x4) (k2_pay10 (F := Ideal)))) (k2_pay6 (F := Ideal)))
        (k2_pay8 (F := Ideal) x0 x3 x4) x2 b q ch
      = Ccs (tix bi b) (tix qi q) ch - Cert.Spec.aatK 2 2 1 256 1 256 Cert.Consts.k4 Cc Cs (tix bi b) (tix qi q) ch := by
    unfold terr wmean Cert.Spec.aatK Cert.Spec.meanK Cert.Spec.mean2K
    rw [l1_apply Cc Cs bi qi x0 x3 x4 x5 x6 x1 h0 h3 h4 h5 h6 h1, a1_apply Cc Cs bi qi x0 x3 x4 x5 x6 x1 h0 h3 h4 h5 h6 h1, a21_apply Cc Cs bi qi x0 x3 x4 x5 x6 x1 h0 h3 h4 h5 h6 h1, pay8_apply, nrm_c2 Cc bi qi x0 x3 x4 h0 h3 h4, h2]
    rfl
  rw [e]

end Tile

end Cert.KernelIdeal.Hand

end
-- ==== Proof.KI.Region2Cover.lean ====
/-
  Region 2 of the kernel program: from the blocks to the array.  The output array has shape (2, 1, 8, 128); point `t` of
  the grid writes back block `(t, 0, 0, 0)` of shape (1, 1, 8, 128), and the two blocks tile the array.  So when every
  entry of the block written at point `t` is one value `T t` (the tile's sum of squared errors, broadcast), the array
  ends holding `T` of its leading coordinate, and on the extended reals its sum over all entries is the nested sum of
  `T` over the two blocks and the 1 × 8 × 128 entries of each.
-/
import proofs.«170986_j45183055954173_2_alg».proof.Proof.KI.Region2Dat
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## A rank-4 index set as a product -/

/-- A rank-4 index set is the product of its four coordinate ranges … -/
def idxEquiv4 {n0 n1 n2 n3 : ℕ} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## The output window's blocks -/

variable {F : FTy → Type} [FloatOps F]
variable (V : RefVal F)

/-- The batch tile a point of the grid works on: the point's own number (the grid is 2 × 1 × 1). -/
def tile2 (t : Fin cfg2.N) : Fin 2 := ⟨t.val, lt_of_lt_of_eq t.isLt N_2⟩

/-- The printed index map of the output window, decided over the grid: point `t` writes block `(t, 0, 0, 0)`. -/
theorem idx_facts2_7 : ∀ t : Fin cfg2.N, win2_7.index t (0 : Fin 4) = t.val ∧ win2_7.index t (1 : Fin 4) = 0
    ∧ win2_7.index t (2 : Fin 4) = 0 ∧ win2_7.index t (3 : Fin 4) = 0 :=
  (by decide +kernel : ∀ t : Fin grid2.N, win2_7.index t (0 : Fin 4) = t.val ∧ win2_7.index t (1 : Fin 4) = 0
    ∧ win2_7.index t (2 : Fin 4) = 0 ∧ win2_7.index t (3 : Fin 4) = 0)

/-- An index of the array is in point `t`'s block iff each coordinate is in the block's range on its axis. -/
theorem mem_blk2_7 (t : Fin cfg2.N) (i : S2x1x8x128.Idx) :
    i ∈ ((cfg2.win 7).blk t).view.set ↔ ∀ a : Fin 4, win2_7.index t a * S1x1x8x128.size a ≤ (i a).val
      ∧ (i a).val < win2_7.index t a * S1x1x8x128.size a + S1x1x8x128.size a := by
  show i ∈ ((View.whole main_v89).slice (win2_7.rect t)).set ↔ _
  rw [View.set_slice_whole, Rect.mem_set_unit]
  exact Iff.rfl

/-- The two blocks tile the array: every index is in the block of the point its leading coordinate names. -/
theorem covered2_7 (i : S2x1x8x128.Idx) :
    ∃ t : Fin cfg2.N, (cfg2.win 7).flush t = true ∧ i ∈ ((cfg2.win 7).blk t).view.set := by
  have hi0 : (i 0).val < 2 := (i 0).isLt
  have hi1 : (i 1).val < 1 := (i 1).isLt
  have hi2 : (i 2).val < 8 := (i 2).isLt
  have hi3 : (i 3).val < 128 := (i 3).isLt
  refine ⟨⟨(i 0).val, lt_of_lt_of_eq hi0 N_2.symm⟩, flush2_7 _, ?_⟩
  rw [mem_blk2_7]
  obtain ⟨e0, e1, e2, e3⟩ := idx_facts2_7 ⟨(i 0).val, lt_of_lt_of_eq hi0 N_2.symm⟩
  intro a
  match a with
  | ⟨0, _⟩ => show win2_7.index _ (0 : Fin 4) * 1 ≤ (i 0).val ∧ (i 0).val < win2_7.index _ (0 : Fin 4) * 1 + 1; rw [e0]; dsimp only; omega
  | ⟨1, _⟩ => show win2_7.index _ (1 : Fin 4) * 1 ≤ (i 1).val ∧ (i 1).val < win2_7.index _ (1 : Fin 4) * 1 + 1; rw [e1]; omega
  | ⟨2, _⟩ => show win2_7.index _ (2 : Fin 4) * 8 ≤ (i 2).val ∧ (i 2).val < win2_7.index _ (2 : Fin 4) * 8 + 8; rw [e2]; omega
  | ⟨3, _⟩ => show win2_7.index _ (3 : Fin 4) * 128 ≤ (i 3).val ∧ (i 3).val < win2_7.index _ (3 : Fin 4) * 128 + 128; rw [e3]; omega

/-! ## The array after the region -/

/-- What point `t` writes back to the output array: the output component of `outsAt2`. -/
theorem flushed2_7 (c : Dev nD) (t : Fin cfg2.N) :
    (dat2 V c).flushed 7 t = (cfg2.win 7).cut (grid2.coords t) (outsAt2 V c t.val t.isLt).1 := by
  show (cfg2.win 7).cut (grid2.coords t) ((dat2 V c).after 7 t) = _
  rw [after2_7]

/-- When every entry of the block a point leaves is one value `T` of the point's batch tile, the point writes back its
    block of the array `i ↦ T (i 0)`. -/
theorem flushed2_7_eq (c : Dev nD) (T : Fin 2 → Elt F .f32)
    (hT : ∀ (t : Fin cfg2.N) (y : S1x1x8x128.Idx), (outsAt2 V c t.val t.isLt).1 y = T (tile2 t)) (t : Fin cfg2.N) :
    (dat2 V c).flushed 7 t = ((cfg2.win 7).blk t).view.read (Elt F) (fun i : S2x1x8x128.Idx => T (i 0)) := by
  rw [flushed2_7]
  funext j
  show (outsAt2 V c t.val t.isLt).1 j = T ((((cfg2.win 7).blk t).view.emb j) 0)
  rw [hT t j]
  congr 1
  apply Fin.ext
  obtain ⟨e0, -, -, -⟩ := idx_facts2_7 t
  show t.val = win2_7.index t (0 : Fin 4) * 1 + 1 * (j 0).val
  have hj : (j 0).val < 1 := (j 0).isLt
  omega

/-- THE ARRAY after the region: `T` of the leading coordinate, everywhere. -/
theorem final2_7 (c : Dev nD) (T : Fin 2 → Elt F .f32)
    (hT : ∀ (t : Fin cfg2.N) (y : S1x1x8x128.Idx), (outsAt2 V c t.val t.isLt).1 y = T (tile2 t)) :
    (dat2 V c).arrAt 7 cfg2.N = (fun i : S2x1x8x128.Idx => T (i 0)) :=
  (dat2 V c).arrAt_eq_of_cover 7 (fun i : S2x1x8x128.Idx => T (i 0)) (fun t _ => flushed2_7_eq V c T hT t) covered2_7

/-! ## Its sum, on the extended reals -/

/-- The sum of all entries of the output array: the nested sum, over the two batch tiles and the 1 × 8 × 128 entries of
    each tile's block, of the tile's value. -/
theorem sum_out2 (V : RefVal Ideal) (c : Dev nD) (T : Fin 2 → EReal)
    (hT : ∀ (t : Fin cfg2.N) (y : S1x1x8x128.Idx), @Eq EReal ((outsAt2 V c t.val t.isLt).1 y) (T (tile2 t))) :
    @Eq EReal (∑ j, ((dat2 V c).arrAt 7 cfg2.N : S2x1x8x128.Idx → EReal) j)
      (∑ b : Fin 2, ∑ _q : Fin 1, ∑ _r : Fin 8, ∑ _l : Fin 128, T b) := by
  rw [final2_7 V c T hT]
  exact sum_idx4 (fun i : S2x1x8x128.Idx => T (i 0))

/-- The same with the inner sums counted: each tile's value stands in 1024 entries. -/
theorem sum_out2_nsmul (V : RefVal Ideal) (c : Dev nD) (T : Fin 2 → EReal)
    (hT : ∀ (t : Fin cfg2.N) (y : S1x1x8x128.Idx), @Eq EReal ((outsAt2 V c t.val t.isLt).1 y) (T (tile2 t))) :
    @Eq EReal (∑ j, ((dat2 V c).arrAt 7 cfg2.N : S2x1x8x128.Idx → EReal) j) (∑ b : Fin 2, 1024 • T b) := by
  rw [sum_out2 V c T hT]
  refine Finset.sum_congr rfl fun b _ => ?_
  simp only [Finset.sum_const, Finset.card_univ, Fintype.card_fin, smul_smul]
  rfl

end Cert.KernelIdeal.Hand

end
-- ==== Proof.KI.Region2Val3.lean ====
/-
  Region 2 of the kernel program: the value of its output array, on the extended reals, in terms of the level's arrays.
  When the region is entered its seven input arrays hold the content, style and stylised arrays `Cc`, `Cs`, `Ccs`
  (tokens flattened) and, per batch entry and channel, the content's and the style's means and reciprocal deviations.
  Point `t` of the two-point grid loads batch entries `2 t`, `2 t + 1` of each, and every entry of the block it writes
  back is the sum of squared errors of batch tile `t`; the two blocks tile the output array, so the sum of all its
  entries is the nested sum of the tiles' values.
-/
import proofs.«170986_j45183055954173_2_alg».proof.Proof.KI.Region2Val2
import proofs.«170986_j45183055954173_2_alg».proof.Proof.KI.Region2ValMath
import proofs.«170986_j45183055954173_2_alg».proof.Proof.KI.Region2Cover

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx
open scoped BigOperators
open Cert.Spec (tix)

section Value

variable (V : RefVal Ideal)
  (Cc Ccs : Fin (2 * 2) → Fin (1 * 256) → Fin 512 → EReal) (Cs : Fin (2 * 2) → Fin (1 * 256) → Fin 512 → EReal)
  (hc : ∀ (c : Dev nD) (b : Fin 4) (t : Fin 256) (ch : Fin 512),
    @Eq EReal ((V c main_v86 : S4x256x512.Idx → EReal) (ix3 b t ch)) (Cc b t ch))
  (hs : ∀ (c : Dev nD) (b : Fin 4) (t : Fin 256) (ch : Fin 512),
    @Eq EReal ((V c main_v87 : S4x256x512.Idx → EReal) (ix3 b t ch)) (Cs b t ch))
  (hcs : ∀ (c : Dev nD) (b : Fin 4) (t : Fin 256) (ch : Fin 512),
    @Eq EReal ((V c main_v88 : S4x256x512.Idx → EReal) (ix3 b t ch)) (Ccs b t ch))
  (hmc : ∀ (c : Dev nD) (b : Fin 4) (ch : Fin 512),
    @Eq EReal ((V c main_v82 : S4x1x512.Idx → EReal) (ix3 b (0 : Fin 1) ch)) (Cert.Spec.mean Cert.Consts.k4.nQ Cc b ch))
  (hrc : ∀ (c : Dev nD) (b : Fin 4) (ch : Fin 512),
    @Eq EReal ((V c main_v83 : S4x1x512.Idx → EReal) (ix3 b (0 : Fin 1) ch))
      (Ideal.div 1 (Cert.Spec.sd Cert.Consts.k4.eps Cert.Consts.k4.nQ Cc b ch)))
  (hms : ∀ (c : Dev nD) (b : Fin 4) (ch : Fin 512),
    @Eq EReal ((V c main_v84 : S4x1x512.Idx → EReal) (ix3 b (0 : Fin 1) ch)) (Cert.Spec.mean Cert.Consts.k4.nK Cs b ch))
  (hrs : ∀ (c : Dev nD) (b : Fin 4) (ch : Fin 512),
    @Eq EReal ((V c main_v85 : S4x1x512.Idx → EReal) (ix3 b (0 : Fin 1) ch))
      (Ideal.div 1 (Cert.Spec.sd Cert.Consts.k4.eps Cert.Consts.k4.nK Cs b ch)))

/-- Batch entry `b` of tile `t` is entry `2 t + b` of the arrays. -/
theorem tix_tile2_val (t : Fin cfg2.N) (b : Fin 2) : (tix (tile2 t) b : Fin (2 * 2)).val = 2 * t.val + b.val := by
  show b.val + 2 * t.val = 2 * t.val + b.val
  omega

/-- With one query tile and one key block, token `q` of the block is token `q` of the array. -/
theorem tix_zero_val (q : Fin 256) : (tix (0 : Fin 1) q : Fin (1 * 256)).val = q.val := by
  show q.val + 256 * 0 = q.val
  omega

include hc hs hcs hmc hrc hms hrs in
/-- Every entry of the block point `t` writes back is the sum of squared errors of batch tile `t`. -/
theorem tile2_at (c : Dev nD) (t : Fin cfg2.N) (y : S1x1x8x128.Idx) :
    @Eq EReal ((outsAt2 V c t.val t.isLt).1 y)
      (Cert.Spec.tileK 2 2 1 256 1 256 Cert.Consts.k4 Ccs Cc Cs (tile2 t) (0 : Fin 1)) := by
  rw [outsAt2_eq]
  unfold body2 qn2
  exact tile2_value Cc Ccs Cs (tile2 t) (0 : Fin 1) (iblk2 V c 0 t) (iblk2 V c 2 t) (iblk2 V c 3 t) (iblk2 V c 4 t)
    (iblk2 V c 5 t) (iblk2 V c 6 t) (iblk2 V c 1 t)
    (fun b q ch => (blk2_0 V c t b q ch (tix (tile2 t) b) (tix (0 : Fin 1) q) (tix_tile2_val t b) (tix_zero_val q)).trans
      (hc c (tix (tile2 t) b) (tix (0 : Fin 1) q) ch))
    (fun b q ch => (blk2_2 V c t b q ch (tix (tile2 t) b) (tix (0 : Fin 1) q) (tix_tile2_val t b) (tix_zero_val q)).trans
      (hcs c (tix (tile2 t) b) (tix (0 : Fin 1) q) ch))
    (fun b ch => (blk2_3 V c t b ch (tix (tile2 t) b) (tix_tile2_val t b)).trans (hmc c (tix (tile2 t) b) ch))
    (fun b ch => (blk2_4 V c t b ch (tix (tile2 t) b) (tix_tile2_val t b)).trans (hrc c (tix (tile2 t) b) ch))
    (fun b ch => (blk2_5 V c t b ch (tix (tile2 t) b) (tix_tile2_val t b)).trans (hms c (tix (tile2 t) b) ch))
    (fun b ch => (blk2_6 V c t b ch (tix (tile2 t) b) (tix_tile2_val t b)).trans (hrs c (tix (tile2 t) b) ch))
    (fun b m ch => (blk2_1 V c t b m ch (tix (tile2 t) b) (tix (0 : Fin 1) m) (tix_tile2_val t b) (tix_zero_val m)).trans
      (hs c (tix (tile2 t) b) (tix (0 : Fin 1) m) ch))
    y

include hc hs hcs hmc hrc hms hrs in
/-- The sum of all entries of the region's output array: every tile's sum of squared errors, once per entry of its
    8 × 128 block. -/
theorem out2_sum (c : Dev nD) :
    @Eq EReal (∑ j, ((dat2 V c).arrAt 7 cfg2.N : S2x1x8x128.Idx → EReal) j)
      (∑ bi : Fin 2, ∑ qi : Fin 1, ∑ _i : Fin 8, ∑ _j : Fin 128,
        Cert.Spec.tileK 2 2 1 256 1 256 Cert.Consts.k4 Ccs Cc Cs bi qi) := by
  refine (sum_out2 V c (fun bi => Cert.Spec.tileK 2 2 1 256 1 256 Cert.Consts.k4 Ccs Cc Cs bi (0 : Fin 1))
    (tile2_at V Cc Ccs Cs hc hs hcs hmc hrc hms hrs c)).trans ?_
  refine Finset.sum_congr rfl fun bi _ => Finset.sum_congr rfl fun qi _ => ?_
  obtain rfl : qi = 0 := Subsingleton.elim _ _
  rfl

end Value

end Cert.KernelIdeal.Hand

end
-- ==== Proof.KI.ValueFinal.lean ====
/-
  The kernel's result as a function of its arguments: each region's output array, summed, is the sum over its tiles
  of 1024 copies of the tile's squared error, and the host's last operations make the three level losses of them.
-/
import proofs.«170986_j45183055954173_2_alg».proof.Proof.KI.Value
import proofs.«170986_j45183055954173_2_alg».proof.Proof.KI.Host0
import proofs.«170986_j45183055954173_2_alg».proof.Proof.KI.Host1
import proofs.«170986_j45183055954173_2_alg».proof.Proof.KI.Host2
import proofs.«170986_j45183055954173_2_alg».proof.Proof.KI.Region0ValTile
import proofs.«170986_j45183055954173_2_alg».proof.Proof.KI.Region1Sum
import proofs.«170986_j45183055954173_2_alg».proof.Proof.KI.Region2Val3

set_option maxRecDepth 16384

noncomputable section

namespace Cert.KernelIdeal.Hand

open Idealize.ShloMosaic Idealize.ShloMosaic.TcCoe Idealize.ShloMosaic.ValueIdx
open Cert.KernelIdeal Cert.KernelIdeal.Gen Cert.KernelIdeal.HostVal

variable (m : (ℓ : Loc nD τ sig) → Buf (Elt Ideal) ℓ) (c : Dev nD)

/-- Region 0's output array, summed. -/
theorem sum0 :
    @Eq EReal (∑ j, (out0 m c : S2x8x8x128.Idx → EReal) j)
      (∑ bi : Fin 2, ∑ qi : Fin 8, ∑ _i : Fin 8, ∑ _j : Fin 128,
        Cert.Spec.tileK 2 2 8 512 4 1024 Cert.Consts.k2
          (Cert.Arr.flat (B := 4) (H := 64) (W := 64) (C := 256) (m ((c : Thread nD τ).loc main_arg0) : S4x64x64x256.Idx → EReal))
          (Cert.Arr.flat (B := 4) (H := 64) (W := 64) (C := 256) (m ((c : Thread nD τ).loc main_arg3) : S4x64x64x256.Idx → EReal))
          (Cert.Arr.flat (B := 4) (H := 64) (W := 64) (C := 256) (m ((c : Thread nD τ).loc main_arg6) : S4x64x64x256.Idx → EReal)) bi qi) :=
  Val0.out0_sum (En0 m) c (Cert.Arr.flat (B := 4) (H := 64) (W := 64) (C := 256) (m ((c : Thread nD τ).loc main_arg3) : S4x64x64x256.Idx → EReal)) (Cert.Arr.flat (B := 4) (H := 64) (W := 64) (C := 256) (m ((c : Thread nD τ).loc main_arg0) : S4x64x64x256.Idx → EReal)) (Cert.Arr.flat (B := 4) (H := 64) (W := 64) (C := 256) (m ((c : Thread nD τ).loc main_arg6) : S4x64x64x256.Idx → EReal))
    (fun b t ch => entry0_c m c b t ch) (fun b t ch => entry0_s m c b t ch) (fun b t ch => entry0_cs m c b t ch)
    (fun b ch => entry0_mc m c b ch) (fun b ch => entry0_rc m c b ch)
    (fun b ch => entry0_ms m c b ch) (fun b ch => entry0_rs m c b ch)

/-- Region 1's output array, summed. -/
theorem sum1 :
    @Eq EReal (∑ j, (out1 m c : S2x2x8x128.Idx → EReal) j)
      (∑ bi : Fin 2, ∑ qi : Fin 2, ∑ _i : Fin 8, ∑ _j : Fin 128,
        Cert.Spec.tileK 2 2 2 512 2 512 Cert.Consts.k3
          (Cert.Arr.flat (B := 4) (H := 32) (W := 32) (C := 512) (m ((c : Thread nD τ).loc main_arg1) : S4x32x32x512.Idx → EReal))
          (Cert.Arr.flat (B := 4) (H := 32) (W := 32) (C := 512) (m ((c : Thread nD τ).loc main_arg4) : S4x32x32x512.Idx → EReal))
          (Cert.Arr.flat (B := 4) (H := 32) (W := 32) (C := 512) (m ((c : Thread nD τ).loc main_arg7) : S4x32x32x512.Idx → EReal)) bi qi) :=
  out1_sum (En1 m) (Cert.Arr.flat (B := 4) (H := 32) (W := 32) (C := 512) (m ((c : Thread nD τ).loc main_arg4) : S4x32x32x512.Idx → EReal)) (Cert.Arr.flat (B := 4) (H := 32) (W := 32) (C := 512) (m ((c : Thread nD τ).loc main_arg1) : S4x32x32x512.Idx → EReal)) (Cert.Arr.flat (B := 4) (H := 32) (W := 32) (C := 512) (m ((c : Thread nD τ).loc main_arg7) : S4x32x32x512.Idx → EReal))
    (fun c' b t ch => by rw [Subsingleton.elim c' c]; exact entry1_c m (outsA m) c b t ch) (fun c' b t ch => by rw [Subsingleton.elim c' c]; exact entry1_s m (outsA m) c b t ch)
    (fun c' b t ch => by rw [Subsingleton.elim c' c]; exact entry1_cs m (outsA m) c b t ch)
    (fun c' b ch => by rw [Subsingleton.elim c' c]; exact entry1_mc m (outsA m) c b ch) (fun c' b ch => by rw [Subsingleton.elim c' c]; exact entry1_rc m (outsA m) c b ch)
    (fun c' b ch => by rw [Subsingleton.elim c' c]; exact entry1_ms m (outsA m) c b ch) (fun c' b ch => by rw [Subsingleton.elim c' c]; exact entry1_rs m (outsA m) c b ch) c

/-- Region 2's output array, summed. -/
theorem sum2 :
    @Eq EReal (∑ j, (out2 m c : S2x1x8x128.Idx → EReal) j)
      (∑ bi : Fin 2, ∑ qi : Fin 1, ∑ _i : Fin 8, ∑ _j : Fin 128,
        Cert.Spec.tileK 2 2 1 256 1 256 Cert.Consts.k4
          (Cert.Arr.flat (B := 4) (H := 16) (W := 16) (C := 512) (m ((c : Thread nD τ).loc main_arg2) : S4x16x16x512.Idx → EReal))
          (Cert.Arr.flat (B := 4) (H := 16) (W := 16) (C := 512) (m ((c : Thread nD τ).loc main_arg5) : S4x16x16x512.Idx → EReal))
          (Cert.Arr.flat (B := 4) (H := 16) (W := 16) (C := 512) (m ((c : Thread nD τ).loc main_arg8) : S4x16x16x512.Idx → EReal)) bi qi) :=
  out2_sum (En2 m) (Cert.Arr.flat (B := 4) (H := 16) (W := 16) (C := 512) (m ((c : Thread nD τ).loc main_arg5) : S4x16x16x512.Idx → EReal)) (Cert.Arr.flat (B := 4) (H := 16) (W := 16) (C := 512) (m ((c : Thread nD τ).loc main_arg2) : S4x16x16x512.Idx → EReal)) (Cert.Arr.flat (B := 4) (H := 16) (W := 16) (C := 512) (m ((c : Thread nD τ).loc main_arg8) : S4x16x16x512.Idx → EReal))
    (fun c' b t ch => by rw [Subsingleton.elim c' c]; exact entry2_c m (outsB m) c b t ch) (fun c' b t ch => by rw [Subsingleton.elim c' c]; exact entry2_s m (outsB m) c b t ch)
    (fun c' b t ch => by rw [Subsingleton.elim c' c]; exact entry2_cs m (outsB m) c b t ch)
    (fun c' b ch => by rw [Subsingleton.elim c' c]; exact entry2_mc m (outsB m) c b ch) (fun c' b ch => by rw [Subsingleton.elim c' c]; exact entry2_rc m (outsB m) c b ch)
    (fun c' b ch => by rw [Subsingleton.elim c' c]; exact entry2_ms m (outsB m) c b ch) (fun c' b ch => by rw [Subsingleton.elim c' c]; exact entry2_rs m (outsB m) c b ch) c

/-- The kernel's result: the three level losses in the kernel's spelling, added. -/
theorem kernel_value :
    Gen.V19 m (outs m) c main_v94 = fun _ =>
      (Cert.Spec.lossK 2 2 8 512 4 1024 Cert.Consts.k2
          (Cert.Arr.flat (B := 4) (H := 64) (W := 64) (C := 256) (m ((c : Thread nD τ).loc main_arg0) : S4x64x64x256.Idx → EReal))
          (Cert.Arr.flat (B := 4) (H := 64) (W := 64) (C := 256) (m ((c : Thread nD τ).loc main_arg3) : S4x64x64x256.Idx → EReal))
          (Cert.Arr.flat (B := 4) (H := 64) (W := 64) (C := 256) (m ((c : Thread nD τ).loc main_arg6) : S4x64x64x256.Idx → EReal))
        + Cert.Spec.lossK 2 2 2 512 2 512 Cert.Consts.k3
          (Cert.Arr.flat (B := 4) (H := 32) (W := 32) (C := 512) (m ((c : Thread nD τ).loc main_arg1) : S4x32x32x512.Idx → EReal))
          (Cert.Arr.flat (B := 4) (H := 32) (W := 32) (C := 512) (m ((c : Thread nD τ).loc main_arg4) : S4x32x32x512.Idx → EReal))
          (Cert.Arr.flat (B := 4) (H := 32) (W := 32) (C := 512) (m ((c : Thread nD τ).loc main_arg7) : S4x32x32x512.Idx → EReal)))
        + Cert.Spec.lossK 2 2 1 256 1 256 Cert.Consts.k4
          (Cert.Arr.flat (B := 4) (H := 16) (W := 16) (C := 512) (m ((c : Thread nD τ).loc main_arg2) : S4x16x16x512.Idx → EReal))
          (Cert.Arr.flat (B := 4) (H := 16) (W := 16) (C := 512) (m ((c : Thread nD τ).loc main_arg5) : S4x16x16x512.Idx → EReal))
          (Cert.Arr.flat (B := 4) (H := 16) (W := 16) (C := 512) (m ((c : Thread nD τ).loc main_arg8) : S4x16x16x512.Idx → EReal)) :=
  kernel_value_of m c (sum0 m c) (sum1 m c) (sum2 m c)

end Cert.KernelIdeal.Hand

end
-- ==== Proof.Ref.Basic.lean ====
/-
  Straight lines of host operations, cut into stretches.

  The reference program's @main is one line of 410 tensor operations.  It is handled in stretches: a line that is
  the concatenation of two stretches runs as the first and then the second (`StableHlo.seq_append`), and what the
  buffers hold after it is what the second leaves from what the first left (`after_append`).  A property of every
  operation of each stretch is a property of every operation of the line (`forall_append`).  A stretch whose
  operations write only references of a list `W` leaves every reference outside `W` as it was, so a set of
  references that no stretch writes is left unchanged by the whole line (`Keeps`).
-/
import proofs.«170986_j45183055954173_2_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers after two stretches run one after the other: the second's fold over the first's. -/
theorem after_append (a b : List (HloOp τ sig (Elt F))) (V : Valuation τ sig (Elt F)) :
    after (a ++ b) V = after b (after a V) := by
  induction a generalizing V with
  | nil => rfl
  | cons op a ih => simp only [List.cons_append, after_cons, ih]

/-- What holds of every element of two lists holds of every element of their concatenation. -/
theorem forall_append {α : Type} {p : α → Prop} {a b : List α} (ha : a.Forall p) (hb : b.Forall p) : (a ++ b).Forall p :=
  List.forall_iff_forall_mem.mpr fun x hx =>
    (List.mem_append.mp hx).elim (List.forall_iff_forall_mem.mp ha x) (List.forall_iff_forall_mem.mp hb x)

/-- An operation whose one written buffer is the reference `y` writes inside any list of references holding `y`. -/
theorem writes_sub_of_mem {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The program's nine arguments. -/
abbrev argRefs : List (Ref sig .tc) :=
  [main_arg0, main_arg1, main_arg2, main_arg3, main_arg4, main_arg5, main_arg6, main_arg7, main_arg8]

/-- A line of operations leaves every reference of `A` holding what it held. -/
def Keeps (A : List (Ref sig .tc)) (l : List (HloOp τ sig (Elt F))) : Prop :=
  ∀ (V : Valuation τ sig (Elt F)), ∀ r ∈ A, after l V (Proc.devRef .tc r) = V (Proc.devRef .tc r)

/-- A stretch that writes only references of `W` keeps every reference outside `W`. -/
theorem keeps_of_writes {A W : List (Ref sig .tc)} {l : List (HloOp τ sig (Elt F))}
    (hW : l.Forall fun op => op.writes ⊆ (W.map (Proc.devRef (τ := τ) .tc)).toFinset) (hA : ∀ r ∈ A, r ∉ W) : Keeps A l :=
  fun V r hr => after_of_writes_sub l V hW (hA r hr)

/-- Two stretches that each keep `A`, run one after the other, keep `A`. -/
theorem keeps_append {A : List (Ref sig .tc)} {a b : List (HloOp τ sig (Elt F))} (ha : Keeps A a) (hb : Keeps A b) :
    Keeps A (a ++ b) := fun V r hr => by
  rw [after_append, hb _ r hr, ha V r hr]

section Chain

variable {Λ : Labels}

/-- A chain of the one stretch is the stretch. -/
theorem chain_seq_one (a : List (HloOp τ sig (Elt F))) :
    (Pipeline.chain [seq a] : Prog (TpuEff nD τ sig (Elt F) Λ .tc) PUnit) = seq a := by
  rw [Pipeline.chain_cons, Pipeline.chain_nil]
  exact ((seq_append a []).symm.trans (by rw [List.append_nil]))

/-- A stretch, then a chain that is itself one line: the concatenated line. -/
theorem chain_seq_cons (a : List (HloOp τ sig (Elt F))) (qs : List (Prog (TpuEff nD τ sig (Elt F) Λ .tc) PUnit))
    (b : List (HloOp τ sig (Elt F))) (h : Pipeline.chain qs = seq b) :
    Pipeline.chain (seq a :: qs) = seq (a ++ b) := by
  rw [Pipeline.chain_cons, h, seq_append]

end Chain

end Cert.ReferenceIdeal.Hand

end
-- ==== Proof.Ref.W0.lean ====
/-
  Window 0 of the reference program's @main as stretches of operations: each list is the window's statements in
  order, a called function's body written out over that call's record of buffers (its own calls likewise), with for
  each stretch that its operations touch TensorCore references only, determine their results, and which references
  they write; then the window itself as the chain of its stretches.
-/
import proofs.«170986_j45183055954173_2_alg».proof.Proof.Gen.ReferenceIdeal
import Idealize.ShloMosaic.Lib.StableHlo.Run
import Idealize.ShloMosaic.Lib.Pipeline.Regions
import proofs.«170986_j45183055954173_2_alg».proof.Proof.Ref.Basic
set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch 0: 7 operations of @main (window 0). -/
abbrev st0 : List (HloOp τ sig (Elt F)) :=
  [ StableHlo.nullary main_cst (constant S_ .f32 0x00000000#32),
    StableHlo.binary main_arg3 main_cst main_v0 ((fun x v => Host.reduceAdd x v reducesTo_S4x64x64x256_S4x256_d1_2 h_S_) : (⟨S4x64x64x256, .f32⟩ : BufTy).Contents (Elt F) → (⟨S_, .f32⟩ : BufTy).Contents (Elt F) → (⟨S4x256, .f32⟩ : BufTy).Contents (Elt F)),
    StableHlo.unary main_v0 main_v1 (broadcastInDim S4x1x1x256 ![0, 3] bcast_S4x256_S4x1x1x256_0_3 : (⟨S4x256, .f32⟩ : BufTy).Contents (Elt F) → (⟨S4x1x1x256, .f32⟩ : BufTy).Contents (Elt F)),
    StableHlo.nullary main_cst_0 (constant S_ .f32 0x45800000#32),
    StableHlo.unary main_cst_0 main_v2 (broadcastInDim S4x1x1x256 ![] bcast_S_S4x1x1x256 : (⟨S_, .f32⟩ : BufTy).Contents (Elt F) → (⟨S4x1x1x256, .f32⟩ : BufTy).Contents (Elt F)),
    StableHlo.binary main_v1 main_v2 main_v3 (Host.divf : (⟨S4x1x1x256, .f32⟩ : BufTy).Contents (Elt F) → (⟨S4x1x1x256, .f32⟩ : BufTy).Contents (Elt F) → (⟨S4x1x1x256, .f32⟩ : BufTy).Contents (Elt F)),
    StableHlo.nullary main_c (constantI S_ 32 0#32) ]
theorem st0_sub : (st0 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
theorem st0_fresh : (st0 : List (HloOp τ sig (Elt F))).Forall fun op => op.fresh = ∅ := by
  simp only [List.Forall]; repeat' constructor
/-- The references stretch 0 writes, in order. -/
abbrev st0_W : List (Ref sig .tc) := [main_cst, main_v0, main_v1, main_cst_0, main_v2, main_v3, main_c]
theorem st0_writes : (st0 : List (HloOp τ sig (Elt F))).Forall fun op => op.writes ⊆ ((st0_W).map (Proc.devRef (τ := τ) .tc)).toFinset :=
  ⟨writes_sub_of_mem (nullary_writes ..) (by decide), writes_sub_of_mem (binary_writes ..) (by decide), writes_sub_of_mem (unary_writes ..) (by decide), writes_sub_of_mem (nullary_writes ..) (by decide), writes_sub_of_mem (unary_writes ..) (by decide), writes_sub_of_mem (binary_writes ..) (by decide), writes_sub_of_mem (nullary_writes ..) (by decide)⟩
theorem st0_keeps : Keeps argRefs (st0 : List (HloOp τ sig (Elt F))) := keeps_of_writes st0_writes (by decide)

/-- Stretch 1: 23 operations of @var (main_call0), the call unfolded over its record (window 0). -/
abbrev st1 : List (HloOp τ sig (Elt F)) :=
  [ StableHlo.TRef.nullary (.of main_call0_cst : StableHlo.TRef sig ⟨S_, .f32⟩) (constant S_ .f32 0x00000000#32),
    StableHlo.TRef.binary (.of main_arg3 : StableHlo.TRef sig ⟨S4x64x64x256, .f32⟩) (.of main_call0_cst : StableHlo.TRef sig ⟨S_, .f32⟩) (.of main_call0_v0 : StableHlo.TRef sig ⟨S4x256, .f32⟩) (fun x v => Host.reduceAdd x v reducesTo_S4x64x64x256_S4x256_d1_2 h_S_),
    StableHlo.TRef.unary (.of main_call0_v0 : StableHlo.TRef sig ⟨S4x256, .f32⟩) (.of main_call0_v1 : StableHlo.TRef sig ⟨S4x1x1x256, .f32⟩) (broadcastInDim S4x1x1x256 ![0, 3] bcast_S4x256_S4x1x1x256_0_3),
    StableHlo.TRef.nullary (.of main_call0_cst_0 : StableHlo.TRef sig ⟨S_, .f32⟩) (constant S_ .f32 0x45800000#32),
    StableHlo.TRef.unary (.of main_call0_cst_0 : StableHlo.TRef sig ⟨S_, .f32⟩) (.of main_call0_v2 : StableHlo.TRef sig ⟨S4x1x1x256, .f32⟩) (broadcastInDim S4x1x1x256 ![] bcast_S_S4x1x1x256),
    StableHlo.TRef.binary (.of main_call0_v1 : StableHlo.TRef sig ⟨S4x1x1x256, .f32⟩) (.of main_call0_v2 : StableHlo.TRef sig ⟨S4x1x1x256, .f32⟩) (.of main_call0_v3 : StableHlo.TRef sig ⟨S4x1x1x256, .f32⟩) Host.divf,
    StableHlo.TRef.unary (.of main_call0_v3 : StableHlo.TRef sig ⟨S4x1x1x256, .f32⟩) (.of main_call0_v4 : StableHlo.TRef sig ⟨S4x64x64x256, .f32⟩) (broadcastInDim S4x64x64x256 ![0, 1, 2, 3] bcast_S4x1x1x256_S4x64x64x256_0_1_2_3),
    StableHlo.TRef.binary (.of main_arg3 : StableHlo.TRef sig ⟨S4x64x64x256, .f32⟩) (.of main_call0_v4 : StableHlo.TRef sig ⟨S4x64x64x256, .f32⟩) (.of main_call0_v5 : StableHlo.TRef sig ⟨S4x64x64x256, .f32⟩) subf,
    StableHlo.TRef.binary (.of main_call0_v5 : StableHlo.TRef sig ⟨S4x64x64x256, .f32⟩) (.of main_call0_v5 : StableHlo.TRef sig ⟨S4x64x64x256, .f32⟩) (.of main_call0_v6 : StableHlo.TRef sig ⟨S4x64x64x256, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x45800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S4x64x64x256, .f32⟩) (.of main_call0_cst_2 : StableHlo.TRef sig ⟨S_, .f32⟩) (.of main_call0_v9 : StableHlo.TRef sig ⟨S4x256, .f32⟩) (fun x v => Host.reduceAdd x v reducesTo_S4x64x64x256_S4x256_d1_2 h_S_),
    StableHlo.TRef.unary (.of main_call0_v9 : StableHlo.TRef sig ⟨S4x256, .f32⟩) (.of main_call0_v10 : StableHlo.TRef sig ⟨S4x1x1x256, .f32⟩) (broadcastInDim S4x1x1x256 ![0, 3] bcast_S4x256_S4x1x1x256_0_3),
    StableHlo.TRef.unary (.of main_call0_v8 : StableHlo.TRef sig ⟨S_, .f32⟩) (.of main_call0_v11 : StableHlo.TRef sig ⟨S4x1x1x256, .f32⟩) (broadcastInDim S4x1x1x256 ![] bcast_S_S4x1x1x256),
    StableHlo.TRef.binary (.of main_call0_v10 : StableHlo.TRef sig ⟨S4x1x1x256, .f32⟩) (.of main_call0_v11 : StableHlo.TRef sig ⟨S4x1x1x256, .f32⟩) (.of main_call0_v12 : StableHlo.TRef sig ⟨S4x1x1x256, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S4x1x1x256, .f32⟩) (broadcastInDim S4x1x1x256 ![] bcast_S_S4x1x1x256),
    StableHlo.TRef.ternary (.of main_call0_v13 : StableHlo.TRef sig ⟨S_, .i1⟩) (.of main_call0_v12 : StableHlo.TRef sig ⟨S4x1x1x256, .f32⟩) (.of main_call0_call0_v1 : StableHlo.TRef sig ⟨S4x1x1x256, .f32⟩) (.of main_v4 : StableHlo.TRef sig ⟨S4x1x1x256, .f32⟩) (fun p a b => select (broadcastInDim S4x1x1x256 ![] bcast_S_S4x1x1x256 p) a b) ]
theorem st1_sub : (st1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem st1_fresh : (st1 : List (HloOp τ sig (Elt F))).Forall fun op => op.fresh = ∅ := by
  simp only [List.Forall]; repeat' constructor
/-- The references stretch 1 writes, in order. -/
abbrev st1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v4]
theorem st1_writes : (st1 : List (HloOp τ sig (Elt F))).Forall fun op => op.writes ⊆ ((st1_W).map (Proc.devRef (τ := τ) .tc)).toFinset :=
  ⟨writes_sub_of_mem (nullary_writes ..) (by decide), writes_sub_of_mem (binary_writes ..) (by decide), writes_sub_of_mem (unary_writes ..) (by decide), writes_sub_of_mem (nullary_writes ..) (by decide), writes_sub_of_mem (unary_writes ..) (by decide), writes_sub_of_mem (binary_writes ..) (by decide), writes_sub_of_mem (unary_writes ..) (by decide), writes_sub_of_mem (binary_writes ..) (by decide), writes_sub_of_mem (binary_writes ..) (by decide), writes_sub_of_mem (unary_writes ..) (by decide), writes_sub_of_mem (nullary_writes ..) (by decide), writes_sub_of_mem (binary_writes ..) (by decide), writes_sub_of_mem (nullary_writes ..) (by decide), writes_sub_of_mem (binary_writes ..) (by decide), writes_sub_of_mem (unary_writes ..) (by decide), writes_sub_of_mem (unary_writes ..) (by decide), writes_sub_of_mem (binary_writes ..) (by decide), writes_sub_of_mem (nullary_writes ..) (by decide), writes_sub_of_mem (binary_writes ..) (by decide), writes_sub_of_mem (nullary_writes ..) (by decide), writes_sub_of_mem (unary_writes ..) (by decide), writes_sub_of_mem (unary_writes ..) (by decide), writes_sub_of_mem (ternary_writes ..) (by decide)⟩
theorem st1_keeps : Keeps argRefs (st1 : List (HloOp τ sig (Elt F))) := keeps_of_writes st1_writes (by decide)

/-- Stretch 2: 8 operations of @main (window 0). -/
abbrev st2 : List (HloOp τ sig (Elt F)) :=
  [ StableHlo.unary main_v3 main_v5 (broadcastInDim S4x64x64x256 ![0, 1, 2, 3] bcast_S4x1x1x256_S4x64x64x256_0_1_2_3 : (⟨S4x1x1x256, .f32⟩ : BufTy).Contents (Elt F) → (⟨S4x64x64x256, .f32⟩ : BufTy).Contents (Elt F)),
    StableHlo.binary main_arg3 main_v5 main_v6 (subf : (⟨S4x64x64x256, .f32⟩ : BufTy).Contents (Elt F) → (⟨S4x64x64x256, .f32⟩ : BufTy).Contents (Elt F) → (⟨S4x64x64x256, .f32⟩ : BufTy).Contents (Elt F)),
    StableHlo.nullary main_cst_1 (constant S_ .f32 0x3727C5AC#32),
    StableHlo.unary main_cst_1 main_v7 (broadcastInDim S4x1x1x256 ![] bcast_S_S4x1x1x256 : (⟨S_, .f32⟩ : BufTy).Contents (Elt F) → (⟨S4x1x1x256, .f32⟩ : BufTy).Contents (Elt F)),
    StableHlo.binary main_v4 main_v7 main_v8 (addf : (⟨S4x1x1x256, .f32⟩ : BufTy).Contents (Elt F) → (⟨S4x1x1x256, .f32⟩ : BufTy).Contents (Elt F) → (⟨S4x1x1x256, .f32⟩ : BufTy).Contents (Elt F)),
    StableHlo.unary main_v8 main_v9 (Host.sqrt : (⟨S4x1x1x256, .f32⟩ : BufTy).Contents (Elt F) → (⟨S4x1x1x256, .f32⟩ : BufTy).Contents (Elt F)),
    StableHlo.unary main_v9 main_v10 (broadcastInDim S4x64x64x256 ![0, 1, 2, 3] bcast_S4x1x1x256_S4x64x64x256_0_1_2_3 : (⟨S4x1x1x256, .f32⟩ : BufTy).Contents (Elt F) → (⟨S4x64x64x256, .f32⟩ : BufTy).Contents (Elt F)),
    StableHlo.binary main_v6 main_v10 main_v11 (Host.divf : (⟨S4x64x64x256, .f32⟩ : BufTy).Contents (Elt F) → (⟨S4x64x64x256, .f32⟩ : BufTy).Contents (Elt F) → (⟨S4x64x64x256, .f32⟩ : BufTy).Contents (Elt F)) ]
theorem st2_sub : (st2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub ..⟩
theorem st2_fresh : (st2 : List (HloOp τ sig (Elt F))).Forall fun op => op.fresh = ∅ := by
  simp only [List.Forall]; repeat' constructor
/-- The references stretch 2 writes, in order. -/
abbrev st2_W : List (Ref sig .tc) := [main_v5, main_v6, main_cst_1, main_v7, main_v8, main_v9, main_v10, main_v11]
theorem st2_writes : (st2 : List (HloOp τ sig (Elt F))).Forall fun op => op.writes ⊆ ((st2_W).map (Proc.devRef (τ := τ) .tc)).toFinset :=
  ⟨writes_sub_of_mem (unary_writes ..) (by decide), writes_sub_of_mem (binary_writes ..) (by decide), writes_sub_of_mem (nullary_writes ..) (by decide), writes_sub_of_mem (unary_writes ..) (by decide), writes_sub_of_mem (binary_writes ..) (by decide), writes_sub_of_mem (unary_writes ..) (by decide), writes_sub_of_mem (unary_writes ..) (by decide), writes_sub_of_mem (binary_writes ..) (by decide)⟩
theorem st2_keeps : Keeps argRefs (st2 : List (HloOp τ sig (Elt F))) := keeps_of_writes st2_writes (by decide)

/-- Stretch 3: 7 operations of @main (window 0). -/
abbrev st3 : List (HloOp τ sig (Elt F)) :=
  [ StableHlo.nullary main_cst_2 (constant S_ .f32 0x00000000#32),
    StableHlo.binary main_arg6 main_cst_2 main_v12 ((fun x v => Host.reduceAdd x v reducesTo_S4x64x64x256_S4x256_d1_2 h_S_) : (⟨S4x64x64x256, .f32⟩ : BufTy).Contents (Elt F) → (⟨S_, .f32⟩ : BufTy).Contents (Elt F) → (⟨S4x256, .f32⟩ : BufTy).Contents (Elt F)),
    StableHlo.unary main_v12 main_v13 (broadcastInDim S4x1x1x256 ![0, 3] bcast_S4x256_S4x1x1x256_0_3 : (⟨S4x256, .f32⟩ : BufTy).Contents (Elt F) → (⟨S4x1x1x256, .f32⟩ : BufTy).Contents (Elt F)),
    StableHlo.nullary main_cst_3 (constant S_ .f32 0x45800000#32),
    StableHlo.unary main_cst_3 main_v14 (broadcastInDim S4x1x1x256 ![] bcast_S_S4x1x1x256 : (⟨S_, .f32⟩ : BufTy).Contents (Elt F) → (⟨S4x1x1x256, .f32⟩ : BufTy).Contents (Elt F)),
    StableHlo.binary main_v13 main_v14 main_v15 (Host.divf : (⟨S4x1x1x256, .f32⟩ : BufTy).Contents (Elt F) → (⟨S4x1x1x256, .f32⟩ : BufTy).Contents (Elt F) → (⟨S4x1x1x256, .f32⟩ : BufTy).Contents (Elt F)),
    StableHlo.nullary main_c_4 (constantI S_ 32 0#32) ]
theorem st3_sub : (st3 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
theorem st3_fresh : (st3 : List (HloOp τ sig (Elt F))).Forall fun op => op.fresh = ∅ := by
  simp only [List.Forall]; repeat' constructor
/-- The references stretch 3 writes, in order. -/
abbrev st3_W : List (Ref sig .tc) := [main_cst_2, main_v12, main_v13, main_cst_3, main_v14, main_v15, main_c_4]
theorem st3_writes : (st3 : List (HloOp τ sig (Elt F))).Forall fun op => op.writes ⊆ ((st3_W).map (Proc.devRef (τ := τ) .tc)).toFinset :=
  ⟨writes_sub_of_mem (nullary_writes ..) (by decide), writes_sub_of_mem (binary_writes ..) (by decide), writes_sub_of_mem (unary_writes ..) (by decide), writes_sub_of_mem (nullary_writes ..) (by decide), writes_sub_of_mem (unary_writes ..) (by decide), writes_sub_of_mem (binary_writes ..) (by decide), writes_sub_of_mem (nullary_writes ..) (by decide)⟩
theorem st3_keeps : Keeps argRefs (st3 : List (HloOp τ sig (Elt F))) := keeps_of_writes st3_writes (by decide)

/-- Stretch 4: 23 operations of @var (main_call1), the call unfolded over its record (window 0). -/
abbrev st4 : List (HloOp τ sig (Elt F)) :=
  [ StableHlo.TRef.nullary (.of main_call1_cst : StableHlo.TRef sig ⟨S_, .f32⟩) (constant S_ .f32 0x00000000#32),
    StableHlo.TRef.binary (.of main_arg6 : StableHlo.TRef sig ⟨S4x64x64x256, .f32⟩) (.of main_call1_cst : StableHlo.TRef sig ⟨S_, .f32⟩) (.of main_call1_v0 : StableHlo.TRef sig ⟨S4x256, .f32⟩) (fun x v => Host.reduceAdd x v reducesTo_S4x64x64x256_S4x256_d1_2 h_S_),
    StableHlo.TRef.unary (.of main_call1_v0 : StableHlo.TRef sig ⟨S4x256, .f32⟩) (.of main_call1_v1 : StableHlo.TRef sig ⟨S4x1x1x256, .f32⟩) (broadcastInDim S4x1x1x256 ![0, 3] bcast_S4x256_S4x1x1x256_0_3),
    StableHlo.TRef.nullary (.of main_call1_cst_0 : StableHlo.TRef sig ⟨S_, .f32⟩) (constant S_ .f32 0x45800000#32),
    StableHlo.TRef.unary (.of main_call1_cst_0 : StableHlo.TRef sig ⟨S_, .f32⟩) (.of main_call1_v2 : StableHlo.TRef sig ⟨S4x1x1x256, .f32⟩) (broadcastInDim S4x1x1x256 ![] bcast_S_S4x1x1x256),
    StableHlo.TRef.binary (.of main_call1_v1 : StableHlo.TRef sig ⟨S4x1x1x256, .f32⟩) (.of main_call1_v2 : StableHlo.TRef sig ⟨S4x1x1x256, .f32⟩) (.of main_call1_v3 : StableHlo.TRef sig ⟨S4x1x1x256, .f32⟩) Host.divf,
    StableHlo.TRef.unary (.of main_call1_v3 : StableHlo.TRef sig ⟨S4x1x1x256, .f32⟩) (.of main_call1_v4 : StableHlo.TRef sig ⟨S4x64x64x256, .f32⟩) (broadcastInDim S4x64x64x256 ![0, 1, 2, 3] bcast_S4x1x1x256_S4x64x64x256_0_1_2_3),
    StableHlo.TRef.binary (.of main_arg6 : StableHlo.TRef sig ⟨S4x64x64x256, .f32⟩) (.of main_call1_v4 : StableHlo.TRef sig ⟨S4x64x64x256, .f32⟩) (.of main_call1_v5 : StableHlo.TRef sig ⟨S4x64x64x256, .f32⟩) subf,
    StableHlo.TRef.binary (.of main_call1_v5 : StableHlo.TRef sig ⟨S4x64x64x256, .f32⟩) (.of main_call1_v5 : StableHlo.TRef sig ⟨S4x64x64x256, .f32⟩) (.of main_call1_v6 : StableHlo.TRef sig ⟨S4x64x64x256, .f32⟩) mulf,
    StableHlo.TRef.unary (.of main_c_4 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x45800000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S4x64x64x256, .f32⟩) (.of main_call1_cst_2 : StableHlo.TRef sig ⟨S_, .f32⟩) (.of main_call1_v9 : StableHlo.TRef sig ⟨S4x256, .f32⟩) (fun x v => Host.reduceAdd x v reducesTo_S4x64x64x256_S4x256_d1_2 h_S_),
    StableHlo.TRef.unary (.of main_call1_v9 : StableHlo.TRef sig ⟨S4x256, .f32⟩) (.of main_call1_v10 : StableHlo.TRef sig ⟨S4x1x1x256, .f32⟩) (broadcastInDim S4x1x1x256 ![0, 3] bcast_S4x256_S4x1x1x256_0_3),
    StableHlo.TRef.unary (.of main_call1_v8 : StableHlo.TRef sig ⟨S_, .f32⟩) (.of main_call1_v11 : StableHlo.TRef sig ⟨S4x1x1x256, .f32⟩) (broadcastInDim S4x1x1x256 ![] bcast_S_S4x1x1x256),
    StableHlo.TRef.binary (.of main_call1_v10 : StableHlo.TRef sig ⟨S4x1x1x256, .f32⟩) (.of main_call1_v11 : StableHlo.TRef sig ⟨S4x1x1x256, .f32⟩) (.of main_call1_v12 : StableHlo.TRef sig ⟨S4x1x1x256, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v13 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S4x1x1x256, .f32⟩) (broadcastInDim S4x1x1x256 ![] bcast_S_S4x1x1x256),
    StableHlo.TRef.ternary (.of main_call1_v13 : StableHlo.TRef sig ⟨S_, .i1⟩) (.of main_call1_v12 : StableHlo.TRef sig ⟨S4x1x1x256, .f32⟩) (.of main_call1_call0_v1 : StableHlo.TRef sig ⟨S4x1x1x256, .f32⟩) (.of main_v16 : StableHlo.TRef sig ⟨S4x1x1x256, .f32⟩) (fun p a b => select (broadcastInDim S4x1x1x256 ![] bcast_S_S4x1x1x256 p) a b) ]
theorem st4_sub : (st4 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem st4_fresh : (st4 : List (HloOp τ sig (Elt F))).Forall fun op => op.fresh = ∅ := by
  simp only [List.Forall]; repeat' constructor
/-- The references stretch 4 writes, in order. -/
abbrev st4_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v16]
theorem st4_writes : (st4 : List (HloOp τ sig (Elt F))).Forall fun op => op.writes ⊆ ((st4_W).map (Proc.devRef (τ := τ) .tc)).toFinset :=
  ⟨writes_sub_of_mem (nullary_writes ..) (by decide), writes_sub_of_mem (binary_writes ..) (by decide), writes_sub_of_mem (unary_writes ..) (by decide), writes_sub_of_mem (nullary_writes ..) (by decide), writes_sub_of_mem (unary_writes ..) (by decide), writes_sub_of_mem (binary_writes ..) (by decide), writes_sub_of_mem (unary_writes ..) (by decide), writes_sub_of_mem (binary_writes ..) (by decide), writes_sub_of_mem (binary_writes ..) (by decide), writes_sub_of_mem (unary_writes ..) (by decide), writes_sub_of_mem (nullary_writes ..) (by decide), writes_sub_of_mem (binary_writes ..) (by decide), writes_sub_of_mem (nullary_writes ..) (by decide), writes_sub_of_mem (binary_writes ..) (by decide), writes_sub_of_mem (unary_writes ..) (by decide), writes_sub_of_mem (unary_writes ..) (by decide), writes_sub_of_mem (binary_writes ..) (by decide), writes_sub_of_mem (nullary_writes ..) (by decide), writes_sub_of_mem (binary_writes ..) (by decide), writes_sub_of_mem (nullary_writes ..) (by decide), writes_sub_of_mem (unary_writes ..) (by decide), writes_sub_of_mem (unary_writes ..) (by decide), writes_sub_of_mem (ternary_writes ..) (by decide)⟩
theorem st4_keeps : Keeps argRefs (st4 : List (HloOp τ sig (Elt F))) := keeps_of_writes st4_writes (by decide)

/-- Stretch 5: 8 operations of @main (window 0). -/
abbrev st5 : List (HloOp τ sig (Elt F)) :=
  [ StableHlo.unary main_v15 main_v17 (broadcastInDim S4x64x64x256 ![0, 1, 2, 3] bcast_S4x1x1x256_S4x64x64x256_0_1_2_3 : (⟨S4x1x1x256, .f32⟩ : BufTy).Contents (Elt F) → (⟨S4x64x64x256, .f32⟩ : BufTy).Contents (Elt F)),
    StableHlo.binary main_arg6 main_v17 main_v18 (subf : (⟨S4x64x64x256, .f32⟩ : BufTy).Contents (Elt F) → (⟨S4x64x64x256, .f32⟩ : BufTy).Contents (Elt F) → (⟨S4x64x64x256, .f32⟩ : BufTy).Contents (Elt F)),
    StableHlo.nullary main_cst_5 (constant S_ .f32 0x3727C5AC#32),
    StableHlo.unary main_cst_5 main_v19 (broadcastInDim S4x1x1x256 ![] bcast_S_S4x1x1x256 : (⟨S_, .f32⟩ : BufTy).Contents (Elt F) → (⟨S4x1x1x256, .f32⟩ : BufTy).Contents (Elt F)),
    StableHlo.binary main_v16 main_v19 main_v20 (addf : (⟨S4x1x1x256, .f32⟩ : BufTy).Contents (Elt F) → (⟨S4x1x1x256, .f32⟩ : BufTy).Contents (Elt F) → (⟨S4x1x1x256, .f32⟩ : BufTy).Contents (Elt F)),
    StableHlo.unary main_v20 main_v21 (Host.sqrt : (⟨S4x1x1x256, .f32⟩ : BufTy).Contents (Elt F) → (⟨S4x1x1x256, .f32⟩ : BufTy).Contents (Elt F)),
    StableHlo.unary main_v21 main_v22 (broadcastInDim S4x64x64x256 ![0, 1, 2, 3] bcast_S4x1x1x256_S4x64x64x256_0_1_2_3 : (⟨S4x1x1x256, .f32⟩ : BufTy).Contents (Elt F) → (⟨S4x64x64x256, .f32⟩ : BufTy).Contents (Elt F)),
    StableHlo.binary main_v18 main_v22 main_v23 (Host.divf : (⟨S4x64x64x256, .f32⟩ : BufTy).Contents (Elt F) → (⟨S4x64x64x256, .f32⟩ : BufTy).Contents (Elt F) → (⟨S4x64x64x256, .f32⟩ : BufTy).Contents (Elt F)) ]
theorem st5_sub : (st5 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub ..⟩
theorem st5_fresh : (st5 : List (HloOp τ sig (Elt F))).Forall fun op => op.fresh = ∅ := by
  simp only [List.Forall]; repeat' constructor
/-- The references stretch 5 writes, in order. -/
abbrev st5_W : List (Ref sig .tc) := [main_v17, main_v18, main_cst_5, main_v19, main_v20, main_v21, main_v22, main_v23]
theorem st5_writes : (st5 : List (HloOp τ sig (Elt F))).Forall fun op => op.writes ⊆ ((st5_W).map (Proc.devRef (τ := τ) .tc)).toFinset :=
  ⟨writes_sub_of_mem (unary_writes ..) (by decide), writes_sub_of_mem (binary_writes ..) (by decide), writes_sub_of_mem (nullary_writes ..) (by decide), writes_sub_of_mem (unary_writes ..) (by decide), writes_sub_of_mem (binary_writes ..) (by decide), writes_sub_of_mem (unary_writes ..) (by decide), writes_sub_of_mem (unary_writes ..) (by decide), writes_sub_of_mem (binary_writes ..) (by decide)⟩
theorem st5_keeps : Keeps argRefs (st5 : List (HloOp τ sig (Elt F))) := keeps_of_writes st5_writes (by decide)

/-- Stretch 6: 11 operations of @main (window 0). -/
abbrev st6 : List (HloOp τ sig (Elt F)) :=
  [ StableHlo.reshape main_v11 main_v24 rfl shapeCasts_S4x64x64x256_S4x4096x256,
    StableHlo.binary main_v24 main_v24 main_v25 (mulf : (⟨S4x4096x256, .f32⟩ : BufTy).Contents (Elt F) → (⟨S4x4096x256, .f32⟩ : BufTy).Contents (Elt F) → (⟨S4x4096x256, .f32⟩ : BufTy).Contents (Elt F)),
    StableHlo.nullary main_cst_6 (constant S_ .f32 0x00000000#32),
    StableHlo.binary main_v25 main_cst_6 main_v26 ((fun x v => Host.reduceAdd x v reducesTo_S4x4096x256_S4x4096_d2 h_S_) : (⟨S4x4096x256, .f32⟩ : BufTy).Contents (Elt F) → (⟨S_, .f32⟩ : BufTy).Contents (Elt F) → (⟨S4x4096, .f32⟩ : BufTy).Contents (Elt F)),
    StableHlo.unary main_v26 main_v27 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v27 main_v28 (Host.sqrt : (⟨S4x4096x1, .f32⟩ : BufTy).Contents (Elt F) → (⟨S4x4096x1, .f32⟩ : BufTy).Contents (Elt F)),
    StableHlo.nullary main_cst_7 (constant S_ .f32 0x2B8CBCCC#32),
    StableHlo.unary main_cst_7 main_v29 (broadcastInDim S4x4096x1 ![] bcast_S_S4x4096x1 : (⟨S_, .f32⟩ : BufTy).Contents (Elt F) → (⟨S4x4096x1, .f32⟩ : BufTy).Contents (Elt F)),
    StableHlo.binary main_v28 main_v29 main_v30 (maximumf : (⟨S4x4096x1, .f32⟩ : BufTy).Contents (Elt F) → (⟨S4x4096x1, .f32⟩ : BufTy).Contents (Elt F) → (⟨S4x4096x1, .f32⟩ : BufTy).Contents (Elt F)),
    StableHlo.unary main_v30 main_v31 (broadcastInDim S4x4096x256 ![0, 1, 2] bcast_S4x4096x1_S4x4096x256_0_1_2 : (⟨S4x4096x1, .f32⟩ : BufTy).Contents (Elt F) → (⟨S4x4096x256, .f32⟩ : BufTy).Contents (Elt F)),
    StableHlo.binary main_v24 main_v31 main_v32 (Host.divf : (⟨S4x4096x256, .f32⟩ : BufTy).Contents (Elt F) → (⟨S4x4096x256, .f32⟩ : BufTy).Contents (Elt F) → (⟨S4x4096x256, .f32⟩ : BufTy).Contents (Elt F)) ]
theorem st6_sub : (st6 : List (HloOp τ sig (Elt F))).Forall fun op => op.bufs ⊆ tcRefs τ sig :=
  ⟨reshape_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem st6_fresh : (st6 : List (HloOp τ sig (Elt F))).Forall fun op => op.fresh = ∅ := by
  simp only [List.Forall]; repeat' constructor
/-- The references stretch 6 writes, in order. -/
abbrev st6_W : List (Ref sig .tc) := [main_v24, main_v25, main_cst_6, main_v26, main_v27, main_v28, main_cst_7, main_v29, main_v30, main_v31, main_v32]
theorem st6_writes : (st6 : List (HloOp τ sig (Elt F))).Forall fun op => op.writes ⊆ ((st6_W).map (Proc.devRef (τ := τ) .tc)).toFinset :=
  ⟨writes_sub_of_mem (reshape_writes ..) (by decide), writes_sub_of_mem (binary_writes ..) (by decide), writes_sub_of_mem (nullary_writes ..) (by decide), writes_sub_of_mem (binary_writes ..) (by decide), writes_sub_of_mem (unary_writes ..) (by decide), writes_sub_of_mem (unary_writes ..) (by decide), writes_sub_of_mem (nullary_writes ..) (by decide), writes_sub_of_mem (unary_writes ..) (by decide), writes_sub_of_mem (binary_writes ..) (by decide), writes_sub_of_mem (unary_writes ..) (by decide), writes_sub_of_mem (binary_writes ..) (by decide)⟩
theorem st6_keeps : Keeps argRefs (st6 : List (HloOp τ sig (Elt F))) := keeps_of_writes st6_writes (by decide)

/-- Stretch 7: 11 operations of @main (window 0). -/
abbrev st7 : List (HloOp τ sig (Elt F)) :=
  [ StableHlo.reshape main_v23 main_v33 rfl shapeCasts_S4x64x64x256_S4x4096x256,
    StableHlo.binary main_v33 main_v33 main_v34 (mulf : (⟨S4x4096x256, .f32⟩ : BufTy).Contents (Elt F) → (⟨S4x4096x256, .f32⟩ : BufTy).Contents (Elt F) → (⟨S4x4096x256, .f32⟩ : BufTy).Contents (Elt F)),
    StableHlo.nullary main_cst_8 (constant S_ .f32 0x00000000#32),
    StableHlo.binary main_v34 main_cst_8 main_v35 ((fun x v => Host.reduceAdd x v reducesTo_S4x4096x256_S4x4096_d2 h_S_) : (⟨S4x4096x256, .f32⟩ : BufTy).Contents (Elt F) → (⟨S_, .f32⟩ : BufTy).Contents (Elt F) → (⟨S4x4096, .f32⟩ : BufTy).Contents (Elt F)),
    StableHlo.unary main_v35 main_v36 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v36 main_v37 (Host.sqrt : (⟨S4x4096x1, .f32⟩ : BufTy).Contents (Elt F) → (⟨S4x4096x1, .f32⟩ : BufTy).Contents (Elt F)),
    StableHlo.nullary main_cst_9 (constant S_ .f32 0x2B8CBCCC#32),
    StableHlo.unary main_cst_9 main_v38 (broadcastInDim S4x4096x1 ![] bcast_S_S4x4096x1 : (⟨S_, .f32⟩ : BufTy).Contents (Elt F) → (⟨S4x4096x1, .f32⟩ : BufTy).Contents (Elt F)),
    StableHlo.binary main_v37 main_v38 main_v39 (maximumf : (⟨S4x4096x1, .f32⟩ : BufTy).Contents (Elt F) → (⟨S4x4096x1, .f32⟩ : BufTy).Contents (Elt F) → (⟨S4x4096x1, .f32⟩ : BufTy).Contents (Elt F)),
    StableHlo.unary main_v39 main_v40 (broadcastInDim S4x4096x256 ![0, 1, 2] bcast_S4x4096x1_S4x4096x256_0_1_2 : (⟨S4x4096x1, .f32⟩ : BufTy).Contents (Elt F) → (⟨S4x4096x256, .f32⟩ : BufTy).Contents (Elt F)),
    StableHlo.binary main_v33 main_v40 main_v41 (Host.divf : (⟨S4x4096x256, .f32⟩ : BufTy).Contents (Elt F) → (⟨S4x4096x256, .f32⟩ : BufTy).Contents (Elt F) → (⟨S4x4096x256, .f32⟩ : BufTy).Contents (Elt F)) ]
theorem st7_sub : (st7 : List (HloOp τ sig (Elt F))).Forall fun op => op.bufs ⊆ tcRefs τ sig :=
  ⟨reshape_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem st7_fresh : (st7 : List (HloOp τ sig (Elt F))).Forall fun op => op.fresh = ∅ := by
  simp only [List.Forall]; repeat' constructor
/-- The references stretch 7 writes, in order. -/
abbrev st7_W : List (Ref sig .tc) := [main_v33, main_v34, main_cst_8, main_v35, main_v36, main_v37, main_cst_9, main_v38, main_v39, main_v40, main_v41]
theorem st7_writes : (st7 : List (HloOp τ sig (Elt F))).Forall fun op => op.writes ⊆ ((st7_W).map (Proc.devRef (τ := τ) .tc)).toFinset :=
  ⟨writes_sub_of_mem (reshape_writes ..) (by decide), writes_sub_of_mem (binary_writes ..) (by decide), writes_sub_of_mem (nullary_writes ..) (by decide), writes_sub_of_mem (binary_writes ..) (by decide), writes_sub_of_mem (unary_writes ..) (by decide), writes_sub_of_mem (unary_writes ..) (by decide), writes_sub_of_mem (nullary_writes ..) (by decide), writes_sub_of_mem (unary_writes ..) (by decide), writes_sub_of_mem (binary_writes ..) (by decide), writes_sub_of_mem (unary_writes ..) (by decide), writes_sub_of_mem (binary_writes ..) (by decide)⟩
theorem st7_keeps : Keeps argRefs (st7 : List (HloOp τ sig (Elt F))) := keeps_of_writes st7_writes (by decide)

/-- Stretch 8: 1 operations of @main (window 0). -/
abbrev st8 : List (HloOp τ sig (Elt F)) :=
  [ StableHlo.reshape main_arg6 main_v42 rfl shapeCasts_S4x64x64x256_S4x4096x256 ]
theorem st8_sub : (st8 : List (HloOp τ sig (Elt F))).Forall fun op => op.bufs ⊆ tcRefs τ sig :=
  reshape_bufs_sub ..
theorem st8_fresh : (st8 : List (HloOp τ sig (Elt F))).Forall fun op => op.fresh = ∅ := by
  simp only [List.Forall]; repeat' constructor
/-- The references stretch 8 writes, in order. -/
abbrev st8_W : List (Ref sig .tc) := [main_v42]
theorem st8_writes : (st8 : List (HloOp τ sig (Elt F))).Forall fun op => op.writes ⊆ ((st8_W).map (Proc.devRef (τ := τ) .tc)).toFinset :=
  writes_sub_of_mem (reshape_writes ..) (by decide)
theorem st8_keeps : Keeps argRefs (st8 : List (HloOp τ sig (Elt F))) := keeps_of_writes st8_writes (by decide)

/-- Stretch 9: 5 operations of @main (window 0). -/
abbrev st9 : List (HloOp τ sig (Elt F)) :=
  [ StableHlo.binary main_v32 main_v41 main_v43 ((fun l r => Host.dotGeneral dot_S4x4096x256_S4x4096x256_S4x4096x4096_2_2_1_1_0_0 none l r) : (⟨S4x4096x256, .f32⟩ : BufTy).Contents (Elt F) → (⟨S4x4096x256, .f32⟩ : BufTy).Contents (Elt F) → (⟨S4x4096x4096, .f32⟩ : BufTy).Contents (Elt F)),
    StableHlo.nullary main_cst_10 (constant S_ .f32 0xFF800000#32),
    StableHlo.binary main_v43 main_cst_10 main_v44 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    StableHlo.nullary main_cst_11 (constant S_ .f32 0xFF800000#32),
    StableHlo.unary main_cst_11 main_v45 (broadcastInDim S4x4096 ![] bcast_S_S4x4096 : (⟨S_, .f32⟩ : BufTy).Contents (Elt F) → (⟨S4x4096, .f32⟩ : BufTy).Contents (Elt F)) ]
theorem st9_sub : (st9 : List (HloOp τ sig (Elt F))).Forall fun op => op.bufs ⊆ tcRefs τ sig :=
  ⟨binary_bufs_sub .., nullary_bufs_sub .., binary_bufs_sub .., nullary_bufs_sub .., unary_bufs_sub ..⟩
theorem st9_fresh : (st9 : List (HloOp τ sig (Elt F))).Forall fun op => op.fresh = ∅ := by
  simp only [List.Forall]; repeat' constructor
/-- The references stretch 9 writes, in order. -/
abbrev st9_W : List (Ref sig .tc) := [main_v43, main_cst_10, main_v44, main_cst_11, main_v45]
theorem st9_writes : (st9 : List (HloOp τ sig (Elt F))).Forall fun op => op.writes ⊆ ((st9_W).map (Proc.devRef (τ := τ) .tc)).toFinset :=
  ⟨writes_sub_of_mem (binary_writes ..) (by decide), writes_sub_of_mem (nullary_writes ..) (by decide), writes_sub_of_mem (binary_writes ..) (by decide), writes_sub_of_mem (nullary_writes ..) (by decide), writes_sub_of_mem (unary_writes ..) (by decide)⟩
theorem st9_keeps : Keeps argRefs (st9 : List (HloOp τ sig (Elt F))) := keeps_of_writes st9_writes (by decide)

/-- Window 0 is its stretches run in order, the last in tail position. -/
theorem main_part0_chain (c : Dev nD) : main_part0 (F := F) c = (Pipeline.chainK
  [ seq st0,
    seq st1,
    seq st2,
    seq st3,
    seq st4,
    seq st5,
    seq st6,
    seq st7,
    seq st8 ]
  (seq st9) : Prog (TpuEff nD τ sig (Elt F) (Pipeline.Sig Λ₀ (Fin 0) fun p => (pcfgs (F := F) p).Adm) .tc) PUnit) := by
  chain_rfl

end Cert.ReferenceIdeal.Hand

end
-- ==== Proof.Ref.W1.lean ====
/-
  Window 1 of the reference program's @main as stretches of operations: each list is the window's statements in
  order, a called function's body written out over that call's record of buffers (its own calls likewise), with for
  each stretch that its operations touch TensorCore references only, determine their results, and which references
  they write; then the window itself as the chain of its stretches.
-/
import proofs.«170986_j45183055954173_2_alg».proof.Proof.Gen.ReferenceIdeal
import Idealize.ShloMosaic.Lib.StableHlo.Run
import Idealize.ShloMosaic.Lib.Pipeline.Regions
import proofs.«170986_j45183055954173_2_alg».proof.Proof.Ref.Basic
set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch 10: 15 operations of @main (window 1). -/
abbrev st10 : List (HloOp τ sig (Elt F)) :=
  [ StableHlo.binary main_v45 main_v44 main_v46 (maximumf : (⟨S4x4096, .f32⟩ : BufTy).Contents (Elt F) → (⟨S4x4096, .f32⟩ : BufTy).Contents (Elt F) → (⟨S4x4096, .f32⟩ : BufTy).Contents (Elt F)),
    StableHlo.unary main_v46 main_v47 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v47 main_v48 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.binary main_v43 main_v48 main_v49 (subf : (⟨S4x4096x4096, .f32⟩ : BufTy).Contents (Elt F) → (⟨S4x4096x4096, .f32⟩ : BufTy).Contents (Elt F) → (⟨S4x4096x4096, .f32⟩ : BufTy).Contents (Elt F)),
    StableHlo.unary main_v49 main_v50 (Host.exp : (⟨S4x4096x4096, .f32⟩ : BufTy).Contents (Elt F) → (⟨S4x4096x4096, .f32⟩ : BufTy).Contents (Elt F)),
    StableHlo.nullary main_cst_12 (constant S_ .f32 0x00000000#32),
    StableHlo.binary main_v50 main_cst_12 main_v51 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    StableHlo.unary main_v51 main_v52 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v52 main_v53 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.binary main_v50 main_v53 main_v54 (Host.divf : (⟨S4x4096x4096, .f32⟩ : BufTy).Contents (Elt F) → (⟨S4x4096x4096, .f32⟩ : BufTy).Contents (Elt F) → (⟨S4x4096x4096, .f32⟩ : BufTy).Contents (Elt F)),
    StableHlo.binary main_v54 main_v42 main_v55 ((fun l r => Host.dotGeneral dot_S4x4096x4096_S4x4096x256_S4x4096x256_2_1_1_2_0_0 none l r) : (⟨S4x4096x4096, .f32⟩ : BufTy).Contents (Elt F) → (⟨S4x4096x256, .f32⟩ : BufTy).Contents (Elt F) → (⟨S4x4096x256, .f32⟩ : BufTy).Contents (Elt F)),
    StableHlo.binary main_v42 main_v42 main_v56 (mulf : (⟨S4x4096x256, .f32⟩ : BufTy).Contents (Elt F) → (⟨S4x4096x256, .f32⟩ : BufTy).Contents (Elt F) → (⟨S4x4096x256, .f32⟩ : BufTy).Contents (Elt F)),
    StableHlo.binary main_v54 main_v56 main_v57 ((fun l r => Host.dotGeneral dot_S4x4096x4096_S4x4096x256_S4x4096x256_2_1_1_2_0_0 none l r) : (⟨S4x4096x4096, .f32⟩ : BufTy).Contents (Elt F) → (⟨S4x4096x256, .f32⟩ : BufTy).Contents (Elt F) → (⟨S4x4096x256, .f32⟩ : BufTy).Contents (Elt F)),
    StableHlo.binary main_v55 main_v55 main_v58 (mulf : (⟨S4x4096x256, .f32⟩ : BufTy).Contents (Elt F) → (⟨S4x4096x256, .f32⟩ : BufTy).Contents (Elt F) → (⟨S4x4096x256, .f32⟩ : BufTy).Contents (Elt F)),
    StableHlo.binary main_v57 main_v58 main_v59 (subf : (⟨S4x4096x256, .f32⟩ : BufTy).Contents (Elt F) → (⟨S4x4096x256, .f32⟩ : BufTy).Contents (Elt F) → (⟨S4x4096x256, .f32⟩ : BufTy).Contents (Elt F)) ]
theorem st10_sub : (st10 : List (HloOp τ sig (Elt F))).Forall fun op => op.bufs ⊆ tcRefs τ sig :=
  ⟨binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., binary_bufs_sub .., binary_bufs_sub ..⟩
theorem st10_fresh : (st10 : List (HloOp τ sig (Elt F))).Forall fun op => op.fresh = ∅ := by
  simp only [List.Forall]; repeat' constructor
/-- The references stretch 10 writes, in order. -/
abbrev st10_W : List (Ref sig .tc) := [main_v46, main_v47, main_v48, main_v49, main_v50, main_cst_12, main_v51, main_v52, main_v53, main_v54, main_v55, main_v56, main_v57, main_v58, main_v59]
theorem st10_writes : (st10 : List (HloOp τ sig (Elt F))).Forall fun op => op.writes ⊆ ((st10_W).map (Proc.devRef (τ := τ) .tc)).toFinset :=
  ⟨writes_sub_of_mem (binary_writes ..) (by decide), writes_sub_of_mem (unary_writes ..) (by decide), writes_sub_of_mem (unary_writes ..) (by decide), writes_sub_of_mem (binary_writes ..) (by decide), writes_sub_of_mem (unary_writes ..) (by decide), writes_sub_of_mem (nullary_writes ..) (by decide), writes_sub_of_mem (binary_writes ..) (by decide), writes_sub_of_mem (unary_writes ..) (by decide), writes_sub_of_mem (unary_writes ..) (by decide), writes_sub_of_mem (binary_writes ..) (by decide), writes_sub_of_mem (binary_writes ..) (by decide), writes_sub_of_mem (binary_writes ..) (by decide), writes_sub_of_mem (binary_writes ..) (by decide), writes_sub_of_mem (binary_writes ..) (by decide), writes_sub_of_mem (binary_writes ..) (by decide)⟩
theorem st10_keeps : Keeps argRefs (st10 : List (HloOp τ sig (Elt F))) := keeps_of_writes st10_writes (by decide)

/-- Stretch 11: 3 operations of @relu (main_call2), the call unfolded over its record (window 1). -/
abbrev st11 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S4x4096x256, .f32⟩) (broadcastInDim S4x4096x256 ![] bcast_S_S4x4096x256),
    StableHlo.TRef.binary (.of main_v59 : StableHlo.TRef sig ⟨S4x4096x256, .f32⟩) (.of main_call2_v0 : StableHlo.TRef sig ⟨S4x4096x256, .f32⟩) (.of main_v60 : StableHlo.TRef sig ⟨S4x4096x256, .f32⟩) maximumf ]
theorem st11_sub : (st11 : List (HloOp τ sig (Elt F))).Forall fun op => op.bufs ⊆ tcRefs τ sig :=
  ⟨nullary_bufs_sub .., unary_bufs_sub .., binary_bufs_sub ..⟩
theorem st11_fresh : (st11 : List (HloOp τ sig (Elt F))).Forall fun op => op.fresh = ∅ := by
  simp only [List.Forall]; repeat' constructor
/-- The references stretch 11 writes, in order. -/
abbrev st11_W : List (Ref sig .tc) := [main_call2_cst, main_call2_v0, main_v60]
theorem st11_writes : (st11 : List (HloOp τ sig (Elt F))).Forall fun op => op.writes ⊆ ((st11_W).map (Proc.devRef (τ := τ) .tc)).toFinset :=
  ⟨writes_sub_of_mem (nullary_writes ..) (by decide), writes_sub_of_mem (unary_writes ..) (by decide), writes_sub_of_mem (binary_writes ..) (by decide)⟩
theorem st11_keeps : Keeps argRefs (st11 : List (HloOp τ sig (Elt F))) := keeps_of_writes st11_writes (by decide)

/-- Stretch 12: 14 operations of @main (window 1). -/
abbrev st12 : List (HloOp τ sig (Elt F)) :=
  [ StableHlo.nullary main_cst_13 (constant S_ .f32 0x2B8CBCCC#32),
    StableHlo.unary main_cst_13 main_v61 (broadcastInDim S4x4096x256 ![] bcast_S_S4x4096x256 : (⟨S_, .f32⟩ : BufTy).Contents (Elt F) → (⟨S4x4096x256, .f32⟩ : BufTy).Contents (Elt F)),
    StableHlo.binary main_v60 main_v61 main_v62 (addf : (⟨S4x4096x256, .f32⟩ : BufTy).Contents (Elt F) → (⟨S4x4096x256, .f32⟩ : BufTy).Contents (Elt F) → (⟨S4x4096x256, .f32⟩ : BufTy).Contents (Elt F)),
    StableHlo.unary main_v62 main_v63 (Host.sqrt : (⟨S4x4096x256, .f32⟩ : BufTy).Contents (Elt F) → (⟨S4x4096x256, .f32⟩ : BufTy).Contents (Elt F)),
    StableHlo.reshape main_v63 main_v64 rfl shapeCasts_S4x4096x256_S4x64x64x256,
    StableHlo.binary main_v64 main_v11 main_v65 (mulf : (⟨S4x64x64x256, .f32⟩ : BufTy).Contents (Elt F) → (⟨S4x64x64x256, .f32⟩ : BufTy).Contents (Elt F) → (⟨S4x64x64x256, .f32⟩ : BufTy).Contents (Elt F)),
    StableHlo.reshape main_v55 main_v66 rfl shapeCasts_S4x4096x256_S4x64x64x256,
    StableHlo.binary main_v65 main_v66 main_v67 (addf : (⟨S4x64x64x256, .f32⟩ : BufTy).Contents (Elt F) → (⟨S4x64x64x256, .f32⟩ : BufTy).Contents (Elt F) → (⟨S4x64x64x256, .f32⟩ : BufTy).Contents (Elt F)),
    StableHlo.binary main_arg0 main_v67 main_v68 (subf : (⟨S4x64x64x256, .f32⟩ : BufTy).Contents (Elt F) → (⟨S4x64x64x256, .f32⟩ : BufTy).Contents (Elt F) → (⟨S4x64x64x256, .f32⟩ : BufTy).Contents (Elt F)),
    StableHlo.binary main_v68 main_v68 main_v69 (mulf : (⟨S4x64x64x256, .f32⟩ : BufTy).Contents (Elt F) → (⟨S4x64x64x256, .f32⟩ : BufTy).Contents (Elt F) → (⟨S4x64x64x256, .f32⟩ : BufTy).Contents (Elt F)),
    StableHlo.nullary main_cst_14 (constant S_ .f32 0x00000000#32),
    StableHlo.binary main_v69 main_cst_14 main_v70 ((fun x v => Host.reduceAdd x v reducesTo_S4x64x64x256_S_d0_1_2_3 h_S_) : (⟨S4x64x64x256, .f32⟩ : BufTy).Contents (Elt F) → (⟨S_, .f32⟩ : BufTy).Contents (Elt F) → (⟨S_, .f32⟩ : BufTy).Contents (Elt F)),
    StableHlo.nullary main_cst_15 (constant S_ .f32 0x4A800000#32),
    StableHlo.binary main_v70 main_cst_15 main_v71 (Host.divf : (⟨S_, .f32⟩ : BufTy).Contents (Elt F) → (⟨S_, .f32⟩ : BufTy).Contents (Elt F) → (⟨S_, .f32⟩ : BufTy).Contents (Elt F)) ]
theorem st12_sub : (st12 : List (HloOp τ sig (Elt F))).Forall fun op => op.bufs ⊆ tcRefs τ sig :=
  ⟨nullary_bufs_sub .., unary_bufs_sub .., binary_bufs_sub .., unary_bufs_sub .., reshape_bufs_sub .., binary_bufs_sub .., reshape_bufs_sub .., binary_bufs_sub .., binary_bufs_sub .., binary_bufs_sub .., nullary_bufs_sub .., binary_bufs_sub .., nullary_bufs_sub .., binary_bufs_sub ..⟩
theorem st12_fresh : (st12 : List (HloOp τ sig (Elt F))).Forall fun op => op.fresh = ∅ := by
  simp only [List.Forall]; repeat' constructor
/-- The references stretch 12 writes, in order. -/
abbrev st12_W : List (Ref sig .tc) := [main_cst_13, main_v61, main_v62, main_v63, main_v64, main_v65, main_v66, main_v67, main_v68, main_v69, main_cst_14, main_v70, main_cst_15, main_v71]
theorem st12_writes : (st12 : List (HloOp τ sig (Elt F))).Forall fun op => op.writes ⊆ ((st12_W).map (Proc.devRef (τ := τ) .tc)).toFinset :=
  ⟨writes_sub_of_mem (nullary_writes ..) (by decide), writes_sub_of_mem (unary_writes ..) (by decide), writes_sub_of_mem (binary_writes ..) (by decide), writes_sub_of_mem (unary_writes ..) (by decide), writes_sub_of_mem (reshape_writes ..) (by decide), writes_sub_of_mem (binary_writes ..) (by decide), writes_sub_of_mem (reshape_writes ..) (by decide), writes_sub_of_mem (binary_writes ..) (by decide), writes_sub_of_mem (binary_writes ..) (by decide), writes_sub_of_mem (binary_writes ..) (by decide), writes_sub_of_mem (nullary_writes ..) (by decide), writes_sub_of_mem (binary_writes ..) (by decide), writes_sub_of_mem (nullary_writes ..) (by decide), writes_sub_of_mem (binary_writes ..) (by decide)⟩
theorem st12_keeps : Keeps argRefs (st12 : List (HloOp τ sig (Elt F))) := keeps_of_writes st12_writes (by decide)

/-- Stretch 13: 7 operations of @main (window 1). -/
abbrev st13 : List (HloOp τ sig (Elt F)) :=
  [ StableHlo.nullary main_cst_16 (constant S_ .f32 0x00000000#32),
    StableHlo.binary main_arg4 main_cst_16 main_v72 ((fun x v => Host.reduceAdd x v reducesTo_S4x32x32x512_S4x512_d1_2 h_S_) : (⟨S4x32x32x512, .f32⟩ : BufTy).Contents (Elt F) → (⟨S_, .f32⟩ : BufTy).Contents (Elt F) → (⟨S4x512, .f32⟩ : BufTy).Contents (Elt F)),
    StableHlo.unary main_v72 main_v73 (broadcastInDim S4x1x1x512 ![0, 3] bcast_S4x512_S4x1x1x512_0_3 : (⟨S4x512, .f32⟩ : BufTy).Contents (Elt F) → (⟨S4x1x1x512, .f32⟩ : BufTy).Contents (Elt F)),
    StableHlo.nullary main_cst_17 (constant S_ .f32 0x44800000#32),
    StableHlo.unary main_cst_17 main_v74 (broadcastInDim S4x1x1x512 ![] bcast_S_S4x1x1x512 : (⟨S_, .f32⟩ : BufTy).Contents (Elt F) → (⟨S4x1x1x512, .f32⟩ : BufTy).Contents (Elt F)),
    StableHlo.binary main_v73 main_v74 main_v75 (Host.divf : (⟨S4x1x1x512, .f32⟩ : BufTy).Contents (Elt F) → (⟨S4x1x1x512, .f32⟩ : BufTy).Contents (Elt F) → (⟨S4x1x1x512, .f32⟩ : BufTy).Contents (Elt F)),
    StableHlo.nullary main_c_18 (constantI S_ 32 0#32) ]
theorem st13_sub : (st13 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
theorem st13_fresh : (st13 : List (HloOp τ sig (Elt F))).Forall fun op => op.fresh = ∅ := by
  simp only [List.Forall]; repeat' constructor
/-- The references stretch 13 writes, in order. -/
abbrev st13_W : List (Ref sig .tc) := [main_cst_16, main_v72, main_v73, main_cst_17, main_v74, main_v75, main_c_18]
theorem st13_writes : (st13 : List (HloOp τ sig (Elt F))).Forall fun op => op.writes ⊆ ((st13_W).map (Proc.devRef (τ := τ) .tc)).toFinset :=
  ⟨writes_sub_of_mem (nullary_writes ..) (by decide), writes_sub_of_mem (binary_writes ..) (by decide), writes_sub_of_mem (unary_writes ..) (by decide), writes_sub_of_mem (nullary_writes ..) (by decide), writes_sub_of_mem (unary_writes ..) (by decide), writes_sub_of_mem (binary_writes ..) (by decide), writes_sub_of_mem (nullary_writes ..) (by decide)⟩
theorem st13_keeps : Keeps argRefs (st13 : List (HloOp τ sig (Elt F))) := keeps_of_writes st13_writes (by decide)

/-- Stretch 14: 23 operations of @var_0 (main_call3), the call unfolded over its record (window 1). -/
abbrev st14 : List (HloOp τ sig (Elt F)) :=
  [ StableHlo.TRef.nullary (.of main_call3_cst : StableHlo.TRef sig ⟨S_, .f32⟩) (constant S_ .f32 0x00000000#32),
    StableHlo.TRef.binary (.of main_arg4 : StableHlo.TRef sig ⟨S4x32x32x512, .f32⟩) (.of main_call3_cst : StableHlo.TRef sig ⟨S_, .f32⟩) (.of main_call3_v0 : StableHlo.TRef sig ⟨S4x512, .f32⟩) (fun x v => Host.reduceAdd x v reducesTo_S4x32x32x512_S4x512_d1_2 h_S_),
    StableHlo.TRef.unary (.of main_call3_v0 : StableHlo.TRef sig ⟨S4x512, .f32⟩) (.of main_call3_v1 : StableHlo.TRef sig ⟨S4x1x1x512, .f32⟩) (broadcastInDim S4x1x1x512 ![0, 3] bcast_S4x512_S4x1x1x512_0_3),
    StableHlo.TRef.nullary (.of main_call3_cst_0 : StableHlo.TRef sig ⟨S_, .f32⟩) (constant S_ .f32 0x44800000#32),
    StableHlo.TRef.unary (.of main_call3_cst_0 : StableHlo.TRef sig ⟨S_, .f32⟩) (.of main_call3_v2 : StableHlo.TRef sig ⟨S4x1x1x512, .f32⟩) (broadcastInDim S4x1x1x512 ![] bcast_S_S4x1x1x512),
    StableHlo.TRef.binary (.of main_call3_v1 : StableHlo.TRef sig ⟨S4x1x1x512, .f32⟩) (.of main_call3_v2 : StableHlo.TRef sig ⟨S4x1x1x512, .f32⟩) (.of main_call3_v3 : StableHlo.TRef sig ⟨S4x1x1x512, .f32⟩) Host.divf,
    StableHlo.TRef.unary (.of main_call3_v3 : StableHlo.TRef sig ⟨S4x1x1x512, .f32⟩) (.of main_call3_v4 : StableHlo.TRef sig ⟨S4x32x32x512, .f32⟩) (broadcastInDim S4x32x32x512 ![0, 1, 2, 3] bcast_S4x1x1x512_S4x32x32x512_0_1_2_3),
    StableHlo.TRef.binary (.of main_arg4 : StableHlo.TRef sig ⟨S4x32x32x512, .f32⟩) (.of main_call3_v4 : StableHlo.TRef sig ⟨S4x32x32x512, .f32⟩) (.of main_call3_v5 : StableHlo.TRef sig ⟨S4x32x32x512, .f32⟩) subf,
    StableHlo.TRef.binary (.of main_call3_v5 : StableHlo.TRef sig ⟨S4x32x32x512, .f32⟩) (.of main_call3_v5 : StableHlo.TRef sig ⟨S4x32x32x512, .f32⟩) (.of main_call3_v6 : StableHlo.TRef sig ⟨S4x32x32x512, .f32⟩) mulf,
    StableHlo.TRef.unary (.of main_c_18 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x44800000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S4x32x32x512, .f32⟩) (.of main_call3_cst_2 : StableHlo.TRef sig ⟨S_, .f32⟩) (.of main_call3_v9 : StableHlo.TRef sig ⟨S4x512, .f32⟩) (fun x v => Host.reduceAdd x v reducesTo_S4x32x32x512_S4x512_d1_2 h_S_),
    StableHlo.TRef.unary (.of main_call3_v9 : StableHlo.TRef sig ⟨S4x512, .f32⟩) (.of main_call3_v10 : StableHlo.TRef sig ⟨S4x1x1x512, .f32⟩) (broadcastInDim S4x1x1x512 ![0, 3] bcast_S4x512_S4x1x1x512_0_3),
    StableHlo.TRef.unary (.of main_call3_v8 : StableHlo.TRef sig ⟨S_, .f32⟩) (.of main_call3_v11 : StableHlo.TRef sig ⟨S4x1x1x512, .f32⟩) (broadcastInDim S4x1x1x512 ![] bcast_S_S4x1x1x512),
    StableHlo.TRef.binary (.of main_call3_v10 : StableHlo.TRef sig ⟨S4x1x1x512, .f32⟩) (.of main_call3_v11 : StableHlo.TRef sig ⟨S4x1x1x512, .f32⟩) (.of main_call3_v12 : StableHlo.TRef sig ⟨S4x1x1x512, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v13 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S4x1x1x512, .f32⟩) (broadcastInDim S4x1x1x512 ![] bcast_S_S4x1x1x512),
    StableHlo.TRef.ternary (.of main_call3_v13 : StableHlo.TRef sig ⟨S_, .i1⟩) (.of main_call3_v12 : StableHlo.TRef sig ⟨S4x1x1x512, .f32⟩) (.of main_call3_call0_v1 : StableHlo.TRef sig ⟨S4x1x1x512, .f32⟩) (.of main_v76 : StableHlo.TRef sig ⟨S4x1x1x512, .f32⟩) (fun p a b => select (broadcastInDim S4x1x1x512 ![] bcast_S_S4x1x1x512 p) a b) ]
theorem st14_sub : (st14 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem st14_fresh : (st14 : List (HloOp τ sig (Elt F))).Forall fun op => op.fresh = ∅ := by
  simp only [List.Forall]; repeat' constructor
/-- The references stretch 14 writes, in order. -/
abbrev st14_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v76]
theorem st14_writes : (st14 : List (HloOp τ sig (Elt F))).Forall fun op => op.writes ⊆ ((st14_W).map (Proc.devRef (τ := τ) .tc)).toFinset :=
  ⟨writes_sub_of_mem (nullary_writes ..) (by decide), writes_sub_of_mem (binary_writes ..) (by decide), writes_sub_of_mem (unary_writes ..) (by decide), writes_sub_of_mem (nullary_writes ..) (by decide), writes_sub_of_mem (unary_writes ..) (by decide), writes_sub_of_mem (binary_writes ..) (by decide), writes_sub_of_mem (unary_writes ..) (by decide), writes_sub_of_mem (binary_writes ..) (by decide), writes_sub_of_mem (binary_writes ..) (by decide), writes_sub_of_mem (unary_writes ..) (by decide), writes_sub_of_mem (nullary_writes ..) (by decide), writes_sub_of_mem (binary_writes ..) (by decide), writes_sub_of_mem (nullary_writes ..) (by decide), writes_sub_of_mem (binary_writes ..) (by decide), writes_sub_of_mem (unary_writes ..) (by decide), writes_sub_of_mem (unary_writes ..) (by decide), writes_sub_of_mem (binary_writes ..) (by decide), writes_sub_of_mem (nullary_writes ..) (by decide), writes_sub_of_mem (binary_writes ..) (by decide), writes_sub_of_mem (nullary_writes ..) (by decide), writes_sub_of_mem (unary_writes ..) (by decide), writes_sub_of_mem (unary_writes ..) (by decide), writes_sub_of_mem (ternary_writes ..) (by decide)⟩
theorem st14_keeps : Keeps argRefs (st14 : List (HloOp τ sig (Elt F))) := keeps_of_writes st14_writes (by decide)

/-- Stretch 15: 8 operations of @main (window 1). -/
abbrev st15 : List (HloOp τ sig (Elt F)) :=
  [ StableHlo.unary main_v75 main_v77 (broadcastInDim S4x32x32x512 ![0, 1, 2, 3] bcast_S4x1x1x512_S4x32x32x512_0_1_2_3 : (⟨S4x1x1x512, .f32⟩ : BufTy).Contents (Elt F) → (⟨S4x32x32x512, .f32⟩ : BufTy).Contents (Elt F)),
    StableHlo.binary main_arg4 main_v77 main_v78 (subf : (⟨S4x32x32x512, .f32⟩ : BufTy).Contents (Elt F) → (⟨S4x32x32x512, .f32⟩ : BufTy).Contents (Elt F) → (⟨S4x32x32x512, .f32⟩ : BufTy).Contents (Elt F)),
    StableHlo.nullary main_cst_19 (constant S_ .f32 0x3727C5AC#32),
    StableHlo.unary main_cst_19 main_v79 (broadcastInDim S4x1x1x512 ![] bcast_S_S4x1x1x512 : (⟨S_, .f32⟩ : BufTy).Contents (Elt F) → (⟨S4x1x1x512, .f32⟩ : BufTy).Contents (Elt F)),
    StableHlo.binary main_v76 main_v79 main_v80 (addf : (⟨S4x1x1x512, .f32⟩ : BufTy).Contents (Elt F) → (⟨S4x1x1x512, .f32⟩ : BufTy).Contents (Elt F) → (⟨S4x1x1x512, .f32⟩ : BufTy).Contents (Elt F)),
    StableHlo.unary main_v80 main_v81 (Host.sqrt : (⟨S4x1x1x512, .f32⟩ : BufTy).Contents (Elt F) → (⟨S4x1x1x512, .f32⟩ : BufTy).Contents (Elt F)),
    StableHlo.unary main_v81 main_v82 (broadcastInDim S4x32x32x512 ![0, 1, 2, 3] bcast_S4x1x1x512_S4x32x32x512_0_1_2_3 : (⟨S4x1x1x512, .f32⟩ : BufTy).Contents (Elt F) → (⟨S4x32x32x512, .f32⟩ : BufTy).Contents (Elt F)),
    StableHlo.binary main_v78 main_v82 main_v83 (Host.divf : (⟨S4x32x32x512, .f32⟩ : BufTy).Contents (Elt F) → (⟨S4x32x32x512, .f32⟩ : BufTy).Contents (Elt F) → (⟨S4x32x32x512, .f32⟩ : BufTy).Contents (Elt F)) ]
theorem st15_sub : (st15 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub ..⟩
theorem st15_fresh : (st15 : List (HloOp τ sig (Elt F))).Forall fun op => op.fresh = ∅ := by
  simp only [List.Forall]; repeat' constructor
/-- The references stretch 15 writes, in order. -/
abbrev st15_W : List (Ref sig .tc) := [main_v77, main_v78, main_cst_19, main_v79, main_v80, main_v81, main_v82, main_v83]
theorem st15_writes : (st15 : List (HloOp τ sig (Elt F))).Forall fun op => op.writes ⊆ ((st15_W).map (Proc.devRef (τ := τ) .tc)).toFinset :=
  ⟨writes_sub_of_mem (unary_writes ..) (by decide), writes_sub_of_mem (binary_writes ..) (by decide), writes_sub_of_mem (nullary_writes ..) (by decide), writes_sub_of_mem (unary_writes ..) (by decide), writes_sub_of_mem (binary_writes ..) (by decide), writes_sub_of_mem (unary_writes ..) (by decide), writes_sub_of_mem (unary_writes ..) (by decide), writes_sub_of_mem (binary_writes ..) (by decide)⟩
theorem st15_keeps : Keeps argRefs (st15 : List (HloOp τ sig (Elt F))) := keeps_of_writes st15_writes (by decide)

/-- Stretch 16: 7 operations of @main (window 1). -/
abbrev st16 : List (HloOp τ sig (Elt F)) :=
  [ StableHlo.nullary main_cst_20 (constant S_ .f32 0x00000000#32),
    StableHlo.binary main_arg7 main_cst_20 main_v84 ((fun x v => Host.reduceAdd x v reducesTo_S4x32x32x512_S4x512_d1_2 h_S_) : (⟨S4x32x32x512, .f32⟩ : BufTy).Contents (Elt F) → (⟨S_, .f32⟩ : BufTy).Contents (Elt F) → (⟨S4x512, .f32⟩ : BufTy).Contents (Elt F)),
    StableHlo.unary main_v84 main_v85 (broadcastInDim S4x1x1x512 ![0, 3] bcast_S4x512_S4x1x1x512_0_3 : (⟨S4x512, .f32⟩ : BufTy).Contents (Elt F) → (⟨S4x1x1x512, .f32⟩ : BufTy).Contents (Elt F)),
    StableHlo.nullary main_cst_21 (constant S_ .f32 0x44800000#32),
    StableHlo.unary main_cst_21 main_v86 (broadcastInDim S4x1x1x512 ![] bcast_S_S4x1x1x512 : (⟨S_, .f32⟩ : BufTy).Contents (Elt F) → (⟨S4x1x1x512, .f32⟩ : BufTy).Contents (Elt F)),
    StableHlo.binary main_v85 main_v86 main_v87 (Host.divf : (⟨S4x1x1x512, .f32⟩ : BufTy).Contents (Elt F) → (⟨S4x1x1x512, .f32⟩ : BufTy).Contents (Elt F) → (⟨S4x1x1x512, .f32⟩ : BufTy).Contents (Elt F)),
    StableHlo.nullary main_c_22 (constantI S_ 32 0#32) ]
theorem st16_sub : (st16 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
theorem st16_fresh : (st16 : List (HloOp τ sig (Elt F))).Forall fun op => op.fresh = ∅ := by
  simp only [List.Forall]; repeat' constructor
/-- The references stretch 16 writes, in order. -/
abbrev st16_W : List (Ref sig .tc) := [main_cst_20, main_v84, main_v85, main_cst_21, main_v86, main_v87, main_c_22]
theorem st16_writes : (st16 : List (HloOp τ sig (Elt F))).Forall fun op => op.writes ⊆ ((st16_W).map (Proc.devRef (τ := τ) .tc)).toFinset :=
  ⟨writes_sub_of_mem (nullary_writes ..) (by decide), writes_sub_of_mem (binary_writes ..) (by decide), writes_sub_of_mem (unary_writes ..) (by decide), writes_sub_of_mem (nullary_writes ..) (by decide), writes_sub_of_mem (unary_writes ..) (by decide), writes_sub_of_mem (binary_writes ..) (by decide), writes_sub_of_mem (nullary_writes ..) (by decide)⟩
theorem st16_keeps : Keeps argRefs (st16 : List (HloOp τ sig (Elt F))) := keeps_of_writes st16_writes (by decide)

/-- Stretch 17: 23 operations of @var_0 (main_call4), the call unfolded over its record (window 1). -/
abbrev st17 : List (HloOp τ sig (Elt F)) :=
  [ StableHlo.TRef.nullary (.of main_call4_cst : StableHlo.TRef sig ⟨S_, .f32⟩) (constant S_ .f32 0x00000000#32),
    StableHlo.TRef.binary (.of main_arg7 : StableHlo.TRef sig ⟨S4x32x32x512, .f32⟩) (.of main_call4_cst : StableHlo.TRef sig ⟨S_, .f32⟩) (.of main_call4_v0 : StableHlo.TRef sig ⟨S4x512, .f32⟩) (fun x v => Host.reduceAdd x v reducesTo_S4x32x32x512_S4x512_d1_2 h_S_),
    StableHlo.TRef.unary (.of main_call4_v0 : StableHlo.TRef sig ⟨S4x512, .f32⟩) (.of main_call4_v1 : StableHlo.TRef sig ⟨S4x1x1x512, .f32⟩) (broadcastInDim S4x1x1x512 ![0, 3] bcast_S4x512_S4x1x1x512_0_3),
    StableHlo.TRef.nullary (.of main_call4_cst_0 : StableHlo.TRef sig ⟨S_, .f32⟩) (constant S_ .f32 0x44800000#32),
    StableHlo.TRef.unary (.of main_call4_cst_0 : StableHlo.TRef sig ⟨S_, .f32⟩) (.of main_call4_v2 : StableHlo.TRef sig ⟨S4x1x1x512, .f32⟩) (broadcastInDim S4x1x1x512 ![] bcast_S_S4x1x1x512),
    StableHlo.TRef.binary (.of main_call4_v1 : StableHlo.TRef sig ⟨S4x1x1x512, .f32⟩) (.of main_call4_v2 : StableHlo.TRef sig ⟨S4x1x1x512, .f32⟩) (.of main_call4_v3 : StableHlo.TRef sig ⟨S4x1x1x512, .f32⟩) Host.divf,
    StableHlo.TRef.unary (.of main_call4_v3 : StableHlo.TRef sig ⟨S4x1x1x512, .f32⟩) (.of main_call4_v4 : StableHlo.TRef sig ⟨S4x32x32x512, .f32⟩) (broadcastInDim S4x32x32x512 ![0, 1, 2, 3] bcast_S4x1x1x512_S4x32x32x512_0_1_2_3),
    StableHlo.TRef.binary (.of main_arg7 : StableHlo.TRef sig ⟨S4x32x32x512, .f32⟩) (.of main_call4_v4 : StableHlo.TRef sig ⟨S4x32x32x512, .f32⟩) (.of main_call4_v5 : StableHlo.TRef sig ⟨S4x32x32x512, .f32⟩) subf,
    StableHlo.TRef.binary (.of main_call4_v5 : StableHlo.TRef sig ⟨S4x32x32x512, .f32⟩) (.of main_call4_v5 : StableHlo.TRef sig ⟨S4x32x32x512, .f32⟩) (.of main_call4_v6 : StableHlo.TRef sig ⟨S4x32x32x512, .f32⟩) mulf,
    StableHlo.TRef.unary (.of main_c_22 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x44800000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S4x32x32x512, .f32⟩) (.of main_call4_cst_2 : StableHlo.TRef sig ⟨S_, .f32⟩) (.of main_call4_v9 : StableHlo.TRef sig ⟨S4x512, .f32⟩) (fun x v => Host.reduceAdd x v reducesTo_S4x32x32x512_S4x512_d1_2 h_S_),
    StableHlo.TRef.unary (.of main_call4_v9 : StableHlo.TRef sig ⟨S4x512, .f32⟩) (.of main_call4_v10 : StableHlo.TRef sig ⟨S4x1x1x512, .f32⟩) (broadcastInDim S4x1x1x512 ![0, 3] bcast_S4x512_S4x1x1x512_0_3),
    StableHlo.TRef.unary (.of main_call4_v8 : StableHlo.TRef sig ⟨S_, .f32⟩) (.of main_call4_v11 : StableHlo.TRef sig ⟨S4x1x1x512, .f32⟩) (broadcastInDim S4x1x1x512 ![] bcast_S_S4x1x1x512),
    StableHlo.TRef.binary (.of main_call4_v10 : StableHlo.TRef sig ⟨S4x1x1x512, .f32⟩) (.of main_call4_v11 : StableHlo.TRef sig ⟨S4x1x1x512, .f32⟩) (.of main_call4_v12 : StableHlo.TRef sig ⟨S4x1x1x512, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v13 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S4x1x1x512, .f32⟩) (broadcastInDim S4x1x1x512 ![] bcast_S_S4x1x1x512),
    StableHlo.TRef.ternary (.of main_call4_v13 : StableHlo.TRef sig ⟨S_, .i1⟩) (.of main_call4_v12 : StableHlo.TRef sig ⟨S4x1x1x512, .f32⟩) (.of main_call4_call0_v1 : StableHlo.TRef sig ⟨S4x1x1x512, .f32⟩) (.of main_v88 : StableHlo.TRef sig ⟨S4x1x1x512, .f32⟩) (fun p a b => select (broadcastInDim S4x1x1x512 ![] bcast_S_S4x1x1x512 p) a b) ]
theorem st17_sub : (st17 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem st17_fresh : (st17 : List (HloOp τ sig (Elt F))).Forall fun op => op.fresh = ∅ := by
  simp only [List.Forall]; repeat' constructor
/-- The references stretch 17 writes, in order. -/
abbrev st17_W : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v88]
theorem st17_writes : (st17 : List (HloOp τ sig (Elt F))).Forall fun op => op.writes ⊆ ((st17_W).map (Proc.devRef (τ := τ) .tc)).toFinset :=
  ⟨writes_sub_of_mem (nullary_writes ..) (by decide), writes_sub_of_mem (binary_writes ..) (by decide), writes_sub_of_mem (unary_writes ..) (by decide), writes_sub_of_mem (nullary_writes ..) (by decide), writes_sub_of_mem (unary_writes ..) (by decide), writes_sub_of_mem (binary_writes ..) (by decide), writes_sub_of_mem (unary_writes ..) (by decide), writes_sub_of_mem (binary_writes ..) (by decide), writes_sub_of_mem (binary_writes ..) (by decide), writes_sub_of_mem (unary_writes ..) (by decide), writes_sub_of_mem (nullary_writes ..) (by decide), writes_sub_of_mem (binary_writes ..) (by decide), writes_sub_of_mem (nullary_writes ..) (by decide), writes_sub_of_mem (binary_writes ..) (by decide), writes_sub_of_mem (unary_writes ..) (by decide), writes_sub_of_mem (unary_writes ..) (by decide), writes_sub_of_mem (binary_writes ..) (by decide), writes_sub_of_mem (nullary_writes ..) (by decide), writes_sub_of_mem (binary_writes ..) (by decide), writes_sub_of_mem (nullary_writes ..) (by decide), writes_sub_of_mem (unary_writes ..) (by decide), writes_sub_of_mem (unary_writes ..) (by decide), writes_sub_of_mem (ternary_writes ..) (by decide)⟩
theorem st17_keeps : Keeps argRefs (st17 : List (HloOp τ sig (Elt F))) := keeps_of_writes st17_writes (by decide)

/-- Stretch 18: 6 operations of @main (window 1). -/
abbrev st18 : List (HloOp τ sig (Elt F)) :=
  [ StableHlo.unary main_v87 main_v89 (broadcastInDim S4x32x32x512 ![0, 1, 2, 3] bcast_S4x1x1x512_S4x32x32x512_0_1_2_3 : (⟨S4x1x1x512, .f32⟩ : BufTy).Contents (Elt F) → (⟨S4x32x32x512, .f32⟩ : BufTy).Contents (Elt F)),
    StableHlo.binary main_arg7 main_v89 main_v90 (subf : (⟨S4x32x32x512, .f32⟩ : BufTy).Contents (Elt F) → (⟨S4x32x32x512, .f32⟩ : BufTy).Contents (Elt F) → (⟨S4x32x32x512, .f32⟩ : BufTy).Contents (Elt F)),
    StableHlo.nullary main_cst_23 (constant S_ .f32 0x3727C5AC#32),
    StableHlo.unary main_cst_23 main_v91 (broadcastInDim S4x1x1x512 ![] bcast_S_S4x1x1x512 : (⟨S_, .f32⟩ : BufTy).Contents (Elt F) → (⟨S4x1x1x512, .f32⟩ : BufTy).Contents (Elt F)),
    StableHlo.binary main_v88 main_v91 main_v92 (addf : (⟨S4x1x1x512, .f32⟩ : BufTy).Contents (Elt F) → (⟨S4x1x1x512, .f32⟩ : BufTy).Contents (Elt F) → (⟨S4x1x1x512, .f32⟩ : BufTy).Contents (Elt F)),
    StableHlo.unary main_v92 main_v93 (Host.sqrt : (⟨S4x1x1x512, .f32⟩ : BufTy).Contents (Elt F) → (⟨S4x1x1x512, .f32⟩ : BufTy).Contents (Elt F)) ]
theorem st18_sub : (st18 : List (HloOp τ sig (Elt F))).Forall fun op => op.bufs ⊆ tcRefs τ sig :=
  ⟨unary_bufs_sub .., binary_bufs_sub .., nullary_bufs_sub .., unary_bufs_sub .., binary_bufs_sub .., unary_bufs_sub ..⟩
theorem st18_fresh : (st18 : List (HloOp τ sig (Elt F))).Forall fun op => op.fresh = ∅ := by
  simp only [List.Forall]; repeat' constructor
/-- The references stretch 18 writes, in order. -/
abbrev st18_W : List (Ref sig .tc) := [main_v89, main_v90, main_cst_23, main_v91, main_v92, main_v93]
theorem st18_writes : (st18 : List (HloOp τ sig (Elt F))).Forall fun op => op.writes ⊆ ((st18_W).map (Proc.devRef (τ := τ) .tc)).toFinset :=
  ⟨writes_sub_of_mem (unary_writes ..) (by decide), writes_sub_of_mem (binary_writes ..) (by decide), writes_sub_of_mem (nullary_writes ..) (by decide), writes_sub_of_mem (unary_writes ..) (by decide), writes_sub_of_mem (binary_writes ..) (by decide), writes_sub_of_mem (unary_writes ..) (by decide)⟩
theorem st18_keeps : Keeps argRefs (st18 : List (HloOp τ sig (Elt F))) := keeps_of_writes st18_writes (by decide)

/-- Window 1 is its stretches run in order, the last in tail position. -/
theorem main_part1_chain (c : Dev nD) : main_part1 (F := F) c = (Pipeline.chainK
  [ seq st10,
    seq st11,
    seq st12,
    seq st13,
    seq st14,
    seq st15,
    seq st16,
    seq st17 ]
  (seq st18) : Prog (TpuEff nD τ sig (Elt F) (Pipeline.Sig Λ₀ (Fin 0) fun p => (pcfgs (F := F) p).Adm) .tc) PUnit) := by
  chain_rfl

end Cert.ReferenceIdeal.Hand

end
-- ==== Proof.Ref.W2.lean ====
/-
  Window 2 of the reference program's @main as stretches of operations: each list is the window's statements in
  order, a called function's body written out over that call's record of buffers (its own calls likewise), with for
  each stretch that its operations touch TensorCore references only, determine their results, and which references
  they write; then the window itself as the chain of its stretches.
-/
import proofs.«170986_j45183055954173_2_alg».proof.Proof.Gen.ReferenceIdeal
import Idealize.ShloMosaic.Lib.StableHlo.Run
import Idealize.ShloMosaic.Lib.Pipeline.Regions
import proofs.«170986_j45183055954173_2_alg».proof.Proof.Ref.Basic
set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch 19: 2 operations of @main (window 2). -/
abbrev st19 : List (HloOp τ sig (Elt F)) :=
  [ StableHlo.unary main_v93 main_v94 (broadcastInDim S4x32x32x512 ![0, 1, 2, 3] bcast_S4x1x1x512_S4x32x32x512_0_1_2_3 : (⟨S4x1x1x512, .f32⟩ : BufTy).Contents (Elt F) → (⟨S4x32x32x512, .f32⟩ : BufTy).Contents (Elt F)),
    StableHlo.binary main_v90 main_v94 main_v95 (Host.divf : (⟨S4x32x32x512, .f32⟩ : BufTy).Contents (Elt F) → (⟨S4x32x32x512, .f32⟩ : BufTy).Contents (Elt F) → (⟨S4x32x32x512, .f32⟩ : BufTy).Contents (Elt F)) ]
theorem st19_sub : (st19 : List (HloOp τ sig (Elt F))).Forall fun op => op.bufs ⊆ tcRefs τ sig :=
  ⟨unary_bufs_sub .., binary_bufs_sub ..⟩
theorem st19_fresh : (st19 : List (HloOp τ sig (Elt F))).Forall fun op => op.fresh = ∅ := by
  simp only [List.Forall]; repeat' constructor
/-- The references stretch 19 writes, in order. -/
abbrev st19_W : List (Ref sig .tc) := [main_v94, main_v95]
theorem st19_writes : (st19 : List (HloOp τ sig (Elt F))).Forall fun op => op.writes ⊆ ((st19_W).map (Proc.devRef (τ := τ) .tc)).toFinset :=
  ⟨writes_sub_of_mem (unary_writes ..) (by decide), writes_sub_of_mem (binary_writes ..) (by decide)⟩
theorem st19_keeps : Keeps argRefs (st19 : List (HloOp τ sig (Elt F))) := keeps_of_writes st19_writes (by decide)

/-- Stretch 20: 11 operations of @main (window 2). -/
abbrev st20 : List (HloOp τ sig (Elt F)) :=
  [ StableHlo.reshape main_v83 main_v96 rfl shapeCasts_S4x32x32x512_S4x1024x512,
    StableHlo.binary main_v96 main_v96 main_v97 (mulf : (⟨S4x1024x512, .f32⟩ : BufTy).Contents (Elt F) → (⟨S4x1024x512, .f32⟩ : BufTy).Contents (Elt F) → (⟨S4x1024x512, .f32⟩ : BufTy).Contents (Elt F)),
    StableHlo.nullary main_cst_24 (constant S_ .f32 0x00000000#32),
    StableHlo.binary main_v97 main_cst_24 main_v98 ((fun x v => Host.reduceAdd x v reducesTo_S4x1024x512_S4x1024_d2 h_S_) : (⟨S4x1024x512, .f32⟩ : BufTy).Contents (Elt F) → (⟨S_, .f32⟩ : BufTy).Contents (Elt F) → (⟨S4x1024, .f32⟩ : BufTy).Contents (Elt F)),
    StableHlo.unary main_v98 main_v99 (broadcastInDim S4x1024x1 ![0, 1] bcast_S4x1024_S4x1024x1_0_1 : (⟨S4x1024, .f32⟩ : BufTy).Contents (Elt F) → (⟨S4x1024x1, .f32⟩ : BufTy).Contents (Elt F)),
    StableHlo.unary main_v99 main_v100 (Host.sqrt : (⟨S4x1024x1, .f32⟩ : BufTy).Contents (Elt F) → (⟨S4x1024x1, .f32⟩ : BufTy).Contents (Elt F)),
    StableHlo.nullary main_cst_25 (constant S_ .f32 0x2B8CBCCC#32),
    StableHlo.unary main_cst_25 main_v101 (broadcastInDim S4x1024x1 ![] bcast_S_S4x1024x1 : (⟨S_, .f32⟩ : BufTy).Contents (Elt F) → (⟨S4x1024x1, .f32⟩ : BufTy).Contents (Elt F)),
    StableHlo.binary main_v100 main_v101 main_v102 (maximumf : (⟨S4x1024x1, .f32⟩ : BufTy).Contents (Elt F) → (⟨S4x1024x1, .f32⟩ : BufTy).Contents (Elt F) → (⟨S4x1024x1, .f32⟩ : BufTy).Contents (Elt F)),
    StableHlo.unary main_v102 main_v103 (broadcastInDim S4x1024x512 ![0, 1, 2] bcast_S4x1024x1_S4x1024x512_0_1_2 : (⟨S4x1024x1, .f32⟩ : BufTy).Contents (Elt F) → (⟨S4x1024x512, .f32⟩ : BufTy).Contents (Elt F)),
    StableHlo.binary main_v96 main_v103 main_v104 (Host.divf : (⟨S4x1024x512, .f32⟩ : BufTy).Contents (Elt F) → (⟨S4x1024x512, .f32⟩ : BufTy).Contents (Elt F) → (⟨S4x1024x512, .f32⟩ : BufTy).Contents (Elt F)) ]
theorem st20_sub : (st20 : List (HloOp τ sig (Elt F))).Forall fun op => op.bufs ⊆ tcRefs τ sig :=
  ⟨reshape_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem st20_fresh : (st20 : List (HloOp τ sig (Elt F))).Forall fun op => op.fresh = ∅ := by
  simp only [List.Forall]; repeat' constructor
/-- The references stretch 20 writes, in order. -/
abbrev st20_W : List (Ref sig .tc) := [main_v96, main_v97, main_cst_24, main_v98, main_v99, main_v100, main_cst_25, main_v101, main_v102, main_v103, main_v104]
theorem st20_writes : (st20 : List (HloOp τ sig (Elt F))).Forall fun op => op.writes ⊆ ((st20_W).map (Proc.devRef (τ := τ) .tc)).toFinset :=
  ⟨writes_sub_of_mem (reshape_writes ..) (by decide), writes_sub_of_mem (binary_writes ..) (by decide), writes_sub_of_mem (nullary_writes ..) (by decide), writes_sub_of_mem (binary_writes ..) (by decide), writes_sub_of_mem (unary_writes ..) (by decide), writes_sub_of_mem (unary_writes ..) (by decide), writes_sub_of_mem (nullary_writes ..) (by decide), writes_sub_of_mem (unary_writes ..) (by decide), writes_sub_of_mem (binary_writes ..) (by decide), writes_sub_of_mem (unary_writes ..) (by decide), writes_sub_of_mem (binary_writes ..) (by decide)⟩
theorem st20_keeps : Keeps argRefs (st20 : List (HloOp τ sig (Elt F))) := keeps_of_writes st20_writes (by decide)

/-- Stretch 21: 11 operations of @main (window 2). -/
abbrev st21 : List (HloOp τ sig (Elt F)) :=
  [ StableHlo.reshape main_v95 main_v105 rfl shapeCasts_S4x32x32x512_S4x1024x512,
    StableHlo.binary main_v105 main_v105 main_v106 (mulf : (⟨S4x1024x512, .f32⟩ : BufTy).Contents (Elt F) → (⟨S4x1024x512, .f32⟩ : BufTy).Contents (Elt F) → (⟨S4x1024x512, .f32⟩ : BufTy).Contents (Elt F)),
    StableHlo.nullary main_cst_26 (constant S_ .f32 0x00000000#32),
    StableHlo.binary main_v106 main_cst_26 main_v107 ((fun x v => Host.reduceAdd x v reducesTo_S4x1024x512_S4x1024_d2 h_S_) : (⟨S4x1024x512, .f32⟩ : BufTy).Contents (Elt F) → (⟨S_, .f32⟩ : BufTy).Contents (Elt F) → (⟨S4x1024, .f32⟩ : BufTy).Contents (Elt F)),
    StableHlo.unary main_v107 main_v108 (broadcastInDim S4x1024x1 ![0, 1] bcast_S4x1024_S4x1024x1_0_1 : (⟨S4x1024, .f32⟩ : BufTy).Contents (Elt F) → (⟨S4x1024x1, .f32⟩ : BufTy).Contents (Elt F)),
    StableHlo.unary main_v108 main_v109 (Host.sqrt : (⟨S4x1024x1, .f32⟩ : BufTy).Contents (Elt F) → (⟨S4x1024x1, .f32⟩ : BufTy).Contents (Elt F)),
    StableHlo.nullary main_cst_27 (constant S_ .f32 0x2B8CBCCC#32),
    StableHlo.unary main_cst_27 main_v110 (broadcastInDim S4x1024x1 ![] bcast_S_S4x1024x1 : (⟨S_, .f32⟩ : BufTy).Contents (Elt F) → (⟨S4x1024x1, .f32⟩ : BufTy).Contents (Elt F)),
    StableHlo.binary main_v109 main_v110 main_v111 (maximumf : (⟨S4x1024x1, .f32⟩ : BufTy).Contents (Elt F) → (⟨S4x1024x1, .f32⟩ : BufTy).Contents (Elt F) → (⟨S4x1024x1, .f32⟩ : BufTy).Contents (Elt F)),
    StableHlo.unary main_v111 main_v112 (broadcastInDim S4x1024x512 ![0, 1, 2] bcast_S4x1024x1_S4x1024x512_0_1_2 : (⟨S4x1024x1, .f32⟩ : BufTy).Contents (Elt F) → (⟨S4x1024x512, .f32⟩ : BufTy).Contents (Elt F)),
    StableHlo.binary main_v105 main_v112 main_v113 (Host.divf : (⟨S4x1024x512, .f32⟩ : BufTy).Contents (Elt F) → (⟨S4x1024x512, .f32⟩ : BufTy).Contents (Elt F) → (⟨S4x1024x512, .f32⟩ : BufTy).Contents (Elt F)) ]
theorem st21_sub : (st21 : List (HloOp τ sig (Elt F))).Forall fun op => op.bufs ⊆ tcRefs τ sig :=
  ⟨reshape_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem st21_fresh : (st21 : List (HloOp τ sig (Elt F))).Forall fun op => op.fresh = ∅ := by
  simp only [List.Forall]; repeat' constructor
/-- The references stretch 21 writes, in order. -/
abbrev st21_W : List (Ref sig .tc) := [main_v105, main_v106, main_cst_26, main_v107, main_v108, main_v109, main_cst_27, main_v110, main_v111, main_v112, main_v113]
theorem st21_writes : (st21 : List (HloOp τ sig (Elt F))).Forall fun op => op.writes ⊆ ((st21_W).map (Proc.devRef (τ := τ) .tc)).toFinset :=
  ⟨writes_sub_of_mem (reshape_writes ..) (by decide), writes_sub_of_mem (binary_writes ..) (by decide), writes_sub_of_mem (nullary_writes ..) (by decide), writes_sub_of_mem (binary_writes ..) (by decide), writes_sub_of_mem (unary_writes ..) (by decide), writes_sub_of_mem (unary_writes ..) (by decide), writes_sub_of_mem (nullary_writes ..) (by decide), writes_sub_of_mem (unary_writes ..) (by decide), writes_sub_of_mem (binary_writes ..) (by decide), writes_sub_of_mem (unary_writes ..) (by decide), writes_sub_of_mem (binary_writes ..) (by decide)⟩
theorem st21_keeps : Keeps argRefs (st21 : List (HloOp τ sig (Elt F))) := keeps_of_writes st21_writes (by decide)

/-- Stretch 22: 1 operations of @main (window 2). -/
abbrev st22 : List (HloOp τ sig (Elt F)) :=
  [ StableHlo.reshape main_arg7 main_v114 rfl shapeCasts_S4x32x32x512_S4x1024x512 ]
theorem st22_sub : (st22 : List (HloOp τ sig (Elt F))).Forall fun op => op.bufs ⊆ tcRefs τ sig :=
  reshape_bufs_sub ..
theorem st22_fresh : (st22 : List (HloOp τ sig (Elt F))).Forall fun op => op.fresh = ∅ := by
  simp only [List.Forall]; repeat' constructor
/-- The references stretch 22 writes, in order. -/
abbrev st22_W : List (Ref sig .tc) := [main_v114]
theorem st22_writes : (st22 : List (HloOp τ sig (Elt F))).Forall fun op => op.writes ⊆ ((st22_W).map (Proc.devRef (τ := τ) .tc)).toFinset :=
  writes_sub_of_mem (reshape_writes ..) (by decide)
theorem st22_keeps : Keeps argRefs (st22 : List (HloOp τ sig (Elt F))) := keeps_of_writes st22_writes (by decide)

/-- Stretch 23: 20 operations of @main (window 2). -/
abbrev st23 : List (HloOp τ sig (Elt F)) :=
  [ StableHlo.binary main_v104 main_v113 main_v115 ((fun l r => Host.dotGeneral dot_S4x1024x512_S4x1024x512_S4x1024x1024_2_2_1_1_0_0 none l r) : (⟨S4x1024x512, .f32⟩ : BufTy).Contents (Elt F) → (⟨S4x1024x512, .f32⟩ : BufTy).Contents (Elt F) → (⟨S4x1024x1024, .f32⟩ : BufTy).Contents (Elt F)),
    StableHlo.nullary main_cst_28 (constant S_ .f32 0xFF800000#32),
    StableHlo.binary main_v115 main_cst_28 main_v116 ((fun x v => Host.reduce FloatOps.maximumf x v reducesTo_S4x1024x1024_S4x1024_d2 h_S_) : (⟨S4x1024x1024, .f32⟩ : BufTy).Contents (Elt F) → (⟨S_, .f32⟩ : BufTy).Contents (Elt F) → (⟨S4x1024, .f32⟩ : BufTy).Contents (Elt F)),
    StableHlo.nullary main_cst_29 (constant S_ .f32 0xFF800000#32),
    StableHlo.unary main_cst_29 main_v117 (broadcastInDim S4x1024 ![] bcast_S_S4x1024 : (⟨S_, .f32⟩ : BufTy).Contents (Elt F) → (⟨S4x1024, .f32⟩ : BufTy).Contents (Elt F)),
    StableHlo.binary main_v117 main_v116 main_v118 (maximumf : (⟨S4x1024, .f32⟩ : BufTy).Contents (Elt F) → (⟨S4x1024, .f32⟩ : BufTy).Contents (Elt F) → (⟨S4x1024, .f32⟩ : BufTy).Contents (Elt F)),
    StableHlo.unary main_v118 main_v119 (broadcastInDim S4x1024x1 ![0, 1] bcast_S4x1024_S4x1024x1_0_1 : (⟨S4x1024, .f32⟩ : BufTy).Contents (Elt F) → (⟨S4x1024x1, .f32⟩ : BufTy).Contents (Elt F)),
    StableHlo.unary main_v119 main_v120 (broadcastInDim S4x1024x1024 ![0, 1, 2] bcast_S4x1024x1_S4x1024x1024_0_1_2 : (⟨S4x1024x1, .f32⟩ : BufTy).Contents (Elt F) → (⟨S4x1024x1024, .f32⟩ : BufTy).Contents (Elt F)),
    StableHlo.binary main_v115 main_v120 main_v121 (subf : (⟨S4x1024x1024, .f32⟩ : BufTy).Contents (Elt F) → (⟨S4x1024x1024, .f32⟩ : BufTy).Contents (Elt F) → (⟨S4x1024x1024, .f32⟩ : BufTy).Contents (Elt F)),
    StableHlo.unary main_v121 main_v122 (Host.exp : (⟨S4x1024x1024, .f32⟩ : BufTy).Contents (Elt F) → (⟨S4x1024x1024, .f32⟩ : BufTy).Contents (Elt F)),
    StableHlo.nullary main_cst_30 (constant S_ .f32 0x00000000#32),
    StableHlo.binary main_v122 main_cst_30 main_v123 ((fun x v => Host.reduceAdd x v reducesTo_S4x1024x1024_S4x1024_d2 h_S_) : (⟨S4x1024x1024, .f32⟩ : BufTy).Contents (Elt F) → (⟨S_, .f32⟩ : BufTy).Contents (Elt F) → (⟨S4x1024, .f32⟩ : BufTy).Contents (Elt F)),
    StableHlo.unary main_v123 main_v124 (broadcastInDim S4x1024x1 ![0, 1] bcast_S4x1024_S4x1024x1_0_1 : (⟨S4x1024, .f32⟩ : BufTy).Contents (Elt F) → (⟨S4x1024x1, .f32⟩ : BufTy).Contents (Elt F)),
    StableHlo.unary main_v124 main_v125 (broadcastInDim S4x1024x1024 ![0, 1, 2] bcast_S4x1024x1_S4x1024x1024_0_1_2 : (⟨S4x1024x1, .f32⟩ : BufTy).Contents (Elt F) → (⟨S4x1024x1024, .f32⟩ : BufTy).Contents (Elt F)),
    StableHlo.binary main_v122 main_v125 main_v126 (Host.divf : (⟨S4x1024x1024, .f32⟩ : BufTy).Contents (Elt F) → (⟨S4x1024x1024, .f32⟩ : BufTy).Contents (Elt F) → (⟨S4x1024x1024, .f32⟩ : BufTy).Contents (Elt F)),
    StableHlo.binary main_v126 main_v114 main_v127 ((fun l r => Host.dotGeneral dot_S4x1024x1024_S4x1024x512_S4x1024x512_2_1_1_2_0_0 none l r) : (⟨S4x1024x1024, .f32⟩ : BufTy).Contents (Elt F) → (⟨S4x1024x512, .f32⟩ : BufTy).Contents (Elt F) → (⟨S4x1024x512, .f32⟩ : BufTy).Contents (Elt F)),
    StableHlo.binary main_v114 main_v114 main_v128 (mulf : (⟨S4x1024x512, .f32⟩ : BufTy).Contents (Elt F) → (⟨S4x1024x512, .f32⟩ : BufTy).Contents (Elt F) → (⟨S4x1024x512, .f32⟩ : BufTy).Contents (Elt F)),
    StableHlo.binary main_v126 main_v128 main_v129 ((fun l r => Host.dotGeneral dot_S4x1024x1024_S4x1024x512_S4x1024x512_2_1_1_2_0_0 none l r) : (⟨S4x1024x1024, .f32⟩ : BufTy).Contents (Elt F) → (⟨S4x1024x512, .f32⟩ : BufTy).Contents (Elt F) → (⟨S4x1024x512, .f32⟩ : BufTy).Contents (Elt F)),
    StableHlo.binary main_v127 main_v127 main_v130 (mulf : (⟨S4x1024x512, .f32⟩ : BufTy).Contents (Elt F) → (⟨S4x1024x512, .f32⟩ : BufTy).Contents (Elt F) → (⟨S4x1024x512, .f32⟩ : BufTy).Contents (Elt F)),
    StableHlo.binary main_v129 main_v130 main_v131 (subf : (⟨S4x1024x512, .f32⟩ : BufTy).Contents (Elt F) → (⟨S4x1024x512, .f32⟩ : BufTy).Contents (Elt F) → (⟨S4x1024x512, .f32⟩ : BufTy).Contents (Elt F)) ]
theorem st23_sub : (st23 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., binary_bufs_sub .., binary_bufs_sub ..⟩
theorem st23_fresh : (st23 : List (HloOp τ sig (Elt F))).Forall fun op => op.fresh = ∅ := by
  simp only [List.Forall]; repeat' constructor
/-- The references stretch 23 writes, in order. -/
abbrev st23_W : List (Ref sig .tc) := [main_v115, main_cst_28, main_v116, main_cst_29, main_v117, main_v118, main_v119, main_v120, main_v121, main_v122, main_cst_30, main_v123, main_v124, main_v125, main_v126, main_v127, main_v128, main_v129, main_v130, main_v131]
theorem st23_writes : (st23 : List (HloOp τ sig (Elt F))).Forall fun op => op.writes ⊆ ((st23_W).map (Proc.devRef (τ := τ) .tc)).toFinset :=
  ⟨writes_sub_of_mem (binary_writes ..) (by decide), writes_sub_of_mem (nullary_writes ..) (by decide), writes_sub_of_mem (binary_writes ..) (by decide), writes_sub_of_mem (nullary_writes ..) (by decide), writes_sub_of_mem (unary_writes ..) (by decide), writes_sub_of_mem (binary_writes ..) (by decide), writes_sub_of_mem (unary_writes ..) (by decide), writes_sub_of_mem (unary_writes ..) (by decide), writes_sub_of_mem (binary_writes ..) (by decide), writes_sub_of_mem (unary_writes ..) (by decide), writes_sub_of_mem (nullary_writes ..) (by decide), writes_sub_of_mem (binary_writes ..) (by decide), writes_sub_of_mem (unary_writes ..) (by decide), writes_sub_of_mem (unary_writes ..) (by decide), writes_sub_of_mem (binary_writes ..) (by decide), writes_sub_of_mem (binary_writes ..) (by decide), writes_sub_of_mem (binary_writes ..) (by decide), writes_sub_of_mem (binary_writes ..) (by decide), writes_sub_of_mem (binary_writes ..) (by decide), writes_sub_of_mem (binary_writes ..) (by decide)⟩
theorem st23_keeps : Keeps argRefs (st23 : List (HloOp τ sig (Elt F))) := keeps_of_writes st23_writes (by decide)

/-- Stretch 24: 3 operations of @relu_2 (main_call5), the call unfolded over its record (window 2). -/
abbrev st24 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S4x1024x512, .f32⟩) (broadcastInDim S4x1024x512 ![] bcast_S_S4x1024x512),
    StableHlo.TRef.binary (.of main_v131 : StableHlo.TRef sig ⟨S4x1024x512, .f32⟩) (.of main_call5_v0 : StableHlo.TRef sig ⟨S4x1024x512, .f32⟩) (.of main_v132 : StableHlo.TRef sig ⟨S4x1024x512, .f32⟩) maximumf ]
theorem st24_sub : (st24 : List (HloOp τ sig (Elt F))).Forall fun op => op.bufs ⊆ tcRefs τ sig :=
  ⟨nullary_bufs_sub .., unary_bufs_sub .., binary_bufs_sub ..⟩
theorem st24_fresh : (st24 : List (HloOp τ sig (Elt F))).Forall fun op => op.fresh = ∅ := by
  simp only [List.Forall]; repeat' constructor
/-- The references stretch 24 writes, in order. -/
abbrev st24_W : List (Ref sig .tc) := [main_call5_cst, main_call5_v0, main_v132]
theorem st24_writes : (st24 : List (HloOp τ sig (Elt F))).Forall fun op => op.writes ⊆ ((st24_W).map (Proc.devRef (τ := τ) .tc)).toFinset :=
  ⟨writes_sub_of_mem (nullary_writes ..) (by decide), writes_sub_of_mem (unary_writes ..) (by decide), writes_sub_of_mem (binary_writes ..) (by decide)⟩
theorem st24_keeps : Keeps argRefs (st24 : List (HloOp τ sig (Elt F))) := keeps_of_writes st24_writes (by decide)

/-- Stretch 25: 14 operations of @main (window 2). -/
abbrev st25 : List (HloOp τ sig (Elt F)) :=
  [ StableHlo.nullary main_cst_31 (constant S_ .f32 0x2B8CBCCC#32),
    StableHlo.unary main_cst_31 main_v133 (broadcastInDim S4x1024x512 ![] bcast_S_S4x1024x512 : (⟨S_, .f32⟩ : BufTy).Contents (Elt F) → (⟨S4x1024x512, .f32⟩ : BufTy).Contents (Elt F)),
    StableHlo.binary main_v132 main_v133 main_v134 (addf : (⟨S4x1024x512, .f32⟩ : BufTy).Contents (Elt F) → (⟨S4x1024x512, .f32⟩ : BufTy).Contents (Elt F) → (⟨S4x1024x512, .f32⟩ : BufTy).Contents (Elt F)),
    StableHlo.unary main_v134 main_v135 (Host.sqrt : (⟨S4x1024x512, .f32⟩ : BufTy).Contents (Elt F) → (⟨S4x1024x512, .f32⟩ : BufTy).Contents (Elt F)),
    StableHlo.reshape main_v135 main_v136 rfl shapeCasts_S4x1024x512_S4x32x32x512,
    StableHlo.binary main_v136 main_v83 main_v137 (mulf : (⟨S4x32x32x512, .f32⟩ : BufTy).Contents (Elt F) → (⟨S4x32x32x512, .f32⟩ : BufTy).Contents (Elt F) → (⟨S4x32x32x512, .f32⟩ : BufTy).Contents (Elt F)),
    StableHlo.reshape main_v127 main_v138 rfl shapeCasts_S4x1024x512_S4x32x32x512,
    StableHlo.binary main_v137 main_v138 main_v139 (addf : (⟨S4x32x32x512, .f32⟩ : BufTy).Contents (Elt F) → (⟨S4x32x32x512, .f32⟩ : BufTy).Contents (Elt F) → (⟨S4x32x32x512, .f32⟩ : BufTy).Contents (Elt F)),
    StableHlo.binary main_arg1 main_v139 main_v140 (subf : (⟨S4x32x32x512, .f32⟩ : BufTy).Contents (Elt F) → (⟨S4x32x32x512, .f32⟩ : BufTy).Contents (Elt F) → (⟨S4x32x32x512, .f32⟩ : BufTy).Contents (Elt F)),
    StableHlo.binary main_v140 main_v140 main_v141 (mulf : (⟨S4x32x32x512, .f32⟩ : BufTy).Contents (Elt F) → (⟨S4x32x32x512, .f32⟩ : BufTy).Contents (Elt F) → (⟨S4x32x32x512, .f32⟩ : BufTy).Contents (Elt F)),
    StableHlo.nullary main_cst_32 (constant S_ .f32 0x00000000#32),
    StableHlo.binary main_v141 main_cst_32 main_v142 ((fun x v => Host.reduceAdd x v reducesTo_S4x32x32x512_S_d0_1_2_3 h_S_) : (⟨S4x32x32x512, .f32⟩ : BufTy).Contents (Elt F) → (⟨S_, .f32⟩ : BufTy).Contents (Elt F) → (⟨S_, .f32⟩ : BufTy).Contents (Elt F)),
    StableHlo.nullary main_cst_33 (constant S_ .f32 0x4A000000#32),
    StableHlo.binary main_v142 main_cst_33 main_v143 (Host.divf : (⟨S_, .f32⟩ : BufTy).Contents (Elt F) → (⟨S_, .f32⟩ : BufTy).Contents (Elt F) → (⟨S_, .f32⟩ : BufTy).Contents (Elt F)) ]
theorem st25_sub : (st25 : List (HloOp τ sig (Elt F))).Forall fun op => op.bufs ⊆ tcRefs τ sig :=
  ⟨nullary_bufs_sub .., unary_bufs_sub .., binary_bufs_sub .., unary_bufs_sub .., reshape_bufs_sub .., binary_bufs_sub .., reshape_bufs_sub .., binary_bufs_sub .., binary_bufs_sub .., binary_bufs_sub .., nullary_bufs_sub .., binary_bufs_sub .., nullary_bufs_sub .., binary_bufs_sub ..⟩
theorem st25_fresh : (st25 : List (HloOp τ sig (Elt F))).Forall fun op => op.fresh = ∅ := by
  simp only [List.Forall]; repeat' constructor
/-- The references stretch 25 writes, in order. -/
abbrev st25_W : List (Ref sig .tc) := [main_cst_31, main_v133, main_v134, main_v135, main_v136, main_v137, main_v138, main_v139, main_v140, main_v141, main_cst_32, main_v142, main_cst_33, main_v143]
theorem st25_writes : (st25 : List (HloOp τ sig (Elt F))).Forall fun op => op.writes ⊆ ((st25_W).map (Proc.devRef (τ := τ) .tc)).toFinset :=
  ⟨writes_sub_of_mem (nullary_writes ..) (by decide), writes_sub_of_mem (unary_writes ..) (by decide), writes_sub_of_mem (binary_writes ..) (by decide), writes_sub_of_mem (unary_writes ..) (by decide), writes_sub_of_mem (reshape_writes ..) (by decide), writes_sub_of_mem (binary_writes ..) (by decide), writes_sub_of_mem (reshape_writes ..) (by decide), writes_sub_of_mem (binary_writes ..) (by decide), writes_sub_of_mem (binary_writes ..) (by decide), writes_sub_of_mem (binary_writes ..) (by decide), writes_sub_of_mem (nullary_writes ..) (by decide), writes_sub_of_mem (binary_writes ..) (by decide), writes_sub_of_mem (nullary_writes ..) (by decide), writes_sub_of_mem (binary_writes ..) (by decide)⟩
theorem st25_keeps : Keeps argRefs (st25 : List (HloOp τ sig (Elt F))) := keeps_of_writes st25_writes (by decide)

/-- Window 2 is its stretches run in order, the last in tail position. -/
theorem main_part2_chain (c : Dev nD) : main_part2 (F := F) c = (Pipeline.chainK
  [ seq st19,
    seq st20,
    seq st21,
    seq st22,
    seq st23,
    seq st24 ]
  (seq st25) : Prog (TpuEff nD τ sig (Elt F) (Pipeline.Sig Λ₀ (Fin 0) fun p => (pcfgs (F := F) p).Adm) .tc) PUnit) := by
  chain_rfl

end Cert.ReferenceIdeal.Hand

end
-- ==== Proof.Ref.W3.lean ====
/-
  Window 3 of the reference program's @main as stretches of operations: each list is the window's statements in
  order, a called function's body written out over that call's record of buffers (its own calls likewise), with for
  each stretch that its operations touch TensorCore references only, determine their results, and which references
  they write; then the window itself as the chain of its stretches.
-/
import proofs.«170986_j45183055954173_2_alg».proof.Proof.Gen.ReferenceIdeal
import Idealize.ShloMosaic.Lib.StableHlo.Run
import Idealize.ShloMosaic.Lib.Pipeline.Regions
import proofs.«170986_j45183055954173_2_alg».proof.Proof.Ref.Basic
set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch 26: 1 operations of @main (window 3). -/
abbrev st26 : List (HloOp τ sig (Elt F)) :=
  [ StableHlo.binary main_v71 main_v143 main_v144 (addf : (⟨S_, .f32⟩ : BufTy).Contents (Elt F) → (⟨S_, .f32⟩ : BufTy).Contents (Elt F) → (⟨S_, .f32⟩ : BufTy).Contents (Elt F)) ]
theorem st26_sub : (st26 : List (HloOp τ sig (Elt F))).Forall fun op => op.bufs ⊆ tcRefs τ sig :=
  binary_bufs_sub ..
theorem st26_fresh : (st26 : List (HloOp τ sig (Elt F))).Forall fun op => op.fresh = ∅ := by
  simp only [List.Forall]; repeat' constructor
/-- The references stretch 26 writes, in order. -/
abbrev st26_W : List (Ref sig .tc) := [main_v144]
theorem st26_writes : (st26 : List (HloOp τ sig (Elt F))).Forall fun op => op.writes ⊆ ((st26_W).map (Proc.devRef (τ := τ) .tc)).toFinset :=
  writes_sub_of_mem (binary_writes ..) (by decide)
theorem st26_keeps : Keeps argRefs (st26 : List (HloOp τ sig (Elt F))) := keeps_of_writes st26_writes (by decide)

/-- Stretch 27: 7 operations of @main (window 3). -/
abbrev st27 : List (HloOp τ sig (Elt F)) :=
  [ StableHlo.nullary main_cst_34 (constant S_ .f32 0x00000000#32),
    StableHlo.binary main_arg5 main_cst_34 main_v145 ((fun x v => Host.reduceAdd x v reducesTo_S4x16x16x512_S4x512_d1_2 h_S_) : (⟨S4x16x16x512, .f32⟩ : BufTy).Contents (Elt F) → (⟨S_, .f32⟩ : BufTy).Contents (Elt F) → (⟨S4x512, .f32⟩ : BufTy).Contents (Elt F)),
    StableHlo.unary main_v145 main_v146 (broadcastInDim S4x1x1x512 ![0, 3] bcast_S4x512_S4x1x1x512_0_3 : (⟨S4x512, .f32⟩ : BufTy).Contents (Elt F) → (⟨S4x1x1x512, .f32⟩ : BufTy).Contents (Elt F)),
    StableHlo.nullary main_cst_35 (constant S_ .f32 0x43800000#32),
    StableHlo.unary main_cst_35 main_v147 (broadcastInDim S4x1x1x512 ![] bcast_S_S4x1x1x512 : (⟨S_, .f32⟩ : BufTy).Contents (Elt F) → (⟨S4x1x1x512, .f32⟩ : BufTy).Contents (Elt F)),
    StableHlo.binary main_v146 main_v147 main_v148 (Host.divf : (⟨S4x1x1x512, .f32⟩ : BufTy).Contents (Elt F) → (⟨S4x1x1x512, .f32⟩ : BufTy).Contents (Elt F) → (⟨S4x1x1x512, .f32⟩ : BufTy).Contents (Elt F)),
    StableHlo.nullary main_c_36 (constantI S_ 32 0#32) ]
theorem st27_sub : (st27 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
theorem st27_fresh : (st27 : List (HloOp τ sig (Elt F))).Forall fun op => op.fresh = ∅ := by
  simp only [List.Forall]; repeat' constructor
/-- The references stretch 27 writes, in order. -/
abbrev st27_W : List (Ref sig .tc) := [main_cst_34, main_v145, main_v146, main_cst_35, main_v147, main_v148, main_c_36]
theorem st27_writes : (st27 : List (HloOp τ sig (Elt F))).Forall fun op => op.writes ⊆ ((st27_W).map (Proc.devRef (τ := τ) .tc)).toFinset :=
  ⟨writes_sub_of_mem (nullary_writes ..) (by decide), writes_sub_of_mem (binary_writes ..) (by decide), writes_sub_of_mem (unary_writes ..) (by decide), writes_sub_of_mem (nullary_writes ..) (by decide), writes_sub_of_mem (unary_writes ..) (by decide), writes_sub_of_mem (binary_writes ..) (by decide), writes_sub_of_mem (nullary_writes ..) (by decide)⟩
theorem st27_keeps : Keeps argRefs (st27 : List (HloOp τ sig (Elt F))) := keeps_of_writes st27_writes (by decide)

/-- Stretch 28: 23 operations of @var_3 (main_call6), the call unfolded over its record (window 3). -/
abbrev st28 : List (HloOp τ sig (Elt F)) :=
  [ StableHlo.TRef.nullary (.of main_call6_cst : StableHlo.TRef sig ⟨S_, .f32⟩) (constant S_ .f32 0x00000000#32),
    StableHlo.TRef.binary (.of main_arg5 : StableHlo.TRef sig ⟨S4x16x16x512, .f32⟩) (.of main_call6_cst : StableHlo.TRef sig ⟨S_, .f32⟩) (.of main_call6_v0 : StableHlo.TRef sig ⟨S4x512, .f32⟩) (fun x v => Host.reduceAdd x v reducesTo_S4x16x16x512_S4x512_d1_2 h_S_),
    StableHlo.TRef.unary (.of main_call6_v0 : StableHlo.TRef sig ⟨S4x512, .f32⟩) (.of main_call6_v1 : StableHlo.TRef sig ⟨S4x1x1x512, .f32⟩) (broadcastInDim S4x1x1x512 ![0, 3] bcast_S4x512_S4x1x1x512_0_3),
    StableHlo.TRef.nullary (.of main_call6_cst_0 : StableHlo.TRef sig ⟨S_, .f32⟩) (constant S_ .f32 0x43800000#32),
    StableHlo.TRef.unary (.of main_call6_cst_0 : StableHlo.TRef sig ⟨S_, .f32⟩) (.of main_call6_v2 : StableHlo.TRef sig ⟨S4x1x1x512, .f32⟩) (broadcastInDim S4x1x1x512 ![] bcast_S_S4x1x1x512),
    StableHlo.TRef.binary (.of main_call6_v1 : StableHlo.TRef sig ⟨S4x1x1x512, .f32⟩) (.of main_call6_v2 : StableHlo.TRef sig ⟨S4x1x1x512, .f32⟩) (.of main_call6_v3 : StableHlo.TRef sig ⟨S4x1x1x512, .f32⟩) Host.divf,
    StableHlo.TRef.unary (.of main_call6_v3 : StableHlo.TRef sig ⟨S4x1x1x512, .f32⟩) (.of main_call6_v4 : StableHlo.TRef sig ⟨S4x16x16x512, .f32⟩) (broadcastInDim S4x16x16x512 ![0, 1, 2, 3] bcast_S4x1x1x512_S4x16x16x512_0_1_2_3),
    StableHlo.TRef.binary (.of main_arg5 : StableHlo.TRef sig ⟨S4x16x16x512, .f32⟩) (.of main_call6_v4 : StableHlo.TRef sig ⟨S4x16x16x512, .f32⟩) (.of main_call6_v5 : StableHlo.TRef sig ⟨S4x16x16x512, .f32⟩) subf,
    StableHlo.TRef.binary (.of main_call6_v5 : StableHlo.TRef sig ⟨S4x16x16x512, .f32⟩) (.of main_call6_v5 : StableHlo.TRef sig ⟨S4x16x16x512, .f32⟩) (.of main_call6_v6 : StableHlo.TRef sig ⟨S4x16x16x512, .f32⟩) mulf,
    StableHlo.TRef.unary (.of main_c_36 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x43800000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S4x16x16x512, .f32⟩) (.of main_call6_cst_2 : StableHlo.TRef sig ⟨S_, .f32⟩) (.of main_call6_v9 : StableHlo.TRef sig ⟨S4x512, .f32⟩) (fun x v => Host.reduceAdd x v reducesTo_S4x16x16x512_S4x512_d1_2 h_S_),
    StableHlo.TRef.unary (.of main_call6_v9 : StableHlo.TRef sig ⟨S4x512, .f32⟩) (.of main_call6_v10 : StableHlo.TRef sig ⟨S4x1x1x512, .f32⟩) (broadcastInDim S4x1x1x512 ![0, 3] bcast_S4x512_S4x1x1x512_0_3),
    StableHlo.TRef.unary (.of main_call6_v8 : StableHlo.TRef sig ⟨S_, .f32⟩) (.of main_call6_v11 : StableHlo.TRef sig ⟨S4x1x1x512, .f32⟩) (broadcastInDim S4x1x1x512 ![] bcast_S_S4x1x1x512),
    StableHlo.TRef.binary (.of main_call6_v10 : StableHlo.TRef sig ⟨S4x1x1x512, .f32⟩) (.of main_call6_v11 : StableHlo.TRef sig ⟨S4x1x1x512, .f32⟩) (.of main_call6_v12 : StableHlo.TRef sig ⟨S4x1x1x512, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v13 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S4x1x1x512, .f32⟩) (broadcastInDim S4x1x1x512 ![] bcast_S_S4x1x1x512),
    StableHlo.TRef.ternary (.of main_call6_v13 : StableHlo.TRef sig ⟨S_, .i1⟩) (.of main_call6_v12 : StableHlo.TRef sig ⟨S4x1x1x512, .f32⟩) (.of main_call6_call0_v1 : StableHlo.TRef sig ⟨S4x1x1x512, .f32⟩) (.of main_v149 : StableHlo.TRef sig ⟨S4x1x1x512, .f32⟩) (fun p a b => select (broadcastInDim S4x1x1x512 ![] bcast_S_S4x1x1x512 p) a b) ]
theorem st28_sub : (st28 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem st28_fresh : (st28 : List (HloOp τ sig (Elt F))).Forall fun op => op.fresh = ∅ := by
  simp only [List.Forall]; repeat' constructor
/-- The references stretch 28 writes, in order. -/
abbrev st28_W : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v149]
theorem st28_writes : (st28 : List (HloOp τ sig (Elt F))).Forall fun op => op.writes ⊆ ((st28_W).map (Proc.devRef (τ := τ) .tc)).toFinset :=
  ⟨writes_sub_of_mem (nullary_writes ..) (by decide), writes_sub_of_mem (binary_writes ..) (by decide), writes_sub_of_mem (unary_writes ..) (by decide), writes_sub_of_mem (nullary_writes ..) (by decide), writes_sub_of_mem (unary_writes ..) (by decide), writes_sub_of_mem (binary_writes ..) (by decide), writes_sub_of_mem (unary_writes ..) (by decide), writes_sub_of_mem (binary_writes ..) (by decide), writes_sub_of_mem (binary_writes ..) (by decide), writes_sub_of_mem (unary_writes ..) (by decide), writes_sub_of_mem (nullary_writes ..) (by decide), writes_sub_of_mem (binary_writes ..) (by decide), writes_sub_of_mem (nullary_writes ..) (by decide), writes_sub_of_mem (binary_writes ..) (by decide), writes_sub_of_mem (unary_writes ..) (by decide), writes_sub_of_mem (unary_writes ..) (by decide), writes_sub_of_mem (binary_writes ..) (by decide), writes_sub_of_mem (nullary_writes ..) (by decide), writes_sub_of_mem (binary_writes ..) (by decide), writes_sub_of_mem (nullary_writes ..) (by decide), writes_sub_of_mem (unary_writes ..) (by decide), writes_sub_of_mem (unary_writes ..) (by decide), writes_sub_of_mem (ternary_writes ..) (by decide)⟩
theorem st28_keeps : Keeps argRefs (st28 : List (HloOp τ sig (Elt F))) := keeps_of_writes st28_writes (by decide)

/-- Stretch 29: 8 operations of @main (window 3). -/
abbrev st29 : List (HloOp τ sig (Elt F)) :=
  [ StableHlo.unary main_v148 main_v150 (broadcastInDim S4x16x16x512 ![0, 1, 2, 3] bcast_S4x1x1x512_S4x16x16x512_0_1_2_3 : (⟨S4x1x1x512, .f32⟩ : BufTy).Contents (Elt F) → (⟨S4x16x16x512, .f32⟩ : BufTy).Contents (Elt F)),
    StableHlo.binary main_arg5 main_v150 main_v151 (subf : (⟨S4x16x16x512, .f32⟩ : BufTy).Contents (Elt F) → (⟨S4x16x16x512, .f32⟩ : BufTy).Contents (Elt F) → (⟨S4x16x16x512, .f32⟩ : BufTy).Contents (Elt F)),
    StableHlo.nullary main_cst_37 (constant S_ .f32 0x3727C5AC#32),
    StableHlo.unary main_cst_37 main_v152 (broadcastInDim S4x1x1x512 ![] bcast_S_S4x1x1x512 : (⟨S_, .f32⟩ : BufTy).Contents (Elt F) → (⟨S4x1x1x512, .f32⟩ : BufTy).Contents (Elt F)),
    StableHlo.binary main_v149 main_v152 main_v153 (addf : (⟨S4x1x1x512, .f32⟩ : BufTy).Contents (Elt F) → (⟨S4x1x1x512, .f32⟩ : BufTy).Contents (Elt F) → (⟨S4x1x1x512, .f32⟩ : BufTy).Contents (Elt F)),
    StableHlo.unary main_v153 main_v154 (Host.sqrt : (⟨S4x1x1x512, .f32⟩ : BufTy).Contents (Elt F) → (⟨S4x1x1x512, .f32⟩ : BufTy).Contents (Elt F)),
    StableHlo.unary main_v154 main_v155 (broadcastInDim S4x16x16x512 ![0, 1, 2, 3] bcast_S4x1x1x512_S4x16x16x512_0_1_2_3 : (⟨S4x1x1x512, .f32⟩ : BufTy).Contents (Elt F) → (⟨S4x16x16x512, .f32⟩ : BufTy).Contents (Elt F)),
    StableHlo.binary main_v151 main_v155 main_v156 (Host.divf : (⟨S4x16x16x512, .f32⟩ : BufTy).Contents (Elt F) → (⟨S4x16x16x512, .f32⟩ : BufTy).Contents (Elt F) → (⟨S4x16x16x512, .f32⟩ : BufTy).Contents (Elt F)) ]
theorem st29_sub : (st29 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub ..⟩
theorem st29_fresh : (st29 : List (HloOp τ sig (Elt F))).Forall fun op => op.fresh = ∅ := by
  simp only [List.Forall]; repeat' constructor
/-- The references stretch 29 writes, in order. -/
abbrev st29_W : List (Ref sig .tc) := [main_v150, main_v151, main_cst_37, main_v152, main_v153, main_v154, main_v155, main_v156]
theorem st29_writes : (st29 : List (HloOp τ sig (Elt F))).Forall fun op => op.writes ⊆ ((st29_W).map (Proc.devRef (τ := τ) .tc)).toFinset :=
  ⟨writes_sub_of_mem (unary_writes ..) (by decide), writes_sub_of_mem (binary_writes ..) (by decide), writes_sub_of_mem (nullary_writes ..) (by decide), writes_sub_of_mem (unary_writes ..) (by decide), writes_sub_of_mem (binary_writes ..) (by decide), writes_sub_of_mem (unary_writes ..) (by decide), writes_sub_of_mem (unary_writes ..) (by decide), writes_sub_of_mem (binary_writes ..) (by decide)⟩
theorem st29_keeps : Keeps argRefs (st29 : List (HloOp τ sig (Elt F))) := keeps_of_writes st29_writes (by decide)

/-- Stretch 30: 7 operations of @main (window 3). -/
abbrev st30 : List (HloOp τ sig (Elt F)) :=
  [ StableHlo.nullary main_cst_38 (constant S_ .f32 0x00000000#32),
    StableHlo.binary main_arg8 main_cst_38 main_v157 ((fun x v => Host.reduceAdd x v reducesTo_S4x16x16x512_S4x512_d1_2 h_S_) : (⟨S4x16x16x512, .f32⟩ : BufTy).Contents (Elt F) → (⟨S_, .f32⟩ : BufTy).Contents (Elt F) → (⟨S4x512, .f32⟩ : BufTy).Contents (Elt F)),
    StableHlo.unary main_v157 main_v158 (broadcastInDim S4x1x1x512 ![0, 3] bcast_S4x512_S4x1x1x512_0_3 : (⟨S4x512, .f32⟩ : BufTy).Contents (Elt F) → (⟨S4x1x1x512, .f32⟩ : BufTy).Contents (Elt F)),
    StableHlo.nullary main_cst_39 (constant S_ .f32 0x43800000#32),
    StableHlo.unary main_cst_39 main_v159 (broadcastInDim S4x1x1x512 ![] bcast_S_S4x1x1x512 : (⟨S_, .f32⟩ : BufTy).Contents (Elt F) → (⟨S4x1x1x512, .f32⟩ : BufTy).Contents (Elt F)),
    StableHlo.binary main_v158 main_v159 main_v160 (Host.divf : (⟨S4x1x1x512, .f32⟩ : BufTy).Contents (Elt F) → (⟨S4x1x1x512, .f32⟩ : BufTy).Contents (Elt F) → (⟨S4x1x1x512, .f32⟩ : BufTy).Contents (Elt F)),
    StableHlo.nullary main_c_40 (constantI S_ 32 0#32) ]
theorem st30_sub : (st30 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
theorem st30_fresh : (st30 : List (HloOp τ sig (Elt F))).Forall fun op => op.fresh = ∅ := by
  simp only [List.Forall]; repeat' constructor
/-- The references stretch 30 writes, in order. -/
abbrev st30_W : List (Ref sig .tc) := [main_cst_38, main_v157, main_v158, main_cst_39, main_v159, main_v160, main_c_40]
theorem st30_writes : (st30 : List (HloOp τ sig (Elt F))).Forall fun op => op.writes ⊆ ((st30_W).map (Proc.devRef (τ := τ) .tc)).toFinset :=
  ⟨writes_sub_of_mem (nullary_writes ..) (by decide), writes_sub_of_mem (binary_writes ..) (by decide), writes_sub_of_mem (unary_writes ..) (by decide), writes_sub_of_mem (nullary_writes ..) (by decide), writes_sub_of_mem (unary_writes ..) (by decide), writes_sub_of_mem (binary_writes ..) (by decide), writes_sub_of_mem (nullary_writes ..) (by decide)⟩
theorem st30_keeps : Keeps argRefs (st30 : List (HloOp τ sig (Elt F))) := keeps_of_writes st30_writes (by decide)

/-- Stretch 31: 23 operations of @var_3 (main_call7), the call unfolded over its record (window 3). -/
abbrev st31 : List (HloOp τ sig (Elt F)) :=
  [ StableHlo.TRef.nullary (.of main_call7_cst : StableHlo.TRef sig ⟨S_, .f32⟩) (constant S_ .f32 0x00000000#32),
    StableHlo.TRef.binary (.of main_arg8 : StableHlo.TRef sig ⟨S4x16x16x512, .f32⟩) (.of main_call7_cst : StableHlo.TRef sig ⟨S_, .f32⟩) (.of main_call7_v0 : StableHlo.TRef sig ⟨S4x512, .f32⟩) (fun x v => Host.reduceAdd x v reducesTo_S4x16x16x512_S4x512_d1_2 h_S_),
    StableHlo.TRef.unary (.of main_call7_v0 : StableHlo.TRef sig ⟨S4x512, .f32⟩) (.of main_call7_v1 : StableHlo.TRef sig ⟨S4x1x1x512, .f32⟩) (broadcastInDim S4x1x1x512 ![0, 3] bcast_S4x512_S4x1x1x512_0_3),
    StableHlo.TRef.nullary (.of main_call7_cst_0 : StableHlo.TRef sig ⟨S_, .f32⟩) (constant S_ .f32 0x43800000#32),
    StableHlo.TRef.unary (.of main_call7_cst_0 : StableHlo.TRef sig ⟨S_, .f32⟩) (.of main_call7_v2 : StableHlo.TRef sig ⟨S4x1x1x512, .f32⟩) (broadcastInDim S4x1x1x512 ![] bcast_S_S4x1x1x512),
    StableHlo.TRef.binary (.of main_call7_v1 : StableHlo.TRef sig ⟨S4x1x1x512, .f32⟩) (.of main_call7_v2 : StableHlo.TRef sig ⟨S4x1x1x512, .f32⟩) (.of main_call7_v3 : StableHlo.TRef sig ⟨S4x1x1x512, .f32⟩) Host.divf,
    StableHlo.TRef.unary (.of main_call7_v3 : StableHlo.TRef sig ⟨S4x1x1x512, .f32⟩) (.of main_call7_v4 : StableHlo.TRef sig ⟨S4x16x16x512, .f32⟩) (broadcastInDim S4x16x16x512 ![0, 1, 2, 3] bcast_S4x1x1x512_S4x16x16x512_0_1_2_3),
    StableHlo.TRef.binary (.of main_arg8 : StableHlo.TRef sig ⟨S4x16x16x512, .f32⟩) (.of main_call7_v4 : StableHlo.TRef sig ⟨S4x16x16x512, .f32⟩) (.of main_call7_v5 : StableHlo.TRef sig ⟨S4x16x16x512, .f32⟩) subf,
    StableHlo.TRef.binary (.of main_call7_v5 : StableHlo.TRef sig ⟨S4x16x16x512, .f32⟩) (.of main_call7_v5 : StableHlo.TRef sig ⟨S4x16x16x512, .f32⟩) (.of main_call7_v6 : StableHlo.TRef sig ⟨S4x16x16x512, .f32⟩) mulf,
    StableHlo.TRef.unary (.of main_c_40 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x43800000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S4x16x16x512, .f32⟩) (.of main_call7_cst_2 : StableHlo.TRef sig ⟨S_, .f32⟩) (.of main_call7_v9 : StableHlo.TRef sig ⟨S4x512, .f32⟩) (fun x v => Host.reduceAdd x v reducesTo_S4x16x16x512_S4x512_d1_2 h_S_),
    StableHlo.TRef.unary (.of main_call7_v9 : StableHlo.TRef sig ⟨S4x512, .f32⟩) (.of main_call7_v10 : StableHlo.TRef sig ⟨S4x1x1x512, .f32⟩) (broadcastInDim S4x1x1x512 ![0, 3] bcast_S4x512_S4x1x1x512_0_3),
    StableHlo.TRef.unary (.of main_call7_v8 : StableHlo.TRef sig ⟨S_, .f32⟩) (.of main_call7_v11 : StableHlo.TRef sig ⟨S4x1x1x512, .f32⟩) (broadcastInDim S4x1x1x512 ![] bcast_S_S4x1x1x512),
    StableHlo.TRef.binary (.of main_call7_v10 : StableHlo.TRef sig ⟨S4x1x1x512, .f32⟩) (.of main_call7_v11 : StableHlo.TRef sig ⟨S4x1x1x512, .f32⟩) (.of main_call7_v12 : StableHlo.TRef sig ⟨S4x1x1x512, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v13 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S4x1x1x512, .f32⟩) (broadcastInDim S4x1x1x512 ![] bcast_S_S4x1x1x512),
    StableHlo.TRef.ternary (.of main_call7_v13 : StableHlo.TRef sig ⟨S_, .i1⟩) (.of main_call7_v12 : StableHlo.TRef sig ⟨S4x1x1x512, .f32⟩) (.of main_call7_call0_v1 : StableHlo.TRef sig ⟨S4x1x1x512, .f32⟩) (.of main_v161 : StableHlo.TRef sig ⟨S4x1x1x512, .f32⟩) (fun p a b => select (broadcastInDim S4x1x1x512 ![] bcast_S_S4x1x1x512 p) a b) ]
theorem st31_sub : (st31 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem st31_fresh : (st31 : List (HloOp τ sig (Elt F))).Forall fun op => op.fresh = ∅ := by
  simp only [List.Forall]; repeat' constructor
/-- The references stretch 31 writes, in order. -/
abbrev st31_W : List (Ref sig .tc) := [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v161]
theorem st31_writes : (st31 : List (HloOp τ sig (Elt F))).Forall fun op => op.writes ⊆ ((st31_W).map (Proc.devRef (τ := τ) .tc)).toFinset :=
  ⟨writes_sub_of_mem (nullary_writes ..) (by decide), writes_sub_of_mem (binary_writes ..) (by decide), writes_sub_of_mem (unary_writes ..) (by decide), writes_sub_of_mem (nullary_writes ..) (by decide), writes_sub_of_mem (unary_writes ..) (by decide), writes_sub_of_mem (binary_writes ..) (by decide), writes_sub_of_mem (unary_writes ..) (by decide), writes_sub_of_mem (binary_writes ..) (by decide), writes_sub_of_mem (binary_writes ..) (by decide), writes_sub_of_mem (unary_writes ..) (by decide), writes_sub_of_mem (nullary_writes ..) (by decide), writes_sub_of_mem (binary_writes ..) (by decide), writes_sub_of_mem (nullary_writes ..) (by decide), writes_sub_of_mem (binary_writes ..) (by decide), writes_sub_of_mem (unary_writes ..) (by decide), writes_sub_of_mem (unary_writes ..) (by decide), writes_sub_of_mem (binary_writes ..) (by decide), writes_sub_of_mem (nullary_writes ..) (by decide), writes_sub_of_mem (binary_writes ..) (by decide), writes_sub_of_mem (nullary_writes ..) (by decide), writes_sub_of_mem (unary_writes ..) (by decide), writes_sub_of_mem (unary_writes ..) (by decide), writes_sub_of_mem (ternary_writes ..) (by decide)⟩
theorem st31_keeps : Keeps argRefs (st31 : List (HloOp τ sig (Elt F))) := keeps_of_writes st31_writes (by decide)

/-- Stretch 32: 8 operations of @main (window 3). -/
abbrev st32 : List (HloOp τ sig (Elt F)) :=
  [ StableHlo.unary main_v160 main_v162 (broadcastInDim S4x16x16x512 ![0, 1, 2, 3] bcast_S4x1x1x512_S4x16x16x512_0_1_2_3 : (⟨S4x1x1x512, .f32⟩ : BufTy).Contents (Elt F) → (⟨S4x16x16x512, .f32⟩ : BufTy).Contents (Elt F)),
    StableHlo.binary main_arg8 main_v162 main_v163 (subf : (⟨S4x16x16x512, .f32⟩ : BufTy).Contents (Elt F) → (⟨S4x16x16x512, .f32⟩ : BufTy).Contents (Elt F) → (⟨S4x16x16x512, .f32⟩ : BufTy).Contents (Elt F)),
    StableHlo.nullary main_cst_41 (constant S_ .f32 0x3727C5AC#32),
    StableHlo.unary main_cst_41 main_v164 (broadcastInDim S4x1x1x512 ![] bcast_S_S4x1x1x512 : (⟨S_, .f32⟩ : BufTy).Contents (Elt F) → (⟨S4x1x1x512, .f32⟩ : BufTy).Contents (Elt F)),
    StableHlo.binary main_v161 main_v164 main_v165 (addf : (⟨S4x1x1x512, .f32⟩ : BufTy).Contents (Elt F) → (⟨S4x1x1x512, .f32⟩ : BufTy).Contents (Elt F) → (⟨S4x1x1x512, .f32⟩ : BufTy).Contents (Elt F)),
    StableHlo.unary main_v165 main_v166 (Host.sqrt : (⟨S4x1x1x512, .f32⟩ : BufTy).Contents (Elt F) → (⟨S4x1x1x512, .f32⟩ : BufTy).Contents (Elt F)),
    StableHlo.unary main_v166 main_v167 (broadcastInDim S4x16x16x512 ![0, 1, 2, 3] bcast_S4x1x1x512_S4x16x16x512_0_1_2_3 : (⟨S4x1x1x512, .f32⟩ : BufTy).Contents (Elt F) → (⟨S4x16x16x512, .f32⟩ : BufTy).Contents (Elt F)),
    StableHlo.binary main_v163 main_v167 main_v168 (Host.divf : (⟨S4x16x16x512, .f32⟩ : BufTy).Contents (Elt F) → (⟨S4x16x16x512, .f32⟩ : BufTy).Contents (Elt F) → (⟨S4x16x16x512, .f32⟩ : BufTy).Contents (Elt F)) ]
theorem st32_sub : (st32 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub ..⟩
theorem st32_fresh : (st32 : List (HloOp τ sig (Elt F))).Forall fun op => op.fresh = ∅ := by
  simp only [List.Forall]; repeat' constructor
/-- The references stretch 32 writes, in order. -/
abbrev st32_W : List (Ref sig .tc) := [main_v162, main_v163, main_cst_41, main_v164, main_v165, main_v166, main_v167, main_v168]
theorem st32_writes : (st32 : List (HloOp τ sig (Elt F))).Forall fun op => op.writes ⊆ ((st32_W).map (Proc.devRef (τ := τ) .tc)).toFinset :=
  ⟨writes_sub_of_mem (unary_writes ..) (by decide), writes_sub_of_mem (binary_writes ..) (by decide), writes_sub_of_mem (nullary_writes ..) (by decide), writes_sub_of_mem (unary_writes ..) (by decide), writes_sub_of_mem (binary_writes ..) (by decide), writes_sub_of_mem (unary_writes ..) (by decide), writes_sub_of_mem (unary_writes ..) (by decide), writes_sub_of_mem (binary_writes ..) (by decide)⟩
theorem st32_keeps : Keeps argRefs (st32 : List (HloOp τ sig (Elt F))) := keeps_of_writes st32_writes (by decide)

/-- Stretch 33: 11 operations of @main (window 3). -/
abbrev st33 : List (HloOp τ sig (Elt F)) :=
  [ StableHlo.reshape main_v156 main_v169 rfl shapeCasts_S4x16x16x512_S4x256x512,
    StableHlo.binary main_v169 main_v169 main_v170 (mulf : (⟨S4x256x512, .f32⟩ : BufTy).Contents (Elt F) → (⟨S4x256x512, .f32⟩ : BufTy).Contents (Elt F) → (⟨S4x256x512, .f32⟩ : BufTy).Contents (Elt F)),
    StableHlo.nullary main_cst_42 (constant S_ .f32 0x00000000#32),
    StableHlo.binary main_v170 main_cst_42 main_v171 ((fun x v => Host.reduceAdd x v reducesTo_S4x256x512_S4x256_d2 h_S_) : (⟨S4x256x512, .f32⟩ : BufTy).Contents (Elt F) → (⟨S_, .f32⟩ : BufTy).Contents (Elt F) → (⟨S4x256, .f32⟩ : BufTy).Contents (Elt F)),
    StableHlo.unary main_v171 main_v172 (broadcastInDim S4x256x1 ![0, 1] bcast_S4x256_S4x256x1_0_1 : (⟨S4x256, .f32⟩ : BufTy).Contents (Elt F) → (⟨S4x256x1, .f32⟩ : BufTy).Contents (Elt F)),
    StableHlo.unary main_v172 main_v173 (Host.sqrt : (⟨S4x256x1, .f32⟩ : BufTy).Contents (Elt F) → (⟨S4x256x1, .f32⟩ : BufTy).Contents (Elt F)),
    StableHlo.nullary main_cst_43 (constant S_ .f32 0x2B8CBCCC#32),
    StableHlo.unary main_cst_43 main_v174 (broadcastInDim S4x256x1 ![] bcast_S_S4x256x1 : (⟨S_, .f32⟩ : BufTy).Contents (Elt F) → (⟨S4x256x1, .f32⟩ : BufTy).Contents (Elt F)),
    StableHlo.binary main_v173 main_v174 main_v175 (maximumf : (⟨S4x256x1, .f32⟩ : BufTy).Contents (Elt F) → (⟨S4x256x1, .f32⟩ : BufTy).Contents (Elt F) → (⟨S4x256x1, .f32⟩ : BufTy).Contents (Elt F)),
    StableHlo.unary main_v175 main_v176 (broadcastInDim S4x256x512 ![0, 1, 2] bcast_S4x256x1_S4x256x512_0_1_2 : (⟨S4x256x1, .f32⟩ : BufTy).Contents (Elt F) → (⟨S4x256x512, .f32⟩ : BufTy).Contents (Elt F)),
    StableHlo.binary main_v169 main_v176 main_v177 (Host.divf : (⟨S4x256x512, .f32⟩ : BufTy).Contents (Elt F) → (⟨S4x256x512, .f32⟩ : BufTy).Contents (Elt F) → (⟨S4x256x512, .f32⟩ : BufTy).Contents (Elt F)) ]
theorem st33_sub : (st33 : List (HloOp τ sig (Elt F))).Forall fun op => op.bufs ⊆ tcRefs τ sig :=
  ⟨reshape_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem st33_fresh : (st33 : List (HloOp τ sig (Elt F))).Forall fun op => op.fresh = ∅ := by
  simp only [List.Forall]; repeat' constructor
/-- The references stretch 33 writes, in order. -/
abbrev st33_W : List (Ref sig .tc) := [main_v169, main_v170, main_cst_42, main_v171, main_v172, main_v173, main_cst_43, main_v174, main_v175, main_v176, main_v177]
theorem st33_writes : (st33 : List (HloOp τ sig (Elt F))).Forall fun op => op.writes ⊆ ((st33_W).map (Proc.devRef (τ := τ) .tc)).toFinset :=
  ⟨writes_sub_of_mem (reshape_writes ..) (by decide), writes_sub_of_mem (binary_writes ..) (by decide), writes_sub_of_mem (nullary_writes ..) (by decide), writes_sub_of_mem (binary_writes ..) (by decide), writes_sub_of_mem (unary_writes ..) (by decide), writes_sub_of_mem (unary_writes ..) (by decide), writes_sub_of_mem (nullary_writes ..) (by decide), writes_sub_of_mem (unary_writes ..) (by decide), writes_sub_of_mem (binary_writes ..) (by decide), writes_sub_of_mem (unary_writes ..) (by decide), writes_sub_of_mem (binary_writes ..) (by decide)⟩
theorem st33_keeps : Keeps argRefs (st33 : List (HloOp τ sig (Elt F))) := keeps_of_writes st33_writes (by decide)

/-- Stretch 34: 11 operations of @main (window 3). -/
abbrev st34 : List (HloOp τ sig (Elt F)) :=
  [ StableHlo.reshape main_v168 main_v178 rfl shapeCasts_S4x16x16x512_S4x256x512,
    StableHlo.binary main_v178 main_v178 main_v179 (mulf : (⟨S4x256x512, .f32⟩ : BufTy).Contents (Elt F) → (⟨S4x256x512, .f32⟩ : BufTy).Contents (Elt F) → (⟨S4x256x512, .f32⟩ : BufTy).Contents (Elt F)),
    StableHlo.nullary main_cst_44 (constant S_ .f32 0x00000000#32),
    StableHlo.binary main_v179 main_cst_44 main_v180 ((fun x v => Host.reduceAdd x v reducesTo_S4x256x512_S4x256_d2 h_S_) : (⟨S4x256x512, .f32⟩ : BufTy).Contents (Elt F) → (⟨S_, .f32⟩ : BufTy).Contents (Elt F) → (⟨S4x256, .f32⟩ : BufTy).Contents (Elt F)),
    StableHlo.unary main_v180 main_v181 (broadcastInDim S4x256x1 ![0, 1] bcast_S4x256_S4x256x1_0_1 : (⟨S4x256, .f32⟩ : BufTy).Contents (Elt F) → (⟨S4x256x1, .f32⟩ : BufTy).Contents (Elt F)),
    StableHlo.unary main_v181 main_v182 (Host.sqrt : (⟨S4x256x1, .f32⟩ : BufTy).Contents (Elt F) → (⟨S4x256x1, .f32⟩ : BufTy).Contents (Elt F)),
    StableHlo.nullary main_cst_45 (constant S_ .f32 0x2B8CBCCC#32),
    StableHlo.unary main_cst_45 main_v183 (broadcastInDim S4x256x1 ![] bcast_S_S4x256x1 : (⟨S_, .f32⟩ : BufTy).Contents (Elt F) → (⟨S4x256x1, .f32⟩ : BufTy).Contents (Elt F)),
    StableHlo.binary main_v182 main_v183 main_v184 (maximumf : (⟨S4x256x1, .f32⟩ : BufTy).Contents (Elt F) → (⟨S4x256x1, .f32⟩ : BufTy).Contents (Elt F) → (⟨S4x256x1, .f32⟩ : BufTy).Contents (Elt F)),
    StableHlo.unary main_v184 main_v185 (broadcastInDim S4x256x512 ![0, 1, 2] bcast_S4x256x1_S4x256x512_0_1_2 : (⟨S4x256x1, .f32⟩ : BufTy).Contents (Elt F) → (⟨S4x256x512, .f32⟩ : BufTy).Contents (Elt F)),
    StableHlo.binary main_v178 main_v185 main_v186 (Host.divf : (⟨S4x256x512, .f32⟩ : BufTy).Contents (Elt F) → (⟨S4x256x512, .f32⟩ : BufTy).Contents (Elt F) → (⟨S4x256x512, .f32⟩ : BufTy).Contents (Elt F)) ]
theorem st34_sub : (st34 : List (HloOp τ sig (Elt F))).Forall fun op => op.bufs ⊆ tcRefs τ sig :=
  ⟨reshape_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem st34_fresh : (st34 : List (HloOp τ sig (Elt F))).Forall fun op => op.fresh = ∅ := by
  simp only [List.Forall]; repeat' constructor
/-- The references stretch 34 writes, in order. -/
abbrev st34_W : List (Ref sig .tc) := [main_v178, main_v179, main_cst_44, main_v180, main_v181, main_v182, main_cst_45, main_v183, main_v184, main_v185, main_v186]
theorem st34_writes : (st34 : List (HloOp τ sig (Elt F))).Forall fun op => op.writes ⊆ ((st34_W).map (Proc.devRef (τ := τ) .tc)).toFinset :=
  ⟨writes_sub_of_mem (reshape_writes ..) (by decide), writes_sub_of_mem (binary_writes ..) (by decide), writes_sub_of_mem (nullary_writes ..) (by decide), writes_sub_of_mem (binary_writes ..) (by decide), writes_sub_of_mem (unary_writes ..) (by decide), writes_sub_of_mem (unary_writes ..) (by decide), writes_sub_of_mem (nullary_writes ..) (by decide), writes_sub_of_mem (unary_writes ..) (by decide), writes_sub_of_mem (binary_writes ..) (by decide), writes_sub_of_mem (unary_writes ..) (by decide), writes_sub_of_mem (binary_writes ..) (by decide)⟩
theorem st34_keeps : Keeps argRefs (st34 : List (HloOp τ sig (Elt F))) := keeps_of_writes st34_writes (by decide)

/-- Stretch 35: 1 operations of @main (window 3). -/
abbrev st35 : List (HloOp τ sig (Elt F)) :=
  [ StableHlo.reshape main_arg8 main_v187 rfl shapeCasts_S4x16x16x512_S4x256x512 ]
theorem st35_sub : (st35 : List (HloOp τ sig (Elt F))).Forall fun op => op.bufs ⊆ tcRefs τ sig :=
  reshape_bufs_sub ..
theorem st35_fresh : (st35 : List (HloOp τ sig (Elt F))).Forall fun op => op.fresh = ∅ := by
  simp only [List.Forall]; repeat' constructor
/-- The references stretch 35 writes, in order. -/
abbrev st35_W : List (Ref sig .tc) := [main_v187]
theorem st35_writes : (st35 : List (HloOp τ sig (Elt F))).Forall fun op => op.writes ⊆ ((st35_W).map (Proc.devRef (τ := τ) .tc)).toFinset :=
  writes_sub_of_mem (reshape_writes ..) (by decide)
theorem st35_keeps : Keeps argRefs (st35 : List (HloOp τ sig (Elt F))) := keeps_of_writes st35_writes (by decide)

/-- Stretch 36: 4 operations of @main (window 3). -/
abbrev st36 : List (HloOp τ sig (Elt F)) :=
  [ StableHlo.binary main_v177 main_v186 main_v188 ((fun l r => Host.dotGeneral dot_S4x256x512_S4x256x512_S4x256x256_2_2_1_1_0_0 none l r) : (⟨S4x256x512, .f32⟩ : BufTy).Contents (Elt F) → (⟨S4x256x512, .f32⟩ : BufTy).Contents (Elt F) → (⟨S4x256x256, .f32⟩ : BufTy).Contents (Elt F)),
    StableHlo.nullary main_cst_46 (constant S_ .f32 0xFF800000#32),
    StableHlo.binary main_v188 main_cst_46 main_v189 ((fun x v => Host.reduce FloatOps.maximumf x v reducesTo_S4x256x256_S4x256_d2 h_S_) : (⟨S4x256x256, .f32⟩ : BufTy).Contents (Elt F) → (⟨S_, .f32⟩ : BufTy).Contents (Elt F) → (⟨S4x256, .f32⟩ : BufTy).Contents (Elt F)),
    StableHlo.nullary main_cst_47 (constant S_ .f32 0xFF800000#32) ]
theorem st36_sub : (st36 : List (HloOp τ sig (Elt F))).Forall fun op => op.bufs ⊆ tcRefs τ sig :=
  ⟨binary_bufs_sub .., nullary_bufs_sub .., binary_bufs_sub .., nullary_bufs_sub ..⟩
theorem st36_fresh : (st36 : List (HloOp τ sig (Elt F))).Forall fun op => op.fresh = ∅ := by
  simp only [List.Forall]; repeat' constructor
/-- The references stretch 36 writes, in order. -/
abbrev st36_W : List (Ref sig .tc) := [main_v188, main_cst_46, main_v189, main_cst_47]
theorem st36_writes : (st36 : List (HloOp τ sig (Elt F))).Forall fun op => op.writes ⊆ ((st36_W).map (Proc.devRef (τ := τ) .tc)).toFinset :=
  ⟨writes_sub_of_mem (binary_writes ..) (by decide), writes_sub_of_mem (nullary_writes ..) (by decide), writes_sub_of_mem (binary_writes ..) (by decide), writes_sub_of_mem (nullary_writes ..) (by decide)⟩
theorem st36_keeps : Keeps argRefs (st36 : List (HloOp τ sig (Elt F))) := keeps_of_writes st36_writes (by decide)

/-- Window 3 is its stretches run in order, the last in tail position. -/
theorem main_part3_chain (c : Dev nD) : main_part3 (F := F) c = (Pipeline.chainK
  [ seq st26,
    seq st27,
    seq st28,
    seq st29,
    seq st30,
    seq st31,
    seq st32,
    seq st33,
    seq st34,
    seq st35 ]
  (seq st36) : Prog (TpuEff nD τ sig (Elt F) (Pipeline.Sig Λ₀ (Fin 0) fun p => (pcfgs (F := F) p).Adm) .tc) PUnit) := by
  chain_rfl

end Cert.ReferenceIdeal.Hand

end
-- ==== Proof.Ref.W4.lean ====
/-
  Window 4 of the reference program's @main as stretches of operations: each list is the window's statements in
  order, a called function's body written out over that call's record of buffers (its own calls likewise), with for
  each stretch that its operations touch TensorCore references only, determine their results, and which references
  they write; then the window itself as the chain of its stretches.
-/
import proofs.«170986_j45183055954173_2_alg».proof.Proof.Gen.ReferenceIdeal
import Idealize.ShloMosaic.Lib.StableHlo.Run
import Idealize.ShloMosaic.Lib.Pipeline.Regions
import proofs.«170986_j45183055954173_2_alg».proof.Proof.Ref.Basic
set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch 37: 16 operations of @main (window 4). -/
abbrev st37 : List (HloOp τ sig (Elt F)) :=
  [ StableHlo.unary main_cst_47 main_v190 (broadcastInDim S4x256 ![] bcast_S_S4x256 : (⟨S_, .f32⟩ : BufTy).Contents (Elt F) → (⟨S4x256, .f32⟩ : BufTy).Contents (Elt F)),
    StableHlo.binary main_v190 main_v189 main_v191 (maximumf : (⟨S4x256, .f32⟩ : BufTy).Contents (Elt F) → (⟨S4x256, .f32⟩ : BufTy).Contents (Elt F) → (⟨S4x256, .f32⟩ : BufTy).Contents (Elt F)),
    StableHlo.unary main_v191 main_v192 (broadcastInDim S4x256x1 ![0, 1] bcast_S4x256_S4x256x1_0_1 : (⟨S4x256, .f32⟩ : BufTy).Contents (Elt F) → (⟨S4x256x1, .f32⟩ : BufTy).Contents (Elt F)),
    StableHlo.unary main_v192 main_v193 (broadcastInDim S4x256x256 ![0, 1, 2] bcast_S4x256x1_S4x256x256_0_1_2 : (⟨S4x256x1, .f32⟩ : BufTy).Contents (Elt F) → (⟨S4x256x256, .f32⟩ : BufTy).Contents (Elt F)),
    StableHlo.binary main_v188 main_v193 main_v194 (subf : (⟨S4x256x256, .f32⟩ : BufTy).Contents (Elt F) → (⟨S4x256x256, .f32⟩ : BufTy).Contents (Elt F) → (⟨S4x256x256, .f32⟩ : BufTy).Contents (Elt F)),
    StableHlo.unary main_v194 main_v195 (Host.exp : (⟨S4x256x256, .f32⟩ : BufTy).Contents (Elt F) → (⟨S4x256x256, .f32⟩ : BufTy).Contents (Elt F)),
    StableHlo.nullary main_cst_48 (constant S_ .f32 0x00000000#32),
    StableHlo.binary main_v195 main_cst_48 main_v196 ((fun x v => Host.reduceAdd x v reducesTo_S4x256x256_S4x256_d2 h_S_) : (⟨S4x256x256, .f32⟩ : BufTy).Contents (Elt F) → (⟨S_, .f32⟩ : BufTy).Contents (Elt F) → (⟨S4x256, .f32⟩ : BufTy).Contents (Elt F)),
    StableHlo.unary main_v196 main_v197 (broadcastInDim S4x256x1 ![0, 1] bcast_S4x256_S4x256x1_0_1 : (⟨S4x256, .f32⟩ : BufTy).Contents (Elt F) → (⟨S4x256x1, .f32⟩ : BufTy).Contents (Elt F)),
    StableHlo.unary main_v197 main_v198 (broadcastInDim S4x256x256 ![0, 1, 2] bcast_S4x256x1_S4x256x256_0_1_2 : (⟨S4x256x1, .f32⟩ : BufTy).Contents (Elt F) → (⟨S4x256x256, .f32⟩ : BufTy).Contents (Elt F)),
    StableHlo.binary main_v195 main_v198 main_v199 (Host.divf : (⟨S4x256x256, .f32⟩ : BufTy).Contents (Elt F) → (⟨S4x256x256, .f32⟩ : BufTy).Contents (Elt F) → (⟨S4x256x256, .f32⟩ : BufTy).Contents (Elt F)),
    StableHlo.binary main_v199 main_v187 main_v200 ((fun l r => Host.dotGeneral dot_S4x256x256_S4x256x512_S4x256x512_2_1_1_2_0_0 none l r) : (⟨S4x256x256, .f32⟩ : BufTy).Contents (Elt F) → (⟨S4x256x512, .f32⟩ : BufTy).Contents (Elt F) → (⟨S4x256x512, .f32⟩ : BufTy).Contents (Elt F)),
    StableHlo.binary main_v187 main_v187 main_v201 (mulf : (⟨S4x256x512, .f32⟩ : BufTy).Contents (Elt F) → (⟨S4x256x512, .f32⟩ : BufTy).Contents (Elt F) → (⟨S4x256x512, .f32⟩ : BufTy).Contents (Elt F)),
    StableHlo.binary main_v199 main_v201 main_v202 ((fun l r => Host.dotGeneral dot_S4x256x256_S4x256x512_S4x256x512_2_1_1_2_0_0 none l r) : (⟨S4x256x256, .f32⟩ : BufTy).Contents (Elt F) → (⟨S4x256x512, .f32⟩ : BufTy).Contents (Elt F) → (⟨S4x256x512, .f32⟩ : BufTy).Contents (Elt F)),
    StableHlo.binary main_v200 main_v200 main_v203 (mulf : (⟨S4x256x512, .f32⟩ : BufTy).Contents (Elt F) → (⟨S4x256x512, .f32⟩ : BufTy).Contents (Elt F) → (⟨S4x256x512, .f32⟩ : BufTy).Contents (Elt F)),
    StableHlo.binary main_v202 main_v203 main_v204 (subf : (⟨S4x256x512, .f32⟩ : BufTy).Contents (Elt F) → (⟨S4x256x512, .f32⟩ : BufTy).Contents (Elt F) → (⟨S4x256x512, .f32⟩ : BufTy).Contents (Elt F)) ]
theorem st37_sub : (st37 : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., binary_bufs_sub .., binary_bufs_sub ..⟩
theorem st37_fresh : (st37 : List (HloOp τ sig (Elt F))).Forall fun op => op.fresh = ∅ := by
  simp only [List.Forall]; repeat' constructor
/-- The references stretch 37 writes, in order. -/
abbrev st37_W : List (Ref sig .tc) := [main_v190, main_v191, main_v192, main_v193, main_v194, main_v195, main_cst_48, main_v196, main_v197, main_v198, main_v199, main_v200, main_v201, main_v202, main_v203, main_v204]
theorem st37_writes : (st37 : List (HloOp τ sig (Elt F))).Forall fun op => op.writes ⊆ ((st37_W).map (Proc.devRef (τ := τ) .tc)).toFinset :=
  ⟨writes_sub_of_mem (unary_writes ..) (by decide), writes_sub_of_mem (binary_writes ..) (by decide), writes_sub_of_mem (unary_writes ..) (by decide), writes_sub_of_mem (unary_writes ..) (by decide), writes_sub_of_mem (binary_writes ..) (by decide), writes_sub_of_mem (unary_writes ..) (by decide), writes_sub_of_mem (nullary_writes ..) (by decide), writes_sub_of_mem (binary_writes ..) (by decide), writes_sub_of_mem (unary_writes ..) (by decide), writes_sub_of_mem (unary_writes ..) (by decide), writes_sub_of_mem (binary_writes ..) (by decide), writes_sub_of_mem (binary_writes ..) (by decide), writes_sub_of_mem (binary_writes ..) (by decide), writes_sub_of_mem (binary_writes ..) (by decide), writes_sub_of_mem (binary_writes ..) (by decide), writes_sub_of_mem (binary_writes ..) (by decide)⟩
theorem st37_keeps : Keeps argRefs (st37 : List (HloOp τ sig (Elt F))) := keeps_of_writes st37_writes (by decide)

/-- Stretch 38: 3 operations of @relu_4 (main_call8), the call unfolded over its record (window 4). -/
abbrev st38 : List (HloOp τ sig (Elt F)) :=
  [ StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S4x256x512, .f32⟩) (broadcastInDim S4x256x512 ![] bcast_S_S4x256x512),
    StableHlo.TRef.binary (.of main_v204 : StableHlo.TRef sig ⟨S4x256x512, .f32⟩) (.of main_call8_v0 : StableHlo.TRef sig ⟨S4x256x512, .f32⟩) (.of main_v205 : StableHlo.TRef sig ⟨S4x256x512, .f32⟩) maximumf ]
theorem st38_sub : (st38 : List (HloOp τ sig (Elt F))).Forall fun op => op.bufs ⊆ tcRefs τ sig :=
  ⟨nullary_bufs_sub .., unary_bufs_sub .., binary_bufs_sub ..⟩
theorem st38_fresh : (st38 : List (HloOp τ sig (Elt F))).Forall fun op => op.fresh = ∅ := by
  simp only [List.Forall]; repeat' constructor
/-- The references stretch 38 writes, in order. -/
abbrev st38_W : List (Ref sig .tc) := [main_call8_cst, main_call8_v0, main_v205]
theorem st38_writes : (st38 : List (HloOp τ sig (Elt F))).Forall fun op => op.writes ⊆ ((st38_W).map (Proc.devRef (τ := τ) .tc)).toFinset :=
  ⟨writes_sub_of_mem (nullary_writes ..) (by decide), writes_sub_of_mem (unary_writes ..) (by decide), writes_sub_of_mem (binary_writes ..) (by decide)⟩
theorem st38_keeps : Keeps argRefs (st38 : List (HloOp τ sig (Elt F))) := keeps_of_writes st38_writes (by decide)

/-- Stretch 39: 14 operations of @main (window 4). -/
abbrev st39 : List (HloOp τ sig (Elt F)) :=
  [ StableHlo.nullary main_cst_49 (constant S_ .f32 0x2B8CBCCC#32),
    StableHlo.unary main_cst_49 main_v206 (broadcastInDim S4x256x512 ![] bcast_S_S4x256x512 : (⟨S_, .f32⟩ : BufTy).Contents (Elt F) → (⟨S4x256x512, .f32⟩ : BufTy).Contents (Elt F)),
    StableHlo.binary main_v205 main_v206 main_v207 (addf : (⟨S4x256x512, .f32⟩ : BufTy).Contents (Elt F) → (⟨S4x256x512, .f32⟩ : BufTy).Contents (Elt F) → (⟨S4x256x512, .f32⟩ : BufTy).Contents (Elt F)),
    StableHlo.unary main_v207 main_v208 (Host.sqrt : (⟨S4x256x512, .f32⟩ : BufTy).Contents (Elt F) → (⟨S4x256x512, .f32⟩ : BufTy).Contents (Elt F)),
    StableHlo.reshape main_v208 main_v209 rfl shapeCasts_S4x256x512_S4x16x16x512,
    StableHlo.binary main_v209 main_v156 main_v210 (mulf : (⟨S4x16x16x512, .f32⟩ : BufTy).Contents (Elt F) → (⟨S4x16x16x512, .f32⟩ : BufTy).Contents (Elt F) → (⟨S4x16x16x512, .f32⟩ : BufTy).Contents (Elt F)),
    StableHlo.reshape main_v200 main_v211 rfl shapeCasts_S4x256x512_S4x16x16x512,
    StableHlo.binary main_v210 main_v211 main_v212 (addf : (⟨S4x16x16x512, .f32⟩ : BufTy).Contents (Elt F) → (⟨S4x16x16x512, .f32⟩ : BufTy).Contents (Elt F) → (⟨S4x16x16x512, .f32⟩ : BufTy).Contents (Elt F)),
    StableHlo.binary main_arg2 main_v212 main_v213 (subf : (⟨S4x16x16x512, .f32⟩ : BufTy).Contents (Elt F) → (⟨S4x16x16x512, .f32⟩ : BufTy).Contents (Elt F) → (⟨S4x16x16x512, .f32⟩ : BufTy).Contents (Elt F)),
    StableHlo.binary main_v213 main_v213 main_v214 (mulf : (⟨S4x16x16x512, .f32⟩ : BufTy).Contents (Elt F) → (⟨S4x16x16x512, .f32⟩ : BufTy).Contents (Elt F) → (⟨S4x16x16x512, .f32⟩ : BufTy).Contents (Elt F)),
    StableHlo.nullary main_cst_50 (constant S_ .f32 0x00000000#32),
    StableHlo.binary main_v214 main_cst_50 main_v215 ((fun x v => Host.reduceAdd x v reducesTo_S4x16x16x512_S_d0_1_2_3 h_S_) : (⟨S4x16x16x512, .f32⟩ : BufTy).Contents (Elt F) → (⟨S_, .f32⟩ : BufTy).Contents (Elt F) → (⟨S_, .f32⟩ : BufTy).Contents (Elt F)),
    StableHlo.nullary main_cst_51 (constant S_ .f32 0x49000000#32),
    StableHlo.binary main_v215 main_cst_51 main_v216 (Host.divf : (⟨S_, .f32⟩ : BufTy).Contents (Elt F) → (⟨S_, .f32⟩ : BufTy).Contents (Elt F) → (⟨S_, .f32⟩ : BufTy).Contents (Elt F)) ]
theorem st39_sub : (st39 : List (HloOp τ sig (Elt F))).Forall fun op => op.bufs ⊆ tcRefs τ sig :=
  ⟨nullary_bufs_sub .., unary_bufs_sub .., binary_bufs_sub .., unary_bufs_sub .., reshape_bufs_sub .., binary_bufs_sub .., reshape_bufs_sub .., binary_bufs_sub .., binary_bufs_sub .., binary_bufs_sub .., nullary_bufs_sub .., binary_bufs_sub .., nullary_bufs_sub .., binary_bufs_sub ..⟩
theorem st39_fresh : (st39 : List (HloOp τ sig (Elt F))).Forall fun op => op.fresh = ∅ := by
  simp only [List.Forall]; repeat' constructor
/-- The references stretch 39 writes, in order. -/
abbrev st39_W : List (Ref sig .tc) := [main_cst_49, main_v206, main_v207, main_v208, main_v209, main_v210, main_v211, main_v212, main_v213, main_v214, main_cst_50, main_v215, main_cst_51, main_v216]
theorem st39_writes : (st39 : List (HloOp τ sig (Elt F))).Forall fun op => op.writes ⊆ ((st39_W).map (Proc.devRef (τ := τ) .tc)).toFinset :=
  ⟨writes_sub_of_mem (nullary_writes ..) (by decide), writes_sub_of_mem (unary_writes ..) (by decide), writes_sub_of_mem (binary_writes ..) (by decide), writes_sub_of_mem (unary_writes ..) (by decide), writes_sub_of_mem (reshape_writes ..) (by decide), writes_sub_of_mem (binary_writes ..) (by decide), writes_sub_of_mem (reshape_writes ..) (by decide), writes_sub_of_mem (binary_writes ..) (by decide), writes_sub_of_mem (binary_writes ..) (by decide), writes_sub_of_mem (binary_writes ..) (by decide), writes_sub_of_mem (nullary_writes ..) (by decide), writes_sub_of_mem (binary_writes ..) (by decide), writes_sub_of_mem (nullary_writes ..) (by decide), writes_sub_of_mem (binary_writes ..) (by decide)⟩
theorem st39_keeps : Keeps argRefs (st39 : List (HloOp τ sig (Elt F))) := keeps_of_writes st39_writes (by decide)

/-- Stretch 40: 1 operations of @main (window 4). -/
abbrev st40 : List (HloOp τ sig (Elt F)) :=
  [ StableHlo.binary main_v144 main_v216 main_v217 (addf : (⟨S_, .f32⟩ : BufTy).Contents (Elt F) → (⟨S_, .f32⟩ : BufTy).Contents (Elt F) → (⟨S_, .f32⟩ : BufTy).Contents (Elt F)) ]
theorem st40_sub : (st40 : List (HloOp τ sig (Elt F))).Forall fun op => op.bufs ⊆ tcRefs τ sig :=
  binary_bufs_sub ..
theorem st40_fresh : (st40 : List (HloOp τ sig (Elt F))).Forall fun op => op.fresh = ∅ := by
  simp only [List.Forall]; repeat' constructor
/-- The references stretch 40 writes, in order. -/
abbrev st40_W : List (Ref sig .tc) := [main_v217]
theorem st40_writes : (st40 : List (HloOp τ sig (Elt F))).Forall fun op => op.writes ⊆ ((st40_W).map (Proc.devRef (τ := τ) .tc)).toFinset :=
  writes_sub_of_mem (binary_writes ..) (by decide)
theorem st40_keeps : Keeps argRefs (st40 : List (HloOp τ sig (Elt F))) := keeps_of_writes st40_writes (by decide)

/-- The last window is its stretches run in order, then the return. -/
theorem main_part4_chain (c : Dev nD) : main_part4 (F := F) c = (Pipeline.chain
  [ seq st37,
    seq st38,
    seq st39,
    seq st40 ] : Prog (TpuEff nD τ sig (Elt F) (Pipeline.Sig Λ₀ (Fin 0) fun p => (pcfgs (F := F) p).Adm) .tc) PUnit) := by
  chain_rfl

end Cert.ReferenceIdeal.Hand

end
-- ==== Proof.Ref.MainEq.lean ====
/-
  The reference program's @main as ONE straight line of operations.

  @main is printed in five windows; each window is the chain of its stretches (W0 … W4).  Put end to end the windows
  are the chain of all 41 stretches, and a chain of stretches is the line of their concatenation.  So @main is
  `seq ops` for `ops` the 410 operations in order.  Every operation touches TensorCore references only and
  determines its result, and none writes an argument.
-/
import proofs.«170986_j45183055954173_2_alg».proof.Proof.Ref.W0
import proofs.«170986_j45183055954173_2_alg».proof.Proof.Ref.W1
import proofs.«170986_j45183055954173_2_alg».proof.Proof.Ref.W2
import proofs.«170986_j45183055954173_2_alg».proof.Proof.Ref.W3
import proofs.«170986_j45183055954173_2_alg».proof.Proof.Ref.W4

set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 410 operations in order, the called functions' bodies written out: the 41 stretches concatenated. -/
abbrev ops : List (HloOp τ sig (Elt F)) :=
  st0 ++ (st1 ++ (st2 ++ (st3 ++ (st4 ++ (st5 ++ (st6 ++ (st7 ++ (st8 ++ (st9 ++ (st10 ++ (st11 ++ (st12 ++ (st13 ++ (st14 ++ (st15 ++ (st16 ++ (st17 ++ (st18 ++ (st19 ++ (st20 ++ (st21 ++ (st22 ++ (st23 ++ (st24 ++ (st25 ++ (st26 ++ (st27 ++ (st28 ++ (st29 ++ (st30 ++ (st31 ++ (st32 ++ (st33 ++ (st34 ++ (st35 ++ (st36 ++ (st37 ++ (st38 ++ (st39 ++ (st40))))))))))))))))))))))))))))))))))))))))

/-- @main is the chain of the 41 stretches: the windows' chains put end to end. -/
theorem main_chain (c : Dev nD) : main (F := F) c = (Pipeline.chain
  [ seq st0,
    seq st1,
    seq st2,
    seq st3,
    seq st4,
    seq st5,
    seq st6,
    seq st7,
    seq st8,
    seq st9,
    seq st10,
    seq st11,
    seq st12,
    seq st13,
    seq st14,
    seq st15,
    seq st16,
    seq st17,
    seq st18,
    seq st19,
    seq st20,
    seq st21,
    seq st22,
    seq st23,
    seq st24,
    seq st25,
    seq st26,
    seq st27,
    seq st28,
    seq st29,
    seq st30,
    seq st31,
    seq st32,
    seq st33,
    seq st34,
    seq st35,
    seq st36,
    seq st37,
    seq st38,
    seq st39,
    seq st40 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain,
    main_part1_chain, Pipeline.chainK_bind_chain, main_part0_chain, Pipeline.chainK_bind_chain]
  chain_rfl

/-- @main is the one line `ops`. -/
theorem main_eq (c : Dev nD) : main (F := F) c = seq ops :=
  (main_chain c).trans
    (chain_seq_cons st0 _ _ (chain_seq_cons st1 _ _ (chain_seq_cons st2 _ _ (chain_seq_cons st3 _ _ (chain_seq_cons st4 _ _ (chain_seq_cons st5 _ _ (chain_seq_cons st6 _ _ (chain_seq_cons st7 _ _ (chain_seq_cons st8 _ _ (chain_seq_cons st9 _ _ (chain_seq_cons st10 _ _ (chain_seq_cons st11 _ _ (chain_seq_cons st12 _ _ (chain_seq_cons st13 _ _ (chain_seq_cons st14 _ _ (chain_seq_cons st15 _ _ (chain_seq_cons st16 _ _ (chain_seq_cons st17 _ _ (chain_seq_cons st18 _ _ (chain_seq_cons st19 _ _ (chain_seq_cons st20 _ _ (chain_seq_cons st21 _ _ (chain_seq_cons st22 _ _ (chain_seq_cons st23 _ _ (chain_seq_cons st24 _ _ (chain_seq_cons st25 _ _ (chain_seq_cons st26 _ _ (chain_seq_cons st27 _ _ (chain_seq_cons st28 _ _ (chain_seq_cons st29 _ _ (chain_seq_cons st30 _ _ (chain_seq_cons st31 _ _ (chain_seq_cons st32 _ _ (chain_seq_cons st33 _ _ (chain_seq_cons st34 _ _ (chain_seq_cons st35 _ _ (chain_seq_cons st36 _ _ (chain_seq_cons st37 _ _ (chain_seq_cons st38 _ _ (chain_seq_cons st39 _ _ (chain_seq_one st40)))))))))))))))))))))))))))))))))))))))))

/-- Every operation touches TensorCore references only. -/
theorem ops_sub : (ops : List (HloOp τ sig (Elt F))).Forall fun op => op.bufs ⊆ tcRefs τ sig :=
  forall_append st0_sub (forall_append st1_sub (forall_append st2_sub (forall_append st3_sub (forall_append st4_sub (forall_append st5_sub (forall_append st6_sub (forall_append st7_sub (forall_append st8_sub (forall_append st9_sub (forall_append st10_sub (forall_append st11_sub (forall_append st12_sub (forall_append st13_sub (forall_append st14_sub (forall_append st15_sub (forall_append st16_sub (forall_append st17_sub (forall_append st18_sub (forall_append st19_sub (forall_append st20_sub (forall_append st21_sub (forall_append st22_sub (forall_append st23_sub (forall_append st24_sub (forall_append st25_sub (forall_append st26_sub (forall_append st27_sub (forall_append st28_sub (forall_append st29_sub (forall_append st30_sub (forall_append st31_sub (forall_append st32_sub (forall_append st33_sub (forall_append st34_sub (forall_append st35_sub (forall_append st36_sub (forall_append st37_sub (forall_append st38_sub (forall_append st39_sub (st40_sub))))))))))))))))))))))))))))))))))))))))

/-- Every operation determines its result. -/
theorem ops_fresh : (ops : List (HloOp τ sig (Elt F))).Forall fun op => op.fresh = ∅ :=
  forall_append st0_fresh (forall_append st1_fresh (forall_append st2_fresh (forall_append st3_fresh (forall_append st4_fresh (forall_append st5_fresh (forall_append st6_fresh (forall_append st7_fresh (forall_append st8_fresh (forall_append st9_fresh (forall_append st10_fresh (forall_append st11_fresh (forall_append st12_fresh (forall_append st13_fresh (forall_append st14_fresh (forall_append st15_fresh (forall_append st16_fresh (forall_append st17_fresh (forall_append st18_fresh (forall_append st19_fresh (forall_append st20_fresh (forall_append st21_fresh (forall_append st22_fresh (forall_append st23_fresh (forall_append st24_fresh (forall_append st25_fresh (forall_append st26_fresh (forall_append st27_fresh (forall_append st28_fresh (forall_append st29_fresh (forall_append st30_fresh (forall_append st31_fresh (forall_append st32_fresh (forall_append st33_fresh (forall_append st34_fresh (forall_append st35_fresh (forall_append st36_fresh (forall_append st37_fresh (forall_append st38_fresh (forall_append st39_fresh (st40_fresh))))))))))))))))))))))))))))))))))))))))

/-- No operation writes an argument. -/
theorem ops_keeps : Keeps argRefs (ops : List (HloOp τ sig (Elt F))) :=
  keeps_append st0_keeps (keeps_append st1_keeps (keeps_append st2_keeps (keeps_append st3_keeps (keeps_append st4_keeps (keeps_append st5_keeps (keeps_append st6_keeps (keeps_append st7_keeps (keeps_append st8_keeps (keeps_append st9_keeps (keeps_append st10_keeps (keeps_append st11_keeps (keeps_append st12_keeps (keeps_append st13_keeps (keeps_append st14_keeps (keeps_append st15_keeps (keeps_append st16_keeps (keeps_append st17_keeps (keeps_append st18_keeps (keeps_append st19_keeps (keeps_append st20_keeps (keeps_append st21_keeps (keeps_append st22_keeps (keeps_append st23_keeps (keeps_append st24_keeps (keeps_append st25_keeps (keeps_append st26_keeps (keeps_append st27_keeps (keeps_append st28_keeps (keeps_append st29_keeps (keeps_append st30_keeps (keeps_append st31_keeps (keeps_append st32_keeps (keeps_append st33_keeps (keeps_append st34_keeps (keeps_append st35_keeps (keeps_append st36_keeps (keeps_append st37_keeps (keeps_append st38_keeps (keeps_append st39_keeps (st40_keeps))))))))))))))))))))))))))))))))))))))))

/-- What the buffers hold after the line, stretch by stretch. -/
theorem after_ops (V : Valuation τ sig (Elt F)) :
    after ops V = after st40 (after st39 (after st38 (after st37 (after st36 (after st35 (after st34 (after st33 (after st32 (after st31 (after st30 (after st29 (after st28 (after st27 (after st26 (after st25 (after st24 (after st23 (after st22 (after st21 (after st20 (after st19 (after st18 (after st17 (after st16 (after st15 (after st14 (after st13 (after st12 (after st11 (after st10 (after st9 (after st8 (after st7 (after st6 (after st5 (after st4 (after st3 (after st2 (after st1 (after st0 (V))))))))))))))))))))))))))))))))))))))))) := by
  simp only [ops, after_append]

end Cert.ReferenceIdeal.Hand

end
-- ==== Proof.Ref.Run.lean ====
/-
  The reference program's run.

  The signature scopes no TensorCore buffer and no semaphore, and @main is the straight line `ops`; so from any memory
  with zero counters every weakly fair execution terminates, each TensorCore buffer ending at the fold of the
  operations' results over the launch contents.  Read at the result buffer `main_v217` that is the fold itself; read at
  an argument it is the launch contents, no operation writing an argument.
-/
import proofs.«170986_j45183055954173_2_alg».proof.Proof.Ref.MainEq

set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the result buffer at the fold of the 410 operations over the launch contents and the nine
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v217) = after ops (fun b => m (c, b)) (Proc.devRef .tc main_v217)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c main_v217,
      (h c main_arg0).trans (ops_keeps _ main_arg0 (by decide)),
      (h c main_arg1).trans (ops_keeps _ main_arg1 (by decide)),
      (h c main_arg2).trans (ops_keeps _ main_arg2 (by decide)),
      (h c main_arg3).trans (ops_keeps _ main_arg3 (by decide)),
      (h c main_arg4).trans (ops_keeps _ main_arg4 (by decide)),
      (h c main_arg5).trans (ops_keeps _ main_arg5 (by decide)),
      (h c main_arg6).trans (ops_keeps _ main_arg6 (by decide)),
      (h c main_arg7).trans (ops_keeps _ main_arg7 (by decide)),
      (h c main_arg8).trans (ops_keeps _ main_arg8 (by decide))⟩)
    (run_seq scopedRefs_eq scopedSems_eq defs main (fun _ => ops) main_eq (fun _ => ops_sub) m ρ
      (fun _ => List.forall_iff_forall_mem.mp ops_fresh))

/-- The frame: @main runs to the end from any memory with zero counters and leaves its nine arguments unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run m ρ)

end Cert.ReferenceIdeal.Hand

end
-- ==== Proof.Ref.Stages.lean ====
/-
  The line `ops` grouped by what it computes: three levels, each in stages that end where a value later stages read
  is complete — A the normalised content features, B the normalised style features, C the content's unit rows (the queries), D the style's unit rows (the keys), E the style features as rows (the values), F the attention, the transferred mean and deviation, and the mean squared error; levels 3 and 4 end
  in G, the sum with the levels before.  A stage is the concatenation of consecutive stretches, a level of its stages, and `ops` of the
  three levels (re-association of list concatenation only).
-/
import proofs.«170986_j45183055954173_2_alg».proof.Proof.Ref.MainEq

set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Level 2, stage A (the normalised content features): through `main_v11`. -/
def s2A : List (HloOp τ sig (Elt F)) := st0 ++ (st1 ++ (st2))

/-- Level 2, stage B (the normalised style features): through `main_v23`. -/
def s2B : List (HloOp τ sig (Elt F)) := st3 ++ (st4 ++ (st5))

/-- Level 2, stage C (the content's unit rows (the queries)): through `main_v32`. -/
def s2C : List (HloOp τ sig (Elt F)) := st6

/-- Level 2, stage D (the style's unit rows (the keys)): through `main_v41`. -/
def s2D : List (HloOp τ sig (Elt F)) := st7

/-- Level 2, stage E (the style features as rows (the values)): through `main_v42`. -/
def s2E : List (HloOp τ sig (Elt F)) := st8

/-- Level 2, stage F (the attention, the transferred mean and deviation, and the mean squared error): through `main_v71`. -/
def s2F : List (HloOp τ sig (Elt F)) := st9 ++ (st10 ++ (st11 ++ (st12)))

/-- Level 3, stage A (the normalised content features): through `main_v83`. -/
def s3A : List (HloOp τ sig (Elt F)) := st13 ++ (st14 ++ (st15))

/-- Level 3, stage B (the normalised style features): through `main_v95`. -/
def s3B : List (HloOp τ sig (Elt F)) := st16 ++ (st17 ++ (st18 ++ (st19)))

/-- Level 3, stage C (the content's unit rows (the queries)): through `main_v104`. -/
def s3C : List (HloOp τ sig (Elt F)) := st20

/-- Level 3, stage D (the style's unit rows (the keys)): through `main_v113`. -/
def s3D : List (HloOp τ sig (Elt F)) := st21

/-- Level 3, stage E (the style features as rows (the values)): through `main_v114`. -/
def s3E : List (HloOp τ sig (Elt F)) := st22

/-- Level 3, stage F (the attention, the transferred mean and deviation, and the mean squared error): through `main_v143`. -/
def s3F : List (HloOp τ sig (Elt F)) := st23 ++ (st24 ++ (st25))

/-- Level 3, stage G (the sum with the levels before): through `main_v144`. -/
def s3G : List (HloOp τ sig (Elt F)) := st26

/-- Level 4, stage A (the normalised content features): through `main_v156`. -/
def s4A : List (HloOp τ sig (Elt F)) := st27 ++ (st28 ++ (st29))

/-- Level 4, stage B (the normalised style features): through `main_v168`. -/
def s4B : List (HloOp τ sig (Elt F)) := st30 ++ (st31 ++ (st32))

/-- Level 4, stage C (the content's unit rows (the queries)): through `main_v177`. -/
def s4C : List (HloOp τ sig (Elt F)) := st33

/-- Level 4, stage D (the style's unit rows (the keys)): through `main_v186`. -/
def s4D : List (HloOp τ sig (Elt F)) := st34

/-- Level 4, stage E (the style features as rows (the values)): through `main_v187`. -/
def s4E : List (HloOp τ sig (Elt F)) := st35

/-- Level 4, stage F (the attention, the transferred mean and deviation, and the mean squared error): through `main_v216`. -/
def s4F : List (HloOp τ sig (Elt F)) := st36 ++ (st37 ++ (st38 ++ (st39)))

/-- Level 4, stage G (the sum with the levels before): through `main_v217`. -/
def s4G : List (HloOp τ sig (Elt F)) := st40

/-- Level 2's operations. -/
def lev2 : List (HloOp τ sig (Elt F)) := s2A ++ (s2B ++ (s2C ++ (s2D ++ (s2E ++ (s2F)))))

/-- Level 3's operations. -/
def lev3 : List (HloOp τ sig (Elt F)) := s3A ++ (s3B ++ (s3C ++ (s3D ++ (s3E ++ (s3F ++ (s3G))))))

/-- Level 4's operations. -/
def lev4 : List (HloOp τ sig (Elt F)) := s4A ++ (s4B ++ (s4C ++ (s4D ++ (s4E ++ (s4F ++ (s4G))))))

/-- A line that keeps a list of references keeps any list inside it. -/
theorem keeps_mono {A B : List (Ref sig .tc)} {l : List (HloOp τ sig (Elt F))} (h : ∀ r ∈ A, r ∈ B) (k : Keeps B l) : Keeps A l :=
  fun V r hr => k V r (h r hr)

/-- The line is the three levels one after the other. -/
theorem ops_levels : (ops : List (HloOp τ sig (Elt F))) = lev2 ++ (lev3 ++ lev4) := by
  simp only [ops, lev2, lev3, lev4, s2A, s2B, s2C, s2D, s2E, s2F, s3A, s3B, s3C, s3D, s3E, s3F, s3G, s4A, s4B, s4C, s4D, s4E, s4F, s4G, List.append_assoc]

/-- What the buffers hold after the line, level by level. -/
theorem after_ops_levels (V : Valuation τ sig (Elt F)) : after ops V = after lev4 (after lev3 (after lev2 V)) := by
  rw [ops_levels, after_append, after_append]

end Cert.ReferenceIdeal.Hand

end
-- ==== Proof.Ref.Norm2.lean ====
/-
  The reference's level-2 values up to the attention, as functions of the argument arrays.

  From a content or style array `x` of shape `[4, 64, 64, 256]` the reference takes, per batch entry and channel, the
  mean over the 64 × 64 positions and the (biased) variance — the sum of the squared deviations over `4096 − 0`, chosen
  by a select on `4096 − 0 > 0` against a not-a-number constant —, divides the deviations by the root of the variance
  plus epsilon, reads the result as `[4, 4096, 256]` (position `t = 64·h + w`), and divides each position's channel
  vector by its euclidean norm floored at the small constant.  Each stage below is spelled with the program's own
  operations, in the program's order.
-/
import proofs.«170986_j45183055954173_2_alg».proof.ReferenceIdeal
import proofs.«170986_j45183055954173_2_alg».proof.Proof.Gen.ReferenceIdeal
import proofs.«170986_j45183055954173_2_alg».proof.Proof.Spec
import proofs.«170986_j45183055954173_2_alg».proof.Proof.Consts
import proofs.«170986_j45183055954173_2_alg».proof.Proof.Arr
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.PureOps.Reduce

noncomputable section

namespace Cert.ReferenceIdeal.LevelVal

open Cert.ReferenceIdeal Cert.ReferenceIdeal.Facts₀ Idealize.ShloMosaic Idealize.ShloMosaic.ValueIdx
open scoped BigOperators

/-! ## The stages, in the program's operations -/

/-- The sum over the positions, per batch entry and channel. -/
def sum2 (x : FVec Ideal S4x64x64x256 .f32) : FVec Ideal S4x256 .f32 :=
  Host.reduceAdd x (constant (F := Ideal) S_ .f32 0x00000000#32) reducesTo_S4x64x64x256_S4x256_d1_2 h_S_

/-- The mean over the positions: the sum over 4096. -/
def mean2 (x : FVec Ideal S4x64x64x256 .f32) : FVec Ideal S4x1x1x256 .f32 :=
  Host.divf (broadcastInDim S4x1x1x256 ![0, 3] bcast_S4x256_S4x1x1x256_0_3 (sum2 x))
    (broadcastInDim S4x1x1x256 ![] bcast_S_S4x1x1x256 (constant (F := Ideal) S_ .f32 0x45800000#32))

/-- The deviations from the mean. -/
def cen2 (x : FVec Ideal S4x64x64x256 .f32) : FVec Ideal S4x64x64x256 .f32 :=
  subf x (broadcastInDim S4x64x64x256 ![0, 1, 2, 3] bcast_S4x1x1x256_S4x64x64x256_0_1_2_3 (mean2 x))

/-- The variance's divisor: 4096 less the integer 0 converted. -/
def cnt2 : FVec Ideal S_ .f32 :=
  subf (constant (F := Ideal) S_ .f32 0x45800000#32) (sitofp .f32 (constantI S_ 32 0#32))

/-- The sum of the squared deviations. -/
def ssq2 (x : FVec Ideal S4x64x64x256 .f32) : FVec Ideal S4x256 .f32 :=
  Host.reduceAdd (mulf (cen2 x) (cen2 x)) (constant (F := Ideal) S_ .f32 0x00000000#32)
    reducesTo_S4x64x64x256_S4x256_d1_2 h_S_

/-- The variance: the quotient where the divisor is positive, the not-a-number constant elsewhere. -/
def var2 (x : FVec Ideal S4x64x64x256 .f32) : FVec Ideal S4x1x1x256 .f32 :=
  select (broadcastInDim S4x1x1x256 ![] bcast_S_S4x1x1x256 (cmpf .ogt cnt2 (constant (F := Ideal) S_ .f32 0x00000000#32)))
    (Host.divf (broadcastInDim S4x1x1x256 ![0, 3] bcast_S4x256_S4x1x1x256_0_3 (ssq2 x))
      (broadcastInDim S4x1x1x256 ![] bcast_S_S4x1x1x256 cnt2))
    (broadcastInDim S4x1x1x256 ![] bcast_S_S4x1x1x256 (id (constant (F := Ideal) S_ .f32 0x7FC00000#32)))

/-- The standard deviation: the root of the variance plus epsilon. -/
def sd2 (x : FVec Ideal S4x64x64x256 .f32) : FVec Ideal S4x1x1x256 .f32 :=
  Host.sqrt (addf (var2 x)
    (broadcastInDim S4x1x1x256 ![] bcast_S_S4x1x1x256 (constant (F := Ideal) S_ .f32 0x3727C5AC#32)))

/-- The instance normalisation: the deviations over the standard deviation. -/
def inorm2 (x : FVec Ideal S4x64x64x256 .f32) : FVec Ideal S4x64x64x256 .f32 :=
  Host.divf (cen2 x) (broadcastInDim S4x64x64x256 ![0, 1, 2, 3] bcast_S4x1x1x256_S4x64x64x256_0_1_2_3 (sd2 x))

/-- The array read as `[4, 4096, 256]`. -/
def tok2 (y : FVec Ideal S4x64x64x256 .f32) : FVec Ideal S4x4096x256 .f32 :=
  shapeCast S4x4096x256 y shapeCasts_S4x64x64x256_S4x4096x256

/-- Each position's euclidean norm over the channels, floored. -/
def norm2 (z : FVec Ideal S4x4096x256 .f32) : FVec Ideal S4x4096x1 .f32 :=
  maximumf
    (Host.sqrt (broadcastInDim S4x4096x1 ![0, 1] bcast_S4x4096_S4x4096x1_0_1
      (Host.reduceAdd (mulf z z) (constant (F := Ideal) S_ .f32 0x00000000#32) reducesTo_S4x4096x256_S4x4096_d2 h_S_)))
    (broadcastInDim S4x4096x1 ![] bcast_S_S4x4096x1 (constant (F := Ideal) S_ .f32 0x2B8CBCCC#32))

/-- Each position's channel vector over its norm. -/
def l2n2 (z : FVec Ideal S4x4096x256 .f32) : FVec Ideal S4x4096x256 .f32 :=
  Host.divf z (broadcastInDim S4x4096x256 ![0, 1, 2] bcast_S4x4096x1_S4x4096x256_0_1_2 (norm2 z))

/-- The normalised content (four-dimensional), the normalised style, the queries, the keys, the values. -/
def nc2 (c : FVec Ideal S4x64x64x256 .f32) : FVec Ideal S4x64x64x256 .f32 := inorm2 c
def ns2 (s : FVec Ideal S4x64x64x256 .f32) : FVec Ideal S4x64x64x256 .f32 := inorm2 s
def qn2 (c : FVec Ideal S4x64x64x256 .f32) : FVec Ideal S4x4096x256 .f32 := l2n2 (tok2 (nc2 c))
def kn2 (s : FVec Ideal S4x64x64x256 .f32) : FVec Ideal S4x4096x256 .f32 := l2n2 (tok2 (ns2 s))
def v2 (s : FVec Ideal S4x64x64x256 .f32) : FVec Ideal S4x4096x256 .f32 := tok2 s

end Cert.ReferenceIdeal.LevelVal

end
-- ==== Proof.Ref.Attn2Def.lean ====
/-
  The attention part of level 2 of the reference, as a function of five arrays: the stylised content, the
  normalised content (four-dimensional), the l2-normalised queries and keys, and the style's values (tokens
  flattened).  Each stage below is the composition of the program's own operations on that stretch, over variable
  operands; `attn2` composes the stages.
-/
import proofs.«170986_j45183055954173_2_alg».proof.ReferenceIdeal
import proofs.«170986_j45183055954173_2_alg».proof.Proof.Gen.ReferenceIdeal
import Idealize.ShloMosaic.PureOps.Ideal

noncomputable section

namespace Cert.ReferenceIdeal.LevelVal

open Cert.ReferenceIdeal Cert.ReferenceIdeal.Gen Idealize.ShloMosaic

/-- The scores: queries against keys, contracted over the channels. -/
def scores2 (qn kn : FVec Ideal S4x4096x256 .f32) : FVec Ideal S4x4096x4096 .f32 :=
  Host.dotGeneral dot_S4x4096x256_S4x4096x256_S4x4096x4096_2_2_1_1_0_0 none qn kn

/-- The largest score of each row: the maximum-reduce from `-∞` over the keys, then the maximum with `-∞`. -/
def rowMax2 (x : FVec Ideal S4x4096x4096 .f32) : FVec Ideal S4x4096 .f32 :=
  maximumf (broadcastInDim S4x4096 ![] bcast_S_S4x4096 (constant (F := Ideal) S_ .f32 0xFF800000#32))
    (Host.reduce FloatOps.maximumf x (constant (F := Ideal) S_ .f32 0xFF800000#32) reducesTo_S4x4096x4096_S4x4096_d2 h_S_)

/-- The exponentials of the scores less their row's maximum. -/
def expShift2 (x : FVec Ideal S4x4096x4096 .f32) : FVec Ideal S4x4096x4096 .f32 :=
  Host.exp (subf x (broadcastInDim S4x4096x4096 ![0, 1, 2] bcast_S4x4096x1_S4x4096x4096_0_1_2
    (broadcastInDim S4x4096x1 ![0, 1] bcast_S4x4096_S4x4096x1_0_1 (rowMax2 x))))

/-- Each entry divided by its row's sum. -/
def rowNorm2 (e : FVec Ideal S4x4096x4096 .f32) : FVec Ideal S4x4096x4096 .f32 :=
  Host.divf e (broadcastInDim S4x4096x4096 ![0, 1, 2] bcast_S4x4096x1_S4x4096x4096_0_1_2
    (broadcastInDim S4x4096x1 ![0, 1] bcast_S4x4096_S4x4096x1_0_1
      (Host.reduceAdd e (constant (F := Ideal) S_ .f32 0x00000000#32) reducesTo_S4x4096x4096_S4x4096_d2 h_S_)))

/-- The attention weights applied to an array of per-key values. -/
def weigh2 (a : FVec Ideal S4x4096x4096 .f32) (v : FVec Ideal S4x4096x256 .f32) : FVec Ideal S4x4096x256 .f32 :=
  Host.dotGeneral dot_S4x4096x4096_S4x4096x256_S4x4096x256_2_1_1_2_0_0 none a v

/-- The weighted deviation from the weighted mean `M` and the weighted mean of squares `M2`. -/
def dev2 (M M2 : FVec Ideal S4x4096x256 .f32) : FVec Ideal S4x4096x256 .f32 :=
  Host.sqrt (addf
    (maximumf (subf M2 (mulf M M)) (broadcastInDim S4x4096x256 ![] bcast_S_S4x4096x256 (constant (F := Ideal) S_ .f32 0x00000000#32)))
    (broadcastInDim S4x4096x256 ![] bcast_S_S4x4096x256 (constant (F := Ideal) S_ .f32 0x2B8CBCCC#32)))

/-- The error against the stylised content: `cs - (S · nc + M)`, the token axis unflattened. -/
def err2 (cs nc : FVec Ideal S4x64x64x256 .f32) (S M : FVec Ideal S4x4096x256 .f32) : FVec Ideal S4x64x64x256 .f32 :=
  subf cs (addf (mulf (shapeCast S4x64x64x256 S shapeCasts_S4x4096x256_S4x64x64x256) nc) (shapeCast S4x64x64x256 M shapeCasts_S4x4096x256_S4x64x64x256))

/-- The mean of the squares of an array's entries. -/
def meanSq2 (d : FVec Ideal S4x64x64x256 .f32) : FVec Ideal S_ .f32 :=
  Host.divf (Host.reduceAdd (mulf d d) (constant (F := Ideal) S_ .f32 0x00000000#32) reducesTo_S4x64x64x256_S_d0_1_2_3 h_S_)
    (constant (F := Ideal) S_ .f32 0x4A800000#32)

/-- The attention part of level 2: from the stylised content `cs`, the normalised content `nc`, the
    l2-normalised queries `qn` and keys `kn` and the style's values `v`, the level's loss. -/
def attn2 (cs nc : FVec Ideal S4x64x64x256 .f32) (qn kn v : FVec Ideal S4x4096x256 .f32) : FVec Ideal S_ .f32 :=
  meanSq2 (err2 cs nc
    (dev2 (weigh2 (rowNorm2 (expShift2 (scores2 qn kn))) v)
      (weigh2 (rowNorm2 (expShift2 (scores2 qn kn))) (mulf v v)))
    (weigh2 (rowNorm2 (expShift2 (scores2 qn kn))) v))

end Cert.ReferenceIdeal.LevelVal

end
-- ==== Proof.Ref.Level2Def.lean ====
/-
  The reference's level-2 loss as a function of the three argument arrays: the attention part applied to the
  normalised content, the l2-normalised queries and keys, and the style's values.
-/
import proofs.«170986_j45183055954173_2_alg».proof.Proof.Ref.Norm2
import proofs.«170986_j45183055954173_2_alg».proof.Proof.Ref.Attn2Def

noncomputable section

namespace Cert.ReferenceIdeal.LevelVal

open Cert.ReferenceIdeal Idealize.ShloMosaic

/-- The level's loss from the stylised content `cs`, the content `c` and the style `s`. -/
def lvl2 (cs c s : FVec Ideal S4x64x64x256 .f32) : FVec Ideal S_ .f32 :=
  attn2 cs (nc2 c) (qn2 c) (kn2 s) (v2 s)

end Cert.ReferenceIdeal.LevelVal

end
-- ==== Proof.Ref.Read2.lean ====
/-
  Level 2 of the reference program read back: what its stages leave in the buffers later stages read, as the
  level's stage functions of what the buffers held before.

  Stage A leaves the normalised content features in `main_v11`, B the normalised style features in `main_v23`, C and D
  their unit rows in `main_v32` and `main_v41`, E the style features as rows in `main_v42`; F computes the level's loss
  `main_v71` from those and the stylised content.  Each stage's value is the
  fold of its operations read at the buffer it ends in; a stage leaves alone every buffer it does not write, which is
  how a value reaches the stage that reads it.
-/
import proofs.«170986_j45183055954173_2_alg».proof.Proof.Ref.Stages
import proofs.«170986_j45183055954173_2_alg».proof.Proof.Ref.Level2Def

set_option maxRecDepth 8192

noncomputable section

namespace Cert.ReferenceIdeal.Hand

open Cert.ReferenceIdeal Cert.ReferenceIdeal.Gen Cert.ReferenceIdeal.LevelVal Idealize.ShloMosaic Idealize.ShloMosaic.TcCoe Idealize.SL.Sem Idealize.ShloMosaic.StableHlo

/-! ## What each stage computes -/

/-- Stage A ends with the normalised content features. -/
theorem s2A_read (V : Valuation τ sig (Elt Ideal)) :
    after s2A V (Proc.devRef .tc main_v11) = nc2 (V (Proc.devRef .tc main_arg3)) := by
  unfold s2A; simp only [after_append]
  after_results_simp
  rfl

/-- Stage B ends with the normalised style features. -/
theorem s2B_read (V : Valuation τ sig (Elt Ideal)) :
    after s2B V (Proc.devRef .tc main_v23) = ns2 (V (Proc.devRef .tc main_arg6)) := by
  unfold s2B; simp only [after_append]
  after_results_simp
  rfl

/-- Stage C: the normalised content features as rows, each divided by its norm. -/
theorem s2C_read (V : Valuation τ sig (Elt Ideal)) :
    after s2C V (Proc.devRef .tc main_v32) = l2n2 (tok2 (V (Proc.devRef .tc main_v11))) := by
  unfold s2C
  after_results_simp
  rfl

/-- Stage D: the same of the normalised style features. -/
theorem s2D_read (V : Valuation τ sig (Elt Ideal)) :
    after s2D V (Proc.devRef .tc main_v41) = l2n2 (tok2 (V (Proc.devRef .tc main_v23))) := by
  unfold s2D
  after_results_simp
  rfl

/-- Stage E: the style features as rows. -/
theorem s2E_read (V : Valuation τ sig (Elt Ideal)) :
    after s2E V (Proc.devRef .tc main_v42) = tok2 (V (Proc.devRef .tc main_arg6)) := by
  unfold s2E
  after_results_simp
  rfl

/-- Stage F: the level's loss from the stylised content and the four values before. -/
theorem s2F_read (V : Valuation τ sig (Elt Ideal)) :
    after s2F V (Proc.devRef .tc main_v71)
      = attn2 (V (Proc.devRef .tc main_arg0)) (V (Proc.devRef .tc main_v11)) (V (Proc.devRef .tc main_v32)) (V (Proc.devRef .tc main_v41)) (V (Proc.devRef .tc main_v42)) := by
  unfold s2F; simp only [after_append]
  after_results_simp
  rfl

/-! ## What each stage leaves alone -/

theorem s2A_keeps : Keeps (argRefs) (s2A : List (HloOp τ sig (Elt Ideal))) := by
  unfold s2A; exact keeps_append (keeps_of_writes st0_writes (by decide)) (keeps_append (keeps_of_writes st1_writes (by decide)) (keeps_of_writes st2_writes (by decide)))
theorem s2B_keeps : Keeps (main_v11 :: argRefs) (s2B : List (HloOp τ sig (Elt Ideal))) := by
  unfold s2B; exact keeps_append (keeps_of_writes st3_writes (by decide)) (keeps_append (keeps_of_writes st4_writes (by decide)) (keeps_of_writes st5_writes (by decide)))
theorem s2C_keeps : Keeps (main_v11 :: main_v23 :: argRefs) (s2C : List (HloOp τ sig (Elt Ideal))) := by
  unfold s2C; exact keeps_of_writes st6_writes (by decide)
theorem s2D_keeps : Keeps (main_v11 :: main_v32 :: argRefs) (s2D : List (HloOp τ sig (Elt Ideal))) := by
  unfold s2D; exact keeps_of_writes st7_writes (by decide)
theorem s2E_keeps : Keeps (main_v11 :: main_v32 :: main_v41 :: argRefs) (s2E : List (HloOp τ sig (Elt Ideal))) := by
  unfold s2E; exact keeps_of_writes st8_writes (by decide)
theorem s2F_keeps : Keeps (argRefs) (s2F : List (HloOp τ sig (Elt Ideal))) := by
  unfold s2F; exact keeps_append (keeps_of_writes st9_writes (by decide)) (keeps_append (keeps_of_writes st10_writes (by decide)) (keeps_append (keeps_of_writes st11_writes (by decide)) (keeps_of_writes st12_writes (by decide))))

/-! ## The level -/

/-- The level's stages one after the other. -/
theorem after_lev2 (V : Valuation τ sig (Elt Ideal)) :
    after lev2 V = after s2F (after s2E (after s2D (after s2C (after s2B (after s2A (V)))))) := by
  unfold lev2
  rw [after_append s2A, after_append s2B, after_append s2C, after_append s2D, after_append s2E]

/-- Through stage F the level leaves its loss: the level's value of the three arguments. -/
theorem read_v71 (V : Valuation τ sig (Elt Ideal)) :
    after s2F (after s2E (after s2D (after s2C (after s2B (after s2A (V)))))) (Proc.devRef .tc main_v71)
      = lvl2 (V (Proc.devRef .tc main_arg0)) (V (Proc.devRef .tc main_arg3)) (V (Proc.devRef .tc main_arg6)) := by
  rw [s2F_read,
    s2E_keeps _ main_arg0 (by decide), s2E_keeps _ main_v11 (by decide), s2E_keeps _ main_v32 (by decide), s2E_keeps _ main_v41 (by decide), s2E_read,
    s2D_keeps _ main_arg0 (by decide), s2D_keeps _ main_v11 (by decide), s2D_keeps _ main_v32 (by decide), s2D_keeps _ main_arg6 (by decide), s2D_read,
    s2C_keeps _ main_arg0 (by decide), s2C_keeps _ main_v11 (by decide), s2C_keeps _ main_v23 (by decide), s2C_keeps _ main_arg6 (by decide), s2C_read,
    s2B_keeps _ main_arg0 (by decide), s2B_keeps _ main_v11 (by decide), s2B_keeps _ main_arg6 (by decide), s2B_read,
    s2A_keeps _ main_arg0 (by decide), s2A_keeps _ main_arg6 (by decide), s2A_read]
  rfl

/-- The level read at its loss. -/
theorem read2 (V : Valuation τ sig (Elt Ideal)) :
    after lev2 V (Proc.devRef .tc main_v71) = lvl2 (V (Proc.devRef .tc main_arg0)) (V (Proc.devRef .tc main_arg3)) (V (Proc.devRef .tc main_arg6)) := by
  rw [after_lev2]; exact read_v71 V

/-- The level writes no argument. -/
theorem lev2_keeps : Keeps argRefs (lev2 : List (HloOp τ sig (Elt Ideal))) := by
  unfold lev2
  exact keeps_append (keeps_mono (by decide) s2A_keeps) (keeps_append (keeps_mono (by decide) s2B_keeps) (keeps_append (keeps_mono (by decide) s2C_keeps) (keeps_append (keeps_mono (by decide) s2D_keeps) (keeps_append (keeps_mono (by decide) s2E_keeps) ((keeps_mono (by decide) s2F_keeps))))))

end Cert.ReferenceIdeal.Hand

end
-- ==== Proof.Ref.Norm3.lean ====
/-
  The reference's level-3 values up to the attention, as functions of the argument arrays.

  From a content or style array `x` of shape `[4, 32, 32, 512]` the reference takes, per batch entry and channel, the
  mean over the 32 × 32 positions and the (biased) variance — the sum of the squared deviations over `1024 − 0`, chosen
  by a select on `1024 − 0 > 0` against a not-a-number constant —, divides the deviations by the root of the variance
  plus epsilon, reads the result as `[4, 1024, 512]` (position `t = 32·h + w`), and divides each position's channel
  vector by its euclidean norm floored at the small constant.  Each stage below is spelled with the program's own
  operations, in the program's order.
-/
import proofs.«170986_j45183055954173_2_alg».proof.ReferenceIdeal
import proofs.«170986_j45183055954173_2_alg».proof.Proof.Gen.ReferenceIdeal
import proofs.«170986_j45183055954173_2_alg».proof.Proof.Spec
import proofs.«170986_j45183055954173_2_alg».proof.Proof.Consts
import proofs.«170986_j45183055954173_2_alg».proof.Proof.Arr
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.PureOps.Reduce

noncomputable section

namespace Cert.ReferenceIdeal.LevelVal

open Cert.ReferenceIdeal Cert.ReferenceIdeal.Facts₀ Idealize.ShloMosaic Idealize.ShloMosaic.ValueIdx
open scoped BigOperators

/-! ## The stages, in the program's operations -/

/-- The sum over the positions, per batch entry and channel. -/
def sum3 (x : FVec Ideal S4x32x32x512 .f32) : FVec Ideal S4x512 .f32 :=
  Host.reduceAdd x (constant (F := Ideal) S_ .f32 0x00000000#32) reducesTo_S4x32x32x512_S4x512_d1_2 h_S_

/-- The mean over the positions: the sum over 1024. -/
def mean3 (x : FVec Ideal S4x32x32x512 .f32) : FVec Ideal S4x1x1x512 .f32 :=
  Host.divf (broadcastInDim S4x1x1x512 ![0, 3] bcast_S4x512_S4x1x1x512_0_3 (sum3 x))
    (broadcastInDim S4x1x1x512 ![] bcast_S_S4x1x1x512 (constant (F := Ideal) S_ .f32 0x44800000#32))

/-- The deviations from the mean. -/
def cen3 (x : FVec Ideal S4x32x32x512 .f32) : FVec Ideal S4x32x32x512 .f32 :=
  subf x (broadcastInDim S4x32x32x512 ![0, 1, 2, 3] bcast_S4x1x1x512_S4x32x32x512_0_1_2_3 (mean3 x))

/-- The variance's divisor: 1024 less the integer 0 converted. -/
def cnt3 : FVec Ideal S_ .f32 :=
  subf (constant (F := Ideal) S_ .f32 0x44800000#32) (sitofp .f32 (constantI S_ 32 0#32))

/-- The sum of the squared deviations. -/
def ssq3 (x : FVec Ideal S4x32x32x512 .f32) : FVec Ideal S4x512 .f32 :=
  Host.reduceAdd (mulf (cen3 x) (cen3 x)) (constant (F := Ideal) S_ .f32 0x00000000#32)
    reducesTo_S4x32x32x512_S4x512_d1_2 h_S_

/-- The variance: the quotient where the divisor is positive, the not-a-number constant elsewhere. -/
def var3 (x : FVec Ideal S4x32x32x512 .f32) : FVec Ideal S4x1x1x512 .f32 :=
  select (broadcastInDim S4x1x1x512 ![] bcast_S_S4x1x1x512 (cmpf .ogt cnt3 (constant (F := Ideal) S_ .f32 0x00000000#32)))
    (Host.divf (broadcastInDim S4x1x1x512 ![0, 3] bcast_S4x512_S4x1x1x512_0_3 (ssq3 x))
      (broadcastInDim S4x1x1x512 ![] bcast_S_S4x1x1x512 cnt3))
    (broadcastInDim S4x1x1x512 ![] bcast_S_S4x1x1x512 (id (constant (F := Ideal) S_ .f32 0x7FC00000#32)))

/-- The standard deviation: the root of the variance plus epsilon. -/
def sd3 (x : FVec Ideal S4x32x32x512 .f32) : FVec Ideal S4x1x1x512 .f32 :=
  Host.sqrt (addf (var3 x)
    (broadcastInDim S4x1x1x512 ![] bcast_S_S4x1x1x512 (constant (F := Ideal) S_ .f32 0x3727C5AC#32)))

/-- The instance normalisation: the deviations over the standard deviation. -/
def inorm3 (x : FVec Ideal S4x32x32x512 .f32) : FVec Ideal S4x32x32x512 .f32 :=
  Host.divf (cen3 x) (broadcastInDim S4x32x32x512 ![0, 1, 2, 3] bcast_S4x1x1x512_S4x32x32x512_0_1_2_3 (sd3 x))

/-- The array read as `[4, 1024, 512]`. -/
def tok3 (y : FVec Ideal S4x32x32x512 .f32) : FVec Ideal S4x1024x512 .f32 :=
  shapeCast S4x1024x512 y shapeCasts_S4x32x32x512_S4x1024x512

/-- Each position's euclidean norm over the channels, floored. -/
def norm3 (z : FVec Ideal S4x1024x512 .f32) : FVec Ideal S4x1024x1 .f32 :=
  maximumf
    (Host.sqrt (broadcastInDim S4x1024x1 ![0, 1] bcast_S4x1024_S4x1024x1_0_1
      (Host.reduceAdd (mulf z z) (constant (F := Ideal) S_ .f32 0x00000000#32) reducesTo_S4x1024x512_S4x1024_d2 h_S_)))
    (broadcastInDim S4x1024x1 ![] bcast_S_S4x1024x1 (constant (F := Ideal) S_ .f32 0x2B8CBCCC#32))

/-- Each position's channel vector over its norm. -/
def l2n3 (z : FVec Ideal S4x1024x512 .f32) : FVec Ideal S4x1024x512 .f32 :=
  Host.divf z (broadcastInDim S4x1024x512 ![0, 1, 2] bcast_S4x1024x1_S4x1024x512_0_1_2 (norm3 z))

/-- The normalised content (four-dimensional), the normalised style, the queries, the keys, the values. -/
def nc3 (c : FVec Ideal S4x32x32x512 .f32) : FVec Ideal S4x32x32x512 .f32 := inorm3 c
def ns3 (s : FVec Ideal S4x32x32x512 .f32) : FVec Ideal S4x32x32x512 .f32 := inorm3 s
def qn3 (c : FVec Ideal S4x32x32x512 .f32) : FVec Ideal S4x1024x512 .f32 := l2n3 (tok3 (nc3 c))
def kn3 (s : FVec Ideal S4x32x32x512 .f32) : FVec Ideal S4x1024x512 .f32 := l2n3 (tok3 (ns3 s))
def v3 (s : FVec Ideal S4x32x32x512 .f32) : FVec Ideal S4x1024x512 .f32 := tok3 s

end Cert.ReferenceIdeal.LevelVal

end
-- ==== Proof.Ref.Attn3Def.lean ====
/-
  The attention part of level 3 of the reference, as a function of five arrays: the stylised content, the
  normalised content (four-dimensional), the l2-normalised queries and keys, and the style's values (tokens
  flattened).  Each stage below is the composition of the program's own operations on that stretch, over variable
  operands; `attn3` composes the stages.
-/
import proofs.«170986_j45183055954173_2_alg».proof.ReferenceIdeal
import proofs.«170986_j45183055954173_2_alg».proof.Proof.Gen.ReferenceIdeal
import Idealize.ShloMosaic.PureOps.Ideal

noncomputable section

namespace Cert.ReferenceIdeal.LevelVal

open Cert.ReferenceIdeal Cert.ReferenceIdeal.Gen Idealize.ShloMosaic

/-- The scores: queries against keys, contracted over the channels. -/
def scores3 (qn kn : FVec Ideal S4x1024x512 .f32) : FVec Ideal S4x1024x1024 .f32 :=
  Host.dotGeneral dot_S4x1024x512_S4x1024x512_S4x1024x1024_2_2_1_1_0_0 none qn kn

/-- The largest score of each row: the maximum-reduce from `-∞` over the keys, then the maximum with `-∞`. -/
def rowMax3 (x : FVec Ideal S4x1024x1024 .f32) : FVec Ideal S4x1024 .f32 :=
  maximumf (broadcastInDim S4x1024 ![] bcast_S_S4x1024 (constant (F := Ideal) S_ .f32 0xFF800000#32))
    (Host.reduce FloatOps.maximumf x (constant (F := Ideal) S_ .f32 0xFF800000#32) reducesTo_S4x1024x1024_S4x1024_d2 h_S_)

/-- The exponentials of the scores less their row's maximum. -/
def expShift3 (x : FVec Ideal S4x1024x1024 .f32) : FVec Ideal S4x1024x1024 .f32 :=
  Host.exp (subf x (broadcastInDim S4x1024x1024 ![0, 1, 2] bcast_S4x1024x1_S4x1024x1024_0_1_2
    (broadcastInDim S4x1024x1 ![0, 1] bcast_S4x1024_S4x1024x1_0_1 (rowMax3 x))))

/-- Each entry divided by its row's sum. -/
def rowNorm3 (e : FVec Ideal S4x1024x1024 .f32) : FVec Ideal S4x1024x1024 .f32 :=
  Host.divf e (broadcastInDim S4x1024x1024 ![0, 1, 2] bcast_S4x1024x1_S4x1024x1024_0_1_2
    (broadcastInDim S4x1024x1 ![0, 1] bcast_S4x1024_S4x1024x1_0_1
      (Host.reduceAdd e (constant (F := Ideal) S_ .f32 0x00000000#32) reducesTo_S4x1024x1024_S4x1024_d2 h_S_)))

/-- The attention weights applied to an array of per-key values. -/
def weigh3 (a : FVec Ideal S4x1024x1024 .f32) (v : FVec Ideal S4x1024x512 .f32) : FVec Ideal S4x1024x512 .f32 :=
  Host.dotGeneral dot_S4x1024x1024_S4x1024x512_S4x1024x512_2_1_1_2_0_0 none a v

/-- The weighted deviation from the weighted mean `M` and the weighted mean of squares `M2`. -/
def dev3 (M M2 : FVec Ideal S4x1024x512 .f32) : FVec Ideal S4x1024x512 .f32 :=
  Host.sqrt (addf
    (maximumf (subf M2 (mulf M M)) (broadcastInDim S4x1024x512 ![] bcast_S_S4x1024x512 (constant (F := Ideal) S_ .f32 0x00000000#32)))
    (broadcastInDim S4x1024x512 ![] bcast_S_S4x1024x512 (constant (F := Ideal) S_ .f32 0x2B8CBCCC#32)))

/-- The error against the stylised content: `cs - (S · nc + M)`, the token axis unflattened. -/
def err3 (cs nc : FVec Ideal S4x32x32x512 .f32) (S M : FVec Ideal S4x1024x512 .f32) : FVec Ideal S4x32x32x512 .f32 :=
  subf cs (addf (mulf (shapeCast S4x32x32x512 S shapeCasts_S4x1024x512_S4x32x32x512) nc) (shapeCast S4x32x32x512 M shapeCasts_S4x1024x512_S4x32x32x512))

/-- The mean of the squares of an array's entries. -/
def meanSq3 (d : FVec Ideal S4x32x32x512 .f32) : FVec Ideal S_ .f32 :=
  Host.divf (Host.reduceAdd (mulf d d) (constant (F := Ideal) S_ .f32 0x00000000#32) reducesTo_S4x32x32x512_S_d0_1_2_3 h_S_)
    (constant (F := Ideal) S_ .f32 0x4A000000#32)

/-- The attention part of level 3: from the stylised content `cs`, the normalised content `nc`, the
    l2-normalised queries `qn` and keys `kn` and the style's values `v`, the level's loss. -/
def attn3 (cs nc : FVec Ideal S4x32x32x512 .f32) (qn kn v : FVec Ideal S4x1024x512 .f32) : FVec Ideal S_ .f32 :=
  meanSq3 (err3 cs nc
    (dev3 (weigh3 (rowNorm3 (expShift3 (scores3 qn kn))) v)
      (weigh3 (rowNorm3 (expShift3 (scores3 qn kn))) (mulf v v)))
    (weigh3 (rowNorm3 (expShift3 (scores3 qn kn))) v))

end Cert.ReferenceIdeal.LevelVal

end
-- ==== Proof.Ref.Level3Def.lean ====
/-
  The reference's level-3 loss as a function of the three argument arrays: the attention part applied to the
  normalised content, the l2-normalised queries and keys, and the style's values.
-/
import proofs.«170986_j45183055954173_2_alg».proof.Proof.Ref.Norm3
import proofs.«170986_j45183055954173_2_alg».proof.Proof.Ref.Attn3Def

noncomputable section

namespace Cert.ReferenceIdeal.LevelVal

open Cert.ReferenceIdeal Idealize.ShloMosaic

/-- The level's loss from the stylised content `cs`, the content `c` and the style `s`. -/
def lvl3 (cs c s : FVec Ideal S4x32x32x512 .f32) : FVec Ideal S_ .f32 :=
  attn3 cs (nc3 c) (qn3 c) (kn3 s) (v3 s)

end Cert.ReferenceIdeal.LevelVal

end
-- ==== Proof.Ref.Read3.lean ====
/-
  Level 3 of the reference program read back: what its stages leave in the buffers later stages read, as the
  level's stage functions of what the buffers held before.

  Stage A leaves the normalised content features in `main_v83`, B the normalised style features in `main_v95`, C and D
  their unit rows in `main_v104` and `main_v113`, E the style features as rows in `main_v114`; F computes the level's loss
  `main_v143` from those and the stylised content, and G adds it to the sum of the levels before (`main_v144`).  Each stage's value is the
  fold of its operations read at the buffer it ends in; a stage leaves alone every buffer it does not write, which is
  how a value reaches the stage that reads it.
-/
import proofs.«170986_j45183055954173_2_alg».proof.Proof.Ref.Stages
import proofs.«170986_j45183055954173_2_alg».proof.Proof.Ref.Level3Def

set_option maxRecDepth 8192

noncomputable section

namespace Cert.ReferenceIdeal.Hand

open Cert.ReferenceIdeal Cert.ReferenceIdeal.Gen Cert.ReferenceIdeal.LevelVal Idealize.ShloMosaic Idealize.ShloMosaic.TcCoe Idealize.SL.Sem Idealize.ShloMosaic.StableHlo

/-! ## What each stage computes -/

/-- Stage A ends with the normalised content features. -/
theorem s3A_read (V : Valuation τ sig (Elt Ideal)) :
    after s3A V (Proc.devRef .tc main_v83) = nc3 (V (Proc.devRef .tc main_arg4)) := by
  unfold s3A; simp only [after_append]
  after_results_simp
  rfl

/-- Stage B ends with the normalised style features. -/
theorem s3B_read (V : Valuation τ sig (Elt Ideal)) :
    after s3B V (Proc.devRef .tc main_v95) = ns3 (V (Proc.devRef .tc main_arg7)) := by
  unfold s3B; simp only [after_append]
  after_results_simp
  rfl

/-- Stage C: the normalised content features as rows, each divided by its norm. -/
theorem s3C_read (V : Valuation τ sig (Elt Ideal)) :
    after s3C V (Proc.devRef .tc main_v104) = l2n3 (tok3 (V (Proc.devRef .tc main_v83))) := by
  unfold s3C
  after_results_simp
  rfl

/-- Stage D: the same of the normalised style features. -/
theorem s3D_read (V : Valuation τ sig (Elt Ideal)) :
    after s3D V (Proc.devRef .tc main_v113) = l2n3 (tok3 (V (Proc.devRef .tc main_v95))) := by
  unfold s3D
  after_results_simp
  rfl

/-- Stage E: the style features as rows. -/
theorem s3E_read (V : Valuation τ sig (Elt Ideal)) :
    after s3E V (Proc.devRef .tc main_v114) = tok3 (V (Proc.devRef .tc main_arg7)) := by
  unfold s3E
  after_results_simp
  rfl

/-- Stage F: the level's loss from the stylised content and the four values before. -/
theorem s3F_read (V : Valuation τ sig (Elt Ideal)) :
    after s3F V (Proc.devRef .tc main_v143)
      = attn3 (V (Proc.devRef .tc main_arg1)) (V (Proc.devRef .tc main_v83)) (V (Proc.devRef .tc main_v104)) (V (Proc.devRef .tc main_v113)) (V (Proc.devRef .tc main_v114)) := by
  unfold s3F; simp only [after_append]
  after_results_simp
  rfl

/-- Stage G: the sum with the levels before. -/
theorem s3G_read (V : Valuation τ sig (Elt Ideal)) :
    after s3G V (Proc.devRef .tc main_v144)
      = (addf (V (Proc.devRef .tc main_v71) : FVec Ideal S_ .f32) (V (Proc.devRef .tc main_v143) : FVec Ideal S_ .f32) : FVec Ideal S_ .f32) := by
  unfold s3G
  after_results_simp

/-! ## What each stage leaves alone -/

theorem s3A_keeps : Keeps (main_v71 :: argRefs) (s3A : List (HloOp τ sig (Elt Ideal))) := by
  unfold s3A; exact keeps_append (keeps_of_writes st13_writes (by decide)) (keeps_append (keeps_of_writes st14_writes (by decide)) (keeps_of_writes st15_writes (by decide)))
theorem s3B_keeps : Keeps (main_v83 :: main_v71 :: argRefs) (s3B : List (HloOp τ sig (Elt Ideal))) := by
  unfold s3B; exact keeps_append (keeps_of_writes st16_writes (by decide)) (keeps_append (keeps_of_writes st17_writes (by decide)) (keeps_append (keeps_of_writes st18_writes (by decide)) (keeps_of_writes st19_writes (by decide))))
theorem s3C_keeps : Keeps (main_v83 :: main_v95 :: main_v71 :: argRefs) (s3C : List (HloOp τ sig (Elt Ideal))) := by
  unfold s3C; exact keeps_of_writes st20_writes (by decide)
theorem s3D_keeps : Keeps (main_v83 :: main_v104 :: main_v71 :: argRefs) (s3D : List (HloOp τ sig (Elt Ideal))) := by
  unfold s3D; exact keeps_of_writes st21_writes (by decide)
theorem s3E_keeps : Keeps (main_v83 :: main_v104 :: main_v113 :: main_v71 :: argRefs) (s3E : List (HloOp τ sig (Elt Ideal))) := by
  unfold s3E; exact keeps_of_writes st22_writes (by decide)
theorem s3F_keeps : Keeps (main_v71 :: argRefs) (s3F : List (HloOp τ sig (Elt Ideal))) := by
  unfold s3F; exact keeps_append (keeps_of_writes st23_writes (by decide)) (keeps_append (keeps_of_writes st24_writes (by decide)) (keeps_of_writes st25_writes (by decide)))
theorem s3G_keeps : Keeps argRefs (s3G : List (HloOp τ sig (Elt Ideal))) := by
  unfold s3G; exact keeps_of_writes st26_writes (by decide)

/-! ## The level -/

/-- The level's stages one after the other. -/
theorem after_lev3 (V : Valuation τ sig (Elt Ideal)) :
    after lev3 V = after s3G (after s3F (after s3E (after s3D (after s3C (after s3B (after s3A (V))))))) := by
  unfold lev3
  rw [after_append s3A, after_append s3B, after_append s3C, after_append s3D, after_append s3E, after_append s3F]

/-- Through stage F the level leaves its loss: the level's value of the three arguments. -/
theorem read_v143 (V : Valuation τ sig (Elt Ideal)) :
    after s3F (after s3E (after s3D (after s3C (after s3B (after s3A (V)))))) (Proc.devRef .tc main_v143)
      = lvl3 (V (Proc.devRef .tc main_arg1)) (V (Proc.devRef .tc main_arg4)) (V (Proc.devRef .tc main_arg7)) := by
  rw [s3F_read,
    s3E_keeps _ main_arg1 (by decide), s3E_keeps _ main_v83 (by decide), s3E_keeps _ main_v104 (by decide), s3E_keeps _ main_v113 (by decide), s3E_read,
    s3D_keeps _ main_arg1 (by decide), s3D_keeps _ main_v83 (by decide), s3D_keeps _ main_v104 (by decide), s3D_keeps _ main_arg7 (by decide), s3D_read,
    s3C_keeps _ main_arg1 (by decide), s3C_keeps _ main_v83 (by decide), s3C_keeps _ main_v95 (by decide), s3C_keeps _ main_arg7 (by decide), s3C_read,
    s3B_keeps _ main_arg1 (by decide), s3B_keeps _ main_v83 (by decide), s3B_keeps _ main_arg7 (by decide), s3B_read,
    s3A_keeps _ main_arg1 (by decide), s3A_keeps _ main_arg7 (by decide), s3A_read]
  rfl

/-- The level read at the running sum: what it was before, plus the level's value of the three arguments. -/
theorem read3 (V : Valuation τ sig (Elt Ideal)) :
    after lev3 V (Proc.devRef .tc main_v144)
      = addf (V (Proc.devRef .tc main_v71)) (lvl3 (V (Proc.devRef .tc main_arg1)) (V (Proc.devRef .tc main_arg4)) (V (Proc.devRef .tc main_arg7))) := by
  rw [after_lev3, s3G_read, read_v143, s3F_keeps _ main_v71 (by decide), s3E_keeps _ main_v71 (by decide), s3D_keeps _ main_v71 (by decide), s3C_keeps _ main_v71 (by decide), s3B_keeps _ main_v71 (by decide), s3A_keeps _ main_v71 (by decide)]

/-- The level writes no argument. -/
theorem lev3_keeps : Keeps argRefs (lev3 : List (HloOp τ sig (Elt Ideal))) := by
  unfold lev3
  exact keeps_append (keeps_mono (by decide) s3A_keeps) (keeps_append (keeps_mono (by decide) s3B_keeps) (keeps_append (keeps_mono (by decide) s3C_keeps) (keeps_append (keeps_mono (by decide) s3D_keeps) (keeps_append (keeps_mono (by decide) s3E_keeps) (keeps_append (keeps_mono (by decide) s3F_keeps) ((keeps_mono (by decide) s3G_keeps)))))))

end Cert.ReferenceIdeal.Hand

end
-- ==== Proof.Ref.Norm4.lean ====
/-
  The reference's level-4 values up to the attention, as functions of the argument arrays.

  From a content or style array `x` of shape `[4, 16, 16, 512]` the reference takes, per batch entry and channel, the
  mean over the 16 × 16 positions and the (biased) variance — the sum of the squared deviations over `256 − 0`, chosen
  by a select on `256 − 0 > 0` against a not-a-number constant —, divides the deviations by the root of the variance
  plus epsilon, reads the result as `[4, 256, 512]` (position `t = 16·h + w`), and divides each position's channel
  vector by its euclidean norm floored at the small constant.  Each stage below is spelled with the program's own
  operations, in the program's order.
-/
import proofs.«170986_j45183055954173_2_alg».proof.ReferenceIdeal
import proofs.«170986_j45183055954173_2_alg».proof.Proof.Gen.ReferenceIdeal
import proofs.«170986_j45183055954173_2_alg».proof.Proof.Spec
import proofs.«170986_j45183055954173_2_alg».proof.Proof.Consts
import proofs.«170986_j45183055954173_2_alg».proof.Proof.Arr
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.PureOps.Reduce

noncomputable section

namespace Cert.ReferenceIdeal.LevelVal

open Cert.ReferenceIdeal Cert.ReferenceIdeal.Facts₀ Idealize.ShloMosaic Idealize.ShloMosaic.ValueIdx
open scoped BigOperators

/-! ## The stages, in the program's operations -/

/-- The sum over the positions, per batch entry and channel. -/
def sum4 (x : FVec Ideal S4x16x16x512 .f32) : FVec Ideal S4x512 .f32 :=
  Host.reduceAdd x (constant (F := Ideal) S_ .f32 0x00000000#32) reducesTo_S4x16x16x512_S4x512_d1_2 h_S_

/-- The mean over the positions: the sum over 256. -/
def mean4 (x : FVec Ideal S4x16x16x512 .f32) : FVec Ideal S4x1x1x512 .f32 :=
  Host.divf (broadcastInDim S4x1x1x512 ![0, 3] bcast_S4x512_S4x1x1x512_0_3 (sum4 x))
    (broadcastInDim S4x1x1x512 ![] bcast_S_S4x1x1x512 (constant (F := Ideal) S_ .f32 0x43800000#32))

/-- The deviations from the mean. -/
def cen4 (x : FVec Ideal S4x16x16x512 .f32) : FVec Ideal S4x16x16x512 .f32 :=
  subf x (broadcastInDim S4x16x16x512 ![0, 1, 2, 3] bcast_S4x1x1x512_S4x16x16x512_0_1_2_3 (mean4 x))

/-- The variance's divisor: 256 less the integer 0 converted. -/
def cnt4 : FVec Ideal S_ .f32 :=
  subf (constant (F := Ideal) S_ .f32 0x43800000#32) (sitofp .f32 (constantI S_ 32 0#32))

/-- The sum of the squared deviations. -/
def ssq4 (x : FVec Ideal S4x16x16x512 .f32) : FVec Ideal S4x512 .f32 :=
  Host.reduceAdd (mulf (cen4 x) (cen4 x)) (constant (F := Ideal) S_ .f32 0x00000000#32)
    reducesTo_S4x16x16x512_S4x512_d1_2 h_S_

/-- The variance: the quotient where the divisor is positive, the not-a-number constant elsewhere. -/
def var4 (x : FVec Ideal S4x16x16x512 .f32) : FVec Ideal S4x1x1x512 .f32 :=
  select (broadcastInDim S4x1x1x512 ![] bcast_S_S4x1x1x512 (cmpf .ogt cnt4 (constant (F := Ideal) S_ .f32 0x00000000#32)))
    (Host.divf (broadcastInDim S4x1x1x512 ![0, 3] bcast_S4x512_S4x1x1x512_0_3 (ssq4 x))
      (broadcastInDim S4x1x1x512 ![] bcast_S_S4x1x1x512 cnt4))
    (broadcastInDim S4x1x1x512 ![] bcast_S_S4x1x1x512 (id (constant (F := Ideal) S_ .f32 0x7FC00000#32)))

/-- The standard deviation: the root of the variance plus epsilon. -/
def sd4 (x : FVec Ideal S4x16x16x512 .f32) : FVec Ideal S4x1x1x512 .f32 :=
  Host.sqrt (addf (var4 x)
    (broadcastInDim S4x1x1x512 ![] bcast_S_S4x1x1x512 (constant (F := Ideal) S_ .f32 0x3727C5AC#32)))

/-- The instance normalisation: the deviations over the standard deviation. -/
def inorm4 (x : FVec Ideal S4x16x16x512 .f32) : FVec Ideal S4x16x16x512 .f32 :=
  Host.divf (cen4 x) (broadcastInDim S4x16x16x512 ![0, 1, 2, 3] bcast_S4x1x1x512_S4x16x16x512_0_1_2_3 (sd4 x))

/-- The array read as `[4, 256, 512]`. -/
def tok4 (y : FVec Ideal S4x16x16x512 .f32) : FVec Ideal S4x256x512 .f32 :=
  shapeCast S4x256x512 y shapeCasts_S4x16x16x512_S4x256x512

/-- Each position's euclidean norm over the channels, floored. -/
def norm4 (z : FVec Ideal S4x256x512 .f32) : FVec Ideal S4x256x1 .f32 :=
  maximumf
    (Host.sqrt (broadcastInDim S4x256x1 ![0, 1] bcast_S4x256_S4x256x1_0_1
      (Host.reduceAdd (mulf z z) (constant (F := Ideal) S_ .f32 0x00000000#32) reducesTo_S4x256x512_S4x256_d2 h_S_)))
    (broadcastInDim S4x256x1 ![] bcast_S_S4x256x1 (constant (F := Ideal) S_ .f32 0x2B8CBCCC#32))

/-- Each position's channel vector over its norm. -/
def l2n4 (z : FVec Ideal S4x256x512 .f32) : FVec Ideal S4x256x512 .f32 :=
  Host.divf z (broadcastInDim S4x256x512 ![0, 1, 2] bcast_S4x256x1_S4x256x512_0_1_2 (norm4 z))

/-- The normalised content (four-dimensional), the normalised style, the queries, the keys, the values. -/
def nc4 (c : FVec Ideal S4x16x16x512 .f32) : FVec Ideal S4x16x16x512 .f32 := inorm4 c
def ns4 (s : FVec Ideal S4x16x16x512 .f32) : FVec Ideal S4x16x16x512 .f32 := inorm4 s
def qn4 (c : FVec Ideal S4x16x16x512 .f32) : FVec Ideal S4x256x512 .f32 := l2n4 (tok4 (nc4 c))
def kn4 (s : FVec Ideal S4x16x16x512 .f32) : FVec Ideal S4x256x512 .f32 := l2n4 (tok4 (ns4 s))
def v4 (s : FVec Ideal S4x16x16x512 .f32) : FVec Ideal S4x256x512 .f32 := tok4 s

end Cert.ReferenceIdeal.LevelVal

end
-- ==== Proof.Ref.Attn4Def.lean ====
/-
  The attention part of level 4 of the reference, as a function of five arrays: the stylised content, the
  normalised content (four-dimensional), the l2-normalised queries and keys, and the style's values (tokens
  flattened).  Each stage below is the composition of the program's own operations on that stretch, over variable
  operands; `attn4` composes the stages.
-/
import proofs.«170986_j45183055954173_2_alg».proof.ReferenceIdeal
import proofs.«170986_j45183055954173_2_alg».proof.Proof.Gen.ReferenceIdeal
import Idealize.ShloMosaic.PureOps.Ideal

noncomputable section

namespace Cert.ReferenceIdeal.LevelVal

open Cert.ReferenceIdeal Cert.ReferenceIdeal.Gen Idealize.ShloMosaic

/-- The scores: queries against keys, contracted over the channels. -/
def scores4 (qn kn : FVec Ideal S4x256x512 .f32) : FVec Ideal S4x256x256 .f32 :=
  Host.dotGeneral dot_S4x256x512_S4x256x512_S4x256x256_2_2_1_1_0_0 none qn kn

/-- The largest score of each row: the maximum-reduce from `-∞` over the keys, then the maximum with `-∞`. -/
def rowMax4 (x : FVec Ideal S4x256x256 .f32) : FVec Ideal S4x256 .f32 :=
  maximumf (broadcastInDim S4x256 ![] bcast_S_S4x256 (constant (F := Ideal) S_ .f32 0xFF800000#32))
    (Host.reduce FloatOps.maximumf x (constant (F := Ideal) S_ .f32 0xFF800000#32) reducesTo_S4x256x256_S4x256_d2 h_S_)

/-- The exponentials of the scores less their row's maximum. -/
def expShift4 (x : FVec Ideal S4x256x256 .f32) : FVec Ideal S4x256x256 .f32 :=
  Host.exp (subf x (broadcastInDim S4x256x256 ![0, 1, 2] bcast_S4x256x1_S4x256x256_0_1_2
    (broadcastInDim S4x256x1 ![0, 1] bcast_S4x256_S4x256x1_0_1 (rowMax4 x))))

/-- Each entry divided by its row's sum. -/
def rowNorm4 (e : FVec Ideal S4x256x256 .f32) : FVec Ideal S4x256x256 .f32 :=
  Host.divf e (broadcastInDim S4x256x256 ![0, 1, 2] bcast_S4x256x1_S4x256x256_0_1_2
    (broadcastInDim S4x256x1 ![0, 1] bcast_S4x256_S4x256x1_0_1
      (Host.reduceAdd e (constant (F := Ideal) S_ .f32 0x00000000#32) reducesTo_S4x256x256_S4x256_d2 h_S_)))

/-- The attention weights applied to an array of per-key values. -/
def weigh4 (a : FVec Ideal S4x256x256 .f32) (v : FVec Ideal S4x256x512 .f32) : FVec Ideal S4x256x512 .f32 :=
  Host.dotGeneral dot_S4x256x256_S4x256x512_S4x256x512_2_1_1_2_0_0 none a v

/-- The weighted deviation from the weighted mean `M` and the weighted mean of squares `M2`. -/
def dev4 (M M2 : FVec Ideal S4x256x512 .f32) : FVec Ideal S4x256x512 .f32 :=
  Host.sqrt (addf
    (maximumf (subf M2 (mulf M M)) (broadcastInDim S4x256x512 ![] bcast_S_S4x256x512 (constant (F := Ideal) S_ .f32 0x00000000#32)))
    (broadcastInDim S4x256x512 ![] bcast_S_S4x256x512 (constant (F := Ideal) S_ .f32 0x2B8CBCCC#32)))

/-- The error against the stylised content: `cs - (S · nc + M)`, the token axis unflattened. -/
def err4 (cs nc : FVec Ideal S4x16x16x512 .f32) (S M : FVec Ideal S4x256x512 .f32) : FVec Ideal S4x16x16x512 .f32 :=
  subf cs (addf (mulf (shapeCast S4x16x16x512 S shapeCasts_S4x256x512_S4x16x16x512) nc) (shapeCast S4x16x16x512 M shapeCasts_S4x256x512_S4x16x16x512))

/-- The mean of the squares of an array's entries. -/
def meanSq4 (d : FVec Ideal S4x16x16x512 .f32) : FVec Ideal S_ .f32 :=
  Host.divf (Host.reduceAdd (mulf d d) (constant (F := Ideal) S_ .f32 0x00000000#32) reducesTo_S4x16x16x512_S_d0_1_2_3 h_S_)
    (constant (F := Ideal) S_ .f32 0x49000000#32)

/-- The attention part of level 4: from the stylised content `cs`, the normalised content `nc`, the
    l2-normalised queries `qn` and keys `kn` and the style's values `v`, the level's loss. -/
def attn4 (cs nc : FVec Ideal S4x16x16x512 .f32) (qn kn v : FVec Ideal S4x256x512 .f32) : FVec Ideal S_ .f32 :=
  meanSq4 (err4 cs nc
    (dev4 (weigh4 (rowNorm4 (expShift4 (scores4 qn kn))) v)
      (weigh4 (rowNorm4 (expShift4 (scores4 qn kn))) (mulf v v)))
    (weigh4 (rowNorm4 (expShift4 (scores4 qn kn))) v))

end Cert.ReferenceIdeal.LevelVal

end
-- ==== Proof.Ref.Level4Def.lean ====
/-
  The reference's level-4 loss as a function of the three argument arrays: the attention part applied to the
  normalised content, the l2-normalised queries and keys, and the style's values.
-/
import proofs.«170986_j45183055954173_2_alg».proof.Proof.Ref.Norm4
import proofs.«170986_j45183055954173_2_alg».proof.Proof.Ref.Attn4Def

noncomputable section

namespace Cert.ReferenceIdeal.LevelVal

open Cert.ReferenceIdeal Idealize.ShloMosaic

/-- The level's loss from the stylised content `cs`, the content `c` and the style `s`. -/
def lvl4 (cs c s : FVec Ideal S4x16x16x512 .f32) : FVec Ideal S_ .f32 :=
  attn4 cs (nc4 c) (qn4 c) (kn4 s) (v4 s)

end Cert.ReferenceIdeal.LevelVal

end
-- ==== Proof.Ref.Read4.lean ====
/-
  Level 4 of the reference program read back: what its stages leave in the buffers later stages read, as the
  level's stage functions of what the buffers held before.

  Stage A leaves the normalised content features in `main_v156`, B the normalised style features in `main_v168`, C and D
  their unit rows in `main_v177` and `main_v186`, E the style features as rows in `main_v187`; F computes the level's loss
  `main_v216` from those and the stylised content, and G adds it to the sum of the levels before (`main_v217`).  Each stage's value is the
  fold of its operations read at the buffer it ends in; a stage leaves alone every buffer it does not write, which is
  how a value reaches the stage that reads it.
-/
import proofs.«170986_j45183055954173_2_alg».proof.Proof.Ref.Stages
import proofs.«170986_j45183055954173_2_alg».proof.Proof.Ref.Level4Def

set_option maxRecDepth 8192

noncomputable section

namespace Cert.ReferenceIdeal.Hand

open Cert.ReferenceIdeal Cert.ReferenceIdeal.Gen Cert.ReferenceIdeal.LevelVal Idealize.ShloMosaic Idealize.ShloMosaic.TcCoe Idealize.SL.Sem Idealize.ShloMosaic.StableHlo

/-! ## What each stage computes -/

/-- Stage A ends with the normalised content features. -/
theorem s4A_read (V : Valuation τ sig (Elt Ideal)) :
    after s4A V (Proc.devRef .tc main_v156) = nc4 (V (Proc.devRef .tc main_arg5)) := by
  unfold s4A; simp only [after_append]
  after_results_simp
  rfl

/-- Stage B ends with the normalised style features. -/
theorem s4B_read (V : Valuation τ sig (Elt Ideal)) :
    after s4B V (Proc.devRef .tc main_v168) = ns4 (V (Proc.devRef .tc main_arg8)) := by
  unfold s4B; simp only [after_append]
  after_results_simp
  rfl

/-- Stage C: the normalised content features as rows, each divided by its norm. -/
theorem s4C_read (V : Valuation τ sig (Elt Ideal)) :
    after s4C V (Proc.devRef .tc main_v177) = l2n4 (tok4 (V (Proc.devRef .tc main_v156))) := by
  unfold s4C
  after_results_simp
  rfl

/-- Stage D: the same of the normalised style features. -/
theorem s4D_read (V : Valuation τ sig (Elt Ideal)) :
    after s4D V (Proc.devRef .tc main_v186) = l2n4 (tok4 (V (Proc.devRef .tc main_v168))) := by
  unfold s4D
  after_results_simp
  rfl

/-- Stage E: the style features as rows. -/
theorem s4E_read (V : Valuation τ sig (Elt Ideal)) :
    after s4E V (Proc.devRef .tc main_v187) = tok4 (V (Proc.devRef .tc main_arg8)) := by
  unfold s4E
  after_results_simp
  rfl

/-- Stage F: the level's loss from the stylised content and the four values before. -/
theorem s4F_read (V : Valuation τ sig (Elt Ideal)) :
    after s4F V (Proc.devRef .tc main_v216)
      = attn4 (V (Proc.devRef .tc main_arg2)) (V (Proc.devRef .tc main_v156)) (V (Proc.devRef .tc main_v177)) (V (Proc.devRef .tc main_v186)) (V (Proc.devRef .tc main_v187)) := by
  unfold s4F; simp only [after_append]
  after_results_simp
  rfl

/-- Stage G: the sum with the levels before. -/
theorem s4G_read (V : Valuation τ sig (Elt Ideal)) :
    after s4G V (Proc.devRef .tc main_v217)
      = (addf (V (Proc.devRef .tc main_v144) : FVec Ideal S_ .f32) (V (Proc.devRef .tc main_v216) : FVec Ideal S_ .f32) : FVec Ideal S_ .f32) := by
  unfold s4G
  after_results_simp

/-! ## What each stage leaves alone -/

theorem s4A_keeps : Keeps (main_v144 :: argRefs) (s4A : List (HloOp τ sig (Elt Ideal))) := by
  unfold s4A; exact keeps_append (keeps_of_writes st27_writes (by decide)) (keeps_append (keeps_of_writes st28_writes (by decide)) (keeps_of_writes st29_writes (by decide)))
theorem s4B_keeps : Keeps (main_v156 :: main_v144 :: argRefs) (s4B : List (HloOp τ sig (Elt Ideal))) := by
  unfold s4B; exact keeps_append (keeps_of_writes st30_writes (by decide)) (keeps_append (keeps_of_writes st31_writes (by decide)) (keeps_of_writes st32_writes (by decide)))
theorem s4C_keeps : Keeps (main_v156 :: main_v168 :: main_v144 :: argRefs) (s4C : List (HloOp τ sig (Elt Ideal))) := by
  unfold s4C; exact keeps_of_writes st33_writes (by decide)
theorem s4D_keeps : Keeps (main_v156 :: main_v177 :: main_v144 :: argRefs) (s4D : List (HloOp τ sig (Elt Ideal))) := by
  unfold s4D; exact keeps_of_writes st34_writes (by decide)
theorem s4E_keeps : Keeps (main_v156 :: main_v177 :: main_v186 :: main_v144 :: argRefs) (s4E : List (HloOp τ sig (Elt Ideal))) := by
  unfold s4E; exact keeps_of_writes st35_writes (by decide)
theorem s4F_keeps : Keeps (main_v144 :: argRefs) (s4F : List (HloOp τ sig (Elt Ideal))) := by
  unfold s4F; exact keeps_append (keeps_of_writes st36_writes (by decide)) (keeps_append (keeps_of_writes st37_writes (by decide)) (keeps_append (keeps_of_writes st38_writes (by decide)) (keeps_of_writes st39_writes (by decide))))
theorem s4G_keeps : Keeps argRefs (s4G : List (HloOp τ sig (Elt Ideal))) := by
  unfold s4G; exact keeps_of_writes st40_writes (by decide)

/-! ## The level -/

/-- The level's stages one after the other. -/
theorem after_lev4 (V : Valuation τ sig (Elt Ideal)) :
    after lev4 V = after s4G (after s4F (after s4E (after s4D (after s4C (after s4B (after s4A (V))))))) := by
  unfold lev4
  rw [after_append s4A, after_append s4B, after_append s4C, after_append s4D, after_append s4E, after_append s4F]

/-- Through stage F the level leaves its loss: the level's value of the three arguments. -/
theorem read_v216 (V : Valuation τ sig (Elt Ideal)) :
    after s4F (after s4E (after s4D (after s4C (after s4B (after s4A (V)))))) (Proc.devRef .tc main_v216)
      = lvl4 (V (Proc.devRef .tc main_arg2)) (V (Proc.devRef .tc main_arg5)) (V (Proc.devRef .tc main_arg8)) := by
  rw [s4F_read,
    s4E_keeps _ main_arg2 (by decide), s4E_keeps _ main_v156 (by decide), s4E_keeps _ main_v177 (by decide), s4E_keeps _ main_v186 (by decide), s4E_read,
    s4D_keeps _ main_arg2 (by decide), s4D_keeps _ main_v156 (by decide), s4D_keeps _ main_v177 (by decide), s4D_keeps _ main_arg8 (by decide), s4D_read,
    s4C_keeps _ main_arg2 (by decide), s4C_keeps _ main_v156 (by decide), s4C_keeps _ main_v168 (by decide), s4C_keeps _ main_arg8 (by decide), s4C_read,
    s4B_keeps _ main_arg2 (by decide), s4B_keeps _ main_v156 (by decide), s4B_keeps _ main_arg8 (by decide), s4B_read,
    s4A_keeps _ main_arg2 (by decide), s4A_keeps _ main_arg8 (by decide), s4A_read]
  rfl

/-- The level read at the running sum: what it was before, plus the level's value of the three arguments. -/
theorem read4 (V : Valuation τ sig (Elt Ideal)) :
    after lev4 V (Proc.devRef .tc main_v217)
      = addf (V (Proc.devRef .tc main_v144)) (lvl4 (V (Proc.devRef .tc main_arg2)) (V (Proc.devRef .tc main_arg5)) (V (Proc.devRef .tc main_arg8))) := by
  rw [after_lev4, s4G_read, read_v216, s4F_keeps _ main_v144 (by decide), s4E_keeps _ main_v144 (by decide), s4D_keeps _ main_v144 (by decide), s4C_keeps _ main_v144 (by decide), s4B_keeps _ main_v144 (by decide), s4A_keeps _ main_v144 (by decide)]

/-- The level writes no argument. -/
theorem lev4_keeps : Keeps argRefs (lev4 : List (HloOp τ sig (Elt Ideal))) := by
  unfold lev4
  exact keeps_append (keeps_mono (by decide) s4A_keeps) (keeps_append (keeps_mono (by decide) s4B_keeps) (keeps_append (keeps_mono (by decide) s4C_keeps) (keeps_append (keeps_mono (by decide) s4D_keeps) (keeps_append (keeps_mono (by decide) s4E_keeps) (keeps_append (keeps_mono (by decide) s4F_keeps) ((keeps_mono (by decide) s4G_keeps)))))))

end Cert.ReferenceIdeal.Hand

end
-- ==== Proof.Ref.HostRead.lean ====
/-
  The host's operations on the extended reals read at an index, over arrays `[B, H, W, C]` and `[B, N, C]` of any
  extents: a sum over the two spatial axes, the broadcasts that put a per-(batch, channel) or per-(batch, position)
  statistic back against the array, the reshape of the two spatial axes into one, and a sum over the channels.
-/
import proofs.«170986_j45183055954173_2_alg».proof.Proof.Arr
import Idealize.ShloMosaic.Lib.ValueIdx
import Idealize.ShloMosaic.Lib.Pipeline.Value
import Idealize.ShloMosaic.Lib.IdealHost
import Idealize.ShloMosaic.PureOps.Ideal.Laws
import Idealize.ShloMosaic.PureOps.Reduce

noncomputable section

namespace Cert.HostRead

open Idealize.ShloMosaic Idealize.ShloMosaic.ValueIdx
open scoped BigOperators

variable {B H W C N : ℕ}

/-- A coordinate below `n` is `0` when `n` is one: the form a broadcast's index condition takes. -/
theorem val_eq_ite {n : ℕ} (i : Fin n) : i.val = if n = 1 then 0 else i.val := by
  split_ifs with h
  · have := i.isLt; omega
  · rfl

/-! ## The sum over the two spatial axes -/

/-- Without the two spatial axes a four-dimensional array keeps its first and last. -/
theorem kept_hw : (⟨4, ![B, H, W, C]⟩ : Shape).kept [1, 2] = [0, 3] := rfl

/-- An index of `[B, H, W, C]` drops, with its two spatial coordinates, to `(b, ch)` exactly when its batch and
    channel coordinates are `b` and `ch`. -/
theorem drop_hw_eq_iff (h' : (⟨4, ![B, H, W, C]⟩ : Shape).ReducesTo [1, 2] ⟨2, ![B, C]⟩)
    (i : (⟨4, ![B, H, W, C]⟩ : Shape).Idx) (b : Fin B) (ch : Fin C) :
    h'.drop i = ix2 b ch ↔ (i 0).val = b.val ∧ (i 3).val = ch.val := by
  have e0 : ((h'.drop i 0 : Fin _) : ℕ) = (i 0 : ℕ) :=
    h'.drop_apply_val_of_eq i 0 0 (by rw [kept_hw]; exact Nat.zero_lt_two) rfl
  have e1 : ((h'.drop i 1 : Fin _) : ℕ) = (i 3 : ℕ) :=
    h'.drop_apply_val_of_eq i 1 3 (by rw [kept_hw]; exact Nat.one_lt_two) rfl
  constructor
  · intro e
    rw [e] at e0 e1
    exact ⟨e0.symm, e1.symm⟩
  · rintro ⟨h0, h3⟩
    funext a
    match a with
    | ⟨0, _⟩ => exact Fin.ext (e0.trans h0)
    | ⟨1, _⟩ => exact Fin.ext (e1.trans h3)

/-- The host's sum over the two spatial axes, at `(b, ch)`: the initial value plus the double sum over the rows and
    the columns. -/
theorem hostReduceAdd_hw (h' : (⟨4, ![B, H, W, C]⟩ : Shape).ReducesTo [1, 2] ⟨2, ![B, C]⟩)
    (x : (⟨4, ![B, H, W, C]⟩ : Shape).Idx → EReal) (init : EReal) (b : Fin B) (ch : Fin C) :
    Ideal.hostReduceAdd h' x init (ix2 b ch) = init + ∑ hh : Fin H, ∑ ww : Fin W, x (ix4 b hh ww ch) := by
  unfold Ideal.hostReduceAdd
  congr 1
  refine Eq.trans ?_ (Finset.sum_product' Finset.univ Finset.univ fun (hh : Fin H) (ww : Fin W) => x (ix4 b hh ww ch))
  symm
  refine Finset.sum_bij (fun p _ => ix4 b p.1 p.2 ch) ?_ ?_ ?_ ?_
  · intro p _
    exact Finset.mem_filter.2 ⟨Finset.mem_univ _, (drop_hw_eq_iff h' _ b ch).2 ⟨rfl, rfl⟩⟩
  · intro p _ q _ e
    have e1 := congrArg (fun i : (⟨4, ![B, H, W, C]⟩ : Shape).Idx => i 1) e
    have e2 := congrArg (fun i : (⟨4, ![B, H, W, C]⟩ : Shape).Idx => i 2) e
    exact Prod.ext e1 e2
  · intro i hi
    obtain ⟨h0, h3⟩ := (drop_hw_eq_iff h' i b ch).1 (Finset.mem_filter.1 hi).2
    refine ⟨(i 1, i 2), Finset.mem_product.2 ⟨Finset.mem_univ _, Finset.mem_univ _⟩, ?_⟩
    funext a
    match a with
    | ⟨0, _⟩ => exact Fin.ext h0.symm
    | ⟨1, _⟩ => rfl
    | ⟨2, _⟩ => rfl
    | ⟨3, _⟩ => exact Fin.ext h3.symm
  · intro p _
    rfl

/-- A double sum over rows and columns is the sum over the positions `t = h·W + w`. -/
theorem sum_hw_eq_sum_tok {M : Type*} [AddCommMonoid M] (f : Fin H → Fin W → M) :
    ∑ hh : Fin H, ∑ ww : Fin W, f hh ww = ∑ t : Fin (H * W), f (Arr.hOf t) (Arr.wOf t) := by
  rw [← Fintype.sum_prod_type']
  exact (Equiv.sum_comp finProdFinEquiv.symm fun p : Fin H × Fin W => f p.1 p.2).symm

/-- Position `t` is its row times the row length plus its column. -/
theorem tok_val {H W : ℕ} (t : Fin (H * W)) : t.val = (Arr.hOf t).val * W + (Arr.wOf t).val := by
  show t.val = t.val / W * W + t.val % W
  exact (Nat.div_add_mod' t.val W).symm

/-! ## The broadcasts -/

/-- `[B, C]` put on the first and last axes of `[B, 1, 1, C]`. -/
theorem bcast_bc {α : Type} (h : (⟨2, ![B, C]⟩ : Shape).BroadcastsInDim ⟨4, ![B, 1, 1, C]⟩ ![0, 3])
    (x : (⟨2, ![B, C]⟩ : Shape).Idx → α) (b : Fin B) (u v : Fin 1) (ch : Fin C) :
    broadcastInDim ⟨4, ![B, 1, 1, C]⟩ ![0, 3] h x (ix4 b u v ch) = x (ix2 b ch) :=
  broadcastInDim_apply _ h x _ _ fun a => by
    match a with
    | ⟨0, _⟩ => exact val_eq_ite b
    | ⟨1, _⟩ => exact val_eq_ite ch

/-- `[B, 1, 1, C]` stretched over the rows and the columns of `[B, H, W, C]`. -/
theorem bcast_b11c {α : Type} (h : (⟨4, ![B, 1, 1, C]⟩ : Shape).BroadcastsInDim ⟨4, ![B, H, W, C]⟩ ![0, 1, 2, 3])
    (x : (⟨4, ![B, 1, 1, C]⟩ : Shape).Idx → α) (b : Fin B) (hh : Fin H) (ww : Fin W) (ch : Fin C) :
    broadcastInDim ⟨4, ![B, H, W, C]⟩ ![0, 1, 2, 3] h x (ix4 b hh ww ch) = x (ix4 b (0 : Fin 1) (0 : Fin 1) ch) :=
  broadcastInDim_apply _ h x _ _ fun a => by
    match a with
    | ⟨0, _⟩ => exact val_eq_ite b
    | ⟨1, _⟩ => exact (if_pos rfl).symm
    | ⟨2, _⟩ => exact (if_pos rfl).symm
    | ⟨3, _⟩ => exact val_eq_ite ch

/-- `[B, N]` put on the first two axes of `[B, N, 1]`. -/
theorem bcast_bn {α : Type} (h : (⟨2, ![B, N]⟩ : Shape).BroadcastsInDim ⟨3, ![B, N, 1]⟩ ![0, 1])
    (x : (⟨2, ![B, N]⟩ : Shape).Idx → α) (b : Fin B) (t : Fin N) (u : Fin 1) :
    broadcastInDim ⟨3, ![B, N, 1]⟩ ![0, 1] h x (ix3 b t u) = x (ix2 b t) :=
  broadcastInDim_apply _ h x _ _ fun a => by
    match a with
    | ⟨0, _⟩ => exact val_eq_ite b
    | ⟨1, _⟩ => exact val_eq_ite t

/-- `[B, N, 1]` stretched over the channels of `[B, N, C]`. -/
theorem bcast_bn1 {α : Type} (h : (⟨3, ![B, N, 1]⟩ : Shape).BroadcastsInDim ⟨3, ![B, N, C]⟩ ![0, 1, 2])
    (x : (⟨3, ![B, N, 1]⟩ : Shape).Idx → α) (b : Fin B) (t : Fin N) (ch : Fin C) :
    broadcastInDim ⟨3, ![B, N, C]⟩ ![0, 1, 2] h x (ix3 b t ch) = x (ix3 b t (0 : Fin 1)) :=
  broadcastInDim_apply _ h x _ _ fun a => by
    match a with
    | ⟨0, _⟩ => exact val_eq_ite b
    | ⟨1, _⟩ => exact val_eq_ite t
    | ⟨2, _⟩ => exact (if_pos rfl).symm

/-! ## The reshape of the two spatial axes into one -/

/-- `[B, H, W, C]` read as `[B, N, C]`, `N = H·W`: position `t = h·W + w` reads `(h, w)`. -/
theorem shapeCast_tok {α : Type} (hN : N = H * W) (h : (⟨4, ![B, H, W, C]⟩ : Shape).ShapeCasts ⟨3, ![B, N, C]⟩)
    (x : (⟨4, ![B, H, W, C]⟩ : Shape).Idx → α) (b : Fin B) (t : Fin N) (ch : Fin C) (hh : Fin H) (ww : Fin W)
    (ht : t.val = hh.val * W + ww.val) :
    shapeCast ⟨3, ![B, N, C]⟩ x h (ix3 b t ch) = x (ix4 b hh ww ch) :=
  shapeCast_apply x h _ _ (by
    rw [Shape.rowMajor_val_four, Shape.rowMajor_val_three]
    show ((b.val * H + hh.val) * W + ww.val) * C + ch.val = (b.val * N + t.val) * C + ch.val
    rw [ht, hN]; ring)

/-! ## The sum over the channels -/

/-- The host's sum over the last axis of `[B, N, C]`, at `(b, t)`: the initial value plus the sum over the channels. -/
theorem hostReduceAdd_ch (h' : (⟨3, ![B, N, C]⟩ : Shape).ReducesTo [2] ⟨2, ![B, N]⟩)
    (x : (⟨3, ![B, N, C]⟩ : Shape).Idx → EReal) (init : EReal) (b : Fin B) (t : Fin N) :
    Ideal.hostReduceAdd h' x init (ix2 b t) = init + ∑ ch : Fin C, x (ix3 b t ch) := by
  have h : (⟨3, ![B, N, C]⟩ : Shape).Reduces [2] ⟨2, ![B, N]⟩ := ⟨h'.1, Nat.zero_lt_two, h'.2⟩
  rw [Ideal.hostReduceAdd_single h' h]
  congr 1
  refine Finset.sum_congr rfl fun ch _ => congrArg x ?_
  funext a
  match a with
  | ⟨0, _⟩ => exact Fin.ext rfl
  | ⟨1, _⟩ => exact Fin.ext rfl
  | ⟨2, _⟩ => exact Fin.ext rfl

end Cert.HostRead

end
-- ==== Proof.Ref.Norm2Read.lean ====
/-
  The level-2 stages read at an index.

  At batch entry `b`, position `t = 64·h + w` and channel `ch` each stage is the specification's function of the
  flattened argument: the sum over the two spatial axes is the sum over the positions; the variance's select takes
  its first branch, `4096 − 0` being positive, so the not-a-number constant is never read; the reshape reads
  position `t` at `(h, w)`; the norm is the root of the sum over the channels, floored.
-/
import proofs.«170986_j45183055954173_2_alg».proof.Proof.Ref.Norm2
import proofs.«170986_j45183055954173_2_alg».proof.Proof.Ref.HostRead

noncomputable section

namespace Cert.ReferenceIdeal.LevelVal

open Cert.ReferenceIdeal Cert.ReferenceIdeal.Facts₀ Idealize.ShloMosaic Idealize.ShloMosaic.ValueIdx Cert.HostRead
open scoped BigOperators

/-- The host's root and quotient at an index are the extended reals'. -/
theorem hostSqrt_apply {s : Shape} {φ : FTy} (a : FVec Ideal s φ) (i : s.Idx) : Host.sqrt a i = Ideal.sqrt (a i) := rfl

variable (x : FVec Ideal S4x64x64x256 .f32)

/-! ## The statistics -/

theorem sum2_apply (b : Fin 4) (ch : Fin 256) : sum2 x (ix2 b ch) = ∑ t : Fin (64 * 64), Arr.flat x b t ch := by
  unfold sum2
  rw [hostReduceAdd_apply, constant_apply, hostReduceAdd_hw, Consts.ofBits_zero, zero_add, sum_hw_eq_sum_tok]
  rfl

theorem mean2_apply (b : Fin 4) (u v : Fin 1) (ch : Fin 256) :
    mean2 x (ix4 b u v ch) = Spec.mean 4096 (Arr.flat x) b ch := by
  unfold mean2
  rw [hostDivf_apply, bcast_bc, broadcastInDim_scalar_apply, constant_apply, sum2_apply, Consts.ofBits_4096]
  rfl

theorem cen2_apply (b : Fin 4) (hh ww : Fin 64) (ch : Fin 256) :
    cen2 x (ix4 b hh ww ch) = x (ix4 b hh ww ch) - Spec.mean 4096 (Arr.flat x) b ch := by
  unfold cen2
  rw [subf_apply, bcast_b11c, mean2_apply]

/-- The variance's divisor is 4096: the integer 0 converts to 0. -/
theorem cnt2_apply (i : S_.Idx) : cnt2 i = ((4096 : ℝ) : EReal) := by
  unfold cnt2
  rw [subf_apply, constant_apply, Consts.ofBits_4096]
  show ((4096 : ℝ) : EReal) - ((((0#32 : BitVec 32).toInt : ℤ) : ℝ) : EReal) = _
  simp

/-- So the select's condition holds everywhere. -/
theorem cnt2_pos (j : S4x1x1x256.Idx) :
    broadcastInDim S4x1x1x256 ![] bcast_S_S4x1x1x256 (cmpf .ogt cnt2 (constant (F := Ideal) S_ .f32 0x00000000#32)) j = 1#1 := by
  rw [broadcastInDim_scalar_apply, cmpf_apply, Ideal.cmpf_def, cnt2_apply, constant_apply, Consts.ofBits_zero]
  show BitVec.ofBool (decide ((0 : EReal) < ((4096 : ℝ) : EReal))) = 1#1
  rw [decide_eq_true (EReal.coe_pos.mpr (by norm_num))]
  rfl

theorem ssq2_apply (b : Fin 4) (ch : Fin 256) :
    ssq2 x (ix2 b ch) = ∑ t : Fin (64 * 64), (Arr.flat x b t ch - Spec.mean 4096 (Arr.flat x) b ch)
      * (Arr.flat x b t ch - Spec.mean 4096 (Arr.flat x) b ch) := by
  unfold ssq2
  rw [hostReduceAdd_apply, constant_apply, hostReduceAdd_hw, Consts.ofBits_zero, zero_add, sum_hw_eq_sum_tok]
  refine Finset.sum_congr rfl fun t _ => ?_
  rw [mulf_apply, cen2_apply]
  rfl

theorem var2_apply (b : Fin 4) (u v : Fin 1) (ch : Fin 256) :
    var2 x (ix4 b u v ch) = Spec.var 4096 (Arr.flat x) b ch := by
  unfold var2
  rw [select_apply, cnt2_pos, select_one, hostDivf_apply, bcast_bc, broadcastInDim_scalar_apply, ssq2_apply, cnt2_apply]
  rfl

theorem sd2_apply (b : Fin 4) (u v : Fin 1) (ch : Fin 256) :
    sd2 x (ix4 b u v ch) = Spec.sd Consts.epsR 4096 (Arr.flat x) b ch := by
  unfold sd2
  rw [hostSqrt_apply, addf_apply, var2_apply, broadcastInDim_scalar_apply, constant_apply, Consts.ofBits_eps]
  rfl

/-! ## The instance normalisation, the reshape, the l2 normalisation -/

theorem inorm2_apply (b : Fin 4) (t : Fin (64 * 64)) (ch : Fin 256) :
    inorm2 x (ix4 b (Arr.hOf t) (Arr.wOf t) ch) = Spec.inormR Consts.epsR 4096 (Arr.flat x) b t ch := by
  unfold inorm2
  rw [hostDivf_apply, cen2_apply, bcast_b11c, sd2_apply]
  rfl

theorem tok2_apply (y : FVec Ideal S4x64x64x256 .f32) (b : Fin 4) (t : Fin (64 * 64)) (ch : Fin 256) :
    tok2 y (ix3 b (t : Fin 4096) ch) = Arr.flat y b t ch :=
  shapeCast_tok (N := 4096) (H := 64) (W := 64) (by norm_num) shapeCasts_S4x64x64x256_S4x4096x256 y b t ch
    (Arr.hOf t) (Arr.wOf t) (tok_val t)

theorem norm2_apply (z : FVec Ideal S4x4096x256 .f32) (b : Fin 4) (t : Fin 4096) (u : Fin 1) :
    norm2 z (ix3 b t u)
      = max (Ideal.sqrt (∑ ch : Fin 256, z (ix3 b t ch) * z (ix3 b t ch))) ((Consts.e12R : ℝ) : EReal) := by
  unfold norm2
  rw [maximumf_apply, hostSqrt_apply, bcast_bn, hostReduceAdd_apply, constant_apply, hostReduceAdd_ch,
    Consts.ofBits_zero, zero_add, broadcastInDim_scalar_apply, constant_apply, Consts.ofBits_e12]
  rfl

theorem l2n2_apply (z : FVec Ideal S4x4096x256 .f32) (b : Fin 4) (t : Fin 4096) (ch : Fin 256) :
    l2n2 z (ix3 b t ch) = Spec.l2n Consts.e12R (Arr.cur3 z) b t ch := by
  unfold l2n2
  rw [hostDivf_apply, bcast_bn1, norm2_apply]
  rfl

/-! ## What the attention part takes: the five arrays at an index -/

theorem nc2_apply (c : FVec Ideal S4x64x64x256 .f32) (b : Fin 4) (t : Fin (64 * 64)) (ch : Fin 256) :
    nc2 c (ix4 b (Arr.hOf t) (Arr.wOf t) ch)
      = Spec.inormR Consts.k2.eps Consts.k2.nQ (Arr.flat c) b t ch :=
  inorm2_apply c b t ch

theorem ns2_apply (s : FVec Ideal S4x64x64x256 .f32) (b : Fin 4) (t : Fin (64 * 64)) (ch : Fin 256) :
    ns2 s (ix4 b (Arr.hOf t) (Arr.wOf t) ch)
      = Spec.inormR Consts.k2.eps Consts.k2.nK (Arr.flat s) b t ch :=
  inorm2_apply s b t ch

/-- The reshaped normalised array is the specification's normalisation of the flattened argument. -/
theorem cur3_tok2_inorm2 : Arr.cur3 (tok2 (inorm2 x)) = Spec.inormR Consts.epsR 4096 (Arr.flat x) := by
  funext b t ch
  exact (tok2_apply (inorm2 x) b t ch).trans (inorm2_apply x b t ch)

theorem qn2_apply (c : FVec Ideal S4x64x64x256 .f32) (b : Fin 4) (t : Fin (64 * 64)) (ch : Fin 256) :
    qn2 c (ix3 b (t : Fin 4096) ch)
      = Spec.l2n Consts.k2.e12 (Spec.inormR Consts.k2.eps Consts.k2.nQ (Arr.flat c)) b t ch := by
  unfold qn2 nc2
  rw [l2n2_apply, cur3_tok2_inorm2]
  rfl

theorem kn2_apply (s : FVec Ideal S4x64x64x256 .f32) (b : Fin 4) (t : Fin (64 * 64)) (ch : Fin 256) :
    kn2 s (ix3 b (t : Fin 4096) ch)
      = Spec.l2n Consts.k2.e12 (Spec.inormR Consts.k2.eps Consts.k2.nK (Arr.flat s)) b t ch := by
  unfold kn2 ns2
  rw [l2n2_apply, cur3_tok2_inorm2]
  rfl

theorem v2_apply (s : FVec Ideal S4x64x64x256 .f32) (b : Fin 4) (t : Fin (64 * 64)) (ch : Fin 256) :
    v2 s (ix3 b (t : Fin 4096) ch) = Arr.flat s b t ch :=
  tok2_apply s b t ch

end Cert.ReferenceIdeal.LevelVal

end
-- ==== Proof.Ref.AttnCommon.lean ====
/-
  Host operations read at an index, at the extended reals: the pointwise exponential, root and quotient, and a
  scalar broadcast to any shape.
-/
import proofs.«170986_j45183055954173_2_alg».proof.ReferenceIdeal
import Idealize.ShloMosaic.PureOps.Ideal
import Idealize.ShloMosaic.Lib.ValueIdx
import Idealize.ShloMosaic.Lib.Pipeline.Value

noncomputable section

namespace Cert.ReferenceIdeal.LevelVal

open Cert.ReferenceIdeal Idealize.ShloMosaic Idealize.ShloMosaic.ValueIdx

theorem hostExp_apply {s : Shape} {φ : FTy} (x : FVec Ideal s φ) (i : s.Idx) : Host.exp x i = Ideal.exp (x i) := rfl
theorem hostSqrt_apply {s : Shape} {φ : FTy} (x : FVec Ideal s φ) (i : s.Idx) : Host.sqrt x i = Ideal.sqrt (x i) := rfl
theorem hostDivf_apply {s : Shape} {φ : FTy} (x y : FVec Ideal s φ) (i : s.Idx) :
    Host.divf x y i = Ideal.div (x i) (y i) := rfl

/-- A scalar broadcast to any shape reads the scalar. -/
theorem bcastScalar_apply {t : Shape} (h : S_.BroadcastsInDim t (![] : Fin 0 → Fin t.rank)) (x : S_.Idx → EReal)
    (j : t.Idx) : broadcastInDim t ![] h x j = x ix0 :=
  broadcastInDim_apply _ h x j ix0 (fun a => a.elim0)

end Cert.ReferenceIdeal.LevelVal

end
-- ==== Proof.Ref.Attn2Read.lean ====
/-
  The attention part of level 2 read at an index, stage by stage: each stage of `attn2` at explicit
  coordinates (batch entry, query token, key token, channel) is the corresponding expression of the level's
  specification on the operands' entries.
-/
import proofs.«170986_j45183055954173_2_alg».proof.Proof.Ref.Attn2Def
import proofs.«170986_j45183055954173_2_alg».proof.Proof.Ref.AttnCommon
import proofs.«170986_j45183055954173_2_alg».proof.Proof.Spec
import proofs.«170986_j45183055954173_2_alg».proof.Proof.Consts
import proofs.«170986_j45183055954173_2_alg».proof.Proof.Arr
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.LevelVal

open Cert.ReferenceIdeal Cert.ReferenceIdeal.Gen Idealize.ShloMosaic Idealize.ShloMosaic.ValueIdx
open scoped BigOperators

/-! ## The two contractions -/

/-- A score is the inner product of the query's and the key's channel vectors. -/
theorem scores2_apply (qn kn : FVec Ideal S4x4096x256 .f32) (b : Fin 4) (q m : Fin 4096) :
    scores2 qn kn (ix3 b q m) = ∑ ch : Fin 256, qn (ix3 b q ch) * kn (ix3 b m ch) := by
  show FloatOps.dotGeneral dot_S4x4096x256_S4x4096x256_S4x4096x4096_2_2_1_1_0_0 none .single qn kn (ix3 b q m) = _
  rw [Ideal.dotGeneral_apply, ← Equiv.sum_comp (contrEquiv1 dot_S4x4096x256_S4x4096x256_S4x4096x4096_2_2_1_1_0_0 256 rfl rfl).symm]
  refine Finset.sum_congr rfl fun c _ => ?_
  have c3 := contrEquiv1_symm_val dot_S4x4096x256_S4x4096x256_S4x4096x4096_2_2_1_1_0_0 256 rfl rfl c
  have l3 : dot_S4x4096x256_S4x4096x256_S4x4096x4096_2_2_1_1_0_0.lhsIdx (ix3 b q m) ((contrEquiv1 _ 256 rfl rfl).symm c) = ix3 b q c := by
    funext ax; apply Fin.ext
    match ax with
    | ⟨0, _⟩ => simp [DotDims.lhsIdx, dot_S4x4096x256_S4x4096x256_S4x4096x4096_2_2_1_1_0_0]; rfl
    | ⟨1, _⟩ => simp [DotDims.lhsIdx, dot_S4x4096x256_S4x4096x256_S4x4096x4096_2_2_1_1_0_0]; rfl
    | ⟨2, _⟩ => simp [DotDims.lhsIdx, dot_S4x4096x256_S4x4096x256_S4x4096x4096_2_2_1_1_0_0]; exact c3
  have r3 : dot_S4x4096x256_S4x4096x256_S4x4096x4096_2_2_1_1_0_0.rhsIdx (ix3 b q m) ((contrEquiv1 _ 256 rfl rfl).symm c) = ix3 b m c := by
    funext ax; apply Fin.ext
    match ax with
    | ⟨0, _⟩ => simp [DotDims.rhsIdx, dot_S4x4096x256_S4x4096x256_S4x4096x4096_2_2_1_1_0_0]; rfl
    | ⟨1, _⟩ => simp [DotDims.rhsIdx, dot_S4x4096x256_S4x4096x256_S4x4096x4096_2_2_1_1_0_0]; rfl
    | ⟨2, _⟩ => simp [DotDims.rhsIdx, dot_S4x4096x256_S4x4096x256_S4x4096x4096_2_2_1_1_0_0]; exact c3
  rw [l3, r3]

/-- The weights applied to per-key values: the sum over the keys. -/
theorem weigh2_apply (a : FVec Ideal S4x4096x4096 .f32) (v : FVec Ideal S4x4096x256 .f32) (b : Fin 4) (q : Fin 4096)
    (ch : Fin 256) : weigh2 a v (ix3 b q ch) = ∑ m : Fin 4096, a (ix3 b q m) * v (ix3 b m ch) :=
  StackMember.dotGeneral_stack_apply dot_S4x4096x4096_S4x4096x256_S4x4096x256_2_1_1_2_0_0_wf none a v b q ch

/-! ## Broadcasts at an index -/

/-- A per-row value broadcast along the keys reads the row's value. -/
theorem bcastRow2_apply (y : FVec Ideal S4x4096 .f32) (b : Fin 4) (q m : Fin 4096) :
    broadcastInDim S4x4096x4096 ![0, 1, 2] bcast_S4x4096x1_S4x4096x4096_0_1_2 (broadcastInDim S4x4096x1 ![0, 1] bcast_S4x4096_S4x4096x1_0_1 y) (ix3 b q m)
      = y (ix2 b q) := by
  refine (broadcastInDim_apply _ bcast_S4x4096x1_S4x4096x4096_0_1_2 _ (ix3 b q m) (ix3 b q (0 : Fin 1)) ?_).trans
    (broadcastInDim_apply _ bcast_S4x4096_S4x4096x1_0_1 y (ix3 b q (0 : Fin 1)) (ix2 b q) ?_)
  · intro a
    match a with
    | ⟨0, _⟩ => rfl
    | ⟨1, _⟩ => rfl
    | ⟨2, _⟩ => rfl
  · intro a
    match a with
    | ⟨0, _⟩ => rfl
    | ⟨1, _⟩ => rfl

/-! ## The reductions over the keys -/

/-- The key axis dropped from `[4, 4096, 4096]`. -/
theorem reducesKeys2 : (S4x4096x4096).Reduces [2] S4x4096 := by decide

/-- The index over `(b, q)` with key `m` inserted. -/
theorem liftKeys2 (b : Fin 4) (q m : Fin 4096) : reducesKeys2.lift (ix2 b q) m = ix3 b q m := by
  funext a; apply Fin.ext
  match a with
  | ⟨0, _⟩ => rfl
  | ⟨1, _⟩ => rfl
  | ⟨2, _⟩ => rfl

/-- The maximum-reduce from `-∞` over the keys is the fold of `max` from `⊥`. -/
theorem reduceMaxKeys2_apply (x : FVec Ideal S4x4096x4096 .f32) (b : Fin 4) (q : Fin 4096) :
    Host.reduce FloatOps.maximumf x (constant (F := Ideal) S_ .f32 0xFF800000#32) reducesTo_S4x4096x4096_S4x4096_d2 h_S_ (ix2 b q)
      = Finset.univ.fold max ⊥ (fun m : Fin 4096 => x (ix3 b q m)) := by
  refine (Host.reduce_eq_fold_single FloatOps.maximumf x _ reducesTo_S4x4096x4096_S4x4096_d2 reducesKeys2 h_S_ (ix2 b q)).trans ?_
  rw [constant_apply, Cert.Consts.ofBits_ninf]
  have e : (x ∘ reducesKeys2.lift (ix2 b q)) = fun m : Fin 4096 => x (ix3 b q m) :=
    funext fun m => congrArg x (liftKeys2 b q m)
  rw [e]
  rfl

/-- The row maximum is the fold of `max` from `⊥` over the keys. -/
theorem rowMax2_apply (x : FVec Ideal S4x4096x4096 .f32) (b : Fin 4) (q : Fin 4096) :
    rowMax2 x (ix2 b q) = Finset.univ.fold max ⊥ (fun m : Fin 4096 => x (ix3 b q m)) := by
  unfold rowMax2
  rw [maximumf_apply, bcastScalar_apply, constant_apply, Cert.Consts.ofBits_ninf, max_bot_left, reduceMaxKeys2_apply]

/-- The shifted exponential. -/
theorem expShift2_apply (x : FVec Ideal S4x4096x4096 .f32) (b : Fin 4) (q m : Fin 4096) :
    expShift2 x (ix3 b q m) = Ideal.exp (x (ix3 b q m) - rowMax2 x (ix2 b q)) := by
  unfold expShift2
  rw [hostExp_apply, subf_apply, bcastRow2_apply]

/-- The sum-reduce from zero over the keys is the row's sum. -/
theorem reduceAddKeys2_apply (e : FVec Ideal S4x4096x4096 .f32) (b : Fin 4) (q : Fin 4096) :
    Host.reduceAdd e (constant (F := Ideal) S_ .f32 0x00000000#32) reducesTo_S4x4096x4096_S4x4096_d2 h_S_ (ix2 b q)
      = ∑ m' : Fin 4096, e (ix3 b q m') := by
  refine (Ideal.hostReduceAdd_single reducesTo_S4x4096x4096_S4x4096_d2 reducesKeys2 e _ (ix2 b q)).trans ?_
  rw [constant_apply, Cert.Consts.ofBits_zero, zero_add]
  exact Finset.sum_congr rfl fun m' _ => congrArg e (liftKeys2 b q m')

/-- An entry over its row's sum. -/
theorem rowNorm2_apply (e : FVec Ideal S4x4096x4096 .f32) (b : Fin 4) (q m : Fin 4096) :
    rowNorm2 e (ix3 b q m) = Ideal.div (e (ix3 b q m)) (∑ m' : Fin 4096, e (ix3 b q m')) := by
  unfold rowNorm2
  rw [hostDivf_apply, bcastRow2_apply, reduceAddKeys2_apply]

/-! ## The weighted deviation -/

theorem dev2_apply (M M2 : FVec Ideal S4x4096x256 .f32) (i : (S4x4096x256).Idx) :
    dev2 M M2 i = Cert.Spec.spread Cert.Consts.e12R (M i) (M2 i) := by
  unfold dev2 Cert.Spec.spread
  rw [hostSqrt_apply, addf_apply, maximumf_apply, subf_apply, mulf_apply, bcastScalar_apply, bcastScalar_apply,
    constant_apply, constant_apply, Cert.Consts.ofBits_zero, Cert.Consts.ofBits_e12]

/-! ## The token axis unflattened -/

/-- A `[4, 4096, 256]` array reshaped to `[4, 64, 64, 256]`, read at row `t / 64` and column `t % 64`, is the array
    at token `t`. -/
theorem unflatten2_apply (X : FVec Ideal S4x4096x256 .f32) (b : Fin 4) (t : Fin 4096) (ch : Fin 256) :
    shapeCast S4x64x64x256 X shapeCasts_S4x4096x256_S4x64x64x256 (ix4 b (Cert.Arr.hOf (H := 64) (W := 64) t) (Cert.Arr.wOf (H := 64) (W := 64) t) ch) = X (ix3 b t ch) :=
  shapeCast_apply X shapeCasts_S4x4096x256_S4x64x64x256 _ (ix3 b t ch) (by
    rw [Shape.rowMajor_val_three, Shape.rowMajor_val_four]
    show (b.val * 4096 + t.val) * 256 + ch.val = ((b.val * 64 + t.val / 64) * 64 + t.val % 64) * 256 + ch.val
    omega)

/-- The error at a token. -/
theorem err2_apply (cs nc : FVec Ideal S4x64x64x256 .f32) (S M : FVec Ideal S4x4096x256 .f32) (b : Fin 4) (t : Fin 4096)
    (ch : Fin 256) :
    err2 cs nc S M (ix4 b (Cert.Arr.hOf (H := 64) (W := 64) t) (Cert.Arr.wOf (H := 64) (W := 64) t) ch)
      = cs (ix4 b (Cert.Arr.hOf (H := 64) (W := 64) t) (Cert.Arr.wOf (H := 64) (W := 64) t) ch) - (S (ix3 b t ch) * nc (ix4 b (Cert.Arr.hOf (H := 64) (W := 64) t) (Cert.Arr.wOf (H := 64) (W := 64) t) ch) + M (ix3 b t ch)) := by
  unfold err2
  rw [subf_apply, addf_apply, mulf_apply, unflatten2_apply, unflatten2_apply]

/-- The indices of `[4, 64, 64, 256]` are the triples (batch entry, token, channel). -/
def flatEquiv2 : (S4x64x64x256).Idx ≃ Fin 4 × Fin 4096 × Fin 256 where
  toFun i := (i 0, ⟨(i 1).val * 64 + (i 2).val, by
    have h1 : (i 1).val < 64 := (i 1).isLt
    have h2 : (i 2).val < 64 := (i 2).isLt
    omega⟩, i 3)
  invFun p := ix4 p.1 (Cert.Arr.hOf (H := 64) (W := 64) p.2.1) (Cert.Arr.wOf (H := 64) (W := 64) p.2.1) p.2.2
  left_inv i := by
    have h1 : (i 1).val < 64 := (i 1).isLt
    have h2 : (i 2).val < 64 := (i 2).isLt
    funext a; apply Fin.ext
    match a with
    | ⟨0, _⟩ => rfl
    | ⟨1, _⟩ =>
      show ((i 1).val * 64 + (i 2).val) / 64 = (i 1).val
      omega
    | ⟨2, _⟩ =>
      show ((i 1).val * 64 + (i 2).val) % 64 = (i 2).val
      omega
    | ⟨3, _⟩ => rfl
  right_inv p := by
    obtain ⟨b, t, ch⟩ := p
    refine Prod.ext rfl (Prod.ext (Fin.ext ?_) rfl)
    show t.val / 64 * 64 + t.val % 64 = t.val
    omega

/-- A sum over `[4, 64, 64, 256]` is the triple sum over batch entries, tokens and channels. -/
theorem sum_flat2 (f : (S4x64x64x256).Idx → EReal) :
    ∑ i, f i = ∑ b : Fin 4, ∑ t : Fin 4096, ∑ ch : Fin 256, f (ix4 b (Cert.Arr.hOf (H := 64) (W := 64) t) (Cert.Arr.wOf (H := 64) (W := 64) t) ch) := by
  rw [← Equiv.sum_comp flatEquiv2.symm f, Fintype.sum_prod_type]
  refine Finset.sum_congr rfl fun b _ => ?_
  rw [Fintype.sum_prod_type]
  exact Finset.sum_congr rfl fun t _ => Finset.sum_congr rfl fun ch _ => rfl

/-- The mean of squares: the triple sum of the squares over the number of elements. -/
theorem meanSq2_apply (d : FVec Ideal S4x64x64x256 .f32) :
    meanSq2 d ix0 = Ideal.div (∑ b : Fin 4, ∑ t : Fin 4096, ∑ ch : Fin 256, d (ix4 b (Cert.Arr.hOf (H := 64) (W := 64) t) (Cert.Arr.wOf (H := 64) (W := 64) t) ch) * d (ix4 b (Cert.Arr.hOf (H := 64) (W := 64) t) (Cert.Arr.wOf (H := 64) (W := 64) t) ch))
      ((4194304 : ℝ) : EReal) := by
  unfold meanSq2
  rw [hostDivf_apply, constant_apply, Cert.Consts.ofBits_4194304]
  refine congrArg (fun z => Ideal.div z _) ?_
  refine (Ideal.hostReduceAdd_total reducesTo_S4x64x64x256_S_d0_1_2_3 (fun b => b.elim0) (mulf d d) _ ix0).trans ?_
  rw [constant_apply, Cert.Consts.ofBits_zero, zero_add, sum_flat2]
  exact Finset.sum_congr rfl fun b _ => Finset.sum_congr rfl fun t _ => Finset.sum_congr rfl fun ch _ => rfl

end Cert.ReferenceIdeal.LevelVal

end
-- ==== Proof.Ref.Attn2.lean ====
/-
  The attention part of level 2 of the reference is the level's loss of the specification: on operand arrays that
  are, entry by entry, the specification's normalised content, l2-normalised queries and keys and style values, every
  stage of `attn2` is the specification's stage (scores, row maximum, shifted exponentials, softmax weights,
  weighted means, weighted deviation, transferred feature), and the mean of the squared errors is `Spec.lossR`.
-/
import proofs.«170986_j45183055954173_2_alg».proof.Proof.Ref.Attn2Read

noncomputable section

namespace Cert.ReferenceIdeal.LevelVal

open Cert.ReferenceIdeal Cert.ReferenceIdeal.Gen Idealize.ShloMosaic Idealize.ShloMosaic.ValueIdx
open scoped BigOperators

/-! ## The stages on the specification's operands

The five operand arrays are, entry by entry, the stylised content, the normalised content, the l2-normalised
queries and keys and the style's values of the specification at curried arrays `Cc`, `Cs` (tokens flattened). -/

section Level

variable (cs nc : FVec Ideal S4x64x64x256 .f32) (qn kn v : FVec Ideal S4x4096x256 .f32)
  (Cc Cs : Fin 4 → Fin 4096 → Fin 256 → EReal)
  (hnc : ∀ (b : Fin 4) (t : Fin 4096) (ch : Fin 256),
    nc (ix4 b (Cert.Arr.hOf (H := 64) (W := 64) t) (Cert.Arr.wOf (H := 64) (W := 64) t) ch) = Cert.Spec.inormR Cert.Consts.k2.eps Cert.Consts.k2.nQ Cc b t ch)
  (hqn : ∀ (b : Fin 4) (t : Fin 4096) (ch : Fin 256),
    qn (ix3 b t ch) = Cert.Spec.l2n Cert.Consts.k2.e12 (Cert.Spec.inormR Cert.Consts.k2.eps Cert.Consts.k2.nQ Cc) b t ch)
  (hkn : ∀ (b : Fin 4) (t : Fin 4096) (ch : Fin 256),
    kn (ix3 b t ch) = Cert.Spec.l2n Cert.Consts.k2.e12 (Cert.Spec.inormR Cert.Consts.k2.eps Cert.Consts.k2.nK Cs) b t ch)
  (hv : ∀ (b : Fin 4) (t : Fin 4096) (ch : Fin 256), v (ix3 b t ch) = Cs b t ch)

include hqn hkn in
theorem scores2_spec (b : Fin 4) (q m : Fin 4096) :
    scores2 qn kn (ix3 b q m) = Cert.Spec.scoreR Cert.Consts.k2 Cc Cs b q m := by
  rw [scores2_apply]
  unfold Cert.Spec.scoreR Cert.Spec.score
  exact Finset.sum_congr rfl fun ch _ => by rw [hqn, hkn]

include hqn hkn in
theorem rowMax2_spec (b : Fin 4) (q : Fin 4096) :
    rowMax2 (scores2 qn kn) (ix2 b q) = Cert.Spec.rowMaxR Cert.Consts.k2 Cc Cs b q := by
  rw [rowMax2_apply]
  unfold Cert.Spec.rowMaxR
  have e : (fun m : Fin 4096 => scores2 qn kn (ix3 b q m)) = fun m => Cert.Spec.scoreR Cert.Consts.k2 Cc Cs b q m :=
    funext fun m => scores2_spec qn kn Cc Cs hqn hkn b q m
  rw [e]

include hqn hkn in
theorem expShift2_spec (b : Fin 4) (q m : Fin 4096) :
    expShift2 (scores2 qn kn) (ix3 b q m) = Cert.Spec.expR Cert.Consts.k2 Cc Cs b q m := by
  rw [expShift2_apply, scores2_spec qn kn Cc Cs hqn hkn, rowMax2_spec qn kn Cc Cs hqn hkn]
  rfl

include hqn hkn in
theorem rowNorm2_spec (b : Fin 4) (q m : Fin 4096) :
    rowNorm2 (expShift2 (scores2 qn kn)) (ix3 b q m) = Cert.Spec.attnR Cert.Consts.k2 Cc Cs b q m := by
  rw [rowNorm2_apply, expShift2_spec qn kn Cc Cs hqn hkn]
  unfold Cert.Spec.attnR
  refine congrArg (Ideal.div _) ?_
  exact Finset.sum_congr rfl fun m' _ => expShift2_spec qn kn Cc Cs hqn hkn b q m'

include hqn hkn hv in
theorem mean2_spec (b : Fin 4) (q : Fin 4096) (ch : Fin 256) :
    weigh2 (rowNorm2 (expShift2 (scores2 qn kn))) v (ix3 b q ch) = Cert.Spec.meanR Cert.Consts.k2 Cc Cs b q ch := by
  rw [weigh2_apply]
  unfold Cert.Spec.meanR
  exact Finset.sum_congr rfl fun m _ => by rw [rowNorm2_spec qn kn Cc Cs hqn hkn, hv]

include hqn hkn hv in
theorem mean22_spec (b : Fin 4) (q : Fin 4096) (ch : Fin 256) :
    weigh2 (rowNorm2 (expShift2 (scores2 qn kn))) (mulf v v) (ix3 b q ch)
      = Cert.Spec.mean2R Cert.Consts.k2 Cc Cs b q ch := by
  rw [weigh2_apply]
  unfold Cert.Spec.mean2R
  exact Finset.sum_congr rfl fun m _ => by rw [rowNorm2_spec qn kn Cc Cs hqn hkn, mulf_apply, hv]

include hnc hqn hkn hv in
theorem err2_spec (b : Fin 4) (t : Fin 4096) (ch : Fin 256) :
    err2 cs nc
        (dev2 (weigh2 (rowNorm2 (expShift2 (scores2 qn kn))) v)
          (weigh2 (rowNorm2 (expShift2 (scores2 qn kn))) (mulf v v)))
        (weigh2 (rowNorm2 (expShift2 (scores2 qn kn))) v) (ix4 b (Cert.Arr.hOf (H := 64) (W := 64) t) (Cert.Arr.wOf (H := 64) (W := 64) t) ch)
      = cs (ix4 b (Cert.Arr.hOf (H := 64) (W := 64) t) (Cert.Arr.wOf (H := 64) (W := 64) t) ch) - Cert.Spec.aatR Cert.Consts.k2 Cc Cs b t ch := by
  rw [err2_apply, dev2_apply, mean2_spec qn kn v Cc Cs hqn hkn hv, mean22_spec qn kn v Cc Cs hqn hkn hv, hnc]
  rfl

include hnc hqn hkn hv in
/-- The attention part of level 2 is the reference's loss of the level (tokens as `Fin 4096`). -/
theorem attn2_eq_tok :
    attn2 cs nc qn kn v ix0
      = Cert.Spec.lossR Cert.Consts.k2 (fun (b : Fin 4) (t : Fin 4096) (ch : Fin 256) => cs (ix4 b (Cert.Arr.hOf (H := 64) (W := 64) t) (Cert.Arr.wOf (H := 64) (W := 64) t) ch)) Cc Cs := by
  unfold attn2
  rw [meanSq2_apply]
  unfold Cert.Spec.lossR
  refine congrArg (fun z => Ideal.div z _) ?_
  exact Finset.sum_congr rfl fun b _ => Finset.sum_congr rfl fun t _ => Finset.sum_congr rfl fun ch _ => by
    rw [err2_spec cs nc qn kn v Cc Cs hnc hqn hkn hv]

end Level

/-- The attention part of level 2 is the reference's loss of the level, on the flattened stylised content. -/
theorem attn2_eq (cs nc : FVec Ideal S4x64x64x256 .f32) (qn kn v : FVec Ideal S4x4096x256 .f32)
    (Cc Cs : Fin 4 → Fin (64 * 64) → Fin 256 → EReal)
    (hnc : ∀ b t ch, nc (ix4 b (Cert.Arr.hOf t) (Cert.Arr.wOf t) ch) = Cert.Spec.inormR Cert.Consts.k2.eps Cert.Consts.k2.nQ Cc b t ch)
    (hqn : ∀ b t ch, qn (ix3 b (t : Fin 4096) ch)
      = Cert.Spec.l2n Cert.Consts.k2.e12 (Cert.Spec.inormR Cert.Consts.k2.eps Cert.Consts.k2.nQ Cc) b t ch)
    (hkn : ∀ b t ch, kn (ix3 b (t : Fin 4096) ch)
      = Cert.Spec.l2n Cert.Consts.k2.e12 (Cert.Spec.inormR Cert.Consts.k2.eps Cert.Consts.k2.nK Cs) b t ch)
    (hv : ∀ b t ch, v (ix3 b (t : Fin 4096) ch) = Cs b t ch) :
    attn2 cs nc qn kn v ix0 = Cert.Spec.lossR Cert.Consts.k2 (Cert.Arr.flat cs) Cc Cs :=
  attn2_eq_tok cs nc qn kn v Cc Cs hnc hqn hkn hv

end Cert.ReferenceIdeal.LevelVal

end
-- ==== Proof.Ref.Level2.lean ====
/-
  The reference's level-2 loss is the specification's: the attention part's reading, at the five arrays the
  normalisation stages produce.
-/
import proofs.«170986_j45183055954173_2_alg».proof.Proof.Ref.Level2Def
import proofs.«170986_j45183055954173_2_alg».proof.Proof.Ref.Norm2Read
import proofs.«170986_j45183055954173_2_alg».proof.Proof.Ref.Attn2

noncomputable section

namespace Cert.ReferenceIdeal.LevelVal

open Cert.ReferenceIdeal Idealize.ShloMosaic Idealize.ShloMosaic.ValueIdx

/-- The level's loss, read: the specification's loss of the flattened arguments. -/
theorem lvl2_eq (cs c s : FVec Ideal S4x64x64x256 .f32) :
    lvl2 cs c s ValueIdx.ix0
      = Cert.Spec.lossR Cert.Consts.k2 (Cert.Arr.flat cs) (Cert.Arr.flat c) (Cert.Arr.flat s) :=
  attn2_eq cs (nc2 c) (qn2 c) (kn2 s) (v2 s) (Cert.Arr.flat c) (Cert.Arr.flat s)
    (nc2_apply c) (qn2_apply c) (kn2_apply s) (v2_apply s)

end Cert.ReferenceIdeal.LevelVal

end
-- ==== Proof.Ref.Norm3Read.lean ====
/-
  The level-3 stages read at an index.

  At batch entry `b`, position `t = 32·h + w` and channel `ch` each stage is the specification's function of the
  flattened argument: the sum over the two spatial axes is the sum over the positions; the variance's select takes
  its first branch, `1024 − 0` being positive, so the not-a-number constant is never read; the reshape reads
  position `t` at `(h, w)`; the norm is the root of the sum over the channels, floored.
-/
import proofs.«170986_j45183055954173_2_alg».proof.Proof.Ref.Norm3
import proofs.«170986_j45183055954173_2_alg».proof.Proof.Ref.HostRead

noncomputable section

namespace Cert.ReferenceIdeal.LevelVal

open Cert.ReferenceIdeal Cert.ReferenceIdeal.Facts₀ Idealize.ShloMosaic Idealize.ShloMosaic.ValueIdx Cert.HostRead
open scoped BigOperators

/-- The host's root and quotient at an index are the extended reals'. -/
theorem hostSqrt_apply {s : Shape} {φ : FTy} (a : FVec Ideal s φ) (i : s.Idx) : Host.sqrt a i = Ideal.sqrt (a i) := rfl

variable (x : FVec Ideal S4x32x32x512 .f32)

/-! ## The statistics -/

theorem sum3_apply (b : Fin 4) (ch : Fin 512) : sum3 x (ix2 b ch) = ∑ t : Fin (32 * 32), Arr.flat x b t ch := by
  unfold sum3
  rw [hostReduceAdd_apply, constant_apply, hostReduceAdd_hw, Consts.ofBits_zero, zero_add, sum_hw_eq_sum_tok]
  rfl

theorem mean3_apply (b : Fin 4) (u v : Fin 1) (ch : Fin 512) :
    mean3 x (ix4 b u v ch) = Spec.mean 1024 (Arr.flat x) b ch := by
  unfold mean3
  rw [hostDivf_apply, bcast_bc, broadcastInDim_scalar_apply, constant_apply, sum3_apply, Consts.ofBits_1024]
  rfl

theorem cen3_apply (b : Fin 4) (hh ww : Fin 32) (ch : Fin 512) :
    cen3 x (ix4 b hh ww ch) = x (ix4 b hh ww ch) - Spec.mean 1024 (Arr.flat x) b ch := by
  unfold cen3
  rw [subf_apply, bcast_b11c, mean3_apply]

/-- The variance's divisor is 1024: the integer 0 converts to 0. -/
theorem cnt3_apply (i : S_.Idx) : cnt3 i = ((1024 : ℝ) : EReal) := by
  unfold cnt3
  rw [subf_apply, constant_apply, Consts.ofBits_1024]
  show ((1024 : ℝ) : EReal) - ((((0#32 : BitVec 32).toInt : ℤ) : ℝ) : EReal) = _
  simp

/-- So the select's condition holds everywhere. -/
theorem cnt3_pos (j : S4x1x1x512.Idx) :
    broadcastInDim S4x1x1x512 ![] bcast_S_S4x1x1x512 (cmpf .ogt cnt3 (constant (F := Ideal) S_ .f32 0x00000000#32)) j = 1#1 := by
  rw [broadcastInDim_scalar_apply, cmpf_apply, Ideal.cmpf_def, cnt3_apply, constant_apply, Consts.ofBits_zero]
  show BitVec.ofBool (decide ((0 : EReal) < ((1024 : ℝ) : EReal))) = 1#1
  rw [decide_eq_true (EReal.coe_pos.mpr (by norm_num))]
  rfl

theorem ssq3_apply (b : Fin 4) (ch : Fin 512) :
    ssq3 x (ix2 b ch) = ∑ t : Fin (32 * 32), (Arr.flat x b t ch - Spec.mean 1024 (Arr.flat x) b ch)
      * (Arr.flat x b t ch - Spec.mean 1024 (Arr.flat x) b ch) := by
  unfold ssq3
  rw [hostReduceAdd_apply, constant_apply, hostReduceAdd_hw, Consts.ofBits_zero, zero_add, sum_hw_eq_sum_tok]
  refine Finset.sum_congr rfl fun t _ => ?_
  rw [mulf_apply, cen3_apply]
  rfl

theorem var3_apply (b : Fin 4) (u v : Fin 1) (ch : Fin 512) :
    var3 x (ix4 b u v ch) = Spec.var 1024 (Arr.flat x) b ch := by
  unfold var3
  rw [select_apply, cnt3_pos, select_one, hostDivf_apply, bcast_bc, broadcastInDim_scalar_apply, ssq3_apply, cnt3_apply]
  rfl

theorem sd3_apply (b : Fin 4) (u v : Fin 1) (ch : Fin 512) :
    sd3 x (ix4 b u v ch) = Spec.sd Consts.epsR 1024 (Arr.flat x) b ch := by
  unfold sd3
  rw [hostSqrt_apply, addf_apply, var3_apply, broadcastInDim_scalar_apply, constant_apply, Consts.ofBits_eps]
  rfl

/-! ## The instance normalisation, the reshape, the l2 normalisation -/

theorem inorm3_apply (b : Fin 4) (t : Fin (32 * 32)) (ch : Fin 512) :
    inorm3 x (ix4 b (Arr.hOf t) (Arr.wOf t) ch) = Spec.inormR Consts.epsR 1024 (Arr.flat x) b t ch := by
  unfold inorm3
  rw [hostDivf_apply, cen3_apply, bcast_b11c, sd3_apply]
  rfl

theorem tok3_apply (y : FVec Ideal S4x32x32x512 .f32) (b : Fin 4) (t : Fin (32 * 32)) (ch : Fin 512) :
    tok3 y (ix3 b (t : Fin 1024) ch) = Arr.flat y b t ch :=
  shapeCast_tok (N := 1024) (H := 32) (W := 32) (by norm_num) shapeCasts_S4x32x32x512_S4x1024x512 y b t ch
    (Arr.hOf t) (Arr.wOf t) (tok_val t)

theorem norm3_apply (z : FVec Ideal S4x1024x512 .f32) (b : Fin 4) (t : Fin 1024) (u : Fin 1) :
    norm3 z (ix3 b t u)
      = max (Ideal.sqrt (∑ ch : Fin 512, z (ix3 b t ch) * z (ix3 b t ch))) ((Consts.e12R : ℝ) : EReal) := by
  unfold norm3
  rw [maximumf_apply, hostSqrt_apply, bcast_bn, hostReduceAdd_apply, constant_apply, hostReduceAdd_ch,
    Consts.ofBits_zero, zero_add, broadcastInDim_scalar_apply, constant_apply, Consts.ofBits_e12]
  rfl

theorem l2n3_apply (z : FVec Ideal S4x1024x512 .f32) (b : Fin 4) (t : Fin 1024) (ch : Fin 512) :
    l2n3 z (ix3 b t ch) = Spec.l2n Consts.e12R (Arr.cur3 z) b t ch := by
  unfold l2n3
  rw [hostDivf_apply, bcast_bn1, norm3_apply]
  rfl

/-! ## What the attention part takes: the five arrays at an index -/

theorem nc3_apply (c : FVec Ideal S4x32x32x512 .f32) (b : Fin 4) (t : Fin (32 * 32)) (ch : Fin 512) :
    nc3 c (ix4 b (Arr.hOf t) (Arr.wOf t) ch)
      = Spec.inormR Consts.k3.eps Consts.k3.nQ (Arr.flat c) b t ch :=
  inorm3_apply c b t ch

theorem ns3_apply (s : FVec Ideal S4x32x32x512 .f32) (b : Fin 4) (t : Fin (32 * 32)) (ch : Fin 512) :
    ns3 s (ix4 b (Arr.hOf t) (Arr.wOf t) ch)
      = Spec.inormR Consts.k3.eps Consts.k3.nK (Arr.flat s) b t ch :=
  inorm3_apply s b t ch

/-- The reshaped normalised array is the specification's normalisation of the flattened argument. -/
theorem cur3_tok3_inorm3 : Arr.cur3 (tok3 (inorm3 x)) = Spec.inormR Consts.epsR 1024 (Arr.flat x) := by
  funext b t ch
  exact (tok3_apply (inorm3 x) b t ch).trans (inorm3_apply x b t ch)

theorem qn3_apply (c : FVec Ideal S4x32x32x512 .f32) (b : Fin 4) (t : Fin (32 * 32)) (ch : Fin 512) :
    qn3 c (ix3 b (t : Fin 1024) ch)
      = Spec.l2n Consts.k3.e12 (Spec.inormR Consts.k3.eps Consts.k3.nQ (Arr.flat c)) b t ch := by
  unfold qn3 nc3
  rw [l2n3_apply, cur3_tok3_inorm3]
  rfl

theorem kn3_apply (s : FVec Ideal S4x32x32x512 .f32) (b : Fin 4) (t : Fin (32 * 32)) (ch : Fin 512) :
    kn3 s (ix3 b (t : Fin 1024) ch)
      = Spec.l2n Consts.k3.e12 (Spec.inormR Consts.k3.eps Consts.k3.nK (Arr.flat s)) b t ch := by
  unfold kn3 ns3
  rw [l2n3_apply, cur3_tok3_inorm3]
  rfl

theorem v3_apply (s : FVec Ideal S4x32x32x512 .f32) (b : Fin 4) (t : Fin (32 * 32)) (ch : Fin 512) :
    v3 s (ix3 b (t : Fin 1024) ch) = Arr.flat s b t ch :=
  tok3_apply s b t ch

end Cert.ReferenceIdeal.LevelVal

end
-- ==== Proof.Ref.Attn3Read.lean ====
/-
  The attention part of level 3 read at an index, stage by stage: each stage of `attn3` at explicit
  coordinates (batch entry, query token, key token, channel) is the corresponding expression of the level's
  specification on the operands' entries.
-/
import proofs.«170986_j45183055954173_2_alg».proof.Proof.Ref.Attn3Def
import proofs.«170986_j45183055954173_2_alg».proof.Proof.Ref.AttnCommon
import proofs.«170986_j45183055954173_2_alg».proof.Proof.Spec
import proofs.«170986_j45183055954173_2_alg».proof.Proof.Consts
import proofs.«170986_j45183055954173_2_alg».proof.Proof.Arr
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.LevelVal

open Cert.ReferenceIdeal Cert.ReferenceIdeal.Gen Idealize.ShloMosaic Idealize.ShloMosaic.ValueIdx
open scoped BigOperators

/-! ## The two contractions -/

/-- A score is the inner product of the query's and the key's channel vectors. -/
theorem scores3_apply (qn kn : FVec Ideal S4x1024x512 .f32) (b : Fin 4) (q m : Fin 1024) :
    scores3 qn kn (ix3 b q m) = ∑ ch : Fin 512, qn (ix3 b q ch) * kn (ix3 b m ch) := by
  show FloatOps.dotGeneral dot_S4x1024x512_S4x1024x512_S4x1024x1024_2_2_1_1_0_0 none .single qn kn (ix3 b q m) = _
  rw [Ideal.dotGeneral_apply, ← Equiv.sum_comp (contrEquiv1 dot_S4x1024x512_S4x1024x512_S4x1024x1024_2_2_1_1_0_0 512 rfl rfl).symm]
  refine Finset.sum_congr rfl fun c _ => ?_
  have c3 := contrEquiv1_symm_val dot_S4x1024x512_S4x1024x512_S4x1024x1024_2_2_1_1_0_0 512 rfl rfl c
  have l3 : dot_S4x1024x512_S4x1024x512_S4x1024x1024_2_2_1_1_0_0.lhsIdx (ix3 b q m) ((contrEquiv1 _ 512 rfl rfl).symm c) = ix3 b q c := by
    funext ax; apply Fin.ext
    match ax with
    | ⟨0, _⟩ => simp [DotDims.lhsIdx, dot_S4x1024x512_S4x1024x512_S4x1024x1024_2_2_1_1_0_0]; rfl
    | ⟨1, _⟩ => simp [DotDims.lhsIdx, dot_S4x1024x512_S4x1024x512_S4x1024x1024_2_2_1_1_0_0]; rfl
    | ⟨2, _⟩ => simp [DotDims.lhsIdx, dot_S4x1024x512_S4x1024x512_S4x1024x1024_2_2_1_1_0_0]; exact c3
  have r3 : dot_S4x1024x512_S4x1024x512_S4x1024x1024_2_2_1_1_0_0.rhsIdx (ix3 b q m) ((contrEquiv1 _ 512 rfl rfl).symm c) = ix3 b m c := by
    funext ax; apply Fin.ext
    match ax with
    | ⟨0, _⟩ => simp [DotDims.rhsIdx, dot_S4x1024x512_S4x1024x512_S4x1024x1024_2_2_1_1_0_0]; rfl
    | ⟨1, _⟩ => simp [DotDims.rhsIdx, dot_S4x1024x512_S4x1024x512_S4x1024x1024_2_2_1_1_0_0]; rfl
    | ⟨2, _⟩ => simp [DotDims.rhsIdx, dot_S4x1024x512_S4x1024x512_S4x1024x1024_2_2_1_1_0_0]; exact c3
  rw [l3, r3]

/-- The weights applied to per-key values: the sum over the keys. -/
theorem weigh3_apply (a : FVec Ideal S4x1024x1024 .f32) (v : FVec Ideal S4x1024x512 .f32) (b : Fin 4) (q : Fin 1024)
    (ch : Fin 512) : weigh3 a v (ix3 b q ch) = ∑ m : Fin 1024, a (ix3 b q m) * v (ix3 b m ch) :=
  StackMember.dotGeneral_stack_apply dot_S4x1024x1024_S4x1024x512_S4x1024x512_2_1_1_2_0_0_wf none a v b q ch

/-! ## Broadcasts at an index -/

/-- A per-row value broadcast along the keys reads the row's value. -/
theorem bcastRow3_apply (y : FVec Ideal S4x1024 .f32) (b : Fin 4) (q m : Fin 1024) :
    broadcastInDim S4x1024x1024 ![0, 1, 2] bcast_S4x1024x1_S4x1024x1024_0_1_2 (broadcastInDim S4x1024x1 ![0, 1] bcast_S4x1024_S4x1024x1_0_1 y) (ix3 b q m)
      = y (ix2 b q) := by
  refine (broadcastInDim_apply _ bcast_S4x1024x1_S4x1024x1024_0_1_2 _ (ix3 b q m) (ix3 b q (0 : Fin 1)) ?_).trans
    (broadcastInDim_apply _ bcast_S4x1024_S4x1024x1_0_1 y (ix3 b q (0 : Fin 1)) (ix2 b q) ?_)
  · intro a
    match a with
    | ⟨0, _⟩ => rfl
    | ⟨1, _⟩ => rfl
    | ⟨2, _⟩ => rfl
  · intro a
    match a with
    | ⟨0, _⟩ => rfl
    | ⟨1, _⟩ => rfl

/-! ## The reductions over the keys -/

/-- The key axis dropped from `[4, 1024, 1024]`. -/
theorem reducesKeys3 : (S4x1024x1024).Reduces [2] S4x1024 := by decide

/-- The index over `(b, q)` with key `m` inserted. -/
theorem liftKeys3 (b : Fin 4) (q m : Fin 1024) : reducesKeys3.lift (ix2 b q) m = ix3 b q m := by
  funext a; apply Fin.ext
  match a with
  | ⟨0, _⟩ => rfl
  | ⟨1, _⟩ => rfl
  | ⟨2, _⟩ => rfl

/-- The maximum-reduce from `-∞` over the keys is the fold of `max` from `⊥`. -/
theorem reduceMaxKeys3_apply (x : FVec Ideal S4x1024x1024 .f32) (b : Fin 4) (q : Fin 1024) :
    Host.reduce FloatOps.maximumf x (constant (F := Ideal) S_ .f32 0xFF800000#32) reducesTo_S4x1024x1024_S4x1024_d2 h_S_ (ix2 b q)
      = Finset.univ.fold max ⊥ (fun m : Fin 1024 => x (ix3 b q m)) := by
  refine (Host.reduce_eq_fold_single FloatOps.maximumf x _ reducesTo_S4x1024x1024_S4x1024_d2 reducesKeys3 h_S_ (ix2 b q)).trans ?_
  rw [constant_apply, Cert.Consts.ofBits_ninf]
  have e : (x ∘ reducesKeys3.lift (ix2 b q)) = fun m : Fin 1024 => x (ix3 b q m) :=
    funext fun m => congrArg x (liftKeys3 b q m)
  rw [e]
  rfl

/-- The row maximum is the fold of `max` from `⊥` over the keys. -/
theorem rowMax3_apply (x : FVec Ideal S4x1024x1024 .f32) (b : Fin 4) (q : Fin 1024) :
    rowMax3 x (ix2 b q) = Finset.univ.fold max ⊥ (fun m : Fin 1024 => x (ix3 b q m)) := by
  unfold rowMax3
  rw [maximumf_apply, bcastScalar_apply, constant_apply, Cert.Consts.ofBits_ninf, max_bot_left, reduceMaxKeys3_apply]

/-- The shifted exponential. -/
theorem expShift3_apply (x : FVec Ideal S4x1024x1024 .f32) (b : Fin 4) (q m : Fin 1024) :
    expShift3 x (ix3 b q m) = Ideal.exp (x (ix3 b q m) - rowMax3 x (ix2 b q)) := by
  unfold expShift3
  rw [hostExp_apply, subf_apply, bcastRow3_apply]

/-- The sum-reduce from zero over the keys is the row's sum. -/
theorem reduceAddKeys3_apply (e : FVec Ideal S4x1024x1024 .f32) (b : Fin 4) (q : Fin 1024) :
    Host.reduceAdd e (constant (F := Ideal) S_ .f32 0x00000000#32) reducesTo_S4x1024x1024_S4x1024_d2 h_S_ (ix2 b q)
      = ∑ m' : Fin 1024, e (ix3 b q m') := by
  refine (Ideal.hostReduceAdd_single reducesTo_S4x1024x1024_S4x1024_d2 reducesKeys3 e _ (ix2 b q)).trans ?_
  rw [constant_apply, Cert.Consts.ofBits_zero, zero_add]
  exact Finset.sum_congr rfl fun m' _ => congrArg e (liftKeys3 b q m')

/-- An entry over its row's sum. -/
theorem rowNorm3_apply (e : FVec Ideal S4x1024x1024 .f32) (b : Fin 4) (q m : Fin 1024) :
    rowNorm3 e (ix3 b q m) = Ideal.div (e (ix3 b q m)) (∑ m' : Fin 1024, e (ix3 b q m')) := by
  unfold rowNorm3
  rw [hostDivf_apply, bcastRow3_apply, reduceAddKeys3_apply]

/-! ## The weighted deviation -/

theorem dev3_apply (M M2 : FVec Ideal S4x1024x512 .f32) (i : (S4x1024x512).Idx) :
    dev3 M M2 i = Cert.Spec.spread Cert.Consts.e12R (M i) (M2 i) := by
  unfold dev3 Cert.Spec.spread
  rw [hostSqrt_apply, addf_apply, maximumf_apply, subf_apply, mulf_apply, bcastScalar_apply, bcastScalar_apply,
    constant_apply, constant_apply, Cert.Consts.ofBits_zero, Cert.Consts.ofBits_e12]

/-! ## The token axis unflattened -/

/-- A `[4, 1024, 512]` array reshaped to `[4, 32, 32, 512]`, read at row `t / 32` and column `t % 32`, is the array
    at token `t`. -/
theorem unflatten3_apply (X : FVec Ideal S4x1024x512 .f32) (b : Fin 4) (t : Fin 1024) (ch : Fin 512) :
    shapeCast S4x32x32x512 X shapeCasts_S4x1024x512_S4x32x32x512 (ix4 b (Cert.Arr.hOf (H := 32) (W := 32) t) (Cert.Arr.wOf (H := 32) (W := 32) t) ch) = X (ix3 b t ch) :=
  shapeCast_apply X shapeCasts_S4x1024x512_S4x32x32x512 _ (ix3 b t ch) (by
    rw [Shape.rowMajor_val_three, Shape.rowMajor_val_four]
    show (b.val * 1024 + t.val) * 512 + ch.val = ((b.val * 32 + t.val / 32) * 32 + t.val % 32) * 512 + ch.val
    omega)

/-- The error at a token. -/
theorem err3_apply (cs nc : FVec Ideal S4x32x32x512 .f32) (S M : FVec Ideal S4x1024x512 .f32) (b : Fin 4) (t : Fin 1024)
    (ch : Fin 512) :
    err3 cs nc S M (ix4 b (Cert.Arr.hOf (H := 32) (W := 32) t) (Cert.Arr.wOf (H := 32) (W := 32) t) ch)
      = cs (ix4 b (Cert.Arr.hOf (H := 32) (W := 32) t) (Cert.Arr.wOf (H := 32) (W := 32) t) ch) - (S (ix3 b t ch) * nc (ix4 b (Cert.Arr.hOf (H := 32) (W := 32) t) (Cert.Arr.wOf (H := 32) (W := 32) t) ch) + M (ix3 b t ch)) := by
  unfold err3
  rw [subf_apply, addf_apply, mulf_apply, unflatten3_apply, unflatten3_apply]

/-- The indices of `[4, 32, 32, 512]` are the triples (batch entry, token, channel). -/
def flatEquiv3 : (S4x32x32x512).Idx ≃ Fin 4 × Fin 1024 × Fin 512 where
  toFun i := (i 0, ⟨(i 1).val * 32 + (i 2).val, by
    have h1 : (i 1).val < 32 := (i 1).isLt
    have h2 : (i 2).val < 32 := (i 2).isLt
    omega⟩, i 3)
  invFun p := ix4 p.1 (Cert.Arr.hOf (H := 32) (W := 32) p.2.1) (Cert.Arr.wOf (H := 32) (W := 32) p.2.1) p.2.2
  left_inv i := by
    have h1 : (i 1).val < 32 := (i 1).isLt
    have h2 : (i 2).val < 32 := (i 2).isLt
    funext a; apply Fin.ext
    match a with
    | ⟨0, _⟩ => rfl
    | ⟨1, _⟩ =>
      show ((i 1).val * 32 + (i 2).val) / 32 = (i 1).val
      omega
    | ⟨2, _⟩ =>
      show ((i 1).val * 32 + (i 2).val) % 32 = (i 2).val
      omega
    | ⟨3, _⟩ => rfl
  right_inv p := by
    obtain ⟨b, t, ch⟩ := p
    refine Prod.ext rfl (Prod.ext (Fin.ext ?_) rfl)
    show t.val / 32 * 32 + t.val % 32 = t.val
    omega

/-- A sum over `[4, 32, 32, 512]` is the triple sum over batch entries, tokens and channels. -/
theorem sum_flat3 (f : (S4x32x32x512).Idx → EReal) :
    ∑ i, f i = ∑ b : Fin 4, ∑ t : Fin 1024, ∑ ch : Fin 512, f (ix4 b (Cert.Arr.hOf (H := 32) (W := 32) t) (Cert.Arr.wOf (H := 32) (W := 32) t) ch) := by
  rw [← Equiv.sum_comp flatEquiv3.symm f, Fintype.sum_prod_type]
  refine Finset.sum_congr rfl fun b _ => ?_
  rw [Fintype.sum_prod_type]
  exact Finset.sum_congr rfl fun t _ => Finset.sum_congr rfl fun ch _ => rfl

/-- The mean of squares: the triple sum of the squares over the number of elements. -/
theorem meanSq3_apply (d : FVec Ideal S4x32x32x512 .f32) :
    meanSq3 d ix0 = Ideal.div (∑ b : Fin 4, ∑ t : Fin 1024, ∑ ch : Fin 512, d (ix4 b (Cert.Arr.hOf (H := 32) (W := 32) t) (Cert.Arr.wOf (H := 32) (W := 32) t) ch) * d (ix4 b (Cert.Arr.hOf (H := 32) (W := 32) t) (Cert.Arr.wOf (H := 32) (W := 32) t) ch))
      ((2097152 : ℝ) : EReal) := by
  unfold meanSq3
  rw [hostDivf_apply, constant_apply, Cert.Consts.ofBits_2097152]
  refine congrArg (fun z => Ideal.div z _) ?_
  refine (Ideal.hostReduceAdd_total reducesTo_S4x32x32x512_S_d0_1_2_3 (fun b => b.elim0) (mulf d d) _ ix0).trans ?_
  rw [constant_apply, Cert.Consts.ofBits_zero, zero_add, sum_flat3]
  exact Finset.sum_congr rfl fun b _ => Finset.sum_congr rfl fun t _ => Finset.sum_congr rfl fun ch _ => rfl

end Cert.ReferenceIdeal.LevelVal

end
-- ==== Proof.Ref.Attn3.lean ====
/-
  The attention part of level 3 of the reference is the level's loss of the specification: on operand arrays that
  are, entry by entry, the specification's normalised content, l2-normalised queries and keys and style values, every
  stage of `attn3` is the specification's stage (scores, row maximum, shifted exponentials, softmax weights,
  weighted means, weighted deviation, transferred feature), and the mean of the squared errors is `Spec.lossR`.
-/
import proofs.«170986_j45183055954173_2_alg».proof.Proof.Ref.Attn3Read

noncomputable section

namespace Cert.ReferenceIdeal.LevelVal

open Cert.ReferenceIdeal Cert.ReferenceIdeal.Gen Idealize.ShloMosaic Idealize.ShloMosaic.ValueIdx
open scoped BigOperators

/-! ## The stages on the specification's operands

The five operand arrays are, entry by entry, the stylised content, the normalised content, the l2-normalised
queries and keys and the style's values of the specification at curried arrays `Cc`, `Cs` (tokens flattened). -/

section Level

variable (cs nc : FVec Ideal S4x32x32x512 .f32) (qn kn v : FVec Ideal S4x1024x512 .f32)
  (Cc Cs : Fin 4 → Fin 1024 → Fin 512 → EReal)
  (hnc : ∀ (b : Fin 4) (t : Fin 1024) (ch : Fin 512),
    nc (ix4 b (Cert.Arr.hOf (H := 32) (W := 32) t) (Cert.Arr.wOf (H := 32) (W := 32) t) ch) = Cert.Spec.inormR Cert.Consts.k3.eps Cert.Consts.k3.nQ Cc b t ch)
  (hqn : ∀ (b : Fin 4) (t : Fin 1024) (ch : Fin 512),
    qn (ix3 b t ch) = Cert.Spec.l2n Cert.Consts.k3.e12 (Cert.Spec.inormR Cert.Consts.k3.eps Cert.Consts.k3.nQ Cc) b t ch)
  (hkn : ∀ (b : Fin 4) (t : Fin 1024) (ch : Fin 512),
    kn (ix3 b t ch) = Cert.Spec.l2n Cert.Consts.k3.e12 (Cert.Spec.inormR Cert.Consts.k3.eps Cert.Consts.k3.nK Cs) b t ch)
  (hv : ∀ (b : Fin 4) (t : Fin 1024) (ch : Fin 512), v (ix3 b t ch) = Cs b t ch)

include hqn hkn in
theorem scores3_spec (b : Fin 4) (q m : Fin 1024) :
    scores3 qn kn (ix3 b q m) = Cert.Spec.scoreR Cert.Consts.k3 Cc Cs b q m := by
  rw [scores3_apply]
  unfold Cert.Spec.scoreR Cert.Spec.score
  exact Finset.sum_congr rfl fun ch _ => by rw [hqn, hkn]

include hqn hkn in
theorem rowMax3_spec (b : Fin 4) (q : Fin 1024) :
    rowMax3 (scores3 qn kn) (ix2 b q) = Cert.Spec.rowMaxR Cert.Consts.k3 Cc Cs b q := by
  rw [rowMax3_apply]
  unfold Cert.Spec.rowMaxR
  have e : (fun m : Fin 1024 => scores3 qn kn (ix3 b q m)) = fun m => Cert.Spec.scoreR Cert.Consts.k3 Cc Cs b q m :=
    funext fun m => scores3_spec qn kn Cc Cs hqn hkn b q m
  rw [e]

include hqn hkn in
theorem expShift3_spec (b : Fin 4) (q m : Fin 1024) :
    expShift3 (scores3 qn kn) (ix3 b q m) = Cert.Spec.expR Cert.Consts.k3 Cc Cs b q m := by
  rw [expShift3_apply, scores3_spec qn kn Cc Cs hqn hkn, rowMax3_spec qn kn Cc Cs hqn hkn]
  rfl

include hqn hkn in
theorem rowNorm3_spec (b : Fin 4) (q m : Fin 1024) :
    rowNorm3 (expShift3 (scores3 qn kn)) (ix3 b q m) = Cert.Spec.attnR Cert.Consts.k3 Cc Cs b q m := by
  rw [rowNorm3_apply, expShift3_spec qn kn Cc Cs hqn hkn]
  unfold Cert.Spec.attnR
  refine congrArg (Ideal.div _) ?_
  exact Finset.sum_congr rfl fun m' _ => expShift3_spec qn kn Cc Cs hqn hkn b q m'

include hqn hkn hv in
theorem mean3_spec (b : Fin 4) (q : Fin 1024) (ch : Fin 512) :
    weigh3 (rowNorm3 (expShift3 (scores3 qn kn))) v (ix3 b q ch) = Cert.Spec.meanR Cert.Consts.k3 Cc Cs b q ch := by
  rw [weigh3_apply]
  unfold Cert.Spec.meanR
  exact Finset.sum_congr rfl fun m _ => by rw [rowNorm3_spec qn kn Cc Cs hqn hkn, hv]

include hqn hkn hv in
theorem mean23_spec (b : Fin 4) (q : Fin 1024) (ch : Fin 512) :
    weigh3 (rowNorm3 (expShift3 (scores3 qn kn))) (mulf v v) (ix3 b q ch)
      = Cert.Spec.mean2R Cert.Consts.k3 Cc Cs b q ch := by
  rw [weigh3_apply]
  unfold Cert.Spec.mean2R
  exact Finset.sum_congr rfl fun m _ => by rw [rowNorm3_spec qn kn Cc Cs hqn hkn, mulf_apply, hv]

include hnc hqn hkn hv in
theorem err3_spec (b : Fin 4) (t : Fin 1024) (ch : Fin 512) :
    err3 cs nc
        (dev3 (weigh3 (rowNorm3 (expShift3 (scores3 qn kn))) v)
          (weigh3 (rowNorm3 (expShift3 (scores3 qn kn))) (mulf v v)))
        (weigh3 (rowNorm3 (expShift3 (scores3 qn kn))) v) (ix4 b (Cert.Arr.hOf (H := 32) (W := 32) t) (Cert.Arr.wOf (H := 32) (W := 32) t) ch)
      = cs (ix4 b (Cert.Arr.hOf (H := 32) (W := 32) t) (Cert.Arr.wOf (H := 32) (W := 32) t) ch) - Cert.Spec.aatR Cert.Consts.k3 Cc Cs b t ch := by
  rw [err3_apply, dev3_apply, mean3_spec qn kn v Cc Cs hqn hkn hv, mean23_spec qn kn v Cc Cs hqn hkn hv, hnc]
  rfl

include hnc hqn hkn hv in
/-- The attention part of level 3 is the reference's loss of the level (tokens as `Fin 1024`). -/
theorem attn3_eq_tok :
    attn3 cs nc qn kn v ix0
      = Cert.Spec.lossR Cert.Consts.k3 (fun (b : Fin 4) (t : Fin 1024) (ch : Fin 512) => cs (ix4 b (Cert.Arr.hOf (H := 32) (W := 32) t) (Cert.Arr.wOf (H := 32) (W := 32) t) ch)) Cc Cs := by
  unfold attn3
  rw [meanSq3_apply]
  unfold Cert.Spec.lossR
  refine congrArg (fun z => Ideal.div z _) ?_
  exact Finset.sum_congr rfl fun b _ => Finset.sum_congr rfl fun t _ => Finset.sum_congr rfl fun ch _ => by
    rw [err3_spec cs nc qn kn v Cc Cs hnc hqn hkn hv]

end Level

/-- The attention part of level 3 is the reference's loss of the level, on the flattened stylised content. -/
theorem attn3_eq (cs nc : FVec Ideal S4x32x32x512 .f32) (qn kn v : FVec Ideal S4x1024x512 .f32)
    (Cc Cs : Fin 4 → Fin (32 * 32) → Fin 512 → EReal)
    (hnc : ∀ b t ch, nc (ix4 b (Cert.Arr.hOf t) (Cert.Arr.wOf t) ch) = Cert.Spec.inormR Cert.Consts.k3.eps Cert.Consts.k3.nQ Cc b t ch)
    (hqn : ∀ b t ch, qn (ix3 b (t : Fin 1024) ch)
      = Cert.Spec.l2n Cert.Consts.k3.e12 (Cert.Spec.inormR Cert.Consts.k3.eps Cert.Consts.k3.nQ Cc) b t ch)
    (hkn : ∀ b t ch, kn (ix3 b (t : Fin 1024) ch)
      = Cert.Spec.l2n Cert.Consts.k3.e12 (Cert.Spec.inormR Cert.Consts.k3.eps Cert.Consts.k3.nK Cs) b t ch)
    (hv : ∀ b t ch, v (ix3 b (t : Fin 1024) ch) = Cs b t ch) :
    attn3 cs nc qn kn v ix0 = Cert.Spec.lossR Cert.Consts.k3 (Cert.Arr.flat cs) Cc Cs :=
  attn3_eq_tok cs nc qn kn v Cc Cs hnc hqn hkn hv

end Cert.ReferenceIdeal.LevelVal

end
-- ==== Proof.Ref.Level3.lean ====
/-
  The reference's level-3 loss is the specification's: the attention part's reading, at the five arrays the
  normalisation stages produce.
-/
import proofs.«170986_j45183055954173_2_alg».proof.Proof.Ref.Level3Def
import proofs.«170986_j45183055954173_2_alg».proof.Proof.Ref.Norm3Read
import proofs.«170986_j45183055954173_2_alg».proof.Proof.Ref.Attn3

noncomputable section

namespace Cert.ReferenceIdeal.LevelVal

open Cert.ReferenceIdeal Idealize.ShloMosaic Idealize.ShloMosaic.ValueIdx

/-- The level's loss, read: the specification's loss of the flattened arguments. -/
theorem lvl3_eq (cs c s : FVec Ideal S4x32x32x512 .f32) :
    lvl3 cs c s ValueIdx.ix0
      = Cert.Spec.lossR Cert.Consts.k3 (Cert.Arr.flat cs) (Cert.Arr.flat c) (Cert.Arr.flat s) :=
  attn3_eq cs (nc3 c) (qn3 c) (kn3 s) (v3 s) (Cert.Arr.flat c) (Cert.Arr.flat s)
    (nc3_apply c) (qn3_apply c) (kn3_apply s) (v3_apply s)

end Cert.ReferenceIdeal.LevelVal

end
-- ==== Proof.Ref.Norm4Read.lean ====
/-
  The level-4 stages read at an index.

  At batch entry `b`, position `t = 16·h + w` and channel `ch` each stage is the specification's function of the
  flattened argument: the sum over the two spatial axes is the sum over the positions; the variance's select takes
  its first branch, `256 − 0` being positive, so the not-a-number constant is never read; the reshape reads
  position `t` at `(h, w)`; the norm is the root of the sum over the channels, floored.
-/
import proofs.«170986_j45183055954173_2_alg».proof.Proof.Ref.Norm4
import proofs.«170986_j45183055954173_2_alg».proof.Proof.Ref.HostRead

noncomputable section

namespace Cert.ReferenceIdeal.LevelVal

open Cert.ReferenceIdeal Cert.ReferenceIdeal.Facts₀ Idealize.ShloMosaic Idealize.ShloMosaic.ValueIdx Cert.HostRead
open scoped BigOperators

/-- The host's root and quotient at an index are the extended reals'. -/
theorem hostSqrt_apply {s : Shape} {φ : FTy} (a : FVec Ideal s φ) (i : s.Idx) : Host.sqrt a i = Ideal.sqrt (a i) := rfl

variable (x : FVec Ideal S4x16x16x512 .f32)

/-! ## The statistics -/

theorem sum4_apply (b : Fin 4) (ch : Fin 512) : sum4 x (ix2 b ch) = ∑ t : Fin (16 * 16), Arr.flat x b t ch := by
  unfold sum4
  rw [hostReduceAdd_apply, constant_apply, hostReduceAdd_hw, Consts.ofBits_zero, zero_add, sum_hw_eq_sum_tok]
  rfl

theorem mean4_apply (b : Fin 4) (u v : Fin 1) (ch : Fin 512) :
    mean4 x (ix4 b u v ch) = Spec.mean 256 (Arr.flat x) b ch := by
  unfold mean4
  rw [hostDivf_apply, bcast_bc, broadcastInDim_scalar_apply, constant_apply, sum4_apply, Consts.ofBits_256]
  rfl

theorem cen4_apply (b : Fin 4) (hh ww : Fin 16) (ch : Fin 512) :
    cen4 x (ix4 b hh ww ch) = x (ix4 b hh ww ch) - Spec.mean 256 (Arr.flat x) b ch := by
  unfold cen4
  rw [subf_apply, bcast_b11c, mean4_apply]

/-- The variance's divisor is 256: the integer 0 converts to 0. -/
theorem cnt4_apply (i : S_.Idx) : cnt4 i = ((256 : ℝ) : EReal) := by
  unfold cnt4
  rw [subf_apply, constant_apply, Consts.ofBits_256]
  show ((256 : ℝ) : EReal) - ((((0#32 : BitVec 32).toInt : ℤ) : ℝ) : EReal) = _
  simp

/-- So the select's condition holds everywhere. -/
theorem cnt4_pos (j : S4x1x1x512.Idx) :
    broadcastInDim S4x1x1x512 ![] bcast_S_S4x1x1x512 (cmpf .ogt cnt4 (constant (F := Ideal) S_ .f32 0x00000000#32)) j = 1#1 := by
  rw [broadcastInDim_scalar_apply, cmpf_apply, Ideal.cmpf_def, cnt4_apply, constant_apply, Consts.ofBits_zero]
  show BitVec.ofBool (decide ((0 : EReal) < ((256 : ℝ) : EReal))) = 1#1
  rw [decide_eq_true (EReal.coe_pos.mpr (by norm_num))]
  rfl

theorem ssq4_apply (b : Fin 4) (ch : Fin 512) :
    ssq4 x (ix2 b ch) = ∑ t : Fin (16 * 16), (Arr.flat x b t ch - Spec.mean 256 (Arr.flat x) b ch)
      * (Arr.flat x b t ch - Spec.mean 256 (Arr.flat x) b ch) := by
  unfold ssq4
  rw [hostReduceAdd_apply, constant_apply, hostReduceAdd_hw, Consts.ofBits_zero, zero_add, sum_hw_eq_sum_tok]
  refine Finset.sum_congr rfl fun t _ => ?_
  rw [mulf_apply, cen4_apply]
  rfl

theorem var4_apply (b : Fin 4) (u v : Fin 1) (ch : Fin 512) :
    var4 x (ix4 b u v ch) = Spec.var 256 (Arr.flat x) b ch := by
  unfold var4
  rw [select_apply, cnt4_pos, select_one, hostDivf_apply, bcast_bc, broadcastInDim_scalar_apply, ssq4_apply, cnt4_apply]
  rfl

theorem sd4_apply (b : Fin 4) (u v : Fin 1) (ch : Fin 512) :
    sd4 x (ix4 b u v ch) = Spec.sd Consts.epsR 256 (Arr.flat x) b ch := by
  unfold sd4
  rw [hostSqrt_apply, addf_apply, var4_apply, broadcastInDim_scalar_apply, constant_apply, Consts.ofBits_eps]
  rfl

/-! ## The instance normalisation, the reshape, the l2 normalisation -/

theorem inorm4_apply (b : Fin 4) (t : Fin (16 * 16)) (ch : Fin 512) :
    inorm4 x (ix4 b (Arr.hOf t) (Arr.wOf t) ch) = Spec.inormR Consts.epsR 256 (Arr.flat x) b t ch := by
  unfold inorm4
  rw [hostDivf_apply, cen4_apply, bcast_b11c, sd4_apply]
  rfl

theorem tok4_apply (y : FVec Ideal S4x16x16x512 .f32) (b : Fin 4) (t : Fin (16 * 16)) (ch : Fin 512) :
    tok4 y (ix3 b (t : Fin 256) ch) = Arr.flat y b t ch :=
  shapeCast_tok (N := 256) (H := 16) (W := 16) (by norm_num) shapeCasts_S4x16x16x512_S4x256x512 y b t ch
    (Arr.hOf t) (Arr.wOf t) (tok_val t)

theorem norm4_apply (z : FVec Ideal S4x256x512 .f32) (b : Fin 4) (t : Fin 256) (u : Fin 1) :
    norm4 z (ix3 b t u)
      = max (Ideal.sqrt (∑ ch : Fin 512, z (ix3 b t ch) * z (ix3 b t ch))) ((Consts.e12R : ℝ) : EReal) := by
  unfold norm4
  rw [maximumf_apply, hostSqrt_apply, bcast_bn, hostReduceAdd_apply, constant_apply, hostReduceAdd_ch,
    Consts.ofBits_zero, zero_add, broadcastInDim_scalar_apply, constant_apply, Consts.ofBits_e12]
  rfl

theorem l2n4_apply (z : FVec Ideal S4x256x512 .f32) (b : Fin 4) (t : Fin 256) (ch : Fin 512) :
    l2n4 z (ix3 b t ch) = Spec.l2n Consts.e12R (Arr.cur3 z) b t ch := by
  unfold l2n4
  rw [hostDivf_apply, bcast_bn1, norm4_apply]
  rfl

/-! ## What the attention part takes: the five arrays at an index -/

theorem nc4_apply (c : FVec Ideal S4x16x16x512 .f32) (b : Fin 4) (t : Fin (16 * 16)) (ch : Fin 512) :
    nc4 c (ix4 b (Arr.hOf t) (Arr.wOf t) ch)
      = Spec.inormR Consts.k4.eps Consts.k4.nQ (Arr.flat c) b t ch :=
  inorm4_apply c b t ch

theorem ns4_apply (s : FVec Ideal S4x16x16x512 .f32) (b : Fin 4) (t : Fin (16 * 16)) (ch : Fin 512) :
    ns4 s (ix4 b (Arr.hOf t) (Arr.wOf t) ch)
      = Spec.inormR Consts.k4.eps Consts.k4.nK (Arr.flat s) b t ch :=
  inorm4_apply s b t ch

/-- The reshaped normalised array is the specification's normalisation of the flattened argument. -/
theorem cur3_tok4_inorm4 : Arr.cur3 (tok4 (inorm4 x)) = Spec.inormR Consts.epsR 256 (Arr.flat x) := by
  funext b t ch
  exact (tok4_apply (inorm4 x) b t ch).trans (inorm4_apply x b t ch)

theorem qn4_apply (c : FVec Ideal S4x16x16x512 .f32) (b : Fin 4) (t : Fin (16 * 16)) (ch : Fin 512) :
    qn4 c (ix3 b (t : Fin 256) ch)
      = Spec.l2n Consts.k4.e12 (Spec.inormR Consts.k4.eps Consts.k4.nQ (Arr.flat c)) b t ch := by
  unfold qn4 nc4
  rw [l2n4_apply, cur3_tok4_inorm4]
  rfl

theorem kn4_apply (s : FVec Ideal S4x16x16x512 .f32) (b : Fin 4) (t : Fin (16 * 16)) (ch : Fin 512) :
    kn4 s (ix3 b (t : Fin 256) ch)
      = Spec.l2n Consts.k4.e12 (Spec.inormR Consts.k4.eps Consts.k4.nK (Arr.flat s)) b t ch := by
  unfold kn4 ns4
  rw [l2n4_apply, cur3_tok4_inorm4]
  rfl

theorem v4_apply (s : FVec Ideal S4x16x16x512 .f32) (b : Fin 4) (t : Fin (16 * 16)) (ch : Fin 512) :
    v4 s (ix3 b (t : Fin 256) ch) = Arr.flat s b t ch :=
  tok4_apply s b t ch

end Cert.ReferenceIdeal.LevelVal

end
-- ==== Proof.Ref.Attn4Read.lean ====
/-
  The attention part of level 4 read at an index, stage by stage: each stage of `attn4` at explicit
  coordinates (batch entry, query token, key token, channel) is the corresponding expression of the level's
  specification on the operands' entries.
-/
import proofs.«170986_j45183055954173_2_alg».proof.Proof.Ref.Attn4Def
import proofs.«170986_j45183055954173_2_alg».proof.Proof.Ref.AttnCommon
import proofs.«170986_j45183055954173_2_alg».proof.Proof.Spec
import proofs.«170986_j45183055954173_2_alg».proof.Proof.Consts
import proofs.«170986_j45183055954173_2_alg».proof.Proof.Arr
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.LevelVal

open Cert.ReferenceIdeal Cert.ReferenceIdeal.Gen Idealize.ShloMosaic Idealize.ShloMosaic.ValueIdx
open scoped BigOperators

/-! ## The two contractions -/

/-- A score is the inner product of the query's and the key's channel vectors. -/
theorem scores4_apply (qn kn : FVec Ideal S4x256x512 .f32) (b : Fin 4) (q m : Fin 256) :
    scores4 qn kn (ix3 b q m) = ∑ ch : Fin 512, qn (ix3 b q ch) * kn (ix3 b m ch) := by
  show FloatOps.dotGeneral dot_S4x256x512_S4x256x512_S4x256x256_2_2_1_1_0_0 none .single qn kn (ix3 b q m) = _
  rw [Ideal.dotGeneral_apply, ← Equiv.sum_comp (contrEquiv1 dot_S4x256x512_S4x256x512_S4x256x256_2_2_1_1_0_0 512 rfl rfl).symm]
  refine Finset.sum_congr rfl fun c _ => ?_
  have c3 := contrEquiv1_symm_val dot_S4x256x512_S4x256x512_S4x256x256_2_2_1_1_0_0 512 rfl rfl c
  have l3 : dot_S4x256x512_S4x256x512_S4x256x256_2_2_1_1_0_0.lhsIdx (ix3 b q m) ((contrEquiv1 _ 512 rfl rfl).symm c) = ix3 b q c := by
    funext ax; apply Fin.ext
    match ax with
    | ⟨0, _⟩ => simp [DotDims.lhsIdx, dot_S4x256x512_S4x256x512_S4x256x256_2_2_1_1_0_0]; rfl
    | ⟨1, _⟩ => simp [DotDims.lhsIdx, dot_S4x256x512_S4x256x512_S4x256x256_2_2_1_1_0_0]; rfl
    | ⟨2, _⟩ => simp [DotDims.lhsIdx, dot_S4x256x512_S4x256x512_S4x256x256_2_2_1_1_0_0]; exact c3
  have r3 : dot_S4x256x512_S4x256x512_S4x256x256_2_2_1_1_0_0.rhsIdx (ix3 b q m) ((contrEquiv1 _ 512 rfl rfl).symm c) = ix3 b m c := by
    funext ax; apply Fin.ext
    match ax with
    | ⟨0, _⟩ => simp [DotDims.rhsIdx, dot_S4x256x512_S4x256x512_S4x256x256_2_2_1_1_0_0]; rfl
    | ⟨1, _⟩ => simp [DotDims.rhsIdx, dot_S4x256x512_S4x256x512_S4x256x256_2_2_1_1_0_0]; rfl
    | ⟨2, _⟩ => simp [DotDims.rhsIdx, dot_S4x256x512_S4x256x512_S4x256x256_2_2_1_1_0_0]; exact c3
  rw [l3, r3]

/-- The weights applied to per-key values: the sum over the keys. -/
theorem weigh4_apply (a : FVec Ideal S4x256x256 .f32) (v : FVec Ideal S4x256x512 .f32) (b : Fin 4) (q : Fin 256)
    (ch : Fin 512) : weigh4 a v (ix3 b q ch) = ∑ m : Fin 256, a (ix3 b q m) * v (ix3 b m ch) :=
  StackMember.dotGeneral_stack_apply dot_S4x256x256_S4x256x512_S4x256x512_2_1_1_2_0_0_wf none a v b q ch

/-! ## Broadcasts at an index -/

/-- A per-row value broadcast along the keys reads the row's value. -/
theorem bcastRow4_apply (y : FVec Ideal S4x256 .f32) (b : Fin 4) (q m : Fin 256) :
    broadcastInDim S4x256x256 ![0, 1, 2] bcast_S4x256x1_S4x256x256_0_1_2 (broadcastInDim S4x256x1 ![0, 1] bcast_S4x256_S4x256x1_0_1 y) (ix3 b q m)
      = y (ix2 b q) := by
  refine (broadcastInDim_apply _ bcast_S4x256x1_S4x256x256_0_1_2 _ (ix3 b q m) (ix3 b q (0 : Fin 1)) ?_).trans
    (broadcastInDim_apply _ bcast_S4x256_S4x256x1_0_1 y (ix3 b q (0 : Fin 1)) (ix2 b q) ?_)
  · intro a
    match a with
    | ⟨0, _⟩ => rfl
    | ⟨1, _⟩ => rfl
    | ⟨2, _⟩ => rfl
  · intro a
    match a with
    | ⟨0, _⟩ => rfl
    | ⟨1, _⟩ => rfl

/-! ## The reductions over the keys -/

/-- The key axis dropped from `[4, 256, 256]`. -/
theorem reducesKeys4 : (S4x256x256).Reduces [2] S4x256 := by decide

/-- The index over `(b, q)` with key `m` inserted. -/
theorem liftKeys4 (b : Fin 4) (q m : Fin 256) : reducesKeys4.lift (ix2 b q) m = ix3 b q m := by
  funext a; apply Fin.ext
  match a with
  | ⟨0, _⟩ => rfl
  | ⟨1, _⟩ => rfl
  | ⟨2, _⟩ => rfl

/-- The maximum-reduce from `-∞` over the keys is the fold of `max` from `⊥`. -/
theorem reduceMaxKeys4_apply (x : FVec Ideal S4x256x256 .f32) (b : Fin 4) (q : Fin 256) :
    Host.reduce FloatOps.maximumf x (constant (F := Ideal) S_ .f32 0xFF800000#32) reducesTo_S4x256x256_S4x256_d2 h_S_ (ix2 b q)
      = Finset.univ.fold max ⊥ (fun m : Fin 256 => x (ix3 b q m)) := by
  refine (Host.reduce_eq_fold_single FloatOps.maximumf x _ reducesTo_S4x256x256_S4x256_d2 reducesKeys4 h_S_ (ix2 b q)).trans ?_
  rw [constant_apply, Cert.Consts.ofBits_ninf]
  have e : (x ∘ reducesKeys4.lift (ix2 b q)) = fun m : Fin 256 => x (ix3 b q m) :=
    funext fun m => congrArg x (liftKeys4 b q m)
  rw [e]
  rfl

/-- The row maximum is the fold of `max` from `⊥` over the keys. -/
theorem rowMax4_apply (x : FVec Ideal S4x256x256 .f32) (b : Fin 4) (q : Fin 256) :
    rowMax4 x (ix2 b q) = Finset.univ.fold max ⊥ (fun m : Fin 256 => x (ix3 b q m)) := by
  unfold rowMax4
  rw [maximumf_apply, bcastScalar_apply, constant_apply, Cert.Consts.ofBits_ninf, max_bot_left, reduceMaxKeys4_apply]

/-- The shifted exponential. -/
theorem expShift4_apply (x : FVec Ideal S4x256x256 .f32) (b : Fin 4) (q m : Fin 256) :
    expShift4 x (ix3 b q m) = Ideal.exp (x (ix3 b q m) - rowMax4 x (ix2 b q)) := by
  unfold expShift4
  rw [hostExp_apply, subf_apply, bcastRow4_apply]

/-- The sum-reduce from zero over the keys is the row's sum. -/
theorem reduceAddKeys4_apply (e : FVec Ideal S4x256x256 .f32) (b : Fin 4) (q : Fin 256) :
    Host.reduceAdd e (constant (F := Ideal) S_ .f32 0x00000000#32) reducesTo_S4x256x256_S4x256_d2 h_S_ (ix2 b q)
      = ∑ m' : Fin 256, e (ix3 b q m') := by
  refine (Ideal.hostReduceAdd_single reducesTo_S4x256x256_S4x256_d2 reducesKeys4 e _ (ix2 b q)).trans ?_
  rw [constant_apply, Cert.Consts.ofBits_zero, zero_add]
  exact Finset.sum_congr rfl fun m' _ => congrArg e (liftKeys4 b q m')

/-- An entry over its row's sum. -/
theorem rowNorm4_apply (e : FVec Ideal S4x256x256 .f32) (b : Fin 4) (q m : Fin 256) :
    rowNorm4 e (ix3 b q m) = Ideal.div (e (ix3 b q m)) (∑ m' : Fin 256, e (ix3 b q m')) := by
  unfold rowNorm4
  rw [hostDivf_apply, bcastRow4_apply, reduceAddKeys4_apply]

/-! ## The weighted deviation -/

theorem dev4_apply (M M2 : FVec Ideal S4x256x512 .f32) (i : (S4x256x512).Idx) :
    dev4 M M2 i = Cert.Spec.spread Cert.Consts.e12R (M i) (M2 i) := by
  unfold dev4 Cert.Spec.spread
  rw [hostSqrt_apply, addf_apply, maximumf_apply, subf_apply, mulf_apply, bcastScalar_apply, bcastScalar_apply,
    constant_apply, constant_apply, Cert.Consts.ofBits_zero, Cert.Consts.ofBits_e12]

/-! ## The token axis unflattened -/

/-- A `[4, 256, 512]` array reshaped to `[4, 16, 16, 512]`, read at row `t / 16` and column `t % 16`, is the array
    at token `t`. -/
theorem unflatten4_apply (X : FVec Ideal S4x256x512 .f32) (b : Fin 4) (t : Fin 256) (ch : Fin 512) :
    shapeCast S4x16x16x512 X shapeCasts_S4x256x512_S4x16x16x512 (ix4 b (Cert.Arr.hOf (H := 16) (W := 16) t) (Cert.Arr.wOf (H := 16) (W := 16) t) ch) = X (ix3 b t ch) :=
  shapeCast_apply X shapeCasts_S4x256x512_S4x16x16x512 _ (ix3 b t ch) (by
    rw [Shape.rowMajor_val_three, Shape.rowMajor_val_four]
    show (b.val * 256 + t.val) * 512 + ch.val = ((b.val * 16 + t.val / 16) * 16 + t.val % 16) * 512 + ch.val
    omega)

/-- The error at a token. -/
theorem err4_apply (cs nc : FVec Ideal S4x16x16x512 .f32) (S M : FVec Ideal S4x256x512 .f32) (b : Fin 4) (t : Fin 256)
    (ch : Fin 512) :
    err4 cs nc S M (ix4 b (Cert.Arr.hOf (H := 16) (W := 16) t) (Cert.Arr.wOf (H := 16) (W := 16) t) ch)
      = cs (ix4 b (Cert.Arr.hOf (H := 16) (W := 16) t) (Cert.Arr.wOf (H := 16) (W := 16) t) ch) - (S (ix3 b t ch) * nc (ix4 b (Cert.Arr.hOf (H := 16) (W := 16) t) (Cert.Arr.wOf (H := 16) (W := 16) t) ch) + M (ix3 b t ch)) := by
  unfold err4
  rw [subf_apply, addf_apply, mulf_apply, unflatten4_apply, unflatten4_apply]

/-- The indices of `[4, 16, 16, 512]` are the triples (batch entry, token, channel). -/
def flatEquiv4 : (S4x16x16x512).Idx ≃ Fin 4 × Fin 256 × Fin 512 where
  toFun i := (i 0, ⟨(i 1).val * 16 + (i 2).val, by
    have h1 : (i 1).val < 16 := (i 1).isLt
    have h2 : (i 2).val < 16 := (i 2).isLt
    omega⟩, i 3)
  invFun p := ix4 p.1 (Cert.Arr.hOf (H := 16) (W := 16) p.2.1) (Cert.Arr.wOf (H := 16) (W := 16) p.2.1) p.2.2
  left_inv i := by
    have h1 : (i 1).val < 16 := (i 1).isLt
    have h2 : (i 2).val < 16 := (i 2).isLt
    funext a; apply Fin.ext
    match a with
    | ⟨0, _⟩ => rfl
    | ⟨1, _⟩ =>
      show ((i 1).val * 16 + (i 2).val) / 16 = (i 1).val
      omega
    | ⟨2, _⟩ =>
      show ((i 1).val * 16 + (i 2).val) % 16 = (i 2).val
      omega
    | ⟨3, _⟩ => rfl
  right_inv p := by
    obtain ⟨b, t, ch⟩ := p
    refine Prod.ext rfl (Prod.ext (Fin.ext ?_) rfl)
    show t.val / 16 * 16 + t.val % 16 = t.val
    omega

/-- A sum over `[4, 16, 16, 512]` is the triple sum over batch entries, tokens and channels. -/
theorem sum_flat4 (f : (S4x16x16x512).Idx → EReal) :
    ∑ i, f i = ∑ b : Fin 4, ∑ t : Fin 256, ∑ ch : Fin 512, f (ix4 b (Cert.Arr.hOf (H := 16) (W := 16) t) (Cert.Arr.wOf (H := 16) (W := 16) t) ch) := by
  rw [← Equiv.sum_comp flatEquiv4.symm f, Fintype.sum_prod_type]
  refine Finset.sum_congr rfl fun b _ => ?_
  rw [Fintype.sum_prod_type]
  exact Finset.sum_congr rfl fun t _ => Finset.sum_congr rfl fun ch _ => rfl

/-- The mean of squares: the triple sum of the squares over the number of elements. -/
theorem meanSq4_apply (d : FVec Ideal S4x16x16x512 .f32) :
    meanSq4 d ix0 = Ideal.div (∑ b : Fin 4, ∑ t : Fin 256, ∑ ch : Fin 512, d (ix4 b (Cert.Arr.hOf (H := 16) (W := 16) t) (Cert.Arr.wOf (H := 16) (W := 16) t) ch) * d (ix4 b (Cert.Arr.hOf (H := 16) (W := 16) t) (Cert.Arr.wOf (H := 16) (W := 16) t) ch))
      ((524288 : ℝ) : EReal) := by
  unfold meanSq4
  rw [hostDivf_apply, constant_apply, Cert.Consts.ofBits_524288]
  refine congrArg (fun z => Ideal.div z _) ?_
  refine (Ideal.hostReduceAdd_total reducesTo_S4x16x16x512_S_d0_1_2_3 (fun b => b.elim0) (mulf d d) _ ix0).trans ?_
  rw [constant_apply, Cert.Consts.ofBits_zero, zero_add, sum_flat4]
  exact Finset.sum_congr rfl fun b _ => Finset.sum_congr rfl fun t _ => Finset.sum_congr rfl fun ch _ => rfl

end Cert.ReferenceIdeal.LevelVal

end
-- ==== Proof.Ref.Attn4.lean ====
/-
  The attention part of level 4 of the reference is the level's loss of the specification: on operand arrays that
  are, entry by entry, the specification's normalised content, l2-normalised queries and keys and style values, every
  stage of `attn4` is the specification's stage (scores, row maximum, shifted exponentials, softmax weights,
  weighted means, weighted deviation, transferred feature), and the mean of the squared errors is `Spec.lossR`.
-/
import proofs.«170986_j45183055954173_2_alg».proof.Proof.Ref.Attn4Read

noncomputable section

namespace Cert.ReferenceIdeal.LevelVal

open Cert.ReferenceIdeal Cert.ReferenceIdeal.Gen Idealize.ShloMosaic Idealize.ShloMosaic.ValueIdx
open scoped BigOperators

/-! ## The stages on the specification's operands

The five operand arrays are, entry by entry, the stylised content, the normalised content, the l2-normalised
queries and keys and the style's values of the specification at curried arrays `Cc`, `Cs` (tokens flattened). -/

section Level

variable (cs nc : FVec Ideal S4x16x16x512 .f32) (qn kn v : FVec Ideal S4x256x512 .f32)
  (Cc Cs : Fin 4 → Fin 256 → Fin 512 → EReal)
  (hnc : ∀ (b : Fin 4) (t : Fin 256) (ch : Fin 512),
    nc (ix4 b (Cert.Arr.hOf (H := 16) (W := 16) t) (Cert.Arr.wOf (H := 16) (W := 16) t) ch) = Cert.Spec.inormR Cert.Consts.k4.eps Cert.Consts.k4.nQ Cc b t ch)
  (hqn : ∀ (b : Fin 4) (t : Fin 256) (ch : Fin 512),
    qn (ix3 b t ch) = Cert.Spec.l2n Cert.Consts.k4.e12 (Cert.Spec.inormR Cert.Consts.k4.eps Cert.Consts.k4.nQ Cc) b t ch)
  (hkn : ∀ (b : Fin 4) (t : Fin 256) (ch : Fin 512),
    kn (ix3 b t ch) = Cert.Spec.l2n Cert.Consts.k4.e12 (Cert.Spec.inormR Cert.Consts.k4.eps Cert.Consts.k4.nK Cs) b t ch)
  (hv : ∀ (b : Fin 4) (t : Fin 256) (ch : Fin 512), v (ix3 b t ch) = Cs b t ch)

include hqn hkn in
theorem scores4_spec (b : Fin 4) (q m : Fin 256) :
    scores4 qn kn (ix3 b q m) = Cert.Spec.scoreR Cert.Consts.k4 Cc Cs b q m := by
  rw [scores4_apply]
  unfold Cert.Spec.scoreR Cert.Spec.score
  exact Finset.sum_congr rfl fun ch _ => by rw [hqn, hkn]

include hqn hkn in
theorem rowMax4_spec (b : Fin 4) (q : Fin 256) :
    rowMax4 (scores4 qn kn) (ix2 b q) = Cert.Spec.rowMaxR Cert.Consts.k4 Cc Cs b q := by
  rw [rowMax4_apply]
  unfold Cert.Spec.rowMaxR
  have e : (fun m : Fin 256 => scores4 qn kn (ix3 b q m)) = fun m => Cert.Spec.scoreR Cert.Consts.k4 Cc Cs b q m :=
    funext fun m => scores4_spec qn kn Cc Cs hqn hkn b q m
  rw [e]

include hqn hkn in
theorem expShift4_spec (b : Fin 4) (q m : Fin 256) :
    expShift4 (scores4 qn kn) (ix3 b q m) = Cert.Spec.expR Cert.Consts.k4 Cc Cs b q m := by
  rw [expShift4_apply, scores4_spec qn kn Cc Cs hqn hkn, rowMax4_spec qn kn Cc Cs hqn hkn]
  rfl

include hqn hkn in
theorem rowNorm4_spec (b : Fin 4) (q m : Fin 256) :
    rowNorm4 (expShift4 (scores4 qn kn)) (ix3 b q m) = Cert.Spec.attnR Cert.Consts.k4 Cc Cs b q m := by
  rw [rowNorm4_apply, expShift4_spec qn kn Cc Cs hqn hkn]
  unfold Cert.Spec.attnR
  refine congrArg (Ideal.div _) ?_
  exact Finset.sum_congr rfl fun m' _ => expShift4_spec qn kn Cc Cs hqn hkn b q m'

include hqn hkn hv in
theorem mean4_spec (b : Fin 4) (q : Fin 256) (ch : Fin 512) :
    weigh4 (rowNorm4 (expShift4 (scores4 qn kn))) v (ix3 b q ch) = Cert.Spec.meanR Cert.Consts.k4 Cc Cs b q ch := by
  rw [weigh4_apply]
  unfold Cert.Spec.meanR
  exact Finset.sum_congr rfl fun m _ => by rw [rowNorm4_spec qn kn Cc Cs hqn hkn, hv]

include hqn hkn hv in
theorem mean24_spec (b : Fin 4) (q : Fin 256) (ch : Fin 512) :
    weigh4 (rowNorm4 (expShift4 (scores4 qn kn))) (mulf v v) (ix3 b q ch)
      = Cert.Spec.mean2R Cert.Consts.k4 Cc Cs b q ch := by
  rw [weigh4_apply]
  unfold Cert.Spec.mean2R
  exact Finset.sum_congr rfl fun m _ => by rw [rowNorm4_spec qn kn Cc Cs hqn hkn, mulf_apply, hv]

include hnc hqn hkn hv in
theorem err4_spec (b : Fin 4) (t : Fin 256) (ch : Fin 512) :
    err4 cs nc
        (dev4 (weigh4 (rowNorm4 (expShift4 (scores4 qn kn))) v)
          (weigh4 (rowNorm4 (expShift4 (scores4 qn kn))) (mulf v v)))
        (weigh4 (rowNorm4 (expShift4 (scores4 qn kn))) v) (ix4 b (Cert.Arr.hOf (H := 16) (W := 16) t) (Cert.Arr.wOf (H := 16) (W := 16) t) ch)
      = cs (ix4 b (Cert.Arr.hOf (H := 16) (W := 16) t) (Cert.Arr.wOf (H := 16) (W := 16) t) ch) - Cert.Spec.aatR Cert.Consts.k4 Cc Cs b t ch := by
  rw [err4_apply, dev4_apply, mean4_spec qn kn v Cc Cs hqn hkn hv, mean24_spec qn kn v Cc Cs hqn hkn hv, hnc]
  rfl

include hnc hqn hkn hv in
/-- The attention part of level 4 is the reference's loss of the level (tokens as `Fin 256`). -/
theorem attn4_eq_tok :
    attn4 cs nc qn kn v ix0
      = Cert.Spec.lossR Cert.Consts.k4 (fun (b : Fin 4) (t : Fin 256) (ch : Fin 512) => cs (ix4 b (Cert.Arr.hOf (H := 16) (W := 16) t) (Cert.Arr.wOf (H := 16) (W := 16) t) ch)) Cc Cs := by
  unfold attn4
  rw [meanSq4_apply]
  unfold Cert.Spec.lossR
  refine congrArg (fun z => Ideal.div z _) ?_
  exact Finset.sum_congr rfl fun b _ => Finset.sum_congr rfl fun t _ => Finset.sum_congr rfl fun ch _ => by
    rw [err4_spec cs nc qn kn v Cc Cs hnc hqn hkn hv]

end Level

/-- The attention part of level 4 is the reference's loss of the level, on the flattened stylised content. -/
theorem attn4_eq (cs nc : FVec Ideal S4x16x16x512 .f32) (qn kn v : FVec Ideal S4x256x512 .f32)
    (Cc Cs : Fin 4 → Fin (16 * 16) → Fin 512 → EReal)
    (hnc : ∀ b t ch, nc (ix4 b (Cert.Arr.hOf t) (Cert.Arr.wOf t) ch) = Cert.Spec.inormR Cert.Consts.k4.eps Cert.Consts.k4.nQ Cc b t ch)
    (hqn : ∀ b t ch, qn (ix3 b (t : Fin 256) ch)
      = Cert.Spec.l2n Cert.Consts.k4.e12 (Cert.Spec.inormR Cert.Consts.k4.eps Cert.Consts.k4.nQ Cc) b t ch)
    (hkn : ∀ b t ch, kn (ix3 b (t : Fin 256) ch)
      = Cert.Spec.l2n Cert.Consts.k4.e12 (Cert.Spec.inormR Cert.Consts.k4.eps Cert.Consts.k4.nK Cs) b t ch)
    (hv : ∀ b t ch, v (ix3 b (t : Fin 256) ch) = Cs b t ch) :
    attn4 cs nc qn kn v ix0 = Cert.Spec.lossR Cert.Consts.k4 (Cert.Arr.flat cs) Cc Cs :=
  attn4_eq_tok cs nc qn kn v Cc Cs hnc hqn hkn hv

end Cert.ReferenceIdeal.LevelVal

end
-- ==== Proof.Ref.Level4.lean ====
/-
  The reference's level-4 loss is the specification's: the attention part's reading, at the five arrays the
  normalisation stages produce.
-/
import proofs.«170986_j45183055954173_2_alg».proof.Proof.Ref.Level4Def
import proofs.«170986_j45183055954173_2_alg».proof.Proof.Ref.Norm4Read
import proofs.«170986_j45183055954173_2_alg».proof.Proof.Ref.Attn4

noncomputable section

namespace Cert.ReferenceIdeal.LevelVal

open Cert.ReferenceIdeal Idealize.ShloMosaic Idealize.ShloMosaic.ValueIdx

/-- The level's loss, read: the specification's loss of the flattened arguments. -/
theorem lvl4_eq (cs c s : FVec Ideal S4x16x16x512 .f32) :
    lvl4 cs c s ValueIdx.ix0
      = Cert.Spec.lossR Cert.Consts.k4 (Cert.Arr.flat cs) (Cert.Arr.flat c) (Cert.Arr.flat s) :=
  attn4_eq cs (nc4 c) (qn4 c) (kn4 s) (v4 s) (Cert.Arr.flat c) (Cert.Arr.flat s)
    (nc4_apply c) (qn4_apply c) (kn4_apply s) (v4_apply s)

end Cert.ReferenceIdeal.LevelVal

end
-- ==== Proof.Ref.Result.lean ====
/-
  The reference program's result read back.

  The line `ops` is its three levels one after the other.  Level 2 leaves its loss in `main_v71`; level 3 ends by
  adding its loss to that (`main_v144`), level 4 by adding its loss to the sum (`main_v217`), and no level writes an
  argument.  So the result buffer ends holding the sum of the three levels' values of the arguments the program was
  launched with, added in that order.
-/
import proofs.«170986_j45183055954173_2_alg».proof.Proof.Ref.Read2
import proofs.«170986_j45183055954173_2_alg».proof.Proof.Ref.Read3
import proofs.«170986_j45183055954173_2_alg».proof.Proof.Ref.Read4
import proofs.«170986_j45183055954173_2_alg».proof.Proof.Ref.Level2
import proofs.«170986_j45183055954173_2_alg».proof.Proof.Ref.Level3
import proofs.«170986_j45183055954173_2_alg».proof.Proof.Ref.Level4

set_option maxRecDepth 8192

noncomputable section

namespace Cert.ReferenceIdeal.Hand

open Cert.ReferenceIdeal Cert.ReferenceIdeal.Gen Cert.ReferenceIdeal.LevelVal Idealize.ShloMosaic Idealize.ShloMosaic.TcCoe Idealize.SL.Sem Idealize.ShloMosaic.StableHlo

/-- The result buffer after the whole line: the three levels' values of the arguments, summed in order. -/
theorem result_eq (V : Valuation τ sig (Elt Ideal)) :
    after ops V (Proc.devRef .tc main_v217)
      = addf (addf (lvl2 (V (Proc.devRef .tc main_arg0)) (V (Proc.devRef .tc main_arg3)) (V (Proc.devRef .tc main_arg6)))
                (lvl3 (V (Proc.devRef .tc main_arg1)) (V (Proc.devRef .tc main_arg4)) (V (Proc.devRef .tc main_arg7))))
          (lvl4 (V (Proc.devRef .tc main_arg2)) (V (Proc.devRef .tc main_arg5)) (V (Proc.devRef .tc main_arg8))) := by
  rw [after_ops_levels, read4, read3, read2,
    lev3_keeps _ main_arg2 (by decide), lev3_keeps _ main_arg5 (by decide), lev3_keeps _ main_arg8 (by decide),
    lev2_keeps _ main_arg2 (by decide), lev2_keeps _ main_arg5 (by decide), lev2_keeps _ main_arg8 (by decide),
    lev2_keeps _ main_arg1 (by decide), lev2_keeps _ main_arg4 (by decide), lev2_keeps _ main_arg7 (by decide)]

/-- The same from a launch memory, on device `c`, as a scalar: the sum of the three levels' values at the one index. -/
theorem result_levels (m : (ℓ : Loc nD τ sig) → Buf (Elt Ideal) ℓ) (c : Dev nD) :
    after ops (fun b => m (c, b)) (Proc.devRef .tc main_v217)
      = fun _ => (lvl2 (m ((c.tc : Thread nD τ).loc main_arg0)) (m ((c.tc : Thread nD τ).loc main_arg3)) (m ((c.tc : Thread nD τ).loc main_arg6)) ValueIdx.ix0
                  + lvl3 (m ((c.tc : Thread nD τ).loc main_arg1)) (m ((c.tc : Thread nD τ).loc main_arg4)) (m ((c.tc : Thread nD τ).loc main_arg7)) ValueIdx.ix0)
                + lvl4 (m ((c.tc : Thread nD τ).loc main_arg2)) (m ((c.tc : Thread nD τ).loc main_arg5)) (m ((c.tc : Thread nD τ).loc main_arg8)) ValueIdx.ix0 := by
  rw [result_eq]
  funext j
  rw [ValueIdx.eq_ix0 j, ValueIdx.addf_apply, ValueIdx.addf_apply]

/-- The reference program's value: on device `c`, from launch memory `m`, the result buffer ends holding the sum of the
    three levels' specified losses of the launch's argument arrays. -/
theorem ref_value (m : (ℓ : Loc nD τ sig) → Buf (Elt Ideal) ℓ) (c : Dev nD) :
    after ops (fun b => m (c, b)) (Proc.devRef .tc main_v217)
      = fun _ => (Cert.Spec.lossR Cert.Consts.k2 (Cert.Arr.flat (m ((c.tc : Thread nD τ).loc main_arg0) : FVec Ideal S4x64x64x256 .f32)) (Cert.Arr.flat (m ((c.tc : Thread nD τ).loc main_arg3) : FVec Ideal S4x64x64x256 .f32)) (Cert.Arr.flat (m ((c.tc : Thread nD τ).loc main_arg6) : FVec Ideal S4x64x64x256 .f32))
                  + Cert.Spec.lossR Cert.Consts.k3 (Cert.Arr.flat (m ((c.tc : Thread nD τ).loc main_arg1) : FVec Ideal S4x32x32x512 .f32)) (Cert.Arr.flat (m ((c.tc : Thread nD τ).loc main_arg4) : FVec Ideal S4x32x32x512 .f32)) (Cert.Arr.flat (m ((c.tc : Thread nD τ).loc main_arg7) : FVec Ideal S4x32x32x512 .f32)))
                + Cert.Spec.lossR Cert.Consts.k4 (Cert.Arr.flat (m ((c.tc : Thread nD τ).loc main_arg2) : FVec Ideal S4x16x16x512 .f32)) (Cert.Arr.flat (m ((c.tc : Thread nD τ).loc main_arg5) : FVec Ideal S4x16x16x512 .f32)) (Cert.Arr.flat (m ((c.tc : Thread nD τ).loc main_arg8) : FVec Ideal S4x16x16x512 .f32)) := by
  rw [result_levels, lvl2_eq, lvl3_eq, lvl4_eq]

end Cert.ReferenceIdeal.Hand

end
-- ==== Proof.Spec.Real.lean ====
/-
  The level's loss over the real numbers, in one canonical spelling: quotients by the standard deviation, the
  weights `exp (score)` normalised by their row sum.  On finite inputs the reference's value and the kernel's
  are both this number (as an extended real).
-/
import proofs.«170986_j45183055954173_2_alg».proof.Proof.Spec

noncomputable section

namespace Cert.Spec.Re

open scoped BigOperators

variable {B Nq Nk C : ℕ}

section Stats
variable {N : ℕ}
def mean (n : ℝ) (x : Fin B → Fin N → Fin C → ℝ) (b : Fin B) (ch : Fin C) : ℝ := (∑ t, x b t ch) / n
def var (n : ℝ) (x : Fin B → Fin N → Fin C → ℝ) (b : Fin B) (ch : Fin C) : ℝ :=
  (∑ t, (x b t ch - mean n x b ch) * (x b t ch - mean n x b ch)) / n
def sd (eps n : ℝ) (x : Fin B → Fin N → Fin C → ℝ) (b : Fin B) (ch : Fin C) : ℝ := Real.sqrt (var n x b ch + eps)
def inorm (eps n : ℝ) (x : Fin B → Fin N → Fin C → ℝ) (b : Fin B) (t : Fin N) (ch : Fin C) : ℝ :=
  (x b t ch - mean n x b ch) / sd eps n x b ch
def l2n (e12 : ℝ) (y : Fin B → Fin N → Fin C → ℝ) (b : Fin B) (t : Fin N) (ch : Fin C) : ℝ :=
  y b t ch / max (Real.sqrt (∑ ch', y b t ch' * y b t ch')) e12
end Stats

variable (k : Cert.Spec.Consts)
  (cs c : Fin B → Fin Nq → Fin C → ℝ) (s : Fin B → Fin Nk → Fin C → ℝ)

def score (b : Fin B) (q : Fin Nq) (m : Fin Nk) : ℝ :=
  ∑ ch, l2n k.e12 (inorm k.eps k.nQ c) b q ch * l2n k.e12 (inorm k.eps k.nK s) b m ch
/-- The weight of key `m` for query `q`. -/
def w (b : Fin B) (q : Fin Nq) (m : Fin Nk) : ℝ := Real.exp (score k c s b q m)
def wsum (b : Fin B) (q : Fin Nq) : ℝ := ∑ m, w k c s b q m
def wmean (b : Fin B) (q : Fin Nq) (ch : Fin C) : ℝ := (∑ m, w k c s b q m * s b m ch) / wsum k c s b q
def wmean2 (b : Fin B) (q : Fin Nq) (ch : Fin C) : ℝ := (∑ m, w k c s b q m * (s b m ch * s b m ch)) / wsum k c s b q
def spread (M M2 : ℝ) : ℝ := Real.sqrt (max (M2 - M * M) 0 + k.e12)
def aat (b : Fin B) (q : Fin Nq) (ch : Fin C) : ℝ :=
  spread k (wmean k c s b q ch) (wmean2 k c s b q ch) * inorm k.eps k.nQ c b q ch + wmean k c s b q ch
/-- The level's loss over the reals. -/
def loss : ℝ :=
  (∑ b, ∑ q, ∑ ch, (cs b q ch - aat k c s b q ch) * (cs b q ch - aat k c s b q ch)) / k.nTot

end Cert.Spec.Re

namespace Cert.Spec

/-- An array of reals read as an array of extended reals. -/
abbrev up {B N C : ℕ} (x : Fin B → Fin N → Fin C → ℝ) : Fin B → Fin N → Fin C → EReal := fun b t ch => (x b t ch : EReal)

end Cert.Spec

end
-- ==== Proof.Spec.RefLift.lean ====
/-
  On arrays of real numbers read as extended reals, the statistics of a level (mean, variance, deviation,
  the two normalisations, the scores) are the coercions of their real counterparts.  Each lemma pushes the
  coercion one definition further out; the only side conditions are that the divisors are not zero and that
  the numbers under the roots are not negative.
-/
import proofs.«170986_j45183055954173_2_alg».proof.Proof.Spec.Real

noncomputable section

namespace Cert.Spec.RefSide

open Idealize.ShloMosaic
open scoped BigOperators

/-! ## Coercions and the exact operations -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-- The exact quotient of two reals, the divisor not zero, is the real quotient. -/
theorem div_coe_coe (a : ℝ) {y : ℝ} (h : y ≠ 0) :
    Ideal.div (a : EReal) (y : EReal) = ((a / y : ℝ) : EReal) := by
  rw [Ideal.div_coe h, ← EReal.coe_mul, mul_one_div]

/-- The exact root of a real that is not negative is the real root. -/
theorem sqrt_coe_of_nonneg {r : ℝ} (h : 0 ≤ r) : Ideal.sqrt (r : EReal) = ((Real.sqrt r : ℝ) : EReal) := by
  rw [Ideal.sqrt_coe, if_neg (not_lt.mpr h)]

/-! ## The statistics -/

section Stats

variable {B N C : ℕ}

theorem mean_up {n : ℝ} (hn : n ≠ 0) (x : Fin B → Fin N → Fin C → ℝ) (b : Fin B) (ch : Fin C) :
    Cert.Spec.mean n (up x) b ch = ((Re.mean n x b ch : ℝ) : EReal) := by
  show Ideal.div (∑ t, (x b t ch : EReal)) (n : EReal) = (((∑ t, x b t ch) / n : ℝ) : EReal)
  rw [← coe_sum, div_coe_coe _ hn]

theorem var_up {n : ℝ} (hn : n ≠ 0) (x : Fin B → Fin N → Fin C → ℝ) (b : Fin B) (ch : Fin C) :
    Cert.Spec.var n (up x) b ch = ((Re.var n x b ch : ℝ) : EReal) := by
  show Ideal.div (∑ t, ((x b t ch : EReal) - Cert.Spec.mean n (up x) b ch)
      * ((x b t ch : EReal) - Cert.Spec.mean n (up x) b ch)) (n : EReal)
    = (((∑ t, (x b t ch - Re.mean n x b ch) * (x b t ch - Re.mean n x b ch)) / n : ℝ) : EReal)
  rw [mean_up hn]
  simp only [← EReal.coe_sub, ← EReal.coe_mul]
  rw [← coe_sum, div_coe_coe _ hn]

/-- The variance is a sum of squares over a positive number. -/
theorem var_nonneg {n : ℝ} (hn : 0 < n) (x : Fin B → Fin N → Fin C → ℝ) (b : Fin B) (ch : Fin C) :
    0 ≤ Re.var n x b ch :=
  div_nonneg (Finset.sum_nonneg (fun _ _ => mul_self_nonneg _)) hn.le

/-- The deviation is positive: the root of a number that is at least the positive epsilon. -/
theorem sd_pos {eps n : ℝ} (he : 0 < eps) (hn : 0 < n) (x : Fin B → Fin N → Fin C → ℝ) (b : Fin B)
    (ch : Fin C) : 0 < Re.sd eps n x b ch :=
  Real.sqrt_pos.mpr (add_pos_of_nonneg_of_pos (var_nonneg hn x b ch) he)

theorem sd_up {eps n : ℝ} (he : 0 < eps) (hn : 0 < n) (x : Fin B → Fin N → Fin C → ℝ) (b : Fin B)
    (ch : Fin C) : Cert.Spec.sd eps n (up x) b ch = ((Re.sd eps n x b ch : ℝ) : EReal) := by
  show Ideal.sqrt (Cert.Spec.var n (up x) b ch + (eps : EReal)) = ((Real.sqrt (Re.var n x b ch + eps) : ℝ) : EReal)
  rw [var_up hn.ne', ← EReal.coe_add, sqrt_coe_of_nonneg (add_nonneg (var_nonneg hn x b ch) he.le)]

/-- The normalisation by the deviation, as a quotient. -/
theorem inormR_up {eps n : ℝ} (he : 0 < eps) (hn : 0 < n) (x : Fin B → Fin N → Fin C → ℝ) :
    Cert.Spec.inormR eps n (up x) = up (Re.inorm eps n x) := by
  funext b t ch
  show Ideal.div ((x b t ch : EReal) - Cert.Spec.mean n (up x) b ch) (Cert.Spec.sd eps n (up x) b ch)
    = (((x b t ch - Re.mean n x b ch) / Re.sd eps n x b ch : ℝ) : EReal)
  rw [mean_up hn.ne', sd_up he hn, ← EReal.coe_sub, div_coe_coe _ (sd_pos he hn x b ch).ne']

/-- The floored norm is positive. -/
theorem norm_floor_pos {e12 : ℝ} (he : 0 < e12) (r : ℝ) : 0 < max r e12 :=
  lt_of_lt_of_le he (le_max_right _ _)

/-- The division by the floored euclidean norm. -/
theorem l2n_up {e12 : ℝ} (he : 0 < e12) (y : Fin B → Fin N → Fin C → ℝ) :
    Cert.Spec.l2n e12 (up y) = up (Re.l2n e12 y) := by
  funext b t ch
  show Ideal.div (y b t ch : EReal)
      (max (Ideal.sqrt (∑ ch', (y b t ch' : EReal) * (y b t ch' : EReal))) (e12 : EReal))
    = ((y b t ch / max (Real.sqrt (∑ ch', y b t ch' * y b t ch')) e12 : ℝ) : EReal)
  simp only [← EReal.coe_mul]
  rw [← coe_sum, sqrt_coe_of_nonneg (Finset.sum_nonneg (fun _ _ => mul_self_nonneg _)), ← coe_max,
    div_coe_coe _ (norm_floor_pos he _).ne']

end Stats

/-! ## The scores -/

section Score

variable {B Nq Nk C : ℕ}

theorem score_up (qn : Fin B → Fin Nq → Fin C → ℝ) (kn : Fin B → Fin Nk → Fin C → ℝ)
    (b : Fin B) (q : Fin Nq) (m : Fin Nk) :
    Cert.Spec.score (up qn) (up kn) b q m = ((∑ ch, qn b q ch * kn b m ch : ℝ) : EReal) := by
  show ∑ ch, (qn b q ch : EReal) * (kn b m ch : EReal) = ((∑ ch, qn b q ch * kn b m ch : ℝ) : EReal)
  simp only [← EReal.coe_mul]
  rw [← coe_sum]

/-- The reference's scores on real inputs are the real scores. -/
theorem scoreR_up (k : Cert.Spec.Consts) (hk : k.Pos) (c : Fin B → Fin Nq → Fin C → ℝ)
    (s : Fin B → Fin Nk → Fin C → ℝ) (b : Fin B) (q : Fin Nq) (m : Fin Nk) :
    Cert.Spec.scoreR k (up c) (up s) b q m = ((Re.score k c s b q m : ℝ) : EReal) := by
  unfold Cert.Spec.scoreR
  rw [inormR_up hk.eps hk.nQ, inormR_up hk.eps hk.nK, l2n_up hk.e12, l2n_up hk.e12, score_up]
  rfl

end Score

end Cert.Spec.RefSide

end
-- ==== Proof.Spec.RefSoftmax.lean ====
/-
  The reference's softmax on real inputs.  The row's largest score is a real number `μ` (the scores are real
  and a row is not empty), so every shifted exponential `exp (σ - μ)` is real and their row sum is positive;
  the common factor `exp (-μ)` cancels in the quotient, which leaves the weight `exp σ` over the row sum of
  the weights.  The weighted means of the style's values and of their squares follow.
-/
import proofs.«170986_j45183055954173_2_alg».proof.Proof.Spec.RefLift

noncomputable section

namespace Cert.Spec.RefSide

open Idealize.ShloMosaic
open scoped BigOperators

/-! ## The largest of finitely many reals is a real -/

/-- Folding `max` from `⊥` over a nonempty family of coerced reals gives a coerced real. -/
theorem fold_max_coe {ι : Type*} (s : Finset ι) (hs : s.Nonempty) (f : ι → ℝ) :
    ∃ μ : ℝ, s.fold max (⊥ : EReal) (fun i => (f i : EReal)) = (μ : EReal) := by
  induction hs using Finset.Nonempty.cons_induction with
  | singleton a => exact ⟨f a, by rw [Finset.fold_singleton, max_bot_right]⟩
  | cons a s ha hs ih =>
    obtain ⟨μ, hμ⟩ := ih
    exact ⟨max (f a) μ, by rw [Finset.fold_cons, hμ, coe_max]⟩

/-! ## The shift cancels -/

/-- A positive row sum of exponentials. -/
theorem sum_exp_pos {ι : Type*} [Fintype ι] [Nonempty ι] (σ : ι → ℝ) : 0 < ∑ m, Real.exp (σ m) :=
  Finset.sum_pos (fun _ _ => Real.exp_pos _) Finset.univ_nonempty

/-- Subtracting one number from all the scores does not change the softmax. -/
theorem softmax_shift {ι : Type*} [Fintype ι] (σ : ι → ℝ) (μ : ℝ) (m : ι) :
    Real.exp (σ m - μ) / ∑ m', Real.exp (σ m' - μ) = Real.exp (σ m) / ∑ m', Real.exp (σ m') := by
  simp only [Real.exp_sub]
  rw [← Finset.sum_div, div_div_div_cancel_right₀ (Real.exp_pos μ).ne']

/-! ## The reference's weights and weighted means -/

section Ref

variable {B Nq Nk C : ℕ} (k : Cert.Spec.Consts) (hk : k.Pos) (hNk : 0 < Nk)
  (c : Fin B → Fin Nq → Fin C → ℝ) (s : Fin B → Fin Nk → Fin C → ℝ)

include hk

/-- The sum of a row's weights is positive. -/
theorem wsum_pos (hNk : 0 < Nk) (b : Fin B) (q : Fin Nq) : 0 < Re.wsum k c s b q := by
  haveI : Nonempty (Fin Nk) := ⟨⟨0, hNk⟩⟩
  exact sum_exp_pos _

/-- The largest score of a row is a real number. -/
theorem rowMaxR_up (hNk : 0 < Nk) (b : Fin B) (q : Fin Nq) :
    ∃ μ : ℝ, Cert.Spec.rowMaxR k (up c) (up s) b q = (μ : EReal) := by
  haveI : Nonempty (Fin Nk) := ⟨⟨0, hNk⟩⟩
  unfold Cert.Spec.rowMaxR
  simp only [scoreR_up k hk]
  exact fold_max_coe Finset.univ Finset.univ_nonempty _

/-- The shifted exponential, the row's maximum being the real `μ`. -/
theorem expR_up (b : Fin B) (q : Fin Nq) (μ : ℝ) (hμ : Cert.Spec.rowMaxR k (up c) (up s) b q = (μ : EReal))
    (m : Fin Nk) :
    Cert.Spec.expR k (up c) (up s) b q m = ((Real.exp (Re.score k c s b q m - μ) : ℝ) : EReal) := by
  unfold Cert.Spec.expR
  rw [scoreR_up k hk, hμ, ← EReal.coe_sub, Ideal.exp_coe]

/-- The softmax weight is the weight over the row sum of the weights. -/
theorem attnR_up (hNk : 0 < Nk) (b : Fin B) (q : Fin Nq) (m : Fin Nk) :
    Cert.Spec.attnR k (up c) (up s) b q m = ((Re.w k c s b q m / Re.wsum k c s b q : ℝ) : EReal) := by
  haveI : Nonempty (Fin Nk) := ⟨⟨0, hNk⟩⟩
  obtain ⟨μ, hμ⟩ := rowMaxR_up k hk c s hNk b q
  unfold Cert.Spec.attnR
  simp only [expR_up k hk c s b q μ hμ]
  rw [← coe_sum, div_coe_coe _ (sum_exp_pos _).ne', softmax_shift]
  rfl

/-- Weighing by the softmax weights is weighing by the weights and dividing by their sum. -/
theorem sum_attn_mul (b : Fin B) (q : Fin Nq) (v : Fin Nk → ℝ) :
    ∑ m, Re.w k c s b q m / Re.wsum k c s b q * v m = (∑ m, Re.w k c s b q m * v m) / Re.wsum k c s b q := by
  rw [Finset.sum_div]
  exact Finset.sum_congr rfl (fun m _ => div_mul_eq_mul_div _ _ _)

theorem meanR_up (hNk : 0 < Nk) (b : Fin B) (q : Fin Nq) (ch : Fin C) :
    Cert.Spec.meanR k (up c) (up s) b q ch = ((Re.wmean k c s b q ch : ℝ) : EReal) := by
  show ∑ m, Cert.Spec.attnR k (up c) (up s) b q m * (s b m ch : EReal) = ((Re.wmean k c s b q ch : ℝ) : EReal)
  simp only [attnR_up k hk c s hNk, ← EReal.coe_mul]
  rw [← coe_sum, sum_attn_mul k hk c s b q (fun m => s b m ch)]
  rfl

theorem mean2R_up (hNk : 0 < Nk) (b : Fin B) (q : Fin Nq) (ch : Fin C) :
    Cert.Spec.mean2R k (up c) (up s) b q ch = ((Re.wmean2 k c s b q ch : ℝ) : EReal) := by
  show ∑ m, Cert.Spec.attnR k (up c) (up s) b q m * ((s b m ch : EReal) * (s b m ch : EReal))
    = ((Re.wmean2 k c s b q ch : ℝ) : EReal)
  simp only [attnR_up k hk c s hNk, ← EReal.coe_mul]
  rw [← coe_sum, sum_attn_mul k hk c s b q (fun m => s b m ch * s b m ch)]
  rfl

end Ref

end Cert.Spec.RefSide

end
-- ==== Proof.Spec.RefReal.lean ====
/-
  The reference's loss of a level on real inputs is the real loss (as an extended real).  What is left after the
  statistics and the softmax: the attention-weighted spread (a root of a number that is at least the positive
  floor), the transferred feature, and the mean of the squared errors over the positive number of elements.
-/
import proofs.«170986_j45183055954173_2_alg».proof.Proof.Spec.RefSoftmax

noncomputable section

namespace Cert.Spec.RefSide

open Idealize.ShloMosaic
open scoped BigOperators

/-- The attention-weighted deviation of two reals is the real one: the number under the root is the positive
    floor plus something that is not negative. -/
theorem spread_up (k : Cert.Spec.Consts) (hk : k.Pos) (M M2 : ℝ) :
    Cert.Spec.spread k.e12 (M : EReal) (M2 : EReal) = ((Re.spread k M M2 : ℝ) : EReal) := by
  show Ideal.sqrt (max ((M2 : EReal) - (M : EReal) * (M : EReal)) 0 + (k.e12 : EReal))
    = ((Real.sqrt (max (M2 - M * M) 0 + k.e12) : ℝ) : EReal)
  rw [← EReal.coe_mul, ← EReal.coe_sub, ← EReal.coe_zero, ← coe_max, ← EReal.coe_add,
    sqrt_coe_of_nonneg (add_nonneg (le_max_right _ _) hk.e12.le)]

section Ref

variable {B Nq Nk C : ℕ}

/-- The transferred feature. -/
theorem aatR_up (k : Cert.Spec.Consts) (hk : k.Pos) (hNk : 0 < Nk) (c : Fin B → Fin Nq → Fin C → ℝ)
    (s : Fin B → Fin Nk → Fin C → ℝ) (b : Fin B) (q : Fin Nq) (ch : Fin C) :
    Cert.Spec.aatR k (up c) (up s) b q ch = ((Re.aat k c s b q ch : ℝ) : EReal) := by
  unfold Cert.Spec.aatR
  rw [meanR_up k hk c s hNk, mean2R_up k hk c s hNk, spread_up k hk, inormR_up hk.eps hk.nQ]
  show ((Re.spread k (Re.wmean k c s b q ch) (Re.wmean2 k c s b q ch) : ℝ) : EReal)
      * ((Re.inorm k.eps k.nQ c b q ch : ℝ) : EReal) + ((Re.wmean k c s b q ch : ℝ) : EReal)
    = ((Re.aat k c s b q ch : ℝ) : EReal)
  rw [← EReal.coe_mul, ← EReal.coe_add]
  rfl

end Ref

/-- On real inputs the reference's value of a level is the real loss. -/
theorem lossR_eq (B Nq Nk C : ℕ) (k : Cert.Spec.Consts) (hk : k.Pos) (hNk : 0 < Nk)
    (cs c : Fin B → Fin Nq → Fin C → ℝ) (s : Fin B → Fin Nk → Fin C → ℝ) :
    Cert.Spec.lossR k (Cert.Spec.up cs) (Cert.Spec.up c) (Cert.Spec.up s)
      = ((Cert.Spec.Re.loss k cs c s : ℝ) : EReal) := by
  show Ideal.div (∑ b, ∑ q, ∑ ch, ((cs b q ch : EReal) - Cert.Spec.aatR k (up c) (up s) b q ch)
      * ((cs b q ch : EReal) - Cert.Spec.aatR k (up c) (up s) b q ch)) (k.nTot : EReal)
    = ((Cert.Spec.Re.loss k cs c s : ℝ) : EReal)
  simp only [aatR_up k hk hNk c s, ← EReal.coe_sub, ← EReal.coe_mul, ← coe_sum]
  rw [div_coe_coe _ hk.nTot.ne']
  rfl

end Cert.Spec.RefSide

end
-- ==== Proof.Spec.KerLift.lean ====
/-
  The operations on the extended reals at real arguments, and the per-channel statistics of a real array: on an
  array of reals read as extended reals, the mean, the variance, the standard deviation, the kernel's
  normalisation (a product with the reciprocal of the deviation), the division by the floored euclidean norm and
  the inner product are the coercions of the corresponding real quantities.

  The standard deviation is positive: the variance is a sum of squares over a positive number, and a positive
  epsilon is added under the root.  The norm's denominator is at least the positive floor.  So no division meets
  a zero, and the product with a reciprocal is the quotient.
-/
import proofs.«170986_j45183055954173_2_alg».proof.Proof.Spec.Real

noncomputable section

namespace Cert.Spec.KerSide

open Idealize.ShloMosaic
open scoped BigOperators

/-! ## The operations at real arguments -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exact quotient of two reals, the divisor not zero, is the real quotient. -/
theorem div_coe_coe (a : ℝ) {y : ℝ} (h : y ≠ 0) :
    Ideal.div (a : EReal) (y : EReal) = ((a / y : ℝ) : EReal) := by
  rw [Ideal.div_coe h, ← EReal.coe_mul, mul_one_div]

/-- The exact reciprocal of a real that is not zero. -/
theorem one_div_coe {y : ℝ} (h : y ≠ 0) :
    Ideal.div 1 (y : EReal) = ((1 / y : ℝ) : EReal) := by
  rw [← EReal.coe_one, div_coe_coe 1 h]

/-- The exact root of a real that is not negative. -/
theorem sqrt_coe_of_nonneg {r : ℝ} (h : 0 ≤ r) :
    Ideal.sqrt (r : EReal) = ((Real.sqrt r : ℝ) : EReal) := by
  rw [Ideal.sqrt_coe, if_neg (not_lt.mpr h)]

/-- The larger of two reals. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-! ## Sums over an axis cut into blocks -/

/-- A sum over the blocks of an axis, and within each block over its entries, is the sum over the axis. -/
theorem sum_tix {M : Type*} [AddCommMonoid M] {m n : ℕ} (f : Fin (m * n) → M) :
    ∑ i : Fin m, ∑ j : Fin n, f (Cert.Spec.tix i j) = ∑ t : Fin (m * n), f t := by
  rw [← Fintype.sum_prod_type' (fun i j => f (Cert.Spec.tix i j))]
  exact Equiv.sum_comp finProdFinEquiv f

/-- The same for two axes cut into tiles: the sum over the tiles of the sums within each tile. -/
theorem sum_tiles {M : Type*} [AddCommMonoid M] {nb bb nq tq : ℕ} (g : Fin (nb * bb) → Fin (nq * tq) → M) :
    ∑ bi : Fin nb, ∑ qi : Fin nq, ∑ b' : Fin bb, ∑ q' : Fin tq, g (Cert.Spec.tix bi b') (Cert.Spec.tix qi q')
      = ∑ b, ∑ q, g b q := by
  rw [← sum_tix (fun b => ∑ q, g b q)]
  refine Finset.sum_congr rfl fun bi _ => ?_
  rw [Finset.sum_comm]
  refine Finset.sum_congr rfl fun b' _ => ?_
  exact sum_tix (fun q => g (Cert.Spec.tix bi b') q)

/-! ## The statistics of a real array -/

section Stats

variable {B N C : ℕ}

theorem mean_up {n : ℝ} (hn : n ≠ 0) (x : Fin B → Fin N → Fin C → ℝ) (b : Fin B) (ch : Fin C) :
    Cert.Spec.mean n (up x) b ch = ((Re.mean n x b ch : ℝ) : EReal) := by
  unfold Cert.Spec.mean Re.mean
  simp only [up, ← coe_sum]
  rw [div_coe_coe _ hn]

theorem var_up {n : ℝ} (hn : n ≠ 0) (x : Fin B → Fin N → Fin C → ℝ) (b : Fin B) (ch : Fin C) :
    Cert.Spec.var n (up x) b ch = ((Re.var n x b ch : ℝ) : EReal) := by
  unfold Cert.Spec.var Re.var
  rw [mean_up hn]
  simp only [up, ← EReal.coe_sub, ← EReal.coe_mul, ← coe_sum]
  rw [div_coe_coe _ hn]

/-- The variance is a sum of squares over a positive number. -/
theorem var_nonneg {n : ℝ} (hn : 0 < n) (x : Fin B → Fin N → Fin C → ℝ) (b : Fin B) (ch : Fin C) :
    0 ≤ Re.var n x b ch := by
  unfold Re.var
  exact div_nonneg (Finset.sum_nonneg fun t _ => mul_self_nonneg _) hn.le

/-- The standard deviation is positive: a positive epsilon stands under the root. -/
theorem sd_pos {eps n : ℝ} (he : 0 < eps) (hn : 0 < n) (x : Fin B → Fin N → Fin C → ℝ) (b : Fin B)
    (ch : Fin C) : 0 < Re.sd eps n x b ch := by
  unfold Re.sd
  exact Real.sqrt_pos.mpr (add_pos_of_nonneg_of_pos (var_nonneg hn x b ch) he)

theorem sd_up {eps n : ℝ} (he : 0 < eps) (hn : 0 < n) (x : Fin B → Fin N → Fin C → ℝ) (b : Fin B)
    (ch : Fin C) : Cert.Spec.sd eps n (up x) b ch = ((Re.sd eps n x b ch : ℝ) : EReal) := by
  unfold Cert.Spec.sd Re.sd
  rw [var_up hn.ne', ← EReal.coe_add, sqrt_coe_of_nonneg (add_nonneg (var_nonneg hn x b ch) he.le)]

/-- The kernel's normalisation: the product with the reciprocal of the deviation is the quotient by it. -/
theorem inormK_up {eps n : ℝ} (he : 0 < eps) (hn : 0 < n) (x : Fin B → Fin N → Fin C → ℝ) :
    Cert.Spec.inormK eps n (up x) = up (Re.inorm eps n x) := by
  funext b t ch
  unfold Cert.Spec.inormK Re.inorm
  rw [mean_up hn.ne', sd_up he hn, one_div_coe (sd_pos he hn x b ch).ne']
  simp only [up, ← EReal.coe_sub, ← EReal.coe_mul, mul_one_div]

/-- The division by the floored norm: the denominator is at least the positive floor. -/
theorem l2n_up {e12 : ℝ} (he : 0 < e12) (y : Fin B → Fin N → Fin C → ℝ) :
    Cert.Spec.l2n e12 (up y) = up (Re.l2n e12 y) := by
  funext b t ch
  unfold Cert.Spec.l2n Re.l2n
  simp only [up, ← EReal.coe_mul, ← coe_sum]
  rw [sqrt_coe_of_nonneg (Finset.sum_nonneg fun _ _ => mul_self_nonneg _), max_coe,
    div_coe_coe _ (lt_of_lt_of_le he (le_max_right _ _)).ne']

end Stats

/-- The inner product over the channels. -/
theorem score_up {B Nq Nk C : ℕ} (qn : Fin B → Fin Nq → Fin C → ℝ) (kn : Fin B → Fin Nk → Fin C → ℝ)
    (b : Fin B) (q : Fin Nq) (m : Fin Nk) :
    Cert.Spec.score (up qn) (up kn) b q m = ((∑ ch, qn b q ch * kn b m ch : ℝ) : EReal) := by
  unfold Cert.Spec.score
  simp only [up, ← EReal.coe_mul, ← coe_sum]

/-- The attention-weighted deviation of two reals. -/
theorem spread_up (k : Cert.Spec.Consts) (hk : k.Pos) (M M2 : ℝ) :
    Cert.Spec.spread k.e12 (M : EReal) (M2 : EReal) = ((Re.spread k M M2 : ℝ) : EReal) := by
  unfold Cert.Spec.spread Re.spread
  rw [← EReal.coe_mul, ← EReal.coe_sub, ← EReal.coe_zero, max_coe, ← EReal.coe_add,
    sqrt_coe_of_nonneg (add_nonneg (le_max_right _ _) hk.e12.le)]

end Cert.Spec.KerSide

end
-- ==== Proof.Spec.KerReal.lean ====
/-
  The kernel's form of one level's loss, on real inputs, is the loss over the reals.

  Step by step along the kernel's definitions: the scores are the real scores (the normalisation by a product with
  the reciprocal of the deviation is the quotient); the weights are their exponentials; the sums taken key block by
  key block are the sums over all the keys; the sum of the weights is positive (there is a key, and an exponential
  is positive), so the scaling by its reciprocal is the quotient; the tiles' sums of squared errors add up to the
  sum over all batch entries and query tokens; and the 8 × 128 copies of each tile's sum, divided by 1024, are
  the tile's sum.
-/
import proofs.«170986_j45183055954173_2_alg».proof.Proof.Spec.KerLift

noncomputable section

namespace Cert.Spec.KerSide

open Idealize.ShloMosaic
open scoped BigOperators

section Ker

variable (nb bb nq tq nk tk : ℕ) {C : ℕ} (k : Cert.Spec.Consts) (hk : k.Pos)
  (cs c : Fin (nb * bb) → Fin (nq * tq) → Fin C → ℝ) (s : Fin (nb * bb) → Fin (nk * tk) → Fin C → ℝ)

include hk

/-- The kernel's scores. -/
theorem scoreK_up (b : Fin (nb * bb)) (q : Fin (nq * tq)) (m : Fin (nk * tk)) :
    Cert.Spec.scoreK nb bb nq tq nk tk k (up c) (up s) b q m = ((Re.score k c s b q m : ℝ) : EReal) := by
  unfold Cert.Spec.scoreK Re.score
  rw [inormK_up hk.eps hk.nQ, inormK_up hk.eps hk.nK, l2n_up hk.e12, l2n_up hk.e12, score_up]

/-- The weight of a key. -/
theorem expK_up (b : Fin (nb * bb)) (q : Fin (nq * tq)) (m : Fin (nk * tk)) :
    Cert.Spec.expK nb bb nq tq nk tk k (up c) (up s) b q m = ((Re.w k c s b q m : ℝ) : EReal) := by
  unfold Cert.Spec.expK Re.w
  rw [scoreK_up nb bb nq tq nk tk k hk, Ideal.exp_coe]

/-- The sum of a row's weights: the blocks' sums add up to the sum over all the keys. -/
theorem sumK_up (b : Fin (nb * bb)) (q : Fin (nq * tq)) :
    Cert.Spec.sumK nb bb nq tq nk tk k (up c) (up s) b q = ((Re.wsum k c s b q : ℝ) : EReal) := by
  unfold Cert.Spec.sumK Re.wsum
  rw [sum_tix (fun m => Cert.Spec.expK nb bb nq tq nk tk k (up c) (up s) b q m)]
  simp only [expK_up nb bb nq tq nk tk k hk, ← coe_sum]

/-- The weighted sum of the style's values. -/
theorem accK_up (b : Fin (nb * bb)) (q : Fin (nq * tq)) (ch : Fin C) :
    Cert.Spec.accK nb bb nq tq nk tk k (up c) (up s) b q ch
      = ((∑ m, Re.w k c s b q m * s b m ch : ℝ) : EReal) := by
  unfold Cert.Spec.accK
  rw [sum_tix (fun m => Cert.Spec.expK nb bb nq tq nk tk k (up c) (up s) b q m * up s b m ch)]
  simp only [expK_up nb bb nq tq nk tk k hk, up, ← EReal.coe_mul, ← coe_sum]

/-- The weighted sum of the squares of the style's values. -/
theorem acc2K_up (b : Fin (nb * bb)) (q : Fin (nq * tq)) (ch : Fin C) :
    Cert.Spec.acc2K nb bb nq tq nk tk k (up c) (up s) b q ch
      = ((∑ m, Re.w k c s b q m * (s b m ch * s b m ch) : ℝ) : EReal) := by
  unfold Cert.Spec.acc2K
  rw [sum_tix (fun m => Cert.Spec.expK nb bb nq tq nk tk k (up c) (up s) b q m
    * (up s b m ch * up s b m ch))]
  simp only [expK_up nb bb nq tq nk tk k hk, up, ← EReal.coe_mul, ← coe_sum]

omit hk in
/-- The sum of a row's weights is positive: there is a key, and every weight is an exponential. -/
theorem wsum_pos (hNk : 0 < nk * tk) (b : Fin (nb * bb)) (q : Fin (nq * tq)) : 0 < Re.wsum k c s b q := by
  unfold Re.wsum Re.w
  exact Finset.sum_pos (fun m _ => Real.exp_pos _) ⟨⟨0, hNk⟩, Finset.mem_univ _⟩

variable (hNk : 0 < nk * tk)

include hNk

/-- The weighted mean: the scaling by the reciprocal of the sum of the weights is the quotient by it. -/
theorem meanK_up (b : Fin (nb * bb)) (q : Fin (nq * tq)) (ch : Fin C) :
    Cert.Spec.meanK nb bb nq tq nk tk k (up c) (up s) b q ch = ((Re.wmean k c s b q ch : ℝ) : EReal) := by
  unfold Cert.Spec.meanK Re.wmean
  rw [accK_up nb bb nq tq nk tk k hk, sumK_up nb bb nq tq nk tk k hk,
    one_div_coe (wsum_pos nb bb nq tq nk tk k c s hNk b q).ne', ← EReal.coe_mul, mul_one_div]

/-- The weighted mean of the squares. -/
theorem mean2K_up (b : Fin (nb * bb)) (q : Fin (nq * tq)) (ch : Fin C) :
    Cert.Spec.mean2K nb bb nq tq nk tk k (up c) (up s) b q ch = ((Re.wmean2 k c s b q ch : ℝ) : EReal) := by
  unfold Cert.Spec.mean2K Re.wmean2
  rw [acc2K_up nb bb nq tq nk tk k hk, sumK_up nb bb nq tq nk tk k hk,
    one_div_coe (wsum_pos nb bb nq tq nk tk k c s hNk b q).ne', ← EReal.coe_mul, mul_one_div]

/-- The transferred feature. -/
theorem aatK_up (b : Fin (nb * bb)) (q : Fin (nq * tq)) (ch : Fin C) :
    Cert.Spec.aatK nb bb nq tq nk tk k (up c) (up s) b q ch = ((Re.aat k c s b q ch : ℝ) : EReal) := by
  unfold Cert.Spec.aatK Re.aat
  rw [meanK_up nb bb nq tq nk tk k hk c s hNk, mean2K_up nb bb nq tq nk tk k hk c s hNk, spread_up k hk,
    inormK_up hk.eps hk.nQ]
  simp only [up, ← EReal.coe_mul, ← EReal.coe_add]

/-- The squared errors of one tile added up. -/
theorem tileK_up (bi : Fin nb) (qi : Fin nq) :
    Cert.Spec.tileK nb bb nq tq nk tk k (up cs) (up c) (up s) bi qi
      = ((∑ b' : Fin bb, ∑ q' : Fin tq, ∑ ch : Fin C,
          (cs (Cert.Spec.tix bi b') (Cert.Spec.tix qi q') ch
              - Re.aat k c s (Cert.Spec.tix bi b') (Cert.Spec.tix qi q') ch)
            * (cs (Cert.Spec.tix bi b') (Cert.Spec.tix qi q') ch
              - Re.aat k c s (Cert.Spec.tix bi b') (Cert.Spec.tix qi q') ch) : ℝ) : EReal) := by
  unfold Cert.Spec.tileK
  simp only [aatK_up nb bb nq tq nk tk k hk c s hNk, up, ← EReal.coe_sub, ← EReal.coe_mul, ← coe_sum]

end Ker

/-- The kernel's loss of a level on real inputs is the level's loss over the reals. -/
theorem lossK_eq (nb bb nq tq nk tk C : ℕ) (k : Cert.Spec.Consts) (hk : k.Pos) (hNk : 0 < nk * tk)
    (cs c : Fin (nb * bb) → Fin (nq * tq) → Fin C → ℝ) (s : Fin (nb * bb) → Fin (nk * tk) → Fin C → ℝ) :
    Cert.Spec.lossK nb bb nq tq nk tk k (Cert.Spec.up cs) (Cert.Spec.up c) (Cert.Spec.up s)
      = ((Cert.Spec.Re.loss (B := nb * bb) (Nq := nq * tq) (Nk := nk * tk) k cs c s : ℝ) : EReal) := by
  have h1024 : k.k1024 ≠ 0 := by rw [hk.k1024]; norm_num
  unfold Cert.Spec.lossK Re.loss
  simp only [tileK_up nb bb nq tq nk tk k hk cs c s hNk, ← coe_sum]
  rw [div_coe_coe _ h1024, div_coe_coe _ hk.nTot.ne']
  congr 2
  -- the 8 × 128 copies of a tile's sum, over 1024, are the tile's sum; the tiles' sums add up to the whole sum
  simp only [Finset.sum_const, Finset.card_univ, Fintype.card_fin, nsmul_eq_mul, ← Finset.mul_sum]
  rw [hk.k1024, sum_tiles (fun b q => ∑ ch : Fin C, (cs b q ch - Re.aat k c s b q ch) * (cs b q ch - Re.aat k c s b q ch))]
  norm_num
  ring

end Cert.Spec.KerSide

end
-- ==== Proof.Total.lean ====
/-
  On real inputs the kernel's level loss is the reference's: both are the coerced real loss.
-/
import proofs.«170986_j45183055954173_2_alg».proof.Proof.Spec.RefReal
import proofs.«170986_j45183055954173_2_alg».proof.Proof.Spec.KerReal
import proofs.«170986_j45183055954173_2_alg».proof.Proof.Consts

noncomputable section

namespace Cert.Total

open Cert.Spec

/-- One level: tiles of `bb` batch entries by `tq` queries, key blocks of `tk`, against the untiled reference. -/
theorem level_eq (nb bb nq tq nk tk C : ℕ) (k : Consts) (hk : k.Pos) (hNk : 0 < nk * tk)
    (cs c : Fin (nb * bb) → Fin (nq * tq) → Fin C → ℝ) (s : Fin (nb * bb) → Fin (nk * tk) → Fin C → ℝ) :
    lossK nb bb nq tq nk tk k (up cs) (up c) (up s) = lossR k (up cs) (up c) (up s) :=
  (KerSide.lossK_eq nb bb nq tq nk tk C k hk hNk cs c s).trans
    (RefSide.lossR_eq (nb * bb) (nq * tq) (nk * tk) C k hk hNk cs c s).symm

/-- An array of extended reals all of whose entries are real is the coercion of an array of reals. -/
theorem exists_up {B N C : ℕ} (x : Fin B → Fin N → Fin C → EReal) (h : ∀ b t ch, ∃ r : ℝ, x b t ch = (r : EReal)) :
    ∃ xr : Fin B → Fin N → Fin C → ℝ, x = up xr := by
  choose xr hxr using h
  exact ⟨xr, funext fun b => funext fun t => funext fun ch => hxr b t ch⟩

/-- The same for arrays whose entries are real, not yet named as coercions. -/
theorem level_eq' (nb bb nq tq nk tk C : ℕ) (k : Consts) (hk : k.Pos) (hNk : 0 < nk * tk)
    (cs c : Fin (nb * bb) → Fin (nq * tq) → Fin C → EReal) (s : Fin (nb * bb) → Fin (nk * tk) → Fin C → EReal)
    (hcs : ∀ b t ch, ∃ r : ℝ, cs b t ch = (r : EReal)) (hc : ∀ b t ch, ∃ r : ℝ, c b t ch = (r : EReal))
    (hs : ∀ b t ch, ∃ r : ℝ, s b t ch = (r : EReal)) :
    lossK nb bb nq tq nk tk k cs c s = lossR k cs c s := by
  obtain ⟨csr, rfl⟩ := exists_up cs hcs
  obtain ⟨cr, rfl⟩ := exists_up c hc
  obtain ⟨sr, rfl⟩ := exists_up s hs
  exact level_eq nb bb nq tq nk tk C k hk hNk csr cr sr

end Cert.Total

end
-- ==== Proof.Bridge.lean ====
/-
  The three levels together: for argument arrays all of whose entries are real numbers, the kernel's
  `(l₂ + l₃) + l₄` is the reference's.
-/
import proofs.«170986_j45183055954173_2_alg».proof.Proof.Total
import proofs.«170986_j45183055954173_2_alg».proof.Proof.Arr

noncomputable section

namespace Cert.Bridge

open Idealize.ShloMosaic Cert.Spec Cert.Consts Cert.Arr

/-- Flattening the spatial axes keeps "every entry is real". -/
theorem flat_real {B H W C : ℕ} (x : (⟨4, ![B, H, W, C]⟩ : Shape).Idx → EReal) (h : ∀ i, ∃ r : ℝ, x i = (r : EReal))
    (b : Fin B) (t : Fin (H * W)) (ch : Fin C) : ∃ r : ℝ, flat x b t ch = (r : EReal) := h _

/-- Level 2: tiles of 2 batch entries by 512 queries, key blocks of 1024, over 4 × 4096 × 256. -/
theorem level2 (cs c s : (⟨4, ![4, 64, 64, 256]⟩ : Shape).Idx → EReal)
    (hcs : ∀ i, ∃ r : ℝ, cs i = (r : EReal)) (hc : ∀ i, ∃ r : ℝ, c i = (r : EReal)) (hs : ∀ i, ∃ r : ℝ, s i = (r : EReal)) :
    lossK 2 2 8 512 4 1024 k2 (flat (B := 4) (H := 64) (W := 64) (C := 256) cs) (flat (B := 4) (H := 64) (W := 64) (C := 256) c) (flat (B := 4) (H := 64) (W := 64) (C := 256) s)
      = lossR k2 (flat (B := 4) (H := 64) (W := 64) (C := 256) cs) (flat (B := 4) (H := 64) (W := 64) (C := 256) c) (flat (B := 4) (H := 64) (W := 64) (C := 256) s) :=
  Cert.Total.level_eq' 2 2 8 512 4 1024 256 k2 k2_pos (by norm_num) (flat (B := 4) (H := 64) (W := 64) (C := 256) cs) (flat (B := 4) (H := 64) (W := 64) (C := 256) c) (flat (B := 4) (H := 64) (W := 64) (C := 256) s)
    (flat_real cs hcs) (flat_real c hc) (flat_real s hs)

/-- Level 3: tiles of 2 by 512, key blocks of 512, over 4 × 1024 × 512. -/
theorem level3 (cs c s : (⟨4, ![4, 32, 32, 512]⟩ : Shape).Idx → EReal)
    (hcs : ∀ i, ∃ r : ℝ, cs i = (r : EReal)) (hc : ∀ i, ∃ r : ℝ, c i = (r : EReal)) (hs : ∀ i, ∃ r : ℝ, s i = (r : EReal)) :
    lossK 2 2 2 512 2 512 k3 (flat (B := 4) (H := 32) (W := 32) (C := 512) cs) (flat (B := 4) (H := 32) (W := 32) (C := 512) c) (flat (B := 4) (H := 32) (W := 32) (C := 512) s)
      = lossR k3 (flat (B := 4) (H := 32) (W := 32) (C := 512) cs) (flat (B := 4) (H := 32) (W := 32) (C := 512) c) (flat (B := 4) (H := 32) (W := 32) (C := 512) s) :=
  Cert.Total.level_eq' 2 2 2 512 2 512 512 k3 k3_pos (by norm_num) (flat (B := 4) (H := 32) (W := 32) (C := 512) cs) (flat (B := 4) (H := 32) (W := 32) (C := 512) c) (flat (B := 4) (H := 32) (W := 32) (C := 512) s)
    (flat_real cs hcs) (flat_real c hc) (flat_real s hs)

/-- Level 4: tiles of 2 by 256, one key block of 256, over 4 × 256 × 512. -/
theorem level4 (cs c s : (⟨4, ![4, 16, 16, 512]⟩ : Shape).Idx → EReal)
    (hcs : ∀ i, ∃ r : ℝ, cs i = (r : EReal)) (hc : ∀ i, ∃ r : ℝ, c i = (r : EReal)) (hs : ∀ i, ∃ r : ℝ, s i = (r : EReal)) :
    lossK 2 2 1 256 1 256 k4 (flat (B := 4) (H := 16) (W := 16) (C := 512) cs) (flat (B := 4) (H := 16) (W := 16) (C := 512) c) (flat (B := 4) (H := 16) (W := 16) (C := 512) s)
      = lossR k4 (flat (B := 4) (H := 16) (W := 16) (C := 512) cs) (flat (B := 4) (H := 16) (W := 16) (C := 512) c) (flat (B := 4) (H := 16) (W := 16) (C := 512) s) :=
  Cert.Total.level_eq' 2 2 1 256 1 256 512 k4 k4_pos (by norm_num) (flat (B := 4) (H := 16) (W := 16) (C := 512) cs) (flat (B := 4) (H := 16) (W := 16) (C := 512) c) (flat (B := 4) (H := 16) (W := 16) (C := 512) s)
    (flat_real cs hcs) (flat_real c hc) (flat_real s hs)

end Cert.Bridge

end
-- ==== Proof.Finite.lean ====
/-
  The precondition read entry by entry: `finite_inputs` is the conjunction, over the nine argument arrays, of
  "every entry's absolute value is below +∞"; an extended real whose absolute value is below +∞ is a real
  number.  So under the precondition every argument array is an array of reals.
-/
import proofs.«170986_j45183055954173_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- The pattern of +∞ denotes `⊤`. -/
theorem ofBits_inf : Ideal.ofBits .f32 0x7F800000#32 = ⊤ := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- One array's conjunct: every entry is a real number. -/
theorem reals_of_all {s : Shape} (x : FVec Ideal s .f32) (hb : S_.BroadcastsInDim s (![] : Fin 0 → Fin s.rank))
    {axes : List (Fin s.rank)} (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) (i : s.Idx) : ∃ r : ℝ, x i = (r : EReal) :=
  real_of_abs_lt (x i) (Host.reduce_andi_all _ _ hr hu ValueIdx.ix0 e i)

/-- Under `finite_inputs` every entry of each of the nine argument arrays is a real number. -/
theorem reals_of_pre [Facts]
    (x0 : FVec Ideal S4x64x64x256 .f32) (x1 : FVec Ideal S4x32x32x512 .f32) (x2 : FVec Ideal S4x16x16x512 .f32)
    (x3 : FVec Ideal S4x64x64x256 .f32) (x4 : FVec Ideal S4x32x32x512 .f32) (x5 : FVec Ideal S4x16x16x512 .f32)
    (x6 : FVec Ideal S4x64x64x256 .f32) (x7 : FVec Ideal S4x32x32x512 .f32) (x8 : FVec Ideal S4x16x16x512 .f32)
    (h : fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal)) := by
  have e := congrFun h ValueIdx.ix0
  dsimp only [fn, fn_part1, fn_part2] at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨reals_of_all x0 _ _ _ e0, reals_of_all x1 _ _ _ e1, reals_of_all x2 _ _ _ e2, reals_of_all x3 _ _ _ e3,
    reals_of_all x4 _ _ _ e4, reals_of_all x5 _ _ _ e5, reals_of_all x6 _ _ _ e6, reals_of_all x7 _ _ _ e7,
    reals_of_all x8 _ _ _ e8⟩

/-- An array of reals behind an array of extended reals whose entries are all real. -/
theorem exists_real {ι : Type} (x : ι → EReal) (h : ∀ i, ∃ r : ℝ, x i = (r : EReal)) : ∃ xr : ι → ℝ, x = fun i => (xr i : EReal) := by
  choose xr hxr using h
  exact ⟨xr, funext hxr⟩

end Cert.Finite

end
-- ==== Proof.lean ====
/-
  The five claims.

  The kernel program — word-level and idealized, the same text — runs three kernel regions between stretches of host
  operations.  Each region is a pipeline over a grid (batch tile, query tile, key step) whose body keeps five
  scratch buffers between the key steps of a tile: the sum of the weights, the weighted sums of the style's values
  and of their squares, the normalised content block and its l2-normalised form; the first step of a tile stores
  them all, each later step adds its key block, and the last step turns them into the tile's sum of squared errors,
  written into every entry of an 8 × 128 output block.  Every weakly fair execution terminates without a fault and
  leaves the arguments alone; the reference, a host program, runs as the sequence of its operations.

  At the ideal instance the kernel ends at  (l₂ + l₃) + l₄ , each level's loss in the kernel's spelling (products
  with reciprocal deviations, exponential weights scaled by the reciprocal of their sum at the end, 1024 copies of
  each tile's sum divided by 1024), and the reference at the same sum in its own spelling (quotients, a softmax
  shifted by the row maximum).  Under the precondition every argument entry is a real number, every intermediate
  quantity is then a real number, and the two spellings are one real loss.
-/
import proofs.«170986_j45183055954173_2_alg».proof.Defs
import proofs.«170986_j45183055954173_2_alg».proof.Proof.Gen.Kernel
import proofs.«170986_j45183055954173_2_alg».proof.Proof.Gen.KernelIdeal
import proofs.«170986_j45183055954173_2_alg».proof.Proof.Gen.ReferenceIdeal
import proofs.«170986_j45183055954173_2_alg».proof.Proof.Gen.Pre_finite_inputs
import proofs.«170986_j45183055954173_2_alg».proof.Proof.K.Main
import proofs.«170986_j45183055954173_2_alg».proof.Proof.KI.Main
import proofs.«170986_j45183055954173_2_alg».proof.Proof.KI.ValueFinal
import proofs.«170986_j45183055954173_2_alg».proof.Proof.Ref.Run
import proofs.«170986_j45183055954173_2_alg».proof.Proof.Ref.Result
import proofs.«170986_j45183055954173_2_alg».proof.Proof.Bridge
import proofs.«170986_j45183055954173_2_alg».proof.Proof.Finite

noncomputable section

namespace Cert.Proof

open Idealize.ShloMosaic Idealize.ShloMosaic.TcCoe Idealize.SL.Sem

/-- The word-level kernel runs and leaves its arguments alone. -/
theorem frame_k : Cert.frame_Kernel :=
  fun m ρ _ => Cert.Kernel.Hand.frame (F := Bits) m ρ

/-- So does its idealization: the same launch read at the ideal instance. -/
theorem frame_ki : Cert.frame_KernelIdeal :=
  fun m ρ _ => Cert.KernelIdeal.Hand.frame (F := Ideal) m ρ

/-- The reference runs as the sequence of its host operations, none of which writes an argument. -/
theorem frame_ri : Cert.frame_ReferenceIdeal :=
  fun m ρ _ => Cert.ReferenceIdeal.Hand.frame (F := Ideal) m ρ

/-- The ideal pass rewrote nothing: the idealization is the program's own text. -/
theorem preserves : Cert.preserves_Kernel_KernelIdeal := trivial

/-- From memories that agree on the arguments both programs end at the same extended real: the kernel at the sum
    of its three level losses, the reference at the sum of its own, and level by level the two are equal because
    the precondition makes every argument entry a real number. -/
theorem algebraic : Cert.algebraic_KernelIdeal_ReferenceIdeal := by
  intro m ρ m' ρ' hpre hagree
  refine ⟨fun c => Cert.KernelIdeal.Gen.V19 m (Cert.KernelIdeal.Hand.outs m) c Cert.KernelIdeal.main_v94,
    Cert.KernelIdeal.Hand.run_value (F := Ideal) m ρ, ?_⟩
  refine (θ_run (Cert.ReferenceIdeal.defs (F := Ideal)) _ _).mono (fun r h c => ⟨(h c).1.trans ?_, (h c).2⟩)
    (Cert.ReferenceIdeal.Hand.run (F := Ideal) m' ρ')
  obtain ⟨e0, e1, e2, e3, e4, e5, e6, e7, e8⟩ := hagree c
  obtain ⟨r0, r1, r2, r3, r4, r5, r6, r7, r8⟩ := Cert.Finite.reals_of_pre _ _ _ _ _ _ _ _ _ (hpre c)
  beta_reduce
  rw [Cert.ReferenceIdeal.Hand.ref_value m' c, Cert.KernelIdeal.Hand.kernel_value m c, e0, e1, e2, e3, e4, e5, e6, e7, e8]
  rw [Cert.Bridge.level2 _ _ _ r0 r3 r6, Cert.Bridge.level3 _ _ _ r1 r4 r7, Cert.Bridge.level4 _ _ _ r2 r5 r8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
